-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x32x128 : Shape := ⟨3, ![10000, 32, 128]⟩
abbrev S10000x128 : Shape := ⟨2, ![10000, 128]⟩
abbrev S128x256 : Shape := ⟨2, ![128, 256]⟩
abbrev S128 : Shape := ⟨1, ![128]⟩
abbrev S_ : Shape := ⟨0, ![]⟩

class Facts : Prop where
  bcast_S_S10000x32x128 : S_.BroadcastsInDim S10000x32x128 (![] : Fin 0 → Fin S10000x32x128.rank)
  reducesTo_S10000x32x128_S_d0_1_2 : S10000x32x128.ReducesTo [0, 1, 2] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x32x128 .f32) (main_arg1 : FVec F S10000x128 .f32) (main_arg2 : FVec F S128x256 .f32) (main_arg3 : FVec F S128 .f32) : IVec S_ 1 :=
  let main_v0 : FVec F S10000x32x128 .f32 := Host.absf main_arg0
  let main_cst : FVec F S_ .f32 := constant S_ .f32 0x7F800000#32
  let main_v1 : FVec F S10000x32x128 .f32 := broadcastInDim S10000x32x128 ![] bcast_S_S10000x32x128 main_cst
  let main_v2 : IVec S10000x32x128 1 := cmpf .olt main_v0 main_v1
  let main_c : IVec S_ 1 := constantI S_ 1 1#1
  let main_v3 : IVec S_ 1 := (fun x v => Host.reduce IntOp.andi x v reducesTo_S10000x32x128_S_d0_1_2 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x32x128 : Shape := ⟨3, ![10000, 32, 128]⟩
abbrev S10000x128 : Shape := ⟨2, ![10000, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S2x8x32x128 : Shape := ⟨4, ![2, 8, 32, 128]⟩
abbrev S2x8x128 : Shape := ⟨3, ![2, 8, 128]⟩
abbrev S2 : Shape := ⟨1, ![2]⟩
abbrev S1x8x32x128 : Shape := ⟨4, ![1, 8, 32, 128]⟩
abbrev S8x32x128 : Shape := ⟨3, ![8, 32, 128]⟩
abbrev S1 : Shape := ⟨1, ![1]⟩
abbrev S_ : Shape := ⟨0, ![]⟩
abbrev S1x1x1x16 : Shape := ⟨4, ![1, 1, 1, 16]⟩
abbrev S16 : Shape := ⟨1, ![16]⟩
abbrev S1x1x16 : Shape := ⟨3, ![1, 1, 16]⟩
abbrev S1x8x128 : Shape := ⟨3, ![1, 8, 128]⟩
abbrev S8x128 : Shape := ⟨2, ![8, 128]⟩
abbrev S2000x128 : Shape := ⟨2, ![2000, 128]⟩

abbrev nBuf : Table → Nat
  | .hbm => 11
  | .local .tc .vmem => 9
  | .local .scVector .vmem => 2
  | _ => 0

abbrev bufTy : (tb : Table) → Fin (nBuf tb) → BufTy
  | .hbm, ⟨0, _⟩ => ⟨S10000x32x128, .f32⟩
  | .hbm, ⟨1, _⟩ => ⟨S10000x128, .f32⟩
  | .hbm, ⟨2, _⟩ => ⟨S128x256, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S1x128, .f32⟩
  | .hbm, ⟨9, _⟩ => ⟨S10000x128, .f32⟩
  | .hbm, ⟨10, _⟩ => ⟨S10000x128, .f32⟩
  | .local .tc .vmem, ⟨0, _⟩ => ⟨S2000x128, .f32⟩
  | .local .tc .vmem, ⟨1, _⟩ => ⟨S2000x128, .f32⟩
  | .local .tc .vmem, ⟨2, _⟩ => ⟨S2000x128, .f32⟩
  | .local .tc .vmem, ⟨3, _⟩ => ⟨S2000x128, .f32⟩
  | .local .tc .vmem, ⟨4, _⟩ => ⟨S128x128, .f32⟩
  | .local .tc .vmem, ⟨5, _⟩ => ⟨S128x128, .f32⟩
  | .local .tc .vmem, ⟨6, _⟩ => ⟨S1x128, .f32⟩
  | .local .tc .vmem, ⟨7, _⟩ => ⟨S2000x128, .f32⟩
  | .local .tc .vmem, ⟨8, _⟩ => ⟨S2000x128, .f32⟩
  | .local .scVector .vmem, ⟨0, _⟩ => ⟨S2x8x32x128, .f32⟩
  | .local .scVector .vmem, ⟨1, _⟩ => ⟨S2x8x128, .f32⟩
  | _, _ => ⟨S10000x32x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg0_scv : Ref sig .scVector := ⟨.hbm, 0, rfl⟩
abbrev main_v5_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let v3 : BitVec 32 := Scalar.extui v2
  let v4 : BitVec 32 := Scalar.addi c39_i32 v3
  let c0_i32 : BitVec 32 := 0#32
  let v5 : BitVec 1 := Scalar.cmpi .sgt v4 c0_i32
  let c0_i32_1 : BitVec 32 := 0#32
  let v6 : BitVec 32 := Scalar.addi v1 c0_i32_1
  let v7 : BitVec 32 := Scalar.select v5 v6 v1
  let c8_i32 : BitVec 32 := 8#32
  let v8 : BitVec 32 := Scalar.muli v7 c8_i32
  let c0_i32_7 : BitVec 32 := 0#32
  let c0_i32_8 : BitVec 32 := 0#32
  ![v8.toNat, 0, 0]
@[reducible] def k0_t1_loop : Scf.Loop 32 :=
  let c0_i32_15 : BitVec 32 := 0#32
  let c20_i32 : BitVec 32 := 20#32
  let v17 : BitVec 32 := Scalar.addi c0_i32_15 c20_i32
  let c1_i32 : BitVec 32 := 1#32
  ⟨c0_i32_15, v17, c1_i32⟩
def k0_off2 (i : grid0.Coords) (k0_t1 : Fin k0_t1_loop.trips) (c0_i32_18 : BitVec 32) : Fin 3 → Nat :=
  let c2_i32_17 : BitVec 32 := 2#32
  let c0_i32_15 : BitVec 32 := 0#32
  let c1_i32 : BitVec 32 := 1#32
  let arg7 : BitVec 32 := Scf.iv c0_i32_15 c1_i32 k0_t1
  let v18 : BitVec 32 := Scalar.muli c2_i32_17 arg7
  let v19 : BitVec 32 := Scalar.addi v18 c0_i32_18
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let v3 : BitVec 32 := Scalar.extui v2
  let v4 : BitVec 32 := Scalar.addi c39_i32 v3
  let v20 : BitVec 1 := Scalar.cmpi .slt v19 v4
  let c32_i32 : BitVec 32 := 32#32
  let v21 : BitVec 32 := Scalar.muli c32_i32 v19
  let v22 : BitVec 32 := Scalar.addi v1 v21
  let v23 : BitVec 32 := Scalar.select v20 v22 v1
  let c8_i32_19 : BitVec 32 := 8#32
  let v24 : BitVec 32 := Scalar.muli v23 c8_i32_19
  let c0_i32_25 : BitVec 32 := 0#32
  let c0_i32_26 : BitVec 32 := 0#32
  ![v24.toNat, 0, 0]
def k0_cond1 (k0_t1 : Fin k0_t1_loop.trips) : BitVec 1 :=
  let c2_i32_17 : BitVec 32 := 2#32
  let c0_i32_15 : BitVec 32 := 0#32
  let c1_i32 : BitVec 32 := 1#32
  let arg7 : BitVec 32 := Scf.iv c0_i32_15 c1_i32 k0_t1
  let v18 : BitVec 32 := Scalar.muli c2_i32_17 arg7
  let c0_i32_18 : BitVec 32 := 0#32
  let v19 : BitVec 32 := Scalar.addi v18 c0_i32_18
  let c1_i32_32 : BitVec 32 := 1#32
  let v33 : BitVec 32 := Scalar.addi v19 c1_i32_32
  let c40_i32 : BitVec 32 := 40#32
  let v34 : BitVec 1 := Scalar.cmpi .slt v33 c40_i32
  let v35 : BitVec 32 := Scalar.extui v34
  let c0_i32_33 : BitVec 32 := 0#32
  let v36 : BitVec 1 := Scalar.cmpi .ne v35 c0_i32_33
  v36

def k0_off3 (i : grid0.Coords) (k0_t1 : Fin k0_t1_loop.trips) : Fin 3 → Nat :=
  let c2_i32_17 : BitVec 32 := 2#32
  let c0_i32_15 : BitVec 32 := 0#32
  let c1_i32 : BitVec 32 := 1#32
  let arg7 : BitVec 32 := Scf.iv c0_i32_15 c1_i32 k0_t1
  let v18 : BitVec 32 := Scalar.muli c2_i32_17 arg7
  let c0_i32_18 : BitVec 32 := 0#32
  let v19 : BitVec 32 := Scalar.addi v18 c0_i32_18
  let c1_i32_67 : BitVec 32 := 1#32
  let v60 : BitVec 32 := Scalar.addi v19 c1_i32_67
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let v3 : BitVec 32 := Scalar.extui v2
  let v4 : BitVec 32 := Scalar.addi c39_i32 v3
  let v61 : BitVec 1 := Scalar.cmpi .slt v60 v4
  let c32_i32_68 : BitVec 32 := 32#32
  let v62 : BitVec 32 := Scalar.muli c32_i32_68 v60
  let v63 : BitVec 32 := Scalar.addi v1 v62
  let v64 : BitVec 32 := Scalar.select v61 v63 v1
  let c8_i32_69 : BitVec 32 := 8#32
  let v65 : BitVec 32 := Scalar.muli v64 c8_i32_69
  let c0_i32_75 : BitVec 32 := 0#32
  let c0_i32_76 : BitVec 32 := 0#32
  ![v65.toNat, 0, 0]
@[reducible] def k0_t2_loop : Scf.Loop 32 :=
  let c0_i32_35 : BitVec 32 := 0#32
  let c8_i32_36 : BitVec 32 := 8#32
  let v37 : BitVec 32 := Scalar.addi c0_i32_35 c8_i32_36
  let c1_i32_37 : BitVec 32 := 1#32
  ⟨c0_i32_35, v37, c1_i32_37⟩
def k0_off4 (k0_t2 : Fin k0_t2_loop.trips) : Fin 4 → Nat :=
  let c0_i32_67 : BitVec 32 := 0#32
  let v60 : Index := Scalar.indexCast c0_i32_67
  let c0_i32_35 : BitVec 32 := 0#32
  let c1_i32_37 : BitVec 32 := 1#32
  let arg8 : BitVec 32 := Scf.iv c0_i32_35 c1_i32_37 k0_t2
  let v61 : Index := Scalar.indexCast arg8
  let c0_i32_68 : BitVec 32 := 0#32
  let v62 : Index := Scalar.indexCast c0_i32_68
  let c0 : Index := 0#32
  ![0, v61.toNat, 0, 0]
def k0_off5 (k0_t2 : Fin k0_t2_loop.trips) : Fin 4 → Nat :=
  let c0_i32_69 : BitVec 32 := 0#32
  let v65 : Index := Scalar.indexCast c0_i32_69
  let c0_i32_35 : BitVec 32 := 0#32
  let c1_i32_37 : BitVec 32 := 1#32
  let arg8 : BitVec 32 := Scf.iv c0_i32_35 c1_i32_37 k0_t2
  let v66 : Index := Scalar.indexCast arg8
  let c1_i32_70 : BitVec 32 := 1#32
  let v67 : Index := Scalar.indexCast c1_i32_70
  let c0_71 : Index := 0#32
  ![0, v66.toNat, 1, 0]
def k0_off6 (k0_t2 : Fin k0_t2_loop.trips) : Fin 4 → Nat :=
  let c0_i32_72 : BitVec 32 := 0#32
  let v71 : Index := Scalar.indexCast c0_i32_72
  let c0_i32_35 : BitVec 32 := 0#32
  let c1_i32_37 : BitVec 32 := 1#32
  let arg8 : BitVec 32 := Scf.iv c0_i32_35 c1_i32_37 k0_t2
  let v72 : Index := Scalar.indexCast arg8
  let c2_i32_73 : BitVec 32 := 2#32
  let v73 : Index := Scalar.indexCast c2_i32_73
  let c0_74 : Index := 0#32
  ![0, v72.toNat, 2, 0]
def k0_off7 (k0_t2 : Fin k0_t2_loop.trips) : Fin 4 → Nat :=
  let c0_i32_75 : BitVec 32 := 0#32
  let v77 : Index := Scalar.indexCast c0_i32_75
  let c0_i32_35 : BitVec 32 := 0#32
  let c1_i32_37 : BitVec 32 := 1#32
  let arg8 : BitVec 32 := Scf.iv c0_i32_35 c1_i32_37 k0_t2
  let v78 : Index := Scalar.indexCast arg8
  let c3_i32 : BitVec 32 := 3#32
  let v79 : Index := Scalar.indexCast c3_i32
  let c0_76 : Index := 0#32
  ![0, v78.toNat, 3, 0]
def k0_off8 (k0_t2 : Fin k0_t2_loop.trips) : Fin 4 → Nat :=
  let c0_i32_77 : BitVec 32 := 0#32
  let v83 : Index := Scalar.indexCast c0_i32_77
  let c0_i32_35 : BitVec 32 := 0#32
  let c1_i32_37 : BitVec 32 := 1#32
  let arg8 : BitVec 32 := Scf.iv c0_i32_35 c1_i32_37 k0_t2
  let v84 : Index := Scalar.indexCast arg8
  let c4_i32 : BitVec 32 := 4#32
  let v85 : Index := Scalar.indexCast c4_i32
  let c0_78 : Index := 0#32
  ![0, v84.toNat, 4, 0]
def k0_off9 (k0_t2 : Fin k0_t2_loop.trips) : Fin 4 → Nat :=
  let c0_i32_79 : BitVec 32 := 0#32
  let v89 : Index := Scalar.indexCast c0_i32_79
  let c0_i32_35 : BitVec 32 := 0#32
  let c1_i32_37 : BitVec 32 := 1#32
  let arg8 : BitVec 32 := Scf.iv c0_i32_35 c1_i32_37 k0_t2
  let v90 : Index := Scalar.indexCast arg8
  let c5_i32 : BitVec 32 := 5#32
  let v91 : Index := Scalar.indexCast c5_i32
  let c0_80 : Index := 0#32
  ![0, v90.toNat, 5, 0]
def k0_off10 (k0_t2 : Fin k0_t2_loop.trips) : Fin 4 → Nat :=
  let c0_i32_81 : BitVec 32 := 0#32
  let v95 : Index := Scalar.indexCast c0_i32_81
  let c0_i32_35 : BitVec 32 := 0#32
  let c1_i32_37 : BitVec 32 := 1#32
  let arg8 : BitVec 32 := Scf.iv c0_i32_35 c1_i32_37 k0_t2
  let v96 : Index := Scalar.indexCast arg8
  let c6_i32 : BitVec 32 := 6#32
  let v97 : Index := Scalar.indexCast c6_i32
  let c0_82 : Index := 0#32
  ![0, v96.toNat, 6, 0]
def k0_off11 (k0_t2 : Fin k0_t2_loop.trips) : Fin 4 → Nat :=
  let c0_i32_83 : BitVec 32 := 0#32
  let v101 : Index := Scalar.indexCast c0_i32_83
  let c0_i32_35 : BitVec 32 := 0#32
  let c1_i32_37 : BitVec 32 := 1#32
  let arg8 : BitVec 32 := Scf.iv c0_i32_35 c1_i32_37 k0_t2
  let v102 : Index := Scalar.indexCast arg8
  let c7_i32 : BitVec 32 := 7#32
  let v103 : Index := Scalar.indexCast c7_i32
  let c0_84 : Index := 0#32
  ![0, v102.toNat, 7, 0]
def k0_off12 (k0_t2 : Fin k0_t2_loop.trips) : Fin 4 → Nat :=
  let c0_i32_85 : BitVec 32 := 0#32
  let v107 : Index := Scalar.indexCast c0_i32_85
  let c0_i32_35 : BitVec 32 := 0#32
  let c1_i32_37 : BitVec 32 := 1#32
  let arg8 : BitVec 32 := Scf.iv c0_i32_35 c1_i32_37 k0_t2
  let v108 : Index := Scalar.indexCast arg8
  let c8_i32_86 : BitVec 32 := 8#32
  let v109 : Index := Scalar.indexCast c8_i32_86
  let c0_87 : Index := 0#32
  ![0, v108.toNat, 8, 0]
def k0_off13 (k0_t2 : Fin k0_t2_loop.trips) : Fin 4 → Nat :=
  let c0_i32_88 : BitVec 32 := 0#32
  let v113 : Index := Scalar.indexCast c0_i32_88
  let c0_i32_35 : BitVec 32 := 0#32
  let c1_i32_37 : BitVec 32 := 1#32
  let arg8 : BitVec 32 := Scf.iv c0_i32_35 c1_i32_37 k0_t2
  let v114 : Index := Scalar.indexCast arg8
  let c9_i32 : BitVec 32 := 9#32
  let v115 : Index := Scalar.indexCast c9_i32
  let c0_89 : Index := 0#32
  ![0, v114.toNat, 9, 0]
def k0_off14 (k0_t2 : Fin k0_t2_loop.trips) : Fin 4 → Nat :=
  let c0_i32_90 : BitVec 32 := 0#32
  let v119 : Index := Scalar.indexCast c0_i32_90
  let c0_i32_35 : BitVec 32 := 0#32
  let c1_i32_37 : BitVec 32 := 1#32
  let arg8 : BitVec 32 := Scf.iv c0_i32_35 c1_i32_37 k0_t2
  let v120 : Index := Scalar.indexCast arg8
  let c10_i32 : BitVec 32 := 10#32
  let v121 : Index := Scalar.indexCast c10_i32
  let c0_91 : Index := 0#32
  ![0, v120.toNat, 10, 0]
def k0_off15 (k0_t2 : Fin k0_t2_loop.trips) : Fin 4 → Nat :=
  let c0_i32_92 : BitVec 32 := 0#32
  let v125 : Index := Scalar.indexCast c0_i32_92
  let c0_i32_35 : BitVec 32 := 0#32
  let c1_i32_37 : BitVec 32 := 1#32
  let arg8 : BitVec 32 := Scf.iv c0_i32_35 c1_i32_37 k0_t2
  let v126 : Index := Scalar.indexCast arg8
  let c11_i32 : BitVec 32 := 11#32
  let v127 : Index := Scalar.indexCast c11_i32
  let c0_93 : Index := 0#32
  ![0, v126.toNat, 11, 0]
def k0_off16 (k0_t2 : Fin k0_t2_loop.trips) : Fin 4 → Nat :=
  let c0_i32_94 : BitVec 32 := 0#32
  let v131 : Index := Scalar.indexCast c0_i32_94
  let c0_i32_35 : BitVec 32 := 0#32
  let c1_i32_37 : BitVec 32 := 1#32
  let arg8 : BitVec 32 := Scf.iv c0_i32_35 c1_i32_37 k0_t2
  let v132 : Index := Scalar.indexCast arg8
  let c12_i32 : BitVec 32 := 12#32
  let v133 : Index := Scalar.indexCast c12_i32
  let c0_95 : Index := 0#32
  ![0, v132.toNat, 12, 0]
def k0_off17 (k0_t2 : Fin k0_t2_loop.trips) : Fin 4 → Nat :=
  let c0_i32_96 : BitVec 32 := 0#32
  let v137 : Index := Scalar.indexCast c0_i32_96
  let c0_i32_35 : BitVec 32 := 0#32
  let c1_i32_37 : BitVec 32 := 1#32
  let arg8 : BitVec 32 := Scf.iv c0_i32_35 c1_i32_37 k0_t2
  let v138 : Index := Scalar.indexCast arg8
  let c13_i32 : BitVec 32 := 13#32
  let v139 : Index := Scalar.indexCast c13_i32
  let c0_97 : Index := 0#32
  ![0, v138.toNat, 13, 0]
def k0_off18 (k0_t2 : Fin k0_t2_loop.trips) : Fin 4 → Nat :=
  let c0_i32_98 : BitVec 32 := 0#32
  let v143 : Index := Scalar.indexCast c0_i32_98
  let c0_i32_35 : BitVec 32 := 0#32
  let c1_i32_37 : BitVec 32 := 1#32
  let arg8 : BitVec 32 := Scf.iv c0_i32_35 c1_i32_37 k0_t2
  let v144 : Index := Scalar.indexCast arg8
  let c14_i32 : BitVec 32 := 14#32
  let v145 : Index := Scalar.indexCast c14_i32
  let c0_99 : Index := 0#32
  ![0, v144.toNat, 14, 0]
def k0_off19 (k0_t2 : Fin k0_t2_loop.trips) : Fin 4 → Nat :=
  let c0_i32_100 : BitVec 32 := 0#32
  let v149 : Index := Scalar.indexCast c0_i32_100
  let c0_i32_35 : BitVec 32 := 0#32
  let c1_i32_37 : BitVec 32 := 1#32
  let arg8 : BitVec 32 := Scf.iv c0_i32_35 c1_i32_37 k0_t2
  let v150 : Index := Scalar.indexCast arg8
  let c15_i32 : BitVec 32 := 15#32
  let v151 : Index := Scalar.indexCast c15_i32
  let c0_101 : Index := 0#32
  ![0, v150.toNat, 15, 0]
def k0_off20 (k0_t2 : Fin k0_t2_loop.trips) : Fin 4 → Nat :=
  let c0_i32_102 : BitVec 32 := 0#32
  let v155 : Index := Scalar.indexCast c0_i32_102
  let c0_i32_35 : BitVec 32 := 0#32
  let c1_i32_37 : BitVec 32 := 1#32
  let arg8 : BitVec 32 := Scf.iv c0_i32_35 c1_i32_37 k0_t2
  let v156 : Index := Scalar.indexCast arg8
  let c16_i32 : BitVec 32 := 16#32
  let v157 : Index := Scalar.indexCast c16_i32
  let c0_103 : Index := 0#32
  ![0, v156.toNat, 16, 0]
def k0_off21 (k0_t2 : Fin k0_t2_loop.trips) : Fin 4 → Nat :=
  let c0_i32_104 : BitVec 32 := 0#32
  let v161 : Index := Scalar.indexCast c0_i32_104
  let c0_i32_35 : BitVec 32 := 0#32
  let c1_i32_37 : BitVec 32 := 1#32
  let arg8 : BitVec 32 := Scf.iv c0_i32_35 c1_i32_37 k0_t2
  let v162 : Index := Scalar.indexCast arg8
  let c17_i32 : BitVec 32 := 17#32
  let v163 : Index := Scalar.indexCast c17_i32
  let c0_105 : Index := 0#32
  ![0, v162.toNat, 17, 0]
def k0_off22 (k0_t2 : Fin k0_t2_loop.trips) : Fin 4 → Nat :=
  let c0_i32_106 : BitVec 32 := 0#32
  let v167 : Index := Scalar.indexCast c0_i32_106
  let c0_i32_35 : BitVec 32 := 0#32
  let c1_i32_37 : BitVec 32 := 1#32
  let arg8 : BitVec 32 := Scf.iv c0_i32_35 c1_i32_37 k0_t2
  let v168 : Index := Scalar.indexCast arg8
  let c18_i32 : BitVec 32 := 18#32
  let v169 : Index := Scalar.indexCast c18_i32
  let c0_107 : Index := 0#32
  ![0, v168.toNat, 18, 0]
def k0_off23 (k0_t2 : Fin k0_t2_loop.trips) : Fin 4 → Nat :=
  let c0_i32_108 : BitVec 32 := 0#32
  let v173 : Index := Scalar.indexCast c0_i32_108
  let c0_i32_35 : BitVec 32 := 0#32
  let c1_i32_37 : BitVec 32 := 1#32
  let arg8 : BitVec 32 := Scf.iv c0_i32_35 c1_i32_37 k0_t2
  let v174 : Index := Scalar.indexCast arg8
  let c19_i32 : BitVec 32 := 19#32
  let v175 : Index := Scalar.indexCast c19_i32
  let c0_109 : Index := 0#32
  ![0, v174.toNat, 19, 0]
def k0_off24 (k0_t2 : Fin k0_t2_loop.trips) : Fin 4 → Nat :=
  let c0_i32_110 : BitVec 32 := 0#32
  let v179 : Index := Scalar.indexCast c0_i32_110
  let c0_i32_35 : BitVec 32 := 0#32
  let c1_i32_37 : BitVec 32 := 1#32
  let arg8 : BitVec 32 := Scf.iv c0_i32_35 c1_i32_37 k0_t2
  let v180 : Index := Scalar.indexCast arg8
  let c20_i32_111 : BitVec 32 := 20#32
  let v181 : Index := Scalar.indexCast c20_i32_111
  let c0_112 : Index := 0#32
  ![0, v180.toNat, 20, 0]
def k0_off25 (k0_t2 : Fin k0_t2_loop.trips) : Fin 4 → Nat :=
  let c0_i32_113 : BitVec 32 := 0#32
  let v185 : Index := Scalar.indexCast c0_i32_113
  let c0_i32_35 : BitVec 32 := 0#32
  let c1_i32_37 : BitVec 32 := 1#32
  let arg8 : BitVec 32 := Scf.iv c0_i32_35 c1_i32_37 k0_t2
  let v186 : Index := Scalar.indexCast arg8
  let c21_i32 : BitVec 32 := 21#32
  let v187 : Index := Scalar.indexCast c21_i32
  let c0_114 : Index := 0#32
  ![0, v186.toNat, 21, 0]
def k0_off26 (k0_t2 : Fin k0_t2_loop.trips) : Fin 4 → Nat :=
  let c0_i32_115 : BitVec 32 := 0#32
  let v191 : Index := Scalar.indexCast c0_i32_115
  let c0_i32_35 : BitVec 32 := 0#32
  let c1_i32_37 : BitVec 32 := 1#32
  let arg8 : BitVec 32 := Scf.iv c0_i32_35 c1_i32_37 k0_t2
  let v192 : Index := Scalar.indexCast arg8
  let c22_i32 : BitVec 32 := 22#32
  let v193 : Index := Scalar.indexCast c22_i32
  let c0_116 : Index := 0#32
  ![0, v192.toNat, 22, 0]
def k0_off27 (k0_t2 : Fin k0_t2_loop.trips) : Fin 4 → Nat :=
  let c0_i32_117 : BitVec 32 := 0#32
  let v197 : Index := Scalar.indexCast c0_i32_117
  let c0_i32_35 : BitVec 32 := 0#32
  let c1_i32_37 : BitVec 32 := 1#32
  let arg8 : BitVec 32 := Scf.iv c0_i32_35 c1_i32_37 k0_t2
  let v198 : Index := Scalar.indexCast arg8
  let c23_i32 : BitVec 32 := 23#32
  let v199 : Index := Scalar.indexCast c23_i32
  let c0_118 : Index := 0#32
  ![0, v198.toNat, 23, 0]
def k0_off28 (k0_t2 : Fin k0_t2_loop.trips) : Fin 4 → Nat :=
  let c0_i32_119 : BitVec 32 := 0#32
  let v203 : Index := Scalar.indexCast c0_i32_119
  let c0_i32_35 : BitVec 32 := 0#32
  let c1_i32_37 : BitVec 32 := 1#32
  let arg8 : BitVec 32 := Scf.iv c0_i32_35 c1_i32_37 k0_t2
  let v204 : Index := Scalar.indexCast arg8
  let c24_i32 : BitVec 32 := 24#32
  let v205 : Index := Scalar.indexCast c24_i32
  let c0_120 : Index := 0#32
  ![0, v204.toNat, 24, 0]
def k0_off29 (k0_t2 : Fin k0_t2_loop.trips) : Fin 4 → Nat :=
  let c0_i32_121 : BitVec 32 := 0#32
  let v209 : Index := Scalar.indexCast c0_i32_121
  let c0_i32_35 : BitVec 32 := 0#32
  let c1_i32_37 : BitVec 32 := 1#32
  let arg8 : BitVec 32 := Scf.iv c0_i32_35 c1_i32_37 k0_t2
  let v210 : Index := Scalar.indexCast arg8
  let c25_i32 : BitVec 32 := 25#32
  let v211 : Index := Scalar.indexCast c25_i32
  let c0_122 : Index := 0#32
  ![0, v210.toNat, 25, 0]
def k0_off30 (k0_t2 : Fin k0_t2_loop.trips) : Fin 4 → Nat :=
  let c0_i32_123 : BitVec 32 := 0#32
  let v215 : Index := Scalar.indexCast c0_i32_123
  let c0_i32_35 : BitVec 32 := 0#32
  let c1_i32_37 : BitVec 32 := 1#32
  let arg8 : BitVec 32 := Scf.iv c0_i32_35 c1_i32_37 k0_t2
  let v216 : Index := Scalar.indexCast arg8
  let c26_i32 : BitVec 32 := 26#32
  let v217 : Index := Scalar.indexCast c26_i32
  let c0_124 : Index := 0#32
  ![0, v216.toNat, 26, 0]
def k0_off31 (k0_t2 : Fin k0_t2_loop.trips) : Fin 4 → Nat :=
  let c0_i32_125 : BitVec 32 := 0#32
  let v221 : Index := Scalar.indexCast c0_i32_125
  let c0_i32_35 : BitVec 32 := 0#32
  let c1_i32_37 : BitVec 32 := 1#32
  let arg8 : BitVec 32 := Scf.iv c0_i32_35 c1_i32_37 k0_t2
  let v222 : Index := Scalar.indexCast arg8
  let c27_i32 : BitVec 32 := 27#32
  let v223 : Index := Scalar.indexCast c27_i32
  let c0_126 : Index := 0#32
  ![0, v222.toNat, 27, 0]
def k0_off32 (k0_t2 : Fin k0_t2_loop.trips) : Fin 4 → Nat :=
  let c0_i32_127 : BitVec 32 := 0#32
  let v227 : Index := Scalar.indexCast c0_i32_127
  let c0_i32_35 : BitVec 32 := 0#32
  let c1_i32_37 : BitVec 32 := 1#32
  let arg8 : BitVec 32 := Scf.iv c0_i32_35 c1_i32_37 k0_t2
  let v228 : Index := Scalar.indexCast arg8
  let c28_i32 : BitVec 32 := 28#32
  let v229 : Index := Scalar.indexCast c28_i32
  let c0_128 : Index := 0#32
  ![0, v228.toNat, 28, 0]
def k0_off33 (k0_t2 : Fin k0_t2_loop.trips) : Fin 4 → Nat :=
  let c0_i32_129 : BitVec 32 := 0#32
  let v233 : Index := Scalar.indexCast c0_i32_129
  let c0_i32_35 : BitVec 32 := 0#32
  let c1_i32_37 : BitVec 32 := 1#32
  let arg8 : BitVec 32 := Scf.iv c0_i32_35 c1_i32_37 k0_t2
  let v234 : Index := Scalar.indexCast arg8
  let c29_i32 : BitVec 32 := 29#32
  let v235 : Index := Scalar.indexCast c29_i32
  let c0_130 : Index := 0#32
  ![0, v234.toNat, 29, 0]
def k0_off34 (k0_t2 : Fin k0_t2_loop.trips) : Fin 4 → Nat :=
  let c0_i32_131 : BitVec 32 := 0#32
  let v239 : Index := Scalar.indexCast c0_i32_131
  let c0_i32_35 : BitVec 32 := 0#32
  let c1_i32_37 : BitVec 32 := 1#32
  let arg8 : BitVec 32 := Scf.iv c0_i32_35 c1_i32_37 k0_t2
  let v240 : Index := Scalar.indexCast arg8
  let c30_i32 : BitVec 32 := 30#32
  let v241 : Index := Scalar.indexCast c30_i32
  let c0_132 : Index := 0#32
  ![0, v240.toNat, 30, 0]
def k0_off35 (k0_t2 : Fin k0_t2_loop.trips) : Fin 4 → Nat :=
  let c0_i32_133 : BitVec 32 := 0#32
  let v245 : Index := Scalar.indexCast c0_i32_133
  let c0_i32_35 : BitVec 32 := 0#32
  let c1_i32_37 : BitVec 32 := 1#32
  let arg8 : BitVec 32 := Scf.iv c0_i32_35 c1_i32_37 k0_t2
  let v246 : Index := Scalar.indexCast arg8
  let c31_i32 : BitVec 32 := 31#32
  let v247 : Index := Scalar.indexCast c31_i32
  let c0_134 : Index := 0#32
  ![0, v246.toNat, 31, 0]
def k0_off36 (k0_t2 : Fin k0_t2_loop.trips) : Fin 3 → Nat :=
  let c0_i32_135 : BitVec 32 := 0#32
  let v251 : Index := Scalar.indexCast c0_i32_135
  let c0_i32_35 : BitVec 32 := 0#32
  let c1_i32_37 : BitVec 32 := 1#32
  let arg8 : BitVec 32 := Scf.iv c0_i32_35 c1_i32_37 k0_t2
  let v252 : Index := Scalar.indexCast arg8
  let c0_136 : Index := 0#32
  ![0, v252.toNat, 0]
def k0_off37 (k0_t2 : Fin k0_t2_loop.trips) : Fin 4 → Nat :=
  let c0_i32_137 : BitVec 32 := 0#32
  let v256 : Index := Scalar.indexCast c0_i32_137
  let c0_i32_35 : BitVec 32 := 0#32
  let c1_i32_37 : BitVec 32 := 1#32
  let arg8 : BitVec 32 := Scf.iv c0_i32_35 c1_i32_37 k0_t2
  let v257 : Index := Scalar.indexCast arg8
  let c0_i32_138 : BitVec 32 := 0#32
  let v258 : Index := Scalar.indexCast c0_i32_138
  let c16 : Index := 16#32
  ![0, v257.toNat, 0, 16]
def k0_off38 (k0_t2 : Fin k0_t2_loop.trips) : Fin 4 → Nat :=
  let c0_i32_139 : BitVec 32 := 0#32
  let v261 : Index := Scalar.indexCast c0_i32_139
  let c0_i32_35 : BitVec 32 := 0#32
  let c1_i32_37 : BitVec 32 := 1#32
  let arg8 : BitVec 32 := Scf.iv c0_i32_35 c1_i32_37 k0_t2
  let v262 : Index := Scalar.indexCast arg8
  let c1_i32_140 : BitVec 32 := 1#32
  let v263 : Index := Scalar.indexCast c1_i32_140
  let c16_141 : Index := 16#32
  ![0, v262.toNat, 1, 16]
def k0_off39 (k0_t2 : Fin k0_t2_loop.trips) : Fin 4 → Nat :=
  let c0_i32_142 : BitVec 32 := 0#32
  let v267 : Index := Scalar.indexCast c0_i32_142
  let c0_i32_35 : BitVec 32 := 0#32
  let c1_i32_37 : BitVec 32 := 1#32
  let arg8 : BitVec 32 := Scf.iv c0_i32_35 c1_i32_37 k0_t2
  let v268 : Index := Scalar.indexCast arg8
  let c2_i32_143 : BitVec 32 := 2#32
  let v269 : Index := Scalar.indexCast c2_i32_143
  let c16_144 : Index := 16#32
  ![0, v268.toNat, 2, 16]
def k0_off40 (k0_t2 : Fin k0_t2_loop.trips) : Fin 4 → Nat :=
  let c0_i32_145 : BitVec 32 := 0#32
  let v273 : Index := Scalar.indexCast c0_i32_145
  let c0_i32_35 : BitVec 32 := 0#32
  let c1_i32_37 : BitVec 32 := 1#32
  let arg8 : BitVec 32 := Scf.iv c0_i32_35 c1_i32_37 k0_t2
  let v274 : Index := Scalar.indexCast arg8
  let c3_i32_146 : BitVec 32 := 3#32
  let v275 : Index := Scalar.indexCast c3_i32_146
  let c16_147 : Index := 16#32
  ![0, v274.toNat, 3, 16]
def k0_off41 (k0_t2 : Fin k0_t2_loop.trips) : Fin 4 → Nat :=
  let c0_i32_148 : BitVec 32 := 0#32
  let v279 : Index := Scalar.indexCast c0_i32_148
  let c0_i32_35 : BitVec 32 := 0#32
  let c1_i32_37 : BitVec 32 := 1#32
  let arg8 : BitVec 32 := Scf.iv c0_i32_35 c1_i32_37 k0_t2
  let v280 : Index := Scalar.indexCast arg8
  let c4_i32_149 : BitVec 32 := 4#32
  let v281 : Index := Scalar.indexCast c4_i32_149
  let c16_150 : Index := 16#32
  ![0, v280.toNat, 4, 16]
def k0_off42 (k0_t2 : Fin k0_t2_loop.trips) : Fin 4 → Nat :=
  let c0_i32_151 : BitVec 32 := 0#32
  let v285 : Index := Scalar.indexCast c0_i32_151
  let c0_i32_35 : BitVec 32 := 0#32
  let c1_i32_37 : BitVec 32 := 1#32
  let arg8 : BitVec 32 := Scf.iv c0_i32_35 c1_i32_37 k0_t2
  let v286 : Index := Scalar.indexCast arg8
  let c5_i32_152 : BitVec 32 := 5#32
  let v287 : Index := Scalar.indexCast c5_i32_152
  let c16_153 : Index := 16#32
  ![0, v286.toNat, 5, 16]
def k0_off43 (k0_t2 : Fin k0_t2_loop.trips) : Fin 4 → Nat :=
  let c0_i32_154 : BitVec 32 := 0#32
  let v291 : Index := Scalar.indexCast c0_i32_154
  let c0_i32_35 : BitVec 32 := 0#32
  let c1_i32_37 : BitVec 32 := 1#32
  let arg8 : BitVec 32 := Scf.iv c0_i32_35 c1_i32_37 k0_t2
  let v292 : Index := Scalar.indexCast arg8
  let c6_i32_155 : BitVec 32 := 6#32
  let v293 : Index := Scalar.indexCast c6_i32_155
  let c16_156 : Index := 16#32
  ![0, v292.toNat, 6, 16]
def k0_off44 (k0_t2 : Fin k0_t2_loop.trips) : Fin 4 → Nat :=
  let c0_i32_157 : BitVec 32 := 0#32
  let v297 : Index := Scalar.indexCast c0_i32_157
  let c0_i32_35 : BitVec 32 := 0#32
  let c1_i32_37 : BitVec 32 := 1#32
  let arg8 : BitVec 32 := Scf.iv c0_i32_35 c1_i32_37 k0_t2
  let v298 : Index := Scalar.indexCast arg8
  let c7_i32_158 : BitVec 32 := 7#32
  let v299 : Index := Scalar.indexCast c7_i32_158
  let c16_159 : Index := 16#32
  ![0, v298.toNat, 7, 16]
def k0_off45 (k0_t2 : Fin k0_t2_loop.trips) : Fin 4 → Nat :=
  let c0_i32_160 : BitVec 32 := 0#32
  let v303 : Index := Scalar.indexCast c0_i32_160
  let c0_i32_35 : BitVec 32 := 0#32
  let c1_i32_37 : BitVec 32 := 1#32
  let arg8 : BitVec 32 := Scf.iv c0_i32_35 c1_i32_37 k0_t2
  let v304 : Index := Scalar.indexCast arg8
  let c8_i32_161 : BitVec 32 := 8#32
  let v305 : Index := Scalar.indexCast c8_i32_161
  let c16_162 : Index := 16#32
  ![0, v304.toNat, 8, 16]
def k0_off46 (k0_t2 : Fin k0_t2_loop.trips) : Fin 4 → Nat :=
  let c0_i32_163 : BitVec 32 := 0#32
  let v309 : Index := Scalar.indexCast c0_i32_163
  let c0_i32_35 : BitVec 32 := 0#32
  let c1_i32_37 : BitVec 32 := 1#32
  let arg8 : BitVec 32 := Scf.iv c0_i32_35 c1_i32_37 k0_t2
  let v310 : Index := Scalar.indexCast arg8
  let c9_i32_164 : BitVec 32 := 9#32
  let v311 : Index := Scalar.indexCast c9_i32_164
  let c16_165 : Index := 16#32
  ![0, v310.toNat, 9, 16]
def k0_off47 (k0_t2 : Fin k0_t2_loop.trips) : Fin 4 → Nat :=
  let c0_i32_166 : BitVec 32 := 0#32
  let v315 : Index := Scalar.indexCast c0_i32_166
  let c0_i32_35 : BitVec 32 := 0#32
  let c1_i32_37 : BitVec 32 := 1#32
  let arg8 : BitVec 32 := Scf.iv c0_i32_35 c1_i32_37 k0_t2
  let v316 : Index := Scalar.indexCast arg8
  let c10_i32_167 : BitVec 32 := 10#32
  let v317 : Index := Scalar.indexCast c10_i32_167
  let c16_168 : Index := 16#32
  ![0, v316.toNat, 10, 16]
def k0_off48 (k0_t2 : Fin k0_t2_loop.trips) : Fin 4 → Nat :=
  let c0_i32_169 : BitVec 32 := 0#32
  let v321 : Index := Scalar.indexCast c0_i32_169
  let c0_i32_35 : BitVec 32 := 0#32
  let c1_i32_37 : BitVec 32 := 1#32
  let arg8 : BitVec 32 := Scf.iv c0_i32_35 c1_i32_37 k0_t2
  let v322 : Index := Scalar.indexCast arg8
  let c11_i32_170 : BitVec 32 := 11#32
  let v323 : Index := Scalar.indexCast c11_i32_170
  let c16_171 : Index := 16#32
  ![0, v322.toNat, 11, 16]
def k0_off49 (k0_t2 : Fin k0_t2_loop.trips) : Fin 4 → Nat :=
  let c0_i32_172 : BitVec 32 := 0#32
  let v327 : Index := Scalar.indexCast c0_i32_172
  let c0_i32_35 : BitVec 32 := 0#32
  let c1_i32_37 : BitVec 32 := 1#32
  let arg8 : BitVec 32 := Scf.iv c0_i32_35 c1_i32_37 k0_t2
  let v328 : Index := Scalar.indexCast arg8
  let c12_i32_173 : BitVec 32 := 12#32
  let v329 : Index := Scalar.indexCast c12_i32_173
  let c16_174 : Index := 16#32
  ![0, v328.toNat, 12, 16]
def k0_off50 (k0_t2 : Fin k0_t2_loop.trips) : Fin 4 → Nat :=
  let c0_i32_175 : BitVec 32 := 0#32
  let v333 : Index := Scalar.indexCast c0_i32_175
  let c0_i32_35 : BitVec 32 := 0#32
  let c1_i32_37 : BitVec 32 := 1#32
  let arg8 : BitVec 32 := Scf.iv c0_i32_35 c1_i32_37 k0_t2
  let v334 : Index := Scalar.indexCast arg8
  let c13_i32_176 : BitVec 32 := 13#32
  let v335 : Index := Scalar.indexCast c13_i32_176
  let c16_177 : Index := 16#32
  ![0, v334.toNat, 13, 16]
def k0_off51 (k0_t2 : Fin k0_t2_loop.trips) : Fin 4 → Nat :=
  let c0_i32_178 : BitVec 32 := 0#32
  let v339 : Index := Scalar.indexCast c0_i32_178
  let c0_i32_35 : BitVec 32 := 0#32
  let c1_i32_37 : BitVec 32 := 1#32
  let arg8 : BitVec 32 := Scf.iv c0_i32_35 c1_i32_37 k0_t2
  let v340 : Index := Scalar.indexCast arg8
  let c14_i32_179 : BitVec 32 := 14#32
  let v341 : Index := Scalar.indexCast c14_i32_179
  let c16_180 : Index := 16#32
  ![0, v340.toNat, 14, 16]
def k0_off52 (k0_t2 : Fin k0_t2_loop.trips) : Fin 4 → Nat :=
  let c0_i32_181 : BitVec 32 := 0#32
  let v345 : Index := Scalar.indexCast c0_i32_181
  let c0_i32_35 : BitVec 32 := 0#32
  let c1_i32_37 : BitVec 32 := 1#32
  let arg8 : BitVec 32 := Scf.iv c0_i32_35 c1_i32_37 k0_t2
  let v346 : Index := Scalar.indexCast arg8
  let c15_i32_182 : BitVec 32 := 15#32
  let v347 : Index := Scalar.indexCast c15_i32_182
  let c16_183 : Index := 16#32
  ![0, v346.toNat, 15, 16]
def k0_off53 (k0_t2 : Fin k0_t2_loop.trips) : Fin 4 → Nat :=
  let c0_i32_184 : BitVec 32 := 0#32
  let v351 : Index := Scalar.indexCast c0_i32_184
  let c0_i32_35 : BitVec 32 := 0#32
  let c1_i32_37 : BitVec 32 := 1#32
  let arg8 : BitVec 32 := Scf.iv c0_i32_35 c1_i32_37 k0_t2
  let v352 : Index := Scalar.indexCast arg8
  let c16_i32_185 : BitVec 32 := 16#32
  let v353 : Index := Scalar.indexCast c16_i32_185
  let c16_186 : Index := 16#32
  ![0, v352.toNat, 16, 16]
def k0_off54 (k0_t2 : Fin k0_t2_loop.trips) : Fin 4 → Nat :=
  let c0_i32_187 : BitVec 32 := 0#32
  let v357 : Index := Scalar.indexCast c0_i32_187
  let c0_i32_35 : BitVec 32 := 0#32
  let c1_i32_37 : BitVec 32 := 1#32
  let arg8 : BitVec 32 := Scf.iv c0_i32_35 c1_i32_37 k0_t2
  let v358 : Index := Scalar.indexCast arg8
  let c17_i32_188 : BitVec 32 := 17#32
  let v359 : Index := Scalar.indexCast c17_i32_188
  let c16_189 : Index := 16#32
  ![0, v358.toNat, 17, 16]
def k0_off55 (k0_t2 : Fin k0_t2_loop.trips) : Fin 4 → Nat :=
  let c0_i32_190 : BitVec 32 := 0#32
  let v363 : Index := Scalar.indexCast c0_i32_190
  let c0_i32_35 : BitVec 32 := 0#32
  let c1_i32_37 : BitVec 32 := 1#32
  let arg8 : BitVec 32 := Scf.iv c0_i32_35 c1_i32_37 k0_t2
  let v364 : Index := Scalar.indexCast arg8
  let c18_i32_191 : BitVec 32 := 18#32
  let v365 : Index := Scalar.indexCast c18_i32_191
  let c16_192 : Index := 16#32
  ![0, v364.toNat, 18, 16]
def k0_off56 (k0_t2 : Fin k0_t2_loop.trips) : Fin 4 → Nat :=
  let c0_i32_193 : BitVec 32 := 0#32
  let v369 : Index := Scalar.indexCast c0_i32_193
  let c0_i32_35 : BitVec 32 := 0#32
  let c1_i32_37 : BitVec 32 := 1#32
  let arg8 : BitVec 32 := Scf.iv c0_i32_35 c1_i32_37 k0_t2
  let v370 : Index := Scalar.indexCast arg8
  let c19_i32_194 : BitVec 32 := 19#32
  let v371 : Index := Scalar.indexCast c19_i32_194
  let c16_195 : Index := 16#32
  ![0, v370.toNat, 19, 16]
def k0_off57 (k0_t2 : Fin k0_t2_loop.trips) : Fin 4 → Nat :=
  let c0_i32_196 : BitVec 32 := 0#32
  let v375 : Index := Scalar.indexCast c0_i32_196
  let c0_i32_35 : BitVec 32 := 0#32
  let c1_i32_37 : BitVec 32 := 1#32
  let arg8 : BitVec 32 := Scf.iv c0_i32_35 c1_i32_37 k0_t2
  let v376 : Index := Scalar.indexCast arg8
  let c20_i32_197 : BitVec 32 := 20#32
  let v377 : Index := Scalar.indexCast c20_i32_197
  let c16_198 : Index := 16#32
  ![0, v376.toNat, 20, 16]
def k0_off58 (k0_t2 : Fin k0_t2_loop.trips) : Fin 4 → Nat :=
  let c0_i32_199 : BitVec 32 := 0#32
  let v381 : Index := Scalar.indexCast c0_i32_199
  let c0_i32_35 : BitVec 32 := 0#32
  let c1_i32_37 : BitVec 32 := 1#32
  let arg8 : BitVec 32 := Scf.iv c0_i32_35 c1_i32_37 k0_t2
  let v382 : Index := Scalar.indexCast arg8
  let c21_i32_200 : BitVec 32 := 21#32
  let v383 : Index := Scalar.indexCast c21_i32_200
  let c16_201 : Index := 16#32
  ![0, v382.toNat, 21, 16]
def k0_off59 (k0_t2 : Fin k0_t2_loop.trips) : Fin 4 → Nat :=
  let c0_i32_202 : BitVec 32 := 0#32
  let v387 : Index := Scalar.indexCast c0_i32_202
  let c0_i32_35 : BitVec 32 := 0#32
  let c1_i32_37 : BitVec 32 := 1#32
  let arg8 : BitVec 32 := Scf.iv c0_i32_35 c1_i32_37 k0_t2
  let v388 : Index := Scalar.indexCast arg8
  let c22_i32_203 : BitVec 32 := 22#32
  let v389 : Index := Scalar.indexCast c22_i32_203
  let c16_204 : Index := 16#32
  ![0, v388.toNat, 22, 16]
def k0_off60 (k0_t2 : Fin k0_t2_loop.trips) : Fin 4 → Nat :=
  let c0_i32_205 : BitVec 32 := 0#32
  let v393 : Index := Scalar.indexCast c0_i32_205
  let c0_i32_35 : BitVec 32 := 0#32
  let c1_i32_37 : BitVec 32 := 1#32
  let arg8 : BitVec 32 := Scf.iv c0_i32_35 c1_i32_37 k0_t2
  let v394 : Index := Scalar.indexCast arg8
  let c23_i32_206 : BitVec 32 := 23#32
  let v395 : Index := Scalar.indexCast c23_i32_206
  let c16_207 : Index := 16#32
  ![0, v394.toNat, 23, 16]
def k0_off61 (k0_t2 : Fin k0_t2_loop.trips) : Fin 4 → Nat :=
  let c0_i32_208 : BitVec 32 := 0#32
  let v399 : Index := Scalar.indexCast c0_i32_208
  let c0_i32_35 : BitVec 32 := 0#32
  let c1_i32_37 : BitVec 32 := 1#32
  let arg8 : BitVec 32 := Scf.iv c0_i32_35 c1_i32_37 k0_t2
  let v400 : Index := Scalar.indexCast arg8
  let c24_i32_209 : BitVec 32 := 24#32
  let v401 : Index := Scalar.indexCast c24_i32_209
  let c16_210 : Index := 16#32
  ![0, v400.toNat, 24, 16]
def k0_off62 (k0_t2 : Fin k0_t2_loop.trips) : Fin 4 → Nat :=
  let c0_i32_211 : BitVec 32 := 0#32
  let v405 : Index := Scalar.indexCast c0_i32_211
  let c0_i32_35 : BitVec 32 := 0#32
  let c1_i32_37 : BitVec 32 := 1#32
  let arg8 : BitVec 32 := Scf.iv c0_i32_35 c1_i32_37 k0_t2
  let v406 : Index := Scalar.indexCast arg8
  let c25_i32_212 : BitVec 32 := 25#32
  let v407 : Index := Scalar.indexCast c25_i32_212
  let c16_213 : Index := 16#32
  ![0, v406.toNat, 25, 16]
def k0_off63 (k0_t2 : Fin k0_t2_loop.trips) : Fin 4 → Nat :=
  let c0_i32_214 : BitVec 32 := 0#32
  let v411 : Index := Scalar.indexCast c0_i32_214
  let c0_i32_35 : BitVec 32 := 0#32
  let c1_i32_37 : BitVec 32 := 1#32
  let arg8 : BitVec 32 := Scf.iv c0_i32_35 c1_i32_37 k0_t2
  let v412 : Index := Scalar.indexCast arg8
  let c26_i32_215 : BitVec 32 := 26#32
  let v413 : Index := Scalar.indexCast c26_i32_215
  let c16_216 : Index := 16#32
  ![0, v412.toNat, 26, 16]
def k0_off64 (k0_t2 : Fin k0_t2_loop.trips) : Fin 4 → Nat :=
  let c0_i32_217 : BitVec 32 := 0#32
  let v417 : Index := Scalar.indexCast c0_i32_217
  let c0_i32_35 : BitVec 32 := 0#32
  let c1_i32_37 : BitVec 32 := 1#32
  let arg8 : BitVec 32 := Scf.iv c0_i32_35 c1_i32_37 k0_t2
  let v418 : Index := Scalar.indexCast arg8
  let c27_i32_218 : BitVec 32 := 27#32
  let v419 : Index := Scalar.indexCast c27_i32_218
  let c16_219 : Index := 16#32
  ![0, v418.toNat, 27, 16]
def k0_off65 (k0_t2 : Fin k0_t2_loop.trips) : Fin 4 → Nat :=
  let c0_i32_220 : BitVec 32 := 0#32
  let v423 : Index := Scalar.indexCast c0_i32_220
  let c0_i32_35 : BitVec 32 := 0#32
  let c1_i32_37 : BitVec 32 := 1#32
  let arg8 : BitVec 32 := Scf.iv c0_i32_35 c1_i32_37 k0_t2
  let v424 : Index := Scalar.indexCast arg8
  let c28_i32_221 : BitVec 32 := 28#32
  let v425 : Index := Scalar.indexCast c28_i32_221
  let c16_222 : Index := 16#32
  ![0, v424.toNat, 28, 16]
def k0_off66 (k0_t2 : Fin k0_t2_loop.trips) : Fin 4 → Nat :=
  let c0_i32_223 : BitVec 32 := 0#32
  let v429 : Index := Scalar.indexCast c0_i32_223
  let c0_i32_35 : BitVec 32 := 0#32
  let c1_i32_37 : BitVec 32 := 1#32
  let arg8 : BitVec 32 := Scf.iv c0_i32_35 c1_i32_37 k0_t2
  let v430 : Index := Scalar.indexCast arg8
  let c29_i32_224 : BitVec 32 := 29#32
  let v431 : Index := Scalar.indexCast c29_i32_224
  let c16_225 : Index := 16#32
  ![0, v430.toNat, 29, 16]
def k0_off67 (k0_t2 : Fin k0_t2_loop.trips) : Fin 4 → Nat :=
  let c0_i32_226 : BitVec 32 := 0#32
  let v435 : Index := Scalar.indexCast c0_i32_226
  let c0_i32_35 : BitVec 32 := 0#32
  let c1_i32_37 : BitVec 32 := 1#32
  let arg8 : BitVec 32 := Scf.iv c0_i32_35 c1_i32_37 k0_t2
  let v436 : Index := Scalar.indexCast arg8
  let c30_i32_227 : BitVec 32 := 30#32
  let v437 : Index := Scalar.indexCast c30_i32_227
  let c16_228 : Index := 16#32
  ![0, v436.toNat, 30, 16]
def k0_off68 (k0_t2 : Fin k0_t2_loop.trips) : Fin 4 → Nat :=
  let c0_i32_229 : BitVec 32 := 0#32
  let v441 : Index := Scalar.indexCast c0_i32_229
  let c0_i32_35 : BitVec 32 := 0#32
  let c1_i32_37 : BitVec 32 := 1#32
  let arg8 : BitVec 32 := Scf.iv c0_i32_35 c1_i32_37 k0_t2
  let v442 : Index := Scalar.indexCast arg8
  let c31_i32_230 : BitVec 32 := 31#32
  let v443 : Index := Scalar.indexCast c31_i32_230
  let c16_231 : Index := 16#32
  ![0, v442.toNat, 31, 16]
def k0_off69 (k0_t2 : Fin k0_t2_loop.trips) : Fin 3 → Nat :=
  let c0_i32_232 : BitVec 32 := 0#32
  let v447 : Index := Scalar.indexCast c0_i32_232
  let c0_i32_35 : BitVec 32 := 0#32
  let c1_i32_37 : BitVec 32 := 1#32
  let arg8 : BitVec 32 := Scf.iv c0_i32_35 c1_i32_37 k0_t2
  let v448 : Index := Scalar.indexCast arg8
  let c16_233 : Index := 16#32
  ![0, v448.toNat, 16]
def k0_off70 (k0_t2 : Fin k0_t2_loop.trips) : Fin 4 → Nat :=
  let c0_i32_234 : BitVec 32 := 0#32
  let v452 : Index := Scalar.indexCast c0_i32_234
  let c0_i32_35 : BitVec 32 := 0#32
  let c1_i32_37 : BitVec 32 := 1#32
  let arg8 : BitVec 32 := Scf.iv c0_i32_35 c1_i32_37 k0_t2
  let v453 : Index := Scalar.indexCast arg8
  let c0_i32_235 : BitVec 32 := 0#32
  let v454 : Index := Scalar.indexCast c0_i32_235
  let c32 : Index := 32#32
  ![0, v453.toNat, 0, 32]
def k0_off71 (k0_t2 : Fin k0_t2_loop.trips) : Fin 4 → Nat :=
  let c0_i32_236 : BitVec 32 := 0#32
  let v457 : Index := Scalar.indexCast c0_i32_236
  let c0_i32_35 : BitVec 32 := 0#32
  let c1_i32_37 : BitVec 32 := 1#32
  let arg8 : BitVec 32 := Scf.iv c0_i32_35 c1_i32_37 k0_t2
  let v458 : Index := Scalar.indexCast arg8
  let c1_i32_237 : BitVec 32 := 1#32
  let v459 : Index := Scalar.indexCast c1_i32_237
  let c32_238 : Index := 32#32
  ![0, v458.toNat, 1, 32]
def k0_off72 (k0_t2 : Fin k0_t2_loop.trips) : Fin 4 → Nat :=
  let c0_i32_239 : BitVec 32 := 0#32
  let v463 : Index := Scalar.indexCast c0_i32_239
  let c0_i32_35 : BitVec 32 := 0#32
  let c1_i32_37 : BitVec 32 := 1#32
  let arg8 : BitVec 32 := Scf.iv c0_i32_35 c1_i32_37 k0_t2
  let v464 : Index := Scalar.indexCast arg8
  let c2_i32_240 : BitVec 32 := 2#32
  let v465 : Index := Scalar.indexCast c2_i32_240
  let c32_241 : Index := 32#32
  ![0, v464.toNat, 2, 32]
def k0_off73 (k0_t2 : Fin k0_t2_loop.trips) : Fin 4 → Nat :=
  let c0_i32_242 : BitVec 32 := 0#32
  let v469 : Index := Scalar.indexCast c0_i32_242
  let c0_i32_35 : BitVec 32 := 0#32
  let c1_i32_37 : BitVec 32 := 1#32
  let arg8 : BitVec 32 := Scf.iv c0_i32_35 c1_i32_37 k0_t2
  let v470 : Index := Scalar.indexCast arg8
  let c3_i32_243 : BitVec 32 := 3#32
  let v471 : Index := Scalar.indexCast c3_i32_243
  let c32_244 : Index := 32#32
  ![0, v470.toNat, 3, 32]
def k0_off74 (k0_t2 : Fin k0_t2_loop.trips) : Fin 4 → Nat :=
  let c0_i32_245 : BitVec 32 := 0#32
  let v475 : Index := Scalar.indexCast c0_i32_245
  let c0_i32_35 : BitVec 32 := 0#32
  let c1_i32_37 : BitVec 32 := 1#32
  let arg8 : BitVec 32 := Scf.iv c0_i32_35 c1_i32_37 k0_t2
  let v476 : Index := Scalar.indexCast arg8
  let c4_i32_246 : BitVec 32 := 4#32
  let v477 : Index := Scalar.indexCast c4_i32_246
  let c32_247 : Index := 32#32
  ![0, v476.toNat, 4, 32]
def k0_off75 (k0_t2 : Fin k0_t2_loop.trips) : Fin 4 → Nat :=
  let c0_i32_248 : BitVec 32 := 0#32
  let v481 : Index := Scalar.indexCast c0_i32_248
  let c0_i32_35 : BitVec 32 := 0#32
  let c1_i32_37 : BitVec 32 := 1#32
  let arg8 : BitVec 32 := Scf.iv c0_i32_35 c1_i32_37 k0_t2
  let v482 : Index := Scalar.indexCast arg8
  let c5_i32_249 : BitVec 32 := 5#32
  let v483 : Index := Scalar.indexCast c5_i32_249
  let c32_250 : Index := 32#32
  ![0, v482.toNat, 5, 32]
def k0_off76 (k0_t2 : Fin k0_t2_loop.trips) : Fin 4 → Nat :=
  let c0_i32_251 : BitVec 32 := 0#32
  let v487 : Index := Scalar.indexCast c0_i32_251
  let c0_i32_35 : BitVec 32 := 0#32
  let c1_i32_37 : BitVec 32 := 1#32
  let arg8 : BitVec 32 := Scf.iv c0_i32_35 c1_i32_37 k0_t2
  let v488 : Index := Scalar.indexCast arg8
  let c6_i32_252 : BitVec 32 := 6#32
  let v489 : Index := Scalar.indexCast c6_i32_252
  let c32_253 : Index := 32#32
  ![0, v488.toNat, 6, 32]
def k0_off77 (k0_t2 : Fin k0_t2_loop.trips) : Fin 4 → Nat :=
  let c0_i32_254 : BitVec 32 := 0#32
  let v493 : Index := Scalar.indexCast c0_i32_254
  let c0_i32_35 : BitVec 32 := 0#32
  let c1_i32_37 : BitVec 32 := 1#32
  let arg8 : BitVec 32 := Scf.iv c0_i32_35 c1_i32_37 k0_t2
  let v494 : Index := Scalar.indexCast arg8
  let c7_i32_255 : BitVec 32 := 7#32
  let v495 : Index := Scalar.indexCast c7_i32_255
  let c32_256 : Index := 32#32
  ![0, v494.toNat, 7, 32]
def k0_off78 (k0_t2 : Fin k0_t2_loop.trips) : Fin 4 → Nat :=
  let c0_i32_257 : BitVec 32 := 0#32
  let v499 : Index := Scalar.indexCast c0_i32_257
  let c0_i32_35 : BitVec 32 := 0#32
  let c1_i32_37 : BitVec 32 := 1#32
  let arg8 : BitVec 32 := Scf.iv c0_i32_35 c1_i32_37 k0_t2
  let v500 : Index := Scalar.indexCast arg8
  let c8_i32_258 : BitVec 32 := 8#32
  let v501 : Index := Scalar.indexCast c8_i32_258
  let c32_259 : Index := 32#32
  ![0, v500.toNat, 8, 32]
def k0_off79 (k0_t2 : Fin k0_t2_loop.trips) : Fin 4 → Nat :=
  let c0_i32_260 : BitVec 32 := 0#32
  let v505 : Index := Scalar.indexCast c0_i32_260
  let c0_i32_35 : BitVec 32 := 0#32
  let c1_i32_37 : BitVec 32 := 1#32
  let arg8 : BitVec 32 := Scf.iv c0_i32_35 c1_i32_37 k0_t2
  let v506 : Index := Scalar.indexCast arg8
  let c9_i32_261 : BitVec 32 := 9#32
  let v507 : Index := Scalar.indexCast c9_i32_261
  let c32_262 : Index := 32#32
  ![0, v506.toNat, 9, 32]
def k0_off80 (k0_t2 : Fin k0_t2_loop.trips) : Fin 4 → Nat :=
  let c0_i32_263 : BitVec 32 := 0#32
  let v511 : Index := Scalar.indexCast c0_i32_263
  let c0_i32_35 : BitVec 32 := 0#32
  let c1_i32_37 : BitVec 32 := 1#32
  let arg8 : BitVec 32 := Scf.iv c0_i32_35 c1_i32_37 k0_t2
  let v512 : Index := Scalar.indexCast arg8
  let c10_i32_264 : BitVec 32 := 10#32
  let v513 : Index := Scalar.indexCast c10_i32_264
  let c32_265 : Index := 32#32
  ![0, v512.toNat, 10, 32]
def k0_off81 (k0_t2 : Fin k0_t2_loop.trips) : Fin 4 → Nat :=
  let c0_i32_266 : BitVec 32 := 0#32
  let v517 : Index := Scalar.indexCast c0_i32_266
  let c0_i32_35 : BitVec 32 := 0#32
  let c1_i32_37 : BitVec 32 := 1#32
  let arg8 : BitVec 32 := Scf.iv c0_i32_35 c1_i32_37 k0_t2
  let v518 : Index := Scalar.indexCast arg8
  let c11_i32_267 : BitVec 32 := 11#32
  let v519 : Index := Scalar.indexCast c11_i32_267
  let c32_268 : Index := 32#32
  ![0, v518.toNat, 11, 32]
def k0_off82 (k0_t2 : Fin k0_t2_loop.trips) : Fin 4 → Nat :=
  let c0_i32_269 : BitVec 32 := 0#32
  let v523 : Index := Scalar.indexCast c0_i32_269
  let c0_i32_35 : BitVec 32 := 0#32
  let c1_i32_37 : BitVec 32 := 1#32
  let arg8 : BitVec 32 := Scf.iv c0_i32_35 c1_i32_37 k0_t2
  let v524 : Index := Scalar.indexCast arg8
  let c12_i32_270 : BitVec 32 := 12#32
  let v525 : Index := Scalar.indexCast c12_i32_270
  let c32_271 : Index := 32#32
  ![0, v524.toNat, 12, 32]
def k0_off83 (k0_t2 : Fin k0_t2_loop.trips) : Fin 4 → Nat :=
  let c0_i32_272 : BitVec 32 := 0#32
  let v529 : Index := Scalar.indexCast c0_i32_272
  let c0_i32_35 : BitVec 32 := 0#32
  let c1_i32_37 : BitVec 32 := 1#32
  let arg8 : BitVec 32 := Scf.iv c0_i32_35 c1_i32_37 k0_t2
  let v530 : Index := Scalar.indexCast arg8
  let c13_i32_273 : BitVec 32 := 13#32
  let v531 : Index := Scalar.indexCast c13_i32_273
  let c32_274 : Index := 32#32
  ![0, v530.toNat, 13, 32]
def k0_off84 (k0_t2 : Fin k0_t2_loop.trips) : Fin 4 → Nat :=
  let c0_i32_275 : BitVec 32 := 0#32
  let v535 : Index := Scalar.indexCast c0_i32_275
  let c0_i32_35 : BitVec 32 := 0#32
  let c1_i32_37 : BitVec 32 := 1#32
  let arg8 : BitVec 32 := Scf.iv c0_i32_35 c1_i32_37 k0_t2
  let v536 : Index := Scalar.indexCast arg8
  let c14_i32_276 : BitVec 32 := 14#32
  let v537 : Index := Scalar.indexCast c14_i32_276
  let c32_277 : Index := 32#32
  ![0, v536.toNat, 14, 32]
def k0_off85 (k0_t2 : Fin k0_t2_loop.trips) : Fin 4 → Nat :=
  let c0_i32_278 : BitVec 32 := 0#32
  let v541 : Index := Scalar.indexCast c0_i32_278
  let c0_i32_35 : BitVec 32 := 0#32
  let c1_i32_37 : BitVec 32 := 1#32
  let arg8 : BitVec 32 := Scf.iv c0_i32_35 c1_i32_37 k0_t2
  let v542 : Index := Scalar.indexCast arg8
  let c15_i32_279 : BitVec 32 := 15#32
  let v543 : Index := Scalar.indexCast c15_i32_279
  let c32_280 : Index := 32#32
  ![0, v542.toNat, 15, 32]
def k0_off86 (k0_t2 : Fin k0_t2_loop.trips) : Fin 4 → Nat :=
  let c0_i32_281 : BitVec 32 := 0#32
  let v547 : Index := Scalar.indexCast c0_i32_281
  let c0_i32_35 : BitVec 32 := 0#32
  let c1_i32_37 : BitVec 32 := 1#32
  let arg8 : BitVec 32 := Scf.iv c0_i32_35 c1_i32_37 k0_t2
  let v548 : Index := Scalar.indexCast arg8
  let c16_i32_282 : BitVec 32 := 16#32
  let v549 : Index := Scalar.indexCast c16_i32_282
  let c32_283 : Index := 32#32
  ![0, v548.toNat, 16, 32]
def k0_off87 (k0_t2 : Fin k0_t2_loop.trips) : Fin 4 → Nat :=
  let c0_i32_284 : BitVec 32 := 0#32
  let v553 : Index := Scalar.indexCast c0_i32_284
  let c0_i32_35 : BitVec 32 := 0#32
  let c1_i32_37 : BitVec 32 := 1#32
  let arg8 : BitVec 32 := Scf.iv c0_i32_35 c1_i32_37 k0_t2
  let v554 : Index := Scalar.indexCast arg8
  let c17_i32_285 : BitVec 32 := 17#32
  let v555 : Index := Scalar.indexCast c17_i32_285
  let c32_286 : Index := 32#32
  ![0, v554.toNat, 17, 32]
def k0_off88 (k0_t2 : Fin k0_t2_loop.trips) : Fin 4 → Nat :=
  let c0_i32_287 : BitVec 32 := 0#32
  let v559 : Index := Scalar.indexCast c0_i32_287
  let c0_i32_35 : BitVec 32 := 0#32
  let c1_i32_37 : BitVec 32 := 1#32
  let arg8 : BitVec 32 := Scf.iv c0_i32_35 c1_i32_37 k0_t2
  let v560 : Index := Scalar.indexCast arg8
  let c18_i32_288 : BitVec 32 := 18#32
  let v561 : Index := Scalar.indexCast c18_i32_288
  let c32_289 : Index := 32#32
  ![0, v560.toNat, 18, 32]
def k0_off89 (k0_t2 : Fin k0_t2_loop.trips) : Fin 4 → Nat :=
  let c0_i32_290 : BitVec 32 := 0#32
  let v565 : Index := Scalar.indexCast c0_i32_290
  let c0_i32_35 : BitVec 32 := 0#32
  let c1_i32_37 : BitVec 32 := 1#32
  let arg8 : BitVec 32 := Scf.iv c0_i32_35 c1_i32_37 k0_t2
  let v566 : Index := Scalar.indexCast arg8
  let c19_i32_291 : BitVec 32 := 19#32
  let v567 : Index := Scalar.indexCast c19_i32_291
  let c32_292 : Index := 32#32
  ![0, v566.toNat, 19, 32]
def k0_off90 (k0_t2 : Fin k0_t2_loop.trips) : Fin 4 → Nat :=
  let c0_i32_293 : BitVec 32 := 0#32
  let v571 : Index := Scalar.indexCast c0_i32_293
  let c0_i32_35 : BitVec 32 := 0#32
  let c1_i32_37 : BitVec 32 := 1#32
  let arg8 : BitVec 32 := Scf.iv c0_i32_35 c1_i32_37 k0_t2
  let v572 : Index := Scalar.indexCast arg8
  let c20_i32_294 : BitVec 32 := 20#32
  let v573 : Index := Scalar.indexCast c20_i32_294
  let c32_295 : Index := 32#32
  ![0, v572.toNat, 20, 32]
def k0_off91 (k0_t2 : Fin k0_t2_loop.trips) : Fin 4 → Nat :=
  let c0_i32_296 : BitVec 32 := 0#32
  let v577 : Index := Scalar.indexCast c0_i32_296
  let c0_i32_35 : BitVec 32 := 0#32
  let c1_i32_37 : BitVec 32 := 1#32
  let arg8 : BitVec 32 := Scf.iv c0_i32_35 c1_i32_37 k0_t2
  let v578 : Index := Scalar.indexCast arg8
  let c21_i32_297 : BitVec 32 := 21#32
  let v579 : Index := Scalar.indexCast c21_i32_297
  let c32_298 : Index := 32#32
  ![0, v578.toNat, 21, 32]
def k0_off92 (k0_t2 : Fin k0_t2_loop.trips) : Fin 4 → Nat :=
  let c0_i32_299 : BitVec 32 := 0#32
  let v583 : Index := Scalar.indexCast c0_i32_299
  let c0_i32_35 : BitVec 32 := 0#32
  let c1_i32_37 : BitVec 32 := 1#32
  let arg8 : BitVec 32 := Scf.iv c0_i32_35 c1_i32_37 k0_t2
  let v584 : Index := Scalar.indexCast arg8
  let c22_i32_300 : BitVec 32 := 22#32
  let v585 : Index := Scalar.indexCast c22_i32_300
  let c32_301 : Index := 32#32
  ![0, v584.toNat, 22, 32]
def k0_off93 (k0_t2 : Fin k0_t2_loop.trips) : Fin 4 → Nat :=
  let c0_i32_302 : BitVec 32 := 0#32
  let v589 : Index := Scalar.indexCast c0_i32_302
  let c0_i32_35 : BitVec 32 := 0#32
  let c1_i32_37 : BitVec 32 := 1#32
  let arg8 : BitVec 32 := Scf.iv c0_i32_35 c1_i32_37 k0_t2
  let v590 : Index := Scalar.indexCast arg8
  let c23_i32_303 : BitVec 32 := 23#32
  let v591 : Index := Scalar.indexCast c23_i32_303
  let c32_304 : Index := 32#32
  ![0, v590.toNat, 23, 32]
def k0_off94 (k0_t2 : Fin k0_t2_loop.trips) : Fin 4 → Nat :=
  let c0_i32_305 : BitVec 32 := 0#32
  let v595 : Index := Scalar.indexCast c0_i32_305
  let c0_i32_35 : BitVec 32 := 0#32
  let c1_i32_37 : BitVec 32 := 1#32
  let arg8 : BitVec 32 := Scf.iv c0_i32_35 c1_i32_37 k0_t2
  let v596 : Index := Scalar.indexCast arg8
  let c24_i32_306 : BitVec 32 := 24#32
  let v597 : Index := Scalar.indexCast c24_i32_306
  let c32_307 : Index := 32#32
  ![0, v596.toNat, 24, 32]
def k0_off95 (k0_t2 : Fin k0_t2_loop.trips) : Fin 4 → Nat :=
  let c0_i32_308 : BitVec 32 := 0#32
  let v601 : Index := Scalar.indexCast c0_i32_308
  let c0_i32_35 : BitVec 32 := 0#32
  let c1_i32_37 : BitVec 32 := 1#32
  let arg8 : BitVec 32 := Scf.iv c0_i32_35 c1_i32_37 k0_t2
  let v602 : Index := Scalar.indexCast arg8
  let c25_i32_309 : BitVec 32 := 25#32
  let v603 : Index := Scalar.indexCast c25_i32_309
  let c32_310 : Index := 32#32
  ![0, v602.toNat, 25, 32]
def k0_off96 (k0_t2 : Fin k0_t2_loop.trips) : Fin 4 → Nat :=
  let c0_i32_311 : BitVec 32 := 0#32
  let v607 : Index := Scalar.indexCast c0_i32_311
  let c0_i32_35 : BitVec 32 := 0#32
  let c1_i32_37 : BitVec 32 := 1#32
  let arg8 : BitVec 32 := Scf.iv c0_i32_35 c1_i32_37 k0_t2
  let v608 : Index := Scalar.indexCast arg8
  let c26_i32_312 : BitVec 32 := 26#32
  let v609 : Index := Scalar.indexCast c26_i32_312
  let c32_313 : Index := 32#32
  ![0, v608.toNat, 26, 32]
def k0_off97 (k0_t2 : Fin k0_t2_loop.trips) : Fin 4 → Nat :=
  let c0_i32_314 : BitVec 32 := 0#32
  let v613 : Index := Scalar.indexCast c0_i32_314
  let c0_i32_35 : BitVec 32 := 0#32
  let c1_i32_37 : BitVec 32 := 1#32
  let arg8 : BitVec 32 := Scf.iv c0_i32_35 c1_i32_37 k0_t2
  let v614 : Index := Scalar.indexCast arg8
  let c27_i32_315 : BitVec 32 := 27#32
  let v615 : Index := Scalar.indexCast c27_i32_315
  let c32_316 : Index := 32#32
  ![0, v614.toNat, 27, 32]
def k0_off98 (k0_t2 : Fin k0_t2_loop.trips) : Fin 4 → Nat :=
  let c0_i32_317 : BitVec 32 := 0#32
  let v619 : Index := Scalar.indexCast c0_i32_317
  let c0_i32_35 : BitVec 32 := 0#32
  let c1_i32_37 : BitVec 32 := 1#32
  let arg8 : BitVec 32 := Scf.iv c0_i32_35 c1_i32_37 k0_t2
  let v620 : Index := Scalar.indexCast arg8
  let c28_i32_318 : BitVec 32 := 28#32
  let v621 : Index := Scalar.indexCast c28_i32_318
  let c32_319 : Index := 32#32
  ![0, v620.toNat, 28, 32]
def k0_off99 (k0_t2 : Fin k0_t2_loop.trips) : Fin 4 → Nat :=
  let c0_i32_320 : BitVec 32 := 0#32
  let v625 : Index := Scalar.indexCast c0_i32_320
  let c0_i32_35 : BitVec 32 := 0#32
  let c1_i32_37 : BitVec 32 := 1#32
  let arg8 : BitVec 32 := Scf.iv c0_i32_35 c1_i32_37 k0_t2
  let v626 : Index := Scalar.indexCast arg8
  let c29_i32_321 : BitVec 32 := 29#32
  let v627 : Index := Scalar.indexCast c29_i32_321
  let c32_322 : Index := 32#32
  ![0, v626.toNat, 29, 32]
def k0_off100 (k0_t2 : Fin k0_t2_loop.trips) : Fin 4 → Nat :=
  let c0_i32_323 : BitVec 32 := 0#32
  let v631 : Index := Scalar.indexCast c0_i32_323
  let c0_i32_35 : BitVec 32 := 0#32
  let c1_i32_37 : BitVec 32 := 1#32
  let arg8 : BitVec 32 := Scf.iv c0_i32_35 c1_i32_37 k0_t2
  let v632 : Index := Scalar.indexCast arg8
  let c30_i32_324 : BitVec 32 := 30#32
  let v633 : Index := Scalar.indexCast c30_i32_324
  let c32_325 : Index := 32#32
  ![0, v632.toNat, 30, 32]
def k0_off101 (k0_t2 : Fin k0_t2_loop.trips) : Fin 4 → Nat :=
  let c0_i32_326 : BitVec 32 := 0#32
  let v637 : Index := Scalar.indexCast c0_i32_326
  let c0_i32_35 : BitVec 32 := 0#32
  let c1_i32_37 : BitVec 32 := 1#32
  let arg8 : BitVec 32 := Scf.iv c0_i32_35 c1_i32_37 k0_t2
  let v638 : Index := Scalar.indexCast arg8
  let c31_i32_327 : BitVec 32 := 31#32
  let v639 : Index := Scalar.indexCast c31_i32_327
  let c32_328 : Index := 32#32
  ![0, v638.toNat, 31, 32]
def k0_off102 (k0_t2 : Fin k0_t2_loop.trips) : Fin 3 → Nat :=
  let c0_i32_329 : BitVec 32 := 0#32
  let v643 : Index := Scalar.indexCast c0_i32_329
  let c0_i32_35 : BitVec 32 := 0#32
  let c1_i32_37 : BitVec 32 := 1#32
  let arg8 : BitVec 32 := Scf.iv c0_i32_35 c1_i32_37 k0_t2
  let v644 : Index := Scalar.indexCast arg8
  let c32_330 : Index := 32#32
  ![0, v644.toNat, 32]
def k0_off103 (k0_t2 : Fin k0_t2_loop.trips) : Fin 4 → Nat :=
  let c0_i32_331 : BitVec 32 := 0#32
  let v648 : Index := Scalar.indexCast c0_i32_331
  let c0_i32_35 : BitVec 32 := 0#32
  let c1_i32_37 : BitVec 32 := 1#32
  let arg8 : BitVec 32 := Scf.iv c0_i32_35 c1_i32_37 k0_t2
  let v649 : Index := Scalar.indexCast arg8
  let c0_i32_332 : BitVec 32 := 0#32
  let v650 : Index := Scalar.indexCast c0_i32_332
  let c48 : Index := 48#32
  ![0, v649.toNat, 0, 48]
def k0_off104 (k0_t2 : Fin k0_t2_loop.trips) : Fin 4 → Nat :=
  let c0_i32_333 : BitVec 32 := 0#32
  let v653 : Index := Scalar.indexCast c0_i32_333
  let c0_i32_35 : BitVec 32 := 0#32
  let c1_i32_37 : BitVec 32 := 1#32
  let arg8 : BitVec 32 := Scf.iv c0_i32_35 c1_i32_37 k0_t2
  let v654 : Index := Scalar.indexCast arg8
  let c1_i32_334 : BitVec 32 := 1#32
  let v655 : Index := Scalar.indexCast c1_i32_334
  let c48_335 : Index := 48#32
  ![0, v654.toNat, 1, 48]
def k0_off105 (k0_t2 : Fin k0_t2_loop.trips) : Fin 4 → Nat :=
  let c0_i32_336 : BitVec 32 := 0#32
  let v659 : Index := Scalar.indexCast c0_i32_336
  let c0_i32_35 : BitVec 32 := 0#32
  let c1_i32_37 : BitVec 32 := 1#32
  let arg8 : BitVec 32 := Scf.iv c0_i32_35 c1_i32_37 k0_t2
  let v660 : Index := Scalar.indexCast arg8
  let c2_i32_337 : BitVec 32 := 2#32
  let v661 : Index := Scalar.indexCast c2_i32_337
  let c48_338 : Index := 48#32
  ![0, v660.toNat, 2, 48]
def k0_off106 (k0_t2 : Fin k0_t2_loop.trips) : Fin 4 → Nat :=
  let c0_i32_339 : BitVec 32 := 0#32
  let v665 : Index := Scalar.indexCast c0_i32_339
  let c0_i32_35 : BitVec 32 := 0#32
  let c1_i32_37 : BitVec 32 := 1#32
  let arg8 : BitVec 32 := Scf.iv c0_i32_35 c1_i32_37 k0_t2
  let v666 : Index := Scalar.indexCast arg8
  let c3_i32_340 : BitVec 32 := 3#32
  let v667 : Index := Scalar.indexCast c3_i32_340
  let c48_341 : Index := 48#32
  ![0, v666.toNat, 3, 48]
def k0_off107 (k0_t2 : Fin k0_t2_loop.trips) : Fin 4 → Nat :=
  let c0_i32_342 : BitVec 32 := 0#32
  let v671 : Index := Scalar.indexCast c0_i32_342
  let c0_i32_35 : BitVec 32 := 0#32
  let c1_i32_37 : BitVec 32 := 1#32
  let arg8 : BitVec 32 := Scf.iv c0_i32_35 c1_i32_37 k0_t2
  let v672 : Index := Scalar.indexCast arg8
  let c4_i32_343 : BitVec 32 := 4#32
  let v673 : Index := Scalar.indexCast c4_i32_343
  let c48_344 : Index := 48#32
  ![0, v672.toNat, 4, 48]
def k0_off108 (k0_t2 : Fin k0_t2_loop.trips) : Fin 4 → Nat :=
  let c0_i32_345 : BitVec 32 := 0#32
  let v677 : Index := Scalar.indexCast c0_i32_345
  let c0_i32_35 : BitVec 32 := 0#32
  let c1_i32_37 : BitVec 32 := 1#32
  let arg8 : BitVec 32 := Scf.iv c0_i32_35 c1_i32_37 k0_t2
  let v678 : Index := Scalar.indexCast arg8
  let c5_i32_346 : BitVec 32 := 5#32
  let v679 : Index := Scalar.indexCast c5_i32_346
  let c48_347 : Index := 48#32
  ![0, v678.toNat, 5, 48]
def k0_off109 (k0_t2 : Fin k0_t2_loop.trips) : Fin 4 → Nat :=
  let c0_i32_348 : BitVec 32 := 0#32
  let v683 : Index := Scalar.indexCast c0_i32_348
  let c0_i32_35 : BitVec 32 := 0#32
  let c1_i32_37 : BitVec 32 := 1#32
  let arg8 : BitVec 32 := Scf.iv c0_i32_35 c1_i32_37 k0_t2
  let v684 : Index := Scalar.indexCast arg8
  let c6_i32_349 : BitVec 32 := 6#32
  let v685 : Index := Scalar.indexCast c6_i32_349
  let c48_350 : Index := 48#32
  ![0, v684.toNat, 6, 48]
def k0_off110 (k0_t2 : Fin k0_t2_loop.trips) : Fin 4 → Nat :=
  let c0_i32_351 : BitVec 32 := 0#32
  let v689 : Index := Scalar.indexCast c0_i32_351
  let c0_i32_35 : BitVec 32 := 0#32
  let c1_i32_37 : BitVec 32 := 1#32
  let arg8 : BitVec 32 := Scf.iv c0_i32_35 c1_i32_37 k0_t2
  let v690 : Index := Scalar.indexCast arg8
  let c7_i32_352 : BitVec 32 := 7#32
  let v691 : Index := Scalar.indexCast c7_i32_352
  let c48_353 : Index := 48#32
  ![0, v690.toNat, 7, 48]
def k0_off111 (k0_t2 : Fin k0_t2_loop.trips) : Fin 4 → Nat :=
  let c0_i32_354 : BitVec 32 := 0#32
  let v695 : Index := Scalar.indexCast c0_i32_354
  let c0_i32_35 : BitVec 32 := 0#32
  let c1_i32_37 : BitVec 32 := 1#32
  let arg8 : BitVec 32 := Scf.iv c0_i32_35 c1_i32_37 k0_t2
  let v696 : Index := Scalar.indexCast arg8
  let c8_i32_355 : BitVec 32 := 8#32
  let v697 : Index := Scalar.indexCast c8_i32_355
  let c48_356 : Index := 48#32
  ![0, v696.toNat, 8, 48]
def k0_off112 (k0_t2 : Fin k0_t2_loop.trips) : Fin 4 → Nat :=
  let c0_i32_357 : BitVec 32 := 0#32
  let v701 : Index := Scalar.indexCast c0_i32_357
  let c0_i32_35 : BitVec 32 := 0#32
  let c1_i32_37 : BitVec 32 := 1#32
  let arg8 : BitVec 32 := Scf.iv c0_i32_35 c1_i32_37 k0_t2
  let v702 : Index := Scalar.indexCast arg8
  let c9_i32_358 : BitVec 32 := 9#32
  let v703 : Index := Scalar.indexCast c9_i32_358
  let c48_359 : Index := 48#32
  ![0, v702.toNat, 9, 48]
def k0_off113 (k0_t2 : Fin k0_t2_loop.trips) : Fin 4 → Nat :=
  let c0_i32_360 : BitVec 32 := 0#32
  let v707 : Index := Scalar.indexCast c0_i32_360
  let c0_i32_35 : BitVec 32 := 0#32
  let c1_i32_37 : BitVec 32 := 1#32
  let arg8 : BitVec 32 := Scf.iv c0_i32_35 c1_i32_37 k0_t2
  let v708 : Index := Scalar.indexCast arg8
  let c10_i32_361 : BitVec 32 := 10#32
  let v709 : Index := Scalar.indexCast c10_i32_361
  let c48_362 : Index := 48#32
  ![0, v708.toNat, 10, 48]
def k0_off114 (k0_t2 : Fin k0_t2_loop.trips) : Fin 4 → Nat :=
  let c0_i32_363 : BitVec 32 := 0#32
  let v713 : Index := Scalar.indexCast c0_i32_363
  let c0_i32_35 : BitVec 32 := 0#32
  let c1_i32_37 : BitVec 32 := 1#32
  let arg8 : BitVec 32 := Scf.iv c0_i32_35 c1_i32_37 k0_t2
  let v714 : Index := Scalar.indexCast arg8
  let c11_i32_364 : BitVec 32 := 11#32
  let v715 : Index := Scalar.indexCast c11_i32_364
  let c48_365 : Index := 48#32
  ![0, v714.toNat, 11, 48]
def k0_off115 (k0_t2 : Fin k0_t2_loop.trips) : Fin 4 → Nat :=
  let c0_i32_366 : BitVec 32 := 0#32
  let v719 : Index := Scalar.indexCast c0_i32_366
  let c0_i32_35 : BitVec 32 := 0#32
  let c1_i32_37 : BitVec 32 := 1#32
  let arg8 : BitVec 32 := Scf.iv c0_i32_35 c1_i32_37 k0_t2
  let v720 : Index := Scalar.indexCast arg8
  let c12_i32_367 : BitVec 32 := 12#32
  let v721 : Index := Scalar.indexCast c12_i32_367
  let c48_368 : Index := 48#32
  ![0, v720.toNat, 12, 48]
def k0_off116 (k0_t2 : Fin k0_t2_loop.trips) : Fin 4 → Nat :=
  let c0_i32_369 : BitVec 32 := 0#32
  let v725 : Index := Scalar.indexCast c0_i32_369
  let c0_i32_35 : BitVec 32 := 0#32
  let c1_i32_37 : BitVec 32 := 1#32
  let arg8 : BitVec 32 := Scf.iv c0_i32_35 c1_i32_37 k0_t2
  let v726 : Index := Scalar.indexCast arg8
  let c13_i32_370 : BitVec 32 := 13#32
  let v727 : Index := Scalar.indexCast c13_i32_370
  let c48_371 : Index := 48#32
  ![0, v726.toNat, 13, 48]
def k0_off117 (k0_t2 : Fin k0_t2_loop.trips) : Fin 4 → Nat :=
  let c0_i32_372 : BitVec 32 := 0#32
  let v731 : Index := Scalar.indexCast c0_i32_372
  let c0_i32_35 : BitVec 32 := 0#32
  let c1_i32_37 : BitVec 32 := 1#32
  let arg8 : BitVec 32 := Scf.iv c0_i32_35 c1_i32_37 k0_t2
  let v732 : Index := Scalar.indexCast arg8
  let c14_i32_373 : BitVec 32 := 14#32
  let v733 : Index := Scalar.indexCast c14_i32_373
  let c48_374 : Index := 48#32
  ![0, v732.toNat, 14, 48]
def k0_off118 (k0_t2 : Fin k0_t2_loop.trips) : Fin 4 → Nat :=
  let c0_i32_375 : BitVec 32 := 0#32
  let v737 : Index := Scalar.indexCast c0_i32_375
  let c0_i32_35 : BitVec 32 := 0#32
  let c1_i32_37 : BitVec 32 := 1#32
  let arg8 : BitVec 32 := Scf.iv c0_i32_35 c1_i32_37 k0_t2
  let v738 : Index := Scalar.indexCast arg8
  let c15_i32_376 : BitVec 32 := 15#32
  let v739 : Index := Scalar.indexCast c15_i32_376
  let c48_377 : Index := 48#32
  ![0, v738.toNat, 15, 48]
def k0_off119 (k0_t2 : Fin k0_t2_loop.trips) : Fin 4 → Nat :=
  let c0_i32_378 : BitVec 32 := 0#32
  let v743 : Index := Scalar.indexCast c0_i32_378
  let c0_i32_35 : BitVec 32 := 0#32
  let c1_i32_37 : BitVec 32 := 1#32
  let arg8 : BitVec 32 := Scf.iv c0_i32_35 c1_i32_37 k0_t2
  let v744 : Index := Scalar.indexCast arg8
  let c16_i32_379 : BitVec 32 := 16#32
  let v745 : Index := Scalar.indexCast c16_i32_379
  let c48_380 : Index := 48#32
  ![0, v744.toNat, 16, 48]
def k0_off120 (k0_t2 : Fin k0_t2_loop.trips) : Fin 4 → Nat :=
  let c0_i32_381 : BitVec 32 := 0#32
  let v749 : Index := Scalar.indexCast c0_i32_381
  let c0_i32_35 : BitVec 32 := 0#32
  let c1_i32_37 : BitVec 32 := 1#32
  let arg8 : BitVec 32 := Scf.iv c0_i32_35 c1_i32_37 k0_t2
  let v750 : Index := Scalar.indexCast arg8
  let c17_i32_382 : BitVec 32 := 17#32
  let v751 : Index := Scalar.indexCast c17_i32_382
  let c48_383 : Index := 48#32
  ![0, v750.toNat, 17, 48]
def k0_off121 (k0_t2 : Fin k0_t2_loop.trips) : Fin 4 → Nat :=
  let c0_i32_384 : BitVec 32 := 0#32
  let v755 : Index := Scalar.indexCast c0_i32_384
  let c0_i32_35 : BitVec 32 := 0#32
  let c1_i32_37 : BitVec 32 := 1#32
  let arg8 : BitVec 32 := Scf.iv c0_i32_35 c1_i32_37 k0_t2
  let v756 : Index := Scalar.indexCast arg8
  let c18_i32_385 : BitVec 32 := 18#32
  let v757 : Index := Scalar.indexCast c18_i32_385
  let c48_386 : Index := 48#32
  ![0, v756.toNat, 18, 48]
def k0_off122 (k0_t2 : Fin k0_t2_loop.trips) : Fin 4 → Nat :=
  let c0_i32_387 : BitVec 32 := 0#32
  let v761 : Index := Scalar.indexCast c0_i32_387
  let c0_i32_35 : BitVec 32 := 0#32
  let c1_i32_37 : BitVec 32 := 1#32
  let arg8 : BitVec 32 := Scf.iv c0_i32_35 c1_i32_37 k0_t2
  let v762 : Index := Scalar.indexCast arg8
  let c19_i32_388 : BitVec 32 := 19#32
  let v763 : Index := Scalar.indexCast c19_i32_388
  let c48_389 : Index := 48#32
  ![0, v762.toNat, 19, 48]
def k0_off123 (k0_t2 : Fin k0_t2_loop.trips) : Fin 4 → Nat :=
  let c0_i32_390 : BitVec 32 := 0#32
  let v767 : Index := Scalar.indexCast c0_i32_390
  let c0_i32_35 : BitVec 32 := 0#32
  let c1_i32_37 : BitVec 32 := 1#32
  let arg8 : BitVec 32 := Scf.iv c0_i32_35 c1_i32_37 k0_t2
  let v768 : Index := Scalar.indexCast arg8
  let c20_i32_391 : BitVec 32 := 20#32
  let v769 : Index := Scalar.indexCast c20_i32_391
  let c48_392 : Index := 48#32
  ![0, v768.toNat, 20, 48]
def k0_off124 (k0_t2 : Fin k0_t2_loop.trips) : Fin 4 → Nat :=
  let c0_i32_393 : BitVec 32 := 0#32
  let v773 : Index := Scalar.indexCast c0_i32_393
  let c0_i32_35 : BitVec 32 := 0#32
  let c1_i32_37 : BitVec 32 := 1#32
  let arg8 : BitVec 32 := Scf.iv c0_i32_35 c1_i32_37 k0_t2
  let v774 : Index := Scalar.indexCast arg8
  let c21_i32_394 : BitVec 32 := 21#32
  let v775 : Index := Scalar.indexCast c21_i32_394
  let c48_395 : Index := 48#32
  ![0, v774.toNat, 21, 48]
def k0_off125 (k0_t2 : Fin k0_t2_loop.trips) : Fin 4 → Nat :=
  let c0_i32_396 : BitVec 32 := 0#32
  let v779 : Index := Scalar.indexCast c0_i32_396
  let c0_i32_35 : BitVec 32 := 0#32
  let c1_i32_37 : BitVec 32 := 1#32
  let arg8 : BitVec 32 := Scf.iv c0_i32_35 c1_i32_37 k0_t2
  let v780 : Index := Scalar.indexCast arg8
  let c22_i32_397 : BitVec 32 := 22#32
  let v781 : Index := Scalar.indexCast c22_i32_397
  let c48_398 : Index := 48#32
  ![0, v780.toNat, 22, 48]
def k0_off126 (k0_t2 : Fin k0_t2_loop.trips) : Fin 4 → Nat :=
  let c0_i32_399 : BitVec 32 := 0#32
  let v785 : Index := Scalar.indexCast c0_i32_399
  let c0_i32_35 : BitVec 32 := 0#32
  let c1_i32_37 : BitVec 32 := 1#32
  let arg8 : BitVec 32 := Scf.iv c0_i32_35 c1_i32_37 k0_t2
  let v786 : Index := Scalar.indexCast arg8
  let c23_i32_400 : BitVec 32 := 23#32
  let v787 : Index := Scalar.indexCast c23_i32_400
  let c48_401 : Index := 48#32
  ![0, v786.toNat, 23, 48]
def k0_off127 (k0_t2 : Fin k0_t2_loop.trips) : Fin 4 → Nat :=
  let c0_i32_402 : BitVec 32 := 0#32
  let v791 : Index := Scalar.indexCast c0_i32_402
  let c0_i32_35 : BitVec 32 := 0#32
  let c1_i32_37 : BitVec 32 := 1#32
  let arg8 : BitVec 32 := Scf.iv c0_i32_35 c1_i32_37 k0_t2
  let v792 : Index := Scalar.indexCast arg8
  let c24_i32_403 : BitVec 32 := 24#32
  let v793 : Index := Scalar.indexCast c24_i32_403
  let c48_404 : Index := 48#32
  ![0, v792.toNat, 24, 48]
def k0_off128 (k0_t2 : Fin k0_t2_loop.trips) : Fin 4 → Nat :=
  let c0_i32_405 : BitVec 32 := 0#32
  let v797 : Index := Scalar.indexCast c0_i32_405
  let c0_i32_35 : BitVec 32 := 0#32
  let c1_i32_37 : BitVec 32 := 1#32
  let arg8 : BitVec 32 := Scf.iv c0_i32_35 c1_i32_37 k0_t2
  let v798 : Index := Scalar.indexCast arg8
  let c25_i32_406 : BitVec 32 := 25#32
  let v799 : Index := Scalar.indexCast c25_i32_406
  let c48_407 : Index := 48#32
  ![0, v798.toNat, 25, 48]
def k0_off129 (k0_t2 : Fin k0_t2_loop.trips) : Fin 4 → Nat :=
  let c0_i32_408 : BitVec 32 := 0#32
  let v803 : Index := Scalar.indexCast c0_i32_408
  let c0_i32_35 : BitVec 32 := 0#32
  let c1_i32_37 : BitVec 32 := 1#32
  let arg8 : BitVec 32 := Scf.iv c0_i32_35 c1_i32_37 k0_t2
  let v804 : Index := Scalar.indexCast arg8
  let c26_i32_409 : BitVec 32 := 26#32
  let v805 : Index := Scalar.indexCast c26_i32_409
  let c48_410 : Index := 48#32
  ![0, v804.toNat, 26, 48]
def k0_off130 (k0_t2 : Fin k0_t2_loop.trips) : Fin 4 → Nat :=
  let c0_i32_411 : BitVec 32 := 0#32
  let v809 : Index := Scalar.indexCast c0_i32_411
  let c0_i32_35 : BitVec 32 := 0#32
  let c1_i32_37 : BitVec 32 := 1#32
  let arg8 : BitVec 32 := Scf.iv c0_i32_35 c1_i32_37 k0_t2
  let v810 : Index := Scalar.indexCast arg8
  let c27_i32_412 : BitVec 32 := 27#32
  let v811 : Index := Scalar.indexCast c27_i32_412
  let c48_413 : Index := 48#32
  ![0, v810.toNat, 27, 48]
def k0_off131 (k0_t2 : Fin k0_t2_loop.trips) : Fin 4 → Nat :=
  let c0_i32_414 : BitVec 32 := 0#32
  let v815 : Index := Scalar.indexCast c0_i32_414
  let c0_i32_35 : BitVec 32 := 0#32
  let c1_i32_37 : BitVec 32 := 1#32
  let arg8 : BitVec 32 := Scf.iv c0_i32_35 c1_i32_37 k0_t2
  let v816 : Index := Scalar.indexCast arg8
  let c28_i32_415 : BitVec 32 := 28#32
  let v817 : Index := Scalar.indexCast c28_i32_415
  let c48_416 : Index := 48#32
  ![0, v816.toNat, 28, 48]
def k0_off132 (k0_t2 : Fin k0_t2_loop.trips) : Fin 4 → Nat :=
  let c0_i32_417 : BitVec 32 := 0#32
  let v821 : Index := Scalar.indexCast c0_i32_417
  let c0_i32_35 : BitVec 32 := 0#32
  let c1_i32_37 : BitVec 32 := 1#32
  let arg8 : BitVec 32 := Scf.iv c0_i32_35 c1_i32_37 k0_t2
  let v822 : Index := Scalar.indexCast arg8
  let c29_i32_418 : BitVec 32 := 29#32
  let v823 : Index := Scalar.indexCast c29_i32_418
  let c48_419 : Index := 48#32
  ![0, v822.toNat, 29, 48]
def k0_off133 (k0_t2 : Fin k0_t2_loop.trips) : Fin 4 → Nat :=
  let c0_i32_420 : BitVec 32 := 0#32
  let v827 : Index := Scalar.indexCast c0_i32_420
  let c0_i32_35 : BitVec 32 := 0#32
  let c1_i32_37 : BitVec 32 := 1#32
  let arg8 : BitVec 32 := Scf.iv c0_i32_35 c1_i32_37 k0_t2
  let v828 : Index := Scalar.indexCast arg8
  let c30_i32_421 : BitVec 32 := 30#32
  let v829 : Index := Scalar.indexCast c30_i32_421
  let c48_422 : Index := 48#32
  ![0, v828.toNat, 30, 48]
def k0_off134 (k0_t2 : Fin k0_t2_loop.trips) : Fin 4 → Nat :=
  let c0_i32_423 : BitVec 32 := 0#32
  let v833 : Index := Scalar.indexCast c0_i32_423
  let c0_i32_35 : BitVec 32 := 0#32
  let c1_i32_37 : BitVec 32 := 1#32
  let arg8 : BitVec 32 := Scf.iv c0_i32_35 c1_i32_37 k0_t2
  let v834 : Index := Scalar.indexCast arg8
  let c31_i32_424 : BitVec 32 := 31#32
  let v835 : Index := Scalar.indexCast c31_i32_424
  let c48_425 : Index := 48#32
  ![0, v834.toNat, 31, 48]
def k0_off135 (k0_t2 : Fin k0_t2_loop.trips) : Fin 3 → Nat :=
  let c0_i32_426 : BitVec 32 := 0#32
  let v839 : Index := Scalar.indexCast c0_i32_426
  let c0_i32_35 : BitVec 32 := 0#32
  let c1_i32_37 : BitVec 32 := 1#32
  let arg8 : BitVec 32 := Scf.iv c0_i32_35 c1_i32_37 k0_t2
  let v840 : Index := Scalar.indexCast arg8
  let c48_427 : Index := 48#32
  ![0, v840.toNat, 48]
def k0_off136 (k0_t2 : Fin k0_t2_loop.trips) : Fin 4 → Nat :=
  let c0_i32_428 : BitVec 32 := 0#32
  let v844 : Index := Scalar.indexCast c0_i32_428
  let c0_i32_35 : BitVec 32 := 0#32
  let c1_i32_37 : BitVec 32 := 1#32
  let arg8 : BitVec 32 := Scf.iv c0_i32_35 c1_i32_37 k0_t2
  let v845 : Index := Scalar.indexCast arg8
  let c0_i32_429 : BitVec 32 := 0#32
  let v846 : Index := Scalar.indexCast c0_i32_429
  let c64 : Index := 64#32
  ![0, v845.toNat, 0, 64]
def k0_off137 (k0_t2 : Fin k0_t2_loop.trips) : Fin 4 → Nat :=
  let c0_i32_430 : BitVec 32 := 0#32
  let v849 : Index := Scalar.indexCast c0_i32_430
  let c0_i32_35 : BitVec 32 := 0#32
  let c1_i32_37 : BitVec 32 := 1#32
  let arg8 : BitVec 32 := Scf.iv c0_i32_35 c1_i32_37 k0_t2
  let v850 : Index := Scalar.indexCast arg8
  let c1_i32_431 : BitVec 32 := 1#32
  let v851 : Index := Scalar.indexCast c1_i32_431
  let c64_432 : Index := 64#32
  ![0, v850.toNat, 1, 64]
def k0_off138 (k0_t2 : Fin k0_t2_loop.trips) : Fin 4 → Nat :=
  let c0_i32_433 : BitVec 32 := 0#32
  let v855 : Index := Scalar.indexCast c0_i32_433
  let c0_i32_35 : BitVec 32 := 0#32
  let c1_i32_37 : BitVec 32 := 1#32
  let arg8 : BitVec 32 := Scf.iv c0_i32_35 c1_i32_37 k0_t2
  let v856 : Index := Scalar.indexCast arg8
  let c2_i32_434 : BitVec 32 := 2#32
  let v857 : Index := Scalar.indexCast c2_i32_434
  let c64_435 : Index := 64#32
  ![0, v856.toNat, 2, 64]
def k0_off139 (k0_t2 : Fin k0_t2_loop.trips) : Fin 4 → Nat :=
  let c0_i32_436 : BitVec 32 := 0#32
  let v861 : Index := Scalar.indexCast c0_i32_436
  let c0_i32_35 : BitVec 32 := 0#32
  let c1_i32_37 : BitVec 32 := 1#32
  let arg8 : BitVec 32 := Scf.iv c0_i32_35 c1_i32_37 k0_t2
  let v862 : Index := Scalar.indexCast arg8
  let c3_i32_437 : BitVec 32 := 3#32
  let v863 : Index := Scalar.indexCast c3_i32_437
  let c64_438 : Index := 64#32
  ![0, v862.toNat, 3, 64]
def k0_off140 (k0_t2 : Fin k0_t2_loop.trips) : Fin 4 → Nat :=
  let c0_i32_439 : BitVec 32 := 0#32
  let v867 : Index := Scalar.indexCast c0_i32_439
  let c0_i32_35 : BitVec 32 := 0#32
  let c1_i32_37 : BitVec 32 := 1#32
  let arg8 : BitVec 32 := Scf.iv c0_i32_35 c1_i32_37 k0_t2
  let v868 : Index := Scalar.indexCast arg8
  let c4_i32_440 : BitVec 32 := 4#32
  let v869 : Index := Scalar.indexCast c4_i32_440
  let c64_441 : Index := 64#32
  ![0, v868.toNat, 4, 64]
def k0_off141 (k0_t2 : Fin k0_t2_loop.trips) : Fin 4 → Nat :=
  let c0_i32_442 : BitVec 32 := 0#32
  let v873 : Index := Scalar.indexCast c0_i32_442
  let c0_i32_35 : BitVec 32 := 0#32
  let c1_i32_37 : BitVec 32 := 1#32
  let arg8 : BitVec 32 := Scf.iv c0_i32_35 c1_i32_37 k0_t2
  let v874 : Index := Scalar.indexCast arg8
  let c5_i32_443 : BitVec 32 := 5#32
  let v875 : Index := Scalar.indexCast c5_i32_443
  let c64_444 : Index := 64#32
  ![0, v874.toNat, 5, 64]
def k0_off142 (k0_t2 : Fin k0_t2_loop.trips) : Fin 4 → Nat :=
  let c0_i32_445 : BitVec 32 := 0#32
  let v879 : Index := Scalar.indexCast c0_i32_445
  let c0_i32_35 : BitVec 32 := 0#32
  let c1_i32_37 : BitVec 32 := 1#32
  let arg8 : BitVec 32 := Scf.iv c0_i32_35 c1_i32_37 k0_t2
  let v880 : Index := Scalar.indexCast arg8
  let c6_i32_446 : BitVec 32 := 6#32
  let v881 : Index := Scalar.indexCast c6_i32_446
  let c64_447 : Index := 64#32
  ![0, v880.toNat, 6, 64]
def k0_off143 (k0_t2 : Fin k0_t2_loop.trips) : Fin 4 → Nat :=
  let c0_i32_448 : BitVec 32 := 0#32
  let v885 : Index := Scalar.indexCast c0_i32_448
  let c0_i32_35 : BitVec 32 := 0#32
  let c1_i32_37 : BitVec 32 := 1#32
  let arg8 : BitVec 32 := Scf.iv c0_i32_35 c1_i32_37 k0_t2
  let v886 : Index := Scalar.indexCast arg8
  let c7_i32_449 : BitVec 32 := 7#32
  let v887 : Index := Scalar.indexCast c7_i32_449
  let c64_450 : Index := 64#32
  ![0, v886.toNat, 7, 64]
def k0_off144 (k0_t2 : Fin k0_t2_loop.trips) : Fin 4 → Nat :=
  let c0_i32_451 : BitVec 32 := 0#32
  let v891 : Index := Scalar.indexCast c0_i32_451
  let c0_i32_35 : BitVec 32 := 0#32
  let c1_i32_37 : BitVec 32 := 1#32
  let arg8 : BitVec 32 := Scf.iv c0_i32_35 c1_i32_37 k0_t2
  let v892 : Index := Scalar.indexCast arg8
  let c8_i32_452 : BitVec 32 := 8#32
  let v893 : Index := Scalar.indexCast c8_i32_452
  let c64_453 : Index := 64#32
  ![0, v892.toNat, 8, 64]
def k0_off145 (k0_t2 : Fin k0_t2_loop.trips) : Fin 4 → Nat :=
  let c0_i32_454 : BitVec 32 := 0#32
  let v897 : Index := Scalar.indexCast c0_i32_454
  let c0_i32_35 : BitVec 32 := 0#32
  let c1_i32_37 : BitVec 32 := 1#32
  let arg8 : BitVec 32 := Scf.iv c0_i32_35 c1_i32_37 k0_t2
  let v898 : Index := Scalar.indexCast arg8
  let c9_i32_455 : BitVec 32 := 9#32
  let v899 : Index := Scalar.indexCast c9_i32_455
  let c64_456 : Index := 64#32
  ![0, v898.toNat, 9, 64]
def k0_off146 (k0_t2 : Fin k0_t2_loop.trips) : Fin 4 → Nat :=
  let c0_i32_457 : BitVec 32 := 0#32
  let v903 : Index := Scalar.indexCast c0_i32_457
  let c0_i32_35 : BitVec 32 := 0#32
  let c1_i32_37 : BitVec 32 := 1#32
  let arg8 : BitVec 32 := Scf.iv c0_i32_35 c1_i32_37 k0_t2
  let v904 : Index := Scalar.indexCast arg8
  let c10_i32_458 : BitVec 32 := 10#32
  let v905 : Index := Scalar.indexCast c10_i32_458
  let c64_459 : Index := 64#32
  ![0, v904.toNat, 10, 64]
def k0_off147 (k0_t2 : Fin k0_t2_loop.trips) : Fin 4 → Nat :=
  let c0_i32_460 : BitVec 32 := 0#32
  let v909 : Index := Scalar.indexCast c0_i32_460
  let c0_i32_35 : BitVec 32 := 0#32
  let c1_i32_37 : BitVec 32 := 1#32
  let arg8 : BitVec 32 := Scf.iv c0_i32_35 c1_i32_37 k0_t2
  let v910 : Index := Scalar.indexCast arg8
  let c11_i32_461 : BitVec 32 := 11#32
  let v911 : Index := Scalar.indexCast c11_i32_461
  let c64_462 : Index := 64#32
  ![0, v910.toNat, 11, 64]
def k0_off148 (k0_t2 : Fin k0_t2_loop.trips) : Fin 4 → Nat :=
  let c0_i32_463 : BitVec 32 := 0#32
  let v915 : Index := Scalar.indexCast c0_i32_463
  let c0_i32_35 : BitVec 32 := 0#32
  let c1_i32_37 : BitVec 32 := 1#32
  let arg8 : BitVec 32 := Scf.iv c0_i32_35 c1_i32_37 k0_t2
  let v916 : Index := Scalar.indexCast arg8
  let c12_i32_464 : BitVec 32 := 12#32
  let v917 : Index := Scalar.indexCast c12_i32_464
  let c64_465 : Index := 64#32
  ![0, v916.toNat, 12, 64]
def k0_off149 (k0_t2 : Fin k0_t2_loop.trips) : Fin 4 → Nat :=
  let c0_i32_466 : BitVec 32 := 0#32
  let v921 : Index := Scalar.indexCast c0_i32_466
  let c0_i32_35 : BitVec 32 := 0#32
  let c1_i32_37 : BitVec 32 := 1#32
  let arg8 : BitVec 32 := Scf.iv c0_i32_35 c1_i32_37 k0_t2
  let v922 : Index := Scalar.indexCast arg8
  let c13_i32_467 : BitVec 32 := 13#32
  let v923 : Index := Scalar.indexCast c13_i32_467
  let c64_468 : Index := 64#32
  ![0, v922.toNat, 13, 64]
def k0_off150 (k0_t2 : Fin k0_t2_loop.trips) : Fin 4 → Nat :=
  let c0_i32_469 : BitVec 32 := 0#32
  let v927 : Index := Scalar.indexCast c0_i32_469
  let c0_i32_35 : BitVec 32 := 0#32
  let c1_i32_37 : BitVec 32 := 1#32
  let arg8 : BitVec 32 := Scf.iv c0_i32_35 c1_i32_37 k0_t2
  let v928 : Index := Scalar.indexCast arg8
  let c14_i32_470 : BitVec 32 := 14#32
  let v929 : Index := Scalar.indexCast c14_i32_470
  let c64_471 : Index := 64#32
  ![0, v928.toNat, 14, 64]
def k0_off151 (k0_t2 : Fin k0_t2_loop.trips) : Fin 4 → Nat :=
  let c0_i32_472 : BitVec 32 := 0#32
  let v933 : Index := Scalar.indexCast c0_i32_472
  let c0_i32_35 : BitVec 32 := 0#32
  let c1_i32_37 : BitVec 32 := 1#32
  let arg8 : BitVec 32 := Scf.iv c0_i32_35 c1_i32_37 k0_t2
  let v934 : Index := Scalar.indexCast arg8
  let c15_i32_473 : BitVec 32 := 15#32
  let v935 : Index := Scalar.indexCast c15_i32_473
  let c64_474 : Index := 64#32
  ![0, v934.toNat, 15, 64]
def k0_off152 (k0_t2 : Fin k0_t2_loop.trips) : Fin 4 → Nat :=
  let c0_i32_475 : BitVec 32 := 0#32
  let v939 : Index := Scalar.indexCast c0_i32_475
  let c0_i32_35 : BitVec 32 := 0#32
  let c1_i32_37 : BitVec 32 := 1#32
  let arg8 : BitVec 32 := Scf.iv c0_i32_35 c1_i32_37 k0_t2
  let v940 : Index := Scalar.indexCast arg8
  let c16_i32_476 : BitVec 32 := 16#32
  let v941 : Index := Scalar.indexCast c16_i32_476
  let c64_477 : Index := 64#32
  ![0, v940.toNat, 16, 64]
def k0_off153 (k0_t2 : Fin k0_t2_loop.trips) : Fin 4 → Nat :=
  let c0_i32_478 : BitVec 32 := 0#32
  let v945 : Index := Scalar.indexCast c0_i32_478
  let c0_i32_35 : BitVec 32 := 0#32
  let c1_i32_37 : BitVec 32 := 1#32
  let arg8 : BitVec 32 := Scf.iv c0_i32_35 c1_i32_37 k0_t2
  let v946 : Index := Scalar.indexCast arg8
  let c17_i32_479 : BitVec 32 := 17#32
  let v947 : Index := Scalar.indexCast c17_i32_479
  let c64_480 : Index := 64#32
  ![0, v946.toNat, 17, 64]
def k0_off154 (k0_t2 : Fin k0_t2_loop.trips) : Fin 4 → Nat :=
  let c0_i32_481 : BitVec 32 := 0#32
  let v951 : Index := Scalar.indexCast c0_i32_481
  let c0_i32_35 : BitVec 32 := 0#32
  let c1_i32_37 : BitVec 32 := 1#32
  let arg8 : BitVec 32 := Scf.iv c0_i32_35 c1_i32_37 k0_t2
  let v952 : Index := Scalar.indexCast arg8
  let c18_i32_482 : BitVec 32 := 18#32
  let v953 : Index := Scalar.indexCast c18_i32_482
  let c64_483 : Index := 64#32
  ![0, v952.toNat, 18, 64]
def k0_off155 (k0_t2 : Fin k0_t2_loop.trips) : Fin 4 → Nat :=
  let c0_i32_484 : BitVec 32 := 0#32
  let v957 : Index := Scalar.indexCast c0_i32_484
  let c0_i32_35 : BitVec 32 := 0#32
  let c1_i32_37 : BitVec 32 := 1#32
  let arg8 : BitVec 32 := Scf.iv c0_i32_35 c1_i32_37 k0_t2
  let v958 : Index := Scalar.indexCast arg8
  let c19_i32_485 : BitVec 32 := 19#32
  let v959 : Index := Scalar.indexCast c19_i32_485
  let c64_486 : Index := 64#32
  ![0, v958.toNat, 19, 64]
def k0_off156 (k0_t2 : Fin k0_t2_loop.trips) : Fin 4 → Nat :=
  let c0_i32_487 : BitVec 32 := 0#32
  let v963 : Index := Scalar.indexCast c0_i32_487
  let c0_i32_35 : BitVec 32 := 0#32
  let c1_i32_37 : BitVec 32 := 1#32
  let arg8 : BitVec 32 := Scf.iv c0_i32_35 c1_i32_37 k0_t2
  let v964 : Index := Scalar.indexCast arg8
  let c20_i32_488 : BitVec 32 := 20#32
  let v965 : Index := Scalar.indexCast c20_i32_488
  let c64_489 : Index := 64#32
  ![0, v964.toNat, 20, 64]
def k0_off157 (k0_t2 : Fin k0_t2_loop.trips) : Fin 4 → Nat :=
  let c0_i32_490 : BitVec 32 := 0#32
  let v969 : Index := Scalar.indexCast c0_i32_490
  let c0_i32_35 : BitVec 32 := 0#32
  let c1_i32_37 : BitVec 32 := 1#32
  let arg8 : BitVec 32 := Scf.iv c0_i32_35 c1_i32_37 k0_t2
  let v970 : Index := Scalar.indexCast arg8
  let c21_i32_491 : BitVec 32 := 21#32
  let v971 : Index := Scalar.indexCast c21_i32_491
  let c64_492 : Index := 64#32
  ![0, v970.toNat, 21, 64]
def k0_off158 (k0_t2 : Fin k0_t2_loop.trips) : Fin 4 → Nat :=
  let c0_i32_493 : BitVec 32 := 0#32
  let v975 : Index := Scalar.indexCast c0_i32_493
  let c0_i32_35 : BitVec 32 := 0#32
  let c1_i32_37 : BitVec 32 := 1#32
  let arg8 : BitVec 32 := Scf.iv c0_i32_35 c1_i32_37 k0_t2
  let v976 : Index := Scalar.indexCast arg8
  let c22_i32_494 : BitVec 32 := 22#32
  let v977 : Index := Scalar.indexCast c22_i32_494
  let c64_495 : Index := 64#32
  ![0, v976.toNat, 22, 64]
def k0_off159 (k0_t2 : Fin k0_t2_loop.trips) : Fin 4 → Nat :=
  let c0_i32_496 : BitVec 32 := 0#32
  let v981 : Index := Scalar.indexCast c0_i32_496
  let c0_i32_35 : BitVec 32 := 0#32
  let c1_i32_37 : BitVec 32 := 1#32
  let arg8 : BitVec 32 := Scf.iv c0_i32_35 c1_i32_37 k0_t2
  let v982 : Index := Scalar.indexCast arg8
  let c23_i32_497 : BitVec 32 := 23#32
  let v983 : Index := Scalar.indexCast c23_i32_497
  let c64_498 : Index := 64#32
  ![0, v982.toNat, 23, 64]
def k0_off160 (k0_t2 : Fin k0_t2_loop.trips) : Fin 4 → Nat :=
  let c0_i32_499 : BitVec 32 := 0#32
  let v987 : Index := Scalar.indexCast c0_i32_499
  let c0_i32_35 : BitVec 32 := 0#32
  let c1_i32_37 : BitVec 32 := 1#32
  let arg8 : BitVec 32 := Scf.iv c0_i32_35 c1_i32_37 k0_t2
  let v988 : Index := Scalar.indexCast arg8
  let c24_i32_500 : BitVec 32 := 24#32
  let v989 : Index := Scalar.indexCast c24_i32_500
  let c64_501 : Index := 64#32
  ![0, v988.toNat, 24, 64]
def k0_off161 (k0_t2 : Fin k0_t2_loop.trips) : Fin 4 → Nat :=
  let c0_i32_502 : BitVec 32 := 0#32
  let v993 : Index := Scalar.indexCast c0_i32_502
  let c0_i32_35 : BitVec 32 := 0#32
  let c1_i32_37 : BitVec 32 := 1#32
  let arg8 : BitVec 32 := Scf.iv c0_i32_35 c1_i32_37 k0_t2
  let v994 : Index := Scalar.indexCast arg8
  let c25_i32_503 : BitVec 32 := 25#32
  let v995 : Index := Scalar.indexCast c25_i32_503
  let c64_504 : Index := 64#32
  ![0, v994.toNat, 25, 64]
def k0_off162 (k0_t2 : Fin k0_t2_loop.trips) : Fin 4 → Nat :=
  let c0_i32_505 : BitVec 32 := 0#32
  let v999 : Index := Scalar.indexCast c0_i32_505
  let c0_i32_35 : BitVec 32 := 0#32
  let c1_i32_37 : BitVec 32 := 1#32
  let arg8 : BitVec 32 := Scf.iv c0_i32_35 c1_i32_37 k0_t2
  let v1000 : Index := Scalar.indexCast arg8
  let c26_i32_506 : BitVec 32 := 26#32
  let v1001 : Index := Scalar.indexCast c26_i32_506
  let c64_507 : Index := 64#32
  ![0, v1000.toNat, 26, 64]
def k0_off163 (k0_t2 : Fin k0_t2_loop.trips) : Fin 4 → Nat :=
  let c0_i32_508 : BitVec 32 := 0#32
  let v1005 : Index := Scalar.indexCast c0_i32_508
  let c0_i32_35 : BitVec 32 := 0#32
  let c1_i32_37 : BitVec 32 := 1#32
  let arg8 : BitVec 32 := Scf.iv c0_i32_35 c1_i32_37 k0_t2
  let v1006 : Index := Scalar.indexCast arg8
  let c27_i32_509 : BitVec 32 := 27#32
  let v1007 : Index := Scalar.indexCast c27_i32_509
  let c64_510 : Index := 64#32
  ![0, v1006.toNat, 27, 64]
def k0_off164 (k0_t2 : Fin k0_t2_loop.trips) : Fin 4 → Nat :=
  let c0_i32_511 : BitVec 32 := 0#32
  let v1011 : Index := Scalar.indexCast c0_i32_511
  let c0_i32_35 : BitVec 32 := 0#32
  let c1_i32_37 : BitVec 32 := 1#32
  let arg8 : BitVec 32 := Scf.iv c0_i32_35 c1_i32_37 k0_t2
  let v1012 : Index := Scalar.indexCast arg8
  let c28_i32_512 : BitVec 32 := 28#32
  let v1013 : Index := Scalar.indexCast c28_i32_512
  let c64_513 : Index := 64#32
  ![0, v1012.toNat, 28, 64]
def k0_off165 (k0_t2 : Fin k0_t2_loop.trips) : Fin 4 → Nat :=
  let c0_i32_514 : BitVec 32 := 0#32
  let v1017 : Index := Scalar.indexCast c0_i32_514
  let c0_i32_35 : BitVec 32 := 0#32
  let c1_i32_37 : BitVec 32 := 1#32
  let arg8 : BitVec 32 := Scf.iv c0_i32_35 c1_i32_37 k0_t2
  let v1018 : Index := Scalar.indexCast arg8
  let c29_i32_515 : BitVec 32 := 29#32
  let v1019 : Index := Scalar.indexCast c29_i32_515
  let c64_516 : Index := 64#32
  ![0, v1018.toNat, 29, 64]
def k0_off166 (k0_t2 : Fin k0_t2_loop.trips) : Fin 4 → Nat :=
  let c0_i32_517 : BitVec 32 := 0#32
  let v1023 : Index := Scalar.indexCast c0_i32_517
  let c0_i32_35 : BitVec 32 := 0#32
  let c1_i32_37 : BitVec 32 := 1#32
  let arg8 : BitVec 32 := Scf.iv c0_i32_35 c1_i32_37 k0_t2
  let v1024 : Index := Scalar.indexCast arg8
  let c30_i32_518 : BitVec 32 := 30#32
  let v1025 : Index := Scalar.indexCast c30_i32_518
  let c64_519 : Index := 64#32
  ![0, v1024.toNat, 30, 64]
def k0_off167 (k0_t2 : Fin k0_t2_loop.trips) : Fin 4 → Nat :=
  let c0_i32_520 : BitVec 32 := 0#32
  let v1029 : Index := Scalar.indexCast c0_i32_520
  let c0_i32_35 : BitVec 32 := 0#32
  let c1_i32_37 : BitVec 32 := 1#32
  let arg8 : BitVec 32 := Scf.iv c0_i32_35 c1_i32_37 k0_t2
  let v1030 : Index := Scalar.indexCast arg8
  let c31_i32_521 : BitVec 32 := 31#32
  let v1031 : Index := Scalar.indexCast c31_i32_521
  let c64_522 : Index := 64#32
  ![0, v1030.toNat, 31, 64]
def k0_off168 (k0_t2 : Fin k0_t2_loop.trips) : Fin 3 → Nat :=
  let c0_i32_523 : BitVec 32 := 0#32
  let v1035 : Index := Scalar.indexCast c0_i32_523
  let c0_i32_35 : BitVec 32 := 0#32
  let c1_i32_37 : BitVec 32 := 1#32
  let arg8 : BitVec 32 := Scf.iv c0_i32_35 c1_i32_37 k0_t2
  let v1036 : Index := Scalar.indexCast arg8
  let c64_524 : Index := 64#32
  ![0, v1036.toNat, 64]
def k0_off169 (k0_t2 : Fin k0_t2_loop.trips) : Fin 4 → Nat :=
  let c0_i32_525 : BitVec 32 := 0#32
  let v1040 : Index := Scalar.indexCast c0_i32_525
  let c0_i32_35 : BitVec 32 := 0#32
  let c1_i32_37 : BitVec 32 := 1#32
  let arg8 : BitVec 32 := Scf.iv c0_i32_35 c1_i32_37 k0_t2
  let v1041 : Index := Scalar.indexCast arg8
  let c0_i32_526 : BitVec 32 := 0#32
  let v1042 : Index := Scalar.indexCast c0_i32_526
  let c80 : Index := 80#32
  ![0, v1041.toNat, 0, 80]
def k0_off170 (k0_t2 : Fin k0_t2_loop.trips) : Fin 4 → Nat :=
  let c0_i32_527 : BitVec 32 := 0#32
  let v1045 : Index := Scalar.indexCast c0_i32_527
  let c0_i32_35 : BitVec 32 := 0#32
  let c1_i32_37 : BitVec 32 := 1#32
  let arg8 : BitVec 32 := Scf.iv c0_i32_35 c1_i32_37 k0_t2
  let v1046 : Index := Scalar.indexCast arg8
  let c1_i32_528 : BitVec 32 := 1#32
  let v1047 : Index := Scalar.indexCast c1_i32_528
  let c80_529 : Index := 80#32
  ![0, v1046.toNat, 1, 80]
def k0_off171 (k0_t2 : Fin k0_t2_loop.trips) : Fin 4 → Nat :=
  let c0_i32_530 : BitVec 32 := 0#32
  let v1051 : Index := Scalar.indexCast c0_i32_530
  let c0_i32_35 : BitVec 32 := 0#32
  let c1_i32_37 : BitVec 32 := 1#32
  let arg8 : BitVec 32 := Scf.iv c0_i32_35 c1_i32_37 k0_t2
  let v1052 : Index := Scalar.indexCast arg8
  let c2_i32_531 : BitVec 32 := 2#32
  let v1053 : Index := Scalar.indexCast c2_i32_531
  let c80_532 : Index := 80#32
  ![0, v1052.toNat, 2, 80]
def k0_off172 (k0_t2 : Fin k0_t2_loop.trips) : Fin 4 → Nat :=
  let c0_i32_533 : BitVec 32 := 0#32
  let v1057 : Index := Scalar.indexCast c0_i32_533
  let c0_i32_35 : BitVec 32 := 0#32
  let c1_i32_37 : BitVec 32 := 1#32
  let arg8 : BitVec 32 := Scf.iv c0_i32_35 c1_i32_37 k0_t2
  let v1058 : Index := Scalar.indexCast arg8
  let c3_i32_534 : BitVec 32 := 3#32
  let v1059 : Index := Scalar.indexCast c3_i32_534
  let c80_535 : Index := 80#32
  ![0, v1058.toNat, 3, 80]
def k0_off173 (k0_t2 : Fin k0_t2_loop.trips) : Fin 4 → Nat :=
  let c0_i32_536 : BitVec 32 := 0#32
  let v1063 : Index := Scalar.indexCast c0_i32_536
  let c0_i32_35 : BitVec 32 := 0#32
  let c1_i32_37 : BitVec 32 := 1#32
  let arg8 : BitVec 32 := Scf.iv c0_i32_35 c1_i32_37 k0_t2
  let v1064 : Index := Scalar.indexCast arg8
  let c4_i32_537 : BitVec 32 := 4#32
  let v1065 : Index := Scalar.indexCast c4_i32_537
  let c80_538 : Index := 80#32
  ![0, v1064.toNat, 4, 80]
def k0_off174 (k0_t2 : Fin k0_t2_loop.trips) : Fin 4 → Nat :=
  let c0_i32_539 : BitVec 32 := 0#32
  let v1069 : Index := Scalar.indexCast c0_i32_539
  let c0_i32_35 : BitVec 32 := 0#32
  let c1_i32_37 : BitVec 32 := 1#32
  let arg8 : BitVec 32 := Scf.iv c0_i32_35 c1_i32_37 k0_t2
  let v1070 : Index := Scalar.indexCast arg8
  let c5_i32_540 : BitVec 32 := 5#32
  let v1071 : Index := Scalar.indexCast c5_i32_540
  let c80_541 : Index := 80#32
  ![0, v1070.toNat, 5, 80]
def k0_off175 (k0_t2 : Fin k0_t2_loop.trips) : Fin 4 → Nat :=
  let c0_i32_542 : BitVec 32 := 0#32
  let v1075 : Index := Scalar.indexCast c0_i32_542
  let c0_i32_35 : BitVec 32 := 0#32
  let c1_i32_37 : BitVec 32 := 1#32
  let arg8 : BitVec 32 := Scf.iv c0_i32_35 c1_i32_37 k0_t2
  let v1076 : Index := Scalar.indexCast arg8
  let c6_i32_543 : BitVec 32 := 6#32
  let v1077 : Index := Scalar.indexCast c6_i32_543
  let c80_544 : Index := 80#32
  ![0, v1076.toNat, 6, 80]
def k0_off176 (k0_t2 : Fin k0_t2_loop.trips) : Fin 4 → Nat :=
  let c0_i32_545 : BitVec 32 := 0#32
  let v1081 : Index := Scalar.indexCast c0_i32_545
  let c0_i32_35 : BitVec 32 := 0#32
  let c1_i32_37 : BitVec 32 := 1#32
  let arg8 : BitVec 32 := Scf.iv c0_i32_35 c1_i32_37 k0_t2
  let v1082 : Index := Scalar.indexCast arg8
  let c7_i32_546 : BitVec 32 := 7#32
  let v1083 : Index := Scalar.indexCast c7_i32_546
  let c80_547 : Index := 80#32
  ![0, v1082.toNat, 7, 80]
def k0_off177 (k0_t2 : Fin k0_t2_loop.trips) : Fin 4 → Nat :=
  let c0_i32_548 : BitVec 32 := 0#32
  let v1087 : Index := Scalar.indexCast c0_i32_548
  let c0_i32_35 : BitVec 32 := 0#32
  let c1_i32_37 : BitVec 32 := 1#32
  let arg8 : BitVec 32 := Scf.iv c0_i32_35 c1_i32_37 k0_t2
  let v1088 : Index := Scalar.indexCast arg8
  let c8_i32_549 : BitVec 32 := 8#32
  let v1089 : Index := Scalar.indexCast c8_i32_549
  let c80_550 : Index := 80#32
  ![0, v1088.toNat, 8, 80]
def k0_off178 (k0_t2 : Fin k0_t2_loop.trips) : Fin 4 → Nat :=
  let c0_i32_551 : BitVec 32 := 0#32
  let v1093 : Index := Scalar.indexCast c0_i32_551
  let c0_i32_35 : BitVec 32 := 0#32
  let c1_i32_37 : BitVec 32 := 1#32
  let arg8 : BitVec 32 := Scf.iv c0_i32_35 c1_i32_37 k0_t2
  let v1094 : Index := Scalar.indexCast arg8
  let c9_i32_552 : BitVec 32 := 9#32
  let v1095 : Index := Scalar.indexCast c9_i32_552
  let c80_553 : Index := 80#32
  ![0, v1094.toNat, 9, 80]
def k0_off179 (k0_t2 : Fin k0_t2_loop.trips) : Fin 4 → Nat :=
  let c0_i32_554 : BitVec 32 := 0#32
  let v1099 : Index := Scalar.indexCast c0_i32_554
  let c0_i32_35 : BitVec 32 := 0#32
  let c1_i32_37 : BitVec 32 := 1#32
  let arg8 : BitVec 32 := Scf.iv c0_i32_35 c1_i32_37 k0_t2
  let v1100 : Index := Scalar.indexCast arg8
  let c10_i32_555 : BitVec 32 := 10#32
  let v1101 : Index := Scalar.indexCast c10_i32_555
  let c80_556 : Index := 80#32
  ![0, v1100.toNat, 10, 80]
def k0_off180 (k0_t2 : Fin k0_t2_loop.trips) : Fin 4 → Nat :=
  let c0_i32_557 : BitVec 32 := 0#32
  let v1105 : Index := Scalar.indexCast c0_i32_557
  let c0_i32_35 : BitVec 32 := 0#32
  let c1_i32_37 : BitVec 32 := 1#32
  let arg8 : BitVec 32 := Scf.iv c0_i32_35 c1_i32_37 k0_t2
  let v1106 : Index := Scalar.indexCast arg8
  let c11_i32_558 : BitVec 32 := 11#32
  let v1107 : Index := Scalar.indexCast c11_i32_558
  let c80_559 : Index := 80#32
  ![0, v1106.toNat, 11, 80]
def k0_off181 (k0_t2 : Fin k0_t2_loop.trips) : Fin 4 → Nat :=
  let c0_i32_560 : BitVec 32 := 0#32
  let v1111 : Index := Scalar.indexCast c0_i32_560
  let c0_i32_35 : BitVec 32 := 0#32
  let c1_i32_37 : BitVec 32 := 1#32
  let arg8 : BitVec 32 := Scf.iv c0_i32_35 c1_i32_37 k0_t2
  let v1112 : Index := Scalar.indexCast arg8
  let c12_i32_561 : BitVec 32 := 12#32
  let v1113 : Index := Scalar.indexCast c12_i32_561
  let c80_562 : Index := 80#32
  ![0, v1112.toNat, 12, 80]
def k0_off182 (k0_t2 : Fin k0_t2_loop.trips) : Fin 4 → Nat :=
  let c0_i32_563 : BitVec 32 := 0#32
  let v1117 : Index := Scalar.indexCast c0_i32_563
  let c0_i32_35 : BitVec 32 := 0#32
  let c1_i32_37 : BitVec 32 := 1#32
  let arg8 : BitVec 32 := Scf.iv c0_i32_35 c1_i32_37 k0_t2
  let v1118 : Index := Scalar.indexCast arg8
  let c13_i32_564 : BitVec 32 := 13#32
  let v1119 : Index := Scalar.indexCast c13_i32_564
  let c80_565 : Index := 80#32
  ![0, v1118.toNat, 13, 80]
def k0_off183 (k0_t2 : Fin k0_t2_loop.trips) : Fin 4 → Nat :=
  let c0_i32_566 : BitVec 32 := 0#32
  let v1123 : Index := Scalar.indexCast c0_i32_566
  let c0_i32_35 : BitVec 32 := 0#32
  let c1_i32_37 : BitVec 32 := 1#32
  let arg8 : BitVec 32 := Scf.iv c0_i32_35 c1_i32_37 k0_t2
  let v1124 : Index := Scalar.indexCast arg8
  let c14_i32_567 : BitVec 32 := 14#32
  let v1125 : Index := Scalar.indexCast c14_i32_567
  let c80_568 : Index := 80#32
  ![0, v1124.toNat, 14, 80]
def k0_off184 (k0_t2 : Fin k0_t2_loop.trips) : Fin 4 → Nat :=
  let c0_i32_569 : BitVec 32 := 0#32
  let v1129 : Index := Scalar.indexCast c0_i32_569
  let c0_i32_35 : BitVec 32 := 0#32
  let c1_i32_37 : BitVec 32 := 1#32
  let arg8 : BitVec 32 := Scf.iv c0_i32_35 c1_i32_37 k0_t2
  let v1130 : Index := Scalar.indexCast arg8
  let c15_i32_570 : BitVec 32 := 15#32
  let v1131 : Index := Scalar.indexCast c15_i32_570
  let c80_571 : Index := 80#32
  ![0, v1130.toNat, 15, 80]
def k0_off185 (k0_t2 : Fin k0_t2_loop.trips) : Fin 4 → Nat :=
  let c0_i32_572 : BitVec 32 := 0#32
  let v1135 : Index := Scalar.indexCast c0_i32_572
  let c0_i32_35 : BitVec 32 := 0#32
  let c1_i32_37 : BitVec 32 := 1#32
  let arg8 : BitVec 32 := Scf.iv c0_i32_35 c1_i32_37 k0_t2
  let v1136 : Index := Scalar.indexCast arg8
  let c16_i32_573 : BitVec 32 := 16#32
  let v1137 : Index := Scalar.indexCast c16_i32_573
  let c80_574 : Index := 80#32
  ![0, v1136.toNat, 16, 80]
def k0_off186 (k0_t2 : Fin k0_t2_loop.trips) : Fin 4 → Nat :=
  let c0_i32_575 : BitVec 32 := 0#32
  let v1141 : Index := Scalar.indexCast c0_i32_575
  let c0_i32_35 : BitVec 32 := 0#32
  let c1_i32_37 : BitVec 32 := 1#32
  let arg8 : BitVec 32 := Scf.iv c0_i32_35 c1_i32_37 k0_t2
  let v1142 : Index := Scalar.indexCast arg8
  let c17_i32_576 : BitVec 32 := 17#32
  let v1143 : Index := Scalar.indexCast c17_i32_576
  let c80_577 : Index := 80#32
  ![0, v1142.toNat, 17, 80]
def k0_off187 (k0_t2 : Fin k0_t2_loop.trips) : Fin 4 → Nat :=
  let c0_i32_578 : BitVec 32 := 0#32
  let v1147 : Index := Scalar.indexCast c0_i32_578
  let c0_i32_35 : BitVec 32 := 0#32
  let c1_i32_37 : BitVec 32 := 1#32
  let arg8 : BitVec 32 := Scf.iv c0_i32_35 c1_i32_37 k0_t2
  let v1148 : Index := Scalar.indexCast arg8
  let c18_i32_579 : BitVec 32 := 18#32
  let v1149 : Index := Scalar.indexCast c18_i32_579
  let c80_580 : Index := 80#32
  ![0, v1148.toNat, 18, 80]
def k0_off188 (k0_t2 : Fin k0_t2_loop.trips) : Fin 4 → Nat :=
  let c0_i32_581 : BitVec 32 := 0#32
  let v1153 : Index := Scalar.indexCast c0_i32_581
  let c0_i32_35 : BitVec 32 := 0#32
  let c1_i32_37 : BitVec 32 := 1#32
  let arg8 : BitVec 32 := Scf.iv c0_i32_35 c1_i32_37 k0_t2
  let v1154 : Index := Scalar.indexCast arg8
  let c19_i32_582 : BitVec 32 := 19#32
  let v1155 : Index := Scalar.indexCast c19_i32_582
  let c80_583 : Index := 80#32
  ![0, v1154.toNat, 19, 80]
def k0_off189 (k0_t2 : Fin k0_t2_loop.trips) : Fin 4 → Nat :=
  let c0_i32_584 : BitVec 32 := 0#32
  let v1159 : Index := Scalar.indexCast c0_i32_584
  let c0_i32_35 : BitVec 32 := 0#32
  let c1_i32_37 : BitVec 32 := 1#32
  let arg8 : BitVec 32 := Scf.iv c0_i32_35 c1_i32_37 k0_t2
  let v1160 : Index := Scalar.indexCast arg8
  let c20_i32_585 : BitVec 32 := 20#32
  let v1161 : Index := Scalar.indexCast c20_i32_585
  let c80_586 : Index := 80#32
  ![0, v1160.toNat, 20, 80]
def k0_off190 (k0_t2 : Fin k0_t2_loop.trips) : Fin 4 → Nat :=
  let c0_i32_587 : BitVec 32 := 0#32
  let v1165 : Index := Scalar.indexCast c0_i32_587
  let c0_i32_35 : BitVec 32 := 0#32
  let c1_i32_37 : BitVec 32 := 1#32
  let arg8 : BitVec 32 := Scf.iv c0_i32_35 c1_i32_37 k0_t2
  let v1166 : Index := Scalar.indexCast arg8
  let c21_i32_588 : BitVec 32 := 21#32
  let v1167 : Index := Scalar.indexCast c21_i32_588
  let c80_589 : Index := 80#32
  ![0, v1166.toNat, 21, 80]
def k0_off191 (k0_t2 : Fin k0_t2_loop.trips) : Fin 4 → Nat :=
  let c0_i32_590 : BitVec 32 := 0#32
  let v1171 : Index := Scalar.indexCast c0_i32_590
  let c0_i32_35 : BitVec 32 := 0#32
  let c1_i32_37 : BitVec 32 := 1#32
  let arg8 : BitVec 32 := Scf.iv c0_i32_35 c1_i32_37 k0_t2
  let v1172 : Index := Scalar.indexCast arg8
  let c22_i32_591 : BitVec 32 := 22#32
  let v1173 : Index := Scalar.indexCast c22_i32_591
  let c80_592 : Index := 80#32
  ![0, v1172.toNat, 22, 80]
def k0_off192 (k0_t2 : Fin k0_t2_loop.trips) : Fin 4 → Nat :=
  let c0_i32_593 : BitVec 32 := 0#32
  let v1177 : Index := Scalar.indexCast c0_i32_593
  let c0_i32_35 : BitVec 32 := 0#32
  let c1_i32_37 : BitVec 32 := 1#32
  let arg8 : BitVec 32 := Scf.iv c0_i32_35 c1_i32_37 k0_t2
  let v1178 : Index := Scalar.indexCast arg8
  let c23_i32_594 : BitVec 32 := 23#32
  let v1179 : Index := Scalar.indexCast c23_i32_594
  let c80_595 : Index := 80#32
  ![0, v1178.toNat, 23, 80]
def k0_off193 (k0_t2 : Fin k0_t2_loop.trips) : Fin 4 → Nat :=
  let c0_i32_596 : BitVec 32 := 0#32
  let v1183 : Index := Scalar.indexCast c0_i32_596
  let c0_i32_35 : BitVec 32 := 0#32
  let c1_i32_37 : BitVec 32 := 1#32
  let arg8 : BitVec 32 := Scf.iv c0_i32_35 c1_i32_37 k0_t2
  let v1184 : Index := Scalar.indexCast arg8
  let c24_i32_597 : BitVec 32 := 24#32
  let v1185 : Index := Scalar.indexCast c24_i32_597
  let c80_598 : Index := 80#32
  ![0, v1184.toNat, 24, 80]
def k0_off194 (k0_t2 : Fin k0_t2_loop.trips) : Fin 4 → Nat :=
  let c0_i32_599 : BitVec 32 := 0#32
  let v1189 : Index := Scalar.indexCast c0_i32_599
  let c0_i32_35 : BitVec 32 := 0#32
  let c1_i32_37 : BitVec 32 := 1#32
  let arg8 : BitVec 32 := Scf.iv c0_i32_35 c1_i32_37 k0_t2
  let v1190 : Index := Scalar.indexCast arg8
  let c25_i32_600 : BitVec 32 := 25#32
  let v1191 : Index := Scalar.indexCast c25_i32_600
  let c80_601 : Index := 80#32
  ![0, v1190.toNat, 25, 80]
def k0_off195 (k0_t2 : Fin k0_t2_loop.trips) : Fin 4 → Nat :=
  let c0_i32_602 : BitVec 32 := 0#32
  let v1195 : Index := Scalar.indexCast c0_i32_602
  let c0_i32_35 : BitVec 32 := 0#32
  let c1_i32_37 : BitVec 32 := 1#32
  let arg8 : BitVec 32 := Scf.iv c0_i32_35 c1_i32_37 k0_t2
  let v1196 : Index := Scalar.indexCast arg8
  let c26_i32_603 : BitVec 32 := 26#32
  let v1197 : Index := Scalar.indexCast c26_i32_603
  let c80_604 : Index := 80#32
  ![0, v1196.toNat, 26, 80]
def k0_off196 (k0_t2 : Fin k0_t2_loop.trips) : Fin 4 → Nat :=
  let c0_i32_605 : BitVec 32 := 0#32
  let v1201 : Index := Scalar.indexCast c0_i32_605
  let c0_i32_35 : BitVec 32 := 0#32
  let c1_i32_37 : BitVec 32 := 1#32
  let arg8 : BitVec 32 := Scf.iv c0_i32_35 c1_i32_37 k0_t2
  let v1202 : Index := Scalar.indexCast arg8
  let c27_i32_606 : BitVec 32 := 27#32
  let v1203 : Index := Scalar.indexCast c27_i32_606
  let c80_607 : Index := 80#32
  ![0, v1202.toNat, 27, 80]
def k0_off197 (k0_t2 : Fin k0_t2_loop.trips) : Fin 4 → Nat :=
  let c0_i32_608 : BitVec 32 := 0#32
  let v1207 : Index := Scalar.indexCast c0_i32_608
  let c0_i32_35 : BitVec 32 := 0#32
  let c1_i32_37 : BitVec 32 := 1#32
  let arg8 : BitVec 32 := Scf.iv c0_i32_35 c1_i32_37 k0_t2
  let v1208 : Index := Scalar.indexCast arg8
  let c28_i32_609 : BitVec 32 := 28#32
  let v1209 : Index := Scalar.indexCast c28_i32_609
  let c80_610 : Index := 80#32
  ![0, v1208.toNat, 28, 80]
def k0_off198 (k0_t2 : Fin k0_t2_loop.trips) : Fin 4 → Nat :=
  let c0_i32_611 : BitVec 32 := 0#32
  let v1213 : Index := Scalar.indexCast c0_i32_611
  let c0_i32_35 : BitVec 32 := 0#32
  let c1_i32_37 : BitVec 32 := 1#32
  let arg8 : BitVec 32 := Scf.iv c0_i32_35 c1_i32_37 k0_t2
  let v1214 : Index := Scalar.indexCast arg8
  let c29_i32_612 : BitVec 32 := 29#32
  let v1215 : Index := Scalar.indexCast c29_i32_612
  let c80_613 : Index := 80#32
  ![0, v1214.toNat, 29, 80]
def k0_off199 (k0_t2 : Fin k0_t2_loop.trips) : Fin 4 → Nat :=
  let c0_i32_614 : BitVec 32 := 0#32
  let v1219 : Index := Scalar.indexCast c0_i32_614
  let c0_i32_35 : BitVec 32 := 0#32
  let c1_i32_37 : BitVec 32 := 1#32
  let arg8 : BitVec 32 := Scf.iv c0_i32_35 c1_i32_37 k0_t2
  let v1220 : Index := Scalar.indexCast arg8
  let c30_i32_615 : BitVec 32 := 30#32
  let v1221 : Index := Scalar.indexCast c30_i32_615
  let c80_616 : Index := 80#32
  ![0, v1220.toNat, 30, 80]
def k0_off200 (k0_t2 : Fin k0_t2_loop.trips) : Fin 4 → Nat :=
  let c0_i32_617 : BitVec 32 := 0#32
  let v1225 : Index := Scalar.indexCast c0_i32_617
  let c0_i32_35 : BitVec 32 := 0#32
  let c1_i32_37 : BitVec 32 := 1#32
  let arg8 : BitVec 32 := Scf.iv c0_i32_35 c1_i32_37 k0_t2
  let v1226 : Index := Scalar.indexCast arg8
  let c31_i32_618 : BitVec 32 := 31#32
  let v1227 : Index := Scalar.indexCast c31_i32_618
  let c80_619 : Index := 80#32
  ![0, v1226.toNat, 31, 80]
def k0_off201 (k0_t2 : Fin k0_t2_loop.trips) : Fin 3 → Nat :=
  let c0_i32_620 : BitVec 32 := 0#32
  let v1231 : Index := Scalar.indexCast c0_i32_620
  let c0_i32_35 : BitVec 32 := 0#32
  let c1_i32_37 : BitVec 32 := 1#32
  let arg8 : BitVec 32 := Scf.iv c0_i32_35 c1_i32_37 k0_t2
  let v1232 : Index := Scalar.indexCast arg8
  let c80_621 : Index := 80#32
  ![0, v1232.toNat, 80]
def k0_off202 (k0_t2 : Fin k0_t2_loop.trips) : Fin 4 → Nat :=
  let c0_i32_622 : BitVec 32 := 0#32
  let v1236 : Index := Scalar.indexCast c0_i32_622
  let c0_i32_35 : BitVec 32 := 0#32
  let c1_i32_37 : BitVec 32 := 1#32
  let arg8 : BitVec 32 := Scf.iv c0_i32_35 c1_i32_37 k0_t2
  let v1237 : Index := Scalar.indexCast arg8
  let c0_i32_623 : BitVec 32 := 0#32
  let v1238 : Index := Scalar.indexCast c0_i32_623
  let c96 : Index := 96#32
  ![0, v1237.toNat, 0, 96]
def k0_off203 (k0_t2 : Fin k0_t2_loop.trips) : Fin 4 → Nat :=
  let c0_i32_624 : BitVec 32 := 0#32
  let v1241 : Index := Scalar.indexCast c0_i32_624
  let c0_i32_35 : BitVec 32 := 0#32
  let c1_i32_37 : BitVec 32 := 1#32
  let arg8 : BitVec 32 := Scf.iv c0_i32_35 c1_i32_37 k0_t2
  let v1242 : Index := Scalar.indexCast arg8
  let c1_i32_625 : BitVec 32 := 1#32
  let v1243 : Index := Scalar.indexCast c1_i32_625
  let c96_626 : Index := 96#32
  ![0, v1242.toNat, 1, 96]
def k0_off204 (k0_t2 : Fin k0_t2_loop.trips) : Fin 4 → Nat :=
  let c0_i32_627 : BitVec 32 := 0#32
  let v1247 : Index := Scalar.indexCast c0_i32_627
  let c0_i32_35 : BitVec 32 := 0#32
  let c1_i32_37 : BitVec 32 := 1#32
  let arg8 : BitVec 32 := Scf.iv c0_i32_35 c1_i32_37 k0_t2
  let v1248 : Index := Scalar.indexCast arg8
  let c2_i32_628 : BitVec 32 := 2#32
  let v1249 : Index := Scalar.indexCast c2_i32_628
  let c96_629 : Index := 96#32
  ![0, v1248.toNat, 2, 96]
def k0_off205 (k0_t2 : Fin k0_t2_loop.trips) : Fin 4 → Nat :=
  let c0_i32_630 : BitVec 32 := 0#32
  let v1253 : Index := Scalar.indexCast c0_i32_630
  let c0_i32_35 : BitVec 32 := 0#32
  let c1_i32_37 : BitVec 32 := 1#32
  let arg8 : BitVec 32 := Scf.iv c0_i32_35 c1_i32_37 k0_t2
  let v1254 : Index := Scalar.indexCast arg8
  let c3_i32_631 : BitVec 32 := 3#32
  let v1255 : Index := Scalar.indexCast c3_i32_631
  let c96_632 : Index := 96#32
  ![0, v1254.toNat, 3, 96]
def k0_off206 (k0_t2 : Fin k0_t2_loop.trips) : Fin 4 → Nat :=
  let c0_i32_633 : BitVec 32 := 0#32
  let v1259 : Index := Scalar.indexCast c0_i32_633
  let c0_i32_35 : BitVec 32 := 0#32
  let c1_i32_37 : BitVec 32 := 1#32
  let arg8 : BitVec 32 := Scf.iv c0_i32_35 c1_i32_37 k0_t2
  let v1260 : Index := Scalar.indexCast arg8
  let c4_i32_634 : BitVec 32 := 4#32
  let v1261 : Index := Scalar.indexCast c4_i32_634
  let c96_635 : Index := 96#32
  ![0, v1260.toNat, 4, 96]
def k0_off207 (k0_t2 : Fin k0_t2_loop.trips) : Fin 4 → Nat :=
  let c0_i32_636 : BitVec 32 := 0#32
  let v1265 : Index := Scalar.indexCast c0_i32_636
  let c0_i32_35 : BitVec 32 := 0#32
  let c1_i32_37 : BitVec 32 := 1#32
  let arg8 : BitVec 32 := Scf.iv c0_i32_35 c1_i32_37 k0_t2
  let v1266 : Index := Scalar.indexCast arg8
  let c5_i32_637 : BitVec 32 := 5#32
  let v1267 : Index := Scalar.indexCast c5_i32_637
  let c96_638 : Index := 96#32
  ![0, v1266.toNat, 5, 96]
def k0_off208 (k0_t2 : Fin k0_t2_loop.trips) : Fin 4 → Nat :=
  let c0_i32_639 : BitVec 32 := 0#32
  let v1271 : Index := Scalar.indexCast c0_i32_639
  let c0_i32_35 : BitVec 32 := 0#32
  let c1_i32_37 : BitVec 32 := 1#32
  let arg8 : BitVec 32 := Scf.iv c0_i32_35 c1_i32_37 k0_t2
  let v1272 : Index := Scalar.indexCast arg8
  let c6_i32_640 : BitVec 32 := 6#32
  let v1273 : Index := Scalar.indexCast c6_i32_640
  let c96_641 : Index := 96#32
  ![0, v1272.toNat, 6, 96]
def k0_off209 (k0_t2 : Fin k0_t2_loop.trips) : Fin 4 → Nat :=
  let c0_i32_642 : BitVec 32 := 0#32
  let v1277 : Index := Scalar.indexCast c0_i32_642
  let c0_i32_35 : BitVec 32 := 0#32
  let c1_i32_37 : BitVec 32 := 1#32
  let arg8 : BitVec 32 := Scf.iv c0_i32_35 c1_i32_37 k0_t2
  let v1278 : Index := Scalar.indexCast arg8
  let c7_i32_643 : BitVec 32 := 7#32
  let v1279 : Index := Scalar.indexCast c7_i32_643
  let c96_644 : Index := 96#32
  ![0, v1278.toNat, 7, 96]
def k0_off210 (k0_t2 : Fin k0_t2_loop.trips) : Fin 4 → Nat :=
  let c0_i32_645 : BitVec 32 := 0#32
  let v1283 : Index := Scalar.indexCast c0_i32_645
  let c0_i32_35 : BitVec 32 := 0#32
  let c1_i32_37 : BitVec 32 := 1#32
  let arg8 : BitVec 32 := Scf.iv c0_i32_35 c1_i32_37 k0_t2
  let v1284 : Index := Scalar.indexCast arg8
  let c8_i32_646 : BitVec 32 := 8#32
  let v1285 : Index := Scalar.indexCast c8_i32_646
  let c96_647 : Index := 96#32
  ![0, v1284.toNat, 8, 96]
def k0_off211 (k0_t2 : Fin k0_t2_loop.trips) : Fin 4 → Nat :=
  let c0_i32_648 : BitVec 32 := 0#32
  let v1289 : Index := Scalar.indexCast c0_i32_648
  let c0_i32_35 : BitVec 32 := 0#32
  let c1_i32_37 : BitVec 32 := 1#32
  let arg8 : BitVec 32 := Scf.iv c0_i32_35 c1_i32_37 k0_t2
  let v1290 : Index := Scalar.indexCast arg8
  let c9_i32_649 : BitVec 32 := 9#32
  let v1291 : Index := Scalar.indexCast c9_i32_649
  let c96_650 : Index := 96#32
  ![0, v1290.toNat, 9, 96]
def k0_off212 (k0_t2 : Fin k0_t2_loop.trips) : Fin 4 → Nat :=
  let c0_i32_651 : BitVec 32 := 0#32
  let v1295 : Index := Scalar.indexCast c0_i32_651
  let c0_i32_35 : BitVec 32 := 0#32
  let c1_i32_37 : BitVec 32 := 1#32
  let arg8 : BitVec 32 := Scf.iv c0_i32_35 c1_i32_37 k0_t2
  let v1296 : Index := Scalar.indexCast arg8
  let c10_i32_652 : BitVec 32 := 10#32
  let v1297 : Index := Scalar.indexCast c10_i32_652
  let c96_653 : Index := 96#32
  ![0, v1296.toNat, 10, 96]
def k0_off213 (k0_t2 : Fin k0_t2_loop.trips) : Fin 4 → Nat :=
  let c0_i32_654 : BitVec 32 := 0#32
  let v1301 : Index := Scalar.indexCast c0_i32_654
  let c0_i32_35 : BitVec 32 := 0#32
  let c1_i32_37 : BitVec 32 := 1#32
  let arg8 : BitVec 32 := Scf.iv c0_i32_35 c1_i32_37 k0_t2
  let v1302 : Index := Scalar.indexCast arg8
  let c11_i32_655 : BitVec 32 := 11#32
  let v1303 : Index := Scalar.indexCast c11_i32_655
  let c96_656 : Index := 96#32
  ![0, v1302.toNat, 11, 96]
def k0_off214 (k0_t2 : Fin k0_t2_loop.trips) : Fin 4 → Nat :=
  let c0_i32_657 : BitVec 32 := 0#32
  let v1307 : Index := Scalar.indexCast c0_i32_657
  let c0_i32_35 : BitVec 32 := 0#32
  let c1_i32_37 : BitVec 32 := 1#32
  let arg8 : BitVec 32 := Scf.iv c0_i32_35 c1_i32_37 k0_t2
  let v1308 : Index := Scalar.indexCast arg8
  let c12_i32_658 : BitVec 32 := 12#32
  let v1309 : Index := Scalar.indexCast c12_i32_658
  let c96_659 : Index := 96#32
  ![0, v1308.toNat, 12, 96]
def k0_off215 (k0_t2 : Fin k0_t2_loop.trips) : Fin 4 → Nat :=
  let c0_i32_660 : BitVec 32 := 0#32
  let v1313 : Index := Scalar.indexCast c0_i32_660
  let c0_i32_35 : BitVec 32 := 0#32
  let c1_i32_37 : BitVec 32 := 1#32
  let arg8 : BitVec 32 := Scf.iv c0_i32_35 c1_i32_37 k0_t2
  let v1314 : Index := Scalar.indexCast arg8
  let c13_i32_661 : BitVec 32 := 13#32
  let v1315 : Index := Scalar.indexCast c13_i32_661
  let c96_662 : Index := 96#32
  ![0, v1314.toNat, 13, 96]
def k0_off216 (k0_t2 : Fin k0_t2_loop.trips) : Fin 4 → Nat :=
  let c0_i32_663 : BitVec 32 := 0#32
  let v1319 : Index := Scalar.indexCast c0_i32_663
  let c0_i32_35 : BitVec 32 := 0#32
  let c1_i32_37 : BitVec 32 := 1#32
  let arg8 : BitVec 32 := Scf.iv c0_i32_35 c1_i32_37 k0_t2
  let v1320 : Index := Scalar.indexCast arg8
  let c14_i32_664 : BitVec 32 := 14#32
  let v1321 : Index := Scalar.indexCast c14_i32_664
  let c96_665 : Index := 96#32
  ![0, v1320.toNat, 14, 96]
def k0_off217 (k0_t2 : Fin k0_t2_loop.trips) : Fin 4 → Nat :=
  let c0_i32_666 : BitVec 32 := 0#32
  let v1325 : Index := Scalar.indexCast c0_i32_666
  let c0_i32_35 : BitVec 32 := 0#32
  let c1_i32_37 : BitVec 32 := 1#32
  let arg8 : BitVec 32 := Scf.iv c0_i32_35 c1_i32_37 k0_t2
  let v1326 : Index := Scalar.indexCast arg8
  let c15_i32_667 : BitVec 32 := 15#32
  let v1327 : Index := Scalar.indexCast c15_i32_667
  let c96_668 : Index := 96#32
  ![0, v1326.toNat, 15, 96]
def k0_off218 (k0_t2 : Fin k0_t2_loop.trips) : Fin 4 → Nat :=
  let c0_i32_669 : BitVec 32 := 0#32
  let v1331 : Index := Scalar.indexCast c0_i32_669
  let c0_i32_35 : BitVec 32 := 0#32
  let c1_i32_37 : BitVec 32 := 1#32
  let arg8 : BitVec 32 := Scf.iv c0_i32_35 c1_i32_37 k0_t2
  let v1332 : Index := Scalar.indexCast arg8
  let c16_i32_670 : BitVec 32 := 16#32
  let v1333 : Index := Scalar.indexCast c16_i32_670
  let c96_671 : Index := 96#32
  ![0, v1332.toNat, 16, 96]
def k0_off219 (k0_t2 : Fin k0_t2_loop.trips) : Fin 4 → Nat :=
  let c0_i32_672 : BitVec 32 := 0#32
  let v1337 : Index := Scalar.indexCast c0_i32_672
  let c0_i32_35 : BitVec 32 := 0#32
  let c1_i32_37 : BitVec 32 := 1#32
  let arg8 : BitVec 32 := Scf.iv c0_i32_35 c1_i32_37 k0_t2
  let v1338 : Index := Scalar.indexCast arg8
  let c17_i32_673 : BitVec 32 := 17#32
  let v1339 : Index := Scalar.indexCast c17_i32_673
  let c96_674 : Index := 96#32
  ![0, v1338.toNat, 17, 96]
def k0_off220 (k0_t2 : Fin k0_t2_loop.trips) : Fin 4 → Nat :=
  let c0_i32_675 : BitVec 32 := 0#32
  let v1343 : Index := Scalar.indexCast c0_i32_675
  let c0_i32_35 : BitVec 32 := 0#32
  let c1_i32_37 : BitVec 32 := 1#32
  let arg8 : BitVec 32 := Scf.iv c0_i32_35 c1_i32_37 k0_t2
  let v1344 : Index := Scalar.indexCast arg8
  let c18_i32_676 : BitVec 32 := 18#32
  let v1345 : Index := Scalar.indexCast c18_i32_676
  let c96_677 : Index := 96#32
  ![0, v1344.toNat, 18, 96]
def k0_off221 (k0_t2 : Fin k0_t2_loop.trips) : Fin 4 → Nat :=
  let c0_i32_678 : BitVec 32 := 0#32
  let v1349 : Index := Scalar.indexCast c0_i32_678
  let c0_i32_35 : BitVec 32 := 0#32
  let c1_i32_37 : BitVec 32 := 1#32
  let arg8 : BitVec 32 := Scf.iv c0_i32_35 c1_i32_37 k0_t2
  let v1350 : Index := Scalar.indexCast arg8
  let c19_i32_679 : BitVec 32 := 19#32
  let v1351 : Index := Scalar.indexCast c19_i32_679
  let c96_680 : Index := 96#32
  ![0, v1350.toNat, 19, 96]
def k0_off222 (k0_t2 : Fin k0_t2_loop.trips) : Fin 4 → Nat :=
  let c0_i32_681 : BitVec 32 := 0#32
  let v1355 : Index := Scalar.indexCast c0_i32_681
  let c0_i32_35 : BitVec 32 := 0#32
  let c1_i32_37 : BitVec 32 := 1#32
  let arg8 : BitVec 32 := Scf.iv c0_i32_35 c1_i32_37 k0_t2
  let v1356 : Index := Scalar.indexCast arg8
  let c20_i32_682 : BitVec 32 := 20#32
  let v1357 : Index := Scalar.indexCast c20_i32_682
  let c96_683 : Index := 96#32
  ![0, v1356.toNat, 20, 96]
def k0_off223 (k0_t2 : Fin k0_t2_loop.trips) : Fin 4 → Nat :=
  let c0_i32_684 : BitVec 32 := 0#32
  let v1361 : Index := Scalar.indexCast c0_i32_684
  let c0_i32_35 : BitVec 32 := 0#32
  let c1_i32_37 : BitVec 32 := 1#32
  let arg8 : BitVec 32 := Scf.iv c0_i32_35 c1_i32_37 k0_t2
  let v1362 : Index := Scalar.indexCast arg8
  let c21_i32_685 : BitVec 32 := 21#32
  let v1363 : Index := Scalar.indexCast c21_i32_685
  let c96_686 : Index := 96#32
  ![0, v1362.toNat, 21, 96]
def k0_off224 (k0_t2 : Fin k0_t2_loop.trips) : Fin 4 → Nat :=
  let c0_i32_687 : BitVec 32 := 0#32
  let v1367 : Index := Scalar.indexCast c0_i32_687
  let c0_i32_35 : BitVec 32 := 0#32
  let c1_i32_37 : BitVec 32 := 1#32
  let arg8 : BitVec 32 := Scf.iv c0_i32_35 c1_i32_37 k0_t2
  let v1368 : Index := Scalar.indexCast arg8
  let c22_i32_688 : BitVec 32 := 22#32
  let v1369 : Index := Scalar.indexCast c22_i32_688
  let c96_689 : Index := 96#32
  ![0, v1368.toNat, 22, 96]
def k0_off225 (k0_t2 : Fin k0_t2_loop.trips) : Fin 4 → Nat :=
  let c0_i32_690 : BitVec 32 := 0#32
  let v1373 : Index := Scalar.indexCast c0_i32_690
  let c0_i32_35 : BitVec 32 := 0#32
  let c1_i32_37 : BitVec 32 := 1#32
  let arg8 : BitVec 32 := Scf.iv c0_i32_35 c1_i32_37 k0_t2
  let v1374 : Index := Scalar.indexCast arg8
  let c23_i32_691 : BitVec 32 := 23#32
  let v1375 : Index := Scalar.indexCast c23_i32_691
  let c96_692 : Index := 96#32
  ![0, v1374.toNat, 23, 96]
def k0_off226 (k0_t2 : Fin k0_t2_loop.trips) : Fin 4 → Nat :=
  let c0_i32_693 : BitVec 32 := 0#32
  let v1379 : Index := Scalar.indexCast c0_i32_693
  let c0_i32_35 : BitVec 32 := 0#32
  let c1_i32_37 : BitVec 32 := 1#32
  let arg8 : BitVec 32 := Scf.iv c0_i32_35 c1_i32_37 k0_t2
  let v1380 : Index := Scalar.indexCast arg8
  let c24_i32_694 : BitVec 32 := 24#32
  let v1381 : Index := Scalar.indexCast c24_i32_694
  let c96_695 : Index := 96#32
  ![0, v1380.toNat, 24, 96]
def k0_off227 (k0_t2 : Fin k0_t2_loop.trips) : Fin 4 → Nat :=
  let c0_i32_696 : BitVec 32 := 0#32
  let v1385 : Index := Scalar.indexCast c0_i32_696
  let c0_i32_35 : BitVec 32 := 0#32
  let c1_i32_37 : BitVec 32 := 1#32
  let arg8 : BitVec 32 := Scf.iv c0_i32_35 c1_i32_37 k0_t2
  let v1386 : Index := Scalar.indexCast arg8
  let c25_i32_697 : BitVec 32 := 25#32
  let v1387 : Index := Scalar.indexCast c25_i32_697
  let c96_698 : Index := 96#32
  ![0, v1386.toNat, 25, 96]
def k0_off228 (k0_t2 : Fin k0_t2_loop.trips) : Fin 4 → Nat :=
  let c0_i32_699 : BitVec 32 := 0#32
  let v1391 : Index := Scalar.indexCast c0_i32_699
  let c0_i32_35 : BitVec 32 := 0#32
  let c1_i32_37 : BitVec 32 := 1#32
  let arg8 : BitVec 32 := Scf.iv c0_i32_35 c1_i32_37 k0_t2
  let v1392 : Index := Scalar.indexCast arg8
  let c26_i32_700 : BitVec 32 := 26#32
  let v1393 : Index := Scalar.indexCast c26_i32_700
  let c96_701 : Index := 96#32
  ![0, v1392.toNat, 26, 96]
def k0_off229 (k0_t2 : Fin k0_t2_loop.trips) : Fin 4 → Nat :=
  let c0_i32_702 : BitVec 32 := 0#32
  let v1397 : Index := Scalar.indexCast c0_i32_702
  let c0_i32_35 : BitVec 32 := 0#32
  let c1_i32_37 : BitVec 32 := 1#32
  let arg8 : BitVec 32 := Scf.iv c0_i32_35 c1_i32_37 k0_t2
  let v1398 : Index := Scalar.indexCast arg8
  let c27_i32_703 : BitVec 32 := 27#32
  let v1399 : Index := Scalar.indexCast c27_i32_703
  let c96_704 : Index := 96#32
  ![0, v1398.toNat, 27, 96]
def k0_off230 (k0_t2 : Fin k0_t2_loop.trips) : Fin 4 → Nat :=
  let c0_i32_705 : BitVec 32 := 0#32
  let v1403 : Index := Scalar.indexCast c0_i32_705
  let c0_i32_35 : BitVec 32 := 0#32
  let c1_i32_37 : BitVec 32 := 1#32
  let arg8 : BitVec 32 := Scf.iv c0_i32_35 c1_i32_37 k0_t2
  let v1404 : Index := Scalar.indexCast arg8
  let c28_i32_706 : BitVec 32 := 28#32
  let v1405 : Index := Scalar.indexCast c28_i32_706
  let c96_707 : Index := 96#32
  ![0, v1404.toNat, 28, 96]
def k0_off231 (k0_t2 : Fin k0_t2_loop.trips) : Fin 4 → Nat :=
  let c0_i32_708 : BitVec 32 := 0#32
  let v1409 : Index := Scalar.indexCast c0_i32_708
  let c0_i32_35 : BitVec 32 := 0#32
  let c1_i32_37 : BitVec 32 := 1#32
  let arg8 : BitVec 32 := Scf.iv c0_i32_35 c1_i32_37 k0_t2
  let v1410 : Index := Scalar.indexCast arg8
  let c29_i32_709 : BitVec 32 := 29#32
  let v1411 : Index := Scalar.indexCast c29_i32_709
  let c96_710 : Index := 96#32
  ![0, v1410.toNat, 29, 96]
def k0_off232 (k0_t2 : Fin k0_t2_loop.trips) : Fin 4 → Nat :=
  let c0_i32_711 : BitVec 32 := 0#32
  let v1415 : Index := Scalar.indexCast c0_i32_711
  let c0_i32_35 : BitVec 32 := 0#32
  let c1_i32_37 : BitVec 32 := 1#32
  let arg8 : BitVec 32 := Scf.iv c0_i32_35 c1_i32_37 k0_t2
  let v1416 : Index := Scalar.indexCast arg8
  let c30_i32_712 : BitVec 32 := 30#32
  let v1417 : Index := Scalar.indexCast c30_i32_712
  let c96_713 : Index := 96#32
  ![0, v1416.toNat, 30, 96]
def k0_off233 (k0_t2 : Fin k0_t2_loop.trips) : Fin 4 → Nat :=
  let c0_i32_714 : BitVec 32 := 0#32
  let v1421 : Index := Scalar.indexCast c0_i32_714
  let c0_i32_35 : BitVec 32 := 0#32
  let c1_i32_37 : BitVec 32 := 1#32
  let arg8 : BitVec 32 := Scf.iv c0_i32_35 c1_i32_37 k0_t2
  let v1422 : Index := Scalar.indexCast arg8
  let c31_i32_715 : BitVec 32 := 31#32
  let v1423 : Index := Scalar.indexCast c31_i32_715
  let c96_716 : Index := 96#32
  ![0, v1422.toNat, 31, 96]
def k0_off234 (k0_t2 : Fin k0_t2_loop.trips) : Fin 3 → Nat :=
  let c0_i32_717 : BitVec 32 := 0#32
  let v1427 : Index := Scalar.indexCast c0_i32_717
  let c0_i32_35 : BitVec 32 := 0#32
  let c1_i32_37 : BitVec 32 := 1#32
  let arg8 : BitVec 32 := Scf.iv c0_i32_35 c1_i32_37 k0_t2
  let v1428 : Index := Scalar.indexCast arg8
  let c96_718 : Index := 96#32
  ![0, v1428.toNat, 96]
def k0_off235 (k0_t2 : Fin k0_t2_loop.trips) : Fin 4 → Nat :=
  let c0_i32_719 : BitVec 32 := 0#32
  let v1432 : Index := Scalar.indexCast c0_i32_719
  let c0_i32_35 : BitVec 32 := 0#32
  let c1_i32_37 : BitVec 32 := 1#32
  let arg8 : BitVec 32 := Scf.iv c0_i32_35 c1_i32_37 k0_t2
  let v1433 : Index := Scalar.indexCast arg8
  let c0_i32_720 : BitVec 32 := 0#32
  let v1434 : Index := Scalar.indexCast c0_i32_720
  let c112 : Index := 112#32
  ![0, v1433.toNat, 0, 112]
def k0_off236 (k0_t2 : Fin k0_t2_loop.trips) : Fin 4 → Nat :=
  let c0_i32_721 : BitVec 32 := 0#32
  let v1437 : Index := Scalar.indexCast c0_i32_721
  let c0_i32_35 : BitVec 32 := 0#32
  let c1_i32_37 : BitVec 32 := 1#32
  let arg8 : BitVec 32 := Scf.iv c0_i32_35 c1_i32_37 k0_t2
  let v1438 : Index := Scalar.indexCast arg8
  let c1_i32_722 : BitVec 32 := 1#32
  let v1439 : Index := Scalar.indexCast c1_i32_722
  let c112_723 : Index := 112#32
  ![0, v1438.toNat, 1, 112]
def k0_off237 (k0_t2 : Fin k0_t2_loop.trips) : Fin 4 → Nat :=
  let c0_i32_724 : BitVec 32 := 0#32
  let v1443 : Index := Scalar.indexCast c0_i32_724
  let c0_i32_35 : BitVec 32 := 0#32
  let c1_i32_37 : BitVec 32 := 1#32
  let arg8 : BitVec 32 := Scf.iv c0_i32_35 c1_i32_37 k0_t2
  let v1444 : Index := Scalar.indexCast arg8
  let c2_i32_725 : BitVec 32 := 2#32
  let v1445 : Index := Scalar.indexCast c2_i32_725
  let c112_726 : Index := 112#32
  ![0, v1444.toNat, 2, 112]
def k0_off238 (k0_t2 : Fin k0_t2_loop.trips) : Fin 4 → Nat :=
  let c0_i32_727 : BitVec 32 := 0#32
  let v1449 : Index := Scalar.indexCast c0_i32_727
  let c0_i32_35 : BitVec 32 := 0#32
  let c1_i32_37 : BitVec 32 := 1#32
  let arg8 : BitVec 32 := Scf.iv c0_i32_35 c1_i32_37 k0_t2
  let v1450 : Index := Scalar.indexCast arg8
  let c3_i32_728 : BitVec 32 := 3#32
  let v1451 : Index := Scalar.indexCast c3_i32_728
  let c112_729 : Index := 112#32
  ![0, v1450.toNat, 3, 112]
def k0_off239 (k0_t2 : Fin k0_t2_loop.trips) : Fin 4 → Nat :=
  let c0_i32_730 : BitVec 32 := 0#32
  let v1455 : Index := Scalar.indexCast c0_i32_730
  let c0_i32_35 : BitVec 32 := 0#32
  let c1_i32_37 : BitVec 32 := 1#32
  let arg8 : BitVec 32 := Scf.iv c0_i32_35 c1_i32_37 k0_t2
  let v1456 : Index := Scalar.indexCast arg8
  let c4_i32_731 : BitVec 32 := 4#32
  let v1457 : Index := Scalar.indexCast c4_i32_731
  let c112_732 : Index := 112#32
  ![0, v1456.toNat, 4, 112]
def k0_off240 (k0_t2 : Fin k0_t2_loop.trips) : Fin 4 → Nat :=
  let c0_i32_733 : BitVec 32 := 0#32
  let v1461 : Index := Scalar.indexCast c0_i32_733
  let c0_i32_35 : BitVec 32 := 0#32
  let c1_i32_37 : BitVec 32 := 1#32
  let arg8 : BitVec 32 := Scf.iv c0_i32_35 c1_i32_37 k0_t2
  let v1462 : Index := Scalar.indexCast arg8
  let c5_i32_734 : BitVec 32 := 5#32
  let v1463 : Index := Scalar.indexCast c5_i32_734
  let c112_735 : Index := 112#32
  ![0, v1462.toNat, 5, 112]
def k0_off241 (k0_t2 : Fin k0_t2_loop.trips) : Fin 4 → Nat :=
  let c0_i32_736 : BitVec 32 := 0#32
  let v1467 : Index := Scalar.indexCast c0_i32_736
  let c0_i32_35 : BitVec 32 := 0#32
  let c1_i32_37 : BitVec 32 := 1#32
  let arg8 : BitVec 32 := Scf.iv c0_i32_35 c1_i32_37 k0_t2
  let v1468 : Index := Scalar.indexCast arg8
  let c6_i32_737 : BitVec 32 := 6#32
  let v1469 : Index := Scalar.indexCast c6_i32_737
  let c112_738 : Index := 112#32
  ![0, v1468.toNat, 6, 112]
def k0_off242 (k0_t2 : Fin k0_t2_loop.trips) : Fin 4 → Nat :=
  let c0_i32_739 : BitVec 32 := 0#32
  let v1473 : Index := Scalar.indexCast c0_i32_739
  let c0_i32_35 : BitVec 32 := 0#32
  let c1_i32_37 : BitVec 32 := 1#32
  let arg8 : BitVec 32 := Scf.iv c0_i32_35 c1_i32_37 k0_t2
  let v1474 : Index := Scalar.indexCast arg8
  let c7_i32_740 : BitVec 32 := 7#32
  let v1475 : Index := Scalar.indexCast c7_i32_740
  let c112_741 : Index := 112#32
  ![0, v1474.toNat, 7, 112]
def k0_off243 (k0_t2 : Fin k0_t2_loop.trips) : Fin 4 → Nat :=
  let c0_i32_742 : BitVec 32 := 0#32
  let v1479 : Index := Scalar.indexCast c0_i32_742
  let c0_i32_35 : BitVec 32 := 0#32
  let c1_i32_37 : BitVec 32 := 1#32
  let arg8 : BitVec 32 := Scf.iv c0_i32_35 c1_i32_37 k0_t2
  let v1480 : Index := Scalar.indexCast arg8
  let c8_i32_743 : BitVec 32 := 8#32
  let v1481 : Index := Scalar.indexCast c8_i32_743
  let c112_744 : Index := 112#32
  ![0, v1480.toNat, 8, 112]
def k0_off244 (k0_t2 : Fin k0_t2_loop.trips) : Fin 4 → Nat :=
  let c0_i32_745 : BitVec 32 := 0#32
  let v1485 : Index := Scalar.indexCast c0_i32_745
  let c0_i32_35 : BitVec 32 := 0#32
  let c1_i32_37 : BitVec 32 := 1#32
  let arg8 : BitVec 32 := Scf.iv c0_i32_35 c1_i32_37 k0_t2
  let v1486 : Index := Scalar.indexCast arg8
  let c9_i32_746 : BitVec 32 := 9#32
  let v1487 : Index := Scalar.indexCast c9_i32_746
  let c112_747 : Index := 112#32
  ![0, v1486.toNat, 9, 112]
def k0_off245 (k0_t2 : Fin k0_t2_loop.trips) : Fin 4 → Nat :=
  let c0_i32_748 : BitVec 32 := 0#32
  let v1491 : Index := Scalar.indexCast c0_i32_748
  let c0_i32_35 : BitVec 32 := 0#32
  let c1_i32_37 : BitVec 32 := 1#32
  let arg8 : BitVec 32 := Scf.iv c0_i32_35 c1_i32_37 k0_t2
  let v1492 : Index := Scalar.indexCast arg8
  let c10_i32_749 : BitVec 32 := 10#32
  let v1493 : Index := Scalar.indexCast c10_i32_749
  let c112_750 : Index := 112#32
  ![0, v1492.toNat, 10, 112]
def k0_off246 (k0_t2 : Fin k0_t2_loop.trips) : Fin 4 → Nat :=
  let c0_i32_751 : BitVec 32 := 0#32
  let v1497 : Index := Scalar.indexCast c0_i32_751
  let c0_i32_35 : BitVec 32 := 0#32
  let c1_i32_37 : BitVec 32 := 1#32
  let arg8 : BitVec 32 := Scf.iv c0_i32_35 c1_i32_37 k0_t2
  let v1498 : Index := Scalar.indexCast arg8
  let c11_i32_752 : BitVec 32 := 11#32
  let v1499 : Index := Scalar.indexCast c11_i32_752
  let c112_753 : Index := 112#32
  ![0, v1498.toNat, 11, 112]
def k0_off247 (k0_t2 : Fin k0_t2_loop.trips) : Fin 4 → Nat :=
  let c0_i32_754 : BitVec 32 := 0#32
  let v1503 : Index := Scalar.indexCast c0_i32_754
  let c0_i32_35 : BitVec 32 := 0#32
  let c1_i32_37 : BitVec 32 := 1#32
  let arg8 : BitVec 32 := Scf.iv c0_i32_35 c1_i32_37 k0_t2
  let v1504 : Index := Scalar.indexCast arg8
  let c12_i32_755 : BitVec 32 := 12#32
  let v1505 : Index := Scalar.indexCast c12_i32_755
  let c112_756 : Index := 112#32
  ![0, v1504.toNat, 12, 112]
def k0_off248 (k0_t2 : Fin k0_t2_loop.trips) : Fin 4 → Nat :=
  let c0_i32_757 : BitVec 32 := 0#32
  let v1509 : Index := Scalar.indexCast c0_i32_757
  let c0_i32_35 : BitVec 32 := 0#32
  let c1_i32_37 : BitVec 32 := 1#32
  let arg8 : BitVec 32 := Scf.iv c0_i32_35 c1_i32_37 k0_t2
  let v1510 : Index := Scalar.indexCast arg8
  let c13_i32_758 : BitVec 32 := 13#32
  let v1511 : Index := Scalar.indexCast c13_i32_758
  let c112_759 : Index := 112#32
  ![0, v1510.toNat, 13, 112]
def k0_off249 (k0_t2 : Fin k0_t2_loop.trips) : Fin 4 → Nat :=
  let c0_i32_760 : BitVec 32 := 0#32
  let v1515 : Index := Scalar.indexCast c0_i32_760
  let c0_i32_35 : BitVec 32 := 0#32
  let c1_i32_37 : BitVec 32 := 1#32
  let arg8 : BitVec 32 := Scf.iv c0_i32_35 c1_i32_37 k0_t2
  let v1516 : Index := Scalar.indexCast arg8
  let c14_i32_761 : BitVec 32 := 14#32
  let v1517 : Index := Scalar.indexCast c14_i32_761
  let c112_762 : Index := 112#32
  ![0, v1516.toNat, 14, 112]
def k0_off250 (k0_t2 : Fin k0_t2_loop.trips) : Fin 4 → Nat :=
  let c0_i32_763 : BitVec 32 := 0#32
  let v1521 : Index := Scalar.indexCast c0_i32_763
  let c0_i32_35 : BitVec 32 := 0#32
  let c1_i32_37 : BitVec 32 := 1#32
  let arg8 : BitVec 32 := Scf.iv c0_i32_35 c1_i32_37 k0_t2
  let v1522 : Index := Scalar.indexCast arg8
  let c15_i32_764 : BitVec 32 := 15#32
  let v1523 : Index := Scalar.indexCast c15_i32_764
  let c112_765 : Index := 112#32
  ![0, v1522.toNat, 15, 112]
def k0_off251 (k0_t2 : Fin k0_t2_loop.trips) : Fin 4 → Nat :=
  let c0_i32_766 : BitVec 32 := 0#32
  let v1527 : Index := Scalar.indexCast c0_i32_766
  let c0_i32_35 : BitVec 32 := 0#32
  let c1_i32_37 : BitVec 32 := 1#32
  let arg8 : BitVec 32 := Scf.iv c0_i32_35 c1_i32_37 k0_t2
  let v1528 : Index := Scalar.indexCast arg8
  let c16_i32_767 : BitVec 32 := 16#32
  let v1529 : Index := Scalar.indexCast c16_i32_767
  let c112_768 : Index := 112#32
  ![0, v1528.toNat, 16, 112]
def k0_off252 (k0_t2 : Fin k0_t2_loop.trips) : Fin 4 → Nat :=
  let c0_i32_769 : BitVec 32 := 0#32
  let v1533 : Index := Scalar.indexCast c0_i32_769
  let c0_i32_35 : BitVec 32 := 0#32
  let c1_i32_37 : BitVec 32 := 1#32
  let arg8 : BitVec 32 := Scf.iv c0_i32_35 c1_i32_37 k0_t2
  let v1534 : Index := Scalar.indexCast arg8
  let c17_i32_770 : BitVec 32 := 17#32
  let v1535 : Index := Scalar.indexCast c17_i32_770
  let c112_771 : Index := 112#32
  ![0, v1534.toNat, 17, 112]
def k0_off253 (k0_t2 : Fin k0_t2_loop.trips) : Fin 4 → Nat :=
  let c0_i32_772 : BitVec 32 := 0#32
  let v1539 : Index := Scalar.indexCast c0_i32_772
  let c0_i32_35 : BitVec 32 := 0#32
  let c1_i32_37 : BitVec 32 := 1#32
  let arg8 : BitVec 32 := Scf.iv c0_i32_35 c1_i32_37 k0_t2
  let v1540 : Index := Scalar.indexCast arg8
  let c18_i32_773 : BitVec 32 := 18#32
  let v1541 : Index := Scalar.indexCast c18_i32_773
  let c112_774 : Index := 112#32
  ![0, v1540.toNat, 18, 112]
def k0_off254 (k0_t2 : Fin k0_t2_loop.trips) : Fin 4 → Nat :=
  let c0_i32_775 : BitVec 32 := 0#32
  let v1545 : Index := Scalar.indexCast c0_i32_775
  let c0_i32_35 : BitVec 32 := 0#32
  let c1_i32_37 : BitVec 32 := 1#32
  let arg8 : BitVec 32 := Scf.iv c0_i32_35 c1_i32_37 k0_t2
  let v1546 : Index := Scalar.indexCast arg8
  let c19_i32_776 : BitVec 32 := 19#32
  let v1547 : Index := Scalar.indexCast c19_i32_776
  let c112_777 : Index := 112#32
  ![0, v1546.toNat, 19, 112]
def k0_off255 (k0_t2 : Fin k0_t2_loop.trips) : Fin 4 → Nat :=
  let c0_i32_778 : BitVec 32 := 0#32
  let v1551 : Index := Scalar.indexCast c0_i32_778
  let c0_i32_35 : BitVec 32 := 0#32
  let c1_i32_37 : BitVec 32 := 1#32
  let arg8 : BitVec 32 := Scf.iv c0_i32_35 c1_i32_37 k0_t2
  let v1552 : Index := Scalar.indexCast arg8
  let c20_i32_779 : BitVec 32 := 20#32
  let v1553 : Index := Scalar.indexCast c20_i32_779
  let c112_780 : Index := 112#32
  ![0, v1552.toNat, 20, 112]
def k0_off256 (k0_t2 : Fin k0_t2_loop.trips) : Fin 4 → Nat :=
  let c0_i32_781 : BitVec 32 := 0#32
  let v1557 : Index := Scalar.indexCast c0_i32_781
  let c0_i32_35 : BitVec 32 := 0#32
  let c1_i32_37 : BitVec 32 := 1#32
  let arg8 : BitVec 32 := Scf.iv c0_i32_35 c1_i32_37 k0_t2
  let v1558 : Index := Scalar.indexCast arg8
  let c21_i32_782 : BitVec 32 := 21#32
  let v1559 : Index := Scalar.indexCast c21_i32_782
  let c112_783 : Index := 112#32
  ![0, v1558.toNat, 21, 112]
def k0_off257 (k0_t2 : Fin k0_t2_loop.trips) : Fin 4 → Nat :=
  let c0_i32_784 : BitVec 32 := 0#32
  let v1563 : Index := Scalar.indexCast c0_i32_784
  let c0_i32_35 : BitVec 32 := 0#32
  let c1_i32_37 : BitVec 32 := 1#32
  let arg8 : BitVec 32 := Scf.iv c0_i32_35 c1_i32_37 k0_t2
  let v1564 : Index := Scalar.indexCast arg8
  let c22_i32_785 : BitVec 32 := 22#32
  let v1565 : Index := Scalar.indexCast c22_i32_785
  let c112_786 : Index := 112#32
  ![0, v1564.toNat, 22, 112]
def k0_off258 (k0_t2 : Fin k0_t2_loop.trips) : Fin 4 → Nat :=
  let c0_i32_787 : BitVec 32 := 0#32
  let v1569 : Index := Scalar.indexCast c0_i32_787
  let c0_i32_35 : BitVec 32 := 0#32
  let c1_i32_37 : BitVec 32 := 1#32
  let arg8 : BitVec 32 := Scf.iv c0_i32_35 c1_i32_37 k0_t2
  let v1570 : Index := Scalar.indexCast arg8
  let c23_i32_788 : BitVec 32 := 23#32
  let v1571 : Index := Scalar.indexCast c23_i32_788
  let c112_789 : Index := 112#32
  ![0, v1570.toNat, 23, 112]
def k0_off259 (k0_t2 : Fin k0_t2_loop.trips) : Fin 4 → Nat :=
  let c0_i32_790 : BitVec 32 := 0#32
  let v1575 : Index := Scalar.indexCast c0_i32_790
  let c0_i32_35 : BitVec 32 := 0#32
  let c1_i32_37 : BitVec 32 := 1#32
  let arg8 : BitVec 32 := Scf.iv c0_i32_35 c1_i32_37 k0_t2
  let v1576 : Index := Scalar.indexCast arg8
  let c24_i32_791 : BitVec 32 := 24#32
  let v1577 : Index := Scalar.indexCast c24_i32_791
  let c112_792 : Index := 112#32
  ![0, v1576.toNat, 24, 112]
def k0_off260 (k0_t2 : Fin k0_t2_loop.trips) : Fin 4 → Nat :=
  let c0_i32_793 : BitVec 32 := 0#32
  let v1581 : Index := Scalar.indexCast c0_i32_793
  let c0_i32_35 : BitVec 32 := 0#32
  let c1_i32_37 : BitVec 32 := 1#32
  let arg8 : BitVec 32 := Scf.iv c0_i32_35 c1_i32_37 k0_t2
  let v1582 : Index := Scalar.indexCast arg8
  let c25_i32_794 : BitVec 32 := 25#32
  let v1583 : Index := Scalar.indexCast c25_i32_794
  let c112_795 : Index := 112#32
  ![0, v1582.toNat, 25, 112]
def k0_off261 (k0_t2 : Fin k0_t2_loop.trips) : Fin 4 → Nat :=
  let c0_i32_796 : BitVec 32 := 0#32
  let v1587 : Index := Scalar.indexCast c0_i32_796
  let c0_i32_35 : BitVec 32 := 0#32
  let c1_i32_37 : BitVec 32 := 1#32
  let arg8 : BitVec 32 := Scf.iv c0_i32_35 c1_i32_37 k0_t2
  let v1588 : Index := Scalar.indexCast arg8
  let c26_i32_797 : BitVec 32 := 26#32
  let v1589 : Index := Scalar.indexCast c26_i32_797
  let c112_798 : Index := 112#32
  ![0, v1588.toNat, 26, 112]
def k0_off262 (k0_t2 : Fin k0_t2_loop.trips) : Fin 4 → Nat :=
  let c0_i32_799 : BitVec 32 := 0#32
  let v1593 : Index := Scalar.indexCast c0_i32_799
  let c0_i32_35 : BitVec 32 := 0#32
  let c1_i32_37 : BitVec 32 := 1#32
  let arg8 : BitVec 32 := Scf.iv c0_i32_35 c1_i32_37 k0_t2
  let v1594 : Index := Scalar.indexCast arg8
  let c27_i32_800 : BitVec 32 := 27#32
  let v1595 : Index := Scalar.indexCast c27_i32_800
  let c112_801 : Index := 112#32
  ![0, v1594.toNat, 27, 112]
def k0_off263 (k0_t2 : Fin k0_t2_loop.trips) : Fin 4 → Nat :=
  let c0_i32_802 : BitVec 32 := 0#32
  let v1599 : Index := Scalar.indexCast c0_i32_802
  let c0_i32_35 : BitVec 32 := 0#32
  let c1_i32_37 : BitVec 32 := 1#32
  let arg8 : BitVec 32 := Scf.iv c0_i32_35 c1_i32_37 k0_t2
  let v1600 : Index := Scalar.indexCast arg8
  let c28_i32_803 : BitVec 32 := 28#32
  let v1601 : Index := Scalar.indexCast c28_i32_803
  let c112_804 : Index := 112#32
  ![0, v1600.toNat, 28, 112]
def k0_off264 (k0_t2 : Fin k0_t2_loop.trips) : Fin 4 → Nat :=
  let c0_i32_805 : BitVec 32 := 0#32
  let v1605 : Index := Scalar.indexCast c0_i32_805
  let c0_i32_35 : BitVec 32 := 0#32
  let c1_i32_37 : BitVec 32 := 1#32
  let arg8 : BitVec 32 := Scf.iv c0_i32_35 c1_i32_37 k0_t2
  let v1606 : Index := Scalar.indexCast arg8
  let c29_i32_806 : BitVec 32 := 29#32
  let v1607 : Index := Scalar.indexCast c29_i32_806
  let c112_807 : Index := 112#32
  ![0, v1606.toNat, 29, 112]
def k0_off265 (k0_t2 : Fin k0_t2_loop.trips) : Fin 4 → Nat :=
  let c0_i32_808 : BitVec 32 := 0#32
  let v1611 : Index := Scalar.indexCast c0_i32_808
  let c0_i32_35 : BitVec 32 := 0#32
  let c1_i32_37 : BitVec 32 := 1#32
  let arg8 : BitVec 32 := Scf.iv c0_i32_35 c1_i32_37 k0_t2
  let v1612 : Index := Scalar.indexCast arg8
  let c30_i32_809 : BitVec 32 := 30#32
  let v1613 : Index := Scalar.indexCast c30_i32_809
  let c112_810 : Index := 112#32
  ![0, v1612.toNat, 30, 112]
def k0_off266 (k0_t2 : Fin k0_t2_loop.trips) : Fin 4 → Nat :=
  let c0_i32_811 : BitVec 32 := 0#32
  let v1617 : Index := Scalar.indexCast c0_i32_811
  let c0_i32_35 : BitVec 32 := 0#32
  let c1_i32_37 : BitVec 32 := 1#32
  let arg8 : BitVec 32 := Scf.iv c0_i32_35 c1_i32_37 k0_t2
  let v1618 : Index := Scalar.indexCast arg8
  let c31_i32_812 : BitVec 32 := 31#32
  let v1619 : Index := Scalar.indexCast c31_i32_812
  let c112_813 : Index := 112#32
  ![0, v1618.toNat, 31, 112]
def k0_off267 (k0_t2 : Fin k0_t2_loop.trips) : Fin 3 → Nat :=
  let c0_i32_814 : BitVec 32 := 0#32
  let v1623 : Index := Scalar.indexCast c0_i32_814
  let c0_i32_35 : BitVec 32 := 0#32
  let c1_i32_37 : BitVec 32 := 1#32
  let arg8 : BitVec 32 := Scf.iv c0_i32_35 c1_i32_37 k0_t2
  let v1624 : Index := Scalar.indexCast arg8
  let c112_815 : Index := 112#32
  ![0, v1624.toNat, 112]
def k0_off268 (i : grid0.Coords) (k0_t1 : Fin k0_t1_loop.trips) (c0_i32_18 : BitVec 32) : Fin 2 → Nat :=
  let c2_i32_17 : BitVec 32 := 2#32
  let c0_i32_15 : BitVec 32 := 0#32
  let c1_i32 : BitVec 32 := 1#32
  let arg7 : BitVec 32 := Scf.iv c0_i32_15 c1_i32 k0_t1
  let v18 : BitVec 32 := Scalar.muli c2_i32_17 arg7
  let v19 : BitVec 32 := Scalar.addi v18 c0_i32_18
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let v3 : BitVec 32 := Scalar.extui v2
  let v4 : BitVec 32 := Scalar.addi c39_i32 v3
  let v20 : BitVec 1 := Scalar.cmpi .slt v19 v4
  let c32_i32 : BitVec 32 := 32#32
  let v21 : BitVec 32 := Scalar.muli c32_i32 v19
  let v22 : BitVec 32 := Scalar.addi v1 v21
  let v23 : BitVec 32 := Scalar.select v20 v22 v1
  let c8_i32_39 : BitVec 32 := 8#32
  let v38 : BitVec 32 := Scalar.muli v23 c8_i32_39
  let c0_i32_69_r0 : BitVec 32 := 0#32
  ![v38.toNat, 0]
def k0_cond2 (k0_t1 : Fin k0_t1_loop.trips) : BitVec 1 :=
  let c2_i32_41 : BitVec 32 := 2#32
  let c0_i32_15 : BitVec 32 := 0#32
  let c1_i32 : BitVec 32 := 1#32
  let arg7 : BitVec 32 := Scf.iv c0_i32_15 c1_i32 k0_t1
  let v39 : BitVec 32 := Scalar.muli c2_i32_41 arg7
  let c1_i32_42 : BitVec 32 := 1#32
  let v40 : BitVec 32 := Scalar.addi v39 c1_i32_42
  let c1_i32_57 : BitVec 32 := 1#32
  let v54 : BitVec 32 := Scalar.addi v40 c1_i32_57
  let c40_i32_58 : BitVec 32 := 40#32
  let v55 : BitVec 1 := Scalar.cmpi .slt v54 c40_i32_58
  let v56 : BitVec 32 := Scalar.extui v55
  let c0_i32_59 : BitVec 32 := 0#32
  let v57 : BitVec 1 := Scalar.cmpi .ne v56 c0_i32_59
  v57

def k0_off269 (i : grid0.Coords) (k0_t1 : Fin k0_t1_loop.trips) : Fin 3 → Nat :=
  let c2_i32_41 : BitVec 32 := 2#32
  let c0_i32_15 : BitVec 32 := 0#32
  let c1_i32 : BitVec 32 := 1#32
  let arg7 : BitVec 32 := Scf.iv c0_i32_15 c1_i32 k0_t1
  let v39 : BitVec 32 := Scalar.muli c2_i32_41 arg7
  let c1_i32_42 : BitVec 32 := 1#32
  let v40 : BitVec 32 := Scalar.addi v39 c1_i32_42
  let c1_i32_67 : BitVec 32 := 1#32
  let v60 : BitVec 32 := Scalar.addi v40 c1_i32_67
  let c39_i32 : BitVec 32 := 39#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 1 := Scalar.cmpi .slt v1 c2_i32_0
  let v3 : BitVec 32 := Scalar.extui v2
  let v4 : BitVec 32 := Scalar.addi c39_i32 v3
  let v61 : BitVec 1 := Scalar.cmpi .slt v60 v4
  let c32_i32_68 : BitVec 32 := 32#32
  let v62 : BitVec 32 := Scalar.muli c32_i32_68 v60
  let v63 : BitVec 32 := Scalar.addi v1 v62
  let v64 : BitVec 32 := Scalar.select v61 v63 v1
  let c8_i32_69 : BitVec 32 := 8#32
  let v65 : BitVec 32 := Scalar.muli v64 c8_i32_69
  let c0_i32_75 : BitVec 32 := 0#32
  let c0_i32_76 : BitVec 32 := 0#32
  ![v65.toNat, 0, 0]
@[reducible] def k0_t3_loop : Scf.Loop 32 :=
  let c0_i32_61 : BitVec 32 := 0#32
  let c8_i32_62 : BitVec 32 := 8#32
  let v58 : BitVec 32 := Scalar.addi c0_i32_61 c8_i32_62
  let c1_i32_63 : BitVec 32 := 1#32
  ⟨c0_i32_61, v58, c1_i32_63⟩
def k0_off270 (k0_t3 : Fin k0_t3_loop.trips) : Fin 4 → Nat :=
  let c1_i32_67 : BitVec 32 := 1#32
  let v60 : Index := Scalar.indexCast c1_i32_67
  let c0_i32_61 : BitVec 32 := 0#32
  let c1_i32_63 : BitVec 32 := 1#32
  let arg8 : BitVec 32 := Scf.iv c0_i32_61 c1_i32_63 k0_t3
  let v61 : Index := Scalar.indexCast arg8
  let c0_i32_68 : BitVec 32 := 0#32
  let v62 : Index := Scalar.indexCast c0_i32_68
  let c0 : Index := 0#32
  ![1, v61.toNat, 0, 0]
def k0_off271 (k0_t3 : Fin k0_t3_loop.trips) : Fin 4 → Nat :=
  let c1_i32_69 : BitVec 32 := 1#32
  let v65 : Index := Scalar.indexCast c1_i32_69
  let c0_i32_61 : BitVec 32 := 0#32
  let c1_i32_63 : BitVec 32 := 1#32
  let arg8 : BitVec 32 := Scf.iv c0_i32_61 c1_i32_63 k0_t3
  let v66 : Index := Scalar.indexCast arg8
  let c1_i32_70 : BitVec 32 := 1#32
  let v67 : Index := Scalar.indexCast c1_i32_70
  let c0_71 : Index := 0#32
  ![1, v66.toNat, 1, 0]
def k0_off272 (k0_t3 : Fin k0_t3_loop.trips) : Fin 4 → Nat :=
  let c1_i32_72 : BitVec 32 := 1#32
  let v71 : Index := Scalar.indexCast c1_i32_72
  let c0_i32_61 : BitVec 32 := 0#32
  let c1_i32_63 : BitVec 32 := 1#32
  let arg8 : BitVec 32 := Scf.iv c0_i32_61 c1_i32_63 k0_t3
  let v72 : Index := Scalar.indexCast arg8
  let c2_i32_73 : BitVec 32 := 2#32
  let v73 : Index := Scalar.indexCast c2_i32_73
  let c0_74 : Index := 0#32
  ![1, v72.toNat, 2, 0]
def k0_off273 (k0_t3 : Fin k0_t3_loop.trips) : Fin 4 → Nat :=
  let c1_i32_75 : BitVec 32 := 1#32
  let v77 : Index := Scalar.indexCast c1_i32_75
  let c0_i32_61 : BitVec 32 := 0#32
  let c1_i32_63 : BitVec 32 := 1#32
  let arg8 : BitVec 32 := Scf.iv c0_i32_61 c1_i32_63 k0_t3
  let v78 : Index := Scalar.indexCast arg8
  let c3_i32 : BitVec 32 := 3#32
  let v79 : Index := Scalar.indexCast c3_i32
  let c0_76 : Index := 0#32
  ![1, v78.toNat, 3, 0]
def k0_off274 (k0_t3 : Fin k0_t3_loop.trips) : Fin 4 → Nat :=
  let c1_i32_77 : BitVec 32 := 1#32
  let v83 : Index := Scalar.indexCast c1_i32_77
  let c0_i32_61 : BitVec 32 := 0#32
  let c1_i32_63 : BitVec 32 := 1#32
  let arg8 : BitVec 32 := Scf.iv c0_i32_61 c1_i32_63 k0_t3
  let v84 : Index := Scalar.indexCast arg8
  let c4_i32 : BitVec 32 := 4#32
  let v85 : Index := Scalar.indexCast c4_i32
  let c0_78 : Index := 0#32
  ![1, v84.toNat, 4, 0]
def k0_off275 (k0_t3 : Fin k0_t3_loop.trips) : Fin 4 → Nat :=
  let c1_i32_79 : BitVec 32 := 1#32
  let v89 : Index := Scalar.indexCast c1_i32_79
  let c0_i32_61 : BitVec 32 := 0#32
  let c1_i32_63 : BitVec 32 := 1#32
  let arg8 : BitVec 32 := Scf.iv c0_i32_61 c1_i32_63 k0_t3
  let v90 : Index := Scalar.indexCast arg8
  let c5_i32 : BitVec 32 := 5#32
  let v91 : Index := Scalar.indexCast c5_i32
  let c0_80 : Index := 0#32
  ![1, v90.toNat, 5, 0]
def k0_off276 (k0_t3 : Fin k0_t3_loop.trips) : Fin 4 → Nat :=
  let c1_i32_81 : BitVec 32 := 1#32
  let v95 : Index := Scalar.indexCast c1_i32_81
  let c0_i32_61 : BitVec 32 := 0#32
  let c1_i32_63 : BitVec 32 := 1#32
  let arg8 : BitVec 32 := Scf.iv c0_i32_61 c1_i32_63 k0_t3
  let v96 : Index := Scalar.indexCast arg8
  let c6_i32 : BitVec 32 := 6#32
  let v97 : Index := Scalar.indexCast c6_i32
  let c0_82 : Index := 0#32
  ![1, v96.toNat, 6, 0]
def k0_off277 (k0_t3 : Fin k0_t3_loop.trips) : Fin 4 → Nat :=
  let c1_i32_83 : BitVec 32 := 1#32
  let v101 : Index := Scalar.indexCast c1_i32_83
  let c0_i32_61 : BitVec 32 := 0#32
  let c1_i32_63 : BitVec 32 := 1#32
  let arg8 : BitVec 32 := Scf.iv c0_i32_61 c1_i32_63 k0_t3
  let v102 : Index := Scalar.indexCast arg8
  let c7_i32 : BitVec 32 := 7#32
  let v103 : Index := Scalar.indexCast c7_i32
  let c0_84 : Index := 0#32
  ![1, v102.toNat, 7, 0]
def k0_off278 (k0_t3 : Fin k0_t3_loop.trips) : Fin 4 → Nat :=
  let c1_i32_85 : BitVec 32 := 1#32
  let v107 : Index := Scalar.indexCast c1_i32_85
  let c0_i32_61 : BitVec 32 := 0#32
  let c1_i32_63 : BitVec 32 := 1#32
  let arg8 : BitVec 32 := Scf.iv c0_i32_61 c1_i32_63 k0_t3
  let v108 : Index := Scalar.indexCast arg8
  let c8_i32_86 : BitVec 32 := 8#32
  let v109 : Index := Scalar.indexCast c8_i32_86
  let c0_87 : Index := 0#32
  ![1, v108.toNat, 8, 0]
def k0_off279 (k0_t3 : Fin k0_t3_loop.trips) : Fin 4 → Nat :=
  let c1_i32_88 : BitVec 32 := 1#32
  let v113 : Index := Scalar.indexCast c1_i32_88
  let c0_i32_61 : BitVec 32 := 0#32
  let c1_i32_63 : BitVec 32 := 1#32
  let arg8 : BitVec 32 := Scf.iv c0_i32_61 c1_i32_63 k0_t3
  let v114 : Index := Scalar.indexCast arg8
  let c9_i32 : BitVec 32 := 9#32
  let v115 : Index := Scalar.indexCast c9_i32
  let c0_89 : Index := 0#32
  ![1, v114.toNat, 9, 0]
def k0_off280 (k0_t3 : Fin k0_t3_loop.trips) : Fin 4 → Nat :=
  let c1_i32_90 : BitVec 32 := 1#32
  let v119 : Index := Scalar.indexCast c1_i32_90
  let c0_i32_61 : BitVec 32 := 0#32
  let c1_i32_63 : BitVec 32 := 1#32
  let arg8 : BitVec 32 := Scf.iv c0_i32_61 c1_i32_63 k0_t3
  let v120 : Index := Scalar.indexCast arg8
  let c10_i32 : BitVec 32 := 10#32
  let v121 : Index := Scalar.indexCast c10_i32
  let c0_91 : Index := 0#32
  ![1, v120.toNat, 10, 0]
def k0_off281 (k0_t3 : Fin k0_t3_loop.trips) : Fin 4 → Nat :=
  let c1_i32_92 : BitVec 32 := 1#32
  let v125 : Index := Scalar.indexCast c1_i32_92
  let c0_i32_61 : BitVec 32 := 0#32
  let c1_i32_63 : BitVec 32 := 1#32
  let arg8 : BitVec 32 := Scf.iv c0_i32_61 c1_i32_63 k0_t3
  let v126 : Index := Scalar.indexCast arg8
  let c11_i32 : BitVec 32 := 11#32
  let v127 : Index := Scalar.indexCast c11_i32
  let c0_93 : Index := 0#32
  ![1, v126.toNat, 11, 0]
def k0_off282 (k0_t3 : Fin k0_t3_loop.trips) : Fin 4 → Nat :=
  let c1_i32_94 : BitVec 32 := 1#32
  let v131 : Index := Scalar.indexCast c1_i32_94
  let c0_i32_61 : BitVec 32 := 0#32
  let c1_i32_63 : BitVec 32 := 1#32
  let arg8 : BitVec 32 := Scf.iv c0_i32_61 c1_i32_63 k0_t3
  let v132 : Index := Scalar.indexCast arg8
  let c12_i32 : BitVec 32 := 12#32
  let v133 : Index := Scalar.indexCast c12_i32
  let c0_95 : Index := 0#32
  ![1, v132.toNat, 12, 0]
def k0_off283 (k0_t3 : Fin k0_t3_loop.trips) : Fin 4 → Nat :=
  let c1_i32_96 : BitVec 32 := 1#32
  let v137 : Index := Scalar.indexCast c1_i32_96
  let c0_i32_61 : BitVec 32 := 0#32
  let c1_i32_63 : BitVec 32 := 1#32
  let arg8 : BitVec 32 := Scf.iv c0_i32_61 c1_i32_63 k0_t3
  let v138 : Index := Scalar.indexCast arg8
  let c13_i32 : BitVec 32 := 13#32
  let v139 : Index := Scalar.indexCast c13_i32
  let c0_97 : Index := 0#32
  ![1, v138.toNat, 13, 0]
def k0_off284 (k0_t3 : Fin k0_t3_loop.trips) : Fin 4 → Nat :=
  let c1_i32_98 : BitVec 32 := 1#32
  let v143 : Index := Scalar.indexCast c1_i32_98
  let c0_i32_61 : BitVec 32 := 0#32
  let c1_i32_63 : BitVec 32 := 1#32
  let arg8 : BitVec 32 := Scf.iv c0_i32_61 c1_i32_63 k0_t3
  let v144 : Index := Scalar.indexCast arg8
  let c14_i32 : BitVec 32 := 14#32
  let v145 : Index := Scalar.indexCast c14_i32
  let c0_99 : Index := 0#32
  ![1, v144.toNat, 14, 0]
def k0_off285 (k0_t3 : Fin k0_t3_loop.trips) : Fin 4 → Nat :=
  let c1_i32_100 : BitVec 32 := 1#32
  let v149 : Index := Scalar.indexCast c1_i32_100
  let c0_i32_61 : BitVec 32 := 0#32
  let c1_i32_63 : BitVec 32 := 1#32
  let arg8 : BitVec 32 := Scf.iv c0_i32_61 c1_i32_63 k0_t3
  let v150 : Index := Scalar.indexCast arg8
  let c15_i32 : BitVec 32 := 15#32
  let v151 : Index := Scalar.indexCast c15_i32
  let c0_101 : Index := 0#32
  ![1, v150.toNat, 15, 0]
def k0_off286 (k0_t3 : Fin k0_t3_loop.trips) : Fin 4 → Nat :=
  let c1_i32_102 : BitVec 32 := 1#32
  let v155 : Index := Scalar.indexCast c1_i32_102
  let c0_i32_61 : BitVec 32 := 0#32
  let c1_i32_63 : BitVec 32 := 1#32
  let arg8 : BitVec 32 := Scf.iv c0_i32_61 c1_i32_63 k0_t3
  let v156 : Index := Scalar.indexCast arg8
  let c16_i32 : BitVec 32 := 16#32
  let v157 : Index := Scalar.indexCast c16_i32
  let c0_103 : Index := 0#32
  ![1, v156.toNat, 16, 0]
def k0_off287 (k0_t3 : Fin k0_t3_loop.trips) : Fin 4 → Nat :=
  let c1_i32_104 : BitVec 32 := 1#32
  let v161 : Index := Scalar.indexCast c1_i32_104
  let c0_i32_61 : BitVec 32 := 0#32
  let c1_i32_63 : BitVec 32 := 1#32
  let arg8 : BitVec 32 := Scf.iv c0_i32_61 c1_i32_63 k0_t3
  let v162 : Index := Scalar.indexCast arg8
  let c17_i32 : BitVec 32 := 17#32
  let v163 : Index := Scalar.indexCast c17_i32
  let c0_105 : Index := 0#32
  ![1, v162.toNat, 17, 0]
def k0_off288 (k0_t3 : Fin k0_t3_loop.trips) : Fin 4 → Nat :=
  let c1_i32_106 : BitVec 32 := 1#32
  let v167 : Index := Scalar.indexCast c1_i32_106
  let c0_i32_61 : BitVec 32 := 0#32
  let c1_i32_63 : BitVec 32 := 1#32
  let arg8 : BitVec 32 := Scf.iv c0_i32_61 c1_i32_63 k0_t3
  let v168 : Index := Scalar.indexCast arg8
  let c18_i32 : BitVec 32 := 18#32
  let v169 : Index := Scalar.indexCast c18_i32
  let c0_107 : Index := 0#32
  ![1, v168.toNat, 18, 0]
def k0_off289 (k0_t3 : Fin k0_t3_loop.trips) : Fin 4 → Nat :=
  let c1_i32_108 : BitVec 32 := 1#32
  let v173 : Index := Scalar.indexCast c1_i32_108
  let c0_i32_61 : BitVec 32 := 0#32
  let c1_i32_63 : BitVec 32 := 1#32
  let arg8 : BitVec 32 := Scf.iv c0_i32_61 c1_i32_63 k0_t3
  let v174 : Index := Scalar.indexCast arg8
  let c19_i32 : BitVec 32 := 19#32
  let v175 : Index := Scalar.indexCast c19_i32
  let c0_109 : Index := 0#32
  ![1, v174.toNat, 19, 0]
def k0_off290 (k0_t3 : Fin k0_t3_loop.trips) : Fin 4 → Nat :=
  let c1_i32_110 : BitVec 32 := 1#32
  let v179 : Index := Scalar.indexCast c1_i32_110
  let c0_i32_61 : BitVec 32 := 0#32
  let c1_i32_63 : BitVec 32 := 1#32
  let arg8 : BitVec 32 := Scf.iv c0_i32_61 c1_i32_63 k0_t3
  let v180 : Index := Scalar.indexCast arg8
  let c20_i32_111 : BitVec 32 := 20#32
  let v181 : Index := Scalar.indexCast c20_i32_111
  let c0_112 : Index := 0#32
  ![1, v180.toNat, 20, 0]
def k0_off291 (k0_t3 : Fin k0_t3_loop.trips) : Fin 4 → Nat :=
  let c1_i32_113 : BitVec 32 := 1#32
  let v185 : Index := Scalar.indexCast c1_i32_113
  let c0_i32_61 : BitVec 32 := 0#32
  let c1_i32_63 : BitVec 32 := 1#32
  let arg8 : BitVec 32 := Scf.iv c0_i32_61 c1_i32_63 k0_t3
  let v186 : Index := Scalar.indexCast arg8
  let c21_i32 : BitVec 32 := 21#32
  let v187 : Index := Scalar.indexCast c21_i32
  let c0_114 : Index := 0#32
  ![1, v186.toNat, 21, 0]
def k0_off292 (k0_t3 : Fin k0_t3_loop.trips) : Fin 4 → Nat :=
  let c1_i32_115 : BitVec 32 := 1#32
  let v191 : Index := Scalar.indexCast c1_i32_115
  let c0_i32_61 : BitVec 32 := 0#32
  let c1_i32_63 : BitVec 32 := 1#32
  let arg8 : BitVec 32 := Scf.iv c0_i32_61 c1_i32_63 k0_t3
  let v192 : Index := Scalar.indexCast arg8
  let c22_i32 : BitVec 32 := 22#32
  let v193 : Index := Scalar.indexCast c22_i32
  let c0_116 : Index := 0#32
  ![1, v192.toNat, 22, 0]
def k0_off293 (k0_t3 : Fin k0_t3_loop.trips) : Fin 4 → Nat :=
  let c1_i32_117 : BitVec 32 := 1#32
  let v197 : Index := Scalar.indexCast c1_i32_117
  let c0_i32_61 : BitVec 32 := 0#32
  let c1_i32_63 : BitVec 32 := 1#32
  let arg8 : BitVec 32 := Scf.iv c0_i32_61 c1_i32_63 k0_t3
  let v198 : Index := Scalar.indexCast arg8
  let c23_i32 : BitVec 32 := 23#32
  let v199 : Index := Scalar.indexCast c23_i32
  let c0_118 : Index := 0#32
  ![1, v198.toNat, 23, 0]
def k0_off294 (k0_t3 : Fin k0_t3_loop.trips) : Fin 4 → Nat :=
  let c1_i32_119 : BitVec 32 := 1#32
  let v203 : Index := Scalar.indexCast c1_i32_119
  let c0_i32_61 : BitVec 32 := 0#32
  let c1_i32_63 : BitVec 32 := 1#32
  let arg8 : BitVec 32 := Scf.iv c0_i32_61 c1_i32_63 k0_t3
  let v204 : Index := Scalar.indexCast arg8
  let c24_i32 : BitVec 32 := 24#32
  let v205 : Index := Scalar.indexCast c24_i32
  let c0_120 : Index := 0#32
  ![1, v204.toNat, 24, 0]
def k0_off295 (k0_t3 : Fin k0_t3_loop.trips) : Fin 4 → Nat :=
  let c1_i32_121 : BitVec 32 := 1#32
  let v209 : Index := Scalar.indexCast c1_i32_121
  let c0_i32_61 : BitVec 32 := 0#32
  let c1_i32_63 : BitVec 32 := 1#32
  let arg8 : BitVec 32 := Scf.iv c0_i32_61 c1_i32_63 k0_t3
  let v210 : Index := Scalar.indexCast arg8
  let c25_i32 : BitVec 32 := 25#32
  let v211 : Index := Scalar.indexCast c25_i32
  let c0_122 : Index := 0#32
  ![1, v210.toNat, 25, 0]
def k0_off296 (k0_t3 : Fin k0_t3_loop.trips) : Fin 4 → Nat :=
  let c1_i32_123 : BitVec 32 := 1#32
  let v215 : Index := Scalar.indexCast c1_i32_123
  let c0_i32_61 : BitVec 32 := 0#32
  let c1_i32_63 : BitVec 32 := 1#32
  let arg8 : BitVec 32 := Scf.iv c0_i32_61 c1_i32_63 k0_t3
  let v216 : Index := Scalar.indexCast arg8
  let c26_i32 : BitVec 32 := 26#32
  let v217 : Index := Scalar.indexCast c26_i32
  let c0_124 : Index := 0#32
  ![1, v216.toNat, 26, 0]
def k0_off297 (k0_t3 : Fin k0_t3_loop.trips) : Fin 4 → Nat :=
  let c1_i32_125 : BitVec 32 := 1#32
  let v221 : Index := Scalar.indexCast c1_i32_125
  let c0_i32_61 : BitVec 32 := 0#32
  let c1_i32_63 : BitVec 32 := 1#32
  let arg8 : BitVec 32 := Scf.iv c0_i32_61 c1_i32_63 k0_t3
  let v222 : Index := Scalar.indexCast arg8
  let c27_i32 : BitVec 32 := 27#32
  let v223 : Index := Scalar.indexCast c27_i32
  let c0_126 : Index := 0#32
  ![1, v222.toNat, 27, 0]
def k0_off298 (k0_t3 : Fin k0_t3_loop.trips) : Fin 4 → Nat :=
  let c1_i32_127 : BitVec 32 := 1#32
  let v227 : Index := Scalar.indexCast c1_i32_127
  let c0_i32_61 : BitVec 32 := 0#32
  let c1_i32_63 : BitVec 32 := 1#32
  let arg8 : BitVec 32 := Scf.iv c0_i32_61 c1_i32_63 k0_t3
  let v228 : Index := Scalar.indexCast arg8
  let c28_i32 : BitVec 32 := 28#32
  let v229 : Index := Scalar.indexCast c28_i32
  let c0_128 : Index := 0#32
  ![1, v228.toNat, 28, 0]
def k0_off299 (k0_t3 : Fin k0_t3_loop.trips) : Fin 4 → Nat :=
  let c1_i32_129 : BitVec 32 := 1#32
  let v233 : Index := Scalar.indexCast c1_i32_129
  let c0_i32_61 : BitVec 32 := 0#32
  let c1_i32_63 : BitVec 32 := 1#32
  let arg8 : BitVec 32 := Scf.iv c0_i32_61 c1_i32_63 k0_t3
  let v234 : Index := Scalar.indexCast arg8
  let c29_i32 : BitVec 32 := 29#32
  let v235 : Index := Scalar.indexCast c29_i32
  let c0_130 : Index := 0#32
  ![1, v234.toNat, 29, 0]
def k0_off300 (k0_t3 : Fin k0_t3_loop.trips) : Fin 4 → Nat :=
  let c1_i32_131 : BitVec 32 := 1#32
  let v239 : Index := Scalar.indexCast c1_i32_131
  let c0_i32_61 : BitVec 32 := 0#32
  let c1_i32_63 : BitVec 32 := 1#32
  let arg8 : BitVec 32 := Scf.iv c0_i32_61 c1_i32_63 k0_t3
  let v240 : Index := Scalar.indexCast arg8
  let c30_i32 : BitVec 32 := 30#32
  let v241 : Index := Scalar.indexCast c30_i32
  let c0_132 : Index := 0#32
  ![1, v240.toNat, 30, 0]
def k0_off301 (k0_t3 : Fin k0_t3_loop.trips) : Fin 4 → Nat :=
  let c1_i32_133 : BitVec 32 := 1#32
  let v245 : Index := Scalar.indexCast c1_i32_133
  let c0_i32_61 : BitVec 32 := 0#32
  let c1_i32_63 : BitVec 32 := 1#32
  let arg8 : BitVec 32 := Scf.iv c0_i32_61 c1_i32_63 k0_t3
  let v246 : Index := Scalar.indexCast arg8
  let c31_i32 : BitVec 32 := 31#32
  let v247 : Index := Scalar.indexCast c31_i32
  let c0_134 : Index := 0#32
  ![1, v246.toNat, 31, 0]
def k0_off302 (k0_t3 : Fin k0_t3_loop.trips) : Fin 3 → Nat :=
  let c1_i32_135 : BitVec 32 := 1#32
  let v251 : Index := Scalar.indexCast c1_i32_135
  let c0_i32_61 : BitVec 32 := 0#32
  let c1_i32_63 : BitVec 32 := 1#32
  let arg8 : BitVec 32 := Scf.iv c0_i32_61 c1_i32_63 k0_t3
  let v252 : Index := Scalar.indexCast arg8
  let c0_136 : Index := 0#32
  ![1, v252.toNat, 0]
def k0_off303 (k0_t3 : Fin k0_t3_loop.trips) : Fin 4 → Nat :=
  let c1_i32_137 : BitVec 32 := 1#32
  let v256 : Index := Scalar.indexCast c1_i32_137
  let c0_i32_61 : BitVec 32 := 0#32
  let c1_i32_63 : BitVec 32 := 1#32
  let arg8 : BitVec 32 := Scf.iv c0_i32_61 c1_i32_63 k0_t3
  let v257 : Index := Scalar.indexCast arg8
  let c0_i32_138 : BitVec 32 := 0#32
  let v258 : Index := Scalar.indexCast c0_i32_138
  let c16 : Index := 16#32
  ![1, v257.toNat, 0, 16]
def k0_off304 (k0_t3 : Fin k0_t3_loop.trips) : Fin 4 → Nat :=
  let c1_i32_139 : BitVec 32 := 1#32
  let v261 : Index := Scalar.indexCast c1_i32_139
  let c0_i32_61 : BitVec 32 := 0#32
  let c1_i32_63 : BitVec 32 := 1#32
  let arg8 : BitVec 32 := Scf.iv c0_i32_61 c1_i32_63 k0_t3
  let v262 : Index := Scalar.indexCast arg8
  let c1_i32_140 : BitVec 32 := 1#32
  let v263 : Index := Scalar.indexCast c1_i32_140
  let c16_141 : Index := 16#32
  ![1, v262.toNat, 1, 16]
def k0_off305 (k0_t3 : Fin k0_t3_loop.trips) : Fin 4 → Nat :=
  let c1_i32_142 : BitVec 32 := 1#32
  let v267 : Index := Scalar.indexCast c1_i32_142
  let c0_i32_61 : BitVec 32 := 0#32
  let c1_i32_63 : BitVec 32 := 1#32
  let arg8 : BitVec 32 := Scf.iv c0_i32_61 c1_i32_63 k0_t3
  let v268 : Index := Scalar.indexCast arg8
  let c2_i32_143 : BitVec 32 := 2#32
  let v269 : Index := Scalar.indexCast c2_i32_143
  let c16_144 : Index := 16#32
  ![1, v268.toNat, 2, 16]
def k0_off306 (k0_t3 : Fin k0_t3_loop.trips) : Fin 4 → Nat :=
  let c1_i32_145 : BitVec 32 := 1#32
  let v273 : Index := Scalar.indexCast c1_i32_145
  let c0_i32_61 : BitVec 32 := 0#32
  let c1_i32_63 : BitVec 32 := 1#32
  let arg8 : BitVec 32 := Scf.iv c0_i32_61 c1_i32_63 k0_t3
  let v274 : Index := Scalar.indexCast arg8
  let c3_i32_146 : BitVec 32 := 3#32
  let v275 : Index := Scalar.indexCast c3_i32_146
  let c16_147 : Index := 16#32
  ![1, v274.toNat, 3, 16]
def k0_off307 (k0_t3 : Fin k0_t3_loop.trips) : Fin 4 → Nat :=
  let c1_i32_148 : BitVec 32 := 1#32
  let v279 : Index := Scalar.indexCast c1_i32_148
  let c0_i32_61 : BitVec 32 := 0#32
  let c1_i32_63 : BitVec 32 := 1#32
  let arg8 : BitVec 32 := Scf.iv c0_i32_61 c1_i32_63 k0_t3
  let v280 : Index := Scalar.indexCast arg8
  let c4_i32_149 : BitVec 32 := 4#32
  let v281 : Index := Scalar.indexCast c4_i32_149
  let c16_150 : Index := 16#32
  ![1, v280.toNat, 4, 16]
def k0_off308 (k0_t3 : Fin k0_t3_loop.trips) : Fin 4 → Nat :=
  let c1_i32_151 : BitVec 32 := 1#32
  let v285 : Index := Scalar.indexCast c1_i32_151
  let c0_i32_61 : BitVec 32 := 0#32
  let c1_i32_63 : BitVec 32 := 1#32
  let arg8 : BitVec 32 := Scf.iv c0_i32_61 c1_i32_63 k0_t3
  let v286 : Index := Scalar.indexCast arg8
  let c5_i32_152 : BitVec 32 := 5#32
  let v287 : Index := Scalar.indexCast c5_i32_152
  let c16_153 : Index := 16#32
  ![1, v286.toNat, 5, 16]
def k0_off309 (k0_t3 : Fin k0_t3_loop.trips) : Fin 4 → Nat :=
  let c1_i32_154 : BitVec 32 := 1#32
  let v291 : Index := Scalar.indexCast c1_i32_154
  let c0_i32_61 : BitVec 32 := 0#32
  let c1_i32_63 : BitVec 32 := 1#32
  let arg8 : BitVec 32 := Scf.iv c0_i32_61 c1_i32_63 k0_t3
  let v292 : Index := Scalar.indexCast arg8
  let c6_i32_155 : BitVec 32 := 6#32
  let v293 : Index := Scalar.indexCast c6_i32_155
  let c16_156 : Index := 16#32
  ![1, v292.toNat, 6, 16]
def k0_off310 (k0_t3 : Fin k0_t3_loop.trips) : Fin 4 → Nat :=
  let c1_i32_157 : BitVec 32 := 1#32
  let v297 : Index := Scalar.indexCast c1_i32_157
  let c0_i32_61 : BitVec 32 := 0#32
  let c1_i32_63 : BitVec 32 := 1#32
  let arg8 : BitVec 32 := Scf.iv c0_i32_61 c1_i32_63 k0_t3
  let v298 : Index := Scalar.indexCast arg8
  let c7_i32_158 : BitVec 32 := 7#32
  let v299 : Index := Scalar.indexCast c7_i32_158
  let c16_159 : Index := 16#32
  ![1, v298.toNat, 7, 16]
def k0_off311 (k0_t3 : Fin k0_t3_loop.trips) : Fin 4 → Nat :=
  let c1_i32_160 : BitVec 32 := 1#32
  let v303 : Index := Scalar.indexCast c1_i32_160
  let c0_i32_61 : BitVec 32 := 0#32
  let c1_i32_63 : BitVec 32 := 1#32
  let arg8 : BitVec 32 := Scf.iv c0_i32_61 c1_i32_63 k0_t3
  let v304 : Index := Scalar.indexCast arg8
  let c8_i32_161 : BitVec 32 := 8#32
  let v305 : Index := Scalar.indexCast c8_i32_161
  let c16_162 : Index := 16#32
  ![1, v304.toNat, 8, 16]
def k0_off312 (k0_t3 : Fin k0_t3_loop.trips) : Fin 4 → Nat :=
  let c1_i32_163 : BitVec 32 := 1#32
  let v309 : Index := Scalar.indexCast c1_i32_163
  let c0_i32_61 : BitVec 32 := 0#32
  let c1_i32_63 : BitVec 32 := 1#32
  let arg8 : BitVec 32 := Scf.iv c0_i32_61 c1_i32_63 k0_t3
  let v310 : Index := Scalar.indexCast arg8
  let c9_i32_164 : BitVec 32 := 9#32
  let v311 : Index := Scalar.indexCast c9_i32_164
  let c16_165 : Index := 16#32
  ![1, v310.toNat, 9, 16]
def k0_off313 (k0_t3 : Fin k0_t3_loop.trips) : Fin 4 → Nat :=
  let c1_i32_166 : BitVec 32 := 1#32
  let v315 : Index := Scalar.indexCast c1_i32_166
  let c0_i32_61 : BitVec 32 := 0#32
  let c1_i32_63 : BitVec 32 := 1#32
  let arg8 : BitVec 32 := Scf.iv c0_i32_61 c1_i32_63 k0_t3
  let v316 : Index := Scalar.indexCast arg8
  let c10_i32_167 : BitVec 32 := 10#32
  let v317 : Index := Scalar.indexCast c10_i32_167
  let c16_168 : Index := 16#32
  ![1, v316.toNat, 10, 16]
def k0_off314 (k0_t3 : Fin k0_t3_loop.trips) : Fin 4 → Nat :=
  let c1_i32_169 : BitVec 32 := 1#32
  let v321 : Index := Scalar.indexCast c1_i32_169
  let c0_i32_61 : BitVec 32 := 0#32
  let c1_i32_63 : BitVec 32 := 1#32
  let arg8 : BitVec 32 := Scf.iv c0_i32_61 c1_i32_63 k0_t3
  let v322 : Index := Scalar.indexCast arg8
  let c11_i32_170 : BitVec 32 := 11#32
  let v323 : Index := Scalar.indexCast c11_i32_170
  let c16_171 : Index := 16#32
  ![1, v322.toNat, 11, 16]
def k0_off315 (k0_t3 : Fin k0_t3_loop.trips) : Fin 4 → Nat :=
  let c1_i32_172 : BitVec 32 := 1#32
  let v327 : Index := Scalar.indexCast c1_i32_172
  let c0_i32_61 : BitVec 32 := 0#32
  let c1_i32_63 : BitVec 32 := 1#32
  let arg8 : BitVec 32 := Scf.iv c0_i32_61 c1_i32_63 k0_t3
  let v328 : Index := Scalar.indexCast arg8
  let c12_i32_173 : BitVec 32 := 12#32
  let v329 : Index := Scalar.indexCast c12_i32_173
  let c16_174 : Index := 16#32
  ![1, v328.toNat, 12, 16]
def k0_off316 (k0_t3 : Fin k0_t3_loop.trips) : Fin 4 → Nat :=
  let c1_i32_175 : BitVec 32 := 1#32
  let v333 : Index := Scalar.indexCast c1_i32_175
  let c0_i32_61 : BitVec 32 := 0#32
  let c1_i32_63 : BitVec 32 := 1#32
  let arg8 : BitVec 32 := Scf.iv c0_i32_61 c1_i32_63 k0_t3
  let v334 : Index := Scalar.indexCast arg8
  let c13_i32_176 : BitVec 32 := 13#32
  let v335 : Index := Scalar.indexCast c13_i32_176
  let c16_177 : Index := 16#32
  ![1, v334.toNat, 13, 16]
def k0_off317 (k0_t3 : Fin k0_t3_loop.trips) : Fin 4 → Nat :=
  let c1_i32_178 : BitVec 32 := 1#32
  let v339 : Index := Scalar.indexCast c1_i32_178
  let c0_i32_61 : BitVec 32 := 0#32
  let c1_i32_63 : BitVec 32 := 1#32
  let arg8 : BitVec 32 := Scf.iv c0_i32_61 c1_i32_63 k0_t3
  let v340 : Index := Scalar.indexCast arg8
  let c14_i32_179 : BitVec 32 := 14#32
  let v341 : Index := Scalar.indexCast c14_i32_179
  let c16_180 : Index := 16#32
  ![1, v340.toNat, 14, 16]
def k0_off318 (k0_t3 : Fin k0_t3_loop.trips) : Fin 4 → Nat :=
  let c1_i32_181 : BitVec 32 := 1#32
  let v345 : Index := Scalar.indexCast c1_i32_181
  let c0_i32_61 : BitVec 32 := 0#32
  let c1_i32_63 : BitVec 32 := 1#32
  let arg8 : BitVec 32 := Scf.iv c0_i32_61 c1_i32_63 k0_t3
  let v346 : Index := Scalar.indexCast arg8
  let c15_i32_182 : BitVec 32 := 15#32
  let v347 : Index := Scalar.indexCast c15_i32_182
  let c16_183 : Index := 16#32
  ![1, v346.toNat, 15, 16]
def k0_off319 (k0_t3 : Fin k0_t3_loop.trips) : Fin 4 → Nat :=
  let c1_i32_184 : BitVec 32 := 1#32
  let v351 : Index := Scalar.indexCast c1_i32_184
  let c0_i32_61 : BitVec 32 := 0#32
  let c1_i32_63 : BitVec 32 := 1#32
  let arg8 : BitVec 32 := Scf.iv c0_i32_61 c1_i32_63 k0_t3
  let v352 : Index := Scalar.indexCast arg8
  let c16_i32_185 : BitVec 32 := 16#32
  let v353 : Index := Scalar.indexCast c16_i32_185
  let c16_186 : Index := 16#32
  ![1, v352.toNat, 16, 16]
def k0_off320 (k0_t3 : Fin k0_t3_loop.trips) : Fin 4 → Nat :=
  let c1_i32_187 : BitVec 32 := 1#32
  let v357 : Index := Scalar.indexCast c1_i32_187
  let c0_i32_61 : BitVec 32 := 0#32
  let c1_i32_63 : BitVec 32 := 1#32
  let arg8 : BitVec 32 := Scf.iv c0_i32_61 c1_i32_63 k0_t3
  let v358 : Index := Scalar.indexCast arg8
  let c17_i32_188 : BitVec 32 := 17#32
  let v359 : Index := Scalar.indexCast c17_i32_188
  let c16_189 : Index := 16#32
  ![1, v358.toNat, 17, 16]
def k0_off321 (k0_t3 : Fin k0_t3_loop.trips) : Fin 4 → Nat :=
  let c1_i32_190 : BitVec 32 := 1#32
  let v363 : Index := Scalar.indexCast c1_i32_190
  let c0_i32_61 : BitVec 32 := 0#32
  let c1_i32_63 : BitVec 32 := 1#32
  let arg8 : BitVec 32 := Scf.iv c0_i32_61 c1_i32_63 k0_t3
  let v364 : Index := Scalar.indexCast arg8
  let c18_i32_191 : BitVec 32 := 18#32
  let v365 : Index := Scalar.indexCast c18_i32_191
  let c16_192 : Index := 16#32
  ![1, v364.toNat, 18, 16]
def k0_off322 (k0_t3 : Fin k0_t3_loop.trips) : Fin 4 → Nat :=
  let c1_i32_193 : BitVec 32 := 1#32
  let v369 : Index := Scalar.indexCast c1_i32_193
  let c0_i32_61 : BitVec 32 := 0#32
  let c1_i32_63 : BitVec 32 := 1#32
  let arg8 : BitVec 32 := Scf.iv c0_i32_61 c1_i32_63 k0_t3
  let v370 : Index := Scalar.indexCast arg8
  let c19_i32_194 : BitVec 32 := 19#32
  let v371 : Index := Scalar.indexCast c19_i32_194
  let c16_195 : Index := 16#32
  ![1, v370.toNat, 19, 16]
def k0_off323 (k0_t3 : Fin k0_t3_loop.trips) : Fin 4 → Nat :=
  let c1_i32_196 : BitVec 32 := 1#32
  let v375 : Index := Scalar.indexCast c1_i32_196
  let c0_i32_61 : BitVec 32 := 0#32
  let c1_i32_63 : BitVec 32 := 1#32
  let arg8 : BitVec 32 := Scf.iv c0_i32_61 c1_i32_63 k0_t3
  let v376 : Index := Scalar.indexCast arg8
  let c20_i32_197 : BitVec 32 := 20#32
  let v377 : Index := Scalar.indexCast c20_i32_197
  let c16_198 : Index := 16#32
  ![1, v376.toNat, 20, 16]
def k0_off324 (k0_t3 : Fin k0_t3_loop.trips) : Fin 4 → Nat :=
  let c1_i32_199 : BitVec 32 := 1#32
  let v381 : Index := Scalar.indexCast c1_i32_199
  let c0_i32_61 : BitVec 32 := 0#32
  let c1_i32_63 : BitVec 32 := 1#32
  let arg8 : BitVec 32 := Scf.iv c0_i32_61 c1_i32_63 k0_t3
  let v382 : Index := Scalar.indexCast arg8
  let c21_i32_200 : BitVec 32 := 21#32
  let v383 : Index := Scalar.indexCast c21_i32_200
  let c16_201 : Index := 16#32
  ![1, v382.toNat, 21, 16]
def k0_off325 (k0_t3 : Fin k0_t3_loop.trips) : Fin 4 → Nat :=
  let c1_i32_202 : BitVec 32 := 1#32
  let v387 : Index := Scalar.indexCast c1_i32_202
  let c0_i32_61 : BitVec 32 := 0#32
  let c1_i32_63 : BitVec 32 := 1#32
  let arg8 : BitVec 32 := Scf.iv c0_i32_61 c1_i32_63 k0_t3
  let v388 : Index := Scalar.indexCast arg8
  let c22_i32_203 : BitVec 32 := 22#32
  let v389 : Index := Scalar.indexCast c22_i32_203
  let c16_204 : Index := 16#32
  ![1, v388.toNat, 22, 16]
def k0_off326 (k0_t3 : Fin k0_t3_loop.trips) : Fin 4 → Nat :=
  let c1_i32_205 : BitVec 32 := 1#32
  let v393 : Index := Scalar.indexCast c1_i32_205
  let c0_i32_61 : BitVec 32 := 0#32
  let c1_i32_63 : BitVec 32 := 1#32
  let arg8 : BitVec 32 := Scf.iv c0_i32_61 c1_i32_63 k0_t3
  let v394 : Index := Scalar.indexCast arg8
  let c23_i32_206 : BitVec 32 := 23#32
  let v395 : Index := Scalar.indexCast c23_i32_206
  let c16_207 : Index := 16#32
  ![1, v394.toNat, 23, 16]
def k0_off327 (k0_t3 : Fin k0_t3_loop.trips) : Fin 4 → Nat :=
  let c1_i32_208 : BitVec 32 := 1#32
  let v399 : Index := Scalar.indexCast c1_i32_208
  let c0_i32_61 : BitVec 32 := 0#32
  let c1_i32_63 : BitVec 32 := 1#32
  let arg8 : BitVec 32 := Scf.iv c0_i32_61 c1_i32_63 k0_t3
  let v400 : Index := Scalar.indexCast arg8
  let c24_i32_209 : BitVec 32 := 24#32
  let v401 : Index := Scalar.indexCast c24_i32_209
  let c16_210 : Index := 16#32
  ![1, v400.toNat, 24, 16]
def k0_off328 (k0_t3 : Fin k0_t3_loop.trips) : Fin 4 → Nat :=
  let c1_i32_211 : BitVec 32 := 1#32
  let v405 : Index := Scalar.indexCast c1_i32_211
  let c0_i32_61 : BitVec 32 := 0#32
  let c1_i32_63 : BitVec 32 := 1#32
  let arg8 : BitVec 32 := Scf.iv c0_i32_61 c1_i32_63 k0_t3
  let v406 : Index := Scalar.indexCast arg8
  let c25_i32_212 : BitVec 32 := 25#32
  let v407 : Index := Scalar.indexCast c25_i32_212
  let c16_213 : Index := 16#32
  ![1, v406.toNat, 25, 16]
def k0_off329 (k0_t3 : Fin k0_t3_loop.trips) : Fin 4 → Nat :=
  let c1_i32_214 : BitVec 32 := 1#32
  let v411 : Index := Scalar.indexCast c1_i32_214
  let c0_i32_61 : BitVec 32 := 0#32
  let c1_i32_63 : BitVec 32 := 1#32
  let arg8 : BitVec 32 := Scf.iv c0_i32_61 c1_i32_63 k0_t3
  let v412 : Index := Scalar.indexCast arg8
  let c26_i32_215 : BitVec 32 := 26#32
  let v413 : Index := Scalar.indexCast c26_i32_215
  let c16_216 : Index := 16#32
  ![1, v412.toNat, 26, 16]
def k0_off330 (k0_t3 : Fin k0_t3_loop.trips) : Fin 4 → Nat :=
  let c1_i32_217 : BitVec 32 := 1#32
  let v417 : Index := Scalar.indexCast c1_i32_217
  let c0_i32_61 : BitVec 32 := 0#32
  let c1_i32_63 : BitVec 32 := 1#32
  let arg8 : BitVec 32 := Scf.iv c0_i32_61 c1_i32_63 k0_t3
  let v418 : Index := Scalar.indexCast arg8
  let c27_i32_218 : BitVec 32 := 27#32
  let v419 : Index := Scalar.indexCast c27_i32_218
  let c16_219 : Index := 16#32
  ![1, v418.toNat, 27, 16]
def k0_off331 (k0_t3 : Fin k0_t3_loop.trips) : Fin 4 → Nat :=
  let c1_i32_220 : BitVec 32 := 1#32
  let v423 : Index := Scalar.indexCast c1_i32_220
  let c0_i32_61 : BitVec 32 := 0#32
  let c1_i32_63 : BitVec 32 := 1#32
  let arg8 : BitVec 32 := Scf.iv c0_i32_61 c1_i32_63 k0_t3
  let v424 : Index := Scalar.indexCast arg8
  let c28_i32_221 : BitVec 32 := 28#32
  let v425 : Index := Scalar.indexCast c28_i32_221
  let c16_222 : Index := 16#32
  ![1, v424.toNat, 28, 16]
def k0_off332 (k0_t3 : Fin k0_t3_loop.trips) : Fin 4 → Nat :=
  let c1_i32_223 : BitVec 32 := 1#32
  let v429 : Index := Scalar.indexCast c1_i32_223
  let c0_i32_61 : BitVec 32 := 0#32
  let c1_i32_63 : BitVec 32 := 1#32
  let arg8 : BitVec 32 := Scf.iv c0_i32_61 c1_i32_63 k0_t3
  let v430 : Index := Scalar.indexCast arg8
  let c29_i32_224 : BitVec 32 := 29#32
  let v431 : Index := Scalar.indexCast c29_i32_224
  let c16_225 : Index := 16#32
  ![1, v430.toNat, 29, 16]
def k0_off333 (k0_t3 : Fin k0_t3_loop.trips) : Fin 4 → Nat :=
  let c1_i32_226 : BitVec 32 := 1#32
  let v435 : Index := Scalar.indexCast c1_i32_226
  let c0_i32_61 : BitVec 32 := 0#32
  let c1_i32_63 : BitVec 32 := 1#32
  let arg8 : BitVec 32 := Scf.iv c0_i32_61 c1_i32_63 k0_t3
  let v436 : Index := Scalar.indexCast arg8
  let c30_i32_227 : BitVec 32 := 30#32
  let v437 : Index := Scalar.indexCast c30_i32_227
  let c16_228 : Index := 16#32
  ![1, v436.toNat, 30, 16]
def k0_off334 (k0_t3 : Fin k0_t3_loop.trips) : Fin 4 → Nat :=
  let c1_i32_229 : BitVec 32 := 1#32
  let v441 : Index := Scalar.indexCast c1_i32_229
  let c0_i32_61 : BitVec 32 := 0#32
  let c1_i32_63 : BitVec 32 := 1#32
  let arg8 : BitVec 32 := Scf.iv c0_i32_61 c1_i32_63 k0_t3
  let v442 : Index := Scalar.indexCast arg8
  let c31_i32_230 : BitVec 32 := 31#32
  let v443 : Index := Scalar.indexCast c31_i32_230
  let c16_231 : Index := 16#32
  ![1, v442.toNat, 31, 16]
def k0_off335 (k0_t3 : Fin k0_t3_loop.trips) : Fin 3 → Nat :=
  let c1_i32_232 : BitVec 32 := 1#32
  let v447 : Index := Scalar.indexCast c1_i32_232
  let c0_i32_61 : BitVec 32 := 0#32
  let c1_i32_63 : BitVec 32 := 1#32
  let arg8 : BitVec 32 := Scf.iv c0_i32_61 c1_i32_63 k0_t3
  let v448 : Index := Scalar.indexCast arg8
  let c16_233 : Index := 16#32
  ![1, v448.toNat, 16]
def k0_off336 (k0_t3 : Fin k0_t3_loop.trips) : Fin 4 → Nat :=
  let c1_i32_234 : BitVec 32 := 1#32
  let v452 : Index := Scalar.indexCast c1_i32_234
  let c0_i32_61 : BitVec 32 := 0#32
  let c1_i32_63 : BitVec 32 := 1#32
  let arg8 : BitVec 32 := Scf.iv c0_i32_61 c1_i32_63 k0_t3
  let v453 : Index := Scalar.indexCast arg8
  let c0_i32_235 : BitVec 32 := 0#32
  let v454 : Index := Scalar.indexCast c0_i32_235
  let c32 : Index := 32#32
  ![1, v453.toNat, 0, 32]
def k0_off337 (k0_t3 : Fin k0_t3_loop.trips) : Fin 4 → Nat :=
  let c1_i32_236 : BitVec 32 := 1#32
  let v457 : Index := Scalar.indexCast c1_i32_236
  let c0_i32_61 : BitVec 32 := 0#32
  let c1_i32_63 : BitVec 32 := 1#32
  let arg8 : BitVec 32 := Scf.iv c0_i32_61 c1_i32_63 k0_t3
  let v458 : Index := Scalar.indexCast arg8
  let c1_i32_237 : BitVec 32 := 1#32
  let v459 : Index := Scalar.indexCast c1_i32_237
  let c32_238 : Index := 32#32
  ![1, v458.toNat, 1, 32]
def k0_off338 (k0_t3 : Fin k0_t3_loop.trips) : Fin 4 → Nat :=
  let c1_i32_239 : BitVec 32 := 1#32
  let v463 : Index := Scalar.indexCast c1_i32_239
  let c0_i32_61 : BitVec 32 := 0#32
  let c1_i32_63 : BitVec 32 := 1#32
  let arg8 : BitVec 32 := Scf.iv c0_i32_61 c1_i32_63 k0_t3
  let v464 : Index := Scalar.indexCast arg8
  let c2_i32_240 : BitVec 32 := 2#32
  let v465 : Index := Scalar.indexCast c2_i32_240
  let c32_241 : Index := 32#32
  ![1, v464.toNat, 2, 32]
def k0_off339 (k0_t3 : Fin k0_t3_loop.trips) : Fin 4 → Nat :=
  let c1_i32_242 : BitVec 32 := 1#32
  let v469 : Index := Scalar.indexCast c1_i32_242
  let c0_i32_61 : BitVec 32 := 0#32
  let c1_i32_63 : BitVec 32 := 1#32
  let arg8 : BitVec 32 := Scf.iv c0_i32_61 c1_i32_63 k0_t3
  let v470 : Index := Scalar.indexCast arg8
  let c3_i32_243 : BitVec 32 := 3#32
  let v471 : Index := Scalar.indexCast c3_i32_243
  let c32_244 : Index := 32#32
  ![1, v470.toNat, 3, 32]
def k0_off340 (k0_t3 : Fin k0_t3_loop.trips) : Fin 4 → Nat :=
  let c1_i32_245 : BitVec 32 := 1#32
  let v475 : Index := Scalar.indexCast c1_i32_245
  let c0_i32_61 : BitVec 32 := 0#32
  let c1_i32_63 : BitVec 32 := 1#32
  let arg8 : BitVec 32 := Scf.iv c0_i32_61 c1_i32_63 k0_t3
  let v476 : Index := Scalar.indexCast arg8
  let c4_i32_246 : BitVec 32 := 4#32
  let v477 : Index := Scalar.indexCast c4_i32_246
  let c32_247 : Index := 32#32
  ![1, v476.toNat, 4, 32]
def k0_off341 (k0_t3 : Fin k0_t3_loop.trips) : Fin 4 → Nat :=
  let c1_i32_248 : BitVec 32 := 1#32
  let v481 : Index := Scalar.indexCast c1_i32_248
  let c0_i32_61 : BitVec 32 := 0#32
  let c1_i32_63 : BitVec 32 := 1#32
  let arg8 : BitVec 32 := Scf.iv c0_i32_61 c1_i32_63 k0_t3
  let v482 : Index := Scalar.indexCast arg8
  let c5_i32_249 : BitVec 32 := 5#32
  let v483 : Index := Scalar.indexCast c5_i32_249
  let c32_250 : Index := 32#32
  ![1, v482.toNat, 5, 32]
def k0_off342 (k0_t3 : Fin k0_t3_loop.trips) : Fin 4 → Nat :=
  let c1_i32_251 : BitVec 32 := 1#32
  let v487 : Index := Scalar.indexCast c1_i32_251
  let c0_i32_61 : BitVec 32 := 0#32
  let c1_i32_63 : BitVec 32 := 1#32
  let arg8 : BitVec 32 := Scf.iv c0_i32_61 c1_i32_63 k0_t3
  let v488 : Index := Scalar.indexCast arg8
  let c6_i32_252 : BitVec 32 := 6#32
  let v489 : Index := Scalar.indexCast c6_i32_252
  let c32_253 : Index := 32#32
  ![1, v488.toNat, 6, 32]
def k0_off343 (k0_t3 : Fin k0_t3_loop.trips) : Fin 4 → Nat :=
  let c1_i32_254 : BitVec 32 := 1#32
  let v493 : Index := Scalar.indexCast c1_i32_254
  let c0_i32_61 : BitVec 32 := 0#32
  let c1_i32_63 : BitVec 32 := 1#32
  let arg8 : BitVec 32 := Scf.iv c0_i32_61 c1_i32_63 k0_t3
  let v494 : Index := Scalar.indexCast arg8
  let c7_i32_255 : BitVec 32 := 7#32
  let v495 : Index := Scalar.indexCast c7_i32_255
  let c32_256 : Index := 32#32
  ![1, v494.toNat, 7, 32]
def k0_off344 (k0_t3 : Fin k0_t3_loop.trips) : Fin 4 → Nat :=
  let c1_i32_257 : BitVec 32 := 1#32
  let v499 : Index := Scalar.indexCast c1_i32_257
  let c0_i32_61 : BitVec 32 := 0#32
  let c1_i32_63 : BitVec 32 := 1#32
  let arg8 : BitVec 32 := Scf.iv c0_i32_61 c1_i32_63 k0_t3
  let v500 : Index := Scalar.indexCast arg8
  let c8_i32_258 : BitVec 32 := 8#32
  let v501 : Index := Scalar.indexCast c8_i32_258
  let c32_259 : Index := 32#32
  ![1, v500.toNat, 8, 32]
def k0_off345 (k0_t3 : Fin k0_t3_loop.trips) : Fin 4 → Nat :=
  let c1_i32_260 : BitVec 32 := 1#32
  let v505 : Index := Scalar.indexCast c1_i32_260
  let c0_i32_61 : BitVec 32 := 0#32
  let c1_i32_63 : BitVec 32 := 1#32
  let arg8 : BitVec 32 := Scf.iv c0_i32_61 c1_i32_63 k0_t3
  let v506 : Index := Scalar.indexCast arg8
  let c9_i32_261 : BitVec 32 := 9#32
  let v507 : Index := Scalar.indexCast c9_i32_261
  let c32_262 : Index := 32#32
  ![1, v506.toNat, 9, 32]
def k0_off346 (k0_t3 : Fin k0_t3_loop.trips) : Fin 4 → Nat :=
  let c1_i32_263 : BitVec 32 := 1#32
  let v511 : Index := Scalar.indexCast c1_i32_263
  let c0_i32_61 : BitVec 32 := 0#32
  let c1_i32_63 : BitVec 32 := 1#32
  let arg8 : BitVec 32 := Scf.iv c0_i32_61 c1_i32_63 k0_t3
  let v512 : Index := Scalar.indexCast arg8
  let c10_i32_264 : BitVec 32 := 10#32
  let v513 : Index := Scalar.indexCast c10_i32_264
  let c32_265 : Index := 32#32
  ![1, v512.toNat, 10, 32]
def k0_off347 (k0_t3 : Fin k0_t3_loop.trips) : Fin 4 → Nat :=
  let c1_i32_266 : BitVec 32 := 1#32
  let v517 : Index := Scalar.indexCast c1_i32_266
  let c0_i32_61 : BitVec 32 := 0#32
  let c1_i32_63 : BitVec 32 := 1#32
  let arg8 : BitVec 32 := Scf.iv c0_i32_61 c1_i32_63 k0_t3
  let v518 : Index := Scalar.indexCast arg8
  let c11_i32_267 : BitVec 32 := 11#32
  let v519 : Index := Scalar.indexCast c11_i32_267
  let c32_268 : Index := 32#32
  ![1, v518.toNat, 11, 32]
def k0_off348 (k0_t3 : Fin k0_t3_loop.trips) : Fin 4 → Nat :=
  let c1_i32_269 : BitVec 32 := 1#32
  let v523 : Index := Scalar.indexCast c1_i32_269
  let c0_i32_61 : BitVec 32 := 0#32
  let c1_i32_63 : BitVec 32 := 1#32
  let arg8 : BitVec 32 := Scf.iv c0_i32_61 c1_i32_63 k0_t3
  let v524 : Index := Scalar.indexCast arg8
  let c12_i32_270 : BitVec 32 := 12#32
  let v525 : Index := Scalar.indexCast c12_i32_270
  let c32_271 : Index := 32#32
  ![1, v524.toNat, 12, 32]
def k0_off349 (k0_t3 : Fin k0_t3_loop.trips) : Fin 4 → Nat :=
  let c1_i32_272 : BitVec 32 := 1#32
  let v529 : Index := Scalar.indexCast c1_i32_272
  let c0_i32_61 : BitVec 32 := 0#32
  let c1_i32_63 : BitVec 32 := 1#32
  let arg8 : BitVec 32 := Scf.iv c0_i32_61 c1_i32_63 k0_t3
  let v530 : Index := Scalar.indexCast arg8
  let c13_i32_273 : BitVec 32 := 13#32
  let v531 : Index := Scalar.indexCast c13_i32_273
  let c32_274 : Index := 32#32
  ![1, v530.toNat, 13, 32]
def k0_off350 (k0_t3 : Fin k0_t3_loop.trips) : Fin 4 → Nat :=
  let c1_i32_275 : BitVec 32 := 1#32
  let v535 : Index := Scalar.indexCast c1_i32_275
  let c0_i32_61 : BitVec 32 := 0#32
  let c1_i32_63 : BitVec 32 := 1#32
  let arg8 : BitVec 32 := Scf.iv c0_i32_61 c1_i32_63 k0_t3
  let v536 : Index := Scalar.indexCast arg8
  let c14_i32_276 : BitVec 32 := 14#32
  let v537 : Index := Scalar.indexCast c14_i32_276
  let c32_277 : Index := 32#32
  ![1, v536.toNat, 14, 32]
def k0_off351 (k0_t3 : Fin k0_t3_loop.trips) : Fin 4 → Nat :=
  let c1_i32_278 : BitVec 32 := 1#32
  let v541 : Index := Scalar.indexCast c1_i32_278
  let c0_i32_61 : BitVec 32 := 0#32
  let c1_i32_63 : BitVec 32 := 1#32
  let arg8 : BitVec 32 := Scf.iv c0_i32_61 c1_i32_63 k0_t3
  let v542 : Index := Scalar.indexCast arg8
  let c15_i32_279 : BitVec 32 := 15#32
  let v543 : Index := Scalar.indexCast c15_i32_279
  let c32_280 : Index := 32#32
  ![1, v542.toNat, 15, 32]
def k0_off352 (k0_t3 : Fin k0_t3_loop.trips) : Fin 4 → Nat :=
  let c1_i32_281 : BitVec 32 := 1#32
  let v547 : Index := Scalar.indexCast c1_i32_281
  let c0_i32_61 : BitVec 32 := 0#32
  let c1_i32_63 : BitVec 32 := 1#32
  let arg8 : BitVec 32 := Scf.iv c0_i32_61 c1_i32_63 k0_t3
  let v548 : Index := Scalar.indexCast arg8
  let c16_i32_282 : BitVec 32 := 16#32
  let v549 : Index := Scalar.indexCast c16_i32_282
  let c32_283 : Index := 32#32
  ![1, v548.toNat, 16, 32]
def k0_off353 (k0_t3 : Fin k0_t3_loop.trips) : Fin 4 → Nat :=
  let c1_i32_284 : BitVec 32 := 1#32
  let v553 : Index := Scalar.indexCast c1_i32_284
  let c0_i32_61 : BitVec 32 := 0#32
  let c1_i32_63 : BitVec 32 := 1#32
  let arg8 : BitVec 32 := Scf.iv c0_i32_61 c1_i32_63 k0_t3
  let v554 : Index := Scalar.indexCast arg8
  let c17_i32_285 : BitVec 32 := 17#32
  let v555 : Index := Scalar.indexCast c17_i32_285
  let c32_286 : Index := 32#32
  ![1, v554.toNat, 17, 32]
def k0_off354 (k0_t3 : Fin k0_t3_loop.trips) : Fin 4 → Nat :=
  let c1_i32_287 : BitVec 32 := 1#32
  let v559 : Index := Scalar.indexCast c1_i32_287
  let c0_i32_61 : BitVec 32 := 0#32
  let c1_i32_63 : BitVec 32 := 1#32
  let arg8 : BitVec 32 := Scf.iv c0_i32_61 c1_i32_63 k0_t3
  let v560 : Index := Scalar.indexCast arg8
  let c18_i32_288 : BitVec 32 := 18#32
  let v561 : Index := Scalar.indexCast c18_i32_288
  let c32_289 : Index := 32#32
  ![1, v560.toNat, 18, 32]
def k0_off355 (k0_t3 : Fin k0_t3_loop.trips) : Fin 4 → Nat :=
  let c1_i32_290 : BitVec 32 := 1#32
  let v565 : Index := Scalar.indexCast c1_i32_290
  let c0_i32_61 : BitVec 32 := 0#32
  let c1_i32_63 : BitVec 32 := 1#32
  let arg8 : BitVec 32 := Scf.iv c0_i32_61 c1_i32_63 k0_t3
  let v566 : Index := Scalar.indexCast arg8
  let c19_i32_291 : BitVec 32 := 19#32
  let v567 : Index := Scalar.indexCast c19_i32_291
  let c32_292 : Index := 32#32
  ![1, v566.toNat, 19, 32]
def k0_off356 (k0_t3 : Fin k0_t3_loop.trips) : Fin 4 → Nat :=
  let c1_i32_293 : BitVec 32 := 1#32
  let v571 : Index := Scalar.indexCast c1_i32_293
  let c0_i32_61 : BitVec 32 := 0#32
  let c1_i32_63 : BitVec 32 := 1#32
  let arg8 : BitVec 32 := Scf.iv c0_i32_61 c1_i32_63 k0_t3
  let v572 : Index := Scalar.indexCast arg8
  let c20_i32_294 : BitVec 32 := 20#32
  let v573 : Index := Scalar.indexCast c20_i32_294
  let c32_295 : Index := 32#32
  ![1, v572.toNat, 20, 32]
def k0_off357 (k0_t3 : Fin k0_t3_loop.trips) : Fin 4 → Nat :=
  let c1_i32_296 : BitVec 32 := 1#32
  let v577 : Index := Scalar.indexCast c1_i32_296
  let c0_i32_61 : BitVec 32 := 0#32
  let c1_i32_63 : BitVec 32 := 1#32
  let arg8 : BitVec 32 := Scf.iv c0_i32_61 c1_i32_63 k0_t3
  let v578 : Index := Scalar.indexCast arg8
  let c21_i32_297 : BitVec 32 := 21#32
  let v579 : Index := Scalar.indexCast c21_i32_297
  let c32_298 : Index := 32#32
  ![1, v578.toNat, 21, 32]
def k0_off358 (k0_t3 : Fin k0_t3_loop.trips) : Fin 4 → Nat :=
  let c1_i32_299 : BitVec 32 := 1#32
  let v583 : Index := Scalar.indexCast c1_i32_299
  let c0_i32_61 : BitVec 32 := 0#32
  let c1_i32_63 : BitVec 32 := 1#32
  let arg8 : BitVec 32 := Scf.iv c0_i32_61 c1_i32_63 k0_t3
  let v584 : Index := Scalar.indexCast arg8
  let c22_i32_300 : BitVec 32 := 22#32
  let v585 : Index := Scalar.indexCast c22_i32_300
  let c32_301 : Index := 32#32
  ![1, v584.toNat, 22, 32]
def k0_off359 (k0_t3 : Fin k0_t3_loop.trips) : Fin 4 → Nat :=
  let c1_i32_302 : BitVec 32 := 1#32
  let v589 : Index := Scalar.indexCast c1_i32_302
  let c0_i32_61 : BitVec 32 := 0#32
  let c1_i32_63 : BitVec 32 := 1#32
  let arg8 : BitVec 32 := Scf.iv c0_i32_61 c1_i32_63 k0_t3
  let v590 : Index := Scalar.indexCast arg8
  let c23_i32_303 : BitVec 32 := 23#32
  let v591 : Index := Scalar.indexCast c23_i32_303
  let c32_304 : Index := 32#32
  ![1, v590.toNat, 23, 32]
def k0_off360 (k0_t3 : Fin k0_t3_loop.trips) : Fin 4 → Nat :=
  let c1_i32_305 : BitVec 32 := 1#32
  let v595 : Index := Scalar.indexCast c1_i32_305
  let c0_i32_61 : BitVec 32 := 0#32
  let c1_i32_63 : BitVec 32 := 1#32
  let arg8 : BitVec 32 := Scf.iv c0_i32_61 c1_i32_63 k0_t3
  let v596 : Index := Scalar.indexCast arg8
  let c24_i32_306 : BitVec 32 := 24#32
  let v597 : Index := Scalar.indexCast c24_i32_306
  let c32_307 : Index := 32#32
  ![1, v596.toNat, 24, 32]
def k0_off361 (k0_t3 : Fin k0_t3_loop.trips) : Fin 4 → Nat :=
  let c1_i32_308 : BitVec 32 := 1#32
  let v601 : Index := Scalar.indexCast c1_i32_308
  let c0_i32_61 : BitVec 32 := 0#32
  let c1_i32_63 : BitVec 32 := 1#32
  let arg8 : BitVec 32 := Scf.iv c0_i32_61 c1_i32_63 k0_t3
  let v602 : Index := Scalar.indexCast arg8
  let c25_i32_309 : BitVec 32 := 25#32
  let v603 : Index := Scalar.indexCast c25_i32_309
  let c32_310 : Index := 32#32
  ![1, v602.toNat, 25, 32]
def k0_off362 (k0_t3 : Fin k0_t3_loop.trips) : Fin 4 → Nat :=
  let c1_i32_311 : BitVec 32 := 1#32
  let v607 : Index := Scalar.indexCast c1_i32_311
  let c0_i32_61 : BitVec 32 := 0#32
  let c1_i32_63 : BitVec 32 := 1#32
  let arg8 : BitVec 32 := Scf.iv c0_i32_61 c1_i32_63 k0_t3
  let v608 : Index := Scalar.indexCast arg8
  let c26_i32_312 : BitVec 32 := 26#32
  let v609 : Index := Scalar.indexCast c26_i32_312
  let c32_313 : Index := 32#32
  ![1, v608.toNat, 26, 32]
def k0_off363 (k0_t3 : Fin k0_t3_loop.trips) : Fin 4 → Nat :=
  let c1_i32_314 : BitVec 32 := 1#32
  let v613 : Index := Scalar.indexCast c1_i32_314
  let c0_i32_61 : BitVec 32 := 0#32
  let c1_i32_63 : BitVec 32 := 1#32
  let arg8 : BitVec 32 := Scf.iv c0_i32_61 c1_i32_63 k0_t3
  let v614 : Index := Scalar.indexCast arg8
  let c27_i32_315 : BitVec 32 := 27#32
  let v615 : Index := Scalar.indexCast c27_i32_315
  let c32_316 : Index := 32#32
  ![1, v614.toNat, 27, 32]
def k0_off364 (k0_t3 : Fin k0_t3_loop.trips) : Fin 4 → Nat :=
  let c1_i32_317 : BitVec 32 := 1#32
  let v619 : Index := Scalar.indexCast c1_i32_317
  let c0_i32_61 : BitVec 32 := 0#32
  let c1_i32_63 : BitVec 32 := 1#32
  let arg8 : BitVec 32 := Scf.iv c0_i32_61 c1_i32_63 k0_t3
  let v620 : Index := Scalar.indexCast arg8
  let c28_i32_318 : BitVec 32 := 28#32
  let v621 : Index := Scalar.indexCast c28_i32_318
  let c32_319 : Index := 32#32
  ![1, v620.toNat, 28, 32]
def k0_off365 (k0_t3 : Fin k0_t3_loop.trips) : Fin 4 → Nat :=
  let c1_i32_320 : BitVec 32 := 1#32
  let v625 : Index := Scalar.indexCast c1_i32_320
  let c0_i32_61 : BitVec 32 := 0#32
  let c1_i32_63 : BitVec 32 := 1#32
  let arg8 : BitVec 32 := Scf.iv c0_i32_61 c1_i32_63 k0_t3
  let v626 : Index := Scalar.indexCast arg8
  let c29_i32_321 : BitVec 32 := 29#32
  let v627 : Index := Scalar.indexCast c29_i32_321
  let c32_322 : Index := 32#32
  ![1, v626.toNat, 29, 32]
def k0_off366 (k0_t3 : Fin k0_t3_loop.trips) : Fin 4 → Nat :=
  let c1_i32_323 : BitVec 32 := 1#32
  let v631 : Index := Scalar.indexCast c1_i32_323
  let c0_i32_61 : BitVec 32 := 0#32
  let c1_i32_63 : BitVec 32 := 1#32
  let arg8 : BitVec 32 := Scf.iv c0_i32_61 c1_i32_63 k0_t3
  let v632 : Index := Scalar.indexCast arg8
  let c30_i32_324 : BitVec 32 := 30#32
  let v633 : Index := Scalar.indexCast c30_i32_324
  let c32_325 : Index := 32#32
  ![1, v632.toNat, 30, 32]
def k0_off367 (k0_t3 : Fin k0_t3_loop.trips) : Fin 4 → Nat :=
  let c1_i32_326 : BitVec 32 := 1#32
  let v637 : Index := Scalar.indexCast c1_i32_326
  let c0_i32_61 : BitVec 32 := 0#32
  let c1_i32_63 : BitVec 32 := 1#32
  let arg8 : BitVec 32 := Scf.iv c0_i32_61 c1_i32_63 k0_t3
  let v638 : Index := Scalar.indexCast arg8
  let c31_i32_327 : BitVec 32 := 31#32
  let v639 : Index := Scalar.indexCast c31_i32_327
  let c32_328 : Index := 32#32
  ![1, v638.toNat, 31, 32]
def k0_off368 (k0_t3 : Fin k0_t3_loop.trips) : Fin 3 → Nat :=
  let c1_i32_329 : BitVec 32 := 1#32
  let v643 : Index := Scalar.indexCast c1_i32_329
  let c0_i32_61 : BitVec 32 := 0#32
  let c1_i32_63 : BitVec 32 := 1#32
  let arg8 : BitVec 32 := Scf.iv c0_i32_61 c1_i32_63 k0_t3
  let v644 : Index := Scalar.indexCast arg8
  let c32_330 : Index := 32#32
  ![1, v644.toNat, 32]
def k0_off369 (k0_t3 : Fin k0_t3_loop.trips) : Fin 4 → Nat :=
  let c1_i32_331 : BitVec 32 := 1#32
  let v648 : Index := Scalar.indexCast c1_i32_331
  let c0_i32_61 : BitVec 32 := 0#32
  let c1_i32_63 : BitVec 32 := 1#32
  let arg8 : BitVec 32 := Scf.iv c0_i32_61 c1_i32_63 k0_t3
  let v649 : Index := Scalar.indexCast arg8
  let c0_i32_332 : BitVec 32 := 0#32
  let v650 : Index := Scalar.indexCast c0_i32_332
  let c48 : Index := 48#32
  ![1, v649.toNat, 0, 48]
def k0_off370 (k0_t3 : Fin k0_t3_loop.trips) : Fin 4 → Nat :=
  let c1_i32_333 : BitVec 32 := 1#32
  let v653 : Index := Scalar.indexCast c1_i32_333
  let c0_i32_61 : BitVec 32 := 0#32
  let c1_i32_63 : BitVec 32 := 1#32
  let arg8 : BitVec 32 := Scf.iv c0_i32_61 c1_i32_63 k0_t3
  let v654 : Index := Scalar.indexCast arg8
  let c1_i32_334 : BitVec 32 := 1#32
  let v655 : Index := Scalar.indexCast c1_i32_334
  let c48_335 : Index := 48#32
  ![1, v654.toNat, 1, 48]
def k0_off371 (k0_t3 : Fin k0_t3_loop.trips) : Fin 4 → Nat :=
  let c1_i32_336 : BitVec 32 := 1#32
  let v659 : Index := Scalar.indexCast c1_i32_336
  let c0_i32_61 : BitVec 32 := 0#32
  let c1_i32_63 : BitVec 32 := 1#32
  let arg8 : BitVec 32 := Scf.iv c0_i32_61 c1_i32_63 k0_t3
  let v660 : Index := Scalar.indexCast arg8
  let c2_i32_337 : BitVec 32 := 2#32
  let v661 : Index := Scalar.indexCast c2_i32_337
  let c48_338 : Index := 48#32
  ![1, v660.toNat, 2, 48]
def k0_off372 (k0_t3 : Fin k0_t3_loop.trips) : Fin 4 → Nat :=
  let c1_i32_339 : BitVec 32 := 1#32
  let v665 : Index := Scalar.indexCast c1_i32_339
  let c0_i32_61 : BitVec 32 := 0#32
  let c1_i32_63 : BitVec 32 := 1#32
  let arg8 : BitVec 32 := Scf.iv c0_i32_61 c1_i32_63 k0_t3
  let v666 : Index := Scalar.indexCast arg8
  let c3_i32_340 : BitVec 32 := 3#32
  let v667 : Index := Scalar.indexCast c3_i32_340
  let c48_341 : Index := 48#32
  ![1, v666.toNat, 3, 48]
def k0_off373 (k0_t3 : Fin k0_t3_loop.trips) : Fin 4 → Nat :=
  let c1_i32_342 : BitVec 32 := 1#32
  let v671 : Index := Scalar.indexCast c1_i32_342
  let c0_i32_61 : BitVec 32 := 0#32
  let c1_i32_63 : BitVec 32 := 1#32
  let arg8 : BitVec 32 := Scf.iv c0_i32_61 c1_i32_63 k0_t3
  let v672 : Index := Scalar.indexCast arg8
  let c4_i32_343 : BitVec 32 := 4#32
  let v673 : Index := Scalar.indexCast c4_i32_343
  let c48_344 : Index := 48#32
  ![1, v672.toNat, 4, 48]
def k0_off374 (k0_t3 : Fin k0_t3_loop.trips) : Fin 4 → Nat :=
  let c1_i32_345 : BitVec 32 := 1#32
  let v677 : Index := Scalar.indexCast c1_i32_345
  let c0_i32_61 : BitVec 32 := 0#32
  let c1_i32_63 : BitVec 32 := 1#32
  let arg8 : BitVec 32 := Scf.iv c0_i32_61 c1_i32_63 k0_t3
  let v678 : Index := Scalar.indexCast arg8
  let c5_i32_346 : BitVec 32 := 5#32
  let v679 : Index := Scalar.indexCast c5_i32_346
  let c48_347 : Index := 48#32
  ![1, v678.toNat, 5, 48]
def k0_off375 (k0_t3 : Fin k0_t3_loop.trips) : Fin 4 → Nat :=
  let c1_i32_348 : BitVec 32 := 1#32
  let v683 : Index := Scalar.indexCast c1_i32_348
  let c0_i32_61 : BitVec 32 := 0#32
  let c1_i32_63 : BitVec 32 := 1#32
  let arg8 : BitVec 32 := Scf.iv c0_i32_61 c1_i32_63 k0_t3
  let v684 : Index := Scalar.indexCast arg8
  let c6_i32_349 : BitVec 32 := 6#32
  let v685 : Index := Scalar.indexCast c6_i32_349
  let c48_350 : Index := 48#32
  ![1, v684.toNat, 6, 48]
def k0_off376 (k0_t3 : Fin k0_t3_loop.trips) : Fin 4 → Nat :=
  let c1_i32_351 : BitVec 32 := 1#32
  let v689 : Index := Scalar.indexCast c1_i32_351
  let c0_i32_61 : BitVec 32 := 0#32
  let c1_i32_63 : BitVec 32 := 1#32
  let arg8 : BitVec 32 := Scf.iv c0_i32_61 c1_i32_63 k0_t3
  let v690 : Index := Scalar.indexCast arg8
  let c7_i32_352 : BitVec 32 := 7#32
  let v691 : Index := Scalar.indexCast c7_i32_352
  let c48_353 : Index := 48#32
  ![1, v690.toNat, 7, 48]
def k0_off377 (k0_t3 : Fin k0_t3_loop.trips) : Fin 4 → Nat :=
  let c1_i32_354 : BitVec 32 := 1#32
  let v695 : Index := Scalar.indexCast c1_i32_354
  let c0_i32_61 : BitVec 32 := 0#32
  let c1_i32_63 : BitVec 32 := 1#32
  let arg8 : BitVec 32 := Scf.iv c0_i32_61 c1_i32_63 k0_t3
  let v696 : Index := Scalar.indexCast arg8
  let c8_i32_355 : BitVec 32 := 8#32
  let v697 : Index := Scalar.indexCast c8_i32_355
  let c48_356 : Index := 48#32
  ![1, v696.toNat, 8, 48]
def k0_off378 (k0_t3 : Fin k0_t3_loop.trips) : Fin 4 → Nat :=
  let c1_i32_357 : BitVec 32 := 1#32
  let v701 : Index := Scalar.indexCast c1_i32_357
  let c0_i32_61 : BitVec 32 := 0#32
  let c1_i32_63 : BitVec 32 := 1#32
  let arg8 : BitVec 32 := Scf.iv c0_i32_61 c1_i32_63 k0_t3
  let v702 : Index := Scalar.indexCast arg8
  let c9_i32_358 : BitVec 32 := 9#32
  let v703 : Index := Scalar.indexCast c9_i32_358
  let c48_359 : Index := 48#32
  ![1, v702.toNat, 9, 48]
def k0_off379 (k0_t3 : Fin k0_t3_loop.trips) : Fin 4 → Nat :=
  let c1_i32_360 : BitVec 32 := 1#32
  let v707 : Index := Scalar.indexCast c1_i32_360
  let c0_i32_61 : BitVec 32 := 0#32
  let c1_i32_63 : BitVec 32 := 1#32
  let arg8 : BitVec 32 := Scf.iv c0_i32_61 c1_i32_63 k0_t3
  let v708 : Index := Scalar.indexCast arg8
  let c10_i32_361 : BitVec 32 := 10#32
  let v709 : Index := Scalar.indexCast c10_i32_361
  let c48_362 : Index := 48#32
  ![1, v708.toNat, 10, 48]
def k0_off380 (k0_t3 : Fin k0_t3_loop.trips) : Fin 4 → Nat :=
  let c1_i32_363 : BitVec 32 := 1#32
  let v713 : Index := Scalar.indexCast c1_i32_363
  let c0_i32_61 : BitVec 32 := 0#32
  let c1_i32_63 : BitVec 32 := 1#32
  let arg8 : BitVec 32 := Scf.iv c0_i32_61 c1_i32_63 k0_t3
  let v714 : Index := Scalar.indexCast arg8
  let c11_i32_364 : BitVec 32 := 11#32
  let v715 : Index := Scalar.indexCast c11_i32_364
  let c48_365 : Index := 48#32
  ![1, v714.toNat, 11, 48]
def k0_off381 (k0_t3 : Fin k0_t3_loop.trips) : Fin 4 → Nat :=
  let c1_i32_366 : BitVec 32 := 1#32
  let v719 : Index := Scalar.indexCast c1_i32_366
  let c0_i32_61 : BitVec 32 := 0#32
  let c1_i32_63 : BitVec 32 := 1#32
  let arg8 : BitVec 32 := Scf.iv c0_i32_61 c1_i32_63 k0_t3
  let v720 : Index := Scalar.indexCast arg8
  let c12_i32_367 : BitVec 32 := 12#32
  let v721 : Index := Scalar.indexCast c12_i32_367
  let c48_368 : Index := 48#32
  ![1, v720.toNat, 12, 48]
def k0_off382 (k0_t3 : Fin k0_t3_loop.trips) : Fin 4 → Nat :=
  let c1_i32_369 : BitVec 32 := 1#32
  let v725 : Index := Scalar.indexCast c1_i32_369
  let c0_i32_61 : BitVec 32 := 0#32
  let c1_i32_63 : BitVec 32 := 1#32
  let arg8 : BitVec 32 := Scf.iv c0_i32_61 c1_i32_63 k0_t3
  let v726 : Index := Scalar.indexCast arg8
  let c13_i32_370 : BitVec 32 := 13#32
  let v727 : Index := Scalar.indexCast c13_i32_370
  let c48_371 : Index := 48#32
  ![1, v726.toNat, 13, 48]
def k0_off383 (k0_t3 : Fin k0_t3_loop.trips) : Fin 4 → Nat :=
  let c1_i32_372 : BitVec 32 := 1#32
  let v731 : Index := Scalar.indexCast c1_i32_372
  let c0_i32_61 : BitVec 32 := 0#32
  let c1_i32_63 : BitVec 32 := 1#32
  let arg8 : BitVec 32 := Scf.iv c0_i32_61 c1_i32_63 k0_t3
  let v732 : Index := Scalar.indexCast arg8
  let c14_i32_373 : BitVec 32 := 14#32
  let v733 : Index := Scalar.indexCast c14_i32_373
  let c48_374 : Index := 48#32
  ![1, v732.toNat, 14, 48]
def k0_off384 (k0_t3 : Fin k0_t3_loop.trips) : Fin 4 → Nat :=
  let c1_i32_375 : BitVec 32 := 1#32
  let v737 : Index := Scalar.indexCast c1_i32_375
  let c0_i32_61 : BitVec 32 := 0#32
  let c1_i32_63 : BitVec 32 := 1#32
  let arg8 : BitVec 32 := Scf.iv c0_i32_61 c1_i32_63 k0_t3
  let v738 : Index := Scalar.indexCast arg8
  let c15_i32_376 : BitVec 32 := 15#32
  let v739 : Index := Scalar.indexCast c15_i32_376
  let c48_377 : Index := 48#32
  ![1, v738.toNat, 15, 48]
def k0_off385 (k0_t3 : Fin k0_t3_loop.trips) : Fin 4 → Nat :=
  let c1_i32_378 : BitVec 32 := 1#32
  let v743 : Index := Scalar.indexCast c1_i32_378
  let c0_i32_61 : BitVec 32 := 0#32
  let c1_i32_63 : BitVec 32 := 1#32
  let arg8 : BitVec 32 := Scf.iv c0_i32_61 c1_i32_63 k0_t3
  let v744 : Index := Scalar.indexCast arg8
  let c16_i32_379 : BitVec 32 := 16#32
  let v745 : Index := Scalar.indexCast c16_i32_379
  let c48_380 : Index := 48#32
  ![1, v744.toNat, 16, 48]
def k0_off386 (k0_t3 : Fin k0_t3_loop.trips) : Fin 4 → Nat :=
  let c1_i32_381 : BitVec 32 := 1#32
  let v749 : Index := Scalar.indexCast c1_i32_381
  let c0_i32_61 : BitVec 32 := 0#32
  let c1_i32_63 : BitVec 32 := 1#32
  let arg8 : BitVec 32 := Scf.iv c0_i32_61 c1_i32_63 k0_t3
  let v750 : Index := Scalar.indexCast arg8
  let c17_i32_382 : BitVec 32 := 17#32
  let v751 : Index := Scalar.indexCast c17_i32_382
  let c48_383 : Index := 48#32
  ![1, v750.toNat, 17, 48]
def k0_off387 (k0_t3 : Fin k0_t3_loop.trips) : Fin 4 → Nat :=
  let c1_i32_384 : BitVec 32 := 1#32
  let v755 : Index := Scalar.indexCast c1_i32_384
  let c0_i32_61 : BitVec 32 := 0#32
  let c1_i32_63 : BitVec 32 := 1#32
  let arg8 : BitVec 32 := Scf.iv c0_i32_61 c1_i32_63 k0_t3
  let v756 : Index := Scalar.indexCast arg8
  let c18_i32_385 : BitVec 32 := 18#32
  let v757 : Index := Scalar.indexCast c18_i32_385
  let c48_386 : Index := 48#32
  ![1, v756.toNat, 18, 48]
def k0_off388 (k0_t3 : Fin k0_t3_loop.trips) : Fin 4 → Nat :=
  let c1_i32_387 : BitVec 32 := 1#32
  let v761 : Index := Scalar.indexCast c1_i32_387
  let c0_i32_61 : BitVec 32 := 0#32
  let c1_i32_63 : BitVec 32 := 1#32
  let arg8 : BitVec 32 := Scf.iv c0_i32_61 c1_i32_63 k0_t3
  let v762 : Index := Scalar.indexCast arg8
  let c19_i32_388 : BitVec 32 := 19#32
  let v763 : Index := Scalar.indexCast c19_i32_388
  let c48_389 : Index := 48#32
  ![1, v762.toNat, 19, 48]
def k0_off389 (k0_t3 : Fin k0_t3_loop.trips) : Fin 4 → Nat :=
  let c1_i32_390 : BitVec 32 := 1#32
  let v767 : Index := Scalar.indexCast c1_i32_390
  let c0_i32_61 : BitVec 32 := 0#32
  let c1_i32_63 : BitVec 32 := 1#32
  let arg8 : BitVec 32 := Scf.iv c0_i32_61 c1_i32_63 k0_t3
  let v768 : Index := Scalar.indexCast arg8
  let c20_i32_391 : BitVec 32 := 20#32
  let v769 : Index := Scalar.indexCast c20_i32_391
  let c48_392 : Index := 48#32
  ![1, v768.toNat, 20, 48]
def k0_off390 (k0_t3 : Fin k0_t3_loop.trips) : Fin 4 → Nat :=
  let c1_i32_393 : BitVec 32 := 1#32
  let v773 : Index := Scalar.indexCast c1_i32_393
  let c0_i32_61 : BitVec 32 := 0#32
  let c1_i32_63 : BitVec 32 := 1#32
  let arg8 : BitVec 32 := Scf.iv c0_i32_61 c1_i32_63 k0_t3
  let v774 : Index := Scalar.indexCast arg8
  let c21_i32_394 : BitVec 32 := 21#32
  let v775 : Index := Scalar.indexCast c21_i32_394
  let c48_395 : Index := 48#32
  ![1, v774.toNat, 21, 48]
def k0_off391 (k0_t3 : Fin k0_t3_loop.trips) : Fin 4 → Nat :=
  let c1_i32_396 : BitVec 32 := 1#32
  let v779 : Index := Scalar.indexCast c1_i32_396
  let c0_i32_61 : BitVec 32 := 0#32
  let c1_i32_63 : BitVec 32 := 1#32
  let arg8 : BitVec 32 := Scf.iv c0_i32_61 c1_i32_63 k0_t3
  let v780 : Index := Scalar.indexCast arg8
  let c22_i32_397 : BitVec 32 := 22#32
  let v781 : Index := Scalar.indexCast c22_i32_397
  let c48_398 : Index := 48#32
  ![1, v780.toNat, 22, 48]
def k0_off392 (k0_t3 : Fin k0_t3_loop.trips) : Fin 4 → Nat :=
  let c1_i32_399 : BitVec 32 := 1#32
  let v785 : Index := Scalar.indexCast c1_i32_399
  let c0_i32_61 : BitVec 32 := 0#32
  let c1_i32_63 : BitVec 32 := 1#32
  let arg8 : BitVec 32 := Scf.iv c0_i32_61 c1_i32_63 k0_t3
  let v786 : Index := Scalar.indexCast arg8
  let c23_i32_400 : BitVec 32 := 23#32
  let v787 : Index := Scalar.indexCast c23_i32_400
  let c48_401 : Index := 48#32
  ![1, v786.toNat, 23, 48]
def k0_off393 (k0_t3 : Fin k0_t3_loop.trips) : Fin 4 → Nat :=
  let c1_i32_402 : BitVec 32 := 1#32
  let v791 : Index := Scalar.indexCast c1_i32_402
  let c0_i32_61 : BitVec 32 := 0#32
  let c1_i32_63 : BitVec 32 := 1#32
  let arg8 : BitVec 32 := Scf.iv c0_i32_61 c1_i32_63 k0_t3
  let v792 : Index := Scalar.indexCast arg8
  let c24_i32_403 : BitVec 32 := 24#32
  let v793 : Index := Scalar.indexCast c24_i32_403
  let c48_404 : Index := 48#32
  ![1, v792.toNat, 24, 48]
def k0_off394 (k0_t3 : Fin k0_t3_loop.trips) : Fin 4 → Nat :=
  let c1_i32_405 : BitVec 32 := 1#32
  let v797 : Index := Scalar.indexCast c1_i32_405
  let c0_i32_61 : BitVec 32 := 0#32
  let c1_i32_63 : BitVec 32 := 1#32
  let arg8 : BitVec 32 := Scf.iv c0_i32_61 c1_i32_63 k0_t3
  let v798 : Index := Scalar.indexCast arg8
  let c25_i32_406 : BitVec 32 := 25#32
  let v799 : Index := Scalar.indexCast c25_i32_406
  let c48_407 : Index := 48#32
  ![1, v798.toNat, 25, 48]
def k0_off395 (k0_t3 : Fin k0_t3_loop.trips) : Fin 4 → Nat :=
  let c1_i32_408 : BitVec 32 := 1#32
  let v803 : Index := Scalar.indexCast c1_i32_408
  let c0_i32_61 : BitVec 32 := 0#32
  let c1_i32_63 : BitVec 32 := 1#32
  let arg8 : BitVec 32 := Scf.iv c0_i32_61 c1_i32_63 k0_t3
  let v804 : Index := Scalar.indexCast arg8
  let c26_i32_409 : BitVec 32 := 26#32
  let v805 : Index := Scalar.indexCast c26_i32_409
  let c48_410 : Index := 48#32
  ![1, v804.toNat, 26, 48]
def k0_off396 (k0_t3 : Fin k0_t3_loop.trips) : Fin 4 → Nat :=
  let c1_i32_411 : BitVec 32 := 1#32
  let v809 : Index := Scalar.indexCast c1_i32_411
  let c0_i32_61 : BitVec 32 := 0#32
  let c1_i32_63 : BitVec 32 := 1#32
  let arg8 : BitVec 32 := Scf.iv c0_i32_61 c1_i32_63 k0_t3
  let v810 : Index := Scalar.indexCast arg8
  let c27_i32_412 : BitVec 32 := 27#32
  let v811 : Index := Scalar.indexCast c27_i32_412
  let c48_413 : Index := 48#32
  ![1, v810.toNat, 27, 48]
def k0_off397 (k0_t3 : Fin k0_t3_loop.trips) : Fin 4 → Nat :=
  let c1_i32_414 : BitVec 32 := 1#32
  let v815 : Index := Scalar.indexCast c1_i32_414
  let c0_i32_61 : BitVec 32 := 0#32
  let c1_i32_63 : BitVec 32 := 1#32
  let arg8 : BitVec 32 := Scf.iv c0_i32_61 c1_i32_63 k0_t3
  let v816 : Index := Scalar.indexCast arg8
  let c28_i32_415 : BitVec 32 := 28#32
  let v817 : Index := Scalar.indexCast c28_i32_415
  let c48_416 : Index := 48#32
  ![1, v816.toNat, 28, 48]
def k0_off398 (k0_t3 : Fin k0_t3_loop.trips) : Fin 4 → Nat :=
  let c1_i32_417 : BitVec 32 := 1#32
  let v821 : Index := Scalar.indexCast c1_i32_417
  let c0_i32_61 : BitVec 32 := 0#32
  let c1_i32_63 : BitVec 32 := 1#32
  let arg8 : BitVec 32 := Scf.iv c0_i32_61 c1_i32_63 k0_t3
  let v822 : Index := Scalar.indexCast arg8
  let c29_i32_418 : BitVec 32 := 29#32
  let v823 : Index := Scalar.indexCast c29_i32_418
  let c48_419 : Index := 48#32
  ![1, v822.toNat, 29, 48]
def k0_off399 (k0_t3 : Fin k0_t3_loop.trips) : Fin 4 → Nat :=
  let c1_i32_420 : BitVec 32 := 1#32
  let v827 : Index := Scalar.indexCast c1_i32_420
  let c0_i32_61 : BitVec 32 := 0#32
  let c1_i32_63 : BitVec 32 := 1#32
  let arg8 : BitVec 32 := Scf.iv c0_i32_61 c1_i32_63 k0_t3
  let v828 : Index := Scalar.indexCast arg8
  let c30_i32_421 : BitVec 32 := 30#32
  let v829 : Index := Scalar.indexCast c30_i32_421
  let c48_422 : Index := 48#32
  ![1, v828.toNat, 30, 48]
def k0_off400 (k0_t3 : Fin k0_t3_loop.trips) : Fin 4 → Nat :=
  let c1_i32_423 : BitVec 32 := 1#32
  let v833 : Index := Scalar.indexCast c1_i32_423
  let c0_i32_61 : BitVec 32 := 0#32
  let c1_i32_63 : BitVec 32 := 1#32
  let arg8 : BitVec 32 := Scf.iv c0_i32_61 c1_i32_63 k0_t3
  let v834 : Index := Scalar.indexCast arg8
  let c31_i32_424 : BitVec 32 := 31#32
  let v835 : Index := Scalar.indexCast c31_i32_424
  let c48_425 : Index := 48#32
  ![1, v834.toNat, 31, 48]
def k0_off401 (k0_t3 : Fin k0_t3_loop.trips) : Fin 3 → Nat :=
  let c1_i32_426 : BitVec 32 := 1#32
  let v839 : Index := Scalar.indexCast c1_i32_426
  let c0_i32_61 : BitVec 32 := 0#32
  let c1_i32_63 : BitVec 32 := 1#32
  let arg8 : BitVec 32 := Scf.iv c0_i32_61 c1_i32_63 k0_t3
  let v840 : Index := Scalar.indexCast arg8
  let c48_427 : Index := 48#32
  ![1, v840.toNat, 48]
def k0_off402 (k0_t3 : Fin k0_t3_loop.trips) : Fin 4 → Nat :=
  let c1_i32_428 : BitVec 32 := 1#32
  let v844 : Index := Scalar.indexCast c1_i32_428
  let c0_i32_61 : BitVec 32 := 0#32
  let c1_i32_63 : BitVec 32 := 1#32
  let arg8 : BitVec 32 := Scf.iv c0_i32_61 c1_i32_63 k0_t3
  let v845 : Index := Scalar.indexCast arg8
  let c0_i32_429 : BitVec 32 := 0#32
  let v846 : Index := Scalar.indexCast c0_i32_429
  let c64 : Index := 64#32
  ![1, v845.toNat, 0, 64]
def k0_off403 (k0_t3 : Fin k0_t3_loop.trips) : Fin 4 → Nat :=
  let c1_i32_430 : BitVec 32 := 1#32
  let v849 : Index := Scalar.indexCast c1_i32_430
  let c0_i32_61 : BitVec 32 := 0#32
  let c1_i32_63 : BitVec 32 := 1#32
  let arg8 : BitVec 32 := Scf.iv c0_i32_61 c1_i32_63 k0_t3
  let v850 : Index := Scalar.indexCast arg8
  let c1_i32_431 : BitVec 32 := 1#32
  let v851 : Index := Scalar.indexCast c1_i32_431
  let c64_432 : Index := 64#32
  ![1, v850.toNat, 1, 64]
def k0_off404 (k0_t3 : Fin k0_t3_loop.trips) : Fin 4 → Nat :=
  let c1_i32_433 : BitVec 32 := 1#32
  let v855 : Index := Scalar.indexCast c1_i32_433
  let c0_i32_61 : BitVec 32 := 0#32
  let c1_i32_63 : BitVec 32 := 1#32
  let arg8 : BitVec 32 := Scf.iv c0_i32_61 c1_i32_63 k0_t3
  let v856 : Index := Scalar.indexCast arg8
  let c2_i32_434 : BitVec 32 := 2#32
  let v857 : Index := Scalar.indexCast c2_i32_434
  let c64_435 : Index := 64#32
  ![1, v856.toNat, 2, 64]
def k0_off405 (k0_t3 : Fin k0_t3_loop.trips) : Fin 4 → Nat :=
  let c1_i32_436 : BitVec 32 := 1#32
  let v861 : Index := Scalar.indexCast c1_i32_436
  let c0_i32_61 : BitVec 32 := 0#32
  let c1_i32_63 : BitVec 32 := 1#32
  let arg8 : BitVec 32 := Scf.iv c0_i32_61 c1_i32_63 k0_t3
  let v862 : Index := Scalar.indexCast arg8
  let c3_i32_437 : BitVec 32 := 3#32
  let v863 : Index := Scalar.indexCast c3_i32_437
  let c64_438 : Index := 64#32
  ![1, v862.toNat, 3, 64]
def k0_off406 (k0_t3 : Fin k0_t3_loop.trips) : Fin 4 → Nat :=
  let c1_i32_439 : BitVec 32 := 1#32
  let v867 : Index := Scalar.indexCast c1_i32_439
  let c0_i32_61 : BitVec 32 := 0#32
  let c1_i32_63 : BitVec 32 := 1#32
  let arg8 : BitVec 32 := Scf.iv c0_i32_61 c1_i32_63 k0_t3
  let v868 : Index := Scalar.indexCast arg8
  let c4_i32_440 : BitVec 32 := 4#32
  let v869 : Index := Scalar.indexCast c4_i32_440
  let c64_441 : Index := 64#32
  ![1, v868.toNat, 4, 64]
def k0_off407 (k0_t3 : Fin k0_t3_loop.trips) : Fin 4 → Nat :=
  let c1_i32_442 : BitVec 32 := 1#32
  let v873 : Index := Scalar.indexCast c1_i32_442
  let c0_i32_61 : BitVec 32 := 0#32
  let c1_i32_63 : BitVec 32 := 1#32
  let arg8 : BitVec 32 := Scf.iv c0_i32_61 c1_i32_63 k0_t3
  let v874 : Index := Scalar.indexCast arg8
  let c5_i32_443 : BitVec 32 := 5#32
  let v875 : Index := Scalar.indexCast c5_i32_443
  let c64_444 : Index := 64#32
  ![1, v874.toNat, 5, 64]
def k0_off408 (k0_t3 : Fin k0_t3_loop.trips) : Fin 4 → Nat :=
  let c1_i32_445 : BitVec 32 := 1#32
  let v879 : Index := Scalar.indexCast c1_i32_445
  let c0_i32_61 : BitVec 32 := 0#32
  let c1_i32_63 : BitVec 32 := 1#32
  let arg8 : BitVec 32 := Scf.iv c0_i32_61 c1_i32_63 k0_t3
  let v880 : Index := Scalar.indexCast arg8
  let c6_i32_446 : BitVec 32 := 6#32
  let v881 : Index := Scalar.indexCast c6_i32_446
  let c64_447 : Index := 64#32
  ![1, v880.toNat, 6, 64]
def k0_off409 (k0_t3 : Fin k0_t3_loop.trips) : Fin 4 → Nat :=
  let c1_i32_448 : BitVec 32 := 1#32
  let v885 : Index := Scalar.indexCast c1_i32_448
  let c0_i32_61 : BitVec 32 := 0#32
  let c1_i32_63 : BitVec 32 := 1#32
  let arg8 : BitVec 32 := Scf.iv c0_i32_61 c1_i32_63 k0_t3
  let v886 : Index := Scalar.indexCast arg8
  let c7_i32_449 : BitVec 32 := 7#32
  let v887 : Index := Scalar.indexCast c7_i32_449
  let c64_450 : Index := 64#32
  ![1, v886.toNat, 7, 64]
def k0_off410 (k0_t3 : Fin k0_t3_loop.trips) : Fin 4 → Nat :=
  let c1_i32_451 : BitVec 32 := 1#32
  let v891 : Index := Scalar.indexCast c1_i32_451
  let c0_i32_61 : BitVec 32 := 0#32
  let c1_i32_63 : BitVec 32 := 1#32
  let arg8 : BitVec 32 := Scf.iv c0_i32_61 c1_i32_63 k0_t3
  let v892 : Index := Scalar.indexCast arg8
  let c8_i32_452 : BitVec 32 := 8#32
  let v893 : Index := Scalar.indexCast c8_i32_452
  let c64_453 : Index := 64#32
  ![1, v892.toNat, 8, 64]
def k0_off411 (k0_t3 : Fin k0_t3_loop.trips) : Fin 4 → Nat :=
  let c1_i32_454 : BitVec 32 := 1#32
  let v897 : Index := Scalar.indexCast c1_i32_454
  let c0_i32_61 : BitVec 32 := 0#32
  let c1_i32_63 : BitVec 32 := 1#32
  let arg8 : BitVec 32 := Scf.iv c0_i32_61 c1_i32_63 k0_t3
  let v898 : Index := Scalar.indexCast arg8
  let c9_i32_455 : BitVec 32 := 9#32
  let v899 : Index := Scalar.indexCast c9_i32_455
  let c64_456 : Index := 64#32
  ![1, v898.toNat, 9, 64]
def k0_off412 (k0_t3 : Fin k0_t3_loop.trips) : Fin 4 → Nat :=
  let c1_i32_457 : BitVec 32 := 1#32
  let v903 : Index := Scalar.indexCast c1_i32_457
  let c0_i32_61 : BitVec 32 := 0#32
  let c1_i32_63 : BitVec 32 := 1#32
  let arg8 : BitVec 32 := Scf.iv c0_i32_61 c1_i32_63 k0_t3
  let v904 : Index := Scalar.indexCast arg8
  let c10_i32_458 : BitVec 32 := 10#32
  let v905 : Index := Scalar.indexCast c10_i32_458
  let c64_459 : Index := 64#32
  ![1, v904.toNat, 10, 64]
def k0_off413 (k0_t3 : Fin k0_t3_loop.trips) : Fin 4 → Nat :=
  let c1_i32_460 : BitVec 32 := 1#32
  let v909 : Index := Scalar.indexCast c1_i32_460
  let c0_i32_61 : BitVec 32 := 0#32
  let c1_i32_63 : BitVec 32 := 1#32
  let arg8 : BitVec 32 := Scf.iv c0_i32_61 c1_i32_63 k0_t3
  let v910 : Index := Scalar.indexCast arg8
  let c11_i32_461 : BitVec 32 := 11#32
  let v911 : Index := Scalar.indexCast c11_i32_461
  let c64_462 : Index := 64#32
  ![1, v910.toNat, 11, 64]
def k0_off414 (k0_t3 : Fin k0_t3_loop.trips) : Fin 4 → Nat :=
  let c1_i32_463 : BitVec 32 := 1#32
  let v915 : Index := Scalar.indexCast c1_i32_463
  let c0_i32_61 : BitVec 32 := 0#32
  let c1_i32_63 : BitVec 32 := 1#32
  let arg8 : BitVec 32 := Scf.iv c0_i32_61 c1_i32_63 k0_t3
  let v916 : Index := Scalar.indexCast arg8
  let c12_i32_464 : BitVec 32 := 12#32
  let v917 : Index := Scalar.indexCast c12_i32_464
  let c64_465 : Index := 64#32
  ![1, v916.toNat, 12, 64]
def k0_off415 (k0_t3 : Fin k0_t3_loop.trips) : Fin 4 → Nat :=
  let c1_i32_466 : BitVec 32 := 1#32
  let v921 : Index := Scalar.indexCast c1_i32_466
  let c0_i32_61 : BitVec 32 := 0#32
  let c1_i32_63 : BitVec 32 := 1#32
  let arg8 : BitVec 32 := Scf.iv c0_i32_61 c1_i32_63 k0_t3
  let v922 : Index := Scalar.indexCast arg8
  let c13_i32_467 : BitVec 32 := 13#32
  let v923 : Index := Scalar.indexCast c13_i32_467
  let c64_468 : Index := 64#32
  ![1, v922.toNat, 13, 64]
def k0_off416 (k0_t3 : Fin k0_t3_loop.trips) : Fin 4 → Nat :=
  let c1_i32_469 : BitVec 32 := 1#32
  let v927 : Index := Scalar.indexCast c1_i32_469
  let c0_i32_61 : BitVec 32 := 0#32
  let c1_i32_63 : BitVec 32 := 1#32
  let arg8 : BitVec 32 := Scf.iv c0_i32_61 c1_i32_63 k0_t3
  let v928 : Index := Scalar.indexCast arg8
  let c14_i32_470 : BitVec 32 := 14#32
  let v929 : Index := Scalar.indexCast c14_i32_470
  let c64_471 : Index := 64#32
  ![1, v928.toNat, 14, 64]
def k0_off417 (k0_t3 : Fin k0_t3_loop.trips) : Fin 4 → Nat :=
  let c1_i32_472 : BitVec 32 := 1#32
  let v933 : Index := Scalar.indexCast c1_i32_472
  let c0_i32_61 : BitVec 32 := 0#32
  let c1_i32_63 : BitVec 32 := 1#32
  let arg8 : BitVec 32 := Scf.iv c0_i32_61 c1_i32_63 k0_t3
  let v934 : Index := Scalar.indexCast arg8
  let c15_i32_473 : BitVec 32 := 15#32
  let v935 : Index := Scalar.indexCast c15_i32_473
  let c64_474 : Index := 64#32
  ![1, v934.toNat, 15, 64]
def k0_off418 (k0_t3 : Fin k0_t3_loop.trips) : Fin 4 → Nat :=
  let c1_i32_475 : BitVec 32 := 1#32
  let v939 : Index := Scalar.indexCast c1_i32_475
  let c0_i32_61 : BitVec 32 := 0#32
  let c1_i32_63 : BitVec 32 := 1#32
  let arg8 : BitVec 32 := Scf.iv c0_i32_61 c1_i32_63 k0_t3
  let v940 : Index := Scalar.indexCast arg8
  let c16_i32_476 : BitVec 32 := 16#32
  let v941 : Index := Scalar.indexCast c16_i32_476
  let c64_477 : Index := 64#32
  ![1, v940.toNat, 16, 64]
def k0_off419 (k0_t3 : Fin k0_t3_loop.trips) : Fin 4 → Nat :=
  let c1_i32_478 : BitVec 32 := 1#32
  let v945 : Index := Scalar.indexCast c1_i32_478
  let c0_i32_61 : BitVec 32 := 0#32
  let c1_i32_63 : BitVec 32 := 1#32
  let arg8 : BitVec 32 := Scf.iv c0_i32_61 c1_i32_63 k0_t3
  let v946 : Index := Scalar.indexCast arg8
  let c17_i32_479 : BitVec 32 := 17#32
  let v947 : Index := Scalar.indexCast c17_i32_479
  let c64_480 : Index := 64#32
  ![1, v946.toNat, 17, 64]
def k0_off420 (k0_t3 : Fin k0_t3_loop.trips) : Fin 4 → Nat :=
  let c1_i32_481 : BitVec 32 := 1#32
  let v951 : Index := Scalar.indexCast c1_i32_481
  let c0_i32_61 : BitVec 32 := 0#32
  let c1_i32_63 : BitVec 32 := 1#32
  let arg8 : BitVec 32 := Scf.iv c0_i32_61 c1_i32_63 k0_t3
  let v952 : Index := Scalar.indexCast arg8
  let c18_i32_482 : BitVec 32 := 18#32
  let v953 : Index := Scalar.indexCast c18_i32_482
  let c64_483 : Index := 64#32
  ![1, v952.toNat, 18, 64]
def k0_off421 (k0_t3 : Fin k0_t3_loop.trips) : Fin 4 → Nat :=
  let c1_i32_484 : BitVec 32 := 1#32
  let v957 : Index := Scalar.indexCast c1_i32_484
  let c0_i32_61 : BitVec 32 := 0#32
  let c1_i32_63 : BitVec 32 := 1#32
  let arg8 : BitVec 32 := Scf.iv c0_i32_61 c1_i32_63 k0_t3
  let v958 : Index := Scalar.indexCast arg8
  let c19_i32_485 : BitVec 32 := 19#32
  let v959 : Index := Scalar.indexCast c19_i32_485
  let c64_486 : Index := 64#32
  ![1, v958.toNat, 19, 64]
def k0_off422 (k0_t3 : Fin k0_t3_loop.trips) : Fin 4 → Nat :=
  let c1_i32_487 : BitVec 32 := 1#32
  let v963 : Index := Scalar.indexCast c1_i32_487
  let c0_i32_61 : BitVec 32 := 0#32
  let c1_i32_63 : BitVec 32 := 1#32
  let arg8 : BitVec 32 := Scf.iv c0_i32_61 c1_i32_63 k0_t3
  let v964 : Index := Scalar.indexCast arg8
  let c20_i32_488 : BitVec 32 := 20#32
  let v965 : Index := Scalar.indexCast c20_i32_488
  let c64_489 : Index := 64#32
  ![1, v964.toNat, 20, 64]
def k0_off423 (k0_t3 : Fin k0_t3_loop.trips) : Fin 4 → Nat :=
  let c1_i32_490 : BitVec 32 := 1#32
  let v969 : Index := Scalar.indexCast c1_i32_490
  let c0_i32_61 : BitVec 32 := 0#32
  let c1_i32_63 : BitVec 32 := 1#32
  let arg8 : BitVec 32 := Scf.iv c0_i32_61 c1_i32_63 k0_t3
  let v970 : Index := Scalar.indexCast arg8
  let c21_i32_491 : BitVec 32 := 21#32
  let v971 : Index := Scalar.indexCast c21_i32_491
  let c64_492 : Index := 64#32
  ![1, v970.toNat, 21, 64]
def k0_off424 (k0_t3 : Fin k0_t3_loop.trips) : Fin 4 → Nat :=
  let c1_i32_493 : BitVec 32 := 1#32
  let v975 : Index := Scalar.indexCast c1_i32_493
  let c0_i32_61 : BitVec 32 := 0#32
  let c1_i32_63 : BitVec 32 := 1#32
  let arg8 : BitVec 32 := Scf.iv c0_i32_61 c1_i32_63 k0_t3
  let v976 : Index := Scalar.indexCast arg8
  let c22_i32_494 : BitVec 32 := 22#32
  let v977 : Index := Scalar.indexCast c22_i32_494
  let c64_495 : Index := 64#32
  ![1, v976.toNat, 22, 64]
def k0_off425 (k0_t3 : Fin k0_t3_loop.trips) : Fin 4 → Nat :=
  let c1_i32_496 : BitVec 32 := 1#32
  let v981 : Index := Scalar.indexCast c1_i32_496
  let c0_i32_61 : BitVec 32 := 0#32
  let c1_i32_63 : BitVec 32 := 1#32
  let arg8 : BitVec 32 := Scf.iv c0_i32_61 c1_i32_63 k0_t3
  let v982 : Index := Scalar.indexCast arg8
  let c23_i32_497 : BitVec 32 := 23#32
  let v983 : Index := Scalar.indexCast c23_i32_497
  let c64_498 : Index := 64#32
  ![1, v982.toNat, 23, 64]
def k0_off426 (k0_t3 : Fin k0_t3_loop.trips) : Fin 4 → Nat :=
  let c1_i32_499 : BitVec 32 := 1#32
  let v987 : Index := Scalar.indexCast c1_i32_499
  let c0_i32_61 : BitVec 32 := 0#32
  let c1_i32_63 : BitVec 32 := 1#32
  let arg8 : BitVec 32 := Scf.iv c0_i32_61 c1_i32_63 k0_t3
  let v988 : Index := Scalar.indexCast arg8
  let c24_i32_500 : BitVec 32 := 24#32
  let v989 : Index := Scalar.indexCast c24_i32_500
  let c64_501 : Index := 64#32
  ![1, v988.toNat, 24, 64]
def k0_off427 (k0_t3 : Fin k0_t3_loop.trips) : Fin 4 → Nat :=
  let c1_i32_502 : BitVec 32 := 1#32
  let v993 : Index := Scalar.indexCast c1_i32_502
  let c0_i32_61 : BitVec 32 := 0#32
  let c1_i32_63 : BitVec 32 := 1#32
  let arg8 : BitVec 32 := Scf.iv c0_i32_61 c1_i32_63 k0_t3
  let v994 : Index := Scalar.indexCast arg8
  let c25_i32_503 : BitVec 32 := 25#32
  let v995 : Index := Scalar.indexCast c25_i32_503
  let c64_504 : Index := 64#32
  ![1, v994.toNat, 25, 64]
def k0_off428 (k0_t3 : Fin k0_t3_loop.trips) : Fin 4 → Nat :=
  let c1_i32_505 : BitVec 32 := 1#32
  let v999 : Index := Scalar.indexCast c1_i32_505
  let c0_i32_61 : BitVec 32 := 0#32
  let c1_i32_63 : BitVec 32 := 1#32
  let arg8 : BitVec 32 := Scf.iv c0_i32_61 c1_i32_63 k0_t3
  let v1000 : Index := Scalar.indexCast arg8
  let c26_i32_506 : BitVec 32 := 26#32
  let v1001 : Index := Scalar.indexCast c26_i32_506
  let c64_507 : Index := 64#32
  ![1, v1000.toNat, 26, 64]
def k0_off429 (k0_t3 : Fin k0_t3_loop.trips) : Fin 4 → Nat :=
  let c1_i32_508 : BitVec 32 := 1#32
  let v1005 : Index := Scalar.indexCast c1_i32_508
  let c0_i32_61 : BitVec 32 := 0#32
  let c1_i32_63 : BitVec 32 := 1#32
  let arg8 : BitVec 32 := Scf.iv c0_i32_61 c1_i32_63 k0_t3
  let v1006 : Index := Scalar.indexCast arg8
  let c27_i32_509 : BitVec 32 := 27#32
  let v1007 : Index := Scalar.indexCast c27_i32_509
  let c64_510 : Index := 64#32
  ![1, v1006.toNat, 27, 64]
def k0_off430 (k0_t3 : Fin k0_t3_loop.trips) : Fin 4 → Nat :=
  let c1_i32_511 : BitVec 32 := 1#32
  let v1011 : Index := Scalar.indexCast c1_i32_511
  let c0_i32_61 : BitVec 32 := 0#32
  let c1_i32_63 : BitVec 32 := 1#32
  let arg8 : BitVec 32 := Scf.iv c0_i32_61 c1_i32_63 k0_t3
  let v1012 : Index := Scalar.indexCast arg8
  let c28_i32_512 : BitVec 32 := 28#32
  let v1013 : Index := Scalar.indexCast c28_i32_512
  let c64_513 : Index := 64#32
  ![1, v1012.toNat, 28, 64]
def k0_off431 (k0_t3 : Fin k0_t3_loop.trips) : Fin 4 → Nat :=
  let c1_i32_514 : BitVec 32 := 1#32
  let v1017 : Index := Scalar.indexCast c1_i32_514
  let c0_i32_61 : BitVec 32 := 0#32
  let c1_i32_63 : BitVec 32 := 1#32
  let arg8 : BitVec 32 := Scf.iv c0_i32_61 c1_i32_63 k0_t3
  let v1018 : Index := Scalar.indexCast arg8
  let c29_i32_515 : BitVec 32 := 29#32
  let v1019 : Index := Scalar.indexCast c29_i32_515
  let c64_516 : Index := 64#32
  ![1, v1018.toNat, 29, 64]
def k0_off432 (k0_t3 : Fin k0_t3_loop.trips) : Fin 4 → Nat :=
  let c1_i32_517 : BitVec 32 := 1#32
  let v1023 : Index := Scalar.indexCast c1_i32_517
  let c0_i32_61 : BitVec 32 := 0#32
  let c1_i32_63 : BitVec 32 := 1#32
  let arg8 : BitVec 32 := Scf.iv c0_i32_61 c1_i32_63 k0_t3
  let v1024 : Index := Scalar.indexCast arg8
  let c30_i32_518 : BitVec 32 := 30#32
  let v1025 : Index := Scalar.indexCast c30_i32_518
  let c64_519 : Index := 64#32
  ![1, v1024.toNat, 30, 64]
def k0_off433 (k0_t3 : Fin k0_t3_loop.trips) : Fin 4 → Nat :=
  let c1_i32_520 : BitVec 32 := 1#32
  let v1029 : Index := Scalar.indexCast c1_i32_520
  let c0_i32_61 : BitVec 32 := 0#32
  let c1_i32_63 : BitVec 32 := 1#32
  let arg8 : BitVec 32 := Scf.iv c0_i32_61 c1_i32_63 k0_t3
  let v1030 : Index := Scalar.indexCast arg8
  let c31_i32_521 : BitVec 32 := 31#32
  let v1031 : Index := Scalar.indexCast c31_i32_521
  let c64_522 : Index := 64#32
  ![1, v1030.toNat, 31, 64]
def k0_off434 (k0_t3 : Fin k0_t3_loop.trips) : Fin 3 → Nat :=
  let c1_i32_523 : BitVec 32 := 1#32
  let v1035 : Index := Scalar.indexCast c1_i32_523
  let c0_i32_61 : BitVec 32 := 0#32
  let c1_i32_63 : BitVec 32 := 1#32
  let arg8 : BitVec 32 := Scf.iv c0_i32_61 c1_i32_63 k0_t3
  let v1036 : Index := Scalar.indexCast arg8
  let c64_524 : Index := 64#32
  ![1, v1036.toNat, 64]
def k0_off435 (k0_t3 : Fin k0_t3_loop.trips) : Fin 4 → Nat :=
  let c1_i32_525 : BitVec 32 := 1#32
  let v1040 : Index := Scalar.indexCast c1_i32_525
  let c0_i32_61 : BitVec 32 := 0#32
  let c1_i32_63 : BitVec 32 := 1#32
  let arg8 : BitVec 32 := Scf.iv c0_i32_61 c1_i32_63 k0_t3
  let v1041 : Index := Scalar.indexCast arg8
  let c0_i32_526 : BitVec 32 := 0#32
  let v1042 : Index := Scalar.indexCast c0_i32_526
  let c80 : Index := 80#32
  ![1, v1041.toNat, 0, 80]
def k0_off436 (k0_t3 : Fin k0_t3_loop.trips) : Fin 4 → Nat :=
  let c1_i32_527 : BitVec 32 := 1#32
  let v1045 : Index := Scalar.indexCast c1_i32_527
  let c0_i32_61 : BitVec 32 := 0#32
  let c1_i32_63 : BitVec 32 := 1#32
  let arg8 : BitVec 32 := Scf.iv c0_i32_61 c1_i32_63 k0_t3
  let v1046 : Index := Scalar.indexCast arg8
  let c1_i32_528 : BitVec 32 := 1#32
  let v1047 : Index := Scalar.indexCast c1_i32_528
  let c80_529 : Index := 80#32
  ![1, v1046.toNat, 1, 80]
def k0_off437 (k0_t3 : Fin k0_t3_loop.trips) : Fin 4 → Nat :=
  let c1_i32_530 : BitVec 32 := 1#32
  let v1051 : Index := Scalar.indexCast c1_i32_530
  let c0_i32_61 : BitVec 32 := 0#32
  let c1_i32_63 : BitVec 32 := 1#32
  let arg8 : BitVec 32 := Scf.iv c0_i32_61 c1_i32_63 k0_t3
  let v1052 : Index := Scalar.indexCast arg8
  let c2_i32_531 : BitVec 32 := 2#32
  let v1053 : Index := Scalar.indexCast c2_i32_531
  let c80_532 : Index := 80#32
  ![1, v1052.toNat, 2, 80]
def k0_off438 (k0_t3 : Fin k0_t3_loop.trips) : Fin 4 → Nat :=
  let c1_i32_533 : BitVec 32 := 1#32
  let v1057 : Index := Scalar.indexCast c1_i32_533
  let c0_i32_61 : BitVec 32 := 0#32
  let c1_i32_63 : BitVec 32 := 1#32
  let arg8 : BitVec 32 := Scf.iv c0_i32_61 c1_i32_63 k0_t3
  let v1058 : Index := Scalar.indexCast arg8
  let c3_i32_534 : BitVec 32 := 3#32
  let v1059 : Index := Scalar.indexCast c3_i32_534
  let c80_535 : Index := 80#32
  ![1, v1058.toNat, 3, 80]
def k0_off439 (k0_t3 : Fin k0_t3_loop.trips) : Fin 4 → Nat :=
  let c1_i32_536 : BitVec 32 := 1#32
  let v1063 : Index := Scalar.indexCast c1_i32_536
  let c0_i32_61 : BitVec 32 := 0#32
  let c1_i32_63 : BitVec 32 := 1#32
  let arg8 : BitVec 32 := Scf.iv c0_i32_61 c1_i32_63 k0_t3
  let v1064 : Index := Scalar.indexCast arg8
  let c4_i32_537 : BitVec 32 := 4#32
  let v1065 : Index := Scalar.indexCast c4_i32_537
  let c80_538 : Index := 80#32
  ![1, v1064.toNat, 4, 80]
def k0_off440 (k0_t3 : Fin k0_t3_loop.trips) : Fin 4 → Nat :=
  let c1_i32_539 : BitVec 32 := 1#32
  let v1069 : Index := Scalar.indexCast c1_i32_539
  let c0_i32_61 : BitVec 32 := 0#32
  let c1_i32_63 : BitVec 32 := 1#32
  let arg8 : BitVec 32 := Scf.iv c0_i32_61 c1_i32_63 k0_t3
  let v1070 : Index := Scalar.indexCast arg8
  let c5_i32_540 : BitVec 32 := 5#32
  let v1071 : Index := Scalar.indexCast c5_i32_540
  let c80_541 : Index := 80#32
  ![1, v1070.toNat, 5, 80]
def k0_off441 (k0_t3 : Fin k0_t3_loop.trips) : Fin 4 → Nat :=
  let c1_i32_542 : BitVec 32 := 1#32
  let v1075 : Index := Scalar.indexCast c1_i32_542
  let c0_i32_61 : BitVec 32 := 0#32
  let c1_i32_63 : BitVec 32 := 1#32
  let arg8 : BitVec 32 := Scf.iv c0_i32_61 c1_i32_63 k0_t3
  let v1076 : Index := Scalar.indexCast arg8
  let c6_i32_543 : BitVec 32 := 6#32
  let v1077 : Index := Scalar.indexCast c6_i32_543
  let c80_544 : Index := 80#32
  ![1, v1076.toNat, 6, 80]
def k0_off442 (k0_t3 : Fin k0_t3_loop.trips) : Fin 4 → Nat :=
  let c1_i32_545 : BitVec 32 := 1#32
  let v1081 : Index := Scalar.indexCast c1_i32_545
  let c0_i32_61 : BitVec 32 := 0#32
  let c1_i32_63 : BitVec 32 := 1#32
  let arg8 : BitVec 32 := Scf.iv c0_i32_61 c1_i32_63 k0_t3
  let v1082 : Index := Scalar.indexCast arg8
  let c7_i32_546 : BitVec 32 := 7#32
  let v1083 : Index := Scalar.indexCast c7_i32_546
  let c80_547 : Index := 80#32
  ![1, v1082.toNat, 7, 80]
def k0_off443 (k0_t3 : Fin k0_t3_loop.trips) : Fin 4 → Nat :=
  let c1_i32_548 : BitVec 32 := 1#32
  let v1087 : Index := Scalar.indexCast c1_i32_548
  let c0_i32_61 : BitVec 32 := 0#32
  let c1_i32_63 : BitVec 32 := 1#32
  let arg8 : BitVec 32 := Scf.iv c0_i32_61 c1_i32_63 k0_t3
  let v1088 : Index := Scalar.indexCast arg8
  let c8_i32_549 : BitVec 32 := 8#32
  let v1089 : Index := Scalar.indexCast c8_i32_549
  let c80_550 : Index := 80#32
  ![1, v1088.toNat, 8, 80]
def k0_off444 (k0_t3 : Fin k0_t3_loop.trips) : Fin 4 → Nat :=
  let c1_i32_551 : BitVec 32 := 1#32
  let v1093 : Index := Scalar.indexCast c1_i32_551
  let c0_i32_61 : BitVec 32 := 0#32
  let c1_i32_63 : BitVec 32 := 1#32
  let arg8 : BitVec 32 := Scf.iv c0_i32_61 c1_i32_63 k0_t3
  let v1094 : Index := Scalar.indexCast arg8
  let c9_i32_552 : BitVec 32 := 9#32
  let v1095 : Index := Scalar.indexCast c9_i32_552
  let c80_553 : Index := 80#32
  ![1, v1094.toNat, 9, 80]
def k0_off445 (k0_t3 : Fin k0_t3_loop.trips) : Fin 4 → Nat :=
  let c1_i32_554 : BitVec 32 := 1#32
  let v1099 : Index := Scalar.indexCast c1_i32_554
  let c0_i32_61 : BitVec 32 := 0#32
  let c1_i32_63 : BitVec 32 := 1#32
  let arg8 : BitVec 32 := Scf.iv c0_i32_61 c1_i32_63 k0_t3
  let v1100 : Index := Scalar.indexCast arg8
  let c10_i32_555 : BitVec 32 := 10#32
  let v1101 : Index := Scalar.indexCast c10_i32_555
  let c80_556 : Index := 80#32
  ![1, v1100.toNat, 10, 80]
def k0_off446 (k0_t3 : Fin k0_t3_loop.trips) : Fin 4 → Nat :=
  let c1_i32_557 : BitVec 32 := 1#32
  let v1105 : Index := Scalar.indexCast c1_i32_557
  let c0_i32_61 : BitVec 32 := 0#32
  let c1_i32_63 : BitVec 32 := 1#32
  let arg8 : BitVec 32 := Scf.iv c0_i32_61 c1_i32_63 k0_t3
  let v1106 : Index := Scalar.indexCast arg8
  let c11_i32_558 : BitVec 32 := 11#32
  let v1107 : Index := Scalar.indexCast c11_i32_558
  let c80_559 : Index := 80#32
  ![1, v1106.toNat, 11, 80]
def k0_off447 (k0_t3 : Fin k0_t3_loop.trips) : Fin 4 → Nat :=
  let c1_i32_560 : BitVec 32 := 1#32
  let v1111 : Index := Scalar.indexCast c1_i32_560
  let c0_i32_61 : BitVec 32 := 0#32
  let c1_i32_63 : BitVec 32 := 1#32
  let arg8 : BitVec 32 := Scf.iv c0_i32_61 c1_i32_63 k0_t3
  let v1112 : Index := Scalar.indexCast arg8
  let c12_i32_561 : BitVec 32 := 12#32
  let v1113 : Index := Scalar.indexCast c12_i32_561
  let c80_562 : Index := 80#32
  ![1, v1112.toNat, 12, 80]
def k0_off448 (k0_t3 : Fin k0_t3_loop.trips) : Fin 4 → Nat :=
  let c1_i32_563 : BitVec 32 := 1#32
  let v1117 : Index := Scalar.indexCast c1_i32_563
  let c0_i32_61 : BitVec 32 := 0#32
  let c1_i32_63 : BitVec 32 := 1#32
  let arg8 : BitVec 32 := Scf.iv c0_i32_61 c1_i32_63 k0_t3
  let v1118 : Index := Scalar.indexCast arg8
  let c13_i32_564 : BitVec 32 := 13#32
  let v1119 : Index := Scalar.indexCast c13_i32_564
  let c80_565 : Index := 80#32
  ![1, v1118.toNat, 13, 80]
def k0_off449 (k0_t3 : Fin k0_t3_loop.trips) : Fin 4 → Nat :=
  let c1_i32_566 : BitVec 32 := 1#32
  let v1123 : Index := Scalar.indexCast c1_i32_566
  let c0_i32_61 : BitVec 32 := 0#32
  let c1_i32_63 : BitVec 32 := 1#32
  let arg8 : BitVec 32 := Scf.iv c0_i32_61 c1_i32_63 k0_t3
  let v1124 : Index := Scalar.indexCast arg8
  let c14_i32_567 : BitVec 32 := 14#32
  let v1125 : Index := Scalar.indexCast c14_i32_567
  let c80_568 : Index := 80#32
  ![1, v1124.toNat, 14, 80]
def k0_off450 (k0_t3 : Fin k0_t3_loop.trips) : Fin 4 → Nat :=
  let c1_i32_569 : BitVec 32 := 1#32
  let v1129 : Index := Scalar.indexCast c1_i32_569
  let c0_i32_61 : BitVec 32 := 0#32
  let c1_i32_63 : BitVec 32 := 1#32
  let arg8 : BitVec 32 := Scf.iv c0_i32_61 c1_i32_63 k0_t3
  let v1130 : Index := Scalar.indexCast arg8
  let c15_i32_570 : BitVec 32 := 15#32
  let v1131 : Index := Scalar.indexCast c15_i32_570
  let c80_571 : Index := 80#32
  ![1, v1130.toNat, 15, 80]
def k0_off451 (k0_t3 : Fin k0_t3_loop.trips) : Fin 4 → Nat :=
  let c1_i32_572 : BitVec 32 := 1#32
  let v1135 : Index := Scalar.indexCast c1_i32_572
  let c0_i32_61 : BitVec 32 := 0#32
  let c1_i32_63 : BitVec 32 := 1#32
  let arg8 : BitVec 32 := Scf.iv c0_i32_61 c1_i32_63 k0_t3
  let v1136 : Index := Scalar.indexCast arg8
  let c16_i32_573 : BitVec 32 := 16#32
  let v1137 : Index := Scalar.indexCast c16_i32_573
  let c80_574 : Index := 80#32
  ![1, v1136.toNat, 16, 80]
def k0_off452 (k0_t3 : Fin k0_t3_loop.trips) : Fin 4 → Nat :=
  let c1_i32_575 : BitVec 32 := 1#32
  let v1141 : Index := Scalar.indexCast c1_i32_575
  let c0_i32_61 : BitVec 32 := 0#32
  let c1_i32_63 : BitVec 32 := 1#32
  let arg8 : BitVec 32 := Scf.iv c0_i32_61 c1_i32_63 k0_t3
  let v1142 : Index := Scalar.indexCast arg8
  let c17_i32_576 : BitVec 32 := 17#32
  let v1143 : Index := Scalar.indexCast c17_i32_576
  let c80_577 : Index := 80#32
  ![1, v1142.toNat, 17, 80]
def k0_off453 (k0_t3 : Fin k0_t3_loop.trips) : Fin 4 → Nat :=
  let c1_i32_578 : BitVec 32 := 1#32
  let v1147 : Index := Scalar.indexCast c1_i32_578
  let c0_i32_61 : BitVec 32 := 0#32
  let c1_i32_63 : BitVec 32 := 1#32
  let arg8 : BitVec 32 := Scf.iv c0_i32_61 c1_i32_63 k0_t3
  let v1148 : Index := Scalar.indexCast arg8
  let c18_i32_579 : BitVec 32 := 18#32
  let v1149 : Index := Scalar.indexCast c18_i32_579
  let c80_580 : Index := 80#32
  ![1, v1148.toNat, 18, 80]
def k0_off454 (k0_t3 : Fin k0_t3_loop.trips) : Fin 4 → Nat :=
  let c1_i32_581 : BitVec 32 := 1#32
  let v1153 : Index := Scalar.indexCast c1_i32_581
  let c0_i32_61 : BitVec 32 := 0#32
  let c1_i32_63 : BitVec 32 := 1#32
  let arg8 : BitVec 32 := Scf.iv c0_i32_61 c1_i32_63 k0_t3
  let v1154 : Index := Scalar.indexCast arg8
  let c19_i32_582 : BitVec 32 := 19#32
  let v1155 : Index := Scalar.indexCast c19_i32_582
  let c80_583 : Index := 80#32
  ![1, v1154.toNat, 19, 80]
def k0_off455 (k0_t3 : Fin k0_t3_loop.trips) : Fin 4 → Nat :=
  let c1_i32_584 : BitVec 32 := 1#32
  let v1159 : Index := Scalar.indexCast c1_i32_584
  let c0_i32_61 : BitVec 32 := 0#32
  let c1_i32_63 : BitVec 32 := 1#32
  let arg8 : BitVec 32 := Scf.iv c0_i32_61 c1_i32_63 k0_t3
  let v1160 : Index := Scalar.indexCast arg8
  let c20_i32_585 : BitVec 32 := 20#32
  let v1161 : Index := Scalar.indexCast c20_i32_585
  let c80_586 : Index := 80#32
  ![1, v1160.toNat, 20, 80]
def k0_off456 (k0_t3 : Fin k0_t3_loop.trips) : Fin 4 → Nat :=
  let c1_i32_587 : BitVec 32 := 1#32
  let v1165 : Index := Scalar.indexCast c1_i32_587
  let c0_i32_61 : BitVec 32 := 0#32
  let c1_i32_63 : BitVec 32 := 1#32
  let arg8 : BitVec 32 := Scf.iv c0_i32_61 c1_i32_63 k0_t3
  let v1166 : Index := Scalar.indexCast arg8
  let c21_i32_588 : BitVec 32 := 21#32
  let v1167 : Index := Scalar.indexCast c21_i32_588
  let c80_589 : Index := 80#32
  ![1, v1166.toNat, 21, 80]
def k0_off457 (k0_t3 : Fin k0_t3_loop.trips) : Fin 4 → Nat :=
  let c1_i32_590 : BitVec 32 := 1#32
  let v1171 : Index := Scalar.indexCast c1_i32_590
  let c0_i32_61 : BitVec 32 := 0#32
  let c1_i32_63 : BitVec 32 := 1#32
  let arg8 : BitVec 32 := Scf.iv c0_i32_61 c1_i32_63 k0_t3
  let v1172 : Index := Scalar.indexCast arg8
  let c22_i32_591 : BitVec 32 := 22#32
  let v1173 : Index := Scalar.indexCast c22_i32_591
  let c80_592 : Index := 80#32
  ![1, v1172.toNat, 22, 80]
def k0_off458 (k0_t3 : Fin k0_t3_loop.trips) : Fin 4 → Nat :=
  let c1_i32_593 : BitVec 32 := 1#32
  let v1177 : Index := Scalar.indexCast c1_i32_593
  let c0_i32_61 : BitVec 32 := 0#32
  let c1_i32_63 : BitVec 32 := 1#32
  let arg8 : BitVec 32 := Scf.iv c0_i32_61 c1_i32_63 k0_t3
  let v1178 : Index := Scalar.indexCast arg8
  let c23_i32_594 : BitVec 32 := 23#32
  let v1179 : Index := Scalar.indexCast c23_i32_594
  let c80_595 : Index := 80#32
  ![1, v1178.toNat, 23, 80]
def k0_off459 (k0_t3 : Fin k0_t3_loop.trips) : Fin 4 → Nat :=
  let c1_i32_596 : BitVec 32 := 1#32
  let v1183 : Index := Scalar.indexCast c1_i32_596
  let c0_i32_61 : BitVec 32 := 0#32
  let c1_i32_63 : BitVec 32 := 1#32
  let arg8 : BitVec 32 := Scf.iv c0_i32_61 c1_i32_63 k0_t3
  let v1184 : Index := Scalar.indexCast arg8
  let c24_i32_597 : BitVec 32 := 24#32
  let v1185 : Index := Scalar.indexCast c24_i32_597
  let c80_598 : Index := 80#32
  ![1, v1184.toNat, 24, 80]
def k0_off460 (k0_t3 : Fin k0_t3_loop.trips) : Fin 4 → Nat :=
  let c1_i32_599 : BitVec 32 := 1#32
  let v1189 : Index := Scalar.indexCast c1_i32_599
  let c0_i32_61 : BitVec 32 := 0#32
  let c1_i32_63 : BitVec 32 := 1#32
  let arg8 : BitVec 32 := Scf.iv c0_i32_61 c1_i32_63 k0_t3
  let v1190 : Index := Scalar.indexCast arg8
  let c25_i32_600 : BitVec 32 := 25#32
  let v1191 : Index := Scalar.indexCast c25_i32_600
  let c80_601 : Index := 80#32
  ![1, v1190.toNat, 25, 80]
def k0_off461 (k0_t3 : Fin k0_t3_loop.trips) : Fin 4 → Nat :=
  let c1_i32_602 : BitVec 32 := 1#32
  let v1195 : Index := Scalar.indexCast c1_i32_602
  let c0_i32_61 : BitVec 32 := 0#32
  let c1_i32_63 : BitVec 32 := 1#32
  let arg8 : BitVec 32 := Scf.iv c0_i32_61 c1_i32_63 k0_t3
  let v1196 : Index := Scalar.indexCast arg8
  let c26_i32_603 : BitVec 32 := 26#32
  let v1197 : Index := Scalar.indexCast c26_i32_603
  let c80_604 : Index := 80#32
  ![1, v1196.toNat, 26, 80]
def k0_off462 (k0_t3 : Fin k0_t3_loop.trips) : Fin 4 → Nat :=
  let c1_i32_605 : BitVec 32 := 1#32
  let v1201 : Index := Scalar.indexCast c1_i32_605
  let c0_i32_61 : BitVec 32 := 0#32
  let c1_i32_63 : BitVec 32 := 1#32
  let arg8 : BitVec 32 := Scf.iv c0_i32_61 c1_i32_63 k0_t3
  let v1202 : Index := Scalar.indexCast arg8
  let c27_i32_606 : BitVec 32 := 27#32
  let v1203 : Index := Scalar.indexCast c27_i32_606
  let c80_607 : Index := 80#32
  ![1, v1202.toNat, 27, 80]
def k0_off463 (k0_t3 : Fin k0_t3_loop.trips) : Fin 4 → Nat :=
  let c1_i32_608 : BitVec 32 := 1#32
  let v1207 : Index := Scalar.indexCast c1_i32_608
  let c0_i32_61 : BitVec 32 := 0#32
  let c1_i32_63 : BitVec 32 := 1#32
  let arg8 : BitVec 32 := Scf.iv c0_i32_61 c1_i32_63 k0_t3
  let v1208 : Index := Scalar.indexCast arg8
  let c28_i32_609 : BitVec 32 := 28#32
  let v1209 : Index := Scalar.indexCast c28_i32_609
  let c80_610 : Index := 80#32
  ![1, v1208.toNat, 28, 80]
def k0_off464 (k0_t3 : Fin k0_t3_loop.trips) : Fin 4 → Nat :=
  let c1_i32_611 : BitVec 32 := 1#32
  let v1213 : Index := Scalar.indexCast c1_i32_611
  let c0_i32_61 : BitVec 32 := 0#32
  let c1_i32_63 : BitVec 32 := 1#32
  let arg8 : BitVec 32 := Scf.iv c0_i32_61 c1_i32_63 k0_t3
  let v1214 : Index := Scalar.indexCast arg8
  let c29_i32_612 : BitVec 32 := 29#32
  let v1215 : Index := Scalar.indexCast c29_i32_612
  let c80_613 : Index := 80#32
  ![1, v1214.toNat, 29, 80]
def k0_off465 (k0_t3 : Fin k0_t3_loop.trips) : Fin 4 → Nat :=
  let c1_i32_614 : BitVec 32 := 1#32
  let v1219 : Index := Scalar.indexCast c1_i32_614
  let c0_i32_61 : BitVec 32 := 0#32
  let c1_i32_63 : BitVec 32 := 1#32
  let arg8 : BitVec 32 := Scf.iv c0_i32_61 c1_i32_63 k0_t3
  let v1220 : Index := Scalar.indexCast arg8
  let c30_i32_615 : BitVec 32 := 30#32
  let v1221 : Index := Scalar.indexCast c30_i32_615
  let c80_616 : Index := 80#32
  ![1, v1220.toNat, 30, 80]
def k0_off466 (k0_t3 : Fin k0_t3_loop.trips) : Fin 4 → Nat :=
  let c1_i32_617 : BitVec 32 := 1#32
  let v1225 : Index := Scalar.indexCast c1_i32_617
  let c0_i32_61 : BitVec 32 := 0#32
  let c1_i32_63 : BitVec 32 := 1#32
  let arg8 : BitVec 32 := Scf.iv c0_i32_61 c1_i32_63 k0_t3
  let v1226 : Index := Scalar.indexCast arg8
  let c31_i32_618 : BitVec 32 := 31#32
  let v1227 : Index := Scalar.indexCast c31_i32_618
  let c80_619 : Index := 80#32
  ![1, v1226.toNat, 31, 80]
def k0_off467 (k0_t3 : Fin k0_t3_loop.trips) : Fin 3 → Nat :=
  let c1_i32_620 : BitVec 32 := 1#32
  let v1231 : Index := Scalar.indexCast c1_i32_620
  let c0_i32_61 : BitVec 32 := 0#32
  let c1_i32_63 : BitVec 32 := 1#32
  let arg8 : BitVec 32 := Scf.iv c0_i32_61 c1_i32_63 k0_t3
  let v1232 : Index := Scalar.indexCast arg8
  let c80_621 : Index := 80#32
  ![1, v1232.toNat, 80]
def k0_off468 (k0_t3 : Fin k0_t3_loop.trips) : Fin 4 → Nat :=
  let c1_i32_622 : BitVec 32 := 1#32
  let v1236 : Index := Scalar.indexCast c1_i32_622
  let c0_i32_61 : BitVec 32 := 0#32
  let c1_i32_63 : BitVec 32 := 1#32
  let arg8 : BitVec 32 := Scf.iv c0_i32_61 c1_i32_63 k0_t3
  let v1237 : Index := Scalar.indexCast arg8
  let c0_i32_623 : BitVec 32 := 0#32
  let v1238 : Index := Scalar.indexCast c0_i32_623
  let c96 : Index := 96#32
  ![1, v1237.toNat, 0, 96]
def k0_off469 (k0_t3 : Fin k0_t3_loop.trips) : Fin 4 → Nat :=
  let c1_i32_624 : BitVec 32 := 1#32
  let v1241 : Index := Scalar.indexCast c1_i32_624
  let c0_i32_61 : BitVec 32 := 0#32
  let c1_i32_63 : BitVec 32 := 1#32
  let arg8 : BitVec 32 := Scf.iv c0_i32_61 c1_i32_63 k0_t3
  let v1242 : Index := Scalar.indexCast arg8
  let c1_i32_625 : BitVec 32 := 1#32
  let v1243 : Index := Scalar.indexCast c1_i32_625
  let c96_626 : Index := 96#32
  ![1, v1242.toNat, 1, 96]
def k0_off470 (k0_t3 : Fin k0_t3_loop.trips) : Fin 4 → Nat :=
  let c1_i32_627 : BitVec 32 := 1#32
  let v1247 : Index := Scalar.indexCast c1_i32_627
  let c0_i32_61 : BitVec 32 := 0#32
  let c1_i32_63 : BitVec 32 := 1#32
  let arg8 : BitVec 32 := Scf.iv c0_i32_61 c1_i32_63 k0_t3
  let v1248 : Index := Scalar.indexCast arg8
  let c2_i32_628 : BitVec 32 := 2#32
  let v1249 : Index := Scalar.indexCast c2_i32_628
  let c96_629 : Index := 96#32
  ![1, v1248.toNat, 2, 96]
def k0_off471 (k0_t3 : Fin k0_t3_loop.trips) : Fin 4 → Nat :=
  let c1_i32_630 : BitVec 32 := 1#32
  let v1253 : Index := Scalar.indexCast c1_i32_630
  let c0_i32_61 : BitVec 32 := 0#32
  let c1_i32_63 : BitVec 32 := 1#32
  let arg8 : BitVec 32 := Scf.iv c0_i32_61 c1_i32_63 k0_t3
  let v1254 : Index := Scalar.indexCast arg8
  let c3_i32_631 : BitVec 32 := 3#32
  let v1255 : Index := Scalar.indexCast c3_i32_631
  let c96_632 : Index := 96#32
  ![1, v1254.toNat, 3, 96]
def k0_off472 (k0_t3 : Fin k0_t3_loop.trips) : Fin 4 → Nat :=
  let c1_i32_633 : BitVec 32 := 1#32
  let v1259 : Index := Scalar.indexCast c1_i32_633
  let c0_i32_61 : BitVec 32 := 0#32
  let c1_i32_63 : BitVec 32 := 1#32
  let arg8 : BitVec 32 := Scf.iv c0_i32_61 c1_i32_63 k0_t3
  let v1260 : Index := Scalar.indexCast arg8
  let c4_i32_634 : BitVec 32 := 4#32
  let v1261 : Index := Scalar.indexCast c4_i32_634
  let c96_635 : Index := 96#32
  ![1, v1260.toNat, 4, 96]
def k0_off473 (k0_t3 : Fin k0_t3_loop.trips) : Fin 4 → Nat :=
  let c1_i32_636 : BitVec 32 := 1#32
  let v1265 : Index := Scalar.indexCast c1_i32_636
  let c0_i32_61 : BitVec 32 := 0#32
  let c1_i32_63 : BitVec 32 := 1#32
  let arg8 : BitVec 32 := Scf.iv c0_i32_61 c1_i32_63 k0_t3
  let v1266 : Index := Scalar.indexCast arg8
  let c5_i32_637 : BitVec 32 := 5#32
  let v1267 : Index := Scalar.indexCast c5_i32_637
  let c96_638 : Index := 96#32
  ![1, v1266.toNat, 5, 96]
def k0_off474 (k0_t3 : Fin k0_t3_loop.trips) : Fin 4 → Nat :=
  let c1_i32_639 : BitVec 32 := 1#32
  let v1271 : Index := Scalar.indexCast c1_i32_639
  let c0_i32_61 : BitVec 32 := 0#32
  let c1_i32_63 : BitVec 32 := 1#32
  let arg8 : BitVec 32 := Scf.iv c0_i32_61 c1_i32_63 k0_t3
  let v1272 : Index := Scalar.indexCast arg8
  let c6_i32_640 : BitVec 32 := 6#32
  let v1273 : Index := Scalar.indexCast c6_i32_640
  let c96_641 : Index := 96#32
  ![1, v1272.toNat, 6, 96]
def k0_off475 (k0_t3 : Fin k0_t3_loop.trips) : Fin 4 → Nat :=
  let c1_i32_642 : BitVec 32 := 1#32
  let v1277 : Index := Scalar.indexCast c1_i32_642
  let c0_i32_61 : BitVec 32 := 0#32
  let c1_i32_63 : BitVec 32 := 1#32
  let arg8 : BitVec 32 := Scf.iv c0_i32_61 c1_i32_63 k0_t3
  let v1278 : Index := Scalar.indexCast arg8
  let c7_i32_643 : BitVec 32 := 7#32
  let v1279 : Index := Scalar.indexCast c7_i32_643
  let c96_644 : Index := 96#32
  ![1, v1278.toNat, 7, 96]
def k0_off476 (k0_t3 : Fin k0_t3_loop.trips) : Fin 4 → Nat :=
  let c1_i32_645 : BitVec 32 := 1#32
  let v1283 : Index := Scalar.indexCast c1_i32_645
  let c0_i32_61 : BitVec 32 := 0#32
  let c1_i32_63 : BitVec 32 := 1#32
  let arg8 : BitVec 32 := Scf.iv c0_i32_61 c1_i32_63 k0_t3
  let v1284 : Index := Scalar.indexCast arg8
  let c8_i32_646 : BitVec 32 := 8#32
  let v1285 : Index := Scalar.indexCast c8_i32_646
  let c96_647 : Index := 96#32
  ![1, v1284.toNat, 8, 96]
def k0_off477 (k0_t3 : Fin k0_t3_loop.trips) : Fin 4 → Nat :=
  let c1_i32_648 : BitVec 32 := 1#32
  let v1289 : Index := Scalar.indexCast c1_i32_648
  let c0_i32_61 : BitVec 32 := 0#32
  let c1_i32_63 : BitVec 32 := 1#32
  let arg8 : BitVec 32 := Scf.iv c0_i32_61 c1_i32_63 k0_t3
  let v1290 : Index := Scalar.indexCast arg8
  let c9_i32_649 : BitVec 32 := 9#32
  let v1291 : Index := Scalar.indexCast c9_i32_649
  let c96_650 : Index := 96#32
  ![1, v1290.toNat, 9, 96]
def k0_off478 (k0_t3 : Fin k0_t3_loop.trips) : Fin 4 → Nat :=
  let c1_i32_651 : BitVec 32 := 1#32
  let v1295 : Index := Scalar.indexCast c1_i32_651
  let c0_i32_61 : BitVec 32 := 0#32
  let c1_i32_63 : BitVec 32 := 1#32
  let arg8 : BitVec 32 := Scf.iv c0_i32_61 c1_i32_63 k0_t3
  let v1296 : Index := Scalar.indexCast arg8
  let c10_i32_652 : BitVec 32 := 10#32
  let v1297 : Index := Scalar.indexCast c10_i32_652
  let c96_653 : Index := 96#32
  ![1, v1296.toNat, 10, 96]
def k0_off479 (k0_t3 : Fin k0_t3_loop.trips) : Fin 4 → Nat :=
  let c1_i32_654 : BitVec 32 := 1#32
  let v1301 : Index := Scalar.indexCast c1_i32_654
  let c0_i32_61 : BitVec 32 := 0#32
  let c1_i32_63 : BitVec 32 := 1#32
  let arg8 : BitVec 32 := Scf.iv c0_i32_61 c1_i32_63 k0_t3
  let v1302 : Index := Scalar.indexCast arg8
  let c11_i32_655 : BitVec 32 := 11#32
  let v1303 : Index := Scalar.indexCast c11_i32_655
  let c96_656 : Index := 96#32
  ![1, v1302.toNat, 11, 96]
def k0_off480 (k0_t3 : Fin k0_t3_loop.trips) : Fin 4 → Nat :=
  let c1_i32_657 : BitVec 32 := 1#32
  let v1307 : Index := Scalar.indexCast c1_i32_657
  let c0_i32_61 : BitVec 32 := 0#32
  let c1_i32_63 : BitVec 32 := 1#32
  let arg8 : BitVec 32 := Scf.iv c0_i32_61 c1_i32_63 k0_t3
  let v1308 : Index := Scalar.indexCast arg8
  let c12_i32_658 : BitVec 32 := 12#32
  let v1309 : Index := Scalar.indexCast c12_i32_658
  let c96_659 : Index := 96#32
  ![1, v1308.toNat, 12, 96]
def k0_off481 (k0_t3 : Fin k0_t3_loop.trips) : Fin 4 → Nat :=
  let c1_i32_660 : BitVec 32 := 1#32
  let v1313 : Index := Scalar.indexCast c1_i32_660
  let c0_i32_61 : BitVec 32 := 0#32
  let c1_i32_63 : BitVec 32 := 1#32
  let arg8 : BitVec 32 := Scf.iv c0_i32_61 c1_i32_63 k0_t3
  let v1314 : Index := Scalar.indexCast arg8
  let c13_i32_661 : BitVec 32 := 13#32
  let v1315 : Index := Scalar.indexCast c13_i32_661
  let c96_662 : Index := 96#32
  ![1, v1314.toNat, 13, 96]
def k0_off482 (k0_t3 : Fin k0_t3_loop.trips) : Fin 4 → Nat :=
  let c1_i32_663 : BitVec 32 := 1#32
  let v1319 : Index := Scalar.indexCast c1_i32_663
  let c0_i32_61 : BitVec 32 := 0#32
  let c1_i32_63 : BitVec 32 := 1#32
  let arg8 : BitVec 32 := Scf.iv c0_i32_61 c1_i32_63 k0_t3
  let v1320 : Index := Scalar.indexCast arg8
  let c14_i32_664 : BitVec 32 := 14#32
  let v1321 : Index := Scalar.indexCast c14_i32_664
  let c96_665 : Index := 96#32
  ![1, v1320.toNat, 14, 96]
def k0_off483 (k0_t3 : Fin k0_t3_loop.trips) : Fin 4 → Nat :=
  let c1_i32_666 : BitVec 32 := 1#32
  let v1325 : Index := Scalar.indexCast c1_i32_666
  let c0_i32_61 : BitVec 32 := 0#32
  let c1_i32_63 : BitVec 32 := 1#32
  let arg8 : BitVec 32 := Scf.iv c0_i32_61 c1_i32_63 k0_t3
  let v1326 : Index := Scalar.indexCast arg8
  let c15_i32_667 : BitVec 32 := 15#32
  let v1327 : Index := Scalar.indexCast c15_i32_667
  let c96_668 : Index := 96#32
  ![1, v1326.toNat, 15, 96]
def k0_off484 (k0_t3 : Fin k0_t3_loop.trips) : Fin 4 → Nat :=
  let c1_i32_669 : BitVec 32 := 1#32
  let v1331 : Index := Scalar.indexCast c1_i32_669
  let c0_i32_61 : BitVec 32 := 0#32
  let c1_i32_63 : BitVec 32 := 1#32
  let arg8 : BitVec 32 := Scf.iv c0_i32_61 c1_i32_63 k0_t3
  let v1332 : Index := Scalar.indexCast arg8
  let c16_i32_670 : BitVec 32 := 16#32
  let v1333 : Index := Scalar.indexCast c16_i32_670
  let c96_671 : Index := 96#32
  ![1, v1332.toNat, 16, 96]
def k0_off485 (k0_t3 : Fin k0_t3_loop.trips) : Fin 4 → Nat :=
  let c1_i32_672 : BitVec 32 := 1#32
  let v1337 : Index := Scalar.indexCast c1_i32_672
  let c0_i32_61 : BitVec 32 := 0#32
  let c1_i32_63 : BitVec 32 := 1#32
  let arg8 : BitVec 32 := Scf.iv c0_i32_61 c1_i32_63 k0_t3
  let v1338 : Index := Scalar.indexCast arg8
  let c17_i32_673 : BitVec 32 := 17#32
  let v1339 : Index := Scalar.indexCast c17_i32_673
  let c96_674 : Index := 96#32
  ![1, v1338.toNat, 17, 96]
def k0_off486 (k0_t3 : Fin k0_t3_loop.trips) : Fin 4 → Nat :=
  let c1_i32_675 : BitVec 32 := 1#32
  let v1343 : Index := Scalar.indexCast c1_i32_675
  let c0_i32_61 : BitVec 32 := 0#32
  let c1_i32_63 : BitVec 32 := 1#32
  let arg8 : BitVec 32 := Scf.iv c0_i32_61 c1_i32_63 k0_t3
  let v1344 : Index := Scalar.indexCast arg8
  let c18_i32_676 : BitVec 32 := 18#32
  let v1345 : Index := Scalar.indexCast c18_i32_676
  let c96_677 : Index := 96#32
  ![1, v1344.toNat, 18, 96]
def k0_off487 (k0_t3 : Fin k0_t3_loop.trips) : Fin 4 → Nat :=
  let c1_i32_678 : BitVec 32 := 1#32
  let v1349 : Index := Scalar.indexCast c1_i32_678
  let c0_i32_61 : BitVec 32 := 0#32
  let c1_i32_63 : BitVec 32 := 1#32
  let arg8 : BitVec 32 := Scf.iv c0_i32_61 c1_i32_63 k0_t3
  let v1350 : Index := Scalar.indexCast arg8
  let c19_i32_679 : BitVec 32 := 19#32
  let v1351 : Index := Scalar.indexCast c19_i32_679
  let c96_680 : Index := 96#32
  ![1, v1350.toNat, 19, 96]
def k0_off488 (k0_t3 : Fin k0_t3_loop.trips) : Fin 4 → Nat :=
  let c1_i32_681 : BitVec 32 := 1#32
  let v1355 : Index := Scalar.indexCast c1_i32_681
  let c0_i32_61 : BitVec 32 := 0#32
  let c1_i32_63 : BitVec 32 := 1#32
  let arg8 : BitVec 32 := Scf.iv c0_i32_61 c1_i32_63 k0_t3
  let v1356 : Index := Scalar.indexCast arg8
  let c20_i32_682 : BitVec 32 := 20#32
  let v1357 : Index := Scalar.indexCast c20_i32_682
  let c96_683 : Index := 96#32
  ![1, v1356.toNat, 20, 96]
def k0_off489 (k0_t3 : Fin k0_t3_loop.trips) : Fin 4 → Nat :=
  let c1_i32_684 : BitVec 32 := 1#32
  let v1361 : Index := Scalar.indexCast c1_i32_684
  let c0_i32_61 : BitVec 32 := 0#32
  let c1_i32_63 : BitVec 32 := 1#32
  let arg8 : BitVec 32 := Scf.iv c0_i32_61 c1_i32_63 k0_t3
  let v1362 : Index := Scalar.indexCast arg8
  let c21_i32_685 : BitVec 32 := 21#32
  let v1363 : Index := Scalar.indexCast c21_i32_685
  let c96_686 : Index := 96#32
  ![1, v1362.toNat, 21, 96]
def k0_off490 (k0_t3 : Fin k0_t3_loop.trips) : Fin 4 → Nat :=
  let c1_i32_687 : BitVec 32 := 1#32
  let v1367 : Index := Scalar.indexCast c1_i32_687
  let c0_i32_61 : BitVec 32 := 0#32
  let c1_i32_63 : BitVec 32 := 1#32
  let arg8 : BitVec 32 := Scf.iv c0_i32_61 c1_i32_63 k0_t3
  let v1368 : Index := Scalar.indexCast arg8
  let c22_i32_688 : BitVec 32 := 22#32
  let v1369 : Index := Scalar.indexCast c22_i32_688
  let c96_689 : Index := 96#32
  ![1, v1368.toNat, 22, 96]
def k0_off491 (k0_t3 : Fin k0_t3_loop.trips) : Fin 4 → Nat :=
  let c1_i32_690 : BitVec 32 := 1#32
  let v1373 : Index := Scalar.indexCast c1_i32_690
  let c0_i32_61 : BitVec 32 := 0#32
  let c1_i32_63 : BitVec 32 := 1#32
  let arg8 : BitVec 32 := Scf.iv c0_i32_61 c1_i32_63 k0_t3
  let v1374 : Index := Scalar.indexCast arg8
  let c23_i32_691 : BitVec 32 := 23#32
  let v1375 : Index := Scalar.indexCast c23_i32_691
  let c96_692 : Index := 96#32
  ![1, v1374.toNat, 23, 96]
def k0_off492 (k0_t3 : Fin k0_t3_loop.trips) : Fin 4 → Nat :=
  let c1_i32_693 : BitVec 32 := 1#32
  let v1379 : Index := Scalar.indexCast c1_i32_693
  let c0_i32_61 : BitVec 32 := 0#32
  let c1_i32_63 : BitVec 32 := 1#32
  let arg8 : BitVec 32 := Scf.iv c0_i32_61 c1_i32_63 k0_t3
  let v1380 : Index := Scalar.indexCast arg8
  let c24_i32_694 : BitVec 32 := 24#32
  let v1381 : Index := Scalar.indexCast c24_i32_694
  let c96_695 : Index := 96#32
  ![1, v1380.toNat, 24, 96]
def k0_off493 (k0_t3 : Fin k0_t3_loop.trips) : Fin 4 → Nat :=
  let c1_i32_696 : BitVec 32 := 1#32
  let v1385 : Index := Scalar.indexCast c1_i32_696
  let c0_i32_61 : BitVec 32 := 0#32
  let c1_i32_63 : BitVec 32 := 1#32
  let arg8 : BitVec 32 := Scf.iv c0_i32_61 c1_i32_63 k0_t3
  let v1386 : Index := Scalar.indexCast arg8
  let c25_i32_697 : BitVec 32 := 25#32
  let v1387 : Index := Scalar.indexCast c25_i32_697
  let c96_698 : Index := 96#32
  ![1, v1386.toNat, 25, 96]
def k0_off494 (k0_t3 : Fin k0_t3_loop.trips) : Fin 4 → Nat :=
  let c1_i32_699 : BitVec 32 := 1#32
  let v1391 : Index := Scalar.indexCast c1_i32_699
  let c0_i32_61 : BitVec 32 := 0#32
  let c1_i32_63 : BitVec 32 := 1#32
  let arg8 : BitVec 32 := Scf.iv c0_i32_61 c1_i32_63 k0_t3
  let v1392 : Index := Scalar.indexCast arg8
  let c26_i32_700 : BitVec 32 := 26#32
  let v1393 : Index := Scalar.indexCast c26_i32_700
  let c96_701 : Index := 96#32
  ![1, v1392.toNat, 26, 96]
def k0_off495 (k0_t3 : Fin k0_t3_loop.trips) : Fin 4 → Nat :=
  let c1_i32_702 : BitVec 32 := 1#32
  let v1397 : Index := Scalar.indexCast c1_i32_702
  let c0_i32_61 : BitVec 32 := 0#32
  let c1_i32_63 : BitVec 32 := 1#32
  let arg8 : BitVec 32 := Scf.iv c0_i32_61 c1_i32_63 k0_t3
  let v1398 : Index := Scalar.indexCast arg8
  let c27_i32_703 : BitVec 32 := 27#32
  let v1399 : Index := Scalar.indexCast c27_i32_703
  let c96_704 : Index := 96#32
  ![1, v1398.toNat, 27, 96]
def k0_off496 (k0_t3 : Fin k0_t3_loop.trips) : Fin 4 → Nat :=
  let c1_i32_705 : BitVec 32 := 1#32
  let v1403 : Index := Scalar.indexCast c1_i32_705
  let c0_i32_61 : BitVec 32 := 0#32
  let c1_i32_63 : BitVec 32 := 1#32
  let arg8 : BitVec 32 := Scf.iv c0_i32_61 c1_i32_63 k0_t3
  let v1404 : Index := Scalar.indexCast arg8
  let c28_i32_706 : BitVec 32 := 28#32
  let v1405 : Index := Scalar.indexCast c28_i32_706
  let c96_707 : Index := 96#32
  ![1, v1404.toNat, 28, 96]
def k0_off497 (k0_t3 : Fin k0_t3_loop.trips) : Fin 4 → Nat :=
  let c1_i32_708 : BitVec 32 := 1#32
  let v1409 : Index := Scalar.indexCast c1_i32_708
  let c0_i32_61 : BitVec 32 := 0#32
  let c1_i32_63 : BitVec 32 := 1#32
  let arg8 : BitVec 32 := Scf.iv c0_i32_61 c1_i32_63 k0_t3
  let v1410 : Index := Scalar.indexCast arg8
  let c29_i32_709 : BitVec 32 := 29#32
  let v1411 : Index := Scalar.indexCast c29_i32_709
  let c96_710 : Index := 96#32
  ![1, v1410.toNat, 29, 96]
def k0_off498 (k0_t3 : Fin k0_t3_loop.trips) : Fin 4 → Nat :=
  let c1_i32_711 : BitVec 32 := 1#32
  let v1415 : Index := Scalar.indexCast c1_i32_711
  let c0_i32_61 : BitVec 32 := 0#32
  let c1_i32_63 : BitVec 32 := 1#32
  let arg8 : BitVec 32 := Scf.iv c0_i32_61 c1_i32_63 k0_t3
  let v1416 : Index := Scalar.indexCast arg8
  let c30_i32_712 : BitVec 32 := 30#32
  let v1417 : Index := Scalar.indexCast c30_i32_712
  let c96_713 : Index := 96#32
  ![1, v1416.toNat, 30, 96]
def k0_off499 (k0_t3 : Fin k0_t3_loop.trips) : Fin 4 → Nat :=
  let c1_i32_714 : BitVec 32 := 1#32
  let v1421 : Index := Scalar.indexCast c1_i32_714
  let c0_i32_61 : BitVec 32 := 0#32
  let c1_i32_63 : BitVec 32 := 1#32
  let arg8 : BitVec 32 := Scf.iv c0_i32_61 c1_i32_63 k0_t3
  let v1422 : Index := Scalar.indexCast arg8
  let c31_i32_715 : BitVec 32 := 31#32
  let v1423 : Index := Scalar.indexCast c31_i32_715
  let c96_716 : Index := 96#32
  ![1, v1422.toNat, 31, 96]
def k0_off500 (k0_t3 : Fin k0_t3_loop.trips) : Fin 3 → Nat :=
  let c1_i32_717 : BitVec 32 := 1#32
  let v1427 : Index := Scalar.indexCast c1_i32_717
  let c0_i32_61 : BitVec 32 := 0#32
  let c1_i32_63 : BitVec 32 := 1#32
  let arg8 : BitVec 32 := Scf.iv c0_i32_61 c1_i32_63 k0_t3
  let v1428 : Index := Scalar.indexCast arg8
  let c96_718 : Index := 96#32
  ![1, v1428.toNat, 96]
def k0_off501 (k0_t3 : Fin k0_t3_loop.trips) : Fin 4 → Nat :=
  let c1_i32_719 : BitVec 32 := 1#32
  let v1432 : Index := Scalar.indexCast c1_i32_719
  let c0_i32_61 : BitVec 32 := 0#32
  let c1_i32_63 : BitVec 32 := 1#32
  let arg8 : BitVec 32 := Scf.iv c0_i32_61 c1_i32_63 k0_t3
  let v1433 : Index := Scalar.indexCast arg8
  let c0_i32_720 : BitVec 32 := 0#32
  let v1434 : Index := Scalar.indexCast c0_i32_720
  let c112 : Index := 112#32
  ![1, v1433.toNat, 0, 112]
def k0_off502 (k0_t3 : Fin k0_t3_loop.trips) : Fin 4 → Nat :=
  let c1_i32_721 : BitVec 32 := 1#32
  let v1437 : Index := Scalar.indexCast c1_i32_721
  let c0_i32_61 : BitVec 32 := 0#32
  let c1_i32_63 : BitVec 32 := 1#32
  let arg8 : BitVec 32 := Scf.iv c0_i32_61 c1_i32_63 k0_t3
  let v1438 : Index := Scalar.indexCast arg8
  let c1_i32_722 : BitVec 32 := 1#32
  let v1439 : Index := Scalar.indexCast c1_i32_722
  let c112_723 : Index := 112#32
  ![1, v1438.toNat, 1, 112]
def k0_off503 (k0_t3 : Fin k0_t3_loop.trips) : Fin 4 → Nat :=
  let c1_i32_724 : BitVec 32 := 1#32
  let v1443 : Index := Scalar.indexCast c1_i32_724
  let c0_i32_61 : BitVec 32 := 0#32
  let c1_i32_63 : BitVec 32 := 1#32
  let arg8 : BitVec 32 := Scf.iv c0_i32_61 c1_i32_63 k0_t3
  let v1444 : Index := Scalar.indexCast arg8
  let c2_i32_725 : BitVec 32 := 2#32
  let v1445 : Index := Scalar.indexCast c2_i32_725
  let c112_726 : Index := 112#32
  ![1, v1444.toNat, 2, 112]
def k0_off504 (k0_t3 : Fin k0_t3_loop.trips) : Fin 4 → Nat :=
  let c1_i32_727 : BitVec 32 := 1#32
  let v1449 : Index := Scalar.indexCast c1_i32_727
  let c0_i32_61 : BitVec 32 := 0#32
  let c1_i32_63 : BitVec 32 := 1#32
  let arg8 : BitVec 32 := Scf.iv c0_i32_61 c1_i32_63 k0_t3
  let v1450 : Index := Scalar.indexCast arg8
  let c3_i32_728 : BitVec 32 := 3#32
  let v1451 : Index := Scalar.indexCast c3_i32_728
  let c112_729 : Index := 112#32
  ![1, v1450.toNat, 3, 112]
def k0_off505 (k0_t3 : Fin k0_t3_loop.trips) : Fin 4 → Nat :=
  let c1_i32_730 : BitVec 32 := 1#32
  let v1455 : Index := Scalar.indexCast c1_i32_730
  let c0_i32_61 : BitVec 32 := 0#32
  let c1_i32_63 : BitVec 32 := 1#32
  let arg8 : BitVec 32 := Scf.iv c0_i32_61 c1_i32_63 k0_t3
  let v1456 : Index := Scalar.indexCast arg8
  let c4_i32_731 : BitVec 32 := 4#32
  let v1457 : Index := Scalar.indexCast c4_i32_731
  let c112_732 : Index := 112#32
  ![1, v1456.toNat, 4, 112]
def k0_off506 (k0_t3 : Fin k0_t3_loop.trips) : Fin 4 → Nat :=
  let c1_i32_733 : BitVec 32 := 1#32
  let v1461 : Index := Scalar.indexCast c1_i32_733
  let c0_i32_61 : BitVec 32 := 0#32
  let c1_i32_63 : BitVec 32 := 1#32
  let arg8 : BitVec 32 := Scf.iv c0_i32_61 c1_i32_63 k0_t3
  let v1462 : Index := Scalar.indexCast arg8
  let c5_i32_734 : BitVec 32 := 5#32
  let v1463 : Index := Scalar.indexCast c5_i32_734
  let c112_735 : Index := 112#32
  ![1, v1462.toNat, 5, 112]
def k0_off507 (k0_t3 : Fin k0_t3_loop.trips) : Fin 4 → Nat :=
  let c1_i32_736 : BitVec 32 := 1#32
  let v1467 : Index := Scalar.indexCast c1_i32_736
  let c0_i32_61 : BitVec 32 := 0#32
  let c1_i32_63 : BitVec 32 := 1#32
  let arg8 : BitVec 32 := Scf.iv c0_i32_61 c1_i32_63 k0_t3
  let v1468 : Index := Scalar.indexCast arg8
  let c6_i32_737 : BitVec 32 := 6#32
  let v1469 : Index := Scalar.indexCast c6_i32_737
  let c112_738 : Index := 112#32
  ![1, v1468.toNat, 6, 112]
def k0_off508 (k0_t3 : Fin k0_t3_loop.trips) : Fin 4 → Nat :=
  let c1_i32_739 : BitVec 32 := 1#32
  let v1473 : Index := Scalar.indexCast c1_i32_739
  let c0_i32_61 : BitVec 32 := 0#32
  let c1_i32_63 : BitVec 32 := 1#32
  let arg8 : BitVec 32 := Scf.iv c0_i32_61 c1_i32_63 k0_t3
  let v1474 : Index := Scalar.indexCast arg8
  let c7_i32_740 : BitVec 32 := 7#32
  let v1475 : Index := Scalar.indexCast c7_i32_740
  let c112_741 : Index := 112#32
  ![1, v1474.toNat, 7, 112]
def k0_off509 (k0_t3 : Fin k0_t3_loop.trips) : Fin 4 → Nat :=
  let c1_i32_742 : BitVec 32 := 1#32
  let v1479 : Index := Scalar.indexCast c1_i32_742
  let c0_i32_61 : BitVec 32 := 0#32
  let c1_i32_63 : BitVec 32 := 1#32
  let arg8 : BitVec 32 := Scf.iv c0_i32_61 c1_i32_63 k0_t3
  let v1480 : Index := Scalar.indexCast arg8
  let c8_i32_743 : BitVec 32 := 8#32
  let v1481 : Index := Scalar.indexCast c8_i32_743
  let c112_744 : Index := 112#32
  ![1, v1480.toNat, 8, 112]
def k0_off510 (k0_t3 : Fin k0_t3_loop.trips) : Fin 4 → Nat :=
  let c1_i32_745 : BitVec 32 := 1#32
  let v1485 : Index := Scalar.indexCast c1_i32_745
  let c0_i32_61 : BitVec 32 := 0#32
  let c1_i32_63 : BitVec 32 := 1#32
  let arg8 : BitVec 32 := Scf.iv c0_i32_61 c1_i32_63 k0_t3
  let v1486 : Index := Scalar.indexCast arg8
  let c9_i32_746 : BitVec 32 := 9#32
  let v1487 : Index := Scalar.indexCast c9_i32_746
  let c112_747 : Index := 112#32
  ![1, v1486.toNat, 9, 112]
def k0_off511 (k0_t3 : Fin k0_t3_loop.trips) : Fin 4 → Nat :=
  let c1_i32_748 : BitVec 32 := 1#32
  let v1491 : Index := Scalar.indexCast c1_i32_748
  let c0_i32_61 : BitVec 32 := 0#32
  let c1_i32_63 : BitVec 32 := 1#32
  let arg8 : BitVec 32 := Scf.iv c0_i32_61 c1_i32_63 k0_t3
  let v1492 : Index := Scalar.indexCast arg8
  let c10_i32_749 : BitVec 32 := 10#32
  let v1493 : Index := Scalar.indexCast c10_i32_749
  let c112_750 : Index := 112#32
  ![1, v1492.toNat, 10, 112]
def k0_off512 (k0_t3 : Fin k0_t3_loop.trips) : Fin 4 → Nat :=
  let c1_i32_751 : BitVec 32 := 1#32
  let v1497 : Index := Scalar.indexCast c1_i32_751
  let c0_i32_61 : BitVec 32 := 0#32
  let c1_i32_63 : BitVec 32 := 1#32
  let arg8 : BitVec 32 := Scf.iv c0_i32_61 c1_i32_63 k0_t3
  let v1498 : Index := Scalar.indexCast arg8
  let c11_i32_752 : BitVec 32 := 11#32
  let v1499 : Index := Scalar.indexCast c11_i32_752
  let c112_753 : Index := 112#32
  ![1, v1498.toNat, 11, 112]
def k0_off513 (k0_t3 : Fin k0_t3_loop.trips) : Fin 4 → Nat :=
  let c1_i32_754 : BitVec 32 := 1#32
  let v1503 : Index := Scalar.indexCast c1_i32_754
  let c0_i32_61 : BitVec 32 := 0#32
  let c1_i32_63 : BitVec 32 := 1#32
  let arg8 : BitVec 32 := Scf.iv c0_i32_61 c1_i32_63 k0_t3
  let v1504 : Index := Scalar.indexCast arg8
  let c12_i32_755 : BitVec 32 := 12#32
  let v1505 : Index := Scalar.indexCast c12_i32_755
  let c112_756 : Index := 112#32
  ![1, v1504.toNat, 12, 112]
def k0_off514 (k0_t3 : Fin k0_t3_loop.trips) : Fin 4 → Nat :=
  let c1_i32_757 : BitVec 32 := 1#32
  let v1509 : Index := Scalar.indexCast c1_i32_757
  let c0_i32_61 : BitVec 32 := 0#32
  let c1_i32_63 : BitVec 32 := 1#32
  let arg8 : BitVec 32 := Scf.iv c0_i32_61 c1_i32_63 k0_t3
  let v1510 : Index := Scalar.indexCast arg8
  let c13_i32_758 : BitVec 32 := 13#32
  let v1511 : Index := Scalar.indexCast c13_i32_758
  let c112_759 : Index := 112#32
  ![1, v1510.toNat, 13, 112]
def k0_off515 (k0_t3 : Fin k0_t3_loop.trips) : Fin 4 → Nat :=
  let c1_i32_760 : BitVec 32 := 1#32
  let v1515 : Index := Scalar.indexCast c1_i32_760
  let c0_i32_61 : BitVec 32 := 0#32
  let c1_i32_63 : BitVec 32 := 1#32
  let arg8 : BitVec 32 := Scf.iv c0_i32_61 c1_i32_63 k0_t3
  let v1516 : Index := Scalar.indexCast arg8
  let c14_i32_761 : BitVec 32 := 14#32
  let v1517 : Index := Scalar.indexCast c14_i32_761
  let c112_762 : Index := 112#32
  ![1, v1516.toNat, 14, 112]
def k0_off516 (k0_t3 : Fin k0_t3_loop.trips) : Fin 4 → Nat :=
  let c1_i32_763 : BitVec 32 := 1#32
  let v1521 : Index := Scalar.indexCast c1_i32_763
  let c0_i32_61 : BitVec 32 := 0#32
  let c1_i32_63 : BitVec 32 := 1#32
  let arg8 : BitVec 32 := Scf.iv c0_i32_61 c1_i32_63 k0_t3
  let v1522 : Index := Scalar.indexCast arg8
  let c15_i32_764 : BitVec 32 := 15#32
  let v1523 : Index := Scalar.indexCast c15_i32_764
  let c112_765 : Index := 112#32
  ![1, v1522.toNat, 15, 112]
def k0_off517 (k0_t3 : Fin k0_t3_loop.trips) : Fin 4 → Nat :=
  let c1_i32_766 : BitVec 32 := 1#32
  let v1527 : Index := Scalar.indexCast c1_i32_766
  let c0_i32_61 : BitVec 32 := 0#32
  let c1_i32_63 : BitVec 32 := 1#32
  let arg8 : BitVec 32 := Scf.iv c0_i32_61 c1_i32_63 k0_t3
  let v1528 : Index := Scalar.indexCast arg8
  let c16_i32_767 : BitVec 32 := 16#32
  let v1529 : Index := Scalar.indexCast c16_i32_767
  let c112_768 : Index := 112#32
  ![1, v1528.toNat, 16, 112]
def k0_off518 (k0_t3 : Fin k0_t3_loop.trips) : Fin 4 → Nat :=
  let c1_i32_769 : BitVec 32 := 1#32
  let v1533 : Index := Scalar.indexCast c1_i32_769
  let c0_i32_61 : BitVec 32 := 0#32
  let c1_i32_63 : BitVec 32 := 1#32
  let arg8 : BitVec 32 := Scf.iv c0_i32_61 c1_i32_63 k0_t3
  let v1534 : Index := Scalar.indexCast arg8
  let c17_i32_770 : BitVec 32 := 17#32
  let v1535 : Index := Scalar.indexCast c17_i32_770
  let c112_771 : Index := 112#32
  ![1, v1534.toNat, 17, 112]
def k0_off519 (k0_t3 : Fin k0_t3_loop.trips) : Fin 4 → Nat :=
  let c1_i32_772 : BitVec 32 := 1#32
  let v1539 : Index := Scalar.indexCast c1_i32_772
  let c0_i32_61 : BitVec 32 := 0#32
  let c1_i32_63 : BitVec 32 := 1#32
  let arg8 : BitVec 32 := Scf.iv c0_i32_61 c1_i32_63 k0_t3
  let v1540 : Index := Scalar.indexCast arg8
  let c18_i32_773 : BitVec 32 := 18#32
  let v1541 : Index := Scalar.indexCast c18_i32_773
  let c112_774 : Index := 112#32
  ![1, v1540.toNat, 18, 112]
def k0_off520 (k0_t3 : Fin k0_t3_loop.trips) : Fin 4 → Nat :=
  let c1_i32_775 : BitVec 32 := 1#32
  let v1545 : Index := Scalar.indexCast c1_i32_775
  let c0_i32_61 : BitVec 32 := 0#32
  let c1_i32_63 : BitVec 32 := 1#32
  let arg8 : BitVec 32 := Scf.iv c0_i32_61 c1_i32_63 k0_t3
  let v1546 : Index := Scalar.indexCast arg8
  let c19_i32_776 : BitVec 32 := 19#32
  let v1547 : Index := Scalar.indexCast c19_i32_776
  let c112_777 : Index := 112#32
  ![1, v1546.toNat, 19, 112]
def k0_off521 (k0_t3 : Fin k0_t3_loop.trips) : Fin 4 → Nat :=
  let c1_i32_778 : BitVec 32 := 1#32
  let v1551 : Index := Scalar.indexCast c1_i32_778
  let c0_i32_61 : BitVec 32 := 0#32
  let c1_i32_63 : BitVec 32 := 1#32
  let arg8 : BitVec 32 := Scf.iv c0_i32_61 c1_i32_63 k0_t3
  let v1552 : Index := Scalar.indexCast arg8
  let c20_i32_779 : BitVec 32 := 20#32
  let v1553 : Index := Scalar.indexCast c20_i32_779
  let c112_780 : Index := 112#32
  ![1, v1552.toNat, 20, 112]
def k0_off522 (k0_t3 : Fin k0_t3_loop.trips) : Fin 4 → Nat :=
  let c1_i32_781 : BitVec 32 := 1#32
  let v1557 : Index := Scalar.indexCast c1_i32_781
  let c0_i32_61 : BitVec 32 := 0#32
  let c1_i32_63 : BitVec 32 := 1#32
  let arg8 : BitVec 32 := Scf.iv c0_i32_61 c1_i32_63 k0_t3
  let v1558 : Index := Scalar.indexCast arg8
  let c21_i32_782 : BitVec 32 := 21#32
  let v1559 : Index := Scalar.indexCast c21_i32_782
  let c112_783 : Index := 112#32
  ![1, v1558.toNat, 21, 112]
def k0_off523 (k0_t3 : Fin k0_t3_loop.trips) : Fin 4 → Nat :=
  let c1_i32_784 : BitVec 32 := 1#32
  let v1563 : Index := Scalar.indexCast c1_i32_784
  let c0_i32_61 : BitVec 32 := 0#32
  let c1_i32_63 : BitVec 32 := 1#32
  let arg8 : BitVec 32 := Scf.iv c0_i32_61 c1_i32_63 k0_t3
  let v1564 : Index := Scalar.indexCast arg8
  let c22_i32_785 : BitVec 32 := 22#32
  let v1565 : Index := Scalar.indexCast c22_i32_785
  let c112_786 : Index := 112#32
  ![1, v1564.toNat, 22, 112]
def k0_off524 (k0_t3 : Fin k0_t3_loop.trips) : Fin 4 → Nat :=
  let c1_i32_787 : BitVec 32 := 1#32
  let v1569 : Index := Scalar.indexCast c1_i32_787
  let c0_i32_61 : BitVec 32 := 0#32
  let c1_i32_63 : BitVec 32 := 1#32
  let arg8 : BitVec 32 := Scf.iv c0_i32_61 c1_i32_63 k0_t3
  let v1570 : Index := Scalar.indexCast arg8
  let c23_i32_788 : BitVec 32 := 23#32
  let v1571 : Index := Scalar.indexCast c23_i32_788
  let c112_789 : Index := 112#32
  ![1, v1570.toNat, 23, 112]
def k0_off525 (k0_t3 : Fin k0_t3_loop.trips) : Fin 4 → Nat :=
  let c1_i32_790 : BitVec 32 := 1#32
  let v1575 : Index := Scalar.indexCast c1_i32_790
  let c0_i32_61 : BitVec 32 := 0#32
  let c1_i32_63 : BitVec 32 := 1#32
  let arg8 : BitVec 32 := Scf.iv c0_i32_61 c1_i32_63 k0_t3
  let v1576 : Index := Scalar.indexCast arg8
  let c24_i32_791 : BitVec 32 := 24#32
  let v1577 : Index := Scalar.indexCast c24_i32_791
  let c112_792 : Index := 112#32
  ![1, v1576.toNat, 24, 112]
def k0_off526 (k0_t3 : Fin k0_t3_loop.trips) : Fin 4 → Nat :=
  let c1_i32_793 : BitVec 32 := 1#32
  let v1581 : Index := Scalar.indexCast c1_i32_793
  let c0_i32_61 : BitVec 32 := 0#32
  let c1_i32_63 : BitVec 32 := 1#32
  let arg8 : BitVec 32 := Scf.iv c0_i32_61 c1_i32_63 k0_t3
  let v1582 : Index := Scalar.indexCast arg8
  let c25_i32_794 : BitVec 32 := 25#32
  let v1583 : Index := Scalar.indexCast c25_i32_794
  let c112_795 : Index := 112#32
  ![1, v1582.toNat, 25, 112]
def k0_off527 (k0_t3 : Fin k0_t3_loop.trips) : Fin 4 → Nat :=
  let c1_i32_796 : BitVec 32 := 1#32
  let v1587 : Index := Scalar.indexCast c1_i32_796
  let c0_i32_61 : BitVec 32 := 0#32
  let c1_i32_63 : BitVec 32 := 1#32
  let arg8 : BitVec 32 := Scf.iv c0_i32_61 c1_i32_63 k0_t3
  let v1588 : Index := Scalar.indexCast arg8
  let c26_i32_797 : BitVec 32 := 26#32
  let v1589 : Index := Scalar.indexCast c26_i32_797
  let c112_798 : Index := 112#32
  ![1, v1588.toNat, 26, 112]
def k0_off528 (k0_t3 : Fin k0_t3_loop.trips) : Fin 4 → Nat :=
  let c1_i32_799 : BitVec 32 := 1#32
  let v1593 : Index := Scalar.indexCast c1_i32_799
  let c0_i32_61 : BitVec 32 := 0#32
  let c1_i32_63 : BitVec 32 := 1#32
  let arg8 : BitVec 32 := Scf.iv c0_i32_61 c1_i32_63 k0_t3
  let v1594 : Index := Scalar.indexCast arg8
  let c27_i32_800 : BitVec 32 := 27#32
  let v1595 : Index := Scalar.indexCast c27_i32_800
  let c112_801 : Index := 112#32
  ![1, v1594.toNat, 27, 112]
def k0_off529 (k0_t3 : Fin k0_t3_loop.trips) : Fin 4 → Nat :=
  let c1_i32_802 : BitVec 32 := 1#32
  let v1599 : Index := Scalar.indexCast c1_i32_802
  let c0_i32_61 : BitVec 32 := 0#32
  let c1_i32_63 : BitVec 32 := 1#32
  let arg8 : BitVec 32 := Scf.iv c0_i32_61 c1_i32_63 k0_t3
  let v1600 : Index := Scalar.indexCast arg8
  let c28_i32_803 : BitVec 32 := 28#32
  let v1601 : Index := Scalar.indexCast c28_i32_803
  let c112_804 : Index := 112#32
  ![1, v1600.toNat, 28, 112]
def k0_off530 (k0_t3 : Fin k0_t3_loop.trips) : Fin 4 → Nat :=
  let c1_i32_805 : BitVec 32 := 1#32
  let v1605 : Index := Scalar.indexCast c1_i32_805
  let c0_i32_61 : BitVec 32 := 0#32
  let c1_i32_63 : BitVec 32 := 1#32
  let arg8 : BitVec 32 := Scf.iv c0_i32_61 c1_i32_63 k0_t3
  let v1606 : Index := Scalar.indexCast arg8
  let c29_i32_806 : BitVec 32 := 29#32
  let v1607 : Index := Scalar.indexCast c29_i32_806
  let c112_807 : Index := 112#32
  ![1, v1606.toNat, 29, 112]
def k0_off531 (k0_t3 : Fin k0_t3_loop.trips) : Fin 4 → Nat :=
  let c1_i32_808 : BitVec 32 := 1#32
  let v1611 : Index := Scalar.indexCast c1_i32_808
  let c0_i32_61 : BitVec 32 := 0#32
  let c1_i32_63 : BitVec 32 := 1#32
  let arg8 : BitVec 32 := Scf.iv c0_i32_61 c1_i32_63 k0_t3
  let v1612 : Index := Scalar.indexCast arg8
  let c30_i32_809 : BitVec 32 := 30#32
  let v1613 : Index := Scalar.indexCast c30_i32_809
  let c112_810 : Index := 112#32
  ![1, v1612.toNat, 30, 112]
def k0_off532 (k0_t3 : Fin k0_t3_loop.trips) : Fin 4 → Nat :=
  let c1_i32_811 : BitVec 32 := 1#32
  let v1617 : Index := Scalar.indexCast c1_i32_811
  let c0_i32_61 : BitVec 32 := 0#32
  let c1_i32_63 : BitVec 32 := 1#32
  let arg8 : BitVec 32 := Scf.iv c0_i32_61 c1_i32_63 k0_t3
  let v1618 : Index := Scalar.indexCast arg8
  let c31_i32_812 : BitVec 32 := 31#32
  let v1619 : Index := Scalar.indexCast c31_i32_812
  let c112_813 : Index := 112#32
  ![1, v1618.toNat, 31, 112]
def k0_off533 (k0_t3 : Fin k0_t3_loop.trips) : Fin 3 → Nat :=
  let c1_i32_814 : BitVec 32 := 1#32
  let v1623 : Index := Scalar.indexCast c1_i32_814
  let c0_i32_61 : BitVec 32 := 0#32
  let c1_i32_63 : BitVec 32 := 1#32
  let arg8 : BitVec 32 := Scf.iv c0_i32_61 c1_i32_63 k0_t3
  let v1624 : Index := Scalar.indexCast arg8
  let c112_815 : Index := 112#32
  ![1, v1624.toNat, 112]
abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S2x8x32x128_S1x8x32x128_0_0_0_0 : ∀ a, (![0, 0, 0, 0] : Fin 4 → Nat) a + S1x8x32x128.size a ≤ S2x8x32x128.size a
  squeezes_S1x8x32x128_S8x32x128 : S1x8x32x128.Squeezes S8x32x128
  inb_S2_S1_0 : ∀ a, (![0] : Fin 1 → Nat) a + S1.size a ≤ S2.size a
  squeezes_S1_S_ : S1.Squeezes S_
  inb_S2x8x32x128_S1x8x32x128_1_0_0_0 : ∀ a, (![1, 0, 0, 0] : Fin 4 → Nat) a + S1x8x32x128.size a ≤ S2x8x32x128.size a
  inb_S2_S1_1 : ∀ a, (![1] : Fin 1 → Nat) a + S1.size a ≤ S2.size a
  h_S1x1x1x16 : 0 < S1x1x1x16.numel
  shapeCasts_S1x1x1x16_S16 : S1x1x1x16.ShapeCasts S16
  h_S1x1x16 : 0 < S1x1x16.numel
  shapeCasts_S1x1x16_S16 : S1x1x16.ShapeCasts S16
  shapeCasts_S16_S1x1x16 : S16.ShapeCasts S1x1x16
  inb_S2x8x128_S1x8x128_0_0_0 : ∀ a, (![0, 0, 0] : Fin 3 → Nat) a + S1x8x128.size a ≤ S2x8x128.size a
  squeezes_S1x8x128_S8x128 : S1x8x128.Squeezes S8x128
  inb_S2x8x128_S1x8x128_1_0_0 : ∀ a, (![1, 0, 0] : Fin 3 → Nat) a + S1x8x128.size a ≤ S2x8x128.size a
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x128_S128x128_S2000x128_1_0_0_1_n_n_wf : DotDims.WF S2000x128 S128x128 S2000x128 [1] [0] [0] [1] [] []
  hcc0_scratch2 : 0 + S2.numel ≤ 13
  hcc0_scoped0 : 2 + S_.numel ≤ 13
  hcc0_scoped1 : 3 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8x32x128.size a ≤ S10000x32x128.size a
  k0_t1_ok : k0_t1_loop.OK
  k0_off2_inb : ∀ (i : grid0.Coords) (k0_t1 : Fin k0_t1_loop.trips), ∀ (r : Fin 2), ∀ a, (k0_off2 i k0_t1 (BitVec.ofNat 32 r.val)) a + S8x32x128.size a ≤ S10000x32x128.size a
  k0_off3_inb : ∀ (i : grid0.Coords) (k0_t1 : Fin k0_t1_loop.trips), ∀ (k0_h1 : k0_cond1 k0_t1 = 1#1), ∀ a, (k0_off3 i k0_t1) a + S8x32x128.size a ≤ S10000x32x128.size a
  k0_t2_ok : k0_t2_loop.OK
  k0_off4_inb : ∀ k0_t2 : Fin k0_t2_loop.trips, ∀ a, (k0_off4 k0_t2) a + S1x1x1x16.size a ≤ S2x8x32x128.size a
  k0_off5_inb : ∀ k0_t2 : Fin k0_t2_loop.trips, ∀ a, (k0_off5 k0_t2) a + S1x1x1x16.size a ≤ S2x8x32x128.size a
  k0_off6_inb : ∀ k0_t2 : Fin k0_t2_loop.trips, ∀ a, (k0_off6 k0_t2) a + S1x1x1x16.size a ≤ S2x8x32x128.size a
  k0_off7_inb : ∀ k0_t2 : Fin k0_t2_loop.trips, ∀ a, (k0_off7 k0_t2) a + S1x1x1x16.size a ≤ S2x8x32x128.size a
  k0_off8_inb : ∀ k0_t2 : Fin k0_t2_loop.trips, ∀ a, (k0_off8 k0_t2) a + S1x1x1x16.size a ≤ S2x8x32x128.size a
  k0_off9_inb : ∀ k0_t2 : Fin k0_t2_loop.trips, ∀ a, (k0_off9 k0_t2) a + S1x1x1x16.size a ≤ S2x8x32x128.size a
  k0_off10_inb : ∀ k0_t2 : Fin k0_t2_loop.trips, ∀ a, (k0_off10 k0_t2) a + S1x1x1x16.size a ≤ S2x8x32x128.size a
  k0_off11_inb : ∀ k0_t2 : Fin k0_t2_loop.trips, ∀ a, (k0_off11 k0_t2) a + S1x1x1x16.size a ≤ S2x8x32x128.size a
  k0_off12_inb : ∀ k0_t2 : Fin k0_t2_loop.trips, ∀ a, (k0_off12 k0_t2) a + S1x1x1x16.size a ≤ S2x8x32x128.size a
  k0_off13_inb : ∀ k0_t2 : Fin k0_t2_loop.trips, ∀ a, (k0_off13 k0_t2) a + S1x1x1x16.size a ≤ S2x8x32x128.size a
  k0_off14_inb : ∀ k0_t2 : Fin k0_t2_loop.trips, ∀ a, (k0_off14 k0_t2) a + S1x1x1x16.size a ≤ S2x8x32x128.size a
  k0_off15_inb : ∀ k0_t2 : Fin k0_t2_loop.trips, ∀ a, (k0_off15 k0_t2) a + S1x1x1x16.size a ≤ S2x8x32x128.size a
  k0_off16_inb : ∀ k0_t2 : Fin k0_t2_loop.trips, ∀ a, (k0_off16 k0_t2) a + S1x1x1x16.size a ≤ S2x8x32x128.size a
  k0_off17_inb : ∀ k0_t2 : Fin k0_t2_loop.trips, ∀ a, (k0_off17 k0_t2) a + S1x1x1x16.size a ≤ S2x8x32x128.size a
  k0_off18_inb : ∀ k0_t2 : Fin k0_t2_loop.trips, ∀ a, (k0_off18 k0_t2) a + S1x1x1x16.size a ≤ S2x8x32x128.size a
  k0_off19_inb : ∀ k0_t2 : Fin k0_t2_loop.trips, ∀ a, (k0_off19 k0_t2) a + S1x1x1x16.size a ≤ S2x8x32x128.size a
  k0_off20_inb : ∀ k0_t2 : Fin k0_t2_loop.trips, ∀ a, (k0_off20 k0_t2) a + S1x1x1x16.size a ≤ S2x8x32x128.size a
  k0_off21_inb : ∀ k0_t2 : Fin k0_t2_loop.trips, ∀ a, (k0_off21 k0_t2) a + S1x1x1x16.size a ≤ S2x8x32x128.size a
  k0_off22_inb : ∀ k0_t2 : Fin k0_t2_loop.trips, ∀ a, (k0_off22 k0_t2) a + S1x1x1x16.size a ≤ S2x8x32x128.size a
  k0_off23_inb : ∀ k0_t2 : Fin k0_t2_loop.trips, ∀ a, (k0_off23 k0_t2) a + S1x1x1x16.size a ≤ S2x8x32x128.size a
  k0_off24_inb : ∀ k0_t2 : Fin k0_t2_loop.trips, ∀ a, (k0_off24 k0_t2) a + S1x1x1x16.size a ≤ S2x8x32x128.size a
  k0_off25_inb : ∀ k0_t2 : Fin k0_t2_loop.trips, ∀ a, (k0_off25 k0_t2) a + S1x1x1x16.size a ≤ S2x8x32x128.size a
  k0_off26_inb : ∀ k0_t2 : Fin k0_t2_loop.trips, ∀ a, (k0_off26 k0_t2) a + S1x1x1x16.size a ≤ S2x8x32x128.size a
  k0_off27_inb : ∀ k0_t2 : Fin k0_t2_loop.trips, ∀ a, (k0_off27 k0_t2) a + S1x1x1x16.size a ≤ S2x8x32x128.size a
  k0_off28_inb : ∀ k0_t2 : Fin k0_t2_loop.trips, ∀ a, (k0_off28 k0_t2) a + S1x1x1x16.size a ≤ S2x8x32x128.size a
  k0_off29_inb : ∀ k0_t2 : Fin k0_t2_loop.trips, ∀ a, (k0_off29 k0_t2) a + S1x1x1x16.size a ≤ S2x8x32x128.size a
  k0_off30_inb : ∀ k0_t2 : Fin k0_t2_loop.trips, ∀ a, (k0_off30 k0_t2) a + S1x1x1x16.size a ≤ S2x8x32x128.size a
  k0_off31_inb : ∀ k0_t2 : Fin k0_t2_loop.trips, ∀ a, (k0_off31 k0_t2) a + S1x1x1x16.size a ≤ S2x8x32x128.size a
  k0_off32_inb : ∀ k0_t2 : Fin k0_t2_loop.trips, ∀ a, (k0_off32 k0_t2) a + S1x1x1x16.size a ≤ S2x8x32x128.size a
  k0_off33_inb : ∀ k0_t2 : Fin k0_t2_loop.trips, ∀ a, (k0_off33 k0_t2) a + S1x1x1x16.size a ≤ S2x8x32x128.size a
  k0_off34_inb : ∀ k0_t2 : Fin k0_t2_loop.trips, ∀ a, (k0_off34 k0_t2) a + S1x1x1x16.size a ≤ S2x8x32x128.size a
  k0_off35_inb : ∀ k0_t2 : Fin k0_t2_loop.trips, ∀ a, (k0_off35 k0_t2) a + S1x1x1x16.size a ≤ S2x8x32x128.size a
  k0_off36_inb : ∀ k0_t2 : Fin k0_t2_loop.trips, ∀ a, (k0_off36 k0_t2) a + S1x1x16.size a ≤ S2x8x128.size a
  k0_off37_inb : ∀ k0_t2 : Fin k0_t2_loop.trips, ∀ a, (k0_off37 k0_t2) a + S1x1x1x16.size a ≤ S2x8x32x128.size a
  k0_off38_inb : ∀ k0_t2 : Fin k0_t2_loop.trips, ∀ a, (k0_off38 k0_t2) a + S1x1x1x16.size a ≤ S2x8x32x128.size a
  k0_off39_inb : ∀ k0_t2 : Fin k0_t2_loop.trips, ∀ a, (k0_off39 k0_t2) a + S1x1x1x16.size a ≤ S2x8x32x128.size a
  k0_off40_inb : ∀ k0_t2 : Fin k0_t2_loop.trips, ∀ a, (k0_off40 k0_t2) a + S1x1x1x16.size a ≤ S2x8x32x128.size a
  k0_off41_inb : ∀ k0_t2 : Fin k0_t2_loop.trips, ∀ a, (k0_off41 k0_t2) a + S1x1x1x16.size a ≤ S2x8x32x128.size a
  k0_off42_inb : ∀ k0_t2 : Fin k0_t2_loop.trips, ∀ a, (k0_off42 k0_t2) a + S1x1x1x16.size a ≤ S2x8x32x128.size a
  k0_off43_inb : ∀ k0_t2 : Fin k0_t2_loop.trips, ∀ a, (k0_off43 k0_t2) a + S1x1x1x16.size a ≤ S2x8x32x128.size a
  k0_off44_inb : ∀ k0_t2 : Fin k0_t2_loop.trips, ∀ a, (k0_off44 k0_t2) a + S1x1x1x16.size a ≤ S2x8x32x128.size a
  k0_off45_inb : ∀ k0_t2 : Fin k0_t2_loop.trips, ∀ a, (k0_off45 k0_t2) a + S1x1x1x16.size a ≤ S2x8x32x128.size a
  k0_off46_inb : ∀ k0_t2 : Fin k0_t2_loop.trips, ∀ a, (k0_off46 k0_t2) a + S1x1x1x16.size a ≤ S2x8x32x128.size a
  k0_off47_inb : ∀ k0_t2 : Fin k0_t2_loop.trips, ∀ a, (k0_off47 k0_t2) a + S1x1x1x16.size a ≤ S2x8x32x128.size a
  k0_off48_inb : ∀ k0_t2 : Fin k0_t2_loop.trips, ∀ a, (k0_off48 k0_t2) a + S1x1x1x16.size a ≤ S2x8x32x128.size a
  k0_off49_inb : ∀ k0_t2 : Fin k0_t2_loop.trips, ∀ a, (k0_off49 k0_t2) a + S1x1x1x16.size a ≤ S2x8x32x128.size a
  k0_off50_inb : ∀ k0_t2 : Fin k0_t2_loop.trips, ∀ a, (k0_off50 k0_t2) a + S1x1x1x16.size a ≤ S2x8x32x128.size a
  k0_off51_inb : ∀ k0_t2 : Fin k0_t2_loop.trips, ∀ a, (k0_off51 k0_t2) a + S1x1x1x16.size a ≤ S2x8x32x128.size a
  k0_off52_inb : ∀ k0_t2 : Fin k0_t2_loop.trips, ∀ a, (k0_off52 k0_t2) a + S1x1x1x16.size a ≤ S2x8x32x128.size a
  k0_off53_inb : ∀ k0_t2 : Fin k0_t2_loop.trips, ∀ a, (k0_off53 k0_t2) a + S1x1x1x16.size a ≤ S2x8x32x128.size a
  k0_off54_inb : ∀ k0_t2 : Fin k0_t2_loop.trips, ∀ a, (k0_off54 k0_t2) a + S1x1x1x16.size a ≤ S2x8x32x128.size a
  k0_off55_inb : ∀ k0_t2 : Fin k0_t2_loop.trips, ∀ a, (k0_off55 k0_t2) a + S1x1x1x16.size a ≤ S2x8x32x128.size a
  k0_off56_inb : ∀ k0_t2 : Fin k0_t2_loop.trips, ∀ a, (k0_off56 k0_t2) a + S1x1x1x16.size a ≤ S2x8x32x128.size a
  k0_off57_inb : ∀ k0_t2 : Fin k0_t2_loop.trips, ∀ a, (k0_off57 k0_t2) a + S1x1x1x16.size a ≤ S2x8x32x128.size a
  k0_off58_inb : ∀ k0_t2 : Fin k0_t2_loop.trips, ∀ a, (k0_off58 k0_t2) a + S1x1x1x16.size a ≤ S2x8x32x128.size a
  k0_off59_inb : ∀ k0_t2 : Fin k0_t2_loop.trips, ∀ a, (k0_off59 k0_t2) a + S1x1x1x16.size a ≤ S2x8x32x128.size a
  k0_off60_inb : ∀ k0_t2 : Fin k0_t2_loop.trips, ∀ a, (k0_off60 k0_t2) a + S1x1x1x16.size a ≤ S2x8x32x128.size a
  k0_off61_inb : ∀ k0_t2 : Fin k0_t2_loop.trips, ∀ a, (k0_off61 k0_t2) a + S1x1x1x16.size a ≤ S2x8x32x128.size a
  k0_off62_inb : ∀ k0_t2 : Fin k0_t2_loop.trips, ∀ a, (k0_off62 k0_t2) a + S1x1x1x16.size a ≤ S2x8x32x128.size a
  k0_off63_inb : ∀ k0_t2 : Fin k0_t2_loop.trips, ∀ a, (k0_off63 k0_t2) a + S1x1x1x16.size a ≤ S2x8x32x128.size a
  k0_off64_inb : ∀ k0_t2 : Fin k0_t2_loop.trips, ∀ a, (k0_off64 k0_t2) a + S1x1x1x16.size a ≤ S2x8x32x128.size a
  k0_off65_inb : ∀ k0_t2 : Fin k0_t2_loop.trips, ∀ a, (k0_off65 k0_t2) a + S1x1x1x16.size a ≤ S2x8x32x128.size a
  k0_off66_inb : ∀ k0_t2 : Fin k0_t2_loop.trips, ∀ a, (k0_off66 k0_t2) a + S1x1x1x16.size a ≤ S2x8x32x128.size a
  k0_off67_inb : ∀ k0_t2 : Fin k0_t2_loop.trips, ∀ a, (k0_off67 k0_t2) a + S1x1x1x16.size a ≤ S2x8x32x128.size a
  k0_off68_inb : ∀ k0_t2 : Fin k0_t2_loop.trips, ∀ a, (k0_off68 k0_t2) a + S1x1x1x16.size a ≤ S2x8x32x128.size a
  k0_off69_inb : ∀ k0_t2 : Fin k0_t2_loop.trips, ∀ a, (k0_off69 k0_t2) a + S1x1x16.size a ≤ S2x8x128.size a
  k0_off70_inb : ∀ k0_t2 : Fin k0_t2_loop.trips, ∀ a, (k0_off70 k0_t2) a + S1x1x1x16.size a ≤ S2x8x32x128.size a
  k0_off71_inb : ∀ k0_t2 : Fin k0_t2_loop.trips, ∀ a, (k0_off71 k0_t2) a + S1x1x1x16.size a ≤ S2x8x32x128.size a
  k0_off72_inb : ∀ k0_t2 : Fin k0_t2_loop.trips, ∀ a, (k0_off72 k0_t2) a + S1x1x1x16.size a ≤ S2x8x32x128.size a
  k0_off73_inb : ∀ k0_t2 : Fin k0_t2_loop.trips, ∀ a, (k0_off73 k0_t2) a + S1x1x1x16.size a ≤ S2x8x32x128.size a
  k0_off74_inb : ∀ k0_t2 : Fin k0_t2_loop.trips, ∀ a, (k0_off74 k0_t2) a + S1x1x1x16.size a ≤ S2x8x32x128.size a
  k0_off75_inb : ∀ k0_t2 : Fin k0_t2_loop.trips, ∀ a, (k0_off75 k0_t2) a + S1x1x1x16.size a ≤ S2x8x32x128.size a
  k0_off76_inb : ∀ k0_t2 : Fin k0_t2_loop.trips, ∀ a, (k0_off76 k0_t2) a + S1x1x1x16.size a ≤ S2x8x32x128.size a
  k0_off77_inb : ∀ k0_t2 : Fin k0_t2_loop.trips, ∀ a, (k0_off77 k0_t2) a + S1x1x1x16.size a ≤ S2x8x32x128.size a
  k0_off78_inb : ∀ k0_t2 : Fin k0_t2_loop.trips, ∀ a, (k0_off78 k0_t2) a + S1x1x1x16.size a ≤ S2x8x32x128.size a
  k0_off79_inb : ∀ k0_t2 : Fin k0_t2_loop.trips, ∀ a, (k0_off79 k0_t2) a + S1x1x1x16.size a ≤ S2x8x32x128.size a
  k0_off80_inb : ∀ k0_t2 : Fin k0_t2_loop.trips, ∀ a, (k0_off80 k0_t2) a + S1x1x1x16.size a ≤ S2x8x32x128.size a
  k0_off81_inb : ∀ k0_t2 : Fin k0_t2_loop.trips, ∀ a, (k0_off81 k0_t2) a + S1x1x1x16.size a ≤ S2x8x32x128.size a
  k0_off82_inb : ∀ k0_t2 : Fin k0_t2_loop.trips, ∀ a, (k0_off82 k0_t2) a + S1x1x1x16.size a ≤ S2x8x32x128.size a
  k0_off83_inb : ∀ k0_t2 : Fin k0_t2_loop.trips, ∀ a, (k0_off83 k0_t2) a + S1x1x1x16.size a ≤ S2x8x32x128.size a
  k0_off84_inb : ∀ k0_t2 : Fin k0_t2_loop.trips, ∀ a, (k0_off84 k0_t2) a + S1x1x1x16.size a ≤ S2x8x32x128.size a
  k0_off85_inb : ∀ k0_t2 : Fin k0_t2_loop.trips, ∀ a, (k0_off85 k0_t2) a + S1x1x1x16.size a ≤ S2x8x32x128.size a
  k0_off86_inb : ∀ k0_t2 : Fin k0_t2_loop.trips, ∀ a, (k0_off86 k0_t2) a + S1x1x1x16.size a ≤ S2x8x32x128.size a
  k0_off87_inb : ∀ k0_t2 : Fin k0_t2_loop.trips, ∀ a, (k0_off87 k0_t2) a + S1x1x1x16.size a ≤ S2x8x32x128.size a
  k0_off88_inb : ∀ k0_t2 : Fin k0_t2_loop.trips, ∀ a, (k0_off88 k0_t2) a + S1x1x1x16.size a ≤ S2x8x32x128.size a
  k0_off89_inb : ∀ k0_t2 : Fin k0_t2_loop.trips, ∀ a, (k0_off89 k0_t2) a + S1x1x1x16.size a ≤ S2x8x32x128.size a
  k0_off90_inb : ∀ k0_t2 : Fin k0_t2_loop.trips, ∀ a, (k0_off90 k0_t2) a + S1x1x1x16.size a ≤ S2x8x32x128.size a
  k0_off91_inb : ∀ k0_t2 : Fin k0_t2_loop.trips, ∀ a, (k0_off91 k0_t2) a + S1x1x1x16.size a ≤ S2x8x32x128.size a
  k0_off92_inb : ∀ k0_t2 : Fin k0_t2_loop.trips, ∀ a, (k0_off92 k0_t2) a + S1x1x1x16.size a ≤ S2x8x32x128.size a
  k0_off93_inb : ∀ k0_t2 : Fin k0_t2_loop.trips, ∀ a, (k0_off93 k0_t2) a + S1x1x1x16.size a ≤ S2x8x32x128.size a
  k0_off94_inb : ∀ k0_t2 : Fin k0_t2_loop.trips, ∀ a, (k0_off94 k0_t2) a + S1x1x1x16.size a ≤ S2x8x32x128.size a
  k0_off95_inb : ∀ k0_t2 : Fin k0_t2_loop.trips, ∀ a, (k0_off95 k0_t2) a + S1x1x1x16.size a ≤ S2x8x32x128.size a
  k0_off96_inb : ∀ k0_t2 : Fin k0_t2_loop.trips, ∀ a, (k0_off96 k0_t2) a + S1x1x1x16.size a ≤ S2x8x32x128.size a
  k0_off97_inb : ∀ k0_t2 : Fin k0_t2_loop.trips, ∀ a, (k0_off97 k0_t2) a + S1x1x1x16.size a ≤ S2x8x32x128.size a
  k0_off98_inb : ∀ k0_t2 : Fin k0_t2_loop.trips, ∀ a, (k0_off98 k0_t2) a + S1x1x1x16.size a ≤ S2x8x32x128.size a
  k0_off99_inb : ∀ k0_t2 : Fin k0_t2_loop.trips, ∀ a, (k0_off99 k0_t2) a + S1x1x1x16.size a ≤ S2x8x32x128.size a
  k0_off100_inb : ∀ k0_t2 : Fin k0_t2_loop.trips, ∀ a, (k0_off100 k0_t2) a + S1x1x1x16.size a ≤ S2x8x32x128.size a
  k0_off101_inb : ∀ k0_t2 : Fin k0_t2_loop.trips, ∀ a, (k0_off101 k0_t2) a + S1x1x1x16.size a ≤ S2x8x32x128.size a
  k0_off102_inb : ∀ k0_t2 : Fin k0_t2_loop.trips, ∀ a, (k0_off102 k0_t2) a + S1x1x16.size a ≤ S2x8x128.size a
  k0_off103_inb : ∀ k0_t2 : Fin k0_t2_loop.trips, ∀ a, (k0_off103 k0_t2) a + S1x1x1x16.size a ≤ S2x8x32x128.size a
  k0_off104_inb : ∀ k0_t2 : Fin k0_t2_loop.trips, ∀ a, (k0_off104 k0_t2) a + S1x1x1x16.size a ≤ S2x8x32x128.size a
  k0_off105_inb : ∀ k0_t2 : Fin k0_t2_loop.trips, ∀ a, (k0_off105 k0_t2) a + S1x1x1x16.size a ≤ S2x8x32x128.size a
  k0_off106_inb : ∀ k0_t2 : Fin k0_t2_loop.trips, ∀ a, (k0_off106 k0_t2) a + S1x1x1x16.size a ≤ S2x8x32x128.size a
  k0_off107_inb : ∀ k0_t2 : Fin k0_t2_loop.trips, ∀ a, (k0_off107 k0_t2) a + S1x1x1x16.size a ≤ S2x8x32x128.size a
  k0_off108_inb : ∀ k0_t2 : Fin k0_t2_loop.trips, ∀ a, (k0_off108 k0_t2) a + S1x1x1x16.size a ≤ S2x8x32x128.size a
  k0_off109_inb : ∀ k0_t2 : Fin k0_t2_loop.trips, ∀ a, (k0_off109 k0_t2) a + S1x1x1x16.size a ≤ S2x8x32x128.size a
  k0_off110_inb : ∀ k0_t2 : Fin k0_t2_loop.trips, ∀ a, (k0_off110 k0_t2) a + S1x1x1x16.size a ≤ S2x8x32x128.size a
  k0_off111_inb : ∀ k0_t2 : Fin k0_t2_loop.trips, ∀ a, (k0_off111 k0_t2) a + S1x1x1x16.size a ≤ S2x8x32x128.size a
  k0_off112_inb : ∀ k0_t2 : Fin k0_t2_loop.trips, ∀ a, (k0_off112 k0_t2) a + S1x1x1x16.size a ≤ S2x8x32x128.size a
  k0_off113_inb : ∀ k0_t2 : Fin k0_t2_loop.trips, ∀ a, (k0_off113 k0_t2) a + S1x1x1x16.size a ≤ S2x8x32x128.size a
  k0_off114_inb : ∀ k0_t2 : Fin k0_t2_loop.trips, ∀ a, (k0_off114 k0_t2) a + S1x1x1x16.size a ≤ S2x8x32x128.size a
  k0_off115_inb : ∀ k0_t2 : Fin k0_t2_loop.trips, ∀ a, (k0_off115 k0_t2) a + S1x1x1x16.size a ≤ S2x8x32x128.size a
  k0_off116_inb : ∀ k0_t2 : Fin k0_t2_loop.trips, ∀ a, (k0_off116 k0_t2) a + S1x1x1x16.size a ≤ S2x8x32x128.size a
  k0_off117_inb : ∀ k0_t2 : Fin k0_t2_loop.trips, ∀ a, (k0_off117 k0_t2) a + S1x1x1x16.size a ≤ S2x8x32x128.size a
  k0_off118_inb : ∀ k0_t2 : Fin k0_t2_loop.trips, ∀ a, (k0_off118 k0_t2) a + S1x1x1x16.size a ≤ S2x8x32x128.size a
  k0_off119_inb : ∀ k0_t2 : Fin k0_t2_loop.trips, ∀ a, (k0_off119 k0_t2) a + S1x1x1x16.size a ≤ S2x8x32x128.size a
  k0_off120_inb : ∀ k0_t2 : Fin k0_t2_loop.trips, ∀ a, (k0_off120 k0_t2) a + S1x1x1x16.size a ≤ S2x8x32x128.size a
  k0_off121_inb : ∀ k0_t2 : Fin k0_t2_loop.trips, ∀ a, (k0_off121 k0_t2) a + S1x1x1x16.size a ≤ S2x8x32x128.size a
  k0_off122_inb : ∀ k0_t2 : Fin k0_t2_loop.trips, ∀ a, (k0_off122 k0_t2) a + S1x1x1x16.size a ≤ S2x8x32x128.size a
  k0_off123_inb : ∀ k0_t2 : Fin k0_t2_loop.trips, ∀ a, (k0_off123 k0_t2) a + S1x1x1x16.size a ≤ S2x8x32x128.size a
  k0_off124_inb : ∀ k0_t2 : Fin k0_t2_loop.trips, ∀ a, (k0_off124 k0_t2) a + S1x1x1x16.size a ≤ S2x8x32x128.size a
  k0_off125_inb : ∀ k0_t2 : Fin k0_t2_loop.trips, ∀ a, (k0_off125 k0_t2) a + S1x1x1x16.size a ≤ S2x8x32x128.size a
  k0_off126_inb : ∀ k0_t2 : Fin k0_t2_loop.trips, ∀ a, (k0_off126 k0_t2) a + S1x1x1x16.size a ≤ S2x8x32x128.size a
  k0_off127_inb : ∀ k0_t2 : Fin k0_t2_loop.trips, ∀ a, (k0_off127 k0_t2) a + S1x1x1x16.size a ≤ S2x8x32x128.size a
  k0_off128_inb : ∀ k0_t2 : Fin k0_t2_loop.trips, ∀ a, (k0_off128 k0_t2) a + S1x1x1x16.size a ≤ S2x8x32x128.size a
  k0_off129_inb : ∀ k0_t2 : Fin k0_t2_loop.trips, ∀ a, (k0_off129 k0_t2) a + S1x1x1x16.size a ≤ S2x8x32x128.size a
  k0_off130_inb : ∀ k0_t2 : Fin k0_t2_loop.trips, ∀ a, (k0_off130 k0_t2) a + S1x1x1x16.size a ≤ S2x8x32x128.size a
  k0_off131_inb : ∀ k0_t2 : Fin k0_t2_loop.trips, ∀ a, (k0_off131 k0_t2) a + S1x1x1x16.size a ≤ S2x8x32x128.size a
  k0_off132_inb : ∀ k0_t2 : Fin k0_t2_loop.trips, ∀ a, (k0_off132 k0_t2) a + S1x1x1x16.size a ≤ S2x8x32x128.size a
  k0_off133_inb : ∀ k0_t2 : Fin k0_t2_loop.trips, ∀ a, (k0_off133 k0_t2) a + S1x1x1x16.size a ≤ S2x8x32x128.size a
  k0_off134_inb : ∀ k0_t2 : Fin k0_t2_loop.trips, ∀ a, (k0_off134 k0_t2) a + S1x1x1x16.size a ≤ S2x8x32x128.size a
  k0_off135_inb : ∀ k0_t2 : Fin k0_t2_loop.trips, ∀ a, (k0_off135 k0_t2) a + S1x1x16.size a ≤ S2x8x128.size a
  k0_off136_inb : ∀ k0_t2 : Fin k0_t2_loop.trips, ∀ a, (k0_off136 k0_t2) a + S1x1x1x16.size a ≤ S2x8x32x128.size a
  k0_off137_inb : ∀ k0_t2 : Fin k0_t2_loop.trips, ∀ a, (k0_off137 k0_t2) a + S1x1x1x16.size a ≤ S2x8x32x128.size a
  k0_off138_inb : ∀ k0_t2 : Fin k0_t2_loop.trips, ∀ a, (k0_off138 k0_t2) a + S1x1x1x16.size a ≤ S2x8x32x128.size a
  k0_off139_inb : ∀ k0_t2 : Fin k0_t2_loop.trips, ∀ a, (k0_off139 k0_t2) a + S1x1x1x16.size a ≤ S2x8x32x128.size a
  k0_off140_inb : ∀ k0_t2 : Fin k0_t2_loop.trips, ∀ a, (k0_off140 k0_t2) a + S1x1x1x16.size a ≤ S2x8x32x128.size a
  k0_off141_inb : ∀ k0_t2 : Fin k0_t2_loop.trips, ∀ a, (k0_off141 k0_t2) a + S1x1x1x16.size a ≤ S2x8x32x128.size a
  k0_off142_inb : ∀ k0_t2 : Fin k0_t2_loop.trips, ∀ a, (k0_off142 k0_t2) a + S1x1x1x16.size a ≤ S2x8x32x128.size a
  k0_off143_inb : ∀ k0_t2 : Fin k0_t2_loop.trips, ∀ a, (k0_off143 k0_t2) a + S1x1x1x16.size a ≤ S2x8x32x128.size a
  k0_off144_inb : ∀ k0_t2 : Fin k0_t2_loop.trips, ∀ a, (k0_off144 k0_t2) a + S1x1x1x16.size a ≤ S2x8x32x128.size a
  k0_off145_inb : ∀ k0_t2 : Fin k0_t2_loop.trips, ∀ a, (k0_off145 k0_t2) a + S1x1x1x16.size a ≤ S2x8x32x128.size a
  k0_off146_inb : ∀ k0_t2 : Fin k0_t2_loop.trips, ∀ a, (k0_off146 k0_t2) a + S1x1x1x16.size a ≤ S2x8x32x128.size a
  k0_off147_inb : ∀ k0_t2 : Fin k0_t2_loop.trips, ∀ a, (k0_off147 k0_t2) a + S1x1x1x16.size a ≤ S2x8x32x128.size a
  k0_off148_inb : ∀ k0_t2 : Fin k0_t2_loop.trips, ∀ a, (k0_off148 k0_t2) a + S1x1x1x16.size a ≤ S2x8x32x128.size a
  k0_off149_inb : ∀ k0_t2 : Fin k0_t2_loop.trips, ∀ a, (k0_off149 k0_t2) a + S1x1x1x16.size a ≤ S2x8x32x128.size a
  k0_off150_inb : ∀ k0_t2 : Fin k0_t2_loop.trips, ∀ a, (k0_off150 k0_t2) a + S1x1x1x16.size a ≤ S2x8x32x128.size a
  k0_off151_inb : ∀ k0_t2 : Fin k0_t2_loop.trips, ∀ a, (k0_off151 k0_t2) a + S1x1x1x16.size a ≤ S2x8x32x128.size a
  k0_off152_inb : ∀ k0_t2 : Fin k0_t2_loop.trips, ∀ a, (k0_off152 k0_t2) a + S1x1x1x16.size a ≤ S2x8x32x128.size a
  k0_off153_inb : ∀ k0_t2 : Fin k0_t2_loop.trips, ∀ a, (k0_off153 k0_t2) a + S1x1x1x16.size a ≤ S2x8x32x128.size a
  k0_off154_inb : ∀ k0_t2 : Fin k0_t2_loop.trips, ∀ a, (k0_off154 k0_t2) a + S1x1x1x16.size a ≤ S2x8x32x128.size a
  k0_off155_inb : ∀ k0_t2 : Fin k0_t2_loop.trips, ∀ a, (k0_off155 k0_t2) a + S1x1x1x16.size a ≤ S2x8x32x128.size a
  k0_off156_inb : ∀ k0_t2 : Fin k0_t2_loop.trips, ∀ a, (k0_off156 k0_t2) a + S1x1x1x16.size a ≤ S2x8x32x128.size a
  k0_off157_inb : ∀ k0_t2 : Fin k0_t2_loop.trips, ∀ a, (k0_off157 k0_t2) a + S1x1x1x16.size a ≤ S2x8x32x128.size a
  k0_off158_inb : ∀ k0_t2 : Fin k0_t2_loop.trips, ∀ a, (k0_off158 k0_t2) a + S1x1x1x16.size a ≤ S2x8x32x128.size a
  k0_off159_inb : ∀ k0_t2 : Fin k0_t2_loop.trips, ∀ a, (k0_off159 k0_t2) a + S1x1x1x16.size a ≤ S2x8x32x128.size a
  k0_off160_inb : ∀ k0_t2 : Fin k0_t2_loop.trips, ∀ a, (k0_off160 k0_t2) a + S1x1x1x16.size a ≤ S2x8x32x128.size a
  k0_off161_inb : ∀ k0_t2 : Fin k0_t2_loop.trips, ∀ a, (k0_off161 k0_t2) a + S1x1x1x16.size a ≤ S2x8x32x128.size a
  k0_off162_inb : ∀ k0_t2 : Fin k0_t2_loop.trips, ∀ a, (k0_off162 k0_t2) a + S1x1x1x16.size a ≤ S2x8x32x128.size a
  k0_off163_inb : ∀ k0_t2 : Fin k0_t2_loop.trips, ∀ a, (k0_off163 k0_t2) a + S1x1x1x16.size a ≤ S2x8x32x128.size a
  k0_off164_inb : ∀ k0_t2 : Fin k0_t2_loop.trips, ∀ a, (k0_off164 k0_t2) a + S1x1x1x16.size a ≤ S2x8x32x128.size a
  k0_off165_inb : ∀ k0_t2 : Fin k0_t2_loop.trips, ∀ a, (k0_off165 k0_t2) a + S1x1x1x16.size a ≤ S2x8x32x128.size a
  k0_off166_inb : ∀ k0_t2 : Fin k0_t2_loop.trips, ∀ a, (k0_off166 k0_t2) a + S1x1x1x16.size a ≤ S2x8x32x128.size a
  k0_off167_inb : ∀ k0_t2 : Fin k0_t2_loop.trips, ∀ a, (k0_off167 k0_t2) a + S1x1x1x16.size a ≤ S2x8x32x128.size a
  k0_off168_inb : ∀ k0_t2 : Fin k0_t2_loop.trips, ∀ a, (k0_off168 k0_t2) a + S1x1x16.size a ≤ S2x8x128.size a
  k0_off169_inb : ∀ k0_t2 : Fin k0_t2_loop.trips, ∀ a, (k0_off169 k0_t2) a + S1x1x1x16.size a ≤ S2x8x32x128.size a
  k0_off170_inb : ∀ k0_t2 : Fin k0_t2_loop.trips, ∀ a, (k0_off170 k0_t2) a + S1x1x1x16.size a ≤ S2x8x32x128.size a
  k0_off171_inb : ∀ k0_t2 : Fin k0_t2_loop.trips, ∀ a, (k0_off171 k0_t2) a + S1x1x1x16.size a ≤ S2x8x32x128.size a
  k0_off172_inb : ∀ k0_t2 : Fin k0_t2_loop.trips, ∀ a, (k0_off172 k0_t2) a + S1x1x1x16.size a ≤ S2x8x32x128.size a
  k0_off173_inb : ∀ k0_t2 : Fin k0_t2_loop.trips, ∀ a, (k0_off173 k0_t2) a + S1x1x1x16.size a ≤ S2x8x32x128.size a
  k0_off174_inb : ∀ k0_t2 : Fin k0_t2_loop.trips, ∀ a, (k0_off174 k0_t2) a + S1x1x1x16.size a ≤ S2x8x32x128.size a
  k0_off175_inb : ∀ k0_t2 : Fin k0_t2_loop.trips, ∀ a, (k0_off175 k0_t2) a + S1x1x1x16.size a ≤ S2x8x32x128.size a
  k0_off176_inb : ∀ k0_t2 : Fin k0_t2_loop.trips, ∀ a, (k0_off176 k0_t2) a + S1x1x1x16.size a ≤ S2x8x32x128.size a
  k0_off177_inb : ∀ k0_t2 : Fin k0_t2_loop.trips, ∀ a, (k0_off177 k0_t2) a + S1x1x1x16.size a ≤ S2x8x32x128.size a
  k0_off178_inb : ∀ k0_t2 : Fin k0_t2_loop.trips, ∀ a, (k0_off178 k0_t2) a + S1x1x1x16.size a ≤ S2x8x32x128.size a
  k0_off179_inb : ∀ k0_t2 : Fin k0_t2_loop.trips, ∀ a, (k0_off179 k0_t2) a + S1x1x1x16.size a ≤ S2x8x32x128.size a
  k0_off180_inb : ∀ k0_t2 : Fin k0_t2_loop.trips, ∀ a, (k0_off180 k0_t2) a + S1x1x1x16.size a ≤ S2x8x32x128.size a
  k0_off181_inb : ∀ k0_t2 : Fin k0_t2_loop.trips, ∀ a, (k0_off181 k0_t2) a + S1x1x1x16.size a ≤ S2x8x32x128.size a
  k0_off182_inb : ∀ k0_t2 : Fin k0_t2_loop.trips, ∀ a, (k0_off182 k0_t2) a + S1x1x1x16.size a ≤ S2x8x32x128.size a
  k0_off183_inb : ∀ k0_t2 : Fin k0_t2_loop.trips, ∀ a, (k0_off183 k0_t2) a + S1x1x1x16.size a ≤ S2x8x32x128.size a
  k0_off184_inb : ∀ k0_t2 : Fin k0_t2_loop.trips, ∀ a, (k0_off184 k0_t2) a + S1x1x1x16.size a ≤ S2x8x32x128.size a
  k0_off185_inb : ∀ k0_t2 : Fin k0_t2_loop.trips, ∀ a, (k0_off185 k0_t2) a + S1x1x1x16.size a ≤ S2x8x32x128.size a
  k0_off186_inb : ∀ k0_t2 : Fin k0_t2_loop.trips, ∀ a, (k0_off186 k0_t2) a + S1x1x1x16.size a ≤ S2x8x32x128.size a
  k0_off187_inb : ∀ k0_t2 : Fin k0_t2_loop.trips, ∀ a, (k0_off187 k0_t2) a + S1x1x1x16.size a ≤ S2x8x32x128.size a
  k0_off188_inb : ∀ k0_t2 : Fin k0_t2_loop.trips, ∀ a, (k0_off188 k0_t2) a + S1x1x1x16.size a ≤ S2x8x32x128.size a
  k0_off189_inb : ∀ k0_t2 : Fin k0_t2_loop.trips, ∀ a, (k0_off189 k0_t2) a + S1x1x1x16.size a ≤ S2x8x32x128.size a
  k0_off190_inb : ∀ k0_t2 : Fin k0_t2_loop.trips, ∀ a, (k0_off190 k0_t2) a + S1x1x1x16.size a ≤ S2x8x32x128.size a
  k0_off191_inb : ∀ k0_t2 : Fin k0_t2_loop.trips, ∀ a, (k0_off191 k0_t2) a + S1x1x1x16.size a ≤ S2x8x32x128.size a
  k0_off192_inb : ∀ k0_t2 : Fin k0_t2_loop.trips, ∀ a, (k0_off192 k0_t2) a + S1x1x1x16.size a ≤ S2x8x32x128.size a
  k0_off193_inb : ∀ k0_t2 : Fin k0_t2_loop.trips, ∀ a, (k0_off193 k0_t2) a + S1x1x1x16.size a ≤ S2x8x32x128.size a
  k0_off194_inb : ∀ k0_t2 : Fin k0_t2_loop.trips, ∀ a, (k0_off194 k0_t2) a + S1x1x1x16.size a ≤ S2x8x32x128.size a
  k0_off195_inb : ∀ k0_t2 : Fin k0_t2_loop.trips, ∀ a, (k0_off195 k0_t2) a + S1x1x1x16.size a ≤ S2x8x32x128.size a
  k0_off196_inb : ∀ k0_t2 : Fin k0_t2_loop.trips, ∀ a, (k0_off196 k0_t2) a + S1x1x1x16.size a ≤ S2x8x32x128.size a
  k0_off197_inb : ∀ k0_t2 : Fin k0_t2_loop.trips, ∀ a, (k0_off197 k0_t2) a + S1x1x1x16.size a ≤ S2x8x32x128.size a
  k0_off198_inb : ∀ k0_t2 : Fin k0_t2_loop.trips, ∀ a, (k0_off198 k0_t2) a + S1x1x1x16.size a ≤ S2x8x32x128.size a
  k0_off199_inb : ∀ k0_t2 : Fin k0_t2_loop.trips, ∀ a, (k0_off199 k0_t2) a + S1x1x1x16.size a ≤ S2x8x32x128.size a
  k0_off200_inb : ∀ k0_t2 : Fin k0_t2_loop.trips, ∀ a, (k0_off200 k0_t2) a + S1x1x1x16.size a ≤ S2x8x32x128.size a
  k0_off201_inb : ∀ k0_t2 : Fin k0_t2_loop.trips, ∀ a, (k0_off201 k0_t2) a + S1x1x16.size a ≤ S2x8x128.size a
  k0_off202_inb : ∀ k0_t2 : Fin k0_t2_loop.trips, ∀ a, (k0_off202 k0_t2) a + S1x1x1x16.size a ≤ S2x8x32x128.size a
  k0_off203_inb : ∀ k0_t2 : Fin k0_t2_loop.trips, ∀ a, (k0_off203 k0_t2) a + S1x1x1x16.size a ≤ S2x8x32x128.size a
  k0_off204_inb : ∀ k0_t2 : Fin k0_t2_loop.trips, ∀ a, (k0_off204 k0_t2) a + S1x1x1x16.size a ≤ S2x8x32x128.size a
  k0_off205_inb : ∀ k0_t2 : Fin k0_t2_loop.trips, ∀ a, (k0_off205 k0_t2) a + S1x1x1x16.size a ≤ S2x8x32x128.size a
  k0_off206_inb : ∀ k0_t2 : Fin k0_t2_loop.trips, ∀ a, (k0_off206 k0_t2) a + S1x1x1x16.size a ≤ S2x8x32x128.size a
  k0_off207_inb : ∀ k0_t2 : Fin k0_t2_loop.trips, ∀ a, (k0_off207 k0_t2) a + S1x1x1x16.size a ≤ S2x8x32x128.size a
  k0_off208_inb : ∀ k0_t2 : Fin k0_t2_loop.trips, ∀ a, (k0_off208 k0_t2) a + S1x1x1x16.size a ≤ S2x8x32x128.size a
  k0_off209_inb : ∀ k0_t2 : Fin k0_t2_loop.trips, ∀ a, (k0_off209 k0_t2) a + S1x1x1x16.size a ≤ S2x8x32x128.size a
  k0_off210_inb : ∀ k0_t2 : Fin k0_t2_loop.trips, ∀ a, (k0_off210 k0_t2) a + S1x1x1x16.size a ≤ S2x8x32x128.size a
  k0_off211_inb : ∀ k0_t2 : Fin k0_t2_loop.trips, ∀ a, (k0_off211 k0_t2) a + S1x1x1x16.size a ≤ S2x8x32x128.size a
  k0_off212_inb : ∀ k0_t2 : Fin k0_t2_loop.trips, ∀ a, (k0_off212 k0_t2) a + S1x1x1x16.size a ≤ S2x8x32x128.size a
  k0_off213_inb : ∀ k0_t2 : Fin k0_t2_loop.trips, ∀ a, (k0_off213 k0_t2) a + S1x1x1x16.size a ≤ S2x8x32x128.size a
  k0_off214_inb : ∀ k0_t2 : Fin k0_t2_loop.trips, ∀ a, (k0_off214 k0_t2) a + S1x1x1x16.size a ≤ S2x8x32x128.size a
  k0_off215_inb : ∀ k0_t2 : Fin k0_t2_loop.trips, ∀ a, (k0_off215 k0_t2) a + S1x1x1x16.size a ≤ S2x8x32x128.size a
  k0_off216_inb : ∀ k0_t2 : Fin k0_t2_loop.trips, ∀ a, (k0_off216 k0_t2) a + S1x1x1x16.size a ≤ S2x8x32x128.size a
  k0_off217_inb : ∀ k0_t2 : Fin k0_t2_loop.trips, ∀ a, (k0_off217 k0_t2) a + S1x1x1x16.size a ≤ S2x8x32x128.size a
  k0_off218_inb : ∀ k0_t2 : Fin k0_t2_loop.trips, ∀ a, (k0_off218 k0_t2) a + S1x1x1x16.size a ≤ S2x8x32x128.size a
  k0_off219_inb : ∀ k0_t2 : Fin k0_t2_loop.trips, ∀ a, (k0_off219 k0_t2) a + S1x1x1x16.size a ≤ S2x8x32x128.size a
  k0_off220_inb : ∀ k0_t2 : Fin k0_t2_loop.trips, ∀ a, (k0_off220 k0_t2) a + S1x1x1x16.size a ≤ S2x8x32x128.size a
  k0_off221_inb : ∀ k0_t2 : Fin k0_t2_loop.trips, ∀ a, (k0_off221 k0_t2) a + S1x1x1x16.size a ≤ S2x8x32x128.size a
  k0_off222_inb : ∀ k0_t2 : Fin k0_t2_loop.trips, ∀ a, (k0_off222 k0_t2) a + S1x1x1x16.size a ≤ S2x8x32x128.size a
  k0_off223_inb : ∀ k0_t2 : Fin k0_t2_loop.trips, ∀ a, (k0_off223 k0_t2) a + S1x1x1x16.size a ≤ S2x8x32x128.size a
  k0_off224_inb : ∀ k0_t2 : Fin k0_t2_loop.trips, ∀ a, (k0_off224 k0_t2) a + S1x1x1x16.size a ≤ S2x8x32x128.size a
  k0_off225_inb : ∀ k0_t2 : Fin k0_t2_loop.trips, ∀ a, (k0_off225 k0_t2) a + S1x1x1x16.size a ≤ S2x8x32x128.size a
  k0_off226_inb : ∀ k0_t2 : Fin k0_t2_loop.trips, ∀ a, (k0_off226 k0_t2) a + S1x1x1x16.size a ≤ S2x8x32x128.size a
  k0_off227_inb : ∀ k0_t2 : Fin k0_t2_loop.trips, ∀ a, (k0_off227 k0_t2) a + S1x1x1x16.size a ≤ S2x8x32x128.size a
  k0_off228_inb : ∀ k0_t2 : Fin k0_t2_loop.trips, ∀ a, (k0_off228 k0_t2) a + S1x1x1x16.size a ≤ S2x8x32x128.size a
  k0_off229_inb : ∀ k0_t2 : Fin k0_t2_loop.trips, ∀ a, (k0_off229 k0_t2) a + S1x1x1x16.size a ≤ S2x8x32x128.size a
  k0_off230_inb : ∀ k0_t2 : Fin k0_t2_loop.trips, ∀ a, (k0_off230 k0_t2) a + S1x1x1x16.size a ≤ S2x8x32x128.size a
  k0_off231_inb : ∀ k0_t2 : Fin k0_t2_loop.trips, ∀ a, (k0_off231 k0_t2) a + S1x1x1x16.size a ≤ S2x8x32x128.size a
  k0_off232_inb : ∀ k0_t2 : Fin k0_t2_loop.trips, ∀ a, (k0_off232 k0_t2) a + S1x1x1x16.size a ≤ S2x8x32x128.size a
  k0_off233_inb : ∀ k0_t2 : Fin k0_t2_loop.trips, ∀ a, (k0_off233 k0_t2) a + S1x1x1x16.size a ≤ S2x8x32x128.size a
  k0_off234_inb : ∀ k0_t2 : Fin k0_t2_loop.trips, ∀ a, (k0_off234 k0_t2) a + S1x1x16.size a ≤ S2x8x128.size a
  k0_off235_inb : ∀ k0_t2 : Fin k0_t2_loop.trips, ∀ a, (k0_off235 k0_t2) a + S1x1x1x16.size a ≤ S2x8x32x128.size a
  k0_off236_inb : ∀ k0_t2 : Fin k0_t2_loop.trips, ∀ a, (k0_off236 k0_t2) a + S1x1x1x16.size a ≤ S2x8x32x128.size a
  k0_off237_inb : ∀ k0_t2 : Fin k0_t2_loop.trips, ∀ a, (k0_off237 k0_t2) a + S1x1x1x16.size a ≤ S2x8x32x128.size a
  k0_off238_inb : ∀ k0_t2 : Fin k0_t2_loop.trips, ∀ a, (k0_off238 k0_t2) a + S1x1x1x16.size a ≤ S2x8x32x128.size a
  k0_off239_inb : ∀ k0_t2 : Fin k0_t2_loop.trips, ∀ a, (k0_off239 k0_t2) a + S1x1x1x16.size a ≤ S2x8x32x128.size a
  k0_off240_inb : ∀ k0_t2 : Fin k0_t2_loop.trips, ∀ a, (k0_off240 k0_t2) a + S1x1x1x16.size a ≤ S2x8x32x128.size a
  k0_off241_inb : ∀ k0_t2 : Fin k0_t2_loop.trips, ∀ a, (k0_off241 k0_t2) a + S1x1x1x16.size a ≤ S2x8x32x128.size a
  k0_off242_inb : ∀ k0_t2 : Fin k0_t2_loop.trips, ∀ a, (k0_off242 k0_t2) a + S1x1x1x16.size a ≤ S2x8x32x128.size a
  k0_off243_inb : ∀ k0_t2 : Fin k0_t2_loop.trips, ∀ a, (k0_off243 k0_t2) a + S1x1x1x16.size a ≤ S2x8x32x128.size a
  k0_off244_inb : ∀ k0_t2 : Fin k0_t2_loop.trips, ∀ a, (k0_off244 k0_t2) a + S1x1x1x16.size a ≤ S2x8x32x128.size a
  k0_off245_inb : ∀ k0_t2 : Fin k0_t2_loop.trips, ∀ a, (k0_off245 k0_t2) a + S1x1x1x16.size a ≤ S2x8x32x128.size a
  k0_off246_inb : ∀ k0_t2 : Fin k0_t2_loop.trips, ∀ a, (k0_off246 k0_t2) a + S1x1x1x16.size a ≤ S2x8x32x128.size a
  k0_off247_inb : ∀ k0_t2 : Fin k0_t2_loop.trips, ∀ a, (k0_off247 k0_t2) a + S1x1x1x16.size a ≤ S2x8x32x128.size a
  k0_off248_inb : ∀ k0_t2 : Fin k0_t2_loop.trips, ∀ a, (k0_off248 k0_t2) a + S1x1x1x16.size a ≤ S2x8x32x128.size a
  k0_off249_inb : ∀ k0_t2 : Fin k0_t2_loop.trips, ∀ a, (k0_off249 k0_t2) a + S1x1x1x16.size a ≤ S2x8x32x128.size a
  k0_off250_inb : ∀ k0_t2 : Fin k0_t2_loop.trips, ∀ a, (k0_off250 k0_t2) a + S1x1x1x16.size a ≤ S2x8x32x128.size a
  k0_off251_inb : ∀ k0_t2 : Fin k0_t2_loop.trips, ∀ a, (k0_off251 k0_t2) a + S1x1x1x16.size a ≤ S2x8x32x128.size a
  k0_off252_inb : ∀ k0_t2 : Fin k0_t2_loop.trips, ∀ a, (k0_off252 k0_t2) a + S1x1x1x16.size a ≤ S2x8x32x128.size a
  k0_off253_inb : ∀ k0_t2 : Fin k0_t2_loop.trips, ∀ a, (k0_off253 k0_t2) a + S1x1x1x16.size a ≤ S2x8x32x128.size a
  k0_off254_inb : ∀ k0_t2 : Fin k0_t2_loop.trips, ∀ a, (k0_off254 k0_t2) a + S1x1x1x16.size a ≤ S2x8x32x128.size a
  k0_off255_inb : ∀ k0_t2 : Fin k0_t2_loop.trips, ∀ a, (k0_off255 k0_t2) a + S1x1x1x16.size a ≤ S2x8x32x128.size a
  k0_off256_inb : ∀ k0_t2 : Fin k0_t2_loop.trips, ∀ a, (k0_off256 k0_t2) a + S1x1x1x16.size a ≤ S2x8x32x128.size a
  k0_off257_inb : ∀ k0_t2 : Fin k0_t2_loop.trips, ∀ a, (k0_off257 k0_t2) a + S1x1x1x16.size a ≤ S2x8x32x128.size a
  k0_off258_inb : ∀ k0_t2 : Fin k0_t2_loop.trips, ∀ a, (k0_off258 k0_t2) a + S1x1x1x16.size a ≤ S2x8x32x128.size a
  k0_off259_inb : ∀ k0_t2 : Fin k0_t2_loop.trips, ∀ a, (k0_off259 k0_t2) a + S1x1x1x16.size a ≤ S2x8x32x128.size a
  k0_off260_inb : ∀ k0_t2 : Fin k0_t2_loop.trips, ∀ a, (k0_off260 k0_t2) a + S1x1x1x16.size a ≤ S2x8x32x128.size a
  k0_off261_inb : ∀ k0_t2 : Fin k0_t2_loop.trips, ∀ a, (k0_off261 k0_t2) a + S1x1x1x16.size a ≤ S2x8x32x128.size a
  k0_off262_inb : ∀ k0_t2 : Fin k0_t2_loop.trips, ∀ a, (k0_off262 k0_t2) a + S1x1x1x16.size a ≤ S2x8x32x128.size a
  k0_off263_inb : ∀ k0_t2 : Fin k0_t2_loop.trips, ∀ a, (k0_off263 k0_t2) a + S1x1x1x16.size a ≤ S2x8x32x128.size a
  k0_off264_inb : ∀ k0_t2 : Fin k0_t2_loop.trips, ∀ a, (k0_off264 k0_t2) a + S1x1x1x16.size a ≤ S2x8x32x128.size a
  k0_off265_inb : ∀ k0_t2 : Fin k0_t2_loop.trips, ∀ a, (k0_off265 k0_t2) a + S1x1x1x16.size a ≤ S2x8x32x128.size a
  k0_off266_inb : ∀ k0_t2 : Fin k0_t2_loop.trips, ∀ a, (k0_off266 k0_t2) a + S1x1x1x16.size a ≤ S2x8x32x128.size a
  k0_off267_inb : ∀ k0_t2 : Fin k0_t2_loop.trips, ∀ a, (k0_off267 k0_t2) a + S1x1x16.size a ≤ S2x8x128.size a
  k0_off268_inb : ∀ (i : grid0.Coords) (k0_t1 : Fin k0_t1_loop.trips), ∀ (r : Fin 2), ∀ a, (k0_off268 i k0_t1 (BitVec.ofNat 32 r.val)) a + S8x128.size a ≤ S10000x128.size a
  k0_off269_inb : ∀ (i : grid0.Coords) (k0_t1 : Fin k0_t1_loop.trips), ∀ (k0_h2 : k0_cond2 k0_t1 = 1#1), ∀ a, (k0_off269 i k0_t1) a + S8x32x128.size a ≤ S10000x32x128.size a
  k0_t3_ok : k0_t3_loop.OK
  k0_off270_inb : ∀ k0_t3 : Fin k0_t3_loop.trips, ∀ a, (k0_off270 k0_t3) a + S1x1x1x16.size a ≤ S2x8x32x128.size a
  k0_off271_inb : ∀ k0_t3 : Fin k0_t3_loop.trips, ∀ a, (k0_off271 k0_t3) a + S1x1x1x16.size a ≤ S2x8x32x128.size a
  k0_off272_inb : ∀ k0_t3 : Fin k0_t3_loop.trips, ∀ a, (k0_off272 k0_t3) a + S1x1x1x16.size a ≤ S2x8x32x128.size a
  k0_off273_inb : ∀ k0_t3 : Fin k0_t3_loop.trips, ∀ a, (k0_off273 k0_t3) a + S1x1x1x16.size a ≤ S2x8x32x128.size a
  k0_off274_inb : ∀ k0_t3 : Fin k0_t3_loop.trips, ∀ a, (k0_off274 k0_t3) a + S1x1x1x16.size a ≤ S2x8x32x128.size a
  k0_off275_inb : ∀ k0_t3 : Fin k0_t3_loop.trips, ∀ a, (k0_off275 k0_t3) a + S1x1x1x16.size a ≤ S2x8x32x128.size a
  k0_off276_inb : ∀ k0_t3 : Fin k0_t3_loop.trips, ∀ a, (k0_off276 k0_t3) a + S1x1x1x16.size a ≤ S2x8x32x128.size a
  k0_off277_inb : ∀ k0_t3 : Fin k0_t3_loop.trips, ∀ a, (k0_off277 k0_t3) a + S1x1x1x16.size a ≤ S2x8x32x128.size a
  k0_off278_inb : ∀ k0_t3 : Fin k0_t3_loop.trips, ∀ a, (k0_off278 k0_t3) a + S1x1x1x16.size a ≤ S2x8x32x128.size a
  k0_off279_inb : ∀ k0_t3 : Fin k0_t3_loop.trips, ∀ a, (k0_off279 k0_t3) a + S1x1x1x16.size a ≤ S2x8x32x128.size a
  k0_off280_inb : ∀ k0_t3 : Fin k0_t3_loop.trips, ∀ a, (k0_off280 k0_t3) a + S1x1x1x16.size a ≤ S2x8x32x128.size a
  k0_off281_inb : ∀ k0_t3 : Fin k0_t3_loop.trips, ∀ a, (k0_off281 k0_t3) a + S1x1x1x16.size a ≤ S2x8x32x128.size a
  k0_off282_inb : ∀ k0_t3 : Fin k0_t3_loop.trips, ∀ a, (k0_off282 k0_t3) a + S1x1x1x16.size a ≤ S2x8x32x128.size a
  k0_off283_inb : ∀ k0_t3 : Fin k0_t3_loop.trips, ∀ a, (k0_off283 k0_t3) a + S1x1x1x16.size a ≤ S2x8x32x128.size a
  k0_off284_inb : ∀ k0_t3 : Fin k0_t3_loop.trips, ∀ a, (k0_off284 k0_t3) a + S1x1x1x16.size a ≤ S2x8x32x128.size a
  k0_off285_inb : ∀ k0_t3 : Fin k0_t3_loop.trips, ∀ a, (k0_off285 k0_t3) a + S1x1x1x16.size a ≤ S2x8x32x128.size a
  k0_off286_inb : ∀ k0_t3 : Fin k0_t3_loop.trips, ∀ a, (k0_off286 k0_t3) a + S1x1x1x16.size a ≤ S2x8x32x128.size a
  k0_off287_inb : ∀ k0_t3 : Fin k0_t3_loop.trips, ∀ a, (k0_off287 k0_t3) a + S1x1x1x16.size a ≤ S2x8x32x128.size a
  k0_off288_inb : ∀ k0_t3 : Fin k0_t3_loop.trips, ∀ a, (k0_off288 k0_t3) a + S1x1x1x16.size a ≤ S2x8x32x128.size a
  k0_off289_inb : ∀ k0_t3 : Fin k0_t3_loop.trips, ∀ a, (k0_off289 k0_t3) a + S1x1x1x16.size a ≤ S2x8x32x128.size a
  k0_off290_inb : ∀ k0_t3 : Fin k0_t3_loop.trips, ∀ a, (k0_off290 k0_t3) a + S1x1x1x16.size a ≤ S2x8x32x128.size a
  k0_off291_inb : ∀ k0_t3 : Fin k0_t3_loop.trips, ∀ a, (k0_off291 k0_t3) a + S1x1x1x16.size a ≤ S2x8x32x128.size a
  k0_off292_inb : ∀ k0_t3 : Fin k0_t3_loop.trips, ∀ a, (k0_off292 k0_t3) a + S1x1x1x16.size a ≤ S2x8x32x128.size a
  k0_off293_inb : ∀ k0_t3 : Fin k0_t3_loop.trips, ∀ a, (k0_off293 k0_t3) a + S1x1x1x16.size a ≤ S2x8x32x128.size a
  k0_off294_inb : ∀ k0_t3 : Fin k0_t3_loop.trips, ∀ a, (k0_off294 k0_t3) a + S1x1x1x16.size a ≤ S2x8x32x128.size a
  k0_off295_inb : ∀ k0_t3 : Fin k0_t3_loop.trips, ∀ a, (k0_off295 k0_t3) a + S1x1x1x16.size a ≤ S2x8x32x128.size a
  k0_off296_inb : ∀ k0_t3 : Fin k0_t3_loop.trips, ∀ a, (k0_off296 k0_t3) a + S1x1x1x16.size a ≤ S2x8x32x128.size a
  k0_off297_inb : ∀ k0_t3 : Fin k0_t3_loop.trips, ∀ a, (k0_off297 k0_t3) a + S1x1x1x16.size a ≤ S2x8x32x128.size a
  k0_off298_inb : ∀ k0_t3 : Fin k0_t3_loop.trips, ∀ a, (k0_off298 k0_t3) a + S1x1x1x16.size a ≤ S2x8x32x128.size a
  k0_off299_inb : ∀ k0_t3 : Fin k0_t3_loop.trips, ∀ a, (k0_off299 k0_t3) a + S1x1x1x16.size a ≤ S2x8x32x128.size a
  k0_off300_inb : ∀ k0_t3 : Fin k0_t3_loop.trips, ∀ a, (k0_off300 k0_t3) a + S1x1x1x16.size a ≤ S2x8x32x128.size a
  k0_off301_inb : ∀ k0_t3 : Fin k0_t3_loop.trips, ∀ a, (k0_off301 k0_t3) a + S1x1x1x16.size a ≤ S2x8x32x128.size a
  k0_off302_inb : ∀ k0_t3 : Fin k0_t3_loop.trips, ∀ a, (k0_off302 k0_t3) a + S1x1x16.size a ≤ S2x8x128.size a
  k0_off303_inb : ∀ k0_t3 : Fin k0_t3_loop.trips, ∀ a, (k0_off303 k0_t3) a + S1x1x1x16.size a ≤ S2x8x32x128.size a
  k0_off304_inb : ∀ k0_t3 : Fin k0_t3_loop.trips, ∀ a, (k0_off304 k0_t3) a + S1x1x1x16.size a ≤ S2x8x32x128.size a
  k0_off305_inb : ∀ k0_t3 : Fin k0_t3_loop.trips, ∀ a, (k0_off305 k0_t3) a + S1x1x1x16.size a ≤ S2x8x32x128.size a
  k0_off306_inb : ∀ k0_t3 : Fin k0_t3_loop.trips, ∀ a, (k0_off306 k0_t3) a + S1x1x1x16.size a ≤ S2x8x32x128.size a
  k0_off307_inb : ∀ k0_t3 : Fin k0_t3_loop.trips, ∀ a, (k0_off307 k0_t3) a + S1x1x1x16.size a ≤ S2x8x32x128.size a
  k0_off308_inb : ∀ k0_t3 : Fin k0_t3_loop.trips, ∀ a, (k0_off308 k0_t3) a + S1x1x1x16.size a ≤ S2x8x32x128.size a
  k0_off309_inb : ∀ k0_t3 : Fin k0_t3_loop.trips, ∀ a, (k0_off309 k0_t3) a + S1x1x1x16.size a ≤ S2x8x32x128.size a
  k0_off310_inb : ∀ k0_t3 : Fin k0_t3_loop.trips, ∀ a, (k0_off310 k0_t3) a + S1x1x1x16.size a ≤ S2x8x32x128.size a
  k0_off311_inb : ∀ k0_t3 : Fin k0_t3_loop.trips, ∀ a, (k0_off311 k0_t3) a + S1x1x1x16.size a ≤ S2x8x32x128.size a
  k0_off312_inb : ∀ k0_t3 : Fin k0_t3_loop.trips, ∀ a, (k0_off312 k0_t3) a + S1x1x1x16.size a ≤ S2x8x32x128.size a
  k0_off313_inb : ∀ k0_t3 : Fin k0_t3_loop.trips, ∀ a, (k0_off313 k0_t3) a + S1x1x1x16.size a ≤ S2x8x32x128.size a
  k0_off314_inb : ∀ k0_t3 : Fin k0_t3_loop.trips, ∀ a, (k0_off314 k0_t3) a + S1x1x1x16.size a ≤ S2x8x32x128.size a
  k0_off315_inb : ∀ k0_t3 : Fin k0_t3_loop.trips, ∀ a, (k0_off315 k0_t3) a + S1x1x1x16.size a ≤ S2x8x32x128.size a
  k0_off316_inb : ∀ k0_t3 : Fin k0_t3_loop.trips, ∀ a, (k0_off316 k0_t3) a + S1x1x1x16.size a ≤ S2x8x32x128.size a
  k0_off317_inb : ∀ k0_t3 : Fin k0_t3_loop.trips, ∀ a, (k0_off317 k0_t3) a + S1x1x1x16.size a ≤ S2x8x32x128.size a
  k0_off318_inb : ∀ k0_t3 : Fin k0_t3_loop.trips, ∀ a, (k0_off318 k0_t3) a + S1x1x1x16.size a ≤ S2x8x32x128.size a
  k0_off319_inb : ∀ k0_t3 : Fin k0_t3_loop.trips, ∀ a, (k0_off319 k0_t3) a + S1x1x1x16.size a ≤ S2x8x32x128.size a
  k0_off320_inb : ∀ k0_t3 : Fin k0_t3_loop.trips, ∀ a, (k0_off320 k0_t3) a + S1x1x1x16.size a ≤ S2x8x32x128.size a
  k0_off321_inb : ∀ k0_t3 : Fin k0_t3_loop.trips, ∀ a, (k0_off321 k0_t3) a + S1x1x1x16.size a ≤ S2x8x32x128.size a
  k0_off322_inb : ∀ k0_t3 : Fin k0_t3_loop.trips, ∀ a, (k0_off322 k0_t3) a + S1x1x1x16.size a ≤ S2x8x32x128.size a
  k0_off323_inb : ∀ k0_t3 : Fin k0_t3_loop.trips, ∀ a, (k0_off323 k0_t3) a + S1x1x1x16.size a ≤ S2x8x32x128.size a
  k0_off324_inb : ∀ k0_t3 : Fin k0_t3_loop.trips, ∀ a, (k0_off324 k0_t3) a + S1x1x1x16.size a ≤ S2x8x32x128.size a
  k0_off325_inb : ∀ k0_t3 : Fin k0_t3_loop.trips, ∀ a, (k0_off325 k0_t3) a + S1x1x1x16.size a ≤ S2x8x32x128.size a
  k0_off326_inb : ∀ k0_t3 : Fin k0_t3_loop.trips, ∀ a, (k0_off326 k0_t3) a + S1x1x1x16.size a ≤ S2x8x32x128.size a
  k0_off327_inb : ∀ k0_t3 : Fin k0_t3_loop.trips, ∀ a, (k0_off327 k0_t3) a + S1x1x1x16.size a ≤ S2x8x32x128.size a
  k0_off328_inb : ∀ k0_t3 : Fin k0_t3_loop.trips, ∀ a, (k0_off328 k0_t3) a + S1x1x1x16.size a ≤ S2x8x32x128.size a
  k0_off329_inb : ∀ k0_t3 : Fin k0_t3_loop.trips, ∀ a, (k0_off329 k0_t3) a + S1x1x1x16.size a ≤ S2x8x32x128.size a
  k0_off330_inb : ∀ k0_t3 : Fin k0_t3_loop.trips, ∀ a, (k0_off330 k0_t3) a + S1x1x1x16.size a ≤ S2x8x32x128.size a
  k0_off331_inb : ∀ k0_t3 : Fin k0_t3_loop.trips, ∀ a, (k0_off331 k0_t3) a + S1x1x1x16.size a ≤ S2x8x32x128.size a
  k0_off332_inb : ∀ k0_t3 : Fin k0_t3_loop.trips, ∀ a, (k0_off332 k0_t3) a + S1x1x1x16.size a ≤ S2x8x32x128.size a
  k0_off333_inb : ∀ k0_t3 : Fin k0_t3_loop.trips, ∀ a, (k0_off333 k0_t3) a + S1x1x1x16.size a ≤ S2x8x32x128.size a
  k0_off334_inb : ∀ k0_t3 : Fin k0_t3_loop.trips, ∀ a, (k0_off334 k0_t3) a + S1x1x1x16.size a ≤ S2x8x32x128.size a
  k0_off335_inb : ∀ k0_t3 : Fin k0_t3_loop.trips, ∀ a, (k0_off335 k0_t3) a + S1x1x16.size a ≤ S2x8x128.size a
  k0_off336_inb : ∀ k0_t3 : Fin k0_t3_loop.trips, ∀ a, (k0_off336 k0_t3) a + S1x1x1x16.size a ≤ S2x8x32x128.size a
  k0_off337_inb : ∀ k0_t3 : Fin k0_t3_loop.trips, ∀ a, (k0_off337 k0_t3) a + S1x1x1x16.size a ≤ S2x8x32x128.size a
  k0_off338_inb : ∀ k0_t3 : Fin k0_t3_loop.trips, ∀ a, (k0_off338 k0_t3) a + S1x1x1x16.size a ≤ S2x8x32x128.size a
  k0_off339_inb : ∀ k0_t3 : Fin k0_t3_loop.trips, ∀ a, (k0_off339 k0_t3) a + S1x1x1x16.size a ≤ S2x8x32x128.size a
  k0_off340_inb : ∀ k0_t3 : Fin k0_t3_loop.trips, ∀ a, (k0_off340 k0_t3) a + S1x1x1x16.size a ≤ S2x8x32x128.size a
  k0_off341_inb : ∀ k0_t3 : Fin k0_t3_loop.trips, ∀ a, (k0_off341 k0_t3) a + S1x1x1x16.size a ≤ S2x8x32x128.size a
  k0_off342_inb : ∀ k0_t3 : Fin k0_t3_loop.trips, ∀ a, (k0_off342 k0_t3) a + S1x1x1x16.size a ≤ S2x8x32x128.size a
  k0_off343_inb : ∀ k0_t3 : Fin k0_t3_loop.trips, ∀ a, (k0_off343 k0_t3) a + S1x1x1x16.size a ≤ S2x8x32x128.size a
  k0_off344_inb : ∀ k0_t3 : Fin k0_t3_loop.trips, ∀ a, (k0_off344 k0_t3) a + S1x1x1x16.size a ≤ S2x8x32x128.size a
  k0_off345_inb : ∀ k0_t3 : Fin k0_t3_loop.trips, ∀ a, (k0_off345 k0_t3) a + S1x1x1x16.size a ≤ S2x8x32x128.size a
  k0_off346_inb : ∀ k0_t3 : Fin k0_t3_loop.trips, ∀ a, (k0_off346 k0_t3) a + S1x1x1x16.size a ≤ S2x8x32x128.size a
  k0_off347_inb : ∀ k0_t3 : Fin k0_t3_loop.trips, ∀ a, (k0_off347 k0_t3) a + S1x1x1x16.size a ≤ S2x8x32x128.size a
  k0_off348_inb : ∀ k0_t3 : Fin k0_t3_loop.trips, ∀ a, (k0_off348 k0_t3) a + S1x1x1x16.size a ≤ S2x8x32x128.size a
  k0_off349_inb : ∀ k0_t3 : Fin k0_t3_loop.trips, ∀ a, (k0_off349 k0_t3) a + S1x1x1x16.size a ≤ S2x8x32x128.size a
  k0_off350_inb : ∀ k0_t3 : Fin k0_t3_loop.trips, ∀ a, (k0_off350 k0_t3) a + S1x1x1x16.size a ≤ S2x8x32x128.size a
  k0_off351_inb : ∀ k0_t3 : Fin k0_t3_loop.trips, ∀ a, (k0_off351 k0_t3) a + S1x1x1x16.size a ≤ S2x8x32x128.size a
  k0_off352_inb : ∀ k0_t3 : Fin k0_t3_loop.trips, ∀ a, (k0_off352 k0_t3) a + S1x1x1x16.size a ≤ S2x8x32x128.size a
  k0_off353_inb : ∀ k0_t3 : Fin k0_t3_loop.trips, ∀ a, (k0_off353 k0_t3) a + S1x1x1x16.size a ≤ S2x8x32x128.size a
  k0_off354_inb : ∀ k0_t3 : Fin k0_t3_loop.trips, ∀ a, (k0_off354 k0_t3) a + S1x1x1x16.size a ≤ S2x8x32x128.size a
  k0_off355_inb : ∀ k0_t3 : Fin k0_t3_loop.trips, ∀ a, (k0_off355 k0_t3) a + S1x1x1x16.size a ≤ S2x8x32x128.size a
  k0_off356_inb : ∀ k0_t3 : Fin k0_t3_loop.trips, ∀ a, (k0_off356 k0_t3) a + S1x1x1x16.size a ≤ S2x8x32x128.size a
  k0_off357_inb : ∀ k0_t3 : Fin k0_t3_loop.trips, ∀ a, (k0_off357 k0_t3) a + S1x1x1x16.size a ≤ S2x8x32x128.size a
  k0_off358_inb : ∀ k0_t3 : Fin k0_t3_loop.trips, ∀ a, (k0_off358 k0_t3) a + S1x1x1x16.size a ≤ S2x8x32x128.size a
  k0_off359_inb : ∀ k0_t3 : Fin k0_t3_loop.trips, ∀ a, (k0_off359 k0_t3) a + S1x1x1x16.size a ≤ S2x8x32x128.size a
  k0_off360_inb : ∀ k0_t3 : Fin k0_t3_loop.trips, ∀ a, (k0_off360 k0_t3) a + S1x1x1x16.size a ≤ S2x8x32x128.size a
  k0_off361_inb : ∀ k0_t3 : Fin k0_t3_loop.trips, ∀ a, (k0_off361 k0_t3) a + S1x1x1x16.size a ≤ S2x8x32x128.size a
  k0_off362_inb : ∀ k0_t3 : Fin k0_t3_loop.trips, ∀ a, (k0_off362 k0_t3) a + S1x1x1x16.size a ≤ S2x8x32x128.size a
  k0_off363_inb : ∀ k0_t3 : Fin k0_t3_loop.trips, ∀ a, (k0_off363 k0_t3) a + S1x1x1x16.size a ≤ S2x8x32x128.size a
  k0_off364_inb : ∀ k0_t3 : Fin k0_t3_loop.trips, ∀ a, (k0_off364 k0_t3) a + S1x1x1x16.size a ≤ S2x8x32x128.size a
  k0_off365_inb : ∀ k0_t3 : Fin k0_t3_loop.trips, ∀ a, (k0_off365 k0_t3) a + S1x1x1x16.size a ≤ S2x8x32x128.size a
  k0_off366_inb : ∀ k0_t3 : Fin k0_t3_loop.trips, ∀ a, (k0_off366 k0_t3) a + S1x1x1x16.size a ≤ S2x8x32x128.size a
  k0_off367_inb : ∀ k0_t3 : Fin k0_t3_loop.trips, ∀ a, (k0_off367 k0_t3) a + S1x1x1x16.size a ≤ S2x8x32x128.size a
  k0_off368_inb : ∀ k0_t3 : Fin k0_t3_loop.trips, ∀ a, (k0_off368 k0_t3) a + S1x1x16.size a ≤ S2x8x128.size a
  k0_off369_inb : ∀ k0_t3 : Fin k0_t3_loop.trips, ∀ a, (k0_off369 k0_t3) a + S1x1x1x16.size a ≤ S2x8x32x128.size a
  k0_off370_inb : ∀ k0_t3 : Fin k0_t3_loop.trips, ∀ a, (k0_off370 k0_t3) a + S1x1x1x16.size a ≤ S2x8x32x128.size a
  k0_off371_inb : ∀ k0_t3 : Fin k0_t3_loop.trips, ∀ a, (k0_off371 k0_t3) a + S1x1x1x16.size a ≤ S2x8x32x128.size a
  k0_off372_inb : ∀ k0_t3 : Fin k0_t3_loop.trips, ∀ a, (k0_off372 k0_t3) a + S1x1x1x16.size a ≤ S2x8x32x128.size a
  k0_off373_inb : ∀ k0_t3 : Fin k0_t3_loop.trips, ∀ a, (k0_off373 k0_t3) a + S1x1x1x16.size a ≤ S2x8x32x128.size a
  k0_off374_inb : ∀ k0_t3 : Fin k0_t3_loop.trips, ∀ a, (k0_off374 k0_t3) a + S1x1x1x16.size a ≤ S2x8x32x128.size a
  k0_off375_inb : ∀ k0_t3 : Fin k0_t3_loop.trips, ∀ a, (k0_off375 k0_t3) a + S1x1x1x16.size a ≤ S2x8x32x128.size a
  k0_off376_inb : ∀ k0_t3 : Fin k0_t3_loop.trips, ∀ a, (k0_off376 k0_t3) a + S1x1x1x16.size a ≤ S2x8x32x128.size a
  k0_off377_inb : ∀ k0_t3 : Fin k0_t3_loop.trips, ∀ a, (k0_off377 k0_t3) a + S1x1x1x16.size a ≤ S2x8x32x128.size a
  k0_off378_inb : ∀ k0_t3 : Fin k0_t3_loop.trips, ∀ a, (k0_off378 k0_t3) a + S1x1x1x16.size a ≤ S2x8x32x128.size a
  k0_off379_inb : ∀ k0_t3 : Fin k0_t3_loop.trips, ∀ a, (k0_off379 k0_t3) a + S1x1x1x16.size a ≤ S2x8x32x128.size a
  k0_off380_inb : ∀ k0_t3 : Fin k0_t3_loop.trips, ∀ a, (k0_off380 k0_t3) a + S1x1x1x16.size a ≤ S2x8x32x128.size a
  k0_off381_inb : ∀ k0_t3 : Fin k0_t3_loop.trips, ∀ a, (k0_off381 k0_t3) a + S1x1x1x16.size a ≤ S2x8x32x128.size a
  k0_off382_inb : ∀ k0_t3 : Fin k0_t3_loop.trips, ∀ a, (k0_off382 k0_t3) a + S1x1x1x16.size a ≤ S2x8x32x128.size a
  k0_off383_inb : ∀ k0_t3 : Fin k0_t3_loop.trips, ∀ a, (k0_off383 k0_t3) a + S1x1x1x16.size a ≤ S2x8x32x128.size a
  k0_off384_inb : ∀ k0_t3 : Fin k0_t3_loop.trips, ∀ a, (k0_off384 k0_t3) a + S1x1x1x16.size a ≤ S2x8x32x128.size a
  k0_off385_inb : ∀ k0_t3 : Fin k0_t3_loop.trips, ∀ a, (k0_off385 k0_t3) a + S1x1x1x16.size a ≤ S2x8x32x128.size a
  k0_off386_inb : ∀ k0_t3 : Fin k0_t3_loop.trips, ∀ a, (k0_off386 k0_t3) a + S1x1x1x16.size a ≤ S2x8x32x128.size a
  k0_off387_inb : ∀ k0_t3 : Fin k0_t3_loop.trips, ∀ a, (k0_off387 k0_t3) a + S1x1x1x16.size a ≤ S2x8x32x128.size a
  k0_off388_inb : ∀ k0_t3 : Fin k0_t3_loop.trips, ∀ a, (k0_off388 k0_t3) a + S1x1x1x16.size a ≤ S2x8x32x128.size a
  k0_off389_inb : ∀ k0_t3 : Fin k0_t3_loop.trips, ∀ a, (k0_off389 k0_t3) a + S1x1x1x16.size a ≤ S2x8x32x128.size a
  k0_off390_inb : ∀ k0_t3 : Fin k0_t3_loop.trips, ∀ a, (k0_off390 k0_t3) a + S1x1x1x16.size a ≤ S2x8x32x128.size a
  k0_off391_inb : ∀ k0_t3 : Fin k0_t3_loop.trips, ∀ a, (k0_off391 k0_t3) a + S1x1x1x16.size a ≤ S2x8x32x128.size a
  k0_off392_inb : ∀ k0_t3 : Fin k0_t3_loop.trips, ∀ a, (k0_off392 k0_t3) a + S1x1x1x16.size a ≤ S2x8x32x128.size a
  k0_off393_inb : ∀ k0_t3 : Fin k0_t3_loop.trips, ∀ a, (k0_off393 k0_t3) a + S1x1x1x16.size a ≤ S2x8x32x128.size a
  k0_off394_inb : ∀ k0_t3 : Fin k0_t3_loop.trips, ∀ a, (k0_off394 k0_t3) a + S1x1x1x16.size a ≤ S2x8x32x128.size a
  k0_off395_inb : ∀ k0_t3 : Fin k0_t3_loop.trips, ∀ a, (k0_off395 k0_t3) a + S1x1x1x16.size a ≤ S2x8x32x128.size a
  k0_off396_inb : ∀ k0_t3 : Fin k0_t3_loop.trips, ∀ a, (k0_off396 k0_t3) a + S1x1x1x16.size a ≤ S2x8x32x128.size a
  k0_off397_inb : ∀ k0_t3 : Fin k0_t3_loop.trips, ∀ a, (k0_off397 k0_t3) a + S1x1x1x16.size a ≤ S2x8x32x128.size a
  k0_off398_inb : ∀ k0_t3 : Fin k0_t3_loop.trips, ∀ a, (k0_off398 k0_t3) a + S1x1x1x16.size a ≤ S2x8x32x128.size a
  k0_off399_inb : ∀ k0_t3 : Fin k0_t3_loop.trips, ∀ a, (k0_off399 k0_t3) a + S1x1x1x16.size a ≤ S2x8x32x128.size a
  k0_off400_inb : ∀ k0_t3 : Fin k0_t3_loop.trips, ∀ a, (k0_off400 k0_t3) a + S1x1x1x16.size a ≤ S2x8x32x128.size a
  k0_off401_inb : ∀ k0_t3 : Fin k0_t3_loop.trips, ∀ a, (k0_off401 k0_t3) a + S1x1x16.size a ≤ S2x8x128.size a
  k0_off402_inb : ∀ k0_t3 : Fin k0_t3_loop.trips, ∀ a, (k0_off402 k0_t3) a + S1x1x1x16.size a ≤ S2x8x32x128.size a
  k0_off403_inb : ∀ k0_t3 : Fin k0_t3_loop.trips, ∀ a, (k0_off403 k0_t3) a + S1x1x1x16.size a ≤ S2x8x32x128.size a
  k0_off404_inb : ∀ k0_t3 : Fin k0_t3_loop.trips, ∀ a, (k0_off404 k0_t3) a + S1x1x1x16.size a ≤ S2x8x32x128.size a
  k0_off405_inb : ∀ k0_t3 : Fin k0_t3_loop.trips, ∀ a, (k0_off405 k0_t3) a + S1x1x1x16.size a ≤ S2x8x32x128.size a
  k0_off406_inb : ∀ k0_t3 : Fin k0_t3_loop.trips, ∀ a, (k0_off406 k0_t3) a + S1x1x1x16.size a ≤ S2x8x32x128.size a
  k0_off407_inb : ∀ k0_t3 : Fin k0_t3_loop.trips, ∀ a, (k0_off407 k0_t3) a + S1x1x1x16.size a ≤ S2x8x32x128.size a
  k0_off408_inb : ∀ k0_t3 : Fin k0_t3_loop.trips, ∀ a, (k0_off408 k0_t3) a + S1x1x1x16.size a ≤ S2x8x32x128.size a
  k0_off409_inb : ∀ k0_t3 : Fin k0_t3_loop.trips, ∀ a, (k0_off409 k0_t3) a + S1x1x1x16.size a ≤ S2x8x32x128.size a
  k0_off410_inb : ∀ k0_t3 : Fin k0_t3_loop.trips, ∀ a, (k0_off410 k0_t3) a + S1x1x1x16.size a ≤ S2x8x32x128.size a
  k0_off411_inb : ∀ k0_t3 : Fin k0_t3_loop.trips, ∀ a, (k0_off411 k0_t3) a + S1x1x1x16.size a ≤ S2x8x32x128.size a
  k0_off412_inb : ∀ k0_t3 : Fin k0_t3_loop.trips, ∀ a, (k0_off412 k0_t3) a + S1x1x1x16.size a ≤ S2x8x32x128.size a
  k0_off413_inb : ∀ k0_t3 : Fin k0_t3_loop.trips, ∀ a, (k0_off413 k0_t3) a + S1x1x1x16.size a ≤ S2x8x32x128.size a
  k0_off414_inb : ∀ k0_t3 : Fin k0_t3_loop.trips, ∀ a, (k0_off414 k0_t3) a + S1x1x1x16.size a ≤ S2x8x32x128.size a
  k0_off415_inb : ∀ k0_t3 : Fin k0_t3_loop.trips, ∀ a, (k0_off415 k0_t3) a + S1x1x1x16.size a ≤ S2x8x32x128.size a
  k0_off416_inb : ∀ k0_t3 : Fin k0_t3_loop.trips, ∀ a, (k0_off416 k0_t3) a + S1x1x1x16.size a ≤ S2x8x32x128.size a
  k0_off417_inb : ∀ k0_t3 : Fin k0_t3_loop.trips, ∀ a, (k0_off417 k0_t3) a + S1x1x1x16.size a ≤ S2x8x32x128.size a
  k0_off418_inb : ∀ k0_t3 : Fin k0_t3_loop.trips, ∀ a, (k0_off418 k0_t3) a + S1x1x1x16.size a ≤ S2x8x32x128.size a
  k0_off419_inb : ∀ k0_t3 : Fin k0_t3_loop.trips, ∀ a, (k0_off419 k0_t3) a + S1x1x1x16.size a ≤ S2x8x32x128.size a
  k0_off420_inb : ∀ k0_t3 : Fin k0_t3_loop.trips, ∀ a, (k0_off420 k0_t3) a + S1x1x1x16.size a ≤ S2x8x32x128.size a
  k0_off421_inb : ∀ k0_t3 : Fin k0_t3_loop.trips, ∀ a, (k0_off421 k0_t3) a + S1x1x1x16.size a ≤ S2x8x32x128.size a
  k0_off422_inb : ∀ k0_t3 : Fin k0_t3_loop.trips, ∀ a, (k0_off422 k0_t3) a + S1x1x1x16.size a ≤ S2x8x32x128.size a
  k0_off423_inb : ∀ k0_t3 : Fin k0_t3_loop.trips, ∀ a, (k0_off423 k0_t3) a + S1x1x1x16.size a ≤ S2x8x32x128.size a
  k0_off424_inb : ∀ k0_t3 : Fin k0_t3_loop.trips, ∀ a, (k0_off424 k0_t3) a + S1x1x1x16.size a ≤ S2x8x32x128.size a
  k0_off425_inb : ∀ k0_t3 : Fin k0_t3_loop.trips, ∀ a, (k0_off425 k0_t3) a + S1x1x1x16.size a ≤ S2x8x32x128.size a
  k0_off426_inb : ∀ k0_t3 : Fin k0_t3_loop.trips, ∀ a, (k0_off426 k0_t3) a + S1x1x1x16.size a ≤ S2x8x32x128.size a
  k0_off427_inb : ∀ k0_t3 : Fin k0_t3_loop.trips, ∀ a, (k0_off427 k0_t3) a + S1x1x1x16.size a ≤ S2x8x32x128.size a
  k0_off428_inb : ∀ k0_t3 : Fin k0_t3_loop.trips, ∀ a, (k0_off428 k0_t3) a + S1x1x1x16.size a ≤ S2x8x32x128.size a
  k0_off429_inb : ∀ k0_t3 : Fin k0_t3_loop.trips, ∀ a, (k0_off429 k0_t3) a + S1x1x1x16.size a ≤ S2x8x32x128.size a
  k0_off430_inb : ∀ k0_t3 : Fin k0_t3_loop.trips, ∀ a, (k0_off430 k0_t3) a + S1x1x1x16.size a ≤ S2x8x32x128.size a
  k0_off431_inb : ∀ k0_t3 : Fin k0_t3_loop.trips, ∀ a, (k0_off431 k0_t3) a + S1x1x1x16.size a ≤ S2x8x32x128.size a
  k0_off432_inb : ∀ k0_t3 : Fin k0_t3_loop.trips, ∀ a, (k0_off432 k0_t3) a + S1x1x1x16.size a ≤ S2x8x32x128.size a
  k0_off433_inb : ∀ k0_t3 : Fin k0_t3_loop.trips, ∀ a, (k0_off433 k0_t3) a + S1x1x1x16.size a ≤ S2x8x32x128.size a
  k0_off434_inb : ∀ k0_t3 : Fin k0_t3_loop.trips, ∀ a, (k0_off434 k0_t3) a + S1x1x16.size a ≤ S2x8x128.size a
  k0_off435_inb : ∀ k0_t3 : Fin k0_t3_loop.trips, ∀ a, (k0_off435 k0_t3) a + S1x1x1x16.size a ≤ S2x8x32x128.size a
  k0_off436_inb : ∀ k0_t3 : Fin k0_t3_loop.trips, ∀ a, (k0_off436 k0_t3) a + S1x1x1x16.size a ≤ S2x8x32x128.size a
  k0_off437_inb : ∀ k0_t3 : Fin k0_t3_loop.trips, ∀ a, (k0_off437 k0_t3) a + S1x1x1x16.size a ≤ S2x8x32x128.size a
  k0_off438_inb : ∀ k0_t3 : Fin k0_t3_loop.trips, ∀ a, (k0_off438 k0_t3) a + S1x1x1x16.size a ≤ S2x8x32x128.size a
  k0_off439_inb : ∀ k0_t3 : Fin k0_t3_loop.trips, ∀ a, (k0_off439 k0_t3) a + S1x1x1x16.size a ≤ S2x8x32x128.size a
  k0_off440_inb : ∀ k0_t3 : Fin k0_t3_loop.trips, ∀ a, (k0_off440 k0_t3) a + S1x1x1x16.size a ≤ S2x8x32x128.size a
  k0_off441_inb : ∀ k0_t3 : Fin k0_t3_loop.trips, ∀ a, (k0_off441 k0_t3) a + S1x1x1x16.size a ≤ S2x8x32x128.size a
  k0_off442_inb : ∀ k0_t3 : Fin k0_t3_loop.trips, ∀ a, (k0_off442 k0_t3) a + S1x1x1x16.size a ≤ S2x8x32x128.size a
  k0_off443_inb : ∀ k0_t3 : Fin k0_t3_loop.trips, ∀ a, (k0_off443 k0_t3) a + S1x1x1x16.size a ≤ S2x8x32x128.size a
  k0_off444_inb : ∀ k0_t3 : Fin k0_t3_loop.trips, ∀ a, (k0_off444 k0_t3) a + S1x1x1x16.size a ≤ S2x8x32x128.size a
  k0_off445_inb : ∀ k0_t3 : Fin k0_t3_loop.trips, ∀ a, (k0_off445 k0_t3) a + S1x1x1x16.size a ≤ S2x8x32x128.size a
  k0_off446_inb : ∀ k0_t3 : Fin k0_t3_loop.trips, ∀ a, (k0_off446 k0_t3) a + S1x1x1x16.size a ≤ S2x8x32x128.size a
  k0_off447_inb : ∀ k0_t3 : Fin k0_t3_loop.trips, ∀ a, (k0_off447 k0_t3) a + S1x1x1x16.size a ≤ S2x8x32x128.size a
  k0_off448_inb : ∀ k0_t3 : Fin k0_t3_loop.trips, ∀ a, (k0_off448 k0_t3) a + S1x1x1x16.size a ≤ S2x8x32x128.size a
  k0_off449_inb : ∀ k0_t3 : Fin k0_t3_loop.trips, ∀ a, (k0_off449 k0_t3) a + S1x1x1x16.size a ≤ S2x8x32x128.size a
  k0_off450_inb : ∀ k0_t3 : Fin k0_t3_loop.trips, ∀ a, (k0_off450 k0_t3) a + S1x1x1x16.size a ≤ S2x8x32x128.size a
  k0_off451_inb : ∀ k0_t3 : Fin k0_t3_loop.trips, ∀ a, (k0_off451 k0_t3) a + S1x1x1x16.size a ≤ S2x8x32x128.size a
  k0_off452_inb : ∀ k0_t3 : Fin k0_t3_loop.trips, ∀ a, (k0_off452 k0_t3) a + S1x1x1x16.size a ≤ S2x8x32x128.size a
  k0_off453_inb : ∀ k0_t3 : Fin k0_t3_loop.trips, ∀ a, (k0_off453 k0_t3) a + S1x1x1x16.size a ≤ S2x8x32x128.size a
  k0_off454_inb : ∀ k0_t3 : Fin k0_t3_loop.trips, ∀ a, (k0_off454 k0_t3) a + S1x1x1x16.size a ≤ S2x8x32x128.size a
  k0_off455_inb : ∀ k0_t3 : Fin k0_t3_loop.trips, ∀ a, (k0_off455 k0_t3) a + S1x1x1x16.size a ≤ S2x8x32x128.size a
  k0_off456_inb : ∀ k0_t3 : Fin k0_t3_loop.trips, ∀ a, (k0_off456 k0_t3) a + S1x1x1x16.size a ≤ S2x8x32x128.size a
  k0_off457_inb : ∀ k0_t3 : Fin k0_t3_loop.trips, ∀ a, (k0_off457 k0_t3) a + S1x1x1x16.size a ≤ S2x8x32x128.size a
  k0_off458_inb : ∀ k0_t3 : Fin k0_t3_loop.trips, ∀ a, (k0_off458 k0_t3) a + S1x1x1x16.size a ≤ S2x8x32x128.size a
  k0_off459_inb : ∀ k0_t3 : Fin k0_t3_loop.trips, ∀ a, (k0_off459 k0_t3) a + S1x1x1x16.size a ≤ S2x8x32x128.size a
  k0_off460_inb : ∀ k0_t3 : Fin k0_t3_loop.trips, ∀ a, (k0_off460 k0_t3) a + S1x1x1x16.size a ≤ S2x8x32x128.size a
  k0_off461_inb : ∀ k0_t3 : Fin k0_t3_loop.trips, ∀ a, (k0_off461 k0_t3) a + S1x1x1x16.size a ≤ S2x8x32x128.size a
  k0_off462_inb : ∀ k0_t3 : Fin k0_t3_loop.trips, ∀ a, (k0_off462 k0_t3) a + S1x1x1x16.size a ≤ S2x8x32x128.size a
  k0_off463_inb : ∀ k0_t3 : Fin k0_t3_loop.trips, ∀ a, (k0_off463 k0_t3) a + S1x1x1x16.size a ≤ S2x8x32x128.size a
  k0_off464_inb : ∀ k0_t3 : Fin k0_t3_loop.trips, ∀ a, (k0_off464 k0_t3) a + S1x1x1x16.size a ≤ S2x8x32x128.size a
  k0_off465_inb : ∀ k0_t3 : Fin k0_t3_loop.trips, ∀ a, (k0_off465 k0_t3) a + S1x1x1x16.size a ≤ S2x8x32x128.size a
  k0_off466_inb : ∀ k0_t3 : Fin k0_t3_loop.trips, ∀ a, (k0_off466 k0_t3) a + S1x1x1x16.size a ≤ S2x8x32x128.size a
  k0_off467_inb : ∀ k0_t3 : Fin k0_t3_loop.trips, ∀ a, (k0_off467 k0_t3) a + S1x1x16.size a ≤ S2x8x128.size a
  k0_off468_inb : ∀ k0_t3 : Fin k0_t3_loop.trips, ∀ a, (k0_off468 k0_t3) a + S1x1x1x16.size a ≤ S2x8x32x128.size a
  k0_off469_inb : ∀ k0_t3 : Fin k0_t3_loop.trips, ∀ a, (k0_off469 k0_t3) a + S1x1x1x16.size a ≤ S2x8x32x128.size a
  k0_off470_inb : ∀ k0_t3 : Fin k0_t3_loop.trips, ∀ a, (k0_off470 k0_t3) a + S1x1x1x16.size a ≤ S2x8x32x128.size a
  k0_off471_inb : ∀ k0_t3 : Fin k0_t3_loop.trips, ∀ a, (k0_off471 k0_t3) a + S1x1x1x16.size a ≤ S2x8x32x128.size a
  k0_off472_inb : ∀ k0_t3 : Fin k0_t3_loop.trips, ∀ a, (k0_off472 k0_t3) a + S1x1x1x16.size a ≤ S2x8x32x128.size a
  k0_off473_inb : ∀ k0_t3 : Fin k0_t3_loop.trips, ∀ a, (k0_off473 k0_t3) a + S1x1x1x16.size a ≤ S2x8x32x128.size a
  k0_off474_inb : ∀ k0_t3 : Fin k0_t3_loop.trips, ∀ a, (k0_off474 k0_t3) a + S1x1x1x16.size a ≤ S2x8x32x128.size a
  k0_off475_inb : ∀ k0_t3 : Fin k0_t3_loop.trips, ∀ a, (k0_off475 k0_t3) a + S1x1x1x16.size a ≤ S2x8x32x128.size a
  k0_off476_inb : ∀ k0_t3 : Fin k0_t3_loop.trips, ∀ a, (k0_off476 k0_t3) a + S1x1x1x16.size a ≤ S2x8x32x128.size a
  k0_off477_inb : ∀ k0_t3 : Fin k0_t3_loop.trips, ∀ a, (k0_off477 k0_t3) a + S1x1x1x16.size a ≤ S2x8x32x128.size a
  k0_off478_inb : ∀ k0_t3 : Fin k0_t3_loop.trips, ∀ a, (k0_off478 k0_t3) a + S1x1x1x16.size a ≤ S2x8x32x128.size a
  k0_off479_inb : ∀ k0_t3 : Fin k0_t3_loop.trips, ∀ a, (k0_off479 k0_t3) a + S1x1x1x16.size a ≤ S2x8x32x128.size a
  k0_off480_inb : ∀ k0_t3 : Fin k0_t3_loop.trips, ∀ a, (k0_off480 k0_t3) a + S1x1x1x16.size a ≤ S2x8x32x128.size a
  k0_off481_inb : ∀ k0_t3 : Fin k0_t3_loop.trips, ∀ a, (k0_off481 k0_t3) a + S1x1x1x16.size a ≤ S2x8x32x128.size a
  k0_off482_inb : ∀ k0_t3 : Fin k0_t3_loop.trips, ∀ a, (k0_off482 k0_t3) a + S1x1x1x16.size a ≤ S2x8x32x128.size a
  k0_off483_inb : ∀ k0_t3 : Fin k0_t3_loop.trips, ∀ a, (k0_off483 k0_t3) a + S1x1x1x16.size a ≤ S2x8x32x128.size a
  k0_off484_inb : ∀ k0_t3 : Fin k0_t3_loop.trips, ∀ a, (k0_off484 k0_t3) a + S1x1x1x16.size a ≤ S2x8x32x128.size a
  k0_off485_inb : ∀ k0_t3 : Fin k0_t3_loop.trips, ∀ a, (k0_off485 k0_t3) a + S1x1x1x16.size a ≤ S2x8x32x128.size a
  k0_off486_inb : ∀ k0_t3 : Fin k0_t3_loop.trips, ∀ a, (k0_off486 k0_t3) a + S1x1x1x16.size a ≤ S2x8x32x128.size a
  k0_off487_inb : ∀ k0_t3 : Fin k0_t3_loop.trips, ∀ a, (k0_off487 k0_t3) a + S1x1x1x16.size a ≤ S2x8x32x128.size a
  k0_off488_inb : ∀ k0_t3 : Fin k0_t3_loop.trips, ∀ a, (k0_off488 k0_t3) a + S1x1x1x16.size a ≤ S2x8x32x128.size a
  k0_off489_inb : ∀ k0_t3 : Fin k0_t3_loop.trips, ∀ a, (k0_off489 k0_t3) a + S1x1x1x16.size a ≤ S2x8x32x128.size a
  k0_off490_inb : ∀ k0_t3 : Fin k0_t3_loop.trips, ∀ a, (k0_off490 k0_t3) a + S1x1x1x16.size a ≤ S2x8x32x128.size a
  k0_off491_inb : ∀ k0_t3 : Fin k0_t3_loop.trips, ∀ a, (k0_off491 k0_t3) a + S1x1x1x16.size a ≤ S2x8x32x128.size a
  k0_off492_inb : ∀ k0_t3 : Fin k0_t3_loop.trips, ∀ a, (k0_off492 k0_t3) a + S1x1x1x16.size a ≤ S2x8x32x128.size a
  k0_off493_inb : ∀ k0_t3 : Fin k0_t3_loop.trips, ∀ a, (k0_off493 k0_t3) a + S1x1x1x16.size a ≤ S2x8x32x128.size a
  k0_off494_inb : ∀ k0_t3 : Fin k0_t3_loop.trips, ∀ a, (k0_off494 k0_t3) a + S1x1x1x16.size a ≤ S2x8x32x128.size a
  k0_off495_inb : ∀ k0_t3 : Fin k0_t3_loop.trips, ∀ a, (k0_off495 k0_t3) a + S1x1x1x16.size a ≤ S2x8x32x128.size a
  k0_off496_inb : ∀ k0_t3 : Fin k0_t3_loop.trips, ∀ a, (k0_off496 k0_t3) a + S1x1x1x16.size a ≤ S2x8x32x128.size a
  k0_off497_inb : ∀ k0_t3 : Fin k0_t3_loop.trips, ∀ a, (k0_off497 k0_t3) a + S1x1x1x16.size a ≤ S2x8x32x128.size a
  k0_off498_inb : ∀ k0_t3 : Fin k0_t3_loop.trips, ∀ a, (k0_off498 k0_t3) a + S1x1x1x16.size a ≤ S2x8x32x128.size a
  k0_off499_inb : ∀ k0_t3 : Fin k0_t3_loop.trips, ∀ a, (k0_off499 k0_t3) a + S1x1x1x16.size a ≤ S2x8x32x128.size a
  k0_off500_inb : ∀ k0_t3 : Fin k0_t3_loop.trips, ∀ a, (k0_off500 k0_t3) a + S1x1x16.size a ≤ S2x8x128.size a
  k0_off501_inb : ∀ k0_t3 : Fin k0_t3_loop.trips, ∀ a, (k0_off501 k0_t3) a + S1x1x1x16.size a ≤ S2x8x32x128.size a
  k0_off502_inb : ∀ k0_t3 : Fin k0_t3_loop.trips, ∀ a, (k0_off502 k0_t3) a + S1x1x1x16.size a ≤ S2x8x32x128.size a
  k0_off503_inb : ∀ k0_t3 : Fin k0_t3_loop.trips, ∀ a, (k0_off503 k0_t3) a + S1x1x1x16.size a ≤ S2x8x32x128.size a
  k0_off504_inb : ∀ k0_t3 : Fin k0_t3_loop.trips, ∀ a, (k0_off504 k0_t3) a + S1x1x1x16.size a ≤ S2x8x32x128.size a
  k0_off505_inb : ∀ k0_t3 : Fin k0_t3_loop.trips, ∀ a, (k0_off505 k0_t3) a + S1x1x1x16.size a ≤ S2x8x32x128.size a
  k0_off506_inb : ∀ k0_t3 : Fin k0_t3_loop.trips, ∀ a, (k0_off506 k0_t3) a + S1x1x1x16.size a ≤ S2x8x32x128.size a
  k0_off507_inb : ∀ k0_t3 : Fin k0_t3_loop.trips, ∀ a, (k0_off507 k0_t3) a + S1x1x1x16.size a ≤ S2x8x32x128.size a
  k0_off508_inb : ∀ k0_t3 : Fin k0_t3_loop.trips, ∀ a, (k0_off508 k0_t3) a + S1x1x1x16.size a ≤ S2x8x32x128.size a
  k0_off509_inb : ∀ k0_t3 : Fin k0_t3_loop.trips, ∀ a, (k0_off509 k0_t3) a + S1x1x1x16.size a ≤ S2x8x32x128.size a
  k0_off510_inb : ∀ k0_t3 : Fin k0_t3_loop.trips, ∀ a, (k0_off510 k0_t3) a + S1x1x1x16.size a ≤ S2x8x32x128.size a
  k0_off511_inb : ∀ k0_t3 : Fin k0_t3_loop.trips, ∀ a, (k0_off511 k0_t3) a + S1x1x1x16.size a ≤ S2x8x32x128.size a
  k0_off512_inb : ∀ k0_t3 : Fin k0_t3_loop.trips, ∀ a, (k0_off512 k0_t3) a + S1x1x1x16.size a ≤ S2x8x32x128.size a
  k0_off513_inb : ∀ k0_t3 : Fin k0_t3_loop.trips, ∀ a, (k0_off513 k0_t3) a + S1x1x1x16.size a ≤ S2x8x32x128.size a
  k0_off514_inb : ∀ k0_t3 : Fin k0_t3_loop.trips, ∀ a, (k0_off514 k0_t3) a + S1x1x1x16.size a ≤ S2x8x32x128.size a
  k0_off515_inb : ∀ k0_t3 : Fin k0_t3_loop.trips, ∀ a, (k0_off515 k0_t3) a + S1x1x1x16.size a ≤ S2x8x32x128.size a
  k0_off516_inb : ∀ k0_t3 : Fin k0_t3_loop.trips, ∀ a, (k0_off516 k0_t3) a + S1x1x1x16.size a ≤ S2x8x32x128.size a
  k0_off517_inb : ∀ k0_t3 : Fin k0_t3_loop.trips, ∀ a, (k0_off517 k0_t3) a + S1x1x1x16.size a ≤ S2x8x32x128.size a
  k0_off518_inb : ∀ k0_t3 : Fin k0_t3_loop.trips, ∀ a, (k0_off518 k0_t3) a + S1x1x1x16.size a ≤ S2x8x32x128.size a
  k0_off519_inb : ∀ k0_t3 : Fin k0_t3_loop.trips, ∀ a, (k0_off519 k0_t3) a + S1x1x1x16.size a ≤ S2x8x32x128.size a
  k0_off520_inb : ∀ k0_t3 : Fin k0_t3_loop.trips, ∀ a, (k0_off520 k0_t3) a + S1x1x1x16.size a ≤ S2x8x32x128.size a
  k0_off521_inb : ∀ k0_t3 : Fin k0_t3_loop.trips, ∀ a, (k0_off521 k0_t3) a + S1x1x1x16.size a ≤ S2x8x32x128.size a
  k0_off522_inb : ∀ k0_t3 : Fin k0_t3_loop.trips, ∀ a, (k0_off522 k0_t3) a + S1x1x1x16.size a ≤ S2x8x32x128.size a
  k0_off523_inb : ∀ k0_t3 : Fin k0_t3_loop.trips, ∀ a, (k0_off523 k0_t3) a + S1x1x1x16.size a ≤ S2x8x32x128.size a
  k0_off524_inb : ∀ k0_t3 : Fin k0_t3_loop.trips, ∀ a, (k0_off524 k0_t3) a + S1x1x1x16.size a ≤ S2x8x32x128.size a
  k0_off525_inb : ∀ k0_t3 : Fin k0_t3_loop.trips, ∀ a, (k0_off525 k0_t3) a + S1x1x1x16.size a ≤ S2x8x32x128.size a
  k0_off526_inb : ∀ k0_t3 : Fin k0_t3_loop.trips, ∀ a, (k0_off526 k0_t3) a + S1x1x1x16.size a ≤ S2x8x32x128.size a
  k0_off527_inb : ∀ k0_t3 : Fin k0_t3_loop.trips, ∀ a, (k0_off527 k0_t3) a + S1x1x1x16.size a ≤ S2x8x32x128.size a
  k0_off528_inb : ∀ k0_t3 : Fin k0_t3_loop.trips, ∀ a, (k0_off528 k0_t3) a + S1x1x1x16.size a ≤ S2x8x32x128.size a
  k0_off529_inb : ∀ k0_t3 : Fin k0_t3_loop.trips, ∀ a, (k0_off529 k0_t3) a + S1x1x1x16.size a ≤ S2x8x32x128.size a
  k0_off530_inb : ∀ k0_t3 : Fin k0_t3_loop.trips, ∀ a, (k0_off530 k0_t3) a + S1x1x1x16.size a ≤ S2x8x32x128.size a
  k0_off531_inb : ∀ k0_t3 : Fin k0_t3_loop.trips, ∀ a, (k0_off531 k0_t3) a + S1x1x1x16.size a ≤ S2x8x32x128.size a
  k0_off532_inb : ∀ k0_t3 : Fin k0_t3_loop.trips, ∀ a, (k0_off532 k0_t3) a + S1x1x1x16.size a ≤ S2x8x32x128.size a
  k0_off533_inb : ∀ k0_t3 : Fin k0_t3_loop.trips, ∀ a, (k0_off533 k0_t3) a + S1x1x16.size a ≤ S2x8x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S10000x128.size a
  hwx1_5 : ∀ i : grid1.Coords, EltTy.bits .f32 = 32 ∨ (Rect.block (s := S10000x128) S2000x128.size (cc1_transform_5 i) (hinb1_5 i)).WholeWords (EltTy.packing .f32)

variable [Facts₀]

abbrev cc0_scratch2 : DmaSems sig S2 := SemArray.consecutive 0 S2 hcc0_scratch2
abbrev cc0_scoped0 : DmaSems sig S_ := SemArray.consecutive 2 S_ hcc0_scoped0
abbrev cc0_scoped1 : DmaSems sig S_ := SemArray.consecutive 3 S_ hcc0_scoped1
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win1_0 : Pipeline.Window sig grid1 :=
  Pipeline.Window.ofSpec (Memref.whole main_v5) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x32x128 : Shape := ⟨3, ![10000, 32, 128]⟩
abbrev S10000x128 : Shape := ⟨2, ![10000, 128]⟩
abbrev S128x256 : Shape := ⟨2, ![128, 256]⟩
abbrev S128 : Shape := ⟨1, ![128]⟩
abbrev S_ : Shape := ⟨0, ![]⟩
abbrev S10000x256 : Shape := ⟨2, ![10000, 256]⟩
abbrev S256x128 : Shape := ⟨2, ![256, 128]⟩
abbrev S1x128 : Shape := ⟨2, ![1, 128]⟩

abbrev nBuf : Space → Nat
  | .hbm => 12
  | .vmem => 0
  | .smem => 0
  | _ => 0

abbrev bufTy : (tb : Table) → Fin (tcTables nBuf tb) → BufTy
  | .hbm, ⟨0, _⟩ => ⟨S10000x32x128, .f32⟩
  | .hbm, ⟨1, _⟩ => ⟨S10000x128, .f32⟩
  | .hbm, ⟨2, _⟩ => ⟨S128x256, .f32⟩
  | .hbm, ⟨3, _⟩ => ⟨S128, .f32⟩
  | .hbm, ⟨4, _⟩ => ⟨S_, .f32⟩
  | .hbm, ⟨5, _⟩ => ⟨S10000x128, .f32⟩
  | .hbm, ⟨6, _⟩ => ⟨S10000x256, .f32⟩
  | .hbm, ⟨7, _⟩ => ⟨S256x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | _, _ => ⟨S10000x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  reducesTo_S10000x32x128_S10000x128_d1 : S10000x32x128.ReducesTo [1] S10000x128
  h_S_ : 0 < S_.numel
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x256_S256x128_S10000x128_1_0_0_1_n_n_wf : DotDims.WF S10000x256 S256x128 S10000x128 [1] [0] [0] [1] [] []

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Bridge.lean ====
/-
  The value bridge, pure mathematics over the extended reals.

  The reference computes, at row n and output column o,
    ( sum over c < 256 of  cat(n, c) * W(o, c) )  +  b(o),
  where cat(n, c) is the minimum over the 32 mailbox rows of mb(n, r, c) for c < 128 (a minimum
  folded from +infinity) and nf(n, c - 128) for c >= 128.  Splitting the sum over 256 at 128 gives
    ( sum over k < 128 of hm(n, k) * W(o, k) )  +  ( sum over k < 128 of nf(n, k) * W(o, 128 + k) )  +  b(o),
  with hm(n, k) the infimum over r of mb(n, r, k).  Only commutativity and associativity of the
  extended reals' addition are used, so no finiteness hypothesis is needed.

  Beside that: a left-nested chain of 31 binary minima over 32 values is their infimum; a transposed
  column block of W read at an index; a vector of 128 entries cast to one row read at an index; and the
  pointwise minimum of two vectors read at an index.
-/
import proofs.«211044_g9509057593726_fold_wed_m_382_5_alg».proof.Proof.Gen.ReferenceIdeal.Read
import Idealize.ShloMosaic.Lib.Pipeline.Value
import Idealize.ShloMosaic.Lib.ValueIdx
import Idealize.ShloMosaic.PureOps.Ideal.Laws

noncomputable section

open scoped BigOperators

namespace Cert.Bridge

open Cert.ReferenceIdeal Cert.ReferenceIdeal.Gen Idealize.ShloMosaic Idealize.ShloMosaic.ValueIdx

/-! ## The pointwise minimum at an index -/

/-- The minimum of two vectors of extended reals, read at an index, is the minimum of the entries. -/
theorem minimumf_apply {S : Shape} {φ : FTy} (x y : FVec Ideal S φ) (j : S.Idx) :
    minimumf x y j = min (x j) (y j) := rfl

/-! ## The two transposed column blocks of W and the bias as one row, read at an index -/

/-- Columns 0 to 127 of W, transposed: entry (k, o) is W (o, k). -/
theorem sliceT_lo_apply (W : (⟨S128x256, .f32⟩ : BufTy).Contents (Elt Ideal))
    (hs : S128x256.Slices ![0, 0] (⟨2, ![128, 128]⟩ : Shape))
    (ht : (⟨2, ![128, 128]⟩ : Shape).Transposes [1, 0] (⟨2, ![128, 128]⟩ : Shape)) (k o : Fin 128) :
    transpose (⟨2, ![128, 128]⟩ : Shape) [1, 0] (extractStridedSlice (⟨2, ![128, 128]⟩ : Shape) ![0, 0] W hs) ht (ix2 k o)
      = W (ix2 o (Fin.castLE (by decide) k)) := by
  refine (transpose_apply [1, 0] (extractStridedSlice (⟨2, ![128, 128]⟩ : Shape) ![0, 0] W hs) ht (ix2 k o) (ix2 o k)
    (fun b => match b with | ⟨0, _⟩ => rfl | ⟨1, _⟩ => rfl)).trans ?_
  exact extractStridedSlice_apply ![0, 0] W hs (ix2 o k) (ix2 o (Fin.castLE (by decide) k))
    (fun a => match a with
      | ⟨0, _⟩ => by show o.val = 0 + o.val; omega
      | ⟨1, _⟩ => by show k.val = 0 + k.val; omega)

/-- Columns 128 to 255 of W, transposed: entry (k, o) is W (o, 128 + k). -/
theorem sliceT_hi_apply (W : (⟨S128x256, .f32⟩ : BufTy).Contents (Elt Ideal))
    (hs : S128x256.Slices ![0, 128] (⟨2, ![128, 128]⟩ : Shape))
    (ht : (⟨2, ![128, 128]⟩ : Shape).Transposes [1, 0] (⟨2, ![128, 128]⟩ : Shape)) (k o : Fin 128) :
    transpose (⟨2, ![128, 128]⟩ : Shape) [1, 0] (extractStridedSlice (⟨2, ![128, 128]⟩ : Shape) ![0, 128] W hs) ht (ix2 k o)
      = W (ix2 o (Fin.natAdd 128 k)) := by
  refine (transpose_apply [1, 0] (extractStridedSlice (⟨2, ![128, 128]⟩ : Shape) ![0, 128] W hs) ht (ix2 k o) (ix2 o k)
    (fun b => match b with | ⟨0, _⟩ => rfl | ⟨1, _⟩ => rfl)).trans ?_
  exact extractStridedSlice_apply ![0, 128] W hs (ix2 o k) (ix2 o (Fin.natAdd 128 k))
    (fun a => match a with
      | ⟨0, _⟩ => by show o.val = 0 + o.val; omega
      | ⟨1, _⟩ => by show 128 + k.val = 128 + k.val; rfl)

/-- The bias cast to one row: entry (0, o) is b o. -/
theorem biasRow_apply (b : (⟨S128, .f32⟩ : BufTy).Contents (Elt Ideal)) (hc : S128.ShapeCasts S1x128) (o : Fin 128) :
    shapeCast S1x128 b hc (ix2 (0 : Fin 1) o) = b (ix1 o) :=
  (shapeCast_addUnit_apply ![128] b hc (ix2 (0 : Fin 1) o)).trans
    (congrArg b (funext fun a => match a with | ⟨0, _⟩ => rfl))

/-! ## A left-nested chain of minima is the infimum -/

/-- Folding the minimum from a along a list of indices gives the minimum of a and the infimum over the list's members. -/
theorem foldl_min_eq {ι : Type} [DecidableEq ι] (x : ι → EReal) (l : List ι) (a : EReal) :
    l.foldl (fun acc r => min acc (x r)) a = min a (l.toFinset.inf x) := by
  induction l generalizing a with
  | nil => simp
  | cons r l ih => rw [List.foldl_cons, ih, List.toFinset_cons, Finset.inf_insert, min_assoc]

/-- Thirty-one minima folded from the first of 32 values, taking the others in order, give the infimum of the 32. -/
theorem chain_eq_inf (x : Fin 32 → EReal) :
    ([1, 2, 3, 4, 5, 6, 7, 8, 9, 10, 11, 12, 13, 14, 15, 16, 17, 18, 19, 20, 21, 22, 23, 24, 25, 26, 27, 28, 29, 30, 31] : List (Fin 32)).foldl (fun acc r => min acc (x r)) (x 0)
      = Finset.univ.inf' Finset.univ_nonempty x := by
  rw [foldl_min_eq, Finset.inf'_eq_inf]
  exact (Finset.inf_insert (s := ([1, 2, 3, 4, 5, 6, 7, 8, 9, 10, 11, 12, 13, 14, 15, 16, 17, 18, 19, 20, 21, 22, 23, 24, 25, 26, 27, 28, 29, 30, 31] : List (Fin 32)).toFinset) (f := x) (b := 0)).symm.trans
    (congrArg (fun s => Finset.inf s x) (Finset.eq_univ_of_forall (by decide)))

/-- The same chain written out: min (… (min (min (x 0) (x 1)) (x 2)) …) (x 31) is the infimum of the 32 values. -/
theorem chain32_eq_inf (x : Fin 32 → EReal) :
    min (min (min (min (min (min (min (min (min (min (min (min (min (min (min (min (min (min (min (min (min (min (min (min (min (min (min (min (min (min (min (x 0) (x 1)) (x 2)) (x 3)) (x 4)) (x 5)) (x 6)) (x 7)) (x 8)) (x 9)) (x 10)) (x 11)) (x 12)) (x 13)) (x 14)) (x 15)) (x 16)) (x 17)) (x 18)) (x 19)) (x 20)) (x 21)) (x 22)) (x 23)) (x 24)) (x 25)) (x 26)) (x 27)) (x 28)) (x 29)) (x 30)) (x 31)
      = Finset.univ.inf' Finset.univ_nonempty x :=
  chain_eq_inf x

/-! ## The reference at an index -/

/-- Result index (n, k) of the reduction over the mailbox axis, with mailbox row r put back, is (n, r, k). -/
theorem lift_ix3 (h : S10000x32x128.Reduces [1] S10000x128) (n : Fin 10000) (k : Fin 128)
    (r : Fin (S10000x32x128.size 1)) : h.lift (ix2 n k) r = ix3 n (⟨r.val, r.isLt⟩ : Fin 32) k := by
  funext c; apply Fin.ext
  fin_cases c <;> rfl

/-- Folded from +∞, the reference's minimum over the 32 mailbox rows is, at (n, k), their infimum. -/
theorem refMin_apply (mb : (⟨S10000x32x128, .f32⟩ : BufTy).Contents (Elt Ideal)) (n : Fin 10000) (k : Fin 128) :
    Host.reduce (FloatOps.minimumf (F := Ideal) (φ := .f32)) mb (constant (F := Ideal) S_ .f32 0x7F800000#32)
        reducesTo_S10000x32x128_S10000x128_d1 h_S_ (ix2 n k)
      = Finset.univ.inf' Finset.univ_nonempty (fun r : Fin 32 => mb (ix3 n r k)) := by
  have h : S10000x32x128.Reduces [1] S10000x128 := by decide
  refine (Host.reduce_eq_fold_single (FloatOps.minimumf (F := Ideal) (φ := .f32)) mb (constant (F := Ideal) S_ .f32 0x7F800000#32)
    reducesTo_S10000x32x128_S10000x128_d1 h h_S_ (ix2 n k)).trans ?_
  rw [Finset.inf'_eq_inf]
  have hf : (mb ∘ h.lift (ix2 n k)) = fun r : Fin 32 => mb (ix3 n r k) := funext fun r => congrArg mb (lift_ix3 h n k r)
  have htop : (constant (F := Ideal) S_ .f32 0x7F800000#32) (Shape.Idx.first h_S_) = (⊤ : EReal) := by
    show Ideal.ofBits .f32 0x7F800000#32 = ⊤
    simp [Ideal.ofBits, Ideal.ieee]
  exact congrArg₂ (fun a f => Finset.fold min a f (Finset.univ : Finset (Fin 32))) htop hf

/-- THE REFERENCE IS THE SPLIT FORM, stated over the reference's last stage. If hm is the infimum over the 32 mailbox rows
    and out is, at (n, o), the sum over k < 128 of hm (n, k) * W (o, k), plus the sum over k < 128 of
    nf (n, k) * W (o, 128 + k), plus b o, then the reference's result is out: the sum over the 256 joined columns splits
    at 128. -/
theorem ref_val_eq (mb : (⟨S10000x32x128, .f32⟩ : BufTy).Contents (Elt Ideal)) (nf : (⟨S10000x128, .f32⟩ : BufTy).Contents (Elt Ideal))
    (W : (⟨S128x256, .f32⟩ : BufTy).Contents (Elt Ideal)) (b : (⟨S128, .f32⟩ : BufTy).Contents (Elt Ideal))
    (hm out : (⟨S10000x128, .f32⟩ : BufTy).Contents (Elt Ideal))
    (hhm : ∀ (n : Fin 10000) (k : Fin 128), hm (ix2 n k) = Finset.univ.inf' Finset.univ_nonempty (fun r : Fin 32 => mb (ix3 n r k)))
    (hout : ∀ (n : Fin 10000) (o : Fin 128), out (ix2 n o)
      = ((∑ k : Fin 128, hm (ix2 n k) * W (ix2 o (Fin.castLE (by decide) k)))
          + (∑ k : Fin 128, nf (ix2 n k) * W (ix2 o (Fin.natAdd 128 k)))) + b (ix1 o)) :
    Read.val_main_v6 (F := Ideal) mb nf W b = out := by
  funext i
  obtain ⟨n, o, rfl⟩ : ∃ (n : Fin 10000) (o : Fin 128), i = ix2 n o := ⟨i 0, i 1, eq_ix2 i⟩
  rw [Read.val_main_v6_apply, Read.val_main_v3_apply, Read.val_main_v5_apply, Read.val_main_v4_apply, hout n o]
  have hb : Read.idx_main_v4 (Read.idx_main_v5 (ix2 n o)) = ix1 o := funext fun a => match a with | ⟨0, _⟩ => rfl
  have hlo : ∀ k : Fin 128,
      Read.val_main_v1 (F := Ideal) mb nf (Read.lidx_main_v3 (ix2 n o) (Fin.castAdd 128 k))
          * Read.val_main_v2 (F := Ideal) W (Read.ridx_main_v3 (ix2 n o) (Fin.castAdd 128 k))
        = hm (ix2 n k) * W (ix2 o (Fin.castLE (by decide) k)) := fun k => by
    refine congrArg₂ (· * ·) ?_ ?_
    · exact (concatenate_pair_apply_left (1 : Fin S10000x256.rank) _ nf concatenates_S10000x128_S10000x128_S10000x256_d1
          (Read.lidx_main_v3 (ix2 n o) (Fin.castAdd 128 k)) rfl (ix2 n k)
          (fun c => match c with | ⟨0, _⟩ => rfl | ⟨1, _⟩ => rfl)).trans ((refMin_apply mb n k).trans (hhm n k).symm)
    · exact (Read.val_main_v2_apply W _).trans (congrArg W (funext fun a => match a with | ⟨0, _⟩ => rfl | ⟨1, _⟩ => rfl))
  have hhi : ∀ k : Fin 128,
      Read.val_main_v1 (F := Ideal) mb nf (Read.lidx_main_v3 (ix2 n o) (Fin.natAdd 128 k))
          * Read.val_main_v2 (F := Ideal) W (Read.ridx_main_v3 (ix2 n o) (Fin.natAdd 128 k))
        = nf (ix2 n k) * W (ix2 o (Fin.natAdd 128 k)) := fun k => by
    refine congrArg₂ (· * ·) ?_ ?_
    · exact concatenate_pair_apply_right (1 : Fin S10000x256.rank) _ nf concatenates_S10000x128_S10000x128_S10000x256_d1
          (Read.lidx_main_v3 (ix2 n o) (Fin.natAdd 128 k)) rfl rfl (ix2 n k)
          (fun c => match c with | ⟨0, _⟩ => fun _ => rfl | ⟨1, _⟩ => fun hne => absurd rfl hne)
          (by show k.val + 128 = 128 + k.val; omega)
    · exact (Read.val_main_v2_apply W _).trans (congrArg W (funext fun a => match a with | ⟨0, _⟩ => rfl | ⟨1, _⟩ => rfl))
  rw [hb]
  show (∑ k : Fin 256, _) + b (ix1 o) = _
  refine congrArg (· + b (ix1 o)) ?_
  refine (Fin.sum_univ_add (M := EReal) (fun k : Fin (128 + 128) =>
    Read.val_main_v1 (F := Ideal) mb nf (Read.lidx_main_v3 (ix2 n o) k) * Read.val_main_v2 (F := Ideal) W (Read.ridx_main_v3 (ix2 n o) k))).trans ?_
  exact congrArg₂ (· + ·) (Finset.sum_congr rfl fun k _ => hlo k) (Finset.sum_congr rfl fun k _ => hhi k)

/-- The same, stated over the composed term the reference's run names for its result. -/
theorem ref_eq (mb : (⟨S10000x32x128, .f32⟩ : BufTy).Contents (Elt Ideal)) (nf : (⟨S10000x128, .f32⟩ : BufTy).Contents (Elt Ideal))
    (W : (⟨S128x256, .f32⟩ : BufTy).Contents (Elt Ideal)) (b : (⟨S128, .f32⟩ : BufTy).Contents (Elt Ideal))
    (hm out : (⟨S10000x128, .f32⟩ : BufTy).Contents (Elt Ideal))
    (hhm : ∀ (n : Fin 10000) (k : Fin 128), hm (ix2 n k) = Finset.univ.inf' Finset.univ_nonempty (fun r : Fin 32 => mb (ix3 n r k)))
    (hout : ∀ (n : Fin 10000) (o : Fin 128), out (ix2 n o)
      = ((∑ k : Fin 128, hm (ix2 n k) * W (ix2 o (Fin.castLE (by decide) k)))
          + (∑ k : Fin 128, nf (ix2 n k) * W (ix2 o (Fin.natAdd 128 k)))) + b (ix1 o)) :
    addf (Host.dotGeneral (F := Ideal) (φ₁ := .f32) (φ₂ := .f32) dot_S10000x256_S256x128_S10000x128_1_0_0_1_n_n none (concatenate S10000x256 1 [⟨S10000x128, (Host.reduce (FloatOps.minimumf (F := Ideal) (φ := .f32)) mb (constant (F := Ideal) S_ .f32 0x7F800000#32) reducesTo_S10000x32x128_S10000x128_d1 h_S_)⟩, ⟨S10000x128, nf⟩] concatenates_S10000x128_S10000x128_S10000x256_d1) (transpose S256x128 [1, 0] W transposes_S128x256_S256x128_1_0)) (broadcastInDim S10000x128 ![0, 1] bcast_S1x128_S10000x128_0_1 (broadcastInDim S1x128 ![1] bcast_S128_S1x128_1 b))
      = out :=
  (Read.val_main_v6_eq (F := Ideal) mb nf W b).trans (ref_val_eq mb nf W b hm out hhm hout)

end Cert.Bridge

end
-- ==== Proof.KI.Common.lean ====
/-
  The idealized kernel program as the SparseCore launch theorem reads it: one vector-subcore call (two SparseCores,
  sixteen tiles each) followed by one TensorCore pipeline, and the resource algebra the whole run is stated in —
  the launch handshakes' rounds, the pipeline's staging cells' rounds, and the local transfers' counters.
-/
import Idealize.ShloMosaic.Lib.SparseCore.Launch
import Idealize.ShloMosaic.Lib.StableHlo.Run
import Idealize.ShloMosaic.Lib.Pipeline.Kit
import Idealize.ShloMosaic.Lib.Tactic
import proofs.«211044_g9509057593726_fold_wed_m_382_5_alg».proof.Proof.Gen.KernelIdeal
import proofs.«211044_g9509057593726_fold_wed_m_382_5_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipeline's staging cells' rounds. -/
abbrev UP : Type := URounds (GSem nD τ sig) Unit
/-- Handshakes, then the pipeline's cells beside the local transfers' counters. -/
abbrev UU : Type := UH × (UP × Counters)

abbrev EH : Emb UH (MT nD τ sig (HIx 1) (Elt F) ℕ UU ℕ) := embL

/-! ## The arrays, as locations of a device -/

/-- The neighbour mailbox (argument 0), the per-node minimum (the SparseCore call's result) and the final result. -/
abbrev mbLoc (d : Dev nD) : Loc nD τ sig := (SparseCore.T d).loc main_arg0
abbrev hmLoc (d : Dev nD) : Loc nD τ sig := (SparseCore.T d).loc main_v5
abbrev outLoc (d : Dev nD) : Loc nD τ sig := (SparseCore.T d).loc main_v6

end Cert.Proof.KI

end
-- ==== Proof.KI.RegionBody.lean ====
/-
  The TensorCore kernel's body on whole staging memrefs. It loads the two row blocks, the two weight matrices and
  the bias row through whole-buffer rectangles, multiplies each row block by its matrix, adds the two products and
  the bias row broadcast over the rows, and stores the sum over the whole result buffer. What it leaves there is
  therefore one closed function of what it read: the canon of that single covering store.
-/
import Idealize.ShloMosaic.Lib.Pipeline.FrameBody
import Idealize.ShloMosaic.Lib.Tactic
import proofs.«211044_g9509057593726_fold_wed_m_382_5_alg».proof.Proof.KI.Common

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The body's accesses: each buffer whole -/

/-- A row block, whole. -/
abbrev rRows : Rect S2000x128 := Rect.unit (s := S2000x128) ![0, 0] S2000x128.size inb_S2000x128_S2000x128_0_0
/-- A weight matrix, whole. -/
abbrev rSq : Rect S128x128 := Rect.unit (s := S128x128) ![0, 0] S128x128.size inb_S128x128_S128x128_0_0
/-- The bias row, whole. -/
abbrev rBias : Rect S1x128 := Rect.unit (s := S1x128) ![0, 0] S1x128.size inb_S1x128_S1x128_0_0

/-! ## What the body leaves in the result's buffer -/

/-- The result block from the row blocks `x`, `y`, the matrices `a`, `b` and the bias row `β`:
    `(x · a + y · b) + β` broadcast over the rows, laid over the whole buffer. -/
def linBlock (x y : Vec F S2000x128 .f32) (a b : Vec F S128x128 .f32) (β : Vec F S1x128 .f32) : Vec F S2000x128 .f32 :=
  View.canon [⟨rRows, k1_pay1 (View.ld x rRows) (View.ld a rSq) (View.ld y rRows) (View.ld b rSq) (View.ld β rBias)⟩]

/-- The one store covers the buffer. -/
theorem linBlock_cover (p : Vec F S2000x128 .f32) (y : S2000x128.Idx) :
    ∃ pc ∈ ([⟨rRows, p⟩] : List (View.Piece (Elt F) S2000x128 .f32)), y ∈ pc.1.set :=
  View.cover_of_tiled [⟨rRows, p⟩] S2000x128.size (by rfl) y

/-! ## The body's triple -/

set_option maxHeartbeats 1000000 in
/-- On whole staging memrefs holding `x`, `y`, `a`, `b`, `β` and anything in the result's, the body runs to its
    continuation with the five inputs as they were and the result's buffer at `linBlock` of them. -/
theorem lin_kernel (c : Dev nD) (E : Set ℕ) (i : grid1.Coords)
    (m0 : Memref sig .tc .vmem S2000x128 .f32) (h0 : m0.IsWhole) (m1 : Memref sig .tc .vmem S2000x128 .f32) (h1 : m1.IsWhole)
    (m2 : Memref sig .tc .vmem S128x128 .f32) (h2 : m2.IsWhole) (m3 : Memref sig .tc .vmem S128x128 .f32) (h3 : m3.IsWhole)
    (m4 : Memref sig .tc .vmem S1x128 .f32) (h4 : m4.IsWhole) (m5 : Memref sig .tc .vmem S2000x128 .f32) (h5 : m5.IsWhole)
    (x y : Vec F S2000x128 .f32) (a b : Vec F S128x128 .f32) (β : Vec F S1x128 .f32) (Kont : PUnit → sProp 𝕄) :
    iprop(owns (c : Thread nD τ) m0 fullShare x ∗ owns (c : Thread nD τ) m1 fullShare y ∗ owns (c : Thread nD τ) m2 fullShare a
        ∗ owns (c : Thread nD τ) m3 fullShare b ∗ owns (c : Thread nD τ) m4 fullShare β ∗ (∃ z, owns (c : Thread nD τ) m5 fullShare z)
        ∗ (iprop(owns (c : Thread nD τ) m0 fullShare x ∗ owns (c : Thread nD τ) m1 fullShare y ∗ owns (c : Thread nD τ) m2 fullShare a
            ∗ owns (c : Thread nD τ) m3 fullShare b ∗ owns (c : Thread nD τ) m4 fullShare β
            ∗ owns (c : Thread nD τ) m5 fullShare (linBlock x y a b β)) -∗ Kont ⟨⟩))
      ⊢ wp frame (wpE (defs₀ (F := F)) Variants.none c none) E (cc1__lin_body i m0 h0 m1 h1 m2 h2 m3 h3 m4 h4 m5 h5) Kont := by
  simp only [cc1__lin_body_eq_skeleton]; unfold cc1__lin_body_skel
  unfold owns
  iintro ⟨⟨%f0, %e0, H0⟩, ⟨%f1, %e1, H1⟩, ⟨%f2, %e2, H2⟩, ⟨%f3, %e3, H3⟩, ⟨%f4, %e4, H4⟩, ⟨%z, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (linBlock_cover _)

end Cert.Proof.KI

end
-- ==== Proof.KI.Region.lean ====
/-
  The TensorCore pipeline of the program, as a region entered from the TensorCore thread's state after the
  vector-subcore call: the staging cells' launch element and what it funds, the proof data of the pipeline (each
  input's buffer left at its block, the result's at the body's sum of products), the body obligation at every
  point, and the region's step from the operands' arrays to the result array written block by block.
-/
import Idealize.ShloMosaic.Lib.Pipeline.Regions
import proofs.«211044_g9509057593726_fold_wed_m_382_5_alg».proof.Proof.Gen.KernelIdeal.Launch
import proofs.«211044_g9509057593726_fold_wed_m_382_5_alg».proof.Proof.Gen.KernelIdeal.Points
import proofs.«211044_g9509057593726_fold_wed_m_382_5_alg».proof.Proof.KI.RegionBody

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The staging cells' share of the launch element -/

/-- The staging cells' rounds sit in the middle factor of the algebra. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-- The rounds library's launch element at the pipeline's staging cells and the transfers its loop issues. -/
def uP₀ : UP := initOf (Pipeline.cells (nD := nD) (τ := τ) cfgs cellOf_inj) (Pipeline.launchToks (nD := nD) (τ := τ) cfgs cellOf_inj)

/-- What the region needs of it on device `d`: each staging cell's launch state, and the loop's duty tokens. -/
def GP (d : Dev nD) : sProp 𝕄 :=
  iprop(Pipeline.cellsGhost cfgs EP 0 d ∗ Pipeline.toksInit cfgs EP 0 d)

theorem bigSep_P {M : Type} [URA M] (Φ : Fin 1 → sProp M) : bigSep Finset.univ Φ = Φ 0 :=
  bigSep_univ_eq_bigSepL [(0 : Fin 1)] (by decide) (by decide) Φ

theorem fundP : (BI.own (EP uP₀) : sProp 𝕄) ⊢ iprop(|==> bigSep Finset.univ fun d : Dev nD => GP d) := by
  unfold GP uP₀
  refine (Pipeline.fund_ghost (Ix := HIx 1) (Val := Elt F) (Name := ℕ) (U := UU) (Lvl := ℕ) cfgs EP cellOf_inj).trans ?_
  simp only [bigSep_P, bigSep_sep']
  exact BI.Entails.refl _

/-! ## The proof data -/

section Data

variable (hm nf : (⟨S10000x128, .f32⟩ : BufTy).Contents (Elt F)) (w1 w3 : (⟨S128x128, .f32⟩ : BufTy).Contents (Elt F))
  (b4 : (⟨S1x128, .f32⟩ : BufTy).Contents (Elt F)) (f : (⟨S10000x128, .f32⟩ : BufTy).Contents (Elt F))

/-- The six windowed arrays as the region finds them: the per-node minimum, the node features, the two weight
    matrices, the bias row, and the result array at whatever it held. -/
def linA (c : Dev nD) : (w : Fin cfg1.W) → Buf (Elt F) ((cfg1.win w).arr.view.loc (c.tc : Thread nD τ))
  | ⟨0, _⟩ => hm
  | ⟨1, _⟩ => nf
  | ⟨2, _⟩ => w1
  | ⟨3, _⟩ => w3
  | ⟨4, _⟩ => b4
  | ⟨5, _⟩ => f

/-- Window `w`'s block of its array at point `t`. -/
def linBlk (c : Dev nD) (w : Fin cfg1.W) (t : Fin cfg1.N) : ((cfg1.win w).xblock (cfg1.grid.coords t)).Idx → Elt F (cfg1.win w).elt :=
  ((cfg1.win w).blk t).view.read (Elt F) (linA hm nf w1 w3 b4 f c w)

/-- The pipeline's proof data: every input's buffer left at its block, the result's at the body's sum of products
    of the blocks; nothing kept between points, nothing owed, and every wait the thread has recorded at a level no later call
    of the launch protocol reaches. -/
def linDat (c : Dev nD) : Dat τ (Elt F) (HIx 1) ℕ UU ℕ cfg1 c where
  A := linA hm nf w1 w3 b4 f c
  after w t := match w with
    | ⟨0, _⟩ => linBlk hm nf w1 w3 b4 f c 0 t
    | ⟨1, _⟩ => linBlk hm nf w1 w3 b4 f c 1 t
    | ⟨2, _⟩ => linBlk hm nf w1 w3 b4 f c 2 t
    | ⟨3, _⟩ => linBlk hm nf w1 w3 b4 f c 3 t
    | ⟨4, _⟩ => linBlk hm nf w1 w3 b4 f c 4 t
    | ⟨5, _⟩ => linBlock (linBlk hm nf w1 w3 b4 f c 0 t) (linBlk hm nf w1 w3 b4 f c 1 t) (linBlk hm nf w1 w3 b4 f c 2 t)
        (linBlk hm nf w1 w3 b4 f c 3 t) (linBlk hm nf w1 w3 b4 f c 4 t)
  Φ _ := BI.emp
  q _ := fullShare
  owed _ := 0
  recorded _ := {p | (K (F := F)).lev ((c.tc : Thread nD τ), p.1) p.2 ≤ 8}

theorem linDat_A (c : Dev nD) (w : Fin cfg1.W) : (linDat hm nf w1 w3 b4 f c).A w = linA hm nf w1 w3 b4 f c w := by dsimp only [linDat]

theorem after_0 (c : Dev nD) (t : Fin cfg1.N) : (linDat hm nf w1 w3 b4 f c).after 0 t = linBlk hm nf w1 w3 b4 f c 0 t := by dsimp only [linDat]
theorem after_1 (c : Dev nD) (t : Fin cfg1.N) : (linDat hm nf w1 w3 b4 f c).after 1 t = linBlk hm nf w1 w3 b4 f c 1 t := by dsimp only [linDat]
theorem after_2 (c : Dev nD) (t : Fin cfg1.N) : (linDat hm nf w1 w3 b4 f c).after 2 t = linBlk hm nf w1 w3 b4 f c 2 t := by dsimp only [linDat]
theorem after_3 (c : Dev nD) (t : Fin cfg1.N) : (linDat hm nf w1 w3 b4 f c).after 3 t = linBlk hm nf w1 w3 b4 f c 3 t := by dsimp only [linDat]
theorem after_4 (c : Dev nD) (t : Fin cfg1.N) : (linDat hm nf w1 w3 b4 f c).after 4 t = linBlk hm nf w1 w3 b4 f c 4 t := by dsimp only [linDat]
theorem after_5 (c : Dev nD) (t : Fin cfg1.N) : (linDat hm nf w1 w3 b4 f c).after 5 t
    = linBlock (linBlk hm nf w1 w3 b4 f c 0 t) (linBlk hm nf w1 w3 b4 f c 1 t) (linBlk hm nf w1 w3 b4 f c 2 t)
        (linBlk hm nf w1 w3 b4 f c 3 t) (linBlk hm nf w1 w3 b4 f c 4 t) := by dsimp only [linDat]

/-- An input window's buffer holds its block at every point, whether the pipeline fetched it there or its block
    index has not moved since it did: window 0, -/
theorem before_0 (c : Dev nD) (t : Fin cfg1.N) (d) : (linDat hm nf w1 w3 b4 f c).before 0 t d = linBlk hm nf w1 w3 b4 f c 0 t := by
  refine ((linDat hm nf w1 w3 b4 f c).before_in_eq_fetched 0 rfl (fun _ => rfl) (fun _ _ _ => rfl) (fun t => ?_) t d).trans ?_
  · rw [after_0]; rfl
  · rfl

theorem before_1 (c : Dev nD) (t : Fin cfg1.N) (d) : (linDat hm nf w1 w3 b4 f c).before 1 t d = linBlk hm nf w1 w3 b4 f c 1 t := by
  refine ((linDat hm nf w1 w3 b4 f c).before_in_eq_fetched 1 rfl (fun _ => rfl) (fun _ _ _ => rfl) (fun t => ?_) t d).trans ?_
  · rw [after_1]; rfl
  · rfl
theorem before_2 (c : Dev nD) (t : Fin cfg1.N) (d) : (linDat hm nf w1 w3 b4 f c).before 2 t d = linBlk hm nf w1 w3 b4 f c 2 t := by
  refine ((linDat hm nf w1 w3 b4 f c).before_in_eq_fetched 2 rfl (fun _ => rfl) (fun _ _ _ => rfl) (fun t => ?_) t d).trans ?_
  · rw [after_2]; rfl
  · rfl
theorem before_3 (c : Dev nD) (t : Fin cfg1.N) (d) : (linDat hm nf w1 w3 b4 f c).before 3 t d = linBlk hm nf w1 w3 b4 f c 3 t := by
  refine ((linDat hm nf w1 w3 b4 f c).before_in_eq_fetched 3 rfl (fun _ => rfl) (fun _ _ _ => rfl) (fun t => ?_) t d).trans ?_
  · rw [after_3]; rfl
  · rfl
theorem before_4 (c : Dev nD) (t : Fin cfg1.N) (d) : (linDat hm nf w1 w3 b4 f c).before 4 t d = linBlk hm nf w1 w3 b4 f c 4 t := by
  refine ((linDat hm nf w1 w3 b4 f c).before_in_eq_fetched 4 rfl (fun _ => rfl) (fun _ _ _ => rfl) (fun t => ?_) t d).trans ?_
  · rw [after_4]; rfl
  · rfl

/-! ## The body obligation -/

/-- The body at a point `t`, on the windows' current staging buffers: the five inputs' hold their blocks, so the
    body's triple applies; nothing else is read. -/
theorem lin_point (c : Dev nD) (t : Fin cfg1.N) :
    iprop((linDat hm nf w1 w3 b4 f c).Φ t.castSucc ∗ (linDat hm nf w1 w3 b4 f c).owesAt none t.castSucc
        ∗ (∃ d, owns (c : Thread nD τ) (st1_0 t) fullShare ((linDat hm nf w1 w3 b4 f c).before 0 t d))
        ∗ (∃ d, owns (c : Thread nD τ) (st1_1 t) fullShare ((linDat hm nf w1 w3 b4 f c).before 1 t d))
        ∗ (∃ d, owns (c : Thread nD τ) (st1_2 t) fullShare ((linDat hm nf w1 w3 b4 f c).before 2 t d))
        ∗ (∃ d, owns (c : Thread nD τ) (st1_3 t) fullShare ((linDat hm nf w1 w3 b4 f c).before 3 t d))
        ∗ (∃ d, owns (c : Thread nD τ) (st1_4 t) fullShare ((linDat hm nf w1 w3 b4 f c).before 4 t d))
        ∗ (∃ d, owns (c : Thread nD τ) (st1_5 t) fullShare ((linDat hm nf w1 w3 b4 f c).before 5 t d)))
      ⊢ wp frame (wpE (defs₀ (F := F)) Variants.none c none) Set.univ (bodyAt1 t) (fun _ =>
          iprop((linDat hm nf w1 w3 b4 f c).Φ t.succ ∗ (linDat hm nf w1 w3 b4 f c).owesAt none t.succ
            ∗ owns (c : Thread nD τ) (st1_0 t) fullShare ((linDat hm nf w1 w3 b4 f c).after 0 t)
            ∗ owns (c : Thread nD τ) (st1_1 t) fullShare ((linDat hm nf w1 w3 b4 f c).after 1 t)
            ∗ owns (c : Thread nD τ) (st1_2 t) fullShare ((linDat hm nf w1 w3 b4 f c).after 2 t)
            ∗ owns (c : Thread nD τ) (st1_3 t) fullShare ((linDat hm nf w1 w3 b4 f c).after 3 t)
            ∗ owns (c : Thread nD τ) (st1_4 t) fullShare ((linDat hm nf w1 w3 b4 f c).after 4 t)
            ∗ owns (c : Thread nD τ) (st1_5 t) fullShare ((linDat hm nf w1 w3 b4 f c).after 5 t))) := by
  simp only [before_0, before_1, before_2, before_3, before_4]
  rw [show (linDat hm nf w1 w3 b4 f c).Φ t.succ = (linDat hm nf w1 w3 b4 f c).Φ t.castSucc from rfl,
    show (linDat hm nf w1 w3 b4 f c).owesAt none t.succ = (linDat hm nf w1 w3 b4 f c).owesAt none t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  unfold bodyAt1
  iapply (lin_kernel c Set.univ _ _ _ _ _ _ _ _ _ _ _ _ _ (linBlk hm nf w1 w3 b4 f c 0 t) (linBlk hm nf w1 w3 b4 f c 1 t)
    (linBlk hm nf w1 w3 b4 f c 2 t) (linBlk hm nf w1 w3 b4 f c 3 t) (linBlk hm nf w1 w3 b4 f c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem lin_obligation (c : Dev nD) :
    BodyObligation (linDat hm nf w1 w3 b4 f c) (defs₀ (F := F)) Variants.none (none : HIx 1) Set.univ := fun t => by
  rw [bigSep_W1, bigSep_W1]
  exact lin_point hm nf w1 w3 b4 f c t

end Data

/-! ## The region -/

section Region

variable (hm nf : (⟨S10000x128, .f32⟩ : BufTy).Contents (Elt F)) (w1 w3 : (⟨S128x128, .f32⟩ : BufTy).Contents (Elt F))
  (b4 : (⟨S1x128, .f32⟩ : BufTy).Contents (Elt F)) (f : (⟨S10000x128, .f32⟩ : BufTy).Contents (Elt F))

/-- No pipeline has a prefetched table. -/
abbrev adm : (p : Fin 1) → (pcfgs (F := F) p).Adm := fun p => (cfgs p).toPCfg_adm

/-- The one pipeline's proof data. -/
def pdats (p : Fin 1) (c : Dev nD) : Dat τ (Elt F) (HIx 1) ℕ UU ℕ (Pipeline.pin (pcfgs (F := F)) adm p) c :=
  linDat hm nf w1 w3 b4 f c

theorem bigSep_none {M : Type} [URA M] (Φ : Fin 0 → sProp M) : bigSep Finset.univ Φ = (BI.emp : sProp M) :=
  bigSep_univ_eq_bigSepL [] (by decide) (by decide) Φ

theorem prefHeld_emp (c : Dev nD) (q) (pf) :
    (Pipeline.prefHeld (Ix := HIx 1) (Name := ℕ) (U := UU) (Lvl := ℕ) (Val := Elt F) (pcfgs (F := F) 0).pre c q pf : sProp 𝕄) = BI.emp :=
  bigSep_none _

/-- The six arrays of the region on device `c`, the result's at `g`. -/
def linArrays (c : Dev nD) (g : (⟨S10000x128, .f32⟩ : BufTy).Contents (Elt F)) : sProp 𝕄 :=
  iprop((((c.tc : Thread nD τ).loc main_v5) ↦{fullShare} hm) ∗ (((c.tc : Thread nD τ).loc main_arg1) ↦{fullShare} nf)
    ∗ (((c.tc : Thread nD τ).loc main_v1) ↦{fullShare} w1) ∗ (((c.tc : Thread nD τ).loc main_v3) ↦{fullShare} w3)
    ∗ (((c.tc : Thread nD τ).loc main_v4) ↦{fullShare} b4) ∗ (((c.tc : Thread nD τ).loc main_v6) ↦{fullShare} g))

/-- The result array after every block has been written back. -/
def linOut (c : Dev nD) : (⟨S10000x128, .f32⟩ : BufTy).Contents (Elt F) := (linDat hm nf w1 w3 b4 f c).arrAt 5 cfg1.N

theorem share_full (c : Dev nD) (w : Fin cfg1.W) : (linDat hm nf w1 w3 b4 f c).share w = fullShare :=
  (linDat hm nf w1 w3 b4 f c).share_full (fun _ => rfl) w

/-- The pipeline's arrays at contents that agree with the six operands' are the six arrays. -/
theorem arrays_open (c : Dev nD) (G : (w : Fin cfg1.W) → Buf (Elt F) ((cfg1.win w).arr.view.loc (c.tc : Thread nD τ)))
    (g : (⟨S10000x128, .f32⟩ : BufTy).Contents (Elt F))
    (h0 : G 0 = hm) (h1 : G 1 = nf) (h2 : G 2 = w1) (h3 : G 3 = w3) (h4 : G 4 = b4) (h5 : G 5 = g) :
    ((pdats hm nf w1 w3 b4 f 0 c).arrays G : sProp 𝕄) = linArrays hm nf w1 w3 b4 c g := by
  rw [Pipeline.arrays_eq (Pipeline.pin (pcfgs (F := F)) adm) (pdats hm nf w1 w3 b4 f) 0 c arr_whole1 (share_full hm nf w1 w3 b4 f c) G, bigSep_W1,
    h0, h1, h2, h3, h4, h5]
  rfl

/-- The thread's state around the region on device `c`: owing nothing, its recorded waits at levels no later call
    reaches, and the six arrays, the result's at `g`. -/
def segSt (c : Dev nD) (g : (⟨S10000x128, .f32⟩ : BufTy).Contents (Elt F)) : sProp 𝕄 :=
  iprop((∃ W, ⌜(K (F := F)).WBelow (c.tc : Thread nD τ) W 8⌝ ∗ owes (c : Thread nD τ) (0 : CellTallies nD τ sig (HIx 1)) W)
    ∗ linArrays hm nf w1 w3 b4 c g)

/-- The region: entered with the six arrays and the thread owing nothing, left with the result array written. -/
def linSeg : Pipeline.RegionSeg (pcfgs (F := F)) adm (pdats hm nf w1 w3 b4 f) (none : HIx 1) defs₀ 𝒱₀
    (SparseCore.Cfg.L (nD := nD) (K (F := F))) (SparseCore.Cfg.lev (nD := nD) (K (F := F))) 0 where
  win := winFacts1.to₀
  block_pos := block_pos1
  stage_whole := stage_whole1
  K := PEmpty
  osem k := k.elim
  ho := Pipeline.OwnSemFacts.none _
  hbody c := (lin_obligation hm nf w1 w3 b4 f c).loose
  hwaits := Pipeline.hwaits_of_owed_zero _ _ _ _ _ _ 0 fun _ _ => rfl
  pre c := segSt hm nf w1 w3 b4 c f
  post c := segSt hm nf w1 w3 b4 c (linOut hm nf w1 w3 b4 f c)
  X _ := BI.emp
  Y _ := BI.emp
  Z _ := BI.emp
  hentry c := by
    rw [Pipeline.ownSems0_none, prefHeld_emp, arrays_open hm nf w1 w3 b4 f c _ f rfl rfl rfl rfl rfl rfl]
    unfold segSt
    iintro ⟨⟨⟨%W, %hW, HO⟩, Ha⟩, -, -⟩
    imodintro
    isplitl [Ha]; · iexact Ha
    isplitr; · iempintro
    isplitl [HO]
    · unfold Pipeline.Dat.owesAt Pipeline.owesWithin
      iexists W; isplitr; · ipureintro; exact fun p hp => Or.inl (hW p (Finset.mem_coe.mp hp))
      iexact HO
    isplitr <;> iempintro
  hin c := by
    rw [show (pdats hm nf w1 w3 b4 f 0 c).Φ 0 = BI.emp from rfl]
    iintro -; iempintro
  hout c := by
    rw [show (pdats hm nf w1 w3 b4 f 0 c).Φ (Fin.last _) = BI.emp from rfl, Pipeline.ownSems0_none, scopedRest1_eq]
    iintro -
    isplitr; · iempintro
    isplitr <;> iempintro
  hexit c := by
    rw [arrays_open hm nf w1 w3 b4 f c _ (linOut hm nf w1 w3 b4 f c)
      ((linDat hm nf w1 w3 b4 f c).arrAt_in 0 rfl _) ((linDat hm nf w1 w3 b4 f c).arrAt_in 1 rfl _) ((linDat hm nf w1 w3 b4 f c).arrAt_in 2 rfl _)
      ((linDat hm nf w1 w3 b4 f c).arrAt_in 3 rfl _) ((linDat hm nf w1 w3 b4 f c).arrAt_in 4 rfl _) rfl]
    unfold segSt
    iintro ⟨Ha, HO, -, -⟩
    imodintro
    isplitl [HO]
    · unfold Pipeline.Dat.owesAt Pipeline.owesWithin
      icases HO with ⟨%W, %hW, HO⟩
      iexists W; isplitr
      · ipureintro; intro p hp
        rcases hW (Finset.mem_coe.mpr hp) with h | ⟨w, s, rfl⟩
        · exact h
        · exact Nat.zero_le _
      iexact HO
    iexact Ha

/-! ## The region's step on the TensorCore thread -/

/-- What the pipeline leaves in the result array `out`, given the operands: the array some contents `f` become
    when each point's block — the body's sum of products of the operands' blocks there — is written back in turn. -/
def LinSpec (out : (⟨S10000x128, .f32⟩ : BufTy).Contents (Elt F)) : Prop :=
  ∃ (f : (⟨S10000x128, .f32⟩ : BufTy).Contents (Elt F)) (c : Dev nD), out = linOut hm nf w1 w3 b4 f c

/-- After the one vector-subcore call the TensorCore owes no later call anything: its state is the thread owing
    nothing, its recorded waits bounded, beside the handshake positions. -/
theorem tcSt_one (d : Dev nD) : ∃ R : sProp 𝕄, (K (F := F)).tcSt EH d 1
    = iprop((∃ W, ⌜(K (F := F)).WBelow (SparseCore.T d) W 8⌝ ∗ owes (SparseCore.T d) (0 : CellTallies nD τ sig (HIx 1)) W) ∗ R) := by
  unfold SparseCore.Cfg.tcSt
  rw [(K (F := F)).Otc_end d (le_refl 1)]
  exact ⟨_, rfl⟩

/-- The pipeline's custom call, as @main spells it. -/
abbrev regionCall : Prog (TpuEff nD τ sig (Elt F) (SparseCore.Sig (ΛP (F := F)) 1) .tc) PUnit :=
  Prog.lift (.customCall (SparseCore.inner (Pipeline.entry 0)) ())

/-- The pipeline's custom call on the TensorCore thread of `d`, after the vector-subcore call: from the thread's
    state, the staging cells' launch state, the region boundary and the six arrays, to the same with the result
    array at what the pipeline writes. -/
theorem region_wp (κ : GSem nD τ sig → ℕ) (d : Dev nD) (P : (K (F := F)).Pay (nD := nD) (Val := Elt F) (Name := ℕ) (U := UU)) :
    iprop((K (F := F)).ctx EH P κ ∗ (K (F := F)).tcSt EH d 1 ∗ GP d ∗ boundary (SparseCore.T d)
        ∗ (hmLoc d ↦{fullShare} hm) ∗ ((SparseCore.T d).loc main_arg1 ↦{fullShare} nf) ∗ ((SparseCore.T d).loc main_v1 ↦{fullShare} w1)
        ∗ ((SparseCore.T d).loc main_v3 ↦{fullShare} w3) ∗ ((SparseCore.T d).loc main_v4 ↦{fullShare} b4) ∗ ∃ g : (⟨S10000x128, .f32⟩ : BufTy).Contents (Elt F), outLoc d ↦{fullShare} g)
      ⊢ wp frame (wpE ((K (F := F)).defs (D (F := F))) 𝒱 (SparseCore.T d) none) Set.univ
          (regionCall (F := F)) fun _ =>
          iprop((K (F := F)).tcSt EH d 1 ∗ boundary (SparseCore.T d)
            ∗ (hmLoc d ↦{fullShare} hm) ∗ ((SparseCore.T d).loc main_arg1 ↦{fullShare} nf) ∗ ((SparseCore.T d).loc main_v1 ↦{fullShare} w1)
            ∗ ((SparseCore.T d).loc main_v3 ↦{fullShare} w3) ∗ ((SparseCore.T d).loc main_v4 ↦{fullShare} b4)
            ∗ ∃ out : (⟨S10000x128, .f32⟩ : BufTy).Contents (Elt F), (outLoc d ↦{fullShare} out) ∗ ⌜LinSpec hm nf w1 w3 b4 out⌝) := by
  obtain ⟨R, hR⟩ := tcSt_one (F := F) d
  rw [hR]
  unfold GP
  iintro ⟨#Hctx, ⟨⟨%W, %hW, HO⟩, HR⟩, ⟨Hg, Ht⟩, Hbd, Hhm, Hnf, Hw1, Hw3, Hb4, ⟨%g, Hout⟩⟩
  ihave Hlev := (SparseCore.Cfg.ctx_levAts κ) $$ Hctx
  iapply ((K (F := F)).wp_liftProg (D (F := F)) 𝒱 (SparseCore.T d) Set.univ none (Prog.lift (.customCall (Pipeline.entry 0) ())) _)
  iapply (Pipeline.RegionSeg.wp (pcfgs (F := F)) adm (pdats hm nf w1 w3 b4 g) (none : HIx 1) cellOf_inj EP defs₀ 𝒱₀
    (SparseCore.Cfg.L (nD := nD) (K (F := F))) (SparseCore.Cfg.lev (nD := nD) (K (F := F))) (linSeg hm nf w1 w3 b4 g) d none
    (fun _ h => absurd h (Option.not_mem_none _)) (fun x => .ret x) _)
  rw [show (linSeg hm nf w1 w3 b4 g).post d = segSt hm nf w1 w3 b4 d (linOut hm nf w1 w3 b4 g d) from rfl,
    show (linSeg hm nf w1 w3 b4 g).pre d = segSt hm nf w1 w3 b4 d g from rfl]
  unfold segSt linArrays
  isplitl [HR]
  · iintro ⟨Hbd, ⟨⟨%W', %hW', HO⟩, Ha⟩⟩
    rw [wp_ret]; imodintro
    icases Ha with ⟨Hhm, Hnf, Hw1, Hw3, Hb4, Hout⟩
    isplitl [HO HR]
    · isplitl [HO]
      · iexists W'; isplitr; · ipureintro; exact hW'
        iexact HO
      iexact HR
    isplitl [Hbd]; · iexact Hbd
    isplitl [Hhm]; · iexact Hhm
    isplitl [Hnf]; · iexact Hnf
    isplitl [Hw1]; · iexact Hw1
    isplitl [Hw3]; · iexact Hw3
    isplitl [Hb4]; · iexact Hb4
    iexists (linOut hm nf w1 w3 b4 g d)
    isplitl [Hout]; · iexact Hout
    ipureintro; exact ⟨g, d, rfl⟩
  isplitl [Hbd]; · iexact Hbd
  isplitl [HO Hhm Hnf Hw1 Hw3 Hb4 Hout]
  · isplitl [HO]
    · iexists W; isplitr; · ipureintro; exact hW
      iexact HO
    isplitl [Hhm]; · iexact Hhm
    isplitl [Hnf]; · iexact Hnf
    isplitl [Hw1]; · iexact Hw1
    isplitl [Hw3]; · iexact Hw3
    isplitl [Hb4]; · iexact Hb4
    iexact Hout
  isplitr; · iexact Hlev
  isplitl [Hg]; · iexact Hg
  iexact Ht

end Region

end Cert.Proof.KI

end
-- ==== Proof.KI.RegionValue.lean ====
/-
  The pipeline's result at the ideal values, index by index: the result array is, at row `n` and column `o`, the
  sum over `k` of the per-node minimum's row times the first weight matrix's column, plus the same of the node
  features and the second matrix, plus the bias at `o`. First the body's arithmetic on one block, then each input
  block read where the result's block sits in its array, then the blocks' cover of the array.
-/
import Idealize.ShloMosaic.PureOps.Ideal.Laws
import Idealize.ShloMosaic.Lib.ValueIdx
import Idealize.ShloMosaic.Lib.Pipeline.Value
import proofs.«211044_g9509057593726_fold_wed_m_382_5_alg».proof.Proof.KI.Region

set_option maxRecDepth 16384

noncomputable section

namespace Cert.Proof.KI

open Cert.KernelIdeal Cert.KernelIdeal.Gen
open Idealize.ShloMosaic Idealize.ShloMosaic.TcCoe Idealize.ShloMosaic.ValueIdx
open Idealize.ShloMosaic.SparseCore.Cfg (HIx)
open Idealize.SL
open Idealize.ShloMosaic.Pipeline (Dat)
open scoped BigOperators

/-! ## The result as one function of the operands -/

/-- Row `n`, column `o` of the result: `(Σₖ hm[n,k]·w1[k,o] + Σₖ nf[n,k]·w3[k,o]) + b4[0,o]`. -/
def linG (hm nf : (⟨S10000x128, .f32⟩ : BufTy).Contents (Elt Ideal)) (w1 w3 : (⟨S128x128, .f32⟩ : BufTy).Contents (Elt Ideal))
    (b4 : (⟨S1x128, .f32⟩ : BufTy).Contents (Elt Ideal)) : (⟨S10000x128, .f32⟩ : BufTy).Contents (Elt Ideal) := fun i =>
  ((∑ k : Fin 128, hm (ix2 (⟨(i 0).val, (i 0).isLt⟩ : Fin 10000) k) * w1 (ix2 k (⟨(i 1).val, (i 1).isLt⟩ : Fin 128)))
    + (∑ k : Fin 128, nf (ix2 (⟨(i 0).val, (i 0).isLt⟩ : Fin 10000) k) * w3 (ix2 k (⟨(i 1).val, (i 1).isLt⟩ : Fin 128))))
    + b4 (ix2 (0 : Fin 1) (⟨(i 1).val, (i 1).isLt⟩ : Fin 128))

/-! ## The body's arithmetic on one block -/

/-- The contraction's operand indices at output index `i` and contraction index `k`: the row block's is
    (row of `i`, `k`), the matrix's (`k`, column of `i`). -/
theorem dot_lhs_0 (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem dot_lhs_1 (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k
theorem dot_rhs_0 (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k
theorem dot_rhs_1 (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The matrix unit's contraction of a row block with a matrix, as a sum over the shared axis. -/
theorem dot_sum (x : Vec Ideal S2000x128 .f32) (a : Vec Ideal S128x128 .f32) (p : Fin 2000) (q : Fin 128) :
    (∑ k : dot_S2000x128_S128x128_S2000x128_1_0_0_1_n_n.contr.Idx,
        x (dot_S2000x128_S128x128_S2000x128_1_0_0_1_n_n.lhsIdx (ix2 p q) k) * a (dot_S2000x128_S128x128_S2000x128_1_0_0_1_n_n.rhsIdx (ix2 p q) k))
      = ∑ k : Fin 128, x (ix2 p k) * a (ix2 k q) := by
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact dot_lhs_0 _ _
      | ⟨1, _⟩ => exact (dot_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (dot_rhs_0 _ _).trans hk
      | ⟨1, _⟩ => exact dot_rhs_1 _ _)
  rw [el, er]

/-- The body's payload at row `p`, column `q` of the block. -/
theorem pay_apply (x y : Vec Ideal S2000x128 .f32) (a b : Vec Ideal S128x128 .f32) (β : Vec Ideal S1x128 .f32) (p : Fin 2000) (q : Fin 128) :
    k1_pay1 (F := Ideal) x a y b β (ix2 p q)
      = ((∑ k : Fin 128, x (ix2 p k) * a (ix2 k q)) + (∑ k : Fin 128, y (ix2 p k) * b (ix2 k q))) + β (ix2 (0 : Fin 1) q) := by
  have h1 : matmul (φ₁ := .f32) (φ₂ := .f32) dot_S2000x128_S128x128_S2000x128_1_0_0_1_n_n none (x : FVec Ideal S2000x128 .f32) (a : FVec Ideal S128x128 .f32)
        (constant (F := Ideal) S2000x128 .f32 0x00000000#32) (ix2 p q)
      = ∑ k : Fin 128, x (ix2 p k) * a (ix2 k q) :=
    (Ideal.matmul_constant_zero_apply (φ₁ := .f32) (φ₂ := .f32) dot_S2000x128_S128x128_S2000x128_1_0_0_1_n_n none (x : FVec Ideal S2000x128 .f32) (a : FVec Ideal S128x128 .f32) (ix2 p q)).trans (dot_sum x a p q)
  have h2 : matmul (φ₁ := .f32) (φ₂ := .f32) dot_S2000x128_S128x128_S2000x128_1_0_0_1_n_n none (y : FVec Ideal S2000x128 .f32) (b : FVec Ideal S128x128 .f32)
        (constant (F := Ideal) S2000x128 .f32 0x00000000#32) (ix2 p q)
      = ∑ k : Fin 128, y (ix2 p k) * b (ix2 k q) :=
    (Ideal.matmul_constant_zero_apply (φ₁ := .f32) (φ₂ := .f32) dot_S2000x128_S128x128_S2000x128_1_0_0_1_n_n none (y : FVec Ideal S2000x128 .f32) (b : FVec Ideal S128x128 .f32) (ix2 p q)).trans (dot_sum y b p q)
  have h3 : broadcastTo S2000x128 (β : FVec Ideal S1x128 .f32) broadcasts_S1x128_S2000x128 (ix2 p q) = β (ix2 (0 : Fin 1) q) :=
    broadcastTo_apply (β : FVec Ideal S1x128 .f32) broadcasts_S1x128_S2000x128 (ix2 p q) (ix2 (0 : Fin 1) q) (fun a => by
      match a with
      | ⟨0, _⟩ => rfl
      | ⟨1, _⟩ => rfl)
  unfold k1_pay1
  simp only [shapeCast_self]
  rw [ValueIdx.addf_apply, ValueIdx.addf_apply, h1, h2, h3]

/-! ## From the blocks to the array -/

section Blocks

variable (hm nf : (⟨S10000x128, .f32⟩ : BufTy).Contents (Elt Ideal)) (w1 w3 : (⟨S128x128, .f32⟩ : BufTy).Contents (Elt Ideal))
  (b4 : (⟨S1x128, .f32⟩ : BufTy).Contents (Elt Ideal)) (f : (⟨S10000x128, .f32⟩ : BufTy).Contents (Elt Ideal))

theorem zero_offsets : (![0, 0] : Fin 2 → Nat) = fun _ => 0 := funext fun a => by fin_cases a <;> rfl

/-- The printed index maps over the grid: the two row-block inputs and the result move down the rows with the
    point, the matrices and the bias row stay. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block is a row of the array. -/
theorem row_lt (t : Fin cfg1.N) (p : Fin 2000) : t.val * 2000 + p.val < 10000 := by
  have h5 : t.val < 5 := lt_of_lt_of_eq t.isLt N_1
  have := p.isLt; omega

/-- Each input's block at point `t`, read at a coordinate of the block, is the array at the block's place. -/
theorem blk0_apply (c : Dev nD) (t : Fin cfg1.N) (p : Fin 2000) (k : Fin 128) :
    linBlk (F := Ideal) hm nf w1 w3 b4 f c 0 t (ix2 p k) = hm (ix2 (⟨t.val * 2000 + p.val, row_lt t p⟩ : Fin 10000) k) := by
  obtain ⟨e00, e01, e10, e11, e20, e21, e30, e31, e40, e41, e50, e51⟩ := index_facts t
  show hm (((cfg1.win 0).blk t).view.emb (ix2 p k)) = _
  refine congrArg hm (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega
theorem blk1_apply (c : Dev nD) (t : Fin cfg1.N) (p : Fin 2000) (k : Fin 128) :
    linBlk (F := Ideal) hm nf w1 w3 b4 f c 1 t (ix2 p k) = nf (ix2 (⟨t.val * 2000 + p.val, row_lt t p⟩ : Fin 10000) k) := by
  obtain ⟨e00, e01, e10, e11, e20, e21, e30, e31, e40, e41, e50, e51⟩ := index_facts t
  show nf (((cfg1.win 1).blk t).view.emb (ix2 p k)) = _
  refine congrArg nf (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega
theorem blk2_apply (c : Dev nD) (t : Fin cfg1.N) (k : Fin 128) (q : Fin 128) :
    linBlk (F := Ideal) hm nf w1 w3 b4 f c 2 t (ix2 k q) = w1 (ix2 k q) := by
  obtain ⟨e00, e01, e10, e11, e20, e21, e30, e31, e40, e41, e50, e51⟩ := index_facts t
  show w1 (((cfg1.win 2).blk t).view.emb (ix2 k q)) = _
  refine congrArg w1 (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega
theorem blk3_apply (c : Dev nD) (t : Fin cfg1.N) (k : Fin 128) (q : Fin 128) :
    linBlk (F := Ideal) hm nf w1 w3 b4 f c 3 t (ix2 k q) = w3 (ix2 k q) := by
  obtain ⟨e00, e01, e10, e11, e20, e21, e30, e31, e40, e41, e50, e51⟩ := index_facts t
  show w3 (((cfg1.win 3).blk t).view.emb (ix2 k q)) = _
  refine congrArg w3 (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega
theorem blk4_apply (c : Dev nD) (t : Fin cfg1.N) (q : Fin 128) :
    linBlk (F := Ideal) hm nf w1 w3 b4 f c 4 t (ix2 (0 : Fin 1) q) = b4 (ix2 (0 : Fin 1) q) := by
  obtain ⟨e00, e01, e10, e11, e20, e21, e30, e31, e40, e41, e50, e51⟩ := index_facts t
  show b4 (((cfg1.win 4).blk t).view.emb (ix2 (0 : Fin 1) q)) = _
  refine congrArg b4 (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The result's function at row `p`, column `q` of point `t`'s block of the result array. -/
theorem linG_blk (t : Fin cfg1.N) (p : Fin 2000) (q : Fin 128) :
    linG hm nf w1 w3 b4 (((cfg1.win 5).blk t).view.emb (ix2 p q))
      = ((∑ k : Fin 128, hm (ix2 (⟨t.val * 2000 + p.val, row_lt t p⟩ : Fin 10000) k) * w1 (ix2 k q))
          + (∑ k : Fin 128, nf (ix2 (⟨t.val * 2000 + p.val, row_lt t p⟩ : Fin 10000) k) * w3 (ix2 k q))) + b4 (ix2 (0 : Fin 1) q) := by
  obtain ⟨e00, e01, e10, e11, e20, e21, e30, e31, e40, e41, e50, e51⟩ := index_facts t
  have r0 : (⟨((((cfg1.win 5).blk t).view.emb (ix2 p q)) 0).val, ((((cfg1.win 5).blk t).view.emb (ix2 p q)) 0).isLt⟩ : Fin 10000)
      = ⟨t.val * 2000 + p.val, row_lt t p⟩ :=
    Fin.ext (by show win1_5.index t (0 : Fin 2) * 2000 + 1 * p.val = t.val * 2000 + p.val; omega)
  have r1 : (⟨((((cfg1.win 5).blk t).view.emb (ix2 p q)) 1).val, ((((cfg1.win 5).blk t).view.emb (ix2 p q)) 1).isLt⟩ : Fin 128) = q :=
    Fin.ext (by show win1_5.index t (1 : Fin 2) * 128 + 1 * q.val = q.val; omega)
  unfold linG
  rw [r0, r1]

/-- What point `t` writes back is block `t` of the result's function of the operands. -/
theorem flushed_eq (c : Dev nD) (t : Fin cfg1.N) :
    (linDat (F := Ideal) hm nf w1 w3 b4 f c).flushed 5 t = ((cfg1.win 5).blk t).view.read (Elt Ideal) (linG hm nf w1 w3 b4) := by
  show (cfg1.win 5).cut (grid1.coords t) ((linDat (F := Ideal) hm nf w1 w3 b4 f c).after 5 t) = _
  rw [after_5]
  unfold linBlock
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  show k1_pay1 (F := Ideal) (linBlk hm nf w1 w3 b4 f c 0 t) (linBlk hm nf w1 w3 b4 f c 2 t) (linBlk hm nf w1 w3 b4 f c 1 t)
      (linBlk hm nf w1 w3 b4 f c 3 t) (linBlk hm nf w1 w3 b4 f c 4 t) (ix2 p q)
    = linG hm nf w1 w3 b4 (((cfg1.win 5).blk t).view.emb (ix2 p q))
  rw [pay_apply, linG_blk]
  simp only [blk0_apply, blk1_apply, blk2_apply, blk3_apply, blk4_apply]

/-- An index of the result array is in point `t`'s block iff each coordinate is in the block's range. -/
theorem mem_blk (t : Fin cfg1.N) (i : S10000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v6).slice (win1_5.rect t)).set ↔ _
  rw [View.set_slice_whole, Rect.mem_set_unit]
  exact Iff.rfl

/-- The blocks cover the array: row `r` lies in the block of point `r / 2000`. -/
theorem covered (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  have ht : (i 0).val / 2000 < cfg1.N := by show _ < grid1.N; rw [N_1]; omega
  obtain ⟨e00, e01, e10, e11, e20, e21, e30, e31, e40, e41, e50, e51⟩ := index_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [e51]; omega

/-- The result array after every write-back is the result's function of the operands, whatever it held. -/
theorem linOut_eq (c : Dev nD) : linOut (F := Ideal) hm nf w1 w3 b4 f c = linG hm nf w1 w3 b4 :=
  (linDat (F := Ideal) hm nf w1 w3 b4 f c).arrAt_eq_of_cover 5 (linG hm nf w1 w3 b4) (fun t _ => flushed_eq hm nf w1 w3 b4 f c t) covered

/-- THE RESULT, index by index. -/
theorem linSpec_apply {out : (⟨S10000x128, .f32⟩ : BufTy).Contents (Elt Ideal)} (h : LinSpec (F := Ideal) hm nf w1 w3 b4 out)
    (n : Fin 10000) (o : Fin 128) :
    out (ix2 n o) = ((∑ k : Fin 128, hm (ix2 n k) * w1 (ix2 k o)) + (∑ k : Fin 128, nf (ix2 n k) * w3 (ix2 k o))) + b4 (ix2 (0 : Fin 1) o) := by
  obtain ⟨g, c, rfl⟩ := h
  rw [linOut_eq]
  rfl

end Blocks

end Cert.Proof.KI

end
-- ==== Proof.KI.Chain.lean ====
/-
  The per-node minimum as a tile computes it, stated once: the left-nested chain of thirty-two minima, one store's
  sixteen lanes of one node as a piece written into the output staging buffer, and what "the first rows are done" means.
-/
import proofs.«211044_g9509057593726_fold_wed_m_382_5_alg».proof.Proof.KI.Common
import Idealize.ShloMosaic.Lib.Writes
import Idealize.ShloMosaic.Lib.ValueIdx

noncomputable section

namespace Cert.Proof.KI

open Cert.KernelIdeal Cert.KernelIdeal.Gen Idealize.ShloMosaic Idealize.ShloMosaic.ValueIdx

variable {F : FTy → Type} [FloatOps F]

/-- The minimum of thirty-two scalars as the kernel nests it: `min (… (min (min x₀ x₁) x₂) …) x₃₁`. -/
def chainMin (x : Fin 32 → F .f32) : F .f32 :=
  (List.finRange 32).tail.foldl (fun acc r => FloatOps.minimumf acc (x r)) (x 0)

/-- The same chain on sixteen-lane vectors, written out. -/
def minChain32 (a0 a1 a2 a3 a4 a5 a6 a7 a8 a9 a10 a11 a12 a13 a14 a15 a16 a17 a18 a19 a20 a21 a22 a23 a24 a25 a26 a27 a28 a29 a30 a31 : FVec F S16 .f32) : FVec F S16 .f32 :=
  minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (a0) a1) a2) a3) a4) a5) a6) a7) a8) a9) a10) a11) a12) a13) a14) a15) a16) a17) a18) a19) a20) a21) a22) a23) a24) a25) a26) a27) a28) a29) a30) a31

/-- The chain on vectors given as a family. -/
def minChainV (v : Fin 32 → FVec F S16 .f32) : FVec F S16 .f32 :=
  minChain32 (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31)

/-- One store of a node's trip: sixteen lanes of the output staging buffer at `offS`, holding the chain over the
    thirty-two sixteen-lane loads of the input staging buffer at `offL r`. -/
def pieceOf (fbuf : (⟨S2x8x32x128, .f32⟩ : BufTy).Contents (Elt F))
    (offL : Fin 32 → Fin 4 → ℕ) (hL : ∀ r a, offL r a + S1x1x1x16.size a ≤ S2x8x32x128.size a)
    (offS : Fin 3 → ℕ) (hS : ∀ a, offS a + S1x1x16.size a ≤ S2x8x128.size a) : View.Piece (Elt F) S2x8x128 .f32 :=
  ⟨Rect.unit (s := S2x8x128) offS S1x1x16.size hS,
    shapeCast S1x1x16 (minChainV fun r => shapeCast S16
      ((Memref.whole cc0_scratch0 : Memref sig .scVector .vmem S2x8x32x128 .f32).view.readAt (Elt F)
        (Rect.unit (s := S2x8x32x128) (offL r) S1x1x1x16.size (hL r)).toLoadRect fbuf) shapeCasts_S1x1x1x16_S16) shapeCasts_S16_S1x1x16⟩

/-- A trip's eight stores, the last first (as a list of writes is kept). -/
def piecesOf (fbuf : (⟨S2x8x32x128, .f32⟩ : BufTy).Contents (Elt F))
    (offL : Fin 8 → Fin 32 → Fin 4 → ℕ) (hL : ∀ cc r a, offL cc r a + S1x1x1x16.size a ≤ S2x8x32x128.size a)
    (offS : Fin 8 → Fin 3 → ℕ) (hS : ∀ cc a, offS cc a + S1x1x16.size a ≤ S2x8x128.size a) : List (View.Piece (Elt F) S2x8x128 .f32) :=
  [pieceOf fbuf (offL 7) (hL 7) (offS 7) (hS 7), pieceOf fbuf (offL 6) (hL 6) (offS 6) (hS 6),
   pieceOf fbuf (offL 5) (hL 5) (offS 5) (hS 5), pieceOf fbuf (offL 4) (hL 4) (offS 4) (hS 4),
   pieceOf fbuf (offL 3) (hL 3) (offS 3) (hS 3), pieceOf fbuf (offL 2) (hL 2) (offS 2) (hS 2),
   pieceOf fbuf (offL 1) (hL 1) (offS 1) (hS 1), pieceOf fbuf (offL 0) (hL 0) (offS 0) (hS 0)]

/-- Rows `0 ‥ n` of slot `b` of the output staging buffer hold the chains over the matching rows of slot `b` of the
    input staging buffer. -/
def RowsOK (b : Fin 2) (n : ℕ) (fbuf : (⟨S2x8x32x128, .f32⟩ : BufTy).Contents (Elt F))
    (fo : (⟨S2x8x128, .f32⟩ : BufTy).Contents (Elt F)) : Prop :=
  ∀ n' : Fin 8, n'.val < n → ∀ c : Fin 128, fo (ix3 b n' c) = chainMin fun r => fbuf (ix4 b n' r c)

end Cert.Proof.KI

end
-- ==== Proof.KI.TripValue.lean ====
/-
  One node's trip through the tile's loop, as a step on the output staging buffer: the trip's eight stores write the
  eight sixteen-lane column blocks of row (b, n); each lane holds the left-nested chain of minima over the thirty-two
  neighbour rows of the input staging buffer at that lane; rows written by earlier trips are not touched.  So if the
  first n rows of slot b hold their chains before the trip, the first n + 1 do after it.
-/
import proofs.«211044_g9509057593726_fold_wed_m_382_5_alg».proof.Proof.KI.Chain
import Idealize.ShloMosaic.Lib.Writes
import Idealize.ShloMosaic.Lib.ValueIdx
import Idealize.ShloMosaic.Lib.Pipeline.Value

noncomputable section

namespace Cert.Proof.KI

open Cert.KernelIdeal Cert.KernelIdeal.Gen Idealize.ShloMosaic Idealize.ShloMosaic.ValueIdx

variable {F : FTy → Type} [FloatOps F]

/-! ## The chain on vectors, lane by lane -/

/-- The neighbours after the first, in order. -/
theorem finRange_tail : (List.finRange 32).tail = ([1, 2, 3, 4, 5, 6, 7, 8, 9, 10, 11, 12, 13, 14, 15, 16, 17, 18, 19, 20, 21, 22, 23, 24, 25, 26, 27, 28, 29, 30, 31] : List (Fin 32)) := by decide

/-- A lane of the chain on vectors is the chain of the vectors' entries at that lane. -/
theorem minChainV_apply (v : Fin 32 → FVec F S16 .f32) (j : S16.Idx) : minChainV v j = chainMin fun r => v r j := by
  unfold chainMin
  rw [finRange_tail]
  rfl

/-! ## One store's payload -/

/-- The chain over the thirty-two neighbour rows at an entry of the output staging buffer's shape. -/
def rowChain (fbuf : (⟨S2x8x32x128, .f32⟩ : BufTy).Contents (Elt F)) (y : S2x8x128.Idx) : F .f32 :=
  chainMin fun r => fbuf (ix4 (y 0 : Fin 2) (y 1 : Fin 8) r (y 2 : Fin 128))

theorem rowChain_ix3 (fbuf : (⟨S2x8x32x128, .f32⟩ : BufTy).Contents (Elt F)) (b : Fin 2) (n : Fin 8) (c : Fin 128) :
    rowChain fbuf (ix3 b n c) = chainMin fun r => fbuf (ix4 b n r c) := rfl

/-- The store of column block cc of row (b, n) holds, at each of its own entries, the chain at the entry of the
    buffer it is written to. -/
theorem pieceOf_apply (b : Fin 2) (n : Fin 8) (cc : Fin 8) (fbuf : (⟨S2x8x32x128, .f32⟩ : BufTy).Contents (Elt F))
    (offL : Fin 32 → Fin 4 → ℕ) (hL : ∀ r a, offL r a + S1x1x1x16.size a ≤ S2x8x32x128.size a)
    (offS : Fin 3 → ℕ) (hS : ∀ a, offS a + S1x1x16.size a ≤ S2x8x128.size a)
    (eL : ∀ r, offL r = ![b.val, n.val, r.val, 16 * cc.val]) (eS : offS = ![b.val, n.val, 16 * cc.val])
    (x : (pieceOf fbuf offL hL offS hS).1.shape.Idx) :
    (pieceOf fbuf offL hL offS hS).2 x = rowChain fbuf ((pieceOf fbuf offL hL offS hS).1.emb x) := by
  obtain rfl : offL = fun r => ![b.val, n.val, r.val, 16 * cc.val] := funext eL
  subst eS
  obtain ⟨x0, x1, x2, rfl⟩ : ∃ (x0 : Fin 1) (x1 : Fin 1) (x2 : Fin 16), x = ix3 x0 x1 x2 := ⟨x 0, x 1, x 2, eq_ix3 x⟩
  obtain rfl : x0 = 0 := Subsingleton.elim _ _
  obtain rfl : x1 = 0 := Subsingleton.elim _ _
  show shapeCast S1x1x16 (minChainV fun r => shapeCast S16
      ((Memref.whole cc0_scratch0 : Memref sig .scVector .vmem S2x8x32x128 .f32).view.readAt (Elt F)
        (Rect.unit (s := S2x8x32x128) ![b.val, n.val, r.val, 16 * cc.val] S1x1x1x16.size (hL r)).toLoadRect fbuf) shapeCasts_S1x1x1x16_S16) shapeCasts_S16_S1x1x16 (ix3 (0 : Fin 1) (0 : Fin 1) x2) = _
  refine (shapeCast_apply _ shapeCasts_S16_S1x1x16 (ix3 (0 : Fin 1) (0 : Fin 1) x2) (ix1 x2) ?_).trans ?_
  · rw [Shape.rowMajor_val_one, Shape.rowMajor_val_three]
    show x2.val = ((0 : ℕ) * 1 + 0) * 16 + x2.val
    omega
  rw [minChainV_apply]
  unfold rowChain
  refine congrArg chainMin (funext fun r => ?_)
  refine (shapeCast_apply _ shapeCasts_S1x1x1x16_S16 (ix1 x2) (ix4 (0 : Fin 1) (0 : Fin 1) (0 : Fin 1) x2) ?_).trans ?_
  · rw [Shape.rowMajor_val_four, Shape.rowMajor_val_one]
    show (((0 : ℕ) * 1 + 0) * 1 + 0) * 16 + x2.val = x2.val
    omega
  rw [View.readAt_apply]
  show fbuf _ = fbuf _
  refine congrArg fbuf (funext fun a => Fin.ext ?_)
  match a with
  | ⟨0, _⟩ => show b.val + 1 * 0 = b.val + 1 * 0; rfl
  | ⟨1, _⟩ => show n.val + 1 * 0 = n.val + 1 * 0; rfl
  | ⟨2, _⟩ => show r.val + 1 * 0 = r.val; omega
  | ⟨3, _⟩ => show 16 * cc.val + 1 * x2.val = 16 * cc.val + 1 * x2.val; rfl

/-! ## The trip's eight stores -/

variable (fbuf : (⟨S2x8x32x128, .f32⟩ : BufTy).Contents (Elt F))
  (offL : Fin 8 → Fin 32 → Fin 4 → ℕ) (hL : ∀ cc r a, offL cc r a + S1x1x1x16.size a ≤ S2x8x32x128.size a)
  (offS : Fin 8 → Fin 3 → ℕ) (hS : ∀ cc a, offS cc a + S1x1x16.size a ≤ S2x8x128.size a)

/-- Each column block's store is one of the trip's. -/
theorem pieceOf_mem (cc : Fin 8) : pieceOf fbuf (offL cc) (hL cc) (offS cc) (hS cc) ∈ piecesOf fbuf offL hL offS hS := by
  unfold piecesOf
  match cc with
  | ⟨0, _⟩ => exact List.mem_cons_of_mem _ (List.mem_cons_of_mem _ (List.mem_cons_of_mem _ (List.mem_cons_of_mem _ (List.mem_cons_of_mem _ (List.mem_cons_of_mem _ (List.mem_cons_of_mem _ (List.mem_cons_self)))))))
  | ⟨1, _⟩ => exact List.mem_cons_of_mem _ (List.mem_cons_of_mem _ (List.mem_cons_of_mem _ (List.mem_cons_of_mem _ (List.mem_cons_of_mem _ (List.mem_cons_of_mem _ (List.mem_cons_self))))))
  | ⟨2, _⟩ => exact List.mem_cons_of_mem _ (List.mem_cons_of_mem _ (List.mem_cons_of_mem _ (List.mem_cons_of_mem _ (List.mem_cons_of_mem _ (List.mem_cons_self)))))
  | ⟨3, _⟩ => exact List.mem_cons_of_mem _ (List.mem_cons_of_mem _ (List.mem_cons_of_mem _ (List.mem_cons_of_mem _ (List.mem_cons_self))))
  | ⟨4, _⟩ => exact List.mem_cons_of_mem _ (List.mem_cons_of_mem _ (List.mem_cons_of_mem _ (List.mem_cons_self)))
  | ⟨5, _⟩ => exact List.mem_cons_of_mem _ (List.mem_cons_of_mem _ (List.mem_cons_self))
  | ⟨6, _⟩ => exact List.mem_cons_of_mem _ (List.mem_cons_self)
  | ⟨7, _⟩ => exact List.mem_cons_self

/-- The trip's stores are the eight column blocks' stores. -/
theorem mem_piecesOf (p : View.Piece (Elt F) S2x8x128 .f32) (hp : p ∈ piecesOf fbuf offL hL offS hS) :
    ∃ cc : Fin 8, p = pieceOf fbuf (offL cc) (hL cc) (offS cc) (hS cc) := by
  unfold piecesOf at hp
  simp only [List.mem_cons, List.not_mem_nil, or_false] at hp
  rcases hp with rfl | rfl | rfl | rfl | rfl | rfl | rfl | rfl
  exacts [⟨7, rfl⟩, ⟨6, rfl⟩, ⟨5, rfl⟩, ⟨4, rfl⟩, ⟨3, rfl⟩, ⟨2, rfl⟩, ⟨1, rfl⟩, ⟨0, rfl⟩]

/-- An entry under a store's rectangle lies between its offsets and its offsets plus (1, 1, 16). -/
theorem mem_pieceOf_set (offL' : Fin 32 → Fin 4 → ℕ) (hL' : ∀ r a, offL' r a + S1x1x1x16.size a ≤ S2x8x32x128.size a)
    (offS' : Fin 3 → ℕ) (hS' : ∀ a, offS' a + S1x1x16.size a ≤ S2x8x128.size a) (y : S2x8x128.Idx) :
    y ∈ (pieceOf fbuf offL' hL' offS' hS').1.set ↔ ∀ a, offS' a ≤ (y a).val ∧ (y a).val < offS' a + S1x1x16.size a :=
  Rect.mem_set_unit (inb := hS')

/-! ## The step -/

/-- THE STEP: if rows 0 ‥ n of slot b hold their chains, then after the trip for row n (eight stores, at the offsets
    (b, n, 16 cc), of the chains over the loads at (b, n, r, 16 cc)) rows 0 ‥ n + 1 do. -/
theorem tripStep (b : Fin 2) (n : Fin 8) (fbuf : (⟨S2x8x32x128, .f32⟩ : BufTy).Contents (Elt F))
    (fo : (⟨S2x8x128, .f32⟩ : BufTy).Contents (Elt F))
    (offL : Fin 8 → Fin 32 → Fin 4 → ℕ) (hL : ∀ cc r a, offL cc r a + S1x1x1x16.size a ≤ S2x8x32x128.size a)
    (offS : Fin 8 → Fin 3 → ℕ) (hS : ∀ cc a, offS cc a + S1x1x16.size a ≤ S2x8x128.size a)
    (eL : ∀ cc r, offL cc r = ![b.val, n.val, r.val, 16 * cc.val]) (eS : ∀ cc, offS cc = ![b.val, n.val, 16 * cc.val])
    (h : RowsOK b n.val fbuf fo) :
    RowsOK b (n.val + 1) fbuf
      ((Memref.whole cc0_scratch1 : Memref sig .scVector .vmem S2x8x128 .f32).view.writes (Elt F) fo (piecesOf fbuf offL hL offS hS)) := by
  intro n' hn' c
  have hread : ∀ (g : (⟨S2x8x128, .f32⟩ : BufTy).Contents (Elt F)) (y : S2x8x128.Idx),
      (Memref.whole cc0_scratch1 : Memref sig .scVector .vmem S2x8x128 .f32).view.read (Elt F) g y = g y := fun g y => rfl
  refine (hread _ _).symm.trans ?_
  by_cases hlt : n'.val < n.val
  · refine (View.read_writes_apply_of_forall_not_mem (Memref.whole cc0_scratch1 : Memref sig .scVector .vmem S2x8x128 .f32).view fo
      (ix3 b n' c) (piecesOf fbuf offL hL offS hS) (fun p hp hy => ?_)).trans ((hread fo _).trans (h n' hlt c))
    obtain ⟨cc, rfl⟩ := mem_piecesOf fbuf offL hL offS hS p hp
    have h1 : offS cc 1 ≤ n'.val := ((mem_pieceOf_set fbuf (offL cc) (hL cc) (offS cc) (hS cc) (ix3 b n' c)).mp hy 1).1
    have e1 : offS cc 1 = n.val := by rw [eS cc]; rfl
    omega
  · have hnn : n'.val = n.val := by omega
    have hc : c.val / 16 < 8 := by have := c.isLt; omega
    have hG : ∀ p ∈ piecesOf fbuf offL hL offS hS, ∀ x : p.1.shape.Idx, p.2 x = rowChain fbuf (p.1.emb x) := fun p hp x => by
      obtain ⟨cc, rfl⟩ := mem_piecesOf fbuf offL hL offS hS p hp
      exact pieceOf_apply b n cc fbuf (offL cc) (hL cc) (offS cc) (hS cc) (eL cc) (eS cc) x
    have hcov : ∃ p ∈ piecesOf fbuf offL hL offS hS, ix3 b n' c ∈ p.1.set := by
      refine ⟨_, pieceOf_mem fbuf offL hL offS hS ⟨c.val / 16, hc⟩,
        (mem_pieceOf_set fbuf (offL ⟨c.val / 16, hc⟩) (hL _) (offS ⟨c.val / 16, hc⟩) (hS _) (ix3 b n' c)).mpr (fun a => ?_)⟩
      rw [eS ⟨c.val / 16, hc⟩]
      match a with
      | ⟨0, _⟩ => exact ⟨Nat.le_refl _, Nat.lt_succ_self _⟩
      | ⟨1, _⟩ =>
        show n.val ≤ n'.val ∧ n'.val < n.val + 1
        omega
      | ⟨2, _⟩ =>
        show 16 * (c.val / 16) ≤ c.val ∧ c.val < 16 * (c.val / 16) + 16
        omega
    exact (View.read_writes_apply_of_pieces (Memref.whole cc0_scratch1 : Memref sig .scVector .vmem S2x8x128 .f32).view fo (rowChain fbuf)
      (piecesOf fbuf offL hL offS hS) hG (ix3 b n' c) hcov).trans (rowChain_ix3 fbuf b n' c)

end Cert.Proof.KI

end
-- ==== Proof.KI.CopyValue.lean ====
/-
  What the two copies of a chunk do to the arrays, as pure statements about contents.  A chunk is eight consecutive
  nodes.  LANDING: rows 8g ‥ 8g + 8 of the mailbox are written into slot b of the input staging buffer, entry
  (b, n, r, c) taking the mailbox's (8g + n, r, c), the other slot untouched.  WRITE-BACK: slot b of the output staging
  buffer is written into rows 8g ‥ 8g + 8 of the result, entry (8g + n, c) taking the buffer's (b, n, c), every other row
  untouched.  So once slot b of the output staging buffer holds the chains over the landed rows, the written-back rows
  hold the per-node minimum of the mailbox, stated as one function of the whole mailbox.
-/
import proofs.«211044_g9509057593726_fold_wed_m_382_5_alg».proof.Proof.KI.Chain
import Idealize.ShloMosaic.Lib.ValueIdx
import Idealize.ShloMosaic.Lib.Pipeline.Value

noncomputable section

namespace Cert.Proof.KI

open Cert.KernelIdeal Cert.KernelIdeal.Gen Idealize.ShloMosaic Idealize.ShloMosaic.ValueIdx

variable {F : FTy → Type} [FloatOps F]

/-! ## The arrays and the staging buffers -/

/-- The mailbox, the per-node minimum, and the two staging buffers, as a tile names them. -/
abbrev mbM : Memref sig .scVector .hbm S10000x32x128 .f32 := Memref.whole main_arg0_scv
abbrev hmM : Memref sig .scVector .hbm S10000x128 .f32 := Memref.whole main_v5_scv
abbrev bufM : Memref sig .scVector .vmem S2x8x32x128 .f32 := Memref.whole cc0_scratch0
abbrev obufM : Memref sig .scVector .vmem S2x8x128 .f32 := Memref.whole cc0_scratch1

/-! ## The per-node minimum of the whole mailbox -/

/-- Entry (n, c) is the left-nested chain of minima over the thirty-two neighbour rows of node n at feature c. -/
def HM (mb : (⟨S10000x32x128, .f32⟩ : BufTy).Contents (Elt F)) : (⟨S10000x128, .f32⟩ : BufTy).Contents (Elt F) :=
  fun j => chainMin fun r => mb (ix3 (j 0 : Fin 10000) r (j 1 : Fin 128))

theorem HM_ix2 (mb : (⟨S10000x32x128, .f32⟩ : BufTy).Contents (Elt F)) (n : Fin 10000) (c : Fin 128) :
    HM mb (ix2 n c) = chainMin fun r => mb (ix3 n r c) := rfl

/-! ## Where the four windows sit -/

/-- Entry (n, r, c) of slot b of the input staging buffer is the buffer's entry (b, n, r, c). -/
theorem slot_emb (b : Fin 2) (offB : Fin 4 → ℕ) (hb : ∀ a, offB a + S1x8x32x128.size a ≤ S2x8x32x128.size a)
    (eB : offB = ![b.val, 0, 0, 0]) (n : Fin 8) (r : Fin 32) (c : Fin 128) :
    (((bufM.slice (Rect.unit (s := S2x8x32x128) offB S1x8x32x128.size hb) (fun _ => rfl)).squeeze S8x32x128 squeezes_S1x8x32x128_S8x32x128).view.emb (ix3 n r c) : S2x8x32x128.Idx) = ix4 b n r c := by
  subst eB
  show (Rect.unit (s := S2x8x32x128) ![b.val, 0, 0, 0] S1x8x32x128.size hb).emb (Shape.reshapeEquiv _ (ix3 n r c)) = ix4 b n r c
  have e : Shape.reshapeEquiv (s := (Rect.unit (s := S2x8x32x128) ![b.val, 0, 0, 0] S1x8x32x128.size hb).shape) (s' := S8x32x128)
      squeezes_S1x8x32x128_S8x32x128.numel_eq (ix3 n r c) = ix4 (0 : Fin 1) n r c :=
    Shape.reshapeEquiv_eq_of_rowMajor _ (by
      show ((⟨4, ![1, 8, 32, 128]⟩ : Shape).rowMajor (ix4 (0 : Fin 1) n r c)).val = ((⟨3, ![8, 32, 128]⟩ : Shape).rowMajor (ix3 n r c)).val
      rw [Shape.rowMajor_val_four, Shape.rowMajor_val_three]
      show (((0 : ℕ) * 8 + n.val) * 32 + r.val) * 128 + c.val = (n.val * 32 + r.val) * 128 + c.val
      omega)
  rw [e]
  funext a; apply Fin.ext
  match a with
  | ⟨0, _⟩ => show b.val + 1 * 0 = b.val; omega
  | ⟨1, _⟩ => show 0 + 1 * n.val = n.val; omega
  | ⟨2, _⟩ => show 0 + 1 * r.val = r.val; omega
  | ⟨3, _⟩ => show 0 + 1 * c.val = c.val; omega

/-- Every entry of slot b of the input staging buffer has first coordinate b. -/
theorem slot_emb_zero (b : Fin 2) (offB : Fin 4 → ℕ) (hb : ∀ a, offB a + S1x8x32x128.size a ≤ S2x8x32x128.size a)
    (eB : offB = ![b.val, 0, 0, 0]) (x : S8x32x128.Idx) :
    ((((bufM.slice (Rect.unit (s := S2x8x32x128) offB S1x8x32x128.size hb) (fun _ => rfl)).squeeze S8x32x128 squeezes_S1x8x32x128_S8x32x128).view.emb x : S2x8x32x128.Idx) 0).val = b.val := by
  subst eB
  show (![b.val, 0, 0, 0] : Fin 4 → ℕ) 0 + 1 * ((Shape.reshapeEquiv (s := (Rect.unit (s := S2x8x32x128) ![b.val, 0, 0, 0] S1x8x32x128.size hb).shape)
    (s' := S8x32x128) squeezes_S1x8x32x128_S8x32x128.numel_eq x) 0).val = b.val
  have h0 : ((Shape.reshapeEquiv (s := (Rect.unit (s := S2x8x32x128) ![b.val, 0, 0, 0] S1x8x32x128.size hb).shape)
    (s' := S8x32x128) squeezes_S1x8x32x128_S8x32x128.numel_eq x) 0).val < 1 := Fin.isLt _
  show b.val + 1 * _ = b.val
  omega

/-- Entry (n, r, c) of the mailbox's window at rows 8g ‥ 8g + 8 is the mailbox's entry (8g + n, r, c). -/
theorem mbs_emb (g : ℕ) (offM : Fin 3 → ℕ) (hm : ∀ a, offM a + S8x32x128.size a ≤ S10000x32x128.size a)
    (hg : 8 * g + 8 ≤ 10000) (eM : offM = ![8 * g, 0, 0]) (n : Fin 8) (r : Fin 32) (c : Fin 128) :
    ((mbM.slice (Rect.unit (s := S10000x32x128) offM S8x32x128.size hm) (fun _ => rfl)).view.emb (ix3 n r c) : S10000x32x128.Idx) = ix3 (⟨8 * g + n.val, by have := n.isLt; omega⟩ : Fin 10000) r c := by
  subst eM
  funext a; apply Fin.ext
  match a with
  | ⟨0, _⟩ => show 8 * g + 1 * n.val = 8 * g + n.val; omega
  | ⟨1, _⟩ => show 0 + 1 * r.val = r.val; omega
  | ⟨2, _⟩ => show 0 + 1 * c.val = c.val; omega

/-- Entry (n, c) of slot b of the output staging buffer is the buffer's entry (b, n, c). -/
theorem oslot_emb (b : Fin 2) (offO : Fin 3 → ℕ) (ho : ∀ a, offO a + S1x8x128.size a ≤ S2x8x128.size a)
    (eO : offO = ![b.val, 0, 0]) (n : Fin 8) (c : Fin 128) :
    (((obufM.slice (Rect.unit (s := S2x8x128) offO S1x8x128.size ho) (fun _ => rfl)).squeeze S8x128 squeezes_S1x8x128_S8x128).view.emb (ix2 n c) : S2x8x128.Idx) = ix3 b n c := by
  subst eO
  show (Rect.unit (s := S2x8x128) ![b.val, 0, 0] S1x8x128.size ho).emb (Shape.reshapeEquiv _ (ix2 n c)) = ix3 b n c
  have e : Shape.reshapeEquiv (s := (Rect.unit (s := S2x8x128) ![b.val, 0, 0] S1x8x128.size ho).shape) (s' := S8x128)
      squeezes_S1x8x128_S8x128.numel_eq (ix2 n c) = ix3 (0 : Fin 1) n c :=
    Shape.reshapeEquiv_eq_of_rowMajor _ (by
      show ((⟨3, ![1, 8, 128]⟩ : Shape).rowMajor (ix3 (0 : Fin 1) n c)).val = ((⟨2, ![8, 128]⟩ : Shape).rowMajor (ix2 n c)).val
      rw [Shape.rowMajor_val_three, Shape.rowMajor_val_two]
      show ((0 : ℕ) * 8 + n.val) * 128 + c.val = n.val * 128 + c.val
      omega)
  rw [e]
  funext a; apply Fin.ext
  match a with
  | ⟨0, _⟩ => show b.val + 1 * 0 = b.val; omega
  | ⟨1, _⟩ => show 0 + 1 * n.val = n.val; omega
  | ⟨2, _⟩ => show 0 + 1 * c.val = c.val; omega

/-- Entry (n, c) of the result's window at rows 8g ‥ 8g + 8 is the result's entry (8g + n, c). -/
theorem hms_emb (g : ℕ) (offH : Fin 2 → ℕ) (hh : ∀ a, offH a + S8x128.size a ≤ S10000x128.size a)
    (hg : 8 * g + 8 ≤ 10000) (eH : offH = ![8 * g, 0]) (n : Fin 8) (c : Fin 128) :
    ((hmM.slice (Rect.unit (s := S10000x128) offH S8x128.size hh) (fun _ => rfl)).view.emb (ix2 n c) : S10000x128.Idx) = ix2 (⟨8 * g + n.val, by have := n.isLt; omega⟩ : Fin 10000) c := by
  subst eH
  funext a; apply Fin.ext
  match a with
  | ⟨0, _⟩ => show 8 * g + 1 * n.val = 8 * g + n.val; omega
  | ⟨1, _⟩ => show 0 + 1 * c.val = c.val; omega

/-- Every entry of the result's window at rows 8g ‥ 8g + 8 lies in chunk g. -/
theorem hms_emb_zero (g : ℕ) (offH : Fin 2 → ℕ) (hh : ∀ a, offH a + S8x128.size a ≤ S10000x128.size a)
    (eH : offH = ![8 * g, 0]) (x : S8x128.Idx) :
    (((hmM.slice (Rect.unit (s := S10000x128) offH S8x128.size hh) (fun _ => rfl)).view.emb x : S10000x128.Idx) 0).val / 8 = g := by
  subst eH
  have h0 : (x 0).val < 8 := (x 0).isLt
  show (8 * g + 1 * (x 0).val) / 8 = g
  omega

/-! ## Landing: the mailbox's rows into a slot of the input staging buffer -/

/-- After the landing, entry (b, n, r, c) of the input staging buffer is the mailbox's (8g + n, r, c). -/
theorem landing_apply (b : Fin 2) (g : ℕ) (offB : Fin 4 → ℕ) (hb : ∀ a, offB a + S1x8x32x128.size a ≤ S2x8x32x128.size a)
    (offM : Fin 3 → ℕ) (hm : ∀ a, offM a + S8x32x128.size a ≤ S10000x32x128.size a)
    (hg : 8 * g + 8 ≤ 10000) (eB : offB = ![b.val, 0, 0, 0]) (eM : offM = ![8 * g, 0, 0])
    (mb : (⟨S10000x32x128, .f32⟩ : BufTy).Contents (Elt F)) (fb : (⟨S2x8x32x128, .f32⟩ : BufTy).Contents (Elt F))
    (n : Fin 8) (r : Fin 32) (c : Fin 128) :
    (View.write (Elt F) ((bufM.slice (Rect.unit (s := S2x8x32x128) offB S1x8x32x128.size hb) (fun _ => rfl)).squeeze S8x32x128 squeezes_S1x8x32x128_S8x32x128).view fb (ReadAs.same.apply (View.read (Elt F) (mbM.slice (Rect.unit (s := S10000x32x128) offM S8x32x128.size hm) (fun _ => rfl)).view mb)) Finset.univ) (ix4 b n r c)
      = mb (ix3 (⟨8 * g + n.val, by have := n.isLt; omega⟩ : Fin 10000) r c) := by
  refine (congrArg (View.write (Elt F) ((bufM.slice (Rect.unit (s := S2x8x32x128) offB S1x8x32x128.size hb) (fun _ => rfl)).squeeze S8x32x128 squeezes_S1x8x32x128_S8x32x128).view fb (ReadAs.same.apply (View.read (Elt F) (mbM.slice (Rect.unit (s := S10000x32x128) offM S8x32x128.size hm) (fun _ => rfl)).view mb)) Finset.univ) (slot_emb b offB hb eB n r c).symm).trans ?_
  refine (View.write_emb_of_mem (v := ((bufM.slice (Rect.unit (s := S2x8x32x128) offB S1x8x32x128.size hb) (fun _ => rfl)).squeeze S8x32x128 squeezes_S1x8x32x128_S8x32x128).view) (Val := Elt F) fb _ (Finset.mem_univ (ix3 n r c))).trans ?_
  refine (cast_eq _ _).trans ?_
  show View.read (Elt F) (mbM.slice (Rect.unit (s := S10000x32x128) offM S8x32x128.size hm) (fun _ => rfl)).view mb (ix3 n r c) = _
  refine (View.read_apply (v := (mbM.slice (Rect.unit (s := S10000x32x128) offM S8x32x128.size hm) (fun _ => rfl)).view) (Val := Elt F) mb (ix3 n r c)).trans ?_
  refine (cast_eq _ _).trans ?_
  exact congrArg mb (mbs_emb g offM hm hg eM n r c)

/-- The landing leaves the other slot as it was. -/
theorem landing_other (b : Fin 2) (offB : Fin 4 → ℕ) (hb : ∀ a, offB a + S1x8x32x128.size a ≤ S2x8x32x128.size a)
    (offM : Fin 3 → ℕ) (hm : ∀ a, offM a + S8x32x128.size a ≤ S10000x32x128.size a)
    (eB : offB = ![b.val, 0, 0, 0])
    (mb : (⟨S10000x32x128, .f32⟩ : BufTy).Contents (Elt F)) (fb : (⟨S2x8x32x128, .f32⟩ : BufTy).Contents (Elt F))
    (y : S2x8x32x128.Idx) (hy : (y 0).val ≠ b.val) :
    (View.write (Elt F) ((bufM.slice (Rect.unit (s := S2x8x32x128) offB S1x8x32x128.size hb) (fun _ => rfl)).squeeze S8x32x128 squeezes_S1x8x32x128_S8x32x128).view fb (ReadAs.same.apply (View.read (Elt F) (mbM.slice (Rect.unit (s := S10000x32x128) offM S8x32x128.size hm) (fun _ => rfl)).view mb)) Finset.univ) y = fb y := by
  refine View.write_of_not_mem (v := ((bufM.slice (Rect.unit (s := S2x8x32x128) offB S1x8x32x128.size hb) (fun _ => rfl)).squeeze S8x32x128 squeezes_S1x8x32x128_S8x32x128).view) (Val := Elt F) fb _ Finset.univ (fun hmem => ?_)
  obtain ⟨x, -, hx⟩ := Finset.mem_map.mp hmem
  exact hy (by rw [← hx]; exact slot_emb_zero b offB hb eB x)

/-! ## Write-back: a slot of the output staging buffer into the result's rows -/

/-- After the write-back, entry (8g + n, c) of the result is the output staging buffer's (b, n, c). -/
theorem writeback_apply (b : Fin 2) (g : ℕ) (offO : Fin 3 → ℕ) (ho : ∀ a, offO a + S1x8x128.size a ≤ S2x8x128.size a)
    (offH : Fin 2 → ℕ) (hh : ∀ a, offH a + S8x128.size a ≤ S10000x128.size a)
    (hg : 8 * g + 8 ≤ 10000) (eO : offO = ![b.val, 0, 0]) (eH : offH = ![8 * g, 0])
    (fo : (⟨S2x8x128, .f32⟩ : BufTy).Contents (Elt F)) (fh : (⟨S10000x128, .f32⟩ : BufTy).Contents (Elt F))
    (n : Fin 8) (c : Fin 128) :
    (View.write (Elt F) (hmM.slice (Rect.unit (s := S10000x128) offH S8x128.size hh) (fun _ => rfl)).view fh (ReadAs.same.apply (View.read (Elt F) ((obufM.slice (Rect.unit (s := S2x8x128) offO S1x8x128.size ho) (fun _ => rfl)).squeeze S8x128 squeezes_S1x8x128_S8x128).view fo)) Finset.univ) (ix2 (⟨8 * g + n.val, by have := n.isLt; omega⟩ : Fin 10000) c)
      = fo (ix3 b n c) := by
  refine (congrArg (View.write (Elt F) (hmM.slice (Rect.unit (s := S10000x128) offH S8x128.size hh) (fun _ => rfl)).view fh (ReadAs.same.apply (View.read (Elt F) ((obufM.slice (Rect.unit (s := S2x8x128) offO S1x8x128.size ho) (fun _ => rfl)).squeeze S8x128 squeezes_S1x8x128_S8x128).view fo)) Finset.univ) (hms_emb g offH hh hg eH n c).symm).trans ?_
  refine (View.write_emb_of_mem (v := (hmM.slice (Rect.unit (s := S10000x128) offH S8x128.size hh) (fun _ => rfl)).view) (Val := Elt F) fh _ (Finset.mem_univ (ix2 n c))).trans ?_
  refine (cast_eq _ _).trans ?_
  show View.read (Elt F) ((obufM.slice (Rect.unit (s := S2x8x128) offO S1x8x128.size ho) (fun _ => rfl)).squeeze S8x128 squeezes_S1x8x128_S8x128).view fo (ix2 n c) = _
  refine (View.read_apply (v := ((obufM.slice (Rect.unit (s := S2x8x128) offO S1x8x128.size ho) (fun _ => rfl)).squeeze S8x128 squeezes_S1x8x128_S8x128).view) (Val := Elt F) fo (ix2 n c)).trans ?_
  refine (cast_eq _ _).trans ?_
  exact congrArg fo (oslot_emb b offO ho eO n c)

/-- The write-back leaves every row outside chunk g as it was. -/
theorem writeback_other (g : ℕ) (offO : Fin 3 → ℕ) (ho : ∀ a, offO a + S1x8x128.size a ≤ S2x8x128.size a)
    (offH : Fin 2 → ℕ) (hh : ∀ a, offH a + S8x128.size a ≤ S10000x128.size a)
    (eH : offH = ![8 * g, 0])
    (fo : (⟨S2x8x128, .f32⟩ : BufTy).Contents (Elt F)) (fh : (⟨S10000x128, .f32⟩ : BufTy).Contents (Elt F))
    (j : S10000x128.Idx) (hj : (j 0).val / 8 ≠ g) :
    (View.write (Elt F) (hmM.slice (Rect.unit (s := S10000x128) offH S8x128.size hh) (fun _ => rfl)).view fh (ReadAs.same.apply (View.read (Elt F) ((obufM.slice (Rect.unit (s := S2x8x128) offO S1x8x128.size ho) (fun _ => rfl)).squeeze S8x128 squeezes_S1x8x128_S8x128).view fo)) Finset.univ) j = fh j := by
  refine View.write_of_not_mem (v := (hmM.slice (Rect.unit (s := S10000x128) offH S8x128.size hh) (fun _ => rfl)).view) (Val := Elt F) fh _ Finset.univ (fun hmem => ?_)
  obtain ⟨x, -, hx⟩ := Finset.mem_map.mp hmem
  exact hj (by rw [← hx]; exact hms_emb_zero g offH hh eH x)

/-! ## A chunk done -/

/-- If slot b of the input staging buffer holds the mailbox's rows 8g ‥ 8g + 8 and all eight rows of slot b of the output
    staging buffer hold their chains, then after the write-back the result's rows of chunk g hold the per-node minimum of
    the mailbox, and every other row is as it was. -/
theorem chunk_done (b : Fin 2) (g : ℕ) (offO : Fin 3 → ℕ) (ho : ∀ a, offO a + S1x8x128.size a ≤ S2x8x128.size a)
    (offH : Fin 2 → ℕ) (hh : ∀ a, offH a + S8x128.size a ≤ S10000x128.size a)
    (hg : 8 * g + 8 ≤ 10000) (eO : offO = ![b.val, 0, 0]) (eH : offH = ![8 * g, 0])
    (mb : (⟨S10000x32x128, .f32⟩ : BufTy).Contents (Elt F)) (fbuf : (⟨S2x8x32x128, .f32⟩ : BufTy).Contents (Elt F))
    (fo : (⟨S2x8x128, .f32⟩ : BufTy).Contents (Elt F)) (fh : (⟨S10000x128, .f32⟩ : BufTy).Contents (Elt F))
    (hbuf : ∀ (n : Fin 8) (r : Fin 32) (c : Fin 128),
      fbuf (ix4 b n r c) = mb (ix3 (⟨8 * g + n.val, by have := n.isLt; omega⟩ : Fin 10000) r c))
    (hrows : RowsOK b 8 fbuf fo) :
    (∀ j : S10000x128.Idx, (j 0).val / 8 = g → (View.write (Elt F) (hmM.slice (Rect.unit (s := S10000x128) offH S8x128.size hh) (fun _ => rfl)).view fh (ReadAs.same.apply (View.read (Elt F) ((obufM.slice (Rect.unit (s := S2x8x128) offO S1x8x128.size ho) (fun _ => rfl)).squeeze S8x128 squeezes_S1x8x128_S8x128).view fo)) Finset.univ) j = HM mb j)
    ∧ (∀ j : S10000x128.Idx, (j 0).val / 8 ≠ g → (View.write (Elt F) (hmM.slice (Rect.unit (s := S10000x128) offH S8x128.size hh) (fun _ => rfl)).view fh (ReadAs.same.apply (View.read (Elt F) ((obufM.slice (Rect.unit (s := S2x8x128) offO S1x8x128.size ho) (fun _ => rfl)).squeeze S8x128 squeezes_S1x8x128_S8x128).view fo)) Finset.univ) j = fh j) := by
  refine ⟨fun j hj => ?_, fun j hj => writeback_other g offO ho offH hh eH fo fh j hj⟩
  obtain ⟨p, q, rfl⟩ : ∃ (p : Fin 10000) (q : Fin 128), j = ix2 p q := ⟨j 0, j 1, eq_ix2 j⟩
  have hp : p.val / 8 = g := hj
  have hn : p.val % 8 < 8 := Nat.mod_lt _ (by decide)
  have ep : p = (⟨8 * g + (⟨p.val % 8, hn⟩ : Fin 8).val, by have := p.isLt; show 8 * g + p.val % 8 < 10000; omega⟩ : Fin 10000) :=
    Fin.ext (by show p.val = 8 * g + p.val % 8; omega)
  rw [ep]
  refine (writeback_apply b g offO ho offH hh hg eO eH fo fh ⟨p.val % 8, hn⟩ q).trans ?_
  refine (hrows ⟨p.val % 8, hn⟩ hn q).trans ?_
  refine Eq.trans ?_ (HM_ix2 mb _ q).symm
  exact congrArg chainMin (funext fun r => hbuf ⟨p.val % 8, hn⟩ r q)

end Cert.Proof.KI

end
-- ==== Proof.KI.ChainIdeal.lean ====
/-
  At the ideal values the left-nested chain of thirty-two minima is the infimum, so the per-node minimum of the whole
  mailbox is, at (n, k), the infimum over the thirty-two neighbour rows.
-/
import proofs.«211044_g9509057593726_fold_wed_m_382_5_alg».proof.Proof.KI.TripValue
import proofs.«211044_g9509057593726_fold_wed_m_382_5_alg».proof.Proof.KI.CopyValue
import proofs.«211044_g9509057593726_fold_wed_m_382_5_alg».proof.Proof.Bridge

noncomputable section

namespace Cert.Proof.KI

open Cert.KernelIdeal Cert.KernelIdeal.Gen Idealize.ShloMosaic Idealize.ShloMosaic.ValueIdx

/-- At the ideal values the chain of minima over thirty-two values is their infimum. -/
theorem chainMin_ideal (x : Fin 32 → EReal) :
    chainMin (F := Ideal) x = Finset.univ.inf' Finset.univ_nonempty x := by
  unfold chainMin
  rw [finRange_tail]
  exact Cert.Bridge.chain_eq_inf x

/-- At the ideal values the per-node minimum of the mailbox is, at (n, k), the infimum over the neighbour rows. -/
theorem HM_ideal (mb : (⟨S10000x32x128, .f32⟩ : BufTy).Contents (Elt Ideal)) (n : Fin 10000) (k : Fin 128) :
    HM (F := Ideal) mb (ix2 n k) = Finset.univ.inf' Finset.univ_nonempty (fun r : Fin 32 => mb (ix3 n r k)) :=
  (HM_ix2 mb n k).trans (chainMin_ideal fun r => mb (ix3 n r k))

end Cert.Proof.KI

end
-- ==== Proof.KI.Rows.lean ====
/-
  Which rows of the per-node minimum each tile writes: chunks of eight rows are dealt round the thirty-two tiles
  (tile `w` takes the chunks congruent to `w` modulo 32), a SparseCore's sixteen tiles take the chunks of its parity.
-/
import proofs.«211044_g9509057593726_fold_wed_m_382_5_alg».proof.Proof.KI.Common

namespace Cert.Proof.KI

open Cert.KernelIdeal Idealize.ShloMosaic

/-- The rows (all columns) whose chunk of eight is dealt to tile `w`. -/
def tileSet (w : ℕ) : Finset S10000x128.Idx := Finset.univ.filter fun j => (j 0).val / 8 % 32 = w
/-- The rows that belong to the other tiles. -/
def others (w : ℕ) : Finset S10000x128.Idx := Finset.univ.filter fun j => (j 0).val / 8 % 32 ≠ w
/-- The rows whose chunk has parity `c`: those of SparseCore `c`'s tiles. -/
def coreSet (c : ℕ) : Finset S10000x128.Idx := Finset.univ.filter fun j => (j 0).val / 8 % 2 = c

theorem univ_sdiff_others (w : ℕ) : Finset.univ \ others w = tileSet w := by
  ext j; simp [others, tileSet]

theorem tile_disjoint (c : ℕ) : ∀ i ∈ (Finset.univ : Finset (Fin 16)), ∀ j ∈ (Finset.univ : Finset (Fin 16)), i ≠ j →
    Disjoint (tileSet (2 * i.val + c)) (tileSet (2 * j.val + c)) := by
  intro i _ j _ hij
  refine Finset.disjoint_filter.mpr fun x _ h1 h2 => hij (Fin.ext ?_)
  omega

theorem tile_cover (c : ℕ) (hc : c < 2) : (Finset.univ : Finset (Fin 16)).biUnion (fun i => tileSet (2 * i.val + c)) = coreSet c := by
  ext x
  simp only [Finset.mem_biUnion, Finset.mem_univ, true_and, tileSet, coreSet, Finset.mem_filter]
  constructor
  · rintro ⟨i, hi⟩; omega
  · intro hx
    exact ⟨⟨(x 0).val / 8 % 32 / 2, by omega⟩, by show (x 0).val / 8 % 32 = 2 * ((x 0).val / 8 % 32 / 2) + c; omega⟩

theorem core_disjoint : ∀ i ∈ (Finset.univ : Finset (Fin 2)), ∀ j ∈ (Finset.univ : Finset (Fin 2)), i ≠ j →
    Disjoint (coreSet i.val) (coreSet j.val) := by
  intro i _ j _ hij
  refine Finset.disjoint_filter.mpr fun x _ h1 h2 => hij (Fin.ext ?_)
  omega

theorem core_cover : (Finset.univ : Finset (Fin 2)).biUnion (fun c => coreSet c.val) = Finset.univ := by
  ext x
  simp only [Finset.mem_biUnion, Finset.mem_univ, true_and, coreSet, Finset.mem_filter, iff_true]
  exact ⟨⟨(x 0).val / 8 % 2, by omega⟩, rfl⟩

end Cert.Proof.KI
-- ==== Proof.KI.TileDefs.lean ====
/-
  The tile's task, stated: what a vector subcore is handed (a read share of the mailbox, its own rows of the
  per-node minimum), what it hands back (the same share, its rows at the minimum over the neighbours), and the fact
  that a write-back window of the tile meets no other tile's rows.
-/
import proofs.«211044_g9509057593726_fold_wed_m_382_5_alg».proof.Proof.KI.Rows
import proofs.«211044_g9509057593726_fold_wed_m_382_5_alg».proof.Proof.KI.CopyValue
import Idealize.ShloMosaic.Lib.SparseCore.Ops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

abbrev cV (L : grid0.Coords) : Fin τ.nSC := (L 0).castLE hcore0
abbrev jV (L : grid0.Coords) : Fin τ.nSub := (L 1).castLE hsub0

/-- The tile's number among the thirty-two: twice the subcore plus the core. -/
abbrev wid (L : grid0.Coords) : ℕ := 2 * (L 1).val + (L 0).val

/-- The mailbox as launched, on device `d`. -/
abbrev mb0 (d : Dev nD) : (⟨S10000x32x128, .f32⟩ : BufTy).Contents (Elt F) := m (mbLoc d)

/-- A read share of the mailbox; tile `w`'s rows of the per-node minimum (everything but the other tiles' rows). -/
abbrev mbPts (d : Dev nD) (q : PosShare TreeShare) : sProp 𝕄 := mbLoc d ↦{q} m (mbLoc d)
abbrev hmPts (d : Dev nD) (w : ℕ) (f : Buf (Elt F) (hmLoc d)) : sProp 𝕄 := hmLoc d ↦[Finset.univ \ others w]{fullShare} f

/-- A write-back window — the eight rows of one of the tile's chunks — meets no other tile's rows. -/
theorem win_disj (L : grid0.Coords) (r : Fin 2) (k : Fin k0_t1_loop.trips)
    (h : ∀ a, k0_off268 L k (BitVec.ofNat 32 r.val) a + S8x128.size a ≤ S10000x128.size a) :
    Disjoint ((Memref.whole main_v5_scv : Memref sig .scVector .hbm S10000x128 .f32).slice (Rect.unit (s := S10000x128) (k0_off268 L k (BitVec.ofNat 32 r.val)) S8x128.size h) (fun _ => rfl)).view.set (others (wid L)) := by
  rw [Finset.disjoint_left]
  intro j hj hjo
  have hj' : (j : S10000x128.Idx) ∈ (Rect.unit (s := S10000x128) (k0_off268 L k (BitVec.ofNat 32 r.val)) S8x128.size h).set := by
    rw [← View.set_slice_whole (sig := sig) (κ := .scVector) main_v5_scv (Rect.unit (s := S10000x128) (k0_off268 L k (BitVec.ofNat 32 r.val)) S8x128.size h)]
    exact hj
  rw [Rect.mem_set_unit] at hj'
  have h0 := hj' 0
  rw [k0_off268_eq L k r] at h0
  simp only [others, Finset.mem_filter, Finset.mem_univ, true_and] at hjo
  have h1 : (L 1).val < 16 := (L 1).isLt
  have h2 : (L 0).val < 2 := (L 0).isLt
  have h3 : r.val < 2 := r.isLt
  have hs : S8x128.size 0 = 8 := rfl
  simp only [Matrix.cons_val_zero, hs] at h0
  apply hjo
  unfold wid
  split_ifs at h0 <;> omega

variable [FloatOps F]

/-- The tile's task, as the launch uses it: on vector subcore `(L 0, L 1)` of device `d`, from a read share `q` of the
    mailbox and the tile's rows of the result at their launch contents (and the subcore's own scratch and semaphores),
    the kernel function runs to its end and hands back the share and the tile's rows at the per-node minimum. -/
def TileStmt : Prop :=
  ∀ (d : Dev nD) (L : grid0.Coords) (_ : (K (F := F)).Facts) (q : PosShare TreeShare)
    (O : CellTallies nD τ sig (HIx 1)) (W : Waits sig (HIx 1)) (_ : ∀ g, O g none = 0),
    iprop(levAts (K (F := F)).L (K (F := F)).lev ∗ emp
        ∗ (mbPts m d q ∗ hmPts d (wid L) (m (hmLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_min L (Memref.whole main_arg0_scv) (Memref.isWhole_whole _) (Memref.whole main_v5_scv) (Memref.isWhole_whole _)
            (Memref.whole cc0_scratch0) (Memref.isWhole_whole _) (Memref.whole cc0_scratch1) (Memref.isWhole_whole _) cc0_scratch2 cc0_scoped0 cc0_scoped1)
          fun _ => iprop((mbPts m d q ∗ hmPts d (wid L) (HM (mb0 m d)))
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI

end
-- ==== Proof.KI.Offsets.lean ====
/-
  The places a node's trip reads and writes, as families: for sixteen-lane block `cc` and neighbour `r`, the offset of
  the load (slot, node, r, 16·cc) in the input staging buffer, and of the store (slot, node, 16·cc) in the output one.
-/
import proofs.«211044_g9509057593726_fold_wed_m_382_5_alg».proof.Proof.KI.Common

set_option Elab.async false

namespace Cert.Proof.KI

open Cert.KernelIdeal Cert.KernelIdeal.Gen Idealize.ShloMosaic

/-- Slot 0: the loads' offsets. -/
def offL0 (n : Fin k0_t2_loop.trips) : Fin 8 → Fin 32 → Fin 4 → ℕ :=
  ![![k0_off4 n, k0_off5 n, k0_off6 n, k0_off7 n, k0_off8 n, k0_off9 n, k0_off10 n, k0_off11 n, k0_off12 n, k0_off13 n, k0_off14 n, k0_off15 n, k0_off16 n, k0_off17 n, k0_off18 n, k0_off19 n, k0_off20 n, k0_off21 n, k0_off22 n, k0_off23 n, k0_off24 n, k0_off25 n, k0_off26 n, k0_off27 n, k0_off28 n, k0_off29 n, k0_off30 n, k0_off31 n, k0_off32 n, k0_off33 n, k0_off34 n, k0_off35 n],
    ![k0_off37 n, k0_off38 n, k0_off39 n, k0_off40 n, k0_off41 n, k0_off42 n, k0_off43 n, k0_off44 n, k0_off45 n, k0_off46 n, k0_off47 n, k0_off48 n, k0_off49 n, k0_off50 n, k0_off51 n, k0_off52 n, k0_off53 n, k0_off54 n, k0_off55 n, k0_off56 n, k0_off57 n, k0_off58 n, k0_off59 n, k0_off60 n, k0_off61 n, k0_off62 n, k0_off63 n, k0_off64 n, k0_off65 n, k0_off66 n, k0_off67 n, k0_off68 n],
    ![k0_off70 n, k0_off71 n, k0_off72 n, k0_off73 n, k0_off74 n, k0_off75 n, k0_off76 n, k0_off77 n, k0_off78 n, k0_off79 n, k0_off80 n, k0_off81 n, k0_off82 n, k0_off83 n, k0_off84 n, k0_off85 n, k0_off86 n, k0_off87 n, k0_off88 n, k0_off89 n, k0_off90 n, k0_off91 n, k0_off92 n, k0_off93 n, k0_off94 n, k0_off95 n, k0_off96 n, k0_off97 n, k0_off98 n, k0_off99 n, k0_off100 n, k0_off101 n],
    ![k0_off103 n, k0_off104 n, k0_off105 n, k0_off106 n, k0_off107 n, k0_off108 n, k0_off109 n, k0_off110 n, k0_off111 n, k0_off112 n, k0_off113 n, k0_off114 n, k0_off115 n, k0_off116 n, k0_off117 n, k0_off118 n, k0_off119 n, k0_off120 n, k0_off121 n, k0_off122 n, k0_off123 n, k0_off124 n, k0_off125 n, k0_off126 n, k0_off127 n, k0_off128 n, k0_off129 n, k0_off130 n, k0_off131 n, k0_off132 n, k0_off133 n, k0_off134 n],
    ![k0_off136 n, k0_off137 n, k0_off138 n, k0_off139 n, k0_off140 n, k0_off141 n, k0_off142 n, k0_off143 n, k0_off144 n, k0_off145 n, k0_off146 n, k0_off147 n, k0_off148 n, k0_off149 n, k0_off150 n, k0_off151 n, k0_off152 n, k0_off153 n, k0_off154 n, k0_off155 n, k0_off156 n, k0_off157 n, k0_off158 n, k0_off159 n, k0_off160 n, k0_off161 n, k0_off162 n, k0_off163 n, k0_off164 n, k0_off165 n, k0_off166 n, k0_off167 n],
    ![k0_off169 n, k0_off170 n, k0_off171 n, k0_off172 n, k0_off173 n, k0_off174 n, k0_off175 n, k0_off176 n, k0_off177 n, k0_off178 n, k0_off179 n, k0_off180 n, k0_off181 n, k0_off182 n, k0_off183 n, k0_off184 n, k0_off185 n, k0_off186 n, k0_off187 n, k0_off188 n, k0_off189 n, k0_off190 n, k0_off191 n, k0_off192 n, k0_off193 n, k0_off194 n, k0_off195 n, k0_off196 n, k0_off197 n, k0_off198 n, k0_off199 n, k0_off200 n],
    ![k0_off202 n, k0_off203 n, k0_off204 n, k0_off205 n, k0_off206 n, k0_off207 n, k0_off208 n, k0_off209 n, k0_off210 n, k0_off211 n, k0_off212 n, k0_off213 n, k0_off214 n, k0_off215 n, k0_off216 n, k0_off217 n, k0_off218 n, k0_off219 n, k0_off220 n, k0_off221 n, k0_off222 n, k0_off223 n, k0_off224 n, k0_off225 n, k0_off226 n, k0_off227 n, k0_off228 n, k0_off229 n, k0_off230 n, k0_off231 n, k0_off232 n, k0_off233 n],
    ![k0_off235 n, k0_off236 n, k0_off237 n, k0_off238 n, k0_off239 n, k0_off240 n, k0_off241 n, k0_off242 n, k0_off243 n, k0_off244 n, k0_off245 n, k0_off246 n, k0_off247 n, k0_off248 n, k0_off249 n, k0_off250 n, k0_off251 n, k0_off252 n, k0_off253 n, k0_off254 n, k0_off255 n, k0_off256 n, k0_off257 n, k0_off258 n, k0_off259 n, k0_off260 n, k0_off261 n, k0_off262 n, k0_off263 n, k0_off264 n, k0_off265 n, k0_off266 n]]
/-- Slot 0: the stores' offsets. -/
def offS0 (n : Fin k0_t2_loop.trips) : Fin 8 → Fin 3 → ℕ := ![k0_off36 n, k0_off69 n, k0_off102 n, k0_off135 n, k0_off168 n, k0_off201 n, k0_off234 n, k0_off267 n]
/-- Slot 1: the loads' offsets. -/
def offL1 (n : Fin k0_t3_loop.trips) : Fin 8 → Fin 32 → Fin 4 → ℕ :=
  ![![k0_off270 n, k0_off271 n, k0_off272 n, k0_off273 n, k0_off274 n, k0_off275 n, k0_off276 n, k0_off277 n, k0_off278 n, k0_off279 n, k0_off280 n, k0_off281 n, k0_off282 n, k0_off283 n, k0_off284 n, k0_off285 n, k0_off286 n, k0_off287 n, k0_off288 n, k0_off289 n, k0_off290 n, k0_off291 n, k0_off292 n, k0_off293 n, k0_off294 n, k0_off295 n, k0_off296 n, k0_off297 n, k0_off298 n, k0_off299 n, k0_off300 n, k0_off301 n],
    ![k0_off303 n, k0_off304 n, k0_off305 n, k0_off306 n, k0_off307 n, k0_off308 n, k0_off309 n, k0_off310 n, k0_off311 n, k0_off312 n, k0_off313 n, k0_off314 n, k0_off315 n, k0_off316 n, k0_off317 n, k0_off318 n, k0_off319 n, k0_off320 n, k0_off321 n, k0_off322 n, k0_off323 n, k0_off324 n, k0_off325 n, k0_off326 n, k0_off327 n, k0_off328 n, k0_off329 n, k0_off330 n, k0_off331 n, k0_off332 n, k0_off333 n, k0_off334 n],
    ![k0_off336 n, k0_off337 n, k0_off338 n, k0_off339 n, k0_off340 n, k0_off341 n, k0_off342 n, k0_off343 n, k0_off344 n, k0_off345 n, k0_off346 n, k0_off347 n, k0_off348 n, k0_off349 n, k0_off350 n, k0_off351 n, k0_off352 n, k0_off353 n, k0_off354 n, k0_off355 n, k0_off356 n, k0_off357 n, k0_off358 n, k0_off359 n, k0_off360 n, k0_off361 n, k0_off362 n, k0_off363 n, k0_off364 n, k0_off365 n, k0_off366 n, k0_off367 n],
    ![k0_off369 n, k0_off370 n, k0_off371 n, k0_off372 n, k0_off373 n, k0_off374 n, k0_off375 n, k0_off376 n, k0_off377 n, k0_off378 n, k0_off379 n, k0_off380 n, k0_off381 n, k0_off382 n, k0_off383 n, k0_off384 n, k0_off385 n, k0_off386 n, k0_off387 n, k0_off388 n, k0_off389 n, k0_off390 n, k0_off391 n, k0_off392 n, k0_off393 n, k0_off394 n, k0_off395 n, k0_off396 n, k0_off397 n, k0_off398 n, k0_off399 n, k0_off400 n],
    ![k0_off402 n, k0_off403 n, k0_off404 n, k0_off405 n, k0_off406 n, k0_off407 n, k0_off408 n, k0_off409 n, k0_off410 n, k0_off411 n, k0_off412 n, k0_off413 n, k0_off414 n, k0_off415 n, k0_off416 n, k0_off417 n, k0_off418 n, k0_off419 n, k0_off420 n, k0_off421 n, k0_off422 n, k0_off423 n, k0_off424 n, k0_off425 n, k0_off426 n, k0_off427 n, k0_off428 n, k0_off429 n, k0_off430 n, k0_off431 n, k0_off432 n, k0_off433 n],
    ![k0_off435 n, k0_off436 n, k0_off437 n, k0_off438 n, k0_off439 n, k0_off440 n, k0_off441 n, k0_off442 n, k0_off443 n, k0_off444 n, k0_off445 n, k0_off446 n, k0_off447 n, k0_off448 n, k0_off449 n, k0_off450 n, k0_off451 n, k0_off452 n, k0_off453 n, k0_off454 n, k0_off455 n, k0_off456 n, k0_off457 n, k0_off458 n, k0_off459 n, k0_off460 n, k0_off461 n, k0_off462 n, k0_off463 n, k0_off464 n, k0_off465 n, k0_off466 n],
    ![k0_off468 n, k0_off469 n, k0_off470 n, k0_off471 n, k0_off472 n, k0_off473 n, k0_off474 n, k0_off475 n, k0_off476 n, k0_off477 n, k0_off478 n, k0_off479 n, k0_off480 n, k0_off481 n, k0_off482 n, k0_off483 n, k0_off484 n, k0_off485 n, k0_off486 n, k0_off487 n, k0_off488 n, k0_off489 n, k0_off490 n, k0_off491 n, k0_off492 n, k0_off493 n, k0_off494 n, k0_off495 n, k0_off496 n, k0_off497 n, k0_off498 n, k0_off499 n],
    ![k0_off501 n, k0_off502 n, k0_off503 n, k0_off504 n, k0_off505 n, k0_off506 n, k0_off507 n, k0_off508 n, k0_off509 n, k0_off510 n, k0_off511 n, k0_off512 n, k0_off513 n, k0_off514 n, k0_off515 n, k0_off516 n, k0_off517 n, k0_off518 n, k0_off519 n, k0_off520 n, k0_off521 n, k0_off522 n, k0_off523 n, k0_off524 n, k0_off525 n, k0_off526 n, k0_off527 n, k0_off528 n, k0_off529 n, k0_off530 n, k0_off531 n, k0_off532 n]]
/-- Slot 1: the stores' offsets. -/
def offS1 (n : Fin k0_t3_loop.trips) : Fin 8 → Fin 3 → ℕ := ![k0_off302 n, k0_off335 n, k0_off368 n, k0_off401 n, k0_off434 n, k0_off467 n, k0_off500 n, k0_off533 n]

theorem eL0 : ∀ (n : Fin k0_t2_loop.trips) (cc : Fin 8) (r : Fin 32), offL0 n cc r = ![0, n.val, r.val, 16 * cc.val] := by decide +kernel
theorem eS0 : ∀ (n : Fin k0_t2_loop.trips) (cc : Fin 8), offS0 n cc = ![0, n.val, 16 * cc.val] := by decide +kernel
theorem eL1 : ∀ (n : Fin k0_t3_loop.trips) (cc : Fin 8) (r : Fin 32), offL1 n cc r = ![1, n.val, r.val, 16 * cc.val] := by decide +kernel
theorem eS1 : ∀ (n : Fin k0_t3_loop.trips) (cc : Fin 8), offS1 n cc = ![1, n.val, 16 * cc.val] := by decide +kernel
theorem hL0 : ∀ (n : Fin k0_t2_loop.trips) (cc : Fin 8) (r : Fin 32) (a : Fin 4), offL0 n cc r a + S1x1x1x16.size a ≤ S2x8x32x128.size a := by decide +kernel
theorem hS0 : ∀ (n : Fin k0_t2_loop.trips) (cc : Fin 8) (a : Fin 3), offS0 n cc a + S1x1x16.size a ≤ S2x8x128.size a := by decide +kernel
theorem hL1 : ∀ (n : Fin k0_t3_loop.trips) (cc : Fin 8) (r : Fin 32) (a : Fin 4), offL1 n cc r a + S1x1x1x16.size a ≤ S2x8x32x128.size a := by decide +kernel
theorem hS1 : ∀ (n : Fin k0_t3_loop.trips) (cc : Fin 8) (a : Fin 3), offS1 n cc a + S1x1x16.size a ≤ S2x8x128.size a := by decide +kernel

end Cert.Proof.KI
-- ==== Proof.KI.Trip.lean ====
/-
  One node's trip of the minimum, for each of the two slots: the sixteen-lane chains of the node's thirty-two neighbour
  rows are written into the node's row of the output staging buffer, so one more row is done.
-/
import proofs.«211044_g9509057593726_fold_wed_m_382_5_alg».proof.Proof.KI.TileDefs
import proofs.«211044_g9509057593726_fold_wed_m_382_5_alg».proof.Proof.KI.TripValue
import proofs.«211044_g9509057593726_fold_wed_m_382_5_alg».proof.Proof.KI.Offsets
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "mbV" => (Memref.whole Cert.KernelIdeal.main_arg0_scv : Memref Cert.KernelIdeal.sig Kind.scVector Space.hbm Cert.KernelIdeal.S10000x32x128 EltTy.f32)
local notation "hmV" => (Memref.whole Cert.KernelIdeal.main_v5_scv : Memref Cert.KernelIdeal.sig Kind.scVector Space.hbm Cert.KernelIdeal.S10000x128 EltTy.f32)
local notation "bufV" => (Memref.whole Cert.KernelIdeal.cc0_scratch0 : Memref Cert.KernelIdeal.sig Kind.scVector Space.vmem Cert.KernelIdeal.S2x8x32x128 EltTy.f32)
local notation "obufV" => (Memref.whole Cert.KernelIdeal.cc0_scratch1 : Memref Cert.KernelIdeal.sig Kind.scVector Space.vmem Cert.KernelIdeal.S2x8x128 EltTy.f32)

/-- The two slots of the input staging buffer, as the kernel slices them. -/
abbrev slot0M : Memref sig .scVector .vmem S8x32x128 .f32 := ((Memref.whole cc0_scratch0 : Memref sig .scVector .vmem S2x8x32x128 .f32).slice (Rect.unit (s := S2x8x32x128) ![0, 0, 0, 0] S1x8x32x128.size inb_S2x8x32x128_S1x8x32x128_0_0_0_0) (fun _ => rfl)).squeeze S8x32x128 squeezes_S1x8x32x128_S8x32x128
abbrev slot1M : Memref sig .scVector .vmem S8x32x128 .f32 := ((Memref.whole cc0_scratch0 : Memref sig .scVector .vmem S2x8x32x128 .f32).slice (Rect.unit (s := S2x8x32x128) ![1, 0, 0, 0] S1x8x32x128.size inb_S2x8x32x128_S1x8x32x128_1_0_0_0) (fun _ => rfl)).squeeze S8x32x128 squeezes_S1x8x32x128_S8x32x128

variable [FloatOps F]

variable (d : Dev nD) (L : grid0.Coords)

set_option maxHeartbeats 4000000 in
/-- A trip of slot 0's node loop while the other slot may be landing: row `n` of slot 0 of the output staging buffer is
    written, so rows `0 ‥ n + 1` are done. -/
theorem trip0 (v1 v4 c0 c1 : BitVec 32) (k : Fin k0_t1_loop.trips) (n : Fin k0_t2_loop.trips) (acc : Unit)
    (fbuf : Buf (Elt F) ((bufV).view.loc (V d (cV L) (jV L)))) (fo : Buf (Elt F) ((obufV).view.loc (V d (cV L) (jV L))))
    (hrows : RowsOK 0 n.val fbuf fo) :
    (iprop(((bufV).view.loc (V d (cV L) (jV L)) ↦[Finset.univ \ slot1M.view.set]{fullShare} fbuf) ∗ ((obufV).view.loc (V d (cV L) (jV L)) ↦{fullShare} fo)) : sProp 𝕄)
      ⊢ wp frame (wpE (defs₀ (F := F)) 𝒱₀ (V d (cV L) (jV L)) none) Set.univ
          (k0_t2_body L mbV (Memref.isWhole_whole _) hmV (Memref.isWhole_whole _) bufV (Memref.isWhole_whole _) obufV (Memref.isWhole_whole _) cc0_scratch2 cc0_scoped0 cc0_scoped1 v1 v4 c0 c1 k n acc)
          fun _ => iprop(((bufV).view.loc (V d (cV L) (jV L)) ↦[Finset.univ \ slot1M.view.set]{fullShare} fbuf)
            ∗ ∃ fo', ((obufV).view.loc (V d (cV L) (jV L)) ↦{fullShare} fo') ∗ ⌜RowsOK 0 (n.val + 1) fbuf fo'⌝) := by
  iintro ⟨Hb, Ho⟩
  unfold k0_t2_body
  sl_exec_parts
  sl_step
  isplitl [Hb]; · iexact Hb
  iexists _; isplitl [Ho]; · iexact Ho
  ipureintro
  exact tripStep 0 n fbuf fo (offL0 n) (hL0 n) (offS0 n) (hS0 n) (eL0 n) (eS0 n) hrows

set_option maxHeartbeats 4000000 in
/-- A trip of slot 1's node loop while the other slot may be landing: row `n` of slot 1 of the output staging buffer is
    written, so rows `0 ‥ n + 1` are done. -/
theorem trip1 (c0 : BitVec 32) (n : Fin k0_t3_loop.trips) (acc : Unit)
    (fbuf : Buf (Elt F) ((bufV).view.loc (V d (cV L) (jV L)))) (fo : Buf (Elt F) ((obufV).view.loc (V d (cV L) (jV L))))
    (hrows : RowsOK 1 n.val fbuf fo) :
    (iprop(((bufV).view.loc (V d (cV L) (jV L)) ↦[Finset.univ \ slot0M.view.set]{fullShare} fbuf) ∗ ((obufV).view.loc (V d (cV L) (jV L)) ↦{fullShare} fo)) : sProp 𝕄)
      ⊢ wp frame (wpE (defs₀ (F := F)) 𝒱₀ (V d (cV L) (jV L)) none) Set.univ
          (k0_t3_body L mbV (Memref.isWhole_whole _) hmV (Memref.isWhole_whole _) bufV (Memref.isWhole_whole _) obufV (Memref.isWhole_whole _) cc0_scratch2 cc0_scoped0 cc0_scoped1 c0 n acc)
          fun _ => iprop(((bufV).view.loc (V d (cV L) (jV L)) ↦[Finset.univ \ slot0M.view.set]{fullShare} fbuf)
            ∗ ∃ fo', ((obufV).view.loc (V d (cV L) (jV L)) ↦{fullShare} fo') ∗ ⌜RowsOK 1 (n.val + 1) fbuf fo'⌝) := by
  iintro ⟨Hb, Ho⟩
  unfold k0_t3_body
  sl_exec_parts
  sl_step
  isplitl [Hb]; · iexact Hb
  iexists _; isplitl [Ho]; · iexact Ho
  ipureintro
  exact tripStep 1 n fbuf fo (offL1 n) (hL1 n) (offS1 n) (hS1 n) (eL1 n) (eS1 n) hrows

end Cert.Proof.KI

end
-- ==== Proof.KI.Chunks.lean ====
/-
  The chunks of eight rows a tile works through: tile `w` of the thirty-two takes chunks `w`, `w + 32`, `w + 64`, …
  — forty of them for the first two tiles, thirty-nine for the others, the 1250 chunks dealt round — and past its
  last chunk it repeats its first. The printed offsets of its transfers are eight times these; and after the twenty
  trips of two chunks each every row of the tile holds its minimum.
-/
import proofs.«211044_g9509057593726_fold_wed_m_382_5_alg».proof.Proof.KI.TileDefs

noncomputable section

namespace Cert.Proof.KI

open Cert.KernelIdeal Cert.KernelIdeal.Gen Idealize.ShloMosaic

variable {F : FTy → Type} [FloatOps F]

/-- How many chunks the tile has: forty for the first two tiles, thirty-nine for the others. -/
def nmine (L : grid0.Coords) : ℕ := (if wid L < 2 then 1 else 0) + 39

/-- The tile's `i`-th chunk; past its last, its first again. -/
def chunk (L : grid0.Coords) (i : ℕ) : ℕ := if i < nmine L then wid L + 32 * i else wid L

/-- Each of the forty chunks a tile names lies inside the array. -/
theorem chunk_le (L : grid0.Coords) (i : ℕ) (hi : i < 40) : 8 * chunk L i + 8 ≤ 10000 := by
  have h1 : (L 1).val < 16 := (L 1).isLt
  have h0 : (L 0).val < 2 := (L 0).isLt
  unfold chunk nmine wid
  split_ifs <;> omega

/-- The first fetch's offset. -/
theorem off1_chunk (L : grid0.Coords) : k0_off1 L = ![8 * chunk L 0, 0, 0] := by
  rw [k0_off1_eq L]
  have h : 16 * (L 1).val + 8 * (L 0).val = 8 * chunk L 0 := by
    unfold chunk nmine wid
    split_ifs <;> omega
  rw [h]

/-- The fetch ahead within a trip: the trip's second chunk. -/
theorem off3_chunk (L : grid0.Coords) (k : Fin k0_t1_loop.trips) : k0_off3 L k = ![8 * chunk L (2 * k.val + 1), 0, 0] := by
  rw [k0_off3_eq L k]
  have hk : k.val < 20 := k.isLt
  have h1 : (L 1).val < 16 := (L 1).isLt
  have h0 : (L 0).val < 2 := (L 0).isLt
  have h : 8 * (if 2 * k.val + 1 < (if 2 * (L 1).val + (L 0).val < 2 then 1 else 0) + 39 then 2 * (L 1).val + (L 0).val + 64 * k.val + 32 else 2 * (L 1).val + (L 0).val)
      = 8 * chunk L (2 * k.val + 1) := by
    unfold chunk nmine wid
    split_ifs <;> omega
  rw [h]

/-- The fetch ahead across trips: the next trip's first chunk. -/
theorem off269_chunk (L : grid0.Coords) (k : Fin k0_t1_loop.trips) : k0_off269 L k = ![8 * chunk L (2 * (k.val + 1)), 0, 0] := by
  rw [k0_off269_eq L k]
  have hk : k.val < 20 := k.isLt
  have h1 : (L 1).val < 16 := (L 1).isLt
  have h0 : (L 0).val < 2 := (L 0).isLt
  have h : 8 * (if 2 * k.val + 2 < (if 2 * (L 1).val + (L 0).val < 2 then 1 else 0) + 39 then 2 * (L 1).val + (L 0).val + 64 * k.val + 64 else 2 * (L 1).val + (L 0).val)
      = 8 * chunk L (2 * (k.val + 1)) := by
    unfold chunk nmine wid
    split_ifs <;> omega
  rw [h]

/-- The write-back's offset: the chunk just reduced. -/
theorem off268_chunk (L : grid0.Coords) (k : Fin k0_t1_loop.trips) (r : Fin 2) :
    k0_off268 L k (BitVec.ofNat 32 r.val) = ![8 * chunk L (2 * k.val + r.val), 0] := by
  rw [k0_off268_eq L k r]
  have hk : k.val < 20 := k.isLt
  have hr : r.val < 2 := r.isLt
  have h1 : (L 1).val < 16 := (L 1).isLt
  have h0 : (L 0).val < 2 := (L 0).isLt
  have h : 8 * (if 2 * k.val + r.val < (if 2 * (L 1).val + (L 0).val < 2 then 1 else 0) + 39 then 2 * (L 1).val + (L 0).val + 64 * k.val + 32 * r.val else 2 * (L 1).val + (L 0).val)
      = 8 * chunk L (2 * k.val + r.val) := by
    unfold chunk nmine wid
    split_ifs <;> omega
  rw [h]

/-- After `k` trips: every row of the first `2 k` chunks the tile names holds its minimum over the neighbours. -/
def DoneUpTo (L : grid0.Coords) (mb : (⟨S10000x32x128, .f32⟩ : BufTy).Contents (Elt F)) (k : ℕ)
    (fh : (⟨S10000x128, .f32⟩ : BufTy).Contents (Elt F)) : Prop :=
  ∀ j : S10000x128.Idx, (∃ i, i < 2 * k ∧ (j 0).val / 8 = chunk L i) → fh j = HM mb j

theorem done_zero (L : grid0.Coords) (mb : (⟨S10000x32x128, .f32⟩ : BufTy).Contents (Elt F))
    (fh : (⟨S10000x128, .f32⟩ : BufTy).Contents (Elt F)) : DoneUpTo L mb 0 fh := by
  rintro j ⟨i, hi, -⟩
  omega

/-- One trip: its two chunks written in turn, each write leaving every other row as it was. -/
theorem done_step (L : grid0.Coords) (mb : (⟨S10000x32x128, .f32⟩ : BufTy).Contents (Elt F)) (k : ℕ)
    (fh fh1 fh2 : (⟨S10000x128, .f32⟩ : BufTy).Contents (Elt F)) (h0 : DoneUpTo L mb k fh)
    (c0 : (∀ j : S10000x128.Idx, (j 0).val / 8 = chunk L (2 * k) → fh1 j = HM mb j)
      ∧ (∀ j : S10000x128.Idx, (j 0).val / 8 ≠ chunk L (2 * k) → fh1 j = fh j))
    (c1 : (∀ j : S10000x128.Idx, (j 0).val / 8 = chunk L (2 * k + 1) → fh2 j = HM mb j)
      ∧ (∀ j : S10000x128.Idx, (j 0).val / 8 ≠ chunk L (2 * k + 1) → fh2 j = fh1 j)) :
    DoneUpTo L mb (k + 1) fh2 := by
  rintro j ⟨i, hi, hj⟩
  by_cases e1 : (j 0).val / 8 = chunk L (2 * k + 1)
  · exact c1.1 j e1
  · rw [c1.2 j e1]
    by_cases e0 : (j 0).val / 8 = chunk L (2 * k)
    · exact c0.1 j e0
    · rw [c0.2 j e0]
      refine h0 j ⟨i, ?_, hj⟩
      by_contra hlt
      have hi' : i = 2 * k ∨ i = 2 * k + 1 := by omega
      rcases hi' with rfl | rfl
      · exact e0 hj
      · exact e1 hj

/-- After the twenty trips every row dealt to the tile holds its minimum: row `x` of the tile lies in chunk
    `x / 8 = w + 32 i` with `i = x / 8 / 32 < 40`, and `i = 39` happens only for the first two tiles, which have
    forty chunks. -/
theorem done_all (L : grid0.Coords) (mb : (⟨S10000x32x128, .f32⟩ : BufTy).Contents (Elt F))
    (fh : (⟨S10000x128, .f32⟩ : BufTy).Contents (Elt F)) (h : DoneUpTo L mb 20 fh) :
    ∀ j ∈ tileSet (wid L), fh j = HM mb j := by
  intro j hj
  simp only [tileSet, Finset.mem_filter, Finset.mem_univ, true_and] at hj
  have hx : (j 0).val < 10000 := (j 0).isLt
  have h1 : (L 1).val < 16 := (L 1).isLt
  have h0 : (L 0).val < 2 := (L 0).isLt
  refine h j ⟨(j 0).val / 8 / 32, by omega, ?_⟩
  unfold chunk nmine
  unfold wid at hj ⊢
  split_ifs <;> omega

end Cert.Proof.KI

end
-- ==== Proof.KI.Tile.lean ====
/-
  One tile's task of the per-node minimum: what a vector subcore holds, and its run.
-/
import proofs.«211044_g9509057593726_fold_wed_m_382_5_alg».proof.Proof.KI.Trip
import proofs.«211044_g9509057593726_fold_wed_m_382_5_alg».proof.Proof.KI.Chunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "mbV" => (Memref.whole Cert.KernelIdeal.main_arg0_scv : Memref Cert.KernelIdeal.sig Kind.scVector Space.hbm Cert.KernelIdeal.S10000x32x128 EltTy.f32)
local notation "hmV" => (Memref.whole Cert.KernelIdeal.main_v5_scv : Memref Cert.KernelIdeal.sig Kind.scVector Space.hbm Cert.KernelIdeal.S10000x128 EltTy.f32)
local notation "bufV" => (Memref.whole Cert.KernelIdeal.cc0_scratch0 : Memref Cert.KernelIdeal.sig Kind.scVector Space.vmem Cert.KernelIdeal.S2x8x32x128 EltTy.f32)
local notation "obufV" => (Memref.whole Cert.KernelIdeal.cc0_scratch1 : Memref Cert.KernelIdeal.sig Kind.scVector Space.vmem Cert.KernelIdeal.S2x8x128 EltTy.f32)

variable [FloatOps F]

section Tile

variable (d : Dev nD) (L : grid0.Coords)

abbrev sem0cell (d : Dev nD) (c : Fin τ.nSC) (i : Fin τ.nSub) : GSem nD τ sig := (V d c i, .dma (0 : DmaSem sig))
abbrev sem1cell (d : Dev nD) (c : Fin τ.nSC) (i : Fin τ.nSub) : GSem nD τ sig := (V d c i, .dma (1 : DmaSem sig))
abbrev sem2cell (d : Dev nD) (c : Fin τ.nSC) (i : Fin τ.nSub) : GSem nD τ sig := (V d c i, .dma cc0_scoped0.sem)
abbrev sem3cell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (sem0cell d (cV L) (jV L)) 0 ∗ semVal (sem1cell d (cV L) (jV L)) 0 ∗ semVal (sem2cell d (cV L) (jV L)) 0 ∗ semVal (sem3cell d (cV L) (jV L)) 0
          ∗ bigSep (((((ownCells (V d (cV L) (jV L))).erase (sem0cell d (cV L) (jV L))).erase (sem1cell d (cV L) (jV L))).erase (sem2cell d (cV L) (jV L))).erase (sem3cell d (cV L) (jV L))) fun g => semVal g 0) := by
  unfold SparseCore.Cfg.ownSems0
  rw [SparseCore.bigSep_erase' ((mem_ownCells (g := sem0cell d (cV L) (jV L))).mpr ⟨rfl, by
      show (SemLoc.dma (0 : DmaSem sig) : SemLoc sig).isScoped .scVector = true; decide⟩),
    SparseCore.bigSep_erase' (Finset.mem_erase.mpr ⟨fun e => absurd (Prod.mk.inj e).2 (by decide), (mem_ownCells (g := sem1cell d (cV L) (jV L))).mpr ⟨rfl, by
      show (SemLoc.dma (1 : DmaSem sig) : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := sem2cell d (cV L) (jV L))).mpr ⟨rfl, by show (SemLoc.dma cc0_scoped0.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide),
      (mem_ownCells (g := sem3cell d (cV L) (jV L))).mpr ⟨rfl, by show (SemLoc.dma cc0_scoped1.sem : SemLoc sig).isScoped .scVector = true; decide⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem hc1 : ∀ k : Fin k0_t1_loop.trips, k0_cond1 k = 1#1 := by decide +kernel
omit [FloatOps F] in
theorem hc2 : ∀ k : Fin k0_t1_loop.trips, k0_cond2 k = 1#1 ↔ k.val + 1 < 20 := by decide +kernel

omit [FloatOps F] in
/-- A share of an array at some contents, the contents given a name. -/
theorem pts_name {ℓ : Loc nD τ sig} {I : Finset (Idx ℓ)} {q : PosShare TreeShare} (f : Buf (Elt F) ℓ) :
    (ℓ ↦[I]{q} f : sProp 𝕄) ⊢ iprop(∃ g, ⌜g = f⌝ ∗ ℓ ↦[I]{q} g) := by
  iintro H; iexists f; isplitr
  · ipureintro; rfl
  · iexact H

/-- What slot 0 of the input staging buffer holds once the copy of chunk `g`'s eight rows of the mailbox has landed in
    it: the buffer's earlier contents `fb` with that slot overwritten by those rows. -/
def Landing0 (mb : (⟨S10000x32x128, .f32⟩ : BufTy).Contents (Elt F)) (g : ℕ) (f0 : Buf (Elt F) ((bufV).view.loc (V d (cV L) (jV L)))) : Prop :=
  ∃ (fb : Buf (Elt F) ((bufV).view.loc (V d (cV L) (jV L)))) (off : Fin 3 → ℕ) (h : ∀ a, off a + S8x32x128.size a ≤ S10000x32x128.size a),
    off = ![8 * g, 0, 0] ∧
    f0 = View.write (Elt F) slot0M.view fb (ReadAs.same.apply (View.read (Elt F) ((mbV).slice (Rect.unit (s := S10000x32x128) off S8x32x128.size h) (fun _ => rfl)).view mb)) Finset.univ

/-- Inside slot `b`'s node loop, before node `n`: the input staging buffer, at contents that do not change, held on `Sb`
    (all of it but the slot a copy is landing in); the output staging buffer with rows `0 ‥ n` of slot `b` done. -/
def invI (b : Fin 2) (Sb : Finset (Idx ((bufV).view.loc (V d (cV L) (jV L))))) (fbuf : Buf (Elt F) ((bufV).view.loc (V d (cV L) (jV L)))) (n : ℕ) (_ : PUnit) : sProp 𝕄 :=
  iprop(((bufV).view.loc (V d (cV L) (jV L)) ↦[Sb]{fullShare} fbuf)
    ∗ ∃ fo, ((obufV).view.loc (V d (cV L) (jV L)) ↦{fullShare} fo) ∗ ⌜RowsOK b n fbuf fo⌝)

/-- Before trip `k` of the chunk loop: the tile's first `2k` chunks of the result are done; the output staging buffer at
    some contents; the two write-back cells and slot 1's cell at zero; and — while trips remain — the copy of chunk
    `2k` in flight into slot 0 of the input staging buffer, the rest of that buffer and of the mailbox share kept beside
    it; after the last trip slot 0's cell at zero and both held whole. -/
def invO (q : PosShare TreeShare) (O : CellTallies nD τ sig (HIx 1)) (W : Waits sig (HIx 1)) (k : ℕ) (_ : PUnit) : sProp 𝕄 :=
  iprop(Transfers.MayWaits (V d (cV L) (jV L)) (default : HIx 1) O
    ∗ (∃ fo, (obufV).view.loc (V d (cV L) (jV L)) ↦{fullShare} fo)
    ∗ (∃ fh, ((hmV).view.loc (V d (cV L) (jV L)) ↦[Finset.univ \ others (wid L)]{fullShare} fh) ∗ ⌜DoneUpTo L (mb0 m d) k fh⌝)
    ∗ semVal (sem1cell d (cV L) (jV L)) 0 ∗ semVal (sem2cell d (cV L) (jV L)) 0 ∗ semVal (sem3cell d (cV L) (jV L)) 0
    ∗ (∃ W', ⌜∀ p ∈ W', p ∈ W ∨ p.2 = none⌝ ∗ owes (V d (cV L) (jV L)) O W')
    ∗ (if k < 20 then
        iprop(∃ (S : Finset (Idx ((mbV).view.loc (V d (cV L) (jV L))))) (f0 : Buf (Elt F) ((bufV).view.loc (V d (cV L) (jV L)))),
          ⌜Landing0 d L (mb0 m d) (chunk L (2 * k)) f0⌝
          ∗ Transfers.Flight countersEmb (V d (cV L) (jV L)) (SemLoc.dma (0 : DmaSem sig)) (default : HIx 1) 1048576
            iprop(((bufV).view.loc (V d (cV L) (jV L)) ↦[slot0M.view.set]{fullShare} f0)
              ∗ (mbV).view.loc (V d (cV L) (jV L)) ↦[S]{q} m (mbLoc d))
          ∗ ((mbV).view.loc (V d (cV L) (jV L)) ↦[Finset.univ \ S]{q} m (mbLoc d))
          ∗ ((bufV).view.loc (V d (cV L) (jV L)) ↦[Finset.univ \ slot0M.view.set]{fullShare} f0))
      else
        iprop(semVal (sem0cell d (cV L) (jV L)) 0 ∗ ((mbV).view.loc (V d (cV L) (jV L)) ↦{q} m (mbLoc d))
          ∗ ∃ fb, (bufV).view.loc (V d (cV L) (jV L)) ↦{fullShare} fb)))

end Tile

set_option maxHeartbeats 8000000 in
set_option sl_exec.dmaWindow true in
/-- The tile's task (`TileStmt`): the first chunk's copy is started; each trip of the chunk loop waits for a slot, starts
    the next chunk's copy into the other slot, takes the minima of the landed slot's eight nodes into the output staging
    buffer and writes them out to the chunk's rows of the result; after forty chunks every row of the tile is done. -/
theorem tile_body : TileStmt m := by
  intro d L hF q O W hO
  have hd0 : ∀ (k : Fin k0_t1_loop.trips) h, Disjoint ((hmV).slice (Rect.unit (s := S10000x128) (k0_off268 L k 0#32) S8x128.size h) (fun _ => rfl)).view.set (others (wid L)) :=
    fun k h => win_disj L 0 k h
  have hd1 : ∀ (k : Fin k0_t1_loop.trips) h, Disjoint ((hmV).slice (Rect.unit (s := S10000x128) (k0_off268 L k 1#32) S8x128.size h) (fun _ => rfl)).view.set (others (wid L)) :=
    fun k h => win_disj L 1 k h
  simp only [cc0__sc_min_eq_skeleton]; unfold cc0__sc_min_skel
  rw [(K (F := F)).scopedBufs_V hF d (cV L) (jV L), SparseCore.Cfg.scopedSems0_V (Val := Elt F) d (cV L) (jV L), ownSems0_V, ownBufs_V]
  iintro ⟨#Hlv, -, ⟨Hmb, Hhm⟩, ⟨⟨%fb, Hb⟩, ⟨%fo, Ho⟩, Hbufs⟩, ⟨Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hmb' := (Entails.of_eq (show ((mbV).view.loc (V d (cV L) (jV L)) ↦{q} m (mbLoc d) : sProp 𝕄) = mbPts m d q from rfl).symm) $$ Hmb
  ihave Hhm' := (Entails.of_eq (show ((hmV).view.loc (V d (cV L) (jV L)) ↦[Finset.univ \ others (wid L)]{fullShare} m (hmLoc d) : sProp 𝕄) = hmPts d (wid L) (m (hmLoc d)) from rfl).symm) $$ Hhm
  ihave Hb' := (Entails.of_eq (show ((bufV).view.loc (V d (cV L) (jV L)) ↦{fullShare} fb : sProp 𝕄) = ((V d (cV L) (jV L)).loc cc0_scratch0 ↦{fullShare} fb) from rfl).symm) $$ Hb
  ihave Ho' := (Entails.of_eq (show ((obufV).view.loc (V d (cV L) (jV L)) ↦{fullShare} fo : sProp 𝕄) = ((V d (cV L) (jV L)).loc cc0_scratch1 ↦{fullShare} fo) from rfl).symm) $$ Ho
  sl_exec
  sl_for (invO m d L q O W) $$ [Hmw Hmb' Hhm' Hb' Ho' Hs0 Hs1 Hs2 Hs3 HO]
  case region =>
    intro k _
    have k0_h1 : k0_cond1 k = 1#1 := hc1 k
    have hk20 : k.val < 20 := k.isLt
    unfold invO; rw [if_pos hk20]
    iintro ⟨Hmw, ⟨%fo, Ho⟩, ⟨%fh, Hhm, %hdone⟩, Hs1, Hs2, Hs3, ⟨%W', %hW', HO⟩, %S, %f0, %hland, Hs0, Hmb, Hb⟩
    obtain ⟨fb, off0, hoff0, eoff0, rfl⟩ := hland
    rcases Classical.em (k0_cond2 k = 1#1) with k0_h2 | k0_h2
    · have hk1 : k.val + 1 < 20 := (hc2 k).mp k0_h2
      sl_exec_parts
      ihave Hn := (pts_name _) $$ Hb
      icases Hn with ⟨%fbuf, %hfb, Hb⟩
      rw [← hfb]
      have hs0 : ∀ (n : Fin 8) (r : Fin 32) (c : Fin 128), fbuf (ix4 (0 : Fin 2) n r c) = mb0 m d (ix3 (⟨8 * chunk L (2 * k.val) + n.val, by have := n.isLt; have := chunk_le L (2 * k.val) (by omega); omega⟩ : Fin 10000) r c) := by
        intro n r c; rw [hfb]
        refine (landing_other (1 : Fin 2) _ _ _ _ rfl _ _ (ix4 (0 : Fin 2) n r c) (show ((ix4 (0 : Fin 2) n r c) 0).val ≠ (1 : Fin 2).val from Nat.zero_ne_one)).trans ?_
        exact landing_apply (0 : Fin 2) (chunk L (2 * k.val)) _ _ _ _ (chunk_le L _ (by omega)) rfl eoff0 _ _ n r c
      have hs1 : ∀ (n : Fin 8) (r : Fin 32) (c : Fin 128), fbuf (ix4 (1 : Fin 2) n r c) = mb0 m d (ix3 (⟨8 * chunk L (2 * k.val + 1) + n.val, by have := n.isLt; have := chunk_le L (2 * k.val + 1) (by omega); omega⟩ : Fin 10000) r c) := by
        intro n r c; rw [hfb]
        exact landing_apply (1 : Fin 2) (chunk L (2 * k.val + 1)) _ _ _ _ (chunk_le L _ (by omega)) rfl (off3_chunk L k) _ _ n r c
      sl_for (invI d L 0 (Finset.univ \ slot1M.view.set) fbuf) $$ [Hb Ho]
      case region =>
        intro n acc; unfold invI; iintro ⟨Hb, %fo', Ho, %hrows⟩
        iapply (trip0 d L _ _ _ _ k n acc fbuf fo' hrows) $$ [Hb Ho]
        isplitl [Hb]; · iexact Hb
        iexact Ho
      · unfold invI; isplitl [Hb]; · iexact Hb
        iexists _; isplitl [Ho]; · iexact Ho
        ipureintro; exact fun n' h => absurd h (Nat.not_lt_zero _)
      iintro %_ HI; unfold invI; icases HI with ⟨Hb, %fo1, Ho, %hrows0⟩
      sl_exec_parts
      ihave Hn := (pts_name _) $$ Hb
      icases Hn with ⟨%fbuf2, %hfb2, Hb⟩
      rw [← hfb2]
      have hs1' : ∀ (n : Fin 8) (r : Fin 32) (c : Fin 128), fbuf2 (ix4 (1 : Fin 2) n r c) = mb0 m d (ix3 (⟨8 * chunk L (2 * k.val + 1) + n.val, by have := n.isLt; have := chunk_le L (2 * k.val + 1) (by omega); omega⟩ : Fin 10000) r c) := by
        intro n r c; rw [hfb2]
        exact (landing_other (0 : Fin 2) _ _ _ _ rfl _ _ (ix4 (1 : Fin 2) n r c) (show ((ix4 (1 : Fin 2) n r c) 0).val ≠ (0 : Fin 2).val from Nat.one_ne_zero)).trans (hs1 n r c)
      sl_for (invI d L 1 (Finset.univ \ slot0M.view.set) fbuf2) $$ [Hb Ho]
      case region =>
        intro n acc; unfold invI; iintro ⟨Hb, %fo', Ho, %hrows⟩
        iapply (trip1 d L _ n acc fbuf2 fo' hrows) $$ [Hb Ho]
        isplitl [Hb]; · iexact Hb
        iexact Ho
      · unfold invI; isplitl [Hb]; · iexact Hb
        iexists _; isplitl [Ho]; · iexact Ho
        ipureintro; exact fun n' h => absurd h (Nat.not_lt_zero _)
      iintro %_ HI; unfold invI; icases HI with ⟨Hb, %fo2, Ho, %hrows1⟩
      sl_exec_parts
      sl_step
      rw [if_pos hk1]
      isplitl [Hmw]; · iexact Hmw
      isplitl [Ho]; · iexists _; iexact Ho
      isplitl [Hhm]
      · iexists _; isplitl [Hhm]; · iexact Hhm
        ipureintro
        exact done_step L (mb0 m d) k.val fh _ _ hdone
          (chunk_done (0 : Fin 2) (chunk L (2 * k.val)) _ _ _ _ (chunk_le L _ (by omega)) rfl (off268_chunk L k 0) (mb0 m d) fbuf fo1 fh hs0 hrows0)
          (chunk_done (1 : Fin 2) (chunk L (2 * k.val + 1)) _ _ _ _ (chunk_le L _ (by omega)) rfl (off268_chunk L k 1) (mb0 m d) fbuf2 fo2 _ hs1' hrows1)
      isplitl [Hs1]; · iexact Hs1
      isplitl [Hs2]; · iexact Hs2
      isplitl [Hs3]; · iexact Hs3
      isplitl [HO]
      ·
        iexists _; isplitr
        swap; · iexact HO
        ipureintro; intro p hp
        repeat (rcases Finset.mem_insert.mp hp with hp | hp; · exact .inr (hp ▸ rfl))
        exact hW' p hp
      iexists _, fbuf2
      isplitr
      · ipureintro; exact ⟨fbuf, k0_off269 L k, _, off269_chunk L k, hfb2⟩
      isplitl [Hs0]; · iexact Hs0
      isplitl [Hmb]; · iexact Hmb
      iexact Hb
    · have hk1 : ¬ (k.val + 1 < 20) := fun h => k0_h2 ((hc2 k).mpr h)
      sl_exec_parts
      ihave Hn := (pts_name _) $$ Hb
      icases Hn with ⟨%fbuf, %hfb, Hb⟩
      rw [← hfb]
      have hs0 : ∀ (n : Fin 8) (r : Fin 32) (c : Fin 128), fbuf (ix4 (0 : Fin 2) n r c) = mb0 m d (ix3 (⟨8 * chunk L (2 * k.val) + n.val, by have := n.isLt; have := chunk_le L (2 * k.val) (by omega); omega⟩ : Fin 10000) r c) := by
        intro n r c; rw [hfb]
        refine (landing_other (1 : Fin 2) _ _ _ _ rfl _ _ (ix4 (0 : Fin 2) n r c) (show ((ix4 (0 : Fin 2) n r c) 0).val ≠ (1 : Fin 2).val from Nat.zero_ne_one)).trans ?_
        exact landing_apply (0 : Fin 2) (chunk L (2 * k.val)) _ _ _ _ (chunk_le L _ (by omega)) rfl eoff0 _ _ n r c
      have hs1 : ∀ (n : Fin 8) (r : Fin 32) (c : Fin 128), fbuf (ix4 (1 : Fin 2) n r c) = mb0 m d (ix3 (⟨8 * chunk L (2 * k.val + 1) + n.val, by have := n.isLt; have := chunk_le L (2 * k.val + 1) (by omega); omega⟩ : Fin 10000) r c) := by
        intro n r c; rw [hfb]
        exact landing_apply (1 : Fin 2) (chunk L (2 * k.val + 1)) _ _ _ _ (chunk_le L _ (by omega)) rfl (off3_chunk L k) _ _ n r c
      sl_for (invI d L 0 (Finset.univ \ slot1M.view.set) fbuf) $$ [Hb Ho]
      case region =>
        intro n acc; unfold invI; iintro ⟨Hb, %fo', Ho, %hrows⟩
        iapply (trip0 d L _ _ _ _ k n acc fbuf fo' hrows) $$ [Hb Ho]
        isplitl [Hb]; · iexact Hb
        iexact Ho
      · unfold invI; isplitl [Hb]; · iexact Hb
        iexists _; isplitl [Ho]; · iexact Ho
        ipureintro; exact fun n' h => absurd h (Nat.not_lt_zero _)
      iintro %_ HI; unfold invI; icases HI with ⟨Hb, %fo1, Ho, %hrows0⟩
      sl_exec_parts
      ihave Hsp := (pointsTo_split_subset (q := fullShare) (f := fbuf) (S := Finset.univ) (Finset.subset_univ slot0M.view.set)).1 $$ Hb
      icases Hsp with ⟨Hb0, Hb⟩
      sl_for (invI d L 1 (Finset.univ \ slot0M.view.set) fbuf) $$ [Hb Ho]
      case region =>
        intro n acc; unfold invI; iintro ⟨Hb, %fo', Ho, %hrows⟩
        iapply (trip1 d L _ n acc fbuf fo' hrows) $$ [Hb Ho]
        isplitl [Hb]; · iexact Hb
        iexact Ho
      · unfold invI; isplitl [Hb]; · iexact Hb
        iexists _; isplitl [Ho]; · iexact Ho
        ipureintro; exact fun n' h => absurd h (Nat.not_lt_zero _)
      iintro %_ HI; unfold invI; icases HI with ⟨Hb, %fo2, Ho, %hrows1⟩
      have hs1' := hs1
      sl_exec_parts
      sl_step
      rw [if_neg hk1]
      isplitl [Hmw]; · iexact Hmw
      isplitl [Ho]; · iexists _; iexact Ho
      isplitl [Hhm]
      · iexists _; isplitl [Hhm]; · iexact Hhm
        ipureintro
        exact done_step L (mb0 m d) k.val fh _ _ hdone
          (chunk_done (0 : Fin 2) (chunk L (2 * k.val)) _ _ _ _ (chunk_le L _ (by omega)) rfl (off268_chunk L k 0) (mb0 m d) fbuf fo1 fh hs0 hrows0)
          (chunk_done (1 : Fin 2) (chunk L (2 * k.val + 1)) _ _ _ _ (chunk_le L _ (by omega)) rfl (off268_chunk L k 1) (mb0 m d) fbuf fo2 _ hs1' hrows1)
      isplitl [Hs1]; · iexact Hs1
      isplitl [Hs2]; · iexact Hs2
      isplitl [Hs3]; · iexact Hs3
      isplitl [HO]
      ·
        iexists _; isplitr
        swap; · iexact HO
        ipureintro; intro p hp
        repeat (rcases Finset.mem_insert.mp hp with hp | hp; · exact .inr (hp ▸ rfl))
        exact hW' p hp
      isplitl [Hs0]; · iexact Hs0
      isplitl [Hmb]; · iexact Hmb
      iexists fbuf
      iapply (pointsTo_split_subset (q := fullShare) (f := fbuf) (S := Finset.univ) (Finset.subset_univ slot0M.view.set)).2
      isplitl [Hb0]; · iexact Hb0
      iexact Hb
  · unfold invO; rw [if_pos (show (0 : ℕ) < 20 by decide)]
    isplitl [Hmw]; · iexact Hmw
    isplitl [Ho']; · iexists _; iexact Ho'
    isplitl [Hhm']
    · iexists _; isplitl [Hhm']; · iexact Hhm'
      ipureintro; exact done_zero L _ _
    isplitl [Hs1]; · iexact Hs1
    isplitl [Hs2]; · iexact Hs2
    isplitl [Hs3]; · iexact Hs3
    isplitl [HO]
    · iexists W; isplitr
      · ipureintro; exact fun p hp => .inl hp
      · iexact HO
    iexists _, _
    isplitr
    · ipureintro; exact ⟨fb, k0_off1 L, k0_off1_inb L, off1_chunk L, rfl⟩
    isplitl [Hs0]; · iexact Hs0
    isplitl [Hmb']; · iexact Hmb'
    iexact Hb'
  iintro %_ HI
  unfold invO; rw [if_neg (show ¬ (Scf.trips k0_t1_loop.lb k0_t1_loop.ub k0_t1_loop.st < 20) by decide)]
  icases HI with ⟨-, ⟨%fo2, Ho⟩, ⟨%fh, Hhm, %hdone⟩, Hs1, Hs2, Hs3, ⟨%W', %hW', HO⟩, Hs0, Hmb, %fb2, Hb⟩
  sl_exec
  sl_step
  have hfin : ∀ j ∈ Finset.univ \ others (wid L), fh j = HM (mb0 m d) j :=
    fun j hj => done_all L (mb0 m d) fh hdone j (univ_sdiff_others (wid L) ▸ hj)
  isplitl [Hmb Hhm]
  · isplitl [Hmb]; · iexact Hmb
    iapply (Entails.of_eq (pointsTo_congr (ℓ := hmLoc d) (q := fullShare) hfin)); iexact Hhm
  isplitl [Hb Ho Hbufs]
  · isplitl [Hb]; · iexists _; iexact Hb
    isplitl [Ho]; · iexists _; iexact Ho
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

end Cert.Proof.KI

end
-- ==== Proof.KI.LaunchPay.lean ====
/-
  What the vector-subcore call's handshakes carry. The mailbox is read by every tile, so it goes out as read shares: one
  per SparseCore off the whole, one per tile off its SparseCore's, the remainders kept by whoever split and joined back
  afterwards. The per-node minimum is written by rows: a SparseCore takes the rows whose chunk has its parity, a tile the
  rows whose chunk is dealt to it, and they come back at the one function that is the minimum over the neighbours.
-/
import proofs.«211044_g9509057593726_fold_wed_m_382_5_alg».proof.Proof.KI.TileDefs
import Idealize.ShloMosaic.Lib.SparseCore.Launch
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-! ## Read shares of the mailbox -/

/-- SparseCore c's read share of the mailbox, and its tile i's. -/
abbrev coreQ (c : ℕ) : PosShare TreeShare := Transfers.shareTokN fullShare c
abbrev tileQ (c i : ℕ) : PosShare TreeShare := Transfers.shareTokN (coreQ c) i

variable [FloatOps F]

/-! ## What the handshakes carry -/

/-- The call hands SparseCore c its share of the mailbox and the rows of its parity; each tile its share and its own
    rows; and they come back with the rows at the per-node minimum of the mailbox as launched. -/
def P : (K (F := F)).Pay (nD := nD) (Val := Elt F) (Name := ℕ) (U := UU) where
  st := fun q d c => match q with
    | 0 => iprop((mbLoc d ↦{coreQ c.val} m (mbLoc d)) ∗ (hmLoc d ↦[coreSet c.val]{fullShare} m (hmLoc d)))
  dn := fun q d c => match q with
    | 0 => iprop((mbLoc d ↦{coreQ c.val} m (mbLoc d)) ∗ (hmLoc d ↦[coreSet c.val]{fullShare} HM (mb0 m d)))
  go := fun q d c i => match q with
    | 0 => iprop(mbPts m d (tileQ c.val i.val) ∗ hmPts d (2 * i.val + c.val) (m (hmLoc d)))
  td := fun q d c i => match q with
    | 0 => iprop(mbPts m d (tileQ c.val i.val) ∗ hmPts d (2 * i.val + c.val) (HM (mb0 m d)))
  x := fun _ _ => iprop(emp)

instance P_storable : (P (F := F) m).IsStorable where
  st q d c := match q with
    | 0 => (inferInstance : BI.Storable (upEmb : UEmb _ 𝕄)
        iprop((mbLoc d ↦{coreQ c.val} m (mbLoc d)) ∗ (hmLoc d ↦[coreSet c.val]{fullShare} m (hmLoc d))))
  dn q d c := match q with
    | 0 => (inferInstance : BI.Storable (upEmb : UEmb _ 𝕄)
        iprop((mbLoc d ↦{coreQ c.val} m (mbLoc d)) ∗ (hmLoc d ↦[coreSet c.val]{fullShare} HM (mb0 m d))))
  go q d c i := match q with
    | 0 => (inferInstance : BI.Storable (upEmb : UEmb _ 𝕄)
        iprop(mbPts m d (tileQ c.val i.val) ∗ hmPts d (2 * i.val + c.val) (m (hmLoc d))))
  td q d c i := match q with
    | 0 => (inferInstance : BI.Storable (upEmb : UEmb _ 𝕄)
        iprop(mbPts m d (tileQ c.val i.val) ∗ hmPts d (2 * i.val + c.val) (HM (mb0 m d))))

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_min (coordsV c s)
          (Memref.whole main_arg0_scv) (Memref.isWhole_whole _) (Memref.whole main_v5_scv) (Memref.isWhole_whole _)
          (Memref.whole cc0_scratch0) (Memref.isWhole_whole _) (Memref.whole cc0_scratch1) (Memref.isWhole_whole _)
          cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The tile's task as the launch asks it, from the tile's statement at the tile's own share. -/
theorem tileObl (htile : TileStmt m) (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) hF (tileQ c.val i.val) O W hO).trans (wp_mono frame _ _ fun _ => obl_post)

/-! ## A SparseCore's operands split among its tiles -/

omit [FloatOps F] in
/-- The rows of parity c are the rows of the sixteen tiles 2 i + c. -/
theorem rows_tiles (d : Dev nD) (c : ℕ) (hc : c < 2) (f : Buf (Elt F) (hmLoc d)) :
    (hmLoc d ↦[coreSet c]{fullShare} f : sProp 𝕄) = bigSep Finset.univ fun i : Fin 16 => hmPts d (2 * i.val + c) f := by
  rw [← tile_cover c hc, pointsTo_biUnion Finset.univ (ℓ := hmLoc d) (fun i : Fin 16 => tileSet (2 * i.val + c)) (tile_disjoint c)]
  exact bigSep_congr fun i _ => congrArg (fun I => (hmLoc d ↦[I]{fullShare} f : sProp 𝕄)) (univ_sdiff_others _).symm

/-- The call's operands for SparseCore c go out to its sixteen tiles — a read share of the mailbox each, the remainder
    kept; the rows by tile — and come back the same way, the rows at the one function. -/
theorem vecSplit : (K (F := F)).VecSplit' (P m) 0 := by
  intro d c
  have hc : c.val < 2 := c.isLt
  show iprop((mbLoc d ↦{coreQ c.val} m (mbLoc d)) ∗ (hmLoc d ↦[coreSet c.val]{fullShare} m (hmLoc d))) ⊢ |={Set.univ}=> iprop(
      (bigSep Finset.univ fun i : Fin 16 => iprop(mbPts m d (tileQ c.val i.val) ∗ hmPts d (2 * i.val + c.val) (m (hmLoc d))))
      ∗ ((bigSep Finset.univ fun i : Fin 16 => iprop(mbPts m d (tileQ c.val i.val) ∗ hmPts d (2 * i.val + c.val) (HM (mb0 m d))))
          -∗ iprop((mbLoc d ↦{coreQ c.val} m (mbLoc d)) ∗ (hmLoc d ↦[coreSet c.val]{fullShare} HM (mb0 m d)))))
  rw [bigSep_sep', bigSep_sep', rows_tiles d c.val hc, rows_tiles d c.val hc]
  iintro ⟨Hmb, Hhm⟩
  ihave Hs := (Transfers.pointsTo_toks_split (coreQ c.val) 16) $$ Hmb
  icases Hs with ⟨Hrem, Htoks⟩
  imodintro
  isplitl [Htoks Hhm]
  · isplitl [Htoks]; · iexact Htoks
    iexact Hhm
  iintro ⟨Htoks, Hhm⟩
  isplitl [Hrem Htoks]
  · iapply (Transfers.pointsTo_toks_join (coreQ c.val) 16)
    isplitl [Hrem]; · iexact Hrem
    iexact Htoks
  iexact Hhm

end Cert.Proof.KI

end
-- ==== Proof.KI.Launch.lean ====
/-
  The launch. The vector-subcore call hands each SparseCore a read share of the mailbox and the rows of its parity and
  takes them back at the per-node minimum; the TensorCore's program is five host operations on the weights and the bias,
  that call, and the pipeline; what is left at the end is the four arguments as launched and the result array at what the
  pipeline writes from the per-node minimum, the node features, the two transposed column blocks and the bias row.
-/
import proofs.«211044_g9509057593726_fold_wed_m_382_5_alg».proof.Proof.KI.LaunchPay
import proofs.«211044_g9509057593726_fold_wed_m_382_5_alg».proof.Proof.KI.Region
import Idealize.ShloMosaic.Lib.StableHlo.Run

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)

variable {F : FTy → Type}

local notation "𝕄" => MT nD τ sig (HIx 1) (Elt F) ℕ UU ℕ

variable (m : (ℓ : Loc nD τ sig) → Buf (Elt F) ℓ) (ρ : Dev nD → PrngReg)

/-! ## The host terms -/

/-- The node features, the weights and the bias as launched, on device d. -/
abbrev nf0 (d : Dev nD) : (⟨S10000x128, .f32⟩ : BufTy).Contents (Elt F) := m ((SparseCore.T d).loc main_arg1)
abbrev wt0 (d : Dev nD) : (⟨S128x256, .f32⟩ : BufTy).Contents (Elt F) := m ((SparseCore.T d).loc main_arg2)
abbrev bs0 (d : Dev nD) : (⟨S128, .f32⟩ : BufTy).Contents (Elt F) := m ((SparseCore.T d).loc main_arg3)

/-- The two transposed column blocks of the weights and the bias as one row, as the host operations compute them. -/
def W1 (d : Dev nD) : (⟨S128x128, .f32⟩ : BufTy).Contents (Elt F) :=
  transpose S128x128 [1, 0] (extractStridedSlice S128x128 ![0, 0] (wt0 m d) slices_S128x256_S128x128_0_0) transposes_S128x128_S128x128_1_0
def W3 (d : Dev nD) : (⟨S128x128, .f32⟩ : BufTy).Contents (Elt F) :=
  transpose S128x128 [1, 0] (extractStridedSlice S128x128 ![0, 128] (wt0 m d) slices_S128x256_S128x128_0_128) transposes_S128x128_S128x128_1_0
def B4 (d : Dev nD) : (⟨S1x128, .f32⟩ : BufTy).Contents (Elt F) := shapeCast S1x128 (bs0 m d) shapeCasts_S128_S1x128

variable [FloatOps F]

/-! ## The launch element -/

def u₀ : UU := (initOf (K (F := F)).hsCells (K (F := F)).hsToks, (uP₀, 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR uP₀ (1 : Counters)) $$ HR
  icases H2 with ⟨HP, -⟩
  imod (show (BI.own (((Emb.inl : Emb UP (UP × Counters)).trans embR) uP₀) : sProp 𝕄) ⊢ iprop(|==> bigSep Finset.univ fun d : Dev nD => GP (F := F) d) from fundP (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host operations before the call -/

abbrev op0 : HloOp τ sig (Elt F) := StableHlo.unary main_arg2 main_v0
  ((extractStridedSlice S128x128 ![0, 0] · slices_S128x256_S128x128_0_0) : (⟨S128x256, .f32⟩ : BufTy).Contents (Elt F) → (⟨S128x128, .f32⟩ : BufTy).Contents (Elt F))
abbrev op1 : HloOp τ sig (Elt F) := StableHlo.unary main_v0 main_v1
  ((transpose S128x128 [1, 0] · transposes_S128x128_S128x128_1_0) : (⟨S128x128, .f32⟩ : BufTy).Contents (Elt F) → (⟨S128x128, .f32⟩ : BufTy).Contents (Elt F))
abbrev op2 : HloOp τ sig (Elt F) := StableHlo.unary main_arg2 main_v2
  ((extractStridedSlice S128x128 ![0, 128] · slices_S128x256_S128x128_0_128) : (⟨S128x256, .f32⟩ : BufTy).Contents (Elt F) → (⟨S128x128, .f32⟩ : BufTy).Contents (Elt F))
abbrev op3 : HloOp τ sig (Elt F) := StableHlo.unary main_v2 main_v3
  ((transpose S128x128 [1, 0] · transposes_S128x128_S128x128_1_0) : (⟨S128x128, .f32⟩ : BufTy).Contents (Elt F) → (⟨S128x128, .f32⟩ : BufTy).Contents (Elt F))
abbrev op4 : HloOp τ sig (Elt F) := StableHlo.reshape main_arg3 main_v4 rfl shapeCasts_S128_S1x128

/-- The five host operations, in order. -/
def hostOps0 : List (HloOp τ sig (Elt F)) := [op0, op1, op2, op3, op4]

/-- The TensorCore's program is those five, the vector-subcore call, the pipeline. -/
theorem main_eq (d : Dev nD) :
    main (F := F) d = StableHlo.seq (hostOps0 (F := F)) >>= fun _ => ((sc (F := F)).run d 0 >>= fun _ => regionCall (F := F) >>= fun _ => pure ⟨⟩) := rfl

/-! ## The TensorCore's arrays -/

abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The seven arrays the host operations touch. -/
abbrev S7 : Finset (DevRef τ sig) := {a2', a3', v0', v1', v2', v3', v4'}

omit [FloatOps F] in
theorem held_S7 (d : Dev nD) (W : Valuation τ sig (Elt F)) :
    (held (SparseCore.T d) S7 W : sProp 𝕄) = iprop((((SparseCore.T d).loc main_arg2) ↦{fullShare} W a2') ∗ (((SparseCore.T d).loc main_arg3) ↦{fullShare} W a3')
      ∗ (((SparseCore.T d).loc main_v0) ↦{fullShare} W v0') ∗ (((SparseCore.T d).loc main_v1) ↦{fullShare} W v1') ∗ (((SparseCore.T d).loc main_v2) ↦{fullShare} W v2')
      ∗ (((SparseCore.T d).loc main_v3) ↦{fullShare} W v3') ∗ (((SparseCore.T d).loc main_v4) ↦{fullShare} W v4')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((mbLoc d ↦{fullShare} W main_arg0) ∗ (((SparseCore.T d).loc main_arg1) ↦{fullShare} W main_arg1)
      ∗ (((SparseCore.T d).loc main_arg2) ↦{fullShare} W main_arg2) ∗ (((SparseCore.T d).loc main_arg3) ↦{fullShare} W main_arg3)
      ∗ (((SparseCore.T d).loc main_v0) ↦{fullShare} W main_v0) ∗ (((SparseCore.T d).loc main_v1) ↦{fullShare} W main_v1) ∗ (((SparseCore.T d).loc main_v2) ↦{fullShare} W main_v2)
      ∗ (((SparseCore.T d).loc main_v3) ↦{fullShare} W main_v3) ∗ (((SparseCore.T d).loc main_v4) ↦{fullShare} W main_v4)
      ∗ (hmLoc d ↦{fullShare} W main_v5) ∗ (outLoc d ↦{fullShare} W main_v6)) := by
  unfold unscopedBufs
  rw [show (Finset.univ.filter fun b : Ref sig .tc => ¬ b.isScoped)
      = {main_arg0, main_arg1, main_arg2, main_arg3, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch contents as a valuation of the device's buffers. -/
def V0 (d : Dev nD) : Valuation τ sig (Elt F) := fun b => m (d, b)

theorem hostOps_sub : ∀ op ∈ (hostOps0 (F := F)), op.bufs ⊆ S7 := by
  intro op hop
  simp only [hostOps0, List.mem_cons, List.not_mem_nil, or_false] at hop
  rcases hop with rfl | rfl | rfl | rfl | rfl
  · show ({a2', v0'} : Finset (DevRef τ sig)) ⊆ S7; decide
  · show ({v0', v1'} : Finset (DevRef τ sig)) ⊆ S7; decide
  · show ({a2', v2'} : Finset (DevRef τ sig)) ⊆ S7; decide
  · show ({v2', v3'} : Finset (DevRef τ sig)) ⊆ S7; decide
  · show ({a3', v4'} : Finset (DevRef τ sig)) ⊆ S7; decide

theorem hostOps_fresh : ∀ op ∈ (hostOps0 (F := F)), op.fresh = ∅ := by
  intro op hop
  simp only [hostOps0, List.mem_cons, List.not_mem_nil, or_false] at hop
  rcases hop with rfl | rfl | rfl | rfl | rfl <;> rfl

/-- After the five operations: the weights and the bias as they were, the two transposed column blocks and the bias row
    in their arrays. -/
theorem after_a2 (d : Dev nD) : after (hostOps0 (F := F)) (V0 m d) a2' = wt0 m d := by
  unfold hostOps0; after_results; rfl
theorem after_a3 (d : Dev nD) : after (hostOps0 (F := F)) (V0 m d) a3' = bs0 m d := by
  unfold hostOps0; after_results; rfl
theorem after_v1 (d : Dev nD) : after (hostOps0 (F := F)) (V0 m d) v1' = W1 m d := by
  unfold hostOps0; after_results; rfl
theorem after_v3 (d : Dev nD) : after (hostOps0 (F := F)) (V0 m d) v3' = W3 m d := by
  unfold hostOps0; after_results; rfl
theorem after_v4 (d : Dev nD) : after (hostOps0 (F := F)) (V0 m d) v4' = B4 m d := by
  unfold hostOps0; after_results; rfl

/-! ## @main on the TensorCore -/

omit [FloatOps F] in
/-- The per-node minimum's rows, by SparseCore. -/
theorem hm_cores (d : Dev nD) (f : Buf (Elt F) (hmLoc d)) :
    (hmLoc d ↦{fullShare} f : sProp 𝕄) = bigSep Finset.univ fun c : Fin 2 => hmLoc d ↦[coreSet c.val]{fullShare} f := by
  rw [← pointsTo_biUnion Finset.univ (ℓ := hmLoc d) (fun c : Fin 2 => coreSet c.val) core_disjoint, core_cover]; try rfl

theorem st0_eq (d : Dev nD) :
    (bigSep Finset.univ fun c : Fin ((K (F := F)).nCore 0) => (P m).st 0 d c)
      = iprop((bigSep Finset.univ fun c : Fin 2 => mbLoc d ↦{coreQ c.val} m (mbLoc d)) ∗ (hmLoc d ↦{fullShare} m (hmLoc d))) := by
  rw [hm_cores]
  exact bigSep_sep' (Finset.univ : Finset (Fin 2)) _ _
theorem dn0_eq (d : Dev nD) :
    (bigSep Finset.univ fun c : Fin ((K (F := F)).nCore 0) => (P m).dn 0 d c)
      = iprop((bigSep Finset.univ fun c : Fin 2 => mbLoc d ↦{coreQ c.val} m (mbLoc d)) ∗ (hmLoc d ↦{fullShare} HM (mb0 m d))) := by
  rw [hm_cores]
  exact bigSep_sep' (Finset.univ : Finset (Fin 2)) _ _

/-- What @main leaves the claim: the four arguments as launched, and the result array at what the pipeline writes. -/
def FIN (d : Dev nD) : sProp 𝕄 :=
  iprop((mbLoc d ↦{fullShare} m (mbLoc d)) ∗ (((SparseCore.T d).loc main_arg1) ↦{fullShare} nf0 m d) ∗ (((SparseCore.T d).loc main_arg2) ↦{fullShare} wt0 m d)
    ∗ (((SparseCore.T d).loc main_arg3) ↦{fullShare} bs0 m d)
    ∗ ∃ out : (⟨S10000x128, .f32⟩ : BufTy).Contents (Elt F), (outLoc d ↦{fullShare} out) ∗ ⌜LinSpec (HM (mb0 m d)) (nf0 m d) (W1 m d) (W3 m d) (B4 m d) out⌝)

set_option maxHeartbeats 1600000 in
/-- @main on device d's TensorCore: the host operations over the seven arrays they touch, the call from a read share of
    the mailbox per SparseCore and the result's rows by parity, the pipeline from what came back. -/
theorem hmain (κ : GSem nD τ sig → ℕ) (d : Dev nD) :
    iprop((K (F := F)).ctx EH (P m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq, main_eq]
  iintro ⟨#Hctx, Hst, ⟨Hb, ⟨Ha0, Ha1, Ha2, Ha3, Hv0, Hv1, Hv2, Hv3, Hv4, Hv5, Hv6⟩, -, -⟩, HG⟩
  ihave Hheld := (Entails.of_eq (held_S7 (F := F) d (V0 m d)).symm) $$ [Ha2 Ha3 Hv0 Hv1 Hv2 Hv3 Hv4]
  · isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    iexact Hv4
  iapply (StableHlo.wp_seq 𝒱 none Set.univ d S7 _ (hostOps0 (F := F)) hostOps_sub hostOps_fresh (V0 m d)) $$ [Hb Hheld]
  · isplitl [Hb]; · iexact Hb
    iexact Hheld
  iintro ⟨Hb, Hheld⟩
  ihave Hh := (Entails.of_eq (held_S7 (F := F) d _)) $$ Hheld
  rw [after_a2, after_a3, after_v1, after_v3, after_v4]
  icases Hh with ⟨Ha2, Ha3, Hv0, Hv1, Hv2, Hv3, Hv4⟩
  simp only [wp_bind, wp_pure]
  ihave Hmb := (Transfers.pointsTo_toks_split fullShare 2) $$ Ha0
  icases Hmb with ⟨Hrem, Hmbs⟩
  iapply ((K (F := F)).wp_run (D (F := F)) 𝒱 (EH := EH) (P := P m) κ d 0) $$ [Hst Hmbs Hv5 Hrem HG Hb Ha1 Ha2 Ha3 Hv0 Hv1 Hv2 Hv3 Hv4 Hv6]
  isplitr; · iexact Hctx
  isplitl [Hst]; · iexact Hst
  isplitl [Hmbs Hv5]
  · rw [st0_eq]
    isplitl [Hmbs]; · iexact Hmbs
    iexact Hv5
  iintro ⟨Hst, Hdn⟩
  ihave Hdn' := (Entails.of_eq (dn0_eq m d)) $$ Hdn
  icases Hdn' with ⟨Hmbs, Hhm⟩
  ihave Ha0 := (Transfers.pointsTo_toks_join fullShare 2) $$ [Hrem Hmbs]
  · isplitl [Hrem]; · iexact Hrem
    iexact Hmbs
  ihave Hwp := (region_wp (HM (mb0 m d)) (nf0 m d) (W1 m d) (W3 m d) (B4 m d) κ d (P m)) $$ [Hst HG Hb Hhm Ha1 Hv1 Hv3 Hv4 Hv6]
  · isplitr; · iexact Hctx
    isplitl [Hst]; · iexact Hst
    isplitl [HG]; · iexact HG
    isplitl [Hb]; · iexact Hb
    isplitl [Hhm]; · iexact Hhm
    isplitl [Ha1]; · iexact Ha1
    isplitl [Hv1]; · iexact Hv1
    isplitl [Hv3]; · iexact Hv3
    isplitl [Hv4]; · iexact Hv4
    iexists _; iexact Hv6
  iapply (wp_wand_r frame _ Set.univ)
  isplitl [Hwp]; · iexact Hwp
  iintro %_ ⟨Hst, Hb, Hhm, Ha1, Hv1, Hv3, Hv4, ⟨%out, Hout, %hspec⟩⟩
  imodintro
  isplitl [Hst]; · iexact Hst
  unfold FIN
  isplitl [Ha0]; · iexact Ha0
  isplitl [Ha1]; · iexact Ha1
  isplitl [Ha2]; · iexact Ha2
  isplitl [Ha3]; · iexact Ha3
  iexists out
  isplitl [Hout]; · iexact Hout
  ipureintro; exact hspec

/-! ## The final memory reads the claim -/

def fq (d : Dev nD) (s' : Phys nD τ sig (Elt F)) : Prop :=
  LinSpec (HM (mb0 m d)) (nf0 m d) (W1 m d) (W3 m d) (B4 m d) (s'.mem.mem (outLoc d))
  ∧ s'.mem.mem (mbLoc d) = m (mbLoc d) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)

theorem hfin (d : Dev nD) (s' : Phys nD τ sig (Elt F)) : iprop(FIN m d ∗ SI s') ⊢ (⌜fq m d s'⌝ : sProp 𝕄) := by
  unfold FIN
  iintro ⟨⟨H0, H1, H2, H3, ⟨%out, Hout, %hspec⟩⟩, HSI⟩
  ihave H := (persistent_entails_right (SI_pointsTo_agree (st := s') (ℓ := mbLoc d) (I := Finset.univ) (q := fullShare) (f := m (mbLoc d)))) $$ [HSI H0]
  · isplitl [HSI] <;> iassumption
  icases H with ⟨%h0, HSI, -⟩
  ihave H := (persistent_entails_right (SI_pointsTo_agree (st := s') (ℓ := ((SparseCore.T d).loc main_arg1)) (I := Finset.univ) (q := fullShare) (f := nf0 m d))) $$ [HSI H1]
  · isplitl [HSI] <;> iassumption
  icases H with ⟨%h1, HSI, -⟩
  ihave H := (persistent_entails_right (SI_pointsTo_agree (st := s') (ℓ := ((SparseCore.T d).loc main_arg2)) (I := Finset.univ) (q := fullShare) (f := wt0 m d))) $$ [HSI H2]
  · isplitl [HSI] <;> iassumption
  icases H with ⟨%h2, HSI, -⟩
  ihave H := (persistent_entails_right (SI_pointsTo_agree (st := s') (ℓ := ((SparseCore.T d).loc main_arg3)) (I := Finset.univ) (q := fullShare) (f := bs0 m d))) $$ [HSI H3]
  · isplitl [HSI] <;> iassumption
  icases H with ⟨%h3, HSI, -⟩
  ihave H := (SI_pointsTo_agree (st := s') (ℓ := outLoc d) (I := Finset.univ) (q := fullShare) (f := out)) $$ [HSI Hout]
  · isplitl [HSI] <;> iassumption
  icases H with %ho
  ipureintro
  have eo : s'.mem.mem (outLoc d) = out := funext fun i => ho i (Finset.mem_univ i)
  exact ⟨eo ▸ hspec, funext fun i => h0 i (Finset.mem_univ i), funext fun i => h1 i (Finset.mem_univ i),
    funext fun i => h2 i (Finset.mem_univ i), funext fun i => h3 i (Finset.mem_univ i)⟩

/-! ## The program's run -/

/-- At the end, on every device: the result array is what the pipeline writes from the per-node minimum of the mailbox as
    launched, the node features, the two transposed column blocks and the bias row; the four arguments are as launched. -/
def QC : PUnit × MemSt nD τ sig (Elt F) → Prop := fun r => ∀ c : Dev nD,
  LinSpec (HM (mb0 m c)) (nf0 m c) (W1 m c) (W3 m c) (B4 m c) (r.2.mem (outLoc c))
  ∧ r.2.mem (mbLoc c) = m (mbLoc c) ∧ r.2.mem ((SparseCore.T c).loc main_arg1) = m ((SparseCore.T c).loc main_arg1)
  ∧ r.2.mem ((SparseCore.T c).loc main_arg2) = m ((SparseCore.T c).loc main_arg2) ∧ r.2.mem ((SparseCore.T c).loc main_arg3) = m ((SparseCore.T c).loc main_arg3)

/-- Every weakly fair execution of the device's threads terminates, with the result array and the arguments as QC says,
    given the tile's task. -/
theorem run_main [∀ e, Nonempty (Elt F e)] (htile : TileStmt m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htile facts)
    (fun q _ => match q with | 0 => SparseCore.Cfg.VecSplit.of_plain (vecSplit m))
    m ρ main (fun d => GP (F := F) d) (FIN m) (u₀ (F := F)) (sep_elim_left.trans (hu₀ m)) (hmain m ρ) (fq m) (hfin m) (QC m) (fun _ h => h)

end Cert.Proof.KI

end
-- ==== Proof.KB.Common.lean ====
/-
  The kernel program as the SparseCore launch theorem reads it: one vector-subcore call (two SparseCores,
  sixteen tiles each) followed by one TensorCore pipeline, and the resource algebra the whole run is stated in —
  the launch handshakes' rounds, the pipeline's staging cells' rounds, and the local transfers' counters.
-/
import Idealize.ShloMosaic.Lib.SparseCore.Launch
import Idealize.ShloMosaic.Lib.StableHlo.Run
import Idealize.ShloMosaic.Lib.Pipeline.Kit
import Idealize.ShloMosaic.Lib.Tactic
import proofs.«211044_g9509057593726_fold_wed_m_382_5_alg».proof.Proof.Gen.Kernel
import proofs.«211044_g9509057593726_fold_wed_m_382_5_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipeline's staging cells' rounds. -/
abbrev UP : Type := URounds (GSem nD τ sig) Unit
/-- Handshakes, then the pipeline's cells beside the local transfers' counters. -/
abbrev UU : Type := UH × (UP × Counters)

abbrev EH : Emb UH (MT nD τ sig (HIx 1) (Elt F) ℕ UU ℕ) := embL

/-! ## The arrays, as locations of a device -/

/-- The neighbour mailbox (argument 0), the per-node minimum (the SparseCore call's result) and the final result. -/
abbrev mbLoc (d : Dev nD) : Loc nD τ sig := (SparseCore.T d).loc main_arg0
abbrev hmLoc (d : Dev nD) : Loc nD τ sig := (SparseCore.T d).loc main_v5
abbrev outLoc (d : Dev nD) : Loc nD τ sig := (SparseCore.T d).loc main_v6

end Cert.Proof.KB

end
-- ==== Proof.KB.Rows.lean ====
/-
  Which rows of the per-node minimum each tile writes: chunks of eight rows are dealt round the thirty-two tiles
  (tile `w` takes the chunks congruent to `w` modulo 32), a SparseCore's sixteen tiles take the chunks of its parity.
-/
import proofs.«211044_g9509057593726_fold_wed_m_382_5_alg».proof.Proof.KB.Common

namespace Cert.Proof.KB

open Cert.Kernel Idealize.ShloMosaic

/-- The rows (all columns) whose chunk of eight is dealt to tile `w`. -/
def tileSet (w : ℕ) : Finset S10000x128.Idx := Finset.univ.filter fun j => (j 0).val / 8 % 32 = w
/-- The rows that belong to the other tiles. -/
def others (w : ℕ) : Finset S10000x128.Idx := Finset.univ.filter fun j => (j 0).val / 8 % 32 ≠ w
/-- The rows whose chunk has parity `c`: those of SparseCore `c`'s tiles. -/
def coreSet (c : ℕ) : Finset S10000x128.Idx := Finset.univ.filter fun j => (j 0).val / 8 % 2 = c

theorem univ_sdiff_others (w : ℕ) : Finset.univ \ others w = tileSet w := by
  ext j; simp [others, tileSet]

theorem tile_disjoint (c : ℕ) : ∀ i ∈ (Finset.univ : Finset (Fin 16)), ∀ j ∈ (Finset.univ : Finset (Fin 16)), i ≠ j →
    Disjoint (tileSet (2 * i.val + c)) (tileSet (2 * j.val + c)) := by
  intro i _ j _ hij
  refine Finset.disjoint_filter.mpr fun x _ h1 h2 => hij (Fin.ext ?_)
  omega

theorem tile_cover (c : ℕ) (hc : c < 2) : (Finset.univ : Finset (Fin 16)).biUnion (fun i => tileSet (2 * i.val + c)) = coreSet c := by
  ext x
  simp only [Finset.mem_biUnion, Finset.mem_univ, true_and, tileSet, coreSet, Finset.mem_filter]
  constructor
  · rintro ⟨i, hi⟩; omega
  · intro hx
    exact ⟨⟨(x 0).val / 8 % 32 / 2, by omega⟩, by show (x 0).val / 8 % 32 = 2 * ((x 0).val / 8 % 32 / 2) + c; omega⟩

theorem core_disjoint : ∀ i ∈ (Finset.univ : Finset (Fin 2)), ∀ j ∈ (Finset.univ : Finset (Fin 2)), i ≠ j →
    Disjoint (coreSet i.val) (coreSet j.val) := by
  intro i _ j _ hij
  refine Finset.disjoint_filter.mpr fun x _ h1 h2 => hij (Fin.ext ?_)
  omega

theorem core_cover : (Finset.univ : Finset (Fin 2)).biUnion (fun c => coreSet c.val) = Finset.univ := by
  ext x
  simp only [Finset.mem_biUnion, Finset.mem_univ, true_and, coreSet, Finset.mem_filter, iff_true]
  exact ⟨⟨(x 0).val / 8 % 2, by omega⟩, rfl⟩

end Cert.Proof.KB
-- ==== Proof.KB.Chain.lean ====
/-
  The per-node minimum as a tile computes it, stated once: the left-nested chain of thirty-two minima, one store's
  sixteen lanes of one node as a piece written into the output staging buffer, and what "the first rows are done" means.
-/
import proofs.«211044_g9509057593726_fold_wed_m_382_5_alg».proof.Proof.KB.Common
import Idealize.ShloMosaic.Lib.Writes
import Idealize.ShloMosaic.Lib.ValueIdx

noncomputable section

namespace Cert.Proof.KB

open Cert.Kernel Cert.Kernel.Gen Idealize.ShloMosaic Idealize.ShloMosaic.ValueIdx

variable {F : FTy → Type} [FloatOps F]

/-- The minimum of thirty-two scalars as the kernel nests it: `min (… (min (min x₀ x₁) x₂) …) x₃₁`. -/
def chainMin (x : Fin 32 → F .f32) : F .f32 :=
  (List.finRange 32).tail.foldl (fun acc r => FloatOps.minimumf acc (x r)) (x 0)

/-- The same chain on sixteen-lane vectors, written out. -/
def minChain32 (a0 a1 a2 a3 a4 a5 a6 a7 a8 a9 a10 a11 a12 a13 a14 a15 a16 a17 a18 a19 a20 a21 a22 a23 a24 a25 a26 a27 a28 a29 a30 a31 : FVec F S16 .f32) : FVec F S16 .f32 :=
  minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (a0) a1) a2) a3) a4) a5) a6) a7) a8) a9) a10) a11) a12) a13) a14) a15) a16) a17) a18) a19) a20) a21) a22) a23) a24) a25) a26) a27) a28) a29) a30) a31

/-- The chain on vectors given as a family. -/
def minChainV (v : Fin 32 → FVec F S16 .f32) : FVec F S16 .f32 :=
  minChain32 (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31)

/-- One store of a node's trip: sixteen lanes of the output staging buffer at `offS`, holding the chain over the
    thirty-two sixteen-lane loads of the input staging buffer at `offL r`. -/
def pieceOf (fbuf : (⟨S2x8x32x128, .f32⟩ : BufTy).Contents (Elt F))
    (offL : Fin 32 → Fin 4 → ℕ) (hL : ∀ r a, offL r a + S1x1x1x16.size a ≤ S2x8x32x128.size a)
    (offS : Fin 3 → ℕ) (hS : ∀ a, offS a + S1x1x16.size a ≤ S2x8x128.size a) : View.Piece (Elt F) S2x8x128 .f32 :=
  ⟨Rect.unit (s := S2x8x128) offS S1x1x16.size hS,
    shapeCast S1x1x16 (minChainV fun r => shapeCast S16
      ((Memref.whole cc0_scratch0 : Memref sig .scVector .vmem S2x8x32x128 .f32).view.readAt (Elt F)
        (Rect.unit (s := S2x8x32x128) (offL r) S1x1x1x16.size (hL r)).toLoadRect fbuf) shapeCasts_S1x1x1x16_S16) shapeCasts_S16_S1x1x16⟩

/-- A trip's eight stores, the last first (as a list of writes is kept). -/
def piecesOf (fbuf : (⟨S2x8x32x128, .f32⟩ : BufTy).Contents (Elt F))
    (offL : Fin 8 → Fin 32 → Fin 4 → ℕ) (hL : ∀ cc r a, offL cc r a + S1x1x1x16.size a ≤ S2x8x32x128.size a)
    (offS : Fin 8 → Fin 3 → ℕ) (hS : ∀ cc a, offS cc a + S1x1x16.size a ≤ S2x8x128.size a) : List (View.Piece (Elt F) S2x8x128 .f32) :=
  [pieceOf fbuf (offL 7) (hL 7) (offS 7) (hS 7), pieceOf fbuf (offL 6) (hL 6) (offS 6) (hS 6),
   pieceOf fbuf (offL 5) (hL 5) (offS 5) (hS 5), pieceOf fbuf (offL 4) (hL 4) (offS 4) (hS 4),
   pieceOf fbuf (offL 3) (hL 3) (offS 3) (hS 3), pieceOf fbuf (offL 2) (hL 2) (offS 2) (hS 2),
   pieceOf fbuf (offL 1) (hL 1) (offS 1) (hS 1), pieceOf fbuf (offL 0) (hL 0) (offS 0) (hS 0)]

/-- Rows `0 ‥ n` of slot `b` of the output staging buffer hold the chains over the matching rows of slot `b` of the
    input staging buffer. -/
def RowsOK (b : Fin 2) (n : ℕ) (fbuf : (⟨S2x8x32x128, .f32⟩ : BufTy).Contents (Elt F))
    (fo : (⟨S2x8x128, .f32⟩ : BufTy).Contents (Elt F)) : Prop :=
  ∀ n' : Fin 8, n'.val < n → ∀ c : Fin 128, fo (ix3 b n' c) = chainMin fun r => fbuf (ix4 b n' r c)

end Cert.Proof.KB

end
-- ==== Proof.KB.CopyValue.lean ====
/-
  What the two copies of a chunk do to the arrays, as pure statements about contents.  A chunk is eight consecutive
  nodes.  LANDING: rows 8g ‥ 8g + 8 of the mailbox are written into slot b of the input staging buffer, entry
  (b, n, r, c) taking the mailbox's (8g + n, r, c), the other slot untouched.  WRITE-BACK: slot b of the output staging
  buffer is written into rows 8g ‥ 8g + 8 of the result, entry (8g + n, c) taking the buffer's (b, n, c), every other row
  untouched.  So once slot b of the output staging buffer holds the chains over the landed rows, the written-back rows
  hold the per-node minimum of the mailbox, stated as one function of the whole mailbox.
-/
import proofs.«211044_g9509057593726_fold_wed_m_382_5_alg».proof.Proof.KB.Chain
import Idealize.ShloMosaic.Lib.ValueIdx
import Idealize.ShloMosaic.Lib.Pipeline.Value

noncomputable section

namespace Cert.Proof.KB

open Cert.Kernel Cert.Kernel.Gen Idealize.ShloMosaic Idealize.ShloMosaic.ValueIdx

variable {F : FTy → Type} [FloatOps F]

/-! ## The arrays and the staging buffers -/

/-- The mailbox, the per-node minimum, and the two staging buffers, as a tile names them. -/
abbrev mbM : Memref sig .scVector .hbm S10000x32x128 .f32 := Memref.whole main_arg0_scv
abbrev hmM : Memref sig .scVector .hbm S10000x128 .f32 := Memref.whole main_v5_scv
abbrev bufM : Memref sig .scVector .vmem S2x8x32x128 .f32 := Memref.whole cc0_scratch0
abbrev obufM : Memref sig .scVector .vmem S2x8x128 .f32 := Memref.whole cc0_scratch1

/-! ## The per-node minimum of the whole mailbox -/

/-- Entry (n, c) is the left-nested chain of minima over the thirty-two neighbour rows of node n at feature c. -/
def HM (mb : (⟨S10000x32x128, .f32⟩ : BufTy).Contents (Elt F)) : (⟨S10000x128, .f32⟩ : BufTy).Contents (Elt F) :=
  fun j => chainMin fun r => mb (ix3 (j 0 : Fin 10000) r (j 1 : Fin 128))

theorem HM_ix2 (mb : (⟨S10000x32x128, .f32⟩ : BufTy).Contents (Elt F)) (n : Fin 10000) (c : Fin 128) :
    HM mb (ix2 n c) = chainMin fun r => mb (ix3 n r c) := rfl

/-! ## Where the four windows sit -/

/-- Entry (n, r, c) of slot b of the input staging buffer is the buffer's entry (b, n, r, c). -/
theorem slot_emb (b : Fin 2) (offB : Fin 4 → ℕ) (hb : ∀ a, offB a + S1x8x32x128.size a ≤ S2x8x32x128.size a)
    (eB : offB = ![b.val, 0, 0, 0]) (n : Fin 8) (r : Fin 32) (c : Fin 128) :
    (((bufM.slice (Rect.unit (s := S2x8x32x128) offB S1x8x32x128.size hb) (fun _ => rfl)).squeeze S8x32x128 squeezes_S1x8x32x128_S8x32x128).view.emb (ix3 n r c) : S2x8x32x128.Idx) = ix4 b n r c := by
  subst eB
  show (Rect.unit (s := S2x8x32x128) ![b.val, 0, 0, 0] S1x8x32x128.size hb).emb (Shape.reshapeEquiv _ (ix3 n r c)) = ix4 b n r c
  have e : Shape.reshapeEquiv (s := (Rect.unit (s := S2x8x32x128) ![b.val, 0, 0, 0] S1x8x32x128.size hb).shape) (s' := S8x32x128)
      squeezes_S1x8x32x128_S8x32x128.numel_eq (ix3 n r c) = ix4 (0 : Fin 1) n r c :=
    Shape.reshapeEquiv_eq_of_rowMajor _ (by
      show ((⟨4, ![1, 8, 32, 128]⟩ : Shape).rowMajor (ix4 (0 : Fin 1) n r c)).val = ((⟨3, ![8, 32, 128]⟩ : Shape).rowMajor (ix3 n r c)).val
      rw [Shape.rowMajor_val_four, Shape.rowMajor_val_three]
      show (((0 : ℕ) * 8 + n.val) * 32 + r.val) * 128 + c.val = (n.val * 32 + r.val) * 128 + c.val
      omega)
  rw [e]
  funext a; apply Fin.ext
  match a with
  | ⟨0, _⟩ => show b.val + 1 * 0 = b.val; omega
  | ⟨1, _⟩ => show 0 + 1 * n.val = n.val; omega
  | ⟨2, _⟩ => show 0 + 1 * r.val = r.val; omega
  | ⟨3, _⟩ => show 0 + 1 * c.val = c.val; omega

/-- Every entry of slot b of the input staging buffer has first coordinate b. -/
theorem slot_emb_zero (b : Fin 2) (offB : Fin 4 → ℕ) (hb : ∀ a, offB a + S1x8x32x128.size a ≤ S2x8x32x128.size a)
    (eB : offB = ![b.val, 0, 0, 0]) (x : S8x32x128.Idx) :
    ((((bufM.slice (Rect.unit (s := S2x8x32x128) offB S1x8x32x128.size hb) (fun _ => rfl)).squeeze S8x32x128 squeezes_S1x8x32x128_S8x32x128).view.emb x : S2x8x32x128.Idx) 0).val = b.val := by
  subst eB
  show (![b.val, 0, 0, 0] : Fin 4 → ℕ) 0 + 1 * ((Shape.reshapeEquiv (s := (Rect.unit (s := S2x8x32x128) ![b.val, 0, 0, 0] S1x8x32x128.size hb).shape)
    (s' := S8x32x128) squeezes_S1x8x32x128_S8x32x128.numel_eq x) 0).val = b.val
  have h0 : ((Shape.reshapeEquiv (s := (Rect.unit (s := S2x8x32x128) ![b.val, 0, 0, 0] S1x8x32x128.size hb).shape)
    (s' := S8x32x128) squeezes_S1x8x32x128_S8x32x128.numel_eq x) 0).val < 1 := Fin.isLt _
  show b.val + 1 * _ = b.val
  omega

/-- Entry (n, r, c) of the mailbox's window at rows 8g ‥ 8g + 8 is the mailbox's entry (8g + n, r, c). -/
theorem mbs_emb (g : ℕ) (offM : Fin 3 → ℕ) (hm : ∀ a, offM a + S8x32x128.size a ≤ S10000x32x128.size a)
    (hg : 8 * g + 8 ≤ 10000) (eM : offM = ![8 * g, 0, 0]) (n : Fin 8) (r : Fin 32) (c : Fin 128) :
    ((mbM.slice (Rect.unit (s := S10000x32x128) offM S8x32x128.size hm) (fun _ => rfl)).view.emb (ix3 n r c) : S10000x32x128.Idx) = ix3 (⟨8 * g + n.val, by have := n.isLt; omega⟩ : Fin 10000) r c := by
  subst eM
  funext a; apply Fin.ext
  match a with
  | ⟨0, _⟩ => show 8 * g + 1 * n.val = 8 * g + n.val; omega
  | ⟨1, _⟩ => show 0 + 1 * r.val = r.val; omega
  | ⟨2, _⟩ => show 0 + 1 * c.val = c.val; omega

/-- Entry (n, c) of slot b of the output staging buffer is the buffer's entry (b, n, c). -/
theorem oslot_emb (b : Fin 2) (offO : Fin 3 → ℕ) (ho : ∀ a, offO a + S1x8x128.size a ≤ S2x8x128.size a)
    (eO : offO = ![b.val, 0, 0]) (n : Fin 8) (c : Fin 128) :
    (((obufM.slice (Rect.unit (s := S2x8x128) offO S1x8x128.size ho) (fun _ => rfl)).squeeze S8x128 squeezes_S1x8x128_S8x128).view.emb (ix2 n c) : S2x8x128.Idx) = ix3 b n c := by
  subst eO
  show (Rect.unit (s := S2x8x128) ![b.val, 0, 0] S1x8x128.size ho).emb (Shape.reshapeEquiv _ (ix2 n c)) = ix3 b n c
  have e : Shape.reshapeEquiv (s := (Rect.unit (s := S2x8x128) ![b.val, 0, 0] S1x8x128.size ho).shape) (s' := S8x128)
      squeezes_S1x8x128_S8x128.numel_eq (ix2 n c) = ix3 (0 : Fin 1) n c :=
    Shape.reshapeEquiv_eq_of_rowMajor _ (by
      show ((⟨3, ![1, 8, 128]⟩ : Shape).rowMajor (ix3 (0 : Fin 1) n c)).val = ((⟨2, ![8, 128]⟩ : Shape).rowMajor (ix2 n c)).val
      rw [Shape.rowMajor_val_three, Shape.rowMajor_val_two]
      show ((0 : ℕ) * 8 + n.val) * 128 + c.val = n.val * 128 + c.val
      omega)
  rw [e]
  funext a; apply Fin.ext
  match a with
  | ⟨0, _⟩ => show b.val + 1 * 0 = b.val; omega
  | ⟨1, _⟩ => show 0 + 1 * n.val = n.val; omega
  | ⟨2, _⟩ => show 0 + 1 * c.val = c.val; omega

/-- Entry (n, c) of the result's window at rows 8g ‥ 8g + 8 is the result's entry (8g + n, c). -/
theorem hms_emb (g : ℕ) (offH : Fin 2 → ℕ) (hh : ∀ a, offH a + S8x128.size a ≤ S10000x128.size a)
    (hg : 8 * g + 8 ≤ 10000) (eH : offH = ![8 * g, 0]) (n : Fin 8) (c : Fin 128) :
    ((hmM.slice (Rect.unit (s := S10000x128) offH S8x128.size hh) (fun _ => rfl)).view.emb (ix2 n c) : S10000x128.Idx) = ix2 (⟨8 * g + n.val, by have := n.isLt; omega⟩ : Fin 10000) c := by
  subst eH
  funext a; apply Fin.ext
  match a with
  | ⟨0, _⟩ => show 8 * g + 1 * n.val = 8 * g + n.val; omega
  | ⟨1, _⟩ => show 0 + 1 * c.val = c.val; omega

/-- Every entry of the result's window at rows 8g ‥ 8g + 8 lies in chunk g. -/
theorem hms_emb_zero (g : ℕ) (offH : Fin 2 → ℕ) (hh : ∀ a, offH a + S8x128.size a ≤ S10000x128.size a)
    (eH : offH = ![8 * g, 0]) (x : S8x128.Idx) :
    (((hmM.slice (Rect.unit (s := S10000x128) offH S8x128.size hh) (fun _ => rfl)).view.emb x : S10000x128.Idx) 0).val / 8 = g := by
  subst eH
  have h0 : (x 0).val < 8 := (x 0).isLt
  show (8 * g + 1 * (x 0).val) / 8 = g
  omega

/-! ## Landing: the mailbox's rows into a slot of the input staging buffer -/

/-- After the landing, entry (b, n, r, c) of the input staging buffer is the mailbox's (8g + n, r, c). -/
theorem landing_apply (b : Fin 2) (g : ℕ) (offB : Fin 4 → ℕ) (hb : ∀ a, offB a + S1x8x32x128.size a ≤ S2x8x32x128.size a)
    (offM : Fin 3 → ℕ) (hm : ∀ a, offM a + S8x32x128.size a ≤ S10000x32x128.size a)
    (hg : 8 * g + 8 ≤ 10000) (eB : offB = ![b.val, 0, 0, 0]) (eM : offM = ![8 * g, 0, 0])
    (mb : (⟨S10000x32x128, .f32⟩ : BufTy).Contents (Elt F)) (fb : (⟨S2x8x32x128, .f32⟩ : BufTy).Contents (Elt F))
    (n : Fin 8) (r : Fin 32) (c : Fin 128) :
    (View.write (Elt F) ((bufM.slice (Rect.unit (s := S2x8x32x128) offB S1x8x32x128.size hb) (fun _ => rfl)).squeeze S8x32x128 squeezes_S1x8x32x128_S8x32x128).view fb (ReadAs.same.apply (View.read (Elt F) (mbM.slice (Rect.unit (s := S10000x32x128) offM S8x32x128.size hm) (fun _ => rfl)).view mb)) Finset.univ) (ix4 b n r c)
      = mb (ix3 (⟨8 * g + n.val, by have := n.isLt; omega⟩ : Fin 10000) r c) := by
  refine (congrArg (View.write (Elt F) ((bufM.slice (Rect.unit (s := S2x8x32x128) offB S1x8x32x128.size hb) (fun _ => rfl)).squeeze S8x32x128 squeezes_S1x8x32x128_S8x32x128).view fb (ReadAs.same.apply (View.read (Elt F) (mbM.slice (Rect.unit (s := S10000x32x128) offM S8x32x128.size hm) (fun _ => rfl)).view mb)) Finset.univ) (slot_emb b offB hb eB n r c).symm).trans ?_
  refine (View.write_emb_of_mem (v := ((bufM.slice (Rect.unit (s := S2x8x32x128) offB S1x8x32x128.size hb) (fun _ => rfl)).squeeze S8x32x128 squeezes_S1x8x32x128_S8x32x128).view) (Val := Elt F) fb _ (Finset.mem_univ (ix3 n r c))).trans ?_
  refine (cast_eq _ _).trans ?_
  show View.read (Elt F) (mbM.slice (Rect.unit (s := S10000x32x128) offM S8x32x128.size hm) (fun _ => rfl)).view mb (ix3 n r c) = _
  refine (View.read_apply (v := (mbM.slice (Rect.unit (s := S10000x32x128) offM S8x32x128.size hm) (fun _ => rfl)).view) (Val := Elt F) mb (ix3 n r c)).trans ?_
  refine (cast_eq _ _).trans ?_
  exact congrArg mb (mbs_emb g offM hm hg eM n r c)

/-- The landing leaves the other slot as it was. -/
theorem landing_other (b : Fin 2) (offB : Fin 4 → ℕ) (hb : ∀ a, offB a + S1x8x32x128.size a ≤ S2x8x32x128.size a)
    (offM : Fin 3 → ℕ) (hm : ∀ a, offM a + S8x32x128.size a ≤ S10000x32x128.size a)
    (eB : offB = ![b.val, 0, 0, 0])
    (mb : (⟨S10000x32x128, .f32⟩ : BufTy).Contents (Elt F)) (fb : (⟨S2x8x32x128, .f32⟩ : BufTy).Contents (Elt F))
    (y : S2x8x32x128.Idx) (hy : (y 0).val ≠ b.val) :
    (View.write (Elt F) ((bufM.slice (Rect.unit (s := S2x8x32x128) offB S1x8x32x128.size hb) (fun _ => rfl)).squeeze S8x32x128 squeezes_S1x8x32x128_S8x32x128).view fb (ReadAs.same.apply (View.read (Elt F) (mbM.slice (Rect.unit (s := S10000x32x128) offM S8x32x128.size hm) (fun _ => rfl)).view mb)) Finset.univ) y = fb y := by
  refine View.write_of_not_mem (v := ((bufM.slice (Rect.unit (s := S2x8x32x128) offB S1x8x32x128.size hb) (fun _ => rfl)).squeeze S8x32x128 squeezes_S1x8x32x128_S8x32x128).view) (Val := Elt F) fb _ Finset.univ (fun hmem => ?_)
  obtain ⟨x, -, hx⟩ := Finset.mem_map.mp hmem
  exact hy (by rw [← hx]; exact slot_emb_zero b offB hb eB x)

/-! ## Write-back: a slot of the output staging buffer into the result's rows -/

/-- After the write-back, entry (8g + n, c) of the result is the output staging buffer's (b, n, c). -/
theorem writeback_apply (b : Fin 2) (g : ℕ) (offO : Fin 3 → ℕ) (ho : ∀ a, offO a + S1x8x128.size a ≤ S2x8x128.size a)
    (offH : Fin 2 → ℕ) (hh : ∀ a, offH a + S8x128.size a ≤ S10000x128.size a)
    (hg : 8 * g + 8 ≤ 10000) (eO : offO = ![b.val, 0, 0]) (eH : offH = ![8 * g, 0])
    (fo : (⟨S2x8x128, .f32⟩ : BufTy).Contents (Elt F)) (fh : (⟨S10000x128, .f32⟩ : BufTy).Contents (Elt F))
    (n : Fin 8) (c : Fin 128) :
    (View.write (Elt F) (hmM.slice (Rect.unit (s := S10000x128) offH S8x128.size hh) (fun _ => rfl)).view fh (ReadAs.same.apply (View.read (Elt F) ((obufM.slice (Rect.unit (s := S2x8x128) offO S1x8x128.size ho) (fun _ => rfl)).squeeze S8x128 squeezes_S1x8x128_S8x128).view fo)) Finset.univ) (ix2 (⟨8 * g + n.val, by have := n.isLt; omega⟩ : Fin 10000) c)
      = fo (ix3 b n c) := by
  refine (congrArg (View.write (Elt F) (hmM.slice (Rect.unit (s := S10000x128) offH S8x128.size hh) (fun _ => rfl)).view fh (ReadAs.same.apply (View.read (Elt F) ((obufM.slice (Rect.unit (s := S2x8x128) offO S1x8x128.size ho) (fun _ => rfl)).squeeze S8x128 squeezes_S1x8x128_S8x128).view fo)) Finset.univ) (hms_emb g offH hh hg eH n c).symm).trans ?_
  refine (View.write_emb_of_mem (v := (hmM.slice (Rect.unit (s := S10000x128) offH S8x128.size hh) (fun _ => rfl)).view) (Val := Elt F) fh _ (Finset.mem_univ (ix2 n c))).trans ?_
  refine (cast_eq _ _).trans ?_
  show View.read (Elt F) ((obufM.slice (Rect.unit (s := S2x8x128) offO S1x8x128.size ho) (fun _ => rfl)).squeeze S8x128 squeezes_S1x8x128_S8x128).view fo (ix2 n c) = _
  refine (View.read_apply (v := ((obufM.slice (Rect.unit (s := S2x8x128) offO S1x8x128.size ho) (fun _ => rfl)).squeeze S8x128 squeezes_S1x8x128_S8x128).view) (Val := Elt F) fo (ix2 n c)).trans ?_
  refine (cast_eq _ _).trans ?_
  exact congrArg fo (oslot_emb b offO ho eO n c)

/-- The write-back leaves every row outside chunk g as it was. -/
theorem writeback_other (g : ℕ) (offO : Fin 3 → ℕ) (ho : ∀ a, offO a + S1x8x128.size a ≤ S2x8x128.size a)
    (offH : Fin 2 → ℕ) (hh : ∀ a, offH a + S8x128.size a ≤ S10000x128.size a)
    (eH : offH = ![8 * g, 0])
    (fo : (⟨S2x8x128, .f32⟩ : BufTy).Contents (Elt F)) (fh : (⟨S10000x128, .f32⟩ : BufTy).Contents (Elt F))
    (j : S10000x128.Idx) (hj : (j 0).val / 8 ≠ g) :
    (View.write (Elt F) (hmM.slice (Rect.unit (s := S10000x128) offH S8x128.size hh) (fun _ => rfl)).view fh (ReadAs.same.apply (View.read (Elt F) ((obufM.slice (Rect.unit (s := S2x8x128) offO S1x8x128.size ho) (fun _ => rfl)).squeeze S8x128 squeezes_S1x8x128_S8x128).view fo)) Finset.univ) j = fh j := by
  refine View.write_of_not_mem (v := (hmM.slice (Rect.unit (s := S10000x128) offH S8x128.size hh) (fun _ => rfl)).view) (Val := Elt F) fh _ Finset.univ (fun hmem => ?_)
  obtain ⟨x, -, hx⟩ := Finset.mem_map.mp hmem
  exact hj (by rw [← hx]; exact hms_emb_zero g offH hh eH x)

/-! ## A chunk done -/

/-- If slot b of the input staging buffer holds the mailbox's rows 8g ‥ 8g + 8 and all eight rows of slot b of the output
    staging buffer hold their chains, then after the write-back the result's rows of chunk g hold the per-node minimum of
    the mailbox, and every other row is as it was. -/
theorem chunk_done (b : Fin 2) (g : ℕ) (offO : Fin 3 → ℕ) (ho : ∀ a, offO a + S1x8x128.size a ≤ S2x8x128.size a)
    (offH : Fin 2 → ℕ) (hh : ∀ a, offH a + S8x128.size a ≤ S10000x128.size a)
    (hg : 8 * g + 8 ≤ 10000) (eO : offO = ![b.val, 0, 0]) (eH : offH = ![8 * g, 0])
    (mb : (⟨S10000x32x128, .f32⟩ : BufTy).Contents (Elt F)) (fbuf : (⟨S2x8x32x128, .f32⟩ : BufTy).Contents (Elt F))
    (fo : (⟨S2x8x128, .f32⟩ : BufTy).Contents (Elt F)) (fh : (⟨S10000x128, .f32⟩ : BufTy).Contents (Elt F))
    (hbuf : ∀ (n : Fin 8) (r : Fin 32) (c : Fin 128),
      fbuf (ix4 b n r c) = mb (ix3 (⟨8 * g + n.val, by have := n.isLt; omega⟩ : Fin 10000) r c))
    (hrows : RowsOK b 8 fbuf fo) :
    (∀ j : S10000x128.Idx, (j 0).val / 8 = g → (View.write (Elt F) (hmM.slice (Rect.unit (s := S10000x128) offH S8x128.size hh) (fun _ => rfl)).view fh (ReadAs.same.apply (View.read (Elt F) ((obufM.slice (Rect.unit (s := S2x8x128) offO S1x8x128.size ho) (fun _ => rfl)).squeeze S8x128 squeezes_S1x8x128_S8x128).view fo)) Finset.univ) j = HM mb j)
    ∧ (∀ j : S10000x128.Idx, (j 0).val / 8 ≠ g → (View.write (Elt F) (hmM.slice (Rect.unit (s := S10000x128) offH S8x128.size hh) (fun _ => rfl)).view fh (ReadAs.same.apply (View.read (Elt F) ((obufM.slice (Rect.unit (s := S2x8x128) offO S1x8x128.size ho) (fun _ => rfl)).squeeze S8x128 squeezes_S1x8x128_S8x128).view fo)) Finset.univ) j = fh j) := by
  refine ⟨fun j hj => ?_, fun j hj => writeback_other g offO ho offH hh eH fo fh j hj⟩
  obtain ⟨p, q, rfl⟩ : ∃ (p : Fin 10000) (q : Fin 128), j = ix2 p q := ⟨j 0, j 1, eq_ix2 j⟩
  have hp : p.val / 8 = g := hj
  have hn : p.val % 8 < 8 := Nat.mod_lt _ (by decide)
  have ep : p = (⟨8 * g + (⟨p.val % 8, hn⟩ : Fin 8).val, by have := p.isLt; show 8 * g + p.val % 8 < 10000; omega⟩ : Fin 10000) :=
    Fin.ext (by show p.val = 8 * g + p.val % 8; omega)
  rw [ep]
  refine (writeback_apply b g offO ho offH hh hg eO eH fo fh ⟨p.val % 8, hn⟩ q).trans ?_
  refine (hrows ⟨p.val % 8, hn⟩ hn q).trans ?_
  refine Eq.trans ?_ (HM_ix2 mb _ q).symm
  exact congrArg chainMin (funext fun r => hbuf ⟨p.val % 8, hn⟩ r q)

end Cert.Proof.KB

end
-- ==== Proof.KB.TileDefs.lean ====
/-
  The tile's task, stated: what a vector subcore is handed (a read share of the mailbox, its own rows of the
  per-node minimum), what it hands back (the same share, its rows at the minimum over the neighbours), and the fact
  that a write-back window of the tile meets no other tile's rows.
-/
import proofs.«211044_g9509057593726_fold_wed_m_382_5_alg».proof.Proof.KB.Rows
import proofs.«211044_g9509057593726_fold_wed_m_382_5_alg».proof.Proof.KB.CopyValue
import Idealize.ShloMosaic.Lib.SparseCore.Ops

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

abbrev cV (L : grid0.Coords) : Fin τ.nSC := (L 0).castLE hcore0
abbrev jV (L : grid0.Coords) : Fin τ.nSub := (L 1).castLE hsub0

/-- The tile's number among the thirty-two: twice the subcore plus the core. -/
abbrev wid (L : grid0.Coords) : ℕ := 2 * (L 1).val + (L 0).val

/-- The mailbox as launched, on device `d`. -/
abbrev mb0 (d : Dev nD) : (⟨S10000x32x128, .f32⟩ : BufTy).Contents (Elt F) := m (mbLoc d)

/-- A read share of the mailbox; tile `w`'s rows of the per-node minimum (everything but the other tiles' rows). -/
abbrev mbPts (d : Dev nD) (q : PosShare TreeShare) : sProp 𝕄 := mbLoc d ↦{q} m (mbLoc d)
abbrev hmPts (d : Dev nD) (w : ℕ) (f : Buf (Elt F) (hmLoc d)) : sProp 𝕄 := hmLoc d ↦[Finset.univ \ others w]{fullShare} f

/-- A write-back window — the eight rows of one of the tile's chunks — meets no other tile's rows. -/
theorem win_disj (L : grid0.Coords) (r : Fin 2) (k : Fin k0_t1_loop.trips)
    (h : ∀ a, k0_off268 L k (BitVec.ofNat 32 r.val) a + S8x128.size a ≤ S10000x128.size a) :
    Disjoint ((Memref.whole main_v5_scv : Memref sig .scVector .hbm S10000x128 .f32).slice (Rect.unit (s := S10000x128) (k0_off268 L k (BitVec.ofNat 32 r.val)) S8x128.size h) (fun _ => rfl)).view.set (others (wid L)) := by
  rw [Finset.disjoint_left]
  intro j hj hjo
  have hj' : (j : S10000x128.Idx) ∈ (Rect.unit (s := S10000x128) (k0_off268 L k (BitVec.ofNat 32 r.val)) S8x128.size h).set := by
    rw [← View.set_slice_whole (sig := sig) (κ := .scVector) main_v5_scv (Rect.unit (s := S10000x128) (k0_off268 L k (BitVec.ofNat 32 r.val)) S8x128.size h)]
    exact hj
  rw [Rect.mem_set_unit] at hj'
  have h0 := hj' 0
  rw [k0_off268_eq L k r] at h0
  simp only [others, Finset.mem_filter, Finset.mem_univ, true_and] at hjo
  have h1 : (L 1).val < 16 := (L 1).isLt
  have h2 : (L 0).val < 2 := (L 0).isLt
  have h3 : r.val < 2 := r.isLt
  have hs : S8x128.size 0 = 8 := rfl
  simp only [Matrix.cons_val_zero, hs] at h0
  apply hjo
  unfold wid
  split_ifs at h0 <;> omega

variable [FloatOps F]

/-- The tile's task, as the launch uses it: on vector subcore `(L 0, L 1)` of device `d`, from a read share `q` of the
    mailbox and the tile's rows of the result at their launch contents (and the subcore's own scratch and semaphores),
    the kernel function runs to its end and hands back the share and the tile's rows at the per-node minimum. -/
def TileStmt : Prop :=
  ∀ (d : Dev nD) (L : grid0.Coords) (_ : (K (F := F)).Facts) (q : PosShare TreeShare)
    (O : CellTallies nD τ sig (HIx 1)) (W : Waits sig (HIx 1)) (_ : ∀ g, O g none = 0),
    iprop(levAts (K (F := F)).L (K (F := F)).lev ∗ emp
        ∗ (mbPts m d q ∗ hmPts d (wid L) (m (hmLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_min L (Memref.whole main_arg0_scv) (Memref.isWhole_whole _) (Memref.whole main_v5_scv) (Memref.isWhole_whole _)
            (Memref.whole cc0_scratch0) (Memref.isWhole_whole _) (Memref.whole cc0_scratch1) (Memref.isWhole_whole _) cc0_scratch2 cc0_scoped0 cc0_scoped1)
          fun _ => iprop((mbPts m d q ∗ hmPts d (wid L) (HM (mb0 m d)))
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB

end
-- ==== Proof.KB.TripValue.lean ====
/-
  One node's trip through the tile's loop, as a step on the output staging buffer: the trip's eight stores write the
  eight sixteen-lane column blocks of row (b, n); each lane holds the left-nested chain of minima over the thirty-two
  neighbour rows of the input staging buffer at that lane; rows written by earlier trips are not touched.  So if the
  first n rows of slot b hold their chains before the trip, the first n + 1 do after it.
-/
import proofs.«211044_g9509057593726_fold_wed_m_382_5_alg».proof.Proof.KB.Chain
import Idealize.ShloMosaic.Lib.Writes
import Idealize.ShloMosaic.Lib.ValueIdx
import Idealize.ShloMosaic.Lib.Pipeline.Value

noncomputable section

namespace Cert.Proof.KB

open Cert.Kernel Cert.Kernel.Gen Idealize.ShloMosaic Idealize.ShloMosaic.ValueIdx

variable {F : FTy → Type} [FloatOps F]

/-! ## The chain on vectors, lane by lane -/

/-- The neighbours after the first, in order. -/
theorem finRange_tail : (List.finRange 32).tail = ([1, 2, 3, 4, 5, 6, 7, 8, 9, 10, 11, 12, 13, 14, 15, 16, 17, 18, 19, 20, 21, 22, 23, 24, 25, 26, 27, 28, 29, 30, 31] : List (Fin 32)) := by decide

/-- A lane of the chain on vectors is the chain of the vectors' entries at that lane. -/
theorem minChainV_apply (v : Fin 32 → FVec F S16 .f32) (j : S16.Idx) : minChainV v j = chainMin fun r => v r j := by
  unfold chainMin
  rw [finRange_tail]
  rfl

/-! ## One store's payload -/

/-- The chain over the thirty-two neighbour rows at an entry of the output staging buffer's shape. -/
def rowChain (fbuf : (⟨S2x8x32x128, .f32⟩ : BufTy).Contents (Elt F)) (y : S2x8x128.Idx) : F .f32 :=
  chainMin fun r => fbuf (ix4 (y 0 : Fin 2) (y 1 : Fin 8) r (y 2 : Fin 128))

theorem rowChain_ix3 (fbuf : (⟨S2x8x32x128, .f32⟩ : BufTy).Contents (Elt F)) (b : Fin 2) (n : Fin 8) (c : Fin 128) :
    rowChain fbuf (ix3 b n c) = chainMin fun r => fbuf (ix4 b n r c) := rfl

/-- The store of column block cc of row (b, n) holds, at each of its own entries, the chain at the entry of the
    buffer it is written to. -/
theorem pieceOf_apply (b : Fin 2) (n : Fin 8) (cc : Fin 8) (fbuf : (⟨S2x8x32x128, .f32⟩ : BufTy).Contents (Elt F))
    (offL : Fin 32 → Fin 4 → ℕ) (hL : ∀ r a, offL r a + S1x1x1x16.size a ≤ S2x8x32x128.size a)
    (offS : Fin 3 → ℕ) (hS : ∀ a, offS a + S1x1x16.size a ≤ S2x8x128.size a)
    (eL : ∀ r, offL r = ![b.val, n.val, r.val, 16 * cc.val]) (eS : offS = ![b.val, n.val, 16 * cc.val])
    (x : (pieceOf fbuf offL hL offS hS).1.shape.Idx) :
    (pieceOf fbuf offL hL offS hS).2 x = rowChain fbuf ((pieceOf fbuf offL hL offS hS).1.emb x) := by
  obtain rfl : offL = fun r => ![b.val, n.val, r.val, 16 * cc.val] := funext eL
  subst eS
  obtain ⟨x0, x1, x2, rfl⟩ : ∃ (x0 : Fin 1) (x1 : Fin 1) (x2 : Fin 16), x = ix3 x0 x1 x2 := ⟨x 0, x 1, x 2, eq_ix3 x⟩
  obtain rfl : x0 = 0 := Subsingleton.elim _ _
  obtain rfl : x1 = 0 := Subsingleton.elim _ _
  show shapeCast S1x1x16 (minChainV fun r => shapeCast S16
      ((Memref.whole cc0_scratch0 : Memref sig .scVector .vmem S2x8x32x128 .f32).view.readAt (Elt F)
        (Rect.unit (s := S2x8x32x128) ![b.val, n.val, r.val, 16 * cc.val] S1x1x1x16.size (hL r)).toLoadRect fbuf) shapeCasts_S1x1x1x16_S16) shapeCasts_S16_S1x1x16 (ix3 (0 : Fin 1) (0 : Fin 1) x2) = _
  refine (shapeCast_apply _ shapeCasts_S16_S1x1x16 (ix3 (0 : Fin 1) (0 : Fin 1) x2) (ix1 x2) ?_).trans ?_
  · rw [Shape.rowMajor_val_one, Shape.rowMajor_val_three]
    show x2.val = ((0 : ℕ) * 1 + 0) * 16 + x2.val
    omega
  rw [minChainV_apply]
  unfold rowChain
  refine congrArg chainMin (funext fun r => ?_)
  refine (shapeCast_apply _ shapeCasts_S1x1x1x16_S16 (ix1 x2) (ix4 (0 : Fin 1) (0 : Fin 1) (0 : Fin 1) x2) ?_).trans ?_
  · rw [Shape.rowMajor_val_four, Shape.rowMajor_val_one]
    show (((0 : ℕ) * 1 + 0) * 1 + 0) * 16 + x2.val = x2.val
    omega
  rw [View.readAt_apply]
  show fbuf _ = fbuf _
  refine congrArg fbuf (funext fun a => Fin.ext ?_)
  match a with
  | ⟨0, _⟩ => show b.val + 1 * 0 = b.val + 1 * 0; rfl
  | ⟨1, _⟩ => show n.val + 1 * 0 = n.val + 1 * 0; rfl
  | ⟨2, _⟩ => show r.val + 1 * 0 = r.val; omega
  | ⟨3, _⟩ => show 16 * cc.val + 1 * x2.val = 16 * cc.val + 1 * x2.val; rfl

/-! ## The trip's eight stores -/

variable (fbuf : (⟨S2x8x32x128, .f32⟩ : BufTy).Contents (Elt F))
  (offL : Fin 8 → Fin 32 → Fin 4 → ℕ) (hL : ∀ cc r a, offL cc r a + S1x1x1x16.size a ≤ S2x8x32x128.size a)
  (offS : Fin 8 → Fin 3 → ℕ) (hS : ∀ cc a, offS cc a + S1x1x16.size a ≤ S2x8x128.size a)

/-- Each column block's store is one of the trip's. -/
theorem pieceOf_mem (cc : Fin 8) : pieceOf fbuf (offL cc) (hL cc) (offS cc) (hS cc) ∈ piecesOf fbuf offL hL offS hS := by
  unfold piecesOf
  match cc with
  | ⟨0, _⟩ => exact List.mem_cons_of_mem _ (List.mem_cons_of_mem _ (List.mem_cons_of_mem _ (List.mem_cons_of_mem _ (List.mem_cons_of_mem _ (List.mem_cons_of_mem _ (List.mem_cons_of_mem _ (List.mem_cons_self)))))))
  | ⟨1, _⟩ => exact List.mem_cons_of_mem _ (List.mem_cons_of_mem _ (List.mem_cons_of_mem _ (List.mem_cons_of_mem _ (List.mem_cons_of_mem _ (List.mem_cons_of_mem _ (List.mem_cons_self))))))
  | ⟨2, _⟩ => exact List.mem_cons_of_mem _ (List.mem_cons_of_mem _ (List.mem_cons_of_mem _ (List.mem_cons_of_mem _ (List.mem_cons_of_mem _ (List.mem_cons_self)))))
  | ⟨3, _⟩ => exact List.mem_cons_of_mem _ (List.mem_cons_of_mem _ (List.mem_cons_of_mem _ (List.mem_cons_of_mem _ (List.mem_cons_self))))
  | ⟨4, _⟩ => exact List.mem_cons_of_mem _ (List.mem_cons_of_mem _ (List.mem_cons_of_mem _ (List.mem_cons_self)))
  | ⟨5, _⟩ => exact List.mem_cons_of_mem _ (List.mem_cons_of_mem _ (List.mem_cons_self))
  | ⟨6, _⟩ => exact List.mem_cons_of_mem _ (List.mem_cons_self)
  | ⟨7, _⟩ => exact List.mem_cons_self

/-- The trip's stores are the eight column blocks' stores. -/
theorem mem_piecesOf (p : View.Piece (Elt F) S2x8x128 .f32) (hp : p ∈ piecesOf fbuf offL hL offS hS) :
    ∃ cc : Fin 8, p = pieceOf fbuf (offL cc) (hL cc) (offS cc) (hS cc) := by
  unfold piecesOf at hp
  simp only [List.mem_cons, List.not_mem_nil, or_false] at hp
  rcases hp with rfl | rfl | rfl | rfl | rfl | rfl | rfl | rfl
  exacts [⟨7, rfl⟩, ⟨6, rfl⟩, ⟨5, rfl⟩, ⟨4, rfl⟩, ⟨3, rfl⟩, ⟨2, rfl⟩, ⟨1, rfl⟩, ⟨0, rfl⟩]

/-- An entry under a store's rectangle lies between its offsets and its offsets plus (1, 1, 16). -/
theorem mem_pieceOf_set (offL' : Fin 32 → Fin 4 → ℕ) (hL' : ∀ r a, offL' r a + S1x1x1x16.size a ≤ S2x8x32x128.size a)
    (offS' : Fin 3 → ℕ) (hS' : ∀ a, offS' a + S1x1x16.size a ≤ S2x8x128.size a) (y : S2x8x128.Idx) :
    y ∈ (pieceOf fbuf offL' hL' offS' hS').1.set ↔ ∀ a, offS' a ≤ (y a).val ∧ (y a).val < offS' a + S1x1x16.size a :=
  Rect.mem_set_unit (inb := hS')

/-! ## The step -/

/-- THE STEP: if rows 0 ‥ n of slot b hold their chains, then after the trip for row n (eight stores, at the offsets
    (b, n, 16 cc), of the chains over the loads at (b, n, r, 16 cc)) rows 0 ‥ n + 1 do. -/
theorem tripStep (b : Fin 2) (n : Fin 8) (fbuf : (⟨S2x8x32x128, .f32⟩ : BufTy).Contents (Elt F))
    (fo : (⟨S2x8x128, .f32⟩ : BufTy).Contents (Elt F))
    (offL : Fin 8 → Fin 32 → Fin 4 → ℕ) (hL : ∀ cc r a, offL cc r a + S1x1x1x16.size a ≤ S2x8x32x128.size a)
    (offS : Fin 8 → Fin 3 → ℕ) (hS : ∀ cc a, offS cc a + S1x1x16.size a ≤ S2x8x128.size a)
    (eL : ∀ cc r, offL cc r = ![b.val, n.val, r.val, 16 * cc.val]) (eS : ∀ cc, offS cc = ![b.val, n.val, 16 * cc.val])
    (h : RowsOK b n.val fbuf fo) :
    RowsOK b (n.val + 1) fbuf
      ((Memref.whole cc0_scratch1 : Memref sig .scVector .vmem S2x8x128 .f32).view.writes (Elt F) fo (piecesOf fbuf offL hL offS hS)) := by
  intro n' hn' c
  have hread : ∀ (g : (⟨S2x8x128, .f32⟩ : BufTy).Contents (Elt F)) (y : S2x8x128.Idx),
      (Memref.whole cc0_scratch1 : Memref sig .scVector .vmem S2x8x128 .f32).view.read (Elt F) g y = g y := fun g y => rfl
  refine (hread _ _).symm.trans ?_
  by_cases hlt : n'.val < n.val
  · refine (View.read_writes_apply_of_forall_not_mem (Memref.whole cc0_scratch1 : Memref sig .scVector .vmem S2x8x128 .f32).view fo
      (ix3 b n' c) (piecesOf fbuf offL hL offS hS) (fun p hp hy => ?_)).trans ((hread fo _).trans (h n' hlt c))
    obtain ⟨cc, rfl⟩ := mem_piecesOf fbuf offL hL offS hS p hp
    have h1 : offS cc 1 ≤ n'.val := ((mem_pieceOf_set fbuf (offL cc) (hL cc) (offS cc) (hS cc) (ix3 b n' c)).mp hy 1).1
    have e1 : offS cc 1 = n.val := by rw [eS cc]; rfl
    omega
  · have hnn : n'.val = n.val := by omega
    have hc : c.val / 16 < 8 := by have := c.isLt; omega
    have hG : ∀ p ∈ piecesOf fbuf offL hL offS hS, ∀ x : p.1.shape.Idx, p.2 x = rowChain fbuf (p.1.emb x) := fun p hp x => by
      obtain ⟨cc, rfl⟩ := mem_piecesOf fbuf offL hL offS hS p hp
      exact pieceOf_apply b n cc fbuf (offL cc) (hL cc) (offS cc) (hS cc) (eL cc) (eS cc) x
    have hcov : ∃ p ∈ piecesOf fbuf offL hL offS hS, ix3 b n' c ∈ p.1.set := by
      refine ⟨_, pieceOf_mem fbuf offL hL offS hS ⟨c.val / 16, hc⟩,
        (mem_pieceOf_set fbuf (offL ⟨c.val / 16, hc⟩) (hL _) (offS ⟨c.val / 16, hc⟩) (hS _) (ix3 b n' c)).mpr (fun a => ?_)⟩
      rw [eS ⟨c.val / 16, hc⟩]
      match a with
      | ⟨0, _⟩ => exact ⟨Nat.le_refl _, Nat.lt_succ_self _⟩
      | ⟨1, _⟩ =>
        show n.val ≤ n'.val ∧ n'.val < n.val + 1
        omega
      | ⟨2, _⟩ =>
        show 16 * (c.val / 16) ≤ c.val ∧ c.val < 16 * (c.val / 16) + 16
        omega
    exact (View.read_writes_apply_of_pieces (Memref.whole cc0_scratch1 : Memref sig .scVector .vmem S2x8x128 .f32).view fo (rowChain fbuf)
      (piecesOf fbuf offL hL offS hS) hG (ix3 b n' c) hcov).trans (rowChain_ix3 fbuf b n' c)

end Cert.Proof.KB

end
-- ==== Proof.KB.Offsets.lean ====
/-
  The places a node's trip reads and writes, as families: for sixteen-lane block `cc` and neighbour `r`, the offset of
  the load (slot, node, r, 16·cc) in the input staging buffer, and of the store (slot, node, 16·cc) in the output one.
-/
import proofs.«211044_g9509057593726_fold_wed_m_382_5_alg».proof.Proof.KB.Common

set_option Elab.async false

namespace Cert.Proof.KB

open Cert.Kernel Cert.Kernel.Gen Idealize.ShloMosaic

/-- Slot 0: the loads' offsets. -/
def offL0 (n : Fin k0_t2_loop.trips) : Fin 8 → Fin 32 → Fin 4 → ℕ :=
  ![![k0_off4 n, k0_off5 n, k0_off6 n, k0_off7 n, k0_off8 n, k0_off9 n, k0_off10 n, k0_off11 n, k0_off12 n, k0_off13 n, k0_off14 n, k0_off15 n, k0_off16 n, k0_off17 n, k0_off18 n, k0_off19 n, k0_off20 n, k0_off21 n, k0_off22 n, k0_off23 n, k0_off24 n, k0_off25 n, k0_off26 n, k0_off27 n, k0_off28 n, k0_off29 n, k0_off30 n, k0_off31 n, k0_off32 n, k0_off33 n, k0_off34 n, k0_off35 n],
    ![k0_off37 n, k0_off38 n, k0_off39 n, k0_off40 n, k0_off41 n, k0_off42 n, k0_off43 n, k0_off44 n, k0_off45 n, k0_off46 n, k0_off47 n, k0_off48 n, k0_off49 n, k0_off50 n, k0_off51 n, k0_off52 n, k0_off53 n, k0_off54 n, k0_off55 n, k0_off56 n, k0_off57 n, k0_off58 n, k0_off59 n, k0_off60 n, k0_off61 n, k0_off62 n, k0_off63 n, k0_off64 n, k0_off65 n, k0_off66 n, k0_off67 n, k0_off68 n],
    ![k0_off70 n, k0_off71 n, k0_off72 n, k0_off73 n, k0_off74 n, k0_off75 n, k0_off76 n, k0_off77 n, k0_off78 n, k0_off79 n, k0_off80 n, k0_off81 n, k0_off82 n, k0_off83 n, k0_off84 n, k0_off85 n, k0_off86 n, k0_off87 n, k0_off88 n, k0_off89 n, k0_off90 n, k0_off91 n, k0_off92 n, k0_off93 n, k0_off94 n, k0_off95 n, k0_off96 n, k0_off97 n, k0_off98 n, k0_off99 n, k0_off100 n, k0_off101 n],
    ![k0_off103 n, k0_off104 n, k0_off105 n, k0_off106 n, k0_off107 n, k0_off108 n, k0_off109 n, k0_off110 n, k0_off111 n, k0_off112 n, k0_off113 n, k0_off114 n, k0_off115 n, k0_off116 n, k0_off117 n, k0_off118 n, k0_off119 n, k0_off120 n, k0_off121 n, k0_off122 n, k0_off123 n, k0_off124 n, k0_off125 n, k0_off126 n, k0_off127 n, k0_off128 n, k0_off129 n, k0_off130 n, k0_off131 n, k0_off132 n, k0_off133 n, k0_off134 n],
    ![k0_off136 n, k0_off137 n, k0_off138 n, k0_off139 n, k0_off140 n, k0_off141 n, k0_off142 n, k0_off143 n, k0_off144 n, k0_off145 n, k0_off146 n, k0_off147 n, k0_off148 n, k0_off149 n, k0_off150 n, k0_off151 n, k0_off152 n, k0_off153 n, k0_off154 n, k0_off155 n, k0_off156 n, k0_off157 n, k0_off158 n, k0_off159 n, k0_off160 n, k0_off161 n, k0_off162 n, k0_off163 n, k0_off164 n, k0_off165 n, k0_off166 n, k0_off167 n],
    ![k0_off169 n, k0_off170 n, k0_off171 n, k0_off172 n, k0_off173 n, k0_off174 n, k0_off175 n, k0_off176 n, k0_off177 n, k0_off178 n, k0_off179 n, k0_off180 n, k0_off181 n, k0_off182 n, k0_off183 n, k0_off184 n, k0_off185 n, k0_off186 n, k0_off187 n, k0_off188 n, k0_off189 n, k0_off190 n, k0_off191 n, k0_off192 n, k0_off193 n, k0_off194 n, k0_off195 n, k0_off196 n, k0_off197 n, k0_off198 n, k0_off199 n, k0_off200 n],
    ![k0_off202 n, k0_off203 n, k0_off204 n, k0_off205 n, k0_off206 n, k0_off207 n, k0_off208 n, k0_off209 n, k0_off210 n, k0_off211 n, k0_off212 n, k0_off213 n, k0_off214 n, k0_off215 n, k0_off216 n, k0_off217 n, k0_off218 n, k0_off219 n, k0_off220 n, k0_off221 n, k0_off222 n, k0_off223 n, k0_off224 n, k0_off225 n, k0_off226 n, k0_off227 n, k0_off228 n, k0_off229 n, k0_off230 n, k0_off231 n, k0_off232 n, k0_off233 n],
    ![k0_off235 n, k0_off236 n, k0_off237 n, k0_off238 n, k0_off239 n, k0_off240 n, k0_off241 n, k0_off242 n, k0_off243 n, k0_off244 n, k0_off245 n, k0_off246 n, k0_off247 n, k0_off248 n, k0_off249 n, k0_off250 n, k0_off251 n, k0_off252 n, k0_off253 n, k0_off254 n, k0_off255 n, k0_off256 n, k0_off257 n, k0_off258 n, k0_off259 n, k0_off260 n, k0_off261 n, k0_off262 n, k0_off263 n, k0_off264 n, k0_off265 n, k0_off266 n]]
/-- Slot 0: the stores' offsets. -/
def offS0 (n : Fin k0_t2_loop.trips) : Fin 8 → Fin 3 → ℕ := ![k0_off36 n, k0_off69 n, k0_off102 n, k0_off135 n, k0_off168 n, k0_off201 n, k0_off234 n, k0_off267 n]
/-- Slot 1: the loads' offsets. -/
def offL1 (n : Fin k0_t3_loop.trips) : Fin 8 → Fin 32 → Fin 4 → ℕ :=
  ![![k0_off270 n, k0_off271 n, k0_off272 n, k0_off273 n, k0_off274 n, k0_off275 n, k0_off276 n, k0_off277 n, k0_off278 n, k0_off279 n, k0_off280 n, k0_off281 n, k0_off282 n, k0_off283 n, k0_off284 n, k0_off285 n, k0_off286 n, k0_off287 n, k0_off288 n, k0_off289 n, k0_off290 n, k0_off291 n, k0_off292 n, k0_off293 n, k0_off294 n, k0_off295 n, k0_off296 n, k0_off297 n, k0_off298 n, k0_off299 n, k0_off300 n, k0_off301 n],
    ![k0_off303 n, k0_off304 n, k0_off305 n, k0_off306 n, k0_off307 n, k0_off308 n, k0_off309 n, k0_off310 n, k0_off311 n, k0_off312 n, k0_off313 n, k0_off314 n, k0_off315 n, k0_off316 n, k0_off317 n, k0_off318 n, k0_off319 n, k0_off320 n, k0_off321 n, k0_off322 n, k0_off323 n, k0_off324 n, k0_off325 n, k0_off326 n, k0_off327 n, k0_off328 n, k0_off329 n, k0_off330 n, k0_off331 n, k0_off332 n, k0_off333 n, k0_off334 n],
    ![k0_off336 n, k0_off337 n, k0_off338 n, k0_off339 n, k0_off340 n, k0_off341 n, k0_off342 n, k0_off343 n, k0_off344 n, k0_off345 n, k0_off346 n, k0_off347 n, k0_off348 n, k0_off349 n, k0_off350 n, k0_off351 n, k0_off352 n, k0_off353 n, k0_off354 n, k0_off355 n, k0_off356 n, k0_off357 n, k0_off358 n, k0_off359 n, k0_off360 n, k0_off361 n, k0_off362 n, k0_off363 n, k0_off364 n, k0_off365 n, k0_off366 n, k0_off367 n],
    ![k0_off369 n, k0_off370 n, k0_off371 n, k0_off372 n, k0_off373 n, k0_off374 n, k0_off375 n, k0_off376 n, k0_off377 n, k0_off378 n, k0_off379 n, k0_off380 n, k0_off381 n, k0_off382 n, k0_off383 n, k0_off384 n, k0_off385 n, k0_off386 n, k0_off387 n, k0_off388 n, k0_off389 n, k0_off390 n, k0_off391 n, k0_off392 n, k0_off393 n, k0_off394 n, k0_off395 n, k0_off396 n, k0_off397 n, k0_off398 n, k0_off399 n, k0_off400 n],
    ![k0_off402 n, k0_off403 n, k0_off404 n, k0_off405 n, k0_off406 n, k0_off407 n, k0_off408 n, k0_off409 n, k0_off410 n, k0_off411 n, k0_off412 n, k0_off413 n, k0_off414 n, k0_off415 n, k0_off416 n, k0_off417 n, k0_off418 n, k0_off419 n, k0_off420 n, k0_off421 n, k0_off422 n, k0_off423 n, k0_off424 n, k0_off425 n, k0_off426 n, k0_off427 n, k0_off428 n, k0_off429 n, k0_off430 n, k0_off431 n, k0_off432 n, k0_off433 n],
    ![k0_off435 n, k0_off436 n, k0_off437 n, k0_off438 n, k0_off439 n, k0_off440 n, k0_off441 n, k0_off442 n, k0_off443 n, k0_off444 n, k0_off445 n, k0_off446 n, k0_off447 n, k0_off448 n, k0_off449 n, k0_off450 n, k0_off451 n, k0_off452 n, k0_off453 n, k0_off454 n, k0_off455 n, k0_off456 n, k0_off457 n, k0_off458 n, k0_off459 n, k0_off460 n, k0_off461 n, k0_off462 n, k0_off463 n, k0_off464 n, k0_off465 n, k0_off466 n],
    ![k0_off468 n, k0_off469 n, k0_off470 n, k0_off471 n, k0_off472 n, k0_off473 n, k0_off474 n, k0_off475 n, k0_off476 n, k0_off477 n, k0_off478 n, k0_off479 n, k0_off480 n, k0_off481 n, k0_off482 n, k0_off483 n, k0_off484 n, k0_off485 n, k0_off486 n, k0_off487 n, k0_off488 n, k0_off489 n, k0_off490 n, k0_off491 n, k0_off492 n, k0_off493 n, k0_off494 n, k0_off495 n, k0_off496 n, k0_off497 n, k0_off498 n, k0_off499 n],
    ![k0_off501 n, k0_off502 n, k0_off503 n, k0_off504 n, k0_off505 n, k0_off506 n, k0_off507 n, k0_off508 n, k0_off509 n, k0_off510 n, k0_off511 n, k0_off512 n, k0_off513 n, k0_off514 n, k0_off515 n, k0_off516 n, k0_off517 n, k0_off518 n, k0_off519 n, k0_off520 n, k0_off521 n, k0_off522 n, k0_off523 n, k0_off524 n, k0_off525 n, k0_off526 n, k0_off527 n, k0_off528 n, k0_off529 n, k0_off530 n, k0_off531 n, k0_off532 n]]
/-- Slot 1: the stores' offsets. -/
def offS1 (n : Fin k0_t3_loop.trips) : Fin 8 → Fin 3 → ℕ := ![k0_off302 n, k0_off335 n, k0_off368 n, k0_off401 n, k0_off434 n, k0_off467 n, k0_off500 n, k0_off533 n]

theorem eL0 : ∀ (n : Fin k0_t2_loop.trips) (cc : Fin 8) (r : Fin 32), offL0 n cc r = ![0, n.val, r.val, 16 * cc.val] := by decide +kernel
theorem eS0 : ∀ (n : Fin k0_t2_loop.trips) (cc : Fin 8), offS0 n cc = ![0, n.val, 16 * cc.val] := by decide +kernel
theorem eL1 : ∀ (n : Fin k0_t3_loop.trips) (cc : Fin 8) (r : Fin 32), offL1 n cc r = ![1, n.val, r.val, 16 * cc.val] := by decide +kernel
theorem eS1 : ∀ (n : Fin k0_t3_loop.trips) (cc : Fin 8), offS1 n cc = ![1, n.val, 16 * cc.val] := by decide +kernel
theorem hL0 : ∀ (n : Fin k0_t2_loop.trips) (cc : Fin 8) (r : Fin 32) (a : Fin 4), offL0 n cc r a + S1x1x1x16.size a ≤ S2x8x32x128.size a := by decide +kernel
theorem hS0 : ∀ (n : Fin k0_t2_loop.trips) (cc : Fin 8) (a : Fin 3), offS0 n cc a + S1x1x16.size a ≤ S2x8x128.size a := by decide +kernel
theorem hL1 : ∀ (n : Fin k0_t3_loop.trips) (cc : Fin 8) (r : Fin 32) (a : Fin 4), offL1 n cc r a + S1x1x1x16.size a ≤ S2x8x32x128.size a := by decide +kernel
theorem hS1 : ∀ (n : Fin k0_t3_loop.trips) (cc : Fin 8) (a : Fin 3), offS1 n cc a + S1x1x16.size a ≤ S2x8x128.size a := by decide +kernel

end Cert.Proof.KB
-- ==== Proof.KB.Trip.lean ====
/-
  One node's trip of the minimum, for each of the two slots: the sixteen-lane chains of the node's thirty-two neighbour
  rows are written into the node's row of the output staging buffer, so one more row is done.
-/
import proofs.«211044_g9509057593726_fold_wed_m_382_5_alg».proof.Proof.KB.TileDefs
import proofs.«211044_g9509057593726_fold_wed_m_382_5_alg».proof.Proof.KB.TripValue
import proofs.«211044_g9509057593726_fold_wed_m_382_5_alg».proof.Proof.KB.Offsets
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "mbV" => (Memref.whole Cert.Kernel.main_arg0_scv : Memref Cert.Kernel.sig Kind.scVector Space.hbm Cert.Kernel.S10000x32x128 EltTy.f32)
local notation "hmV" => (Memref.whole Cert.Kernel.main_v5_scv : Memref Cert.Kernel.sig Kind.scVector Space.hbm Cert.Kernel.S10000x128 EltTy.f32)
local notation "bufV" => (Memref.whole Cert.Kernel.cc0_scratch0 : Memref Cert.Kernel.sig Kind.scVector Space.vmem Cert.Kernel.S2x8x32x128 EltTy.f32)
local notation "obufV" => (Memref.whole Cert.Kernel.cc0_scratch1 : Memref Cert.Kernel.sig Kind.scVector Space.vmem Cert.Kernel.S2x8x128 EltTy.f32)

/-- The two slots of the input staging buffer, as the kernel slices them. -/
abbrev slot0M : Memref sig .scVector .vmem S8x32x128 .f32 := ((Memref.whole cc0_scratch0 : Memref sig .scVector .vmem S2x8x32x128 .f32).slice (Rect.unit (s := S2x8x32x128) ![0, 0, 0, 0] S1x8x32x128.size inb_S2x8x32x128_S1x8x32x128_0_0_0_0) (fun _ => rfl)).squeeze S8x32x128 squeezes_S1x8x32x128_S8x32x128
abbrev slot1M : Memref sig .scVector .vmem S8x32x128 .f32 := ((Memref.whole cc0_scratch0 : Memref sig .scVector .vmem S2x8x32x128 .f32).slice (Rect.unit (s := S2x8x32x128) ![1, 0, 0, 0] S1x8x32x128.size inb_S2x8x32x128_S1x8x32x128_1_0_0_0) (fun _ => rfl)).squeeze S8x32x128 squeezes_S1x8x32x128_S8x32x128

variable [FloatOps F]

variable (d : Dev nD) (L : grid0.Coords)

set_option maxHeartbeats 4000000 in
/-- A trip of slot 0's node loop while the other slot may be landing: row `n` of slot 0 of the output staging buffer is
    written, so rows `0 ‥ n + 1` are done. -/
theorem trip0 (v1 v4 c0 c1 : BitVec 32) (k : Fin k0_t1_loop.trips) (n : Fin k0_t2_loop.trips) (acc : Unit)
    (fbuf : Buf (Elt F) ((bufV).view.loc (V d (cV L) (jV L)))) (fo : Buf (Elt F) ((obufV).view.loc (V d (cV L) (jV L))))
    (hrows : RowsOK 0 n.val fbuf fo) :
    (iprop(((bufV).view.loc (V d (cV L) (jV L)) ↦[Finset.univ \ slot1M.view.set]{fullShare} fbuf) ∗ ((obufV).view.loc (V d (cV L) (jV L)) ↦{fullShare} fo)) : sProp 𝕄)
      ⊢ wp frame (wpE (defs₀ (F := F)) 𝒱₀ (V d (cV L) (jV L)) none) Set.univ
          (k0_t2_body L mbV (Memref.isWhole_whole _) hmV (Memref.isWhole_whole _) bufV (Memref.isWhole_whole _) obufV (Memref.isWhole_whole _) cc0_scratch2 cc0_scoped0 cc0_scoped1 v1 v4 c0 c1 k n acc)
          fun _ => iprop(((bufV).view.loc (V d (cV L) (jV L)) ↦[Finset.univ \ slot1M.view.set]{fullShare} fbuf)
            ∗ ∃ fo', ((obufV).view.loc (V d (cV L) (jV L)) ↦{fullShare} fo') ∗ ⌜RowsOK 0 (n.val + 1) fbuf fo'⌝) := by
  iintro ⟨Hb, Ho⟩
  unfold k0_t2_body
  sl_exec_parts
  sl_step
  isplitl [Hb]; · iexact Hb
  iexists _; isplitl [Ho]; · iexact Ho
  ipureintro
  exact tripStep 0 n fbuf fo (offL0 n) (hL0 n) (offS0 n) (hS0 n) (eL0 n) (eS0 n) hrows

set_option maxHeartbeats 4000000 in
/-- A trip of slot 1's node loop while the other slot may be landing: row `n` of slot 1 of the output staging buffer is
    written, so rows `0 ‥ n + 1` are done. -/
theorem trip1 (c0 : BitVec 32) (n : Fin k0_t3_loop.trips) (acc : Unit)
    (fbuf : Buf (Elt F) ((bufV).view.loc (V d (cV L) (jV L)))) (fo : Buf (Elt F) ((obufV).view.loc (V d (cV L) (jV L))))
    (hrows : RowsOK 1 n.val fbuf fo) :
    (iprop(((bufV).view.loc (V d (cV L) (jV L)) ↦[Finset.univ \ slot0M.view.set]{fullShare} fbuf) ∗ ((obufV).view.loc (V d (cV L) (jV L)) ↦{fullShare} fo)) : sProp 𝕄)
      ⊢ wp frame (wpE (defs₀ (F := F)) 𝒱₀ (V d (cV L) (jV L)) none) Set.univ
          (k0_t3_body L mbV (Memref.isWhole_whole _) hmV (Memref.isWhole_whole _) bufV (Memref.isWhole_whole _) obufV (Memref.isWhole_whole _) cc0_scratch2 cc0_scoped0 cc0_scoped1 c0 n acc)
          fun _ => iprop(((bufV).view.loc (V d (cV L) (jV L)) ↦[Finset.univ \ slot0M.view.set]{fullShare} fbuf)
            ∗ ∃ fo', ((obufV).view.loc (V d (cV L) (jV L)) ↦{fullShare} fo') ∗ ⌜RowsOK 1 (n.val + 1) fbuf fo'⌝) := by
  iintro ⟨Hb, Ho⟩
  unfold k0_t3_body
  sl_exec_parts
  sl_step
  isplitl [Hb]; · iexact Hb
  iexists _; isplitl [Ho]; · iexact Ho
  ipureintro
  exact tripStep 1 n fbuf fo (offL1 n) (hL1 n) (offS1 n) (hS1 n) (eL1 n) (eS1 n) hrows

end Cert.Proof.KB

end
-- ==== Proof.KB.Chunks.lean ====
/-
  The chunks of eight rows a tile works through: tile `w` of the thirty-two takes chunks `w`, `w + 32`, `w + 64`, …
  — forty of them for the first two tiles, thirty-nine for the others, the 1250 chunks dealt round — and past its
  last chunk it repeats its first. The printed offsets of its transfers are eight times these; and after the twenty
  trips of two chunks each every row of the tile holds its minimum.
-/
import proofs.«211044_g9509057593726_fold_wed_m_382_5_alg».proof.Proof.KB.TileDefs

noncomputable section

namespace Cert.Proof.KB

open Cert.Kernel Cert.Kernel.Gen Idealize.ShloMosaic

variable {F : FTy → Type} [FloatOps F]

/-- How many chunks the tile has: forty for the first two tiles, thirty-nine for the others. -/
def nmine (L : grid0.Coords) : ℕ := (if wid L < 2 then 1 else 0) + 39

/-- The tile's `i`-th chunk; past its last, its first again. -/
def chunk (L : grid0.Coords) (i : ℕ) : ℕ := if i < nmine L then wid L + 32 * i else wid L

/-- Each of the forty chunks a tile names lies inside the array. -/
theorem chunk_le (L : grid0.Coords) (i : ℕ) (hi : i < 40) : 8 * chunk L i + 8 ≤ 10000 := by
  have h1 : (L 1).val < 16 := (L 1).isLt
  have h0 : (L 0).val < 2 := (L 0).isLt
  unfold chunk nmine wid
  split_ifs <;> omega

/-- The first fetch's offset. -/
theorem off1_chunk (L : grid0.Coords) : k0_off1 L = ![8 * chunk L 0, 0, 0] := by
  rw [k0_off1_eq L]
  have h : 16 * (L 1).val + 8 * (L 0).val = 8 * chunk L 0 := by
    unfold chunk nmine wid
    split_ifs <;> omega
  rw [h]

/-- The fetch ahead within a trip: the trip's second chunk. -/
theorem off3_chunk (L : grid0.Coords) (k : Fin k0_t1_loop.trips) : k0_off3 L k = ![8 * chunk L (2 * k.val + 1), 0, 0] := by
  rw [k0_off3_eq L k]
  have hk : k.val < 20 := k.isLt
  have h1 : (L 1).val < 16 := (L 1).isLt
  have h0 : (L 0).val < 2 := (L 0).isLt
  have h : 8 * (if 2 * k.val + 1 < (if 2 * (L 1).val + (L 0).val < 2 then 1 else 0) + 39 then 2 * (L 1).val + (L 0).val + 64 * k.val + 32 else 2 * (L 1).val + (L 0).val)
      = 8 * chunk L (2 * k.val + 1) := by
    unfold chunk nmine wid
    split_ifs <;> omega
  rw [h]

/-- The fetch ahead across trips: the next trip's first chunk. -/
theorem off269_chunk (L : grid0.Coords) (k : Fin k0_t1_loop.trips) : k0_off269 L k = ![8 * chunk L (2 * (k.val + 1)), 0, 0] := by
  rw [k0_off269_eq L k]
  have hk : k.val < 20 := k.isLt
  have h1 : (L 1).val < 16 := (L 1).isLt
  have h0 : (L 0).val < 2 := (L 0).isLt
  have h : 8 * (if 2 * k.val + 2 < (if 2 * (L 1).val + (L 0).val < 2 then 1 else 0) + 39 then 2 * (L 1).val + (L 0).val + 64 * k.val + 64 else 2 * (L 1).val + (L 0).val)
      = 8 * chunk L (2 * (k.val + 1)) := by
    unfold chunk nmine wid
    split_ifs <;> omega
  rw [h]

/-- The write-back's offset: the chunk just reduced. -/
theorem off268_chunk (L : grid0.Coords) (k : Fin k0_t1_loop.trips) (r : Fin 2) :
    k0_off268 L k (BitVec.ofNat 32 r.val) = ![8 * chunk L (2 * k.val + r.val), 0] := by
  rw [k0_off268_eq L k r]
  have hk : k.val < 20 := k.isLt
  have hr : r.val < 2 := r.isLt
  have h1 : (L 1).val < 16 := (L 1).isLt
  have h0 : (L 0).val < 2 := (L 0).isLt
  have h : 8 * (if 2 * k.val + r.val < (if 2 * (L 1).val + (L 0).val < 2 then 1 else 0) + 39 then 2 * (L 1).val + (L 0).val + 64 * k.val + 32 * r.val else 2 * (L 1).val + (L 0).val)
      = 8 * chunk L (2 * k.val + r.val) := by
    unfold chunk nmine wid
    split_ifs <;> omega
  rw [h]

/-- After `k` trips: every row of the first `2 k` chunks the tile names holds its minimum over the neighbours. -/
def DoneUpTo (L : grid0.Coords) (mb : (⟨S10000x32x128, .f32⟩ : BufTy).Contents (Elt F)) (k : ℕ)
    (fh : (⟨S10000x128, .f32⟩ : BufTy).Contents (Elt F)) : Prop :=
  ∀ j : S10000x128.Idx, (∃ i, i < 2 * k ∧ (j 0).val / 8 = chunk L i) → fh j = HM mb j

theorem done_zero (L : grid0.Coords) (mb : (⟨S10000x32x128, .f32⟩ : BufTy).Contents (Elt F))
    (fh : (⟨S10000x128, .f32⟩ : BufTy).Contents (Elt F)) : DoneUpTo L mb 0 fh := by
  rintro j ⟨i, hi, -⟩
  omega

/-- One trip: its two chunks written in turn, each write leaving every other row as it was. -/
theorem done_step (L : grid0.Coords) (mb : (⟨S10000x32x128, .f32⟩ : BufTy).Contents (Elt F)) (k : ℕ)
    (fh fh1 fh2 : (⟨S10000x128, .f32⟩ : BufTy).Contents (Elt F)) (h0 : DoneUpTo L mb k fh)
    (c0 : (∀ j : S10000x128.Idx, (j 0).val / 8 = chunk L (2 * k) → fh1 j = HM mb j)
      ∧ (∀ j : S10000x128.Idx, (j 0).val / 8 ≠ chunk L (2 * k) → fh1 j = fh j))
    (c1 : (∀ j : S10000x128.Idx, (j 0).val / 8 = chunk L (2 * k + 1) → fh2 j = HM mb j)
      ∧ (∀ j : S10000x128.Idx, (j 0).val / 8 ≠ chunk L (2 * k + 1) → fh2 j = fh1 j)) :
    DoneUpTo L mb (k + 1) fh2 := by
  rintro j ⟨i, hi, hj⟩
  by_cases e1 : (j 0).val / 8 = chunk L (2 * k + 1)
  · exact c1.1 j e1
  · rw [c1.2 j e1]
    by_cases e0 : (j 0).val / 8 = chunk L (2 * k)
    · exact c0.1 j e0
    · rw [c0.2 j e0]
      refine h0 j ⟨i, ?_, hj⟩
      by_contra hlt
      have hi' : i = 2 * k ∨ i = 2 * k + 1 := by omega
      rcases hi' with rfl | rfl
      · exact e0 hj
      · exact e1 hj

/-- After the twenty trips every row dealt to the tile holds its minimum: row `x` of the tile lies in chunk
    `x / 8 = w + 32 i` with `i = x / 8 / 32 < 40`, and `i = 39` happens only for the first two tiles, which have
    forty chunks. -/
theorem done_all (L : grid0.Coords) (mb : (⟨S10000x32x128, .f32⟩ : BufTy).Contents (Elt F))
    (fh : (⟨S10000x128, .f32⟩ : BufTy).Contents (Elt F)) (h : DoneUpTo L mb 20 fh) :
    ∀ j ∈ tileSet (wid L), fh j = HM mb j := by
  intro j hj
  simp only [tileSet, Finset.mem_filter, Finset.mem_univ, true_and] at hj
  have hx : (j 0).val < 10000 := (j 0).isLt
  have h1 : (L 1).val < 16 := (L 1).isLt
  have h0 : (L 0).val < 2 := (L 0).isLt
  refine h j ⟨(j 0).val / 8 / 32, by omega, ?_⟩
  unfold chunk nmine
  unfold wid at hj ⊢
  split_ifs <;> omega

end Cert.Proof.KB

end
-- ==== Proof.KB.Tile.lean ====
/-
  One tile's task of the per-node minimum: what a vector subcore holds, and its run.
-/
import proofs.«211044_g9509057593726_fold_wed_m_382_5_alg».proof.Proof.KB.Trip
import proofs.«211044_g9509057593726_fold_wed_m_382_5_alg».proof.Proof.KB.Chunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "mbV" => (Memref.whole Cert.Kernel.main_arg0_scv : Memref Cert.Kernel.sig Kind.scVector Space.hbm Cert.Kernel.S10000x32x128 EltTy.f32)
local notation "hmV" => (Memref.whole Cert.Kernel.main_v5_scv : Memref Cert.Kernel.sig Kind.scVector Space.hbm Cert.Kernel.S10000x128 EltTy.f32)
local notation "bufV" => (Memref.whole Cert.Kernel.cc0_scratch0 : Memref Cert.Kernel.sig Kind.scVector Space.vmem Cert.Kernel.S2x8x32x128 EltTy.f32)
local notation "obufV" => (Memref.whole Cert.Kernel.cc0_scratch1 : Memref Cert.Kernel.sig Kind.scVector Space.vmem Cert.Kernel.S2x8x128 EltTy.f32)

variable [FloatOps F]

section Tile

variable (d : Dev nD) (L : grid0.Coords)

abbrev sem0cell (d : Dev nD) (c : Fin τ.nSC) (i : Fin τ.nSub) : GSem nD τ sig := (V d c i, .dma (0 : DmaSem sig))
abbrev sem1cell (d : Dev nD) (c : Fin τ.nSC) (i : Fin τ.nSub) : GSem nD τ sig := (V d c i, .dma (1 : DmaSem sig))
abbrev sem2cell (d : Dev nD) (c : Fin τ.nSC) (i : Fin τ.nSub) : GSem nD τ sig := (V d c i, .dma cc0_scoped0.sem)
abbrev sem3cell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (sem0cell d (cV L) (jV L)) 0 ∗ semVal (sem1cell d (cV L) (jV L)) 0 ∗ semVal (sem2cell d (cV L) (jV L)) 0 ∗ semVal (sem3cell d (cV L) (jV L)) 0
          ∗ bigSep (((((ownCells (V d (cV L) (jV L))).erase (sem0cell d (cV L) (jV L))).erase (sem1cell d (cV L) (jV L))).erase (sem2cell d (cV L) (jV L))).erase (sem3cell d (cV L) (jV L))) fun g => semVal g 0) := by
  unfold SparseCore.Cfg.ownSems0
  rw [SparseCore.bigSep_erase' ((mem_ownCells (g := sem0cell d (cV L) (jV L))).mpr ⟨rfl, by
      show (SemLoc.dma (0 : DmaSem sig) : SemLoc sig).isScoped .scVector = true; decide⟩),
    SparseCore.bigSep_erase' (Finset.mem_erase.mpr ⟨fun e => absurd (Prod.mk.inj e).2 (by decide), (mem_ownCells (g := sem1cell d (cV L) (jV L))).mpr ⟨rfl, by
      show (SemLoc.dma (1 : DmaSem sig) : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := sem2cell d (cV L) (jV L))).mpr ⟨rfl, by show (SemLoc.dma cc0_scoped0.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide),
      (mem_ownCells (g := sem3cell d (cV L) (jV L))).mpr ⟨rfl, by show (SemLoc.dma cc0_scoped1.sem : SemLoc sig).isScoped .scVector = true; decide⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem hc1 : ∀ k : Fin k0_t1_loop.trips, k0_cond1 k = 1#1 := by decide +kernel
omit [FloatOps F] in
theorem hc2 : ∀ k : Fin k0_t1_loop.trips, k0_cond2 k = 1#1 ↔ k.val + 1 < 20 := by decide +kernel

omit [FloatOps F] in
/-- A share of an array at some contents, the contents given a name. -/
theorem pts_name {ℓ : Loc nD τ sig} {I : Finset (Idx ℓ)} {q : PosShare TreeShare} (f : Buf (Elt F) ℓ) :
    (ℓ ↦[I]{q} f : sProp 𝕄) ⊢ iprop(∃ g, ⌜g = f⌝ ∗ ℓ ↦[I]{q} g) := by
  iintro H; iexists f; isplitr
  · ipureintro; rfl
  · iexact H

/-- What slot 0 of the input staging buffer holds once the copy of chunk `g`'s eight rows of the mailbox has landed in
    it: the buffer's earlier contents `fb` with that slot overwritten by those rows. -/
def Landing0 (mb : (⟨S10000x32x128, .f32⟩ : BufTy).Contents (Elt F)) (g : ℕ) (f0 : Buf (Elt F) ((bufV).view.loc (V d (cV L) (jV L)))) : Prop :=
  ∃ (fb : Buf (Elt F) ((bufV).view.loc (V d (cV L) (jV L)))) (off : Fin 3 → ℕ) (h : ∀ a, off a + S8x32x128.size a ≤ S10000x32x128.size a),
    off = ![8 * g, 0, 0] ∧
    f0 = View.write (Elt F) slot0M.view fb (ReadAs.same.apply (View.read (Elt F) ((mbV).slice (Rect.unit (s := S10000x32x128) off S8x32x128.size h) (fun _ => rfl)).view mb)) Finset.univ

/-- Inside slot `b`'s node loop, before node `n`: the input staging buffer, at contents that do not change, held on `Sb`
    (all of it but the slot a copy is landing in); the output staging buffer with rows `0 ‥ n` of slot `b` done. -/
def invI (b : Fin 2) (Sb : Finset (Idx ((bufV).view.loc (V d (cV L) (jV L))))) (fbuf : Buf (Elt F) ((bufV).view.loc (V d (cV L) (jV L)))) (n : ℕ) (_ : PUnit) : sProp 𝕄 :=
  iprop(((bufV).view.loc (V d (cV L) (jV L)) ↦[Sb]{fullShare} fbuf)
    ∗ ∃ fo, ((obufV).view.loc (V d (cV L) (jV L)) ↦{fullShare} fo) ∗ ⌜RowsOK b n fbuf fo⌝)

/-- Before trip `k` of the chunk loop: the tile's first `2k` chunks of the result are done; the output staging buffer at
    some contents; the two write-back cells and slot 1's cell at zero; and — while trips remain — the copy of chunk
    `2k` in flight into slot 0 of the input staging buffer, the rest of that buffer and of the mailbox share kept beside
    it; after the last trip slot 0's cell at zero and both held whole. -/
def invO (q : PosShare TreeShare) (O : CellTallies nD τ sig (HIx 1)) (W : Waits sig (HIx 1)) (k : ℕ) (_ : PUnit) : sProp 𝕄 :=
  iprop(Transfers.MayWaits (V d (cV L) (jV L)) (default : HIx 1) O
    ∗ (∃ fo, (obufV).view.loc (V d (cV L) (jV L)) ↦{fullShare} fo)
    ∗ (∃ fh, ((hmV).view.loc (V d (cV L) (jV L)) ↦[Finset.univ \ others (wid L)]{fullShare} fh) ∗ ⌜DoneUpTo L (mb0 m d) k fh⌝)
    ∗ semVal (sem1cell d (cV L) (jV L)) 0 ∗ semVal (sem2cell d (cV L) (jV L)) 0 ∗ semVal (sem3cell d (cV L) (jV L)) 0
    ∗ (∃ W', ⌜∀ p ∈ W', p ∈ W ∨ p.2 = none⌝ ∗ owes (V d (cV L) (jV L)) O W')
    ∗ (if k < 20 then
        iprop(∃ (S : Finset (Idx ((mbV).view.loc (V d (cV L) (jV L))))) (f0 : Buf (Elt F) ((bufV).view.loc (V d (cV L) (jV L)))),
          ⌜Landing0 d L (mb0 m d) (chunk L (2 * k)) f0⌝
          ∗ Transfers.Flight countersEmb (V d (cV L) (jV L)) (SemLoc.dma (0 : DmaSem sig)) (default : HIx 1) 1048576
            iprop(((bufV).view.loc (V d (cV L) (jV L)) ↦[slot0M.view.set]{fullShare} f0)
              ∗ (mbV).view.loc (V d (cV L) (jV L)) ↦[S]{q} m (mbLoc d))
          ∗ ((mbV).view.loc (V d (cV L) (jV L)) ↦[Finset.univ \ S]{q} m (mbLoc d))
          ∗ ((bufV).view.loc (V d (cV L) (jV L)) ↦[Finset.univ \ slot0M.view.set]{fullShare} f0))
      else
        iprop(semVal (sem0cell d (cV L) (jV L)) 0 ∗ ((mbV).view.loc (V d (cV L) (jV L)) ↦{q} m (mbLoc d))
          ∗ ∃ fb, (bufV).view.loc (V d (cV L) (jV L)) ↦{fullShare} fb)))

end Tile

set_option maxHeartbeats 8000000 in
set_option sl_exec.dmaWindow true in
/-- The tile's task (`TileStmt`): the first chunk's copy is started; each trip of the chunk loop waits for a slot, starts
    the next chunk's copy into the other slot, takes the minima of the landed slot's eight nodes into the output staging
    buffer and writes them out to the chunk's rows of the result; after forty chunks every row of the tile is done. -/
theorem tile_body : TileStmt m := by
  intro d L hF q O W hO
  have hd0 : ∀ (k : Fin k0_t1_loop.trips) h, Disjoint ((hmV).slice (Rect.unit (s := S10000x128) (k0_off268 L k 0#32) S8x128.size h) (fun _ => rfl)).view.set (others (wid L)) :=
    fun k h => win_disj L 0 k h
  have hd1 : ∀ (k : Fin k0_t1_loop.trips) h, Disjoint ((hmV).slice (Rect.unit (s := S10000x128) (k0_off268 L k 1#32) S8x128.size h) (fun _ => rfl)).view.set (others (wid L)) :=
    fun k h => win_disj L 1 k h
  simp only [cc0__sc_min_eq_skeleton]; unfold cc0__sc_min_skel
  rw [(K (F := F)).scopedBufs_V hF d (cV L) (jV L), SparseCore.Cfg.scopedSems0_V (Val := Elt F) d (cV L) (jV L), ownSems0_V, ownBufs_V]
  iintro ⟨#Hlv, -, ⟨Hmb, Hhm⟩, ⟨⟨%fb, Hb⟩, ⟨%fo, Ho⟩, Hbufs⟩, ⟨Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hmb' := (Entails.of_eq (show ((mbV).view.loc (V d (cV L) (jV L)) ↦{q} m (mbLoc d) : sProp 𝕄) = mbPts m d q from rfl).symm) $$ Hmb
  ihave Hhm' := (Entails.of_eq (show ((hmV).view.loc (V d (cV L) (jV L)) ↦[Finset.univ \ others (wid L)]{fullShare} m (hmLoc d) : sProp 𝕄) = hmPts d (wid L) (m (hmLoc d)) from rfl).symm) $$ Hhm
  ihave Hb' := (Entails.of_eq (show ((bufV).view.loc (V d (cV L) (jV L)) ↦{fullShare} fb : sProp 𝕄) = ((V d (cV L) (jV L)).loc cc0_scratch0 ↦{fullShare} fb) from rfl).symm) $$ Hb
  ihave Ho' := (Entails.of_eq (show ((obufV).view.loc (V d (cV L) (jV L)) ↦{fullShare} fo : sProp 𝕄) = ((V d (cV L) (jV L)).loc cc0_scratch1 ↦{fullShare} fo) from rfl).symm) $$ Ho
  sl_exec
  sl_for (invO m d L q O W) $$ [Hmw Hmb' Hhm' Hb' Ho' Hs0 Hs1 Hs2 Hs3 HO]
  case region =>
    intro k _
    have k0_h1 : k0_cond1 k = 1#1 := hc1 k
    have hk20 : k.val < 20 := k.isLt
    unfold invO; rw [if_pos hk20]
    iintro ⟨Hmw, ⟨%fo, Ho⟩, ⟨%fh, Hhm, %hdone⟩, Hs1, Hs2, Hs3, ⟨%W', %hW', HO⟩, %S, %f0, %hland, Hs0, Hmb, Hb⟩
    obtain ⟨fb, off0, hoff0, eoff0, rfl⟩ := hland
    rcases Classical.em (k0_cond2 k = 1#1) with k0_h2 | k0_h2
    · have hk1 : k.val + 1 < 20 := (hc2 k).mp k0_h2
      sl_exec_parts
      ihave Hn := (pts_name _) $$ Hb
      icases Hn with ⟨%fbuf, %hfb, Hb⟩
      rw [← hfb]
      have hs0 : ∀ (n : Fin 8) (r : Fin 32) (c : Fin 128), fbuf (ix4 (0 : Fin 2) n r c) = mb0 m d (ix3 (⟨8 * chunk L (2 * k.val) + n.val, by have := n.isLt; have := chunk_le L (2 * k.val) (by omega); omega⟩ : Fin 10000) r c) := by
        intro n r c; rw [hfb]
        refine (landing_other (1 : Fin 2) _ _ _ _ rfl _ _ (ix4 (0 : Fin 2) n r c) (show ((ix4 (0 : Fin 2) n r c) 0).val ≠ (1 : Fin 2).val from Nat.zero_ne_one)).trans ?_
        exact landing_apply (0 : Fin 2) (chunk L (2 * k.val)) _ _ _ _ (chunk_le L _ (by omega)) rfl eoff0 _ _ n r c
      have hs1 : ∀ (n : Fin 8) (r : Fin 32) (c : Fin 128), fbuf (ix4 (1 : Fin 2) n r c) = mb0 m d (ix3 (⟨8 * chunk L (2 * k.val + 1) + n.val, by have := n.isLt; have := chunk_le L (2 * k.val + 1) (by omega); omega⟩ : Fin 10000) r c) := by
        intro n r c; rw [hfb]
        exact landing_apply (1 : Fin 2) (chunk L (2 * k.val + 1)) _ _ _ _ (chunk_le L _ (by omega)) rfl (off3_chunk L k) _ _ n r c
      sl_for (invI d L 0 (Finset.univ \ slot1M.view.set) fbuf) $$ [Hb Ho]
      case region =>
        intro n acc; unfold invI; iintro ⟨Hb, %fo', Ho, %hrows⟩
        iapply (trip0 d L _ _ _ _ k n acc fbuf fo' hrows) $$ [Hb Ho]
        isplitl [Hb]; · iexact Hb
        iexact Ho
      · unfold invI; isplitl [Hb]; · iexact Hb
        iexists _; isplitl [Ho]; · iexact Ho
        ipureintro; exact fun n' h => absurd h (Nat.not_lt_zero _)
      iintro %_ HI; unfold invI; icases HI with ⟨Hb, %fo1, Ho, %hrows0⟩
      sl_exec_parts
      ihave Hn := (pts_name _) $$ Hb
      icases Hn with ⟨%fbuf2, %hfb2, Hb⟩
      rw [← hfb2]
      have hs1' : ∀ (n : Fin 8) (r : Fin 32) (c : Fin 128), fbuf2 (ix4 (1 : Fin 2) n r c) = mb0 m d (ix3 (⟨8 * chunk L (2 * k.val + 1) + n.val, by have := n.isLt; have := chunk_le L (2 * k.val + 1) (by omega); omega⟩ : Fin 10000) r c) := by
        intro n r c; rw [hfb2]
        exact (landing_other (0 : Fin 2) _ _ _ _ rfl _ _ (ix4 (1 : Fin 2) n r c) (show ((ix4 (1 : Fin 2) n r c) 0).val ≠ (0 : Fin 2).val from Nat.one_ne_zero)).trans (hs1 n r c)
      sl_for (invI d L 1 (Finset.univ \ slot0M.view.set) fbuf2) $$ [Hb Ho]
      case region =>
        intro n acc; unfold invI; iintro ⟨Hb, %fo', Ho, %hrows⟩
        iapply (trip1 d L _ n acc fbuf2 fo' hrows) $$ [Hb Ho]
        isplitl [Hb]; · iexact Hb
        iexact Ho
      · unfold invI; isplitl [Hb]; · iexact Hb
        iexists _; isplitl [Ho]; · iexact Ho
        ipureintro; exact fun n' h => absurd h (Nat.not_lt_zero _)
      iintro %_ HI; unfold invI; icases HI with ⟨Hb, %fo2, Ho, %hrows1⟩
      sl_exec_parts
      sl_step
      rw [if_pos hk1]
      isplitl [Hmw]; · iexact Hmw
      isplitl [Ho]; · iexists _; iexact Ho
      isplitl [Hhm]
      · iexists _; isplitl [Hhm]; · iexact Hhm
        ipureintro
        exact done_step L (mb0 m d) k.val fh _ _ hdone
          (chunk_done (0 : Fin 2) (chunk L (2 * k.val)) _ _ _ _ (chunk_le L _ (by omega)) rfl (off268_chunk L k 0) (mb0 m d) fbuf fo1 fh hs0 hrows0)
          (chunk_done (1 : Fin 2) (chunk L (2 * k.val + 1)) _ _ _ _ (chunk_le L _ (by omega)) rfl (off268_chunk L k 1) (mb0 m d) fbuf2 fo2 _ hs1' hrows1)
      isplitl [Hs1]; · iexact Hs1
      isplitl [Hs2]; · iexact Hs2
      isplitl [Hs3]; · iexact Hs3
      isplitl [HO]
      ·
        iexists _; isplitr
        swap; · iexact HO
        ipureintro; intro p hp
        repeat (rcases Finset.mem_insert.mp hp with hp | hp; · exact .inr (hp ▸ rfl))
        exact hW' p hp
      iexists _, fbuf2
      isplitr
      · ipureintro; exact ⟨fbuf, k0_off269 L k, _, off269_chunk L k, hfb2⟩
      isplitl [Hs0]; · iexact Hs0
      isplitl [Hmb]; · iexact Hmb
      iexact Hb
    · have hk1 : ¬ (k.val + 1 < 20) := fun h => k0_h2 ((hc2 k).mpr h)
      sl_exec_parts
      ihave Hn := (pts_name _) $$ Hb
      icases Hn with ⟨%fbuf, %hfb, Hb⟩
      rw [← hfb]
      have hs0 : ∀ (n : Fin 8) (r : Fin 32) (c : Fin 128), fbuf (ix4 (0 : Fin 2) n r c) = mb0 m d (ix3 (⟨8 * chunk L (2 * k.val) + n.val, by have := n.isLt; have := chunk_le L (2 * k.val) (by omega); omega⟩ : Fin 10000) r c) := by
        intro n r c; rw [hfb]
        refine (landing_other (1 : Fin 2) _ _ _ _ rfl _ _ (ix4 (0 : Fin 2) n r c) (show ((ix4 (0 : Fin 2) n r c) 0).val ≠ (1 : Fin 2).val from Nat.zero_ne_one)).trans ?_
        exact landing_apply (0 : Fin 2) (chunk L (2 * k.val)) _ _ _ _ (chunk_le L _ (by omega)) rfl eoff0 _ _ n r c
      have hs1 : ∀ (n : Fin 8) (r : Fin 32) (c : Fin 128), fbuf (ix4 (1 : Fin 2) n r c) = mb0 m d (ix3 (⟨8 * chunk L (2 * k.val + 1) + n.val, by have := n.isLt; have := chunk_le L (2 * k.val + 1) (by omega); omega⟩ : Fin 10000) r c) := by
        intro n r c; rw [hfb]
        exact landing_apply (1 : Fin 2) (chunk L (2 * k.val + 1)) _ _ _ _ (chunk_le L _ (by omega)) rfl (off3_chunk L k) _ _ n r c
      sl_for (invI d L 0 (Finset.univ \ slot1M.view.set) fbuf) $$ [Hb Ho]
      case region =>
        intro n acc; unfold invI; iintro ⟨Hb, %fo', Ho, %hrows⟩
        iapply (trip0 d L _ _ _ _ k n acc fbuf fo' hrows) $$ [Hb Ho]
        isplitl [Hb]; · iexact Hb
        iexact Ho
      · unfold invI; isplitl [Hb]; · iexact Hb
        iexists _; isplitl [Ho]; · iexact Ho
        ipureintro; exact fun n' h => absurd h (Nat.not_lt_zero _)
      iintro %_ HI; unfold invI; icases HI with ⟨Hb, %fo1, Ho, %hrows0⟩
      sl_exec_parts
      ihave Hsp := (pointsTo_split_subset (q := fullShare) (f := fbuf) (S := Finset.univ) (Finset.subset_univ slot0M.view.set)).1 $$ Hb
      icases Hsp with ⟨Hb0, Hb⟩
      sl_for (invI d L 1 (Finset.univ \ slot0M.view.set) fbuf) $$ [Hb Ho]
      case region =>
        intro n acc; unfold invI; iintro ⟨Hb, %fo', Ho, %hrows⟩
        iapply (trip1 d L _ n acc fbuf fo' hrows) $$ [Hb Ho]
        isplitl [Hb]; · iexact Hb
        iexact Ho
      · unfold invI; isplitl [Hb]; · iexact Hb
        iexists _; isplitl [Ho]; · iexact Ho
        ipureintro; exact fun n' h => absurd h (Nat.not_lt_zero _)
      iintro %_ HI; unfold invI; icases HI with ⟨Hb, %fo2, Ho, %hrows1⟩
      have hs1' := hs1
      sl_exec_parts
      sl_step
      rw [if_neg hk1]
      isplitl [Hmw]; · iexact Hmw
      isplitl [Ho]; · iexists _; iexact Ho
      isplitl [Hhm]
      · iexists _; isplitl [Hhm]; · iexact Hhm
        ipureintro
        exact done_step L (mb0 m d) k.val fh _ _ hdone
          (chunk_done (0 : Fin 2) (chunk L (2 * k.val)) _ _ _ _ (chunk_le L _ (by omega)) rfl (off268_chunk L k 0) (mb0 m d) fbuf fo1 fh hs0 hrows0)
          (chunk_done (1 : Fin 2) (chunk L (2 * k.val + 1)) _ _ _ _ (chunk_le L _ (by omega)) rfl (off268_chunk L k 1) (mb0 m d) fbuf fo2 _ hs1' hrows1)
      isplitl [Hs1]; · iexact Hs1
      isplitl [Hs2]; · iexact Hs2
      isplitl [Hs3]; · iexact Hs3
      isplitl [HO]
      ·
        iexists _; isplitr
        swap; · iexact HO
        ipureintro; intro p hp
        repeat (rcases Finset.mem_insert.mp hp with hp | hp; · exact .inr (hp ▸ rfl))
        exact hW' p hp
      isplitl [Hs0]; · iexact Hs0
      isplitl [Hmb]; · iexact Hmb
      iexists fbuf
      iapply (pointsTo_split_subset (q := fullShare) (f := fbuf) (S := Finset.univ) (Finset.subset_univ slot0M.view.set)).2
      isplitl [Hb0]; · iexact Hb0
      iexact Hb
  · unfold invO; rw [if_pos (show (0 : ℕ) < 20 by decide)]
    isplitl [Hmw]; · iexact Hmw
    isplitl [Ho']; · iexists _; iexact Ho'
    isplitl [Hhm']
    · iexists _; isplitl [Hhm']; · iexact Hhm'
      ipureintro; exact done_zero L _ _
    isplitl [Hs1]; · iexact Hs1
    isplitl [Hs2]; · iexact Hs2
    isplitl [Hs3]; · iexact Hs3
    isplitl [HO]
    · iexists W; isplitr
      · ipureintro; exact fun p hp => .inl hp
      · iexact HO
    iexists _, _
    isplitr
    · ipureintro; exact ⟨fb, k0_off1 L, k0_off1_inb L, off1_chunk L, rfl⟩
    isplitl [Hs0]; · iexact Hs0
    isplitl [Hmb']; · iexact Hmb'
    iexact Hb'
  iintro %_ HI
  unfold invO; rw [if_neg (show ¬ (Scf.trips k0_t1_loop.lb k0_t1_loop.ub k0_t1_loop.st < 20) by decide)]
  icases HI with ⟨-, ⟨%fo2, Ho⟩, ⟨%fh, Hhm, %hdone⟩, Hs1, Hs2, Hs3, ⟨%W', %hW', HO⟩, Hs0, Hmb, %fb2, Hb⟩
  sl_exec
  sl_step
  have hfin : ∀ j ∈ Finset.univ \ others (wid L), fh j = HM (mb0 m d) j :=
    fun j hj => done_all L (mb0 m d) fh hdone j (univ_sdiff_others (wid L) ▸ hj)
  isplitl [Hmb Hhm]
  · isplitl [Hmb]; · iexact Hmb
    iapply (Entails.of_eq (pointsTo_congr (ℓ := hmLoc d) (q := fullShare) hfin)); iexact Hhm
  isplitl [Hb Ho Hbufs]
  · isplitl [Hb]; · iexists _; iexact Hb
    isplitl [Ho]; · iexists _; iexact Ho
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

end Cert.Proof.KB

end
-- ==== Proof.KB.LaunchPay.lean ====
/-
  What the vector-subcore call's handshakes carry. The mailbox is read by every tile, so it goes out as read shares: one
  per SparseCore off the whole, one per tile off its SparseCore's, the remainders kept by whoever split and joined back
  afterwards. The per-node minimum is written by rows: a SparseCore takes the rows whose chunk has its parity, a tile the
  rows whose chunk is dealt to it, and they come back at the one function that is the minimum over the neighbours.
-/
import proofs.«211044_g9509057593726_fold_wed_m_382_5_alg».proof.Proof.KB.TileDefs
import Idealize.ShloMosaic.Lib.SparseCore.Launch
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-! ## Read shares of the mailbox -/

/-- SparseCore c's read share of the mailbox, and its tile i's. -/
abbrev coreQ (c : ℕ) : PosShare TreeShare := Transfers.shareTokN fullShare c
abbrev tileQ (c i : ℕ) : PosShare TreeShare := Transfers.shareTokN (coreQ c) i

variable [FloatOps F]

/-! ## What the handshakes carry -/

/-- The call hands SparseCore c its share of the mailbox and the rows of its parity; each tile its share and its own
    rows; and they come back with the rows at the per-node minimum of the mailbox as launched. -/
def P : (K (F := F)).Pay (nD := nD) (Val := Elt F) (Name := ℕ) (U := UU) where
  st := fun q d c => match q with
    | 0 => iprop((mbLoc d ↦{coreQ c.val} m (mbLoc d)) ∗ (hmLoc d ↦[coreSet c.val]{fullShare} m (hmLoc d)))
  dn := fun q d c => match q with
    | 0 => iprop((mbLoc d ↦{coreQ c.val} m (mbLoc d)) ∗ (hmLoc d ↦[coreSet c.val]{fullShare} HM (mb0 m d)))
  go := fun q d c i => match q with
    | 0 => iprop(mbPts m d (tileQ c.val i.val) ∗ hmPts d (2 * i.val + c.val) (m (hmLoc d)))
  td := fun q d c i => match q with
    | 0 => iprop(mbPts m d (tileQ c.val i.val) ∗ hmPts d (2 * i.val + c.val) (HM (mb0 m d)))
  x := fun _ _ => iprop(emp)

instance P_storable : (P (F := F) m).IsStorable where
  st q d c := match q with
    | 0 => (inferInstance : BI.Storable (upEmb : UEmb _ 𝕄)
        iprop((mbLoc d ↦{coreQ c.val} m (mbLoc d)) ∗ (hmLoc d ↦[coreSet c.val]{fullShare} m (hmLoc d))))
  dn q d c := match q with
    | 0 => (inferInstance : BI.Storable (upEmb : UEmb _ 𝕄)
        iprop((mbLoc d ↦{coreQ c.val} m (mbLoc d)) ∗ (hmLoc d ↦[coreSet c.val]{fullShare} HM (mb0 m d))))
  go q d c i := match q with
    | 0 => (inferInstance : BI.Storable (upEmb : UEmb _ 𝕄)
        iprop(mbPts m d (tileQ c.val i.val) ∗ hmPts d (2 * i.val + c.val) (m (hmLoc d))))
  td q d c i := match q with
    | 0 => (inferInstance : BI.Storable (upEmb : UEmb _ 𝕄)
        iprop(mbPts m d (tileQ c.val i.val) ∗ hmPts d (2 * i.val + c.val) (HM (mb0 m d))))

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_min (coordsV c s)
          (Memref.whole main_arg0_scv) (Memref.isWhole_whole _) (Memref.whole main_v5_scv) (Memref.isWhole_whole _)
          (Memref.whole cc0_scratch0) (Memref.isWhole_whole _) (Memref.whole cc0_scratch1) (Memref.isWhole_whole _)
          cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The tile's task as the launch asks it, from the tile's statement at the tile's own share. -/
theorem tileObl (htile : TileStmt m) (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) hF (tileQ c.val i.val) O W hO).trans (wp_mono frame _ _ fun _ => obl_post)

/-! ## A SparseCore's operands split among its tiles -/

omit [FloatOps F] in
/-- The rows of parity c are the rows of the sixteen tiles 2 i + c. -/
theorem rows_tiles (d : Dev nD) (c : ℕ) (hc : c < 2) (f : Buf (Elt F) (hmLoc d)) :
    (hmLoc d ↦[coreSet c]{fullShare} f : sProp 𝕄) = bigSep Finset.univ fun i : Fin 16 => hmPts d (2 * i.val + c) f := by
  rw [← tile_cover c hc, pointsTo_biUnion Finset.univ (ℓ := hmLoc d) (fun i : Fin 16 => tileSet (2 * i.val + c)) (tile_disjoint c)]
  exact bigSep_congr fun i _ => congrArg (fun I => (hmLoc d ↦[I]{fullShare} f : sProp 𝕄)) (univ_sdiff_others _).symm

/-- The call's operands for SparseCore c go out to its sixteen tiles — a read share of the mailbox each, the remainder
    kept; the rows by tile — and come back the same way, the rows at the one function. -/
theorem vecSplit : (K (F := F)).VecSplit' (P m) 0 := by
  intro d c
  have hc : c.val < 2 := c.isLt
  show iprop((mbLoc d ↦{coreQ c.val} m (mbLoc d)) ∗ (hmLoc d ↦[coreSet c.val]{fullShare} m (hmLoc d))) ⊢ |={Set.univ}=> iprop(
      (bigSep Finset.univ fun i : Fin 16 => iprop(mbPts m d (tileQ c.val i.val) ∗ hmPts d (2 * i.val + c.val) (m (hmLoc d))))
      ∗ ((bigSep Finset.univ fun i : Fin 16 => iprop(mbPts m d (tileQ c.val i.val) ∗ hmPts d (2 * i.val + c.val) (HM (mb0 m d))))
          -∗ iprop((mbLoc d ↦{coreQ c.val} m (mbLoc d)) ∗ (hmLoc d ↦[coreSet c.val]{fullShare} HM (mb0 m d)))))
  rw [bigSep_sep', bigSep_sep', rows_tiles d c.val hc, rows_tiles d c.val hc]
  iintro ⟨Hmb, Hhm⟩
  ihave Hs := (Transfers.pointsTo_toks_split (coreQ c.val) 16) $$ Hmb
  icases Hs with ⟨Hrem, Htoks⟩
  imodintro
  isplitl [Htoks Hhm]
  · isplitl [Htoks]; · iexact Htoks
    iexact Hhm
  iintro ⟨Htoks, Hhm⟩
  isplitl [Hrem Htoks]
  · iapply (Transfers.pointsTo_toks_join (coreQ c.val) 16)
    isplitl [Hrem]; · iexact Hrem
    iexact Htoks
  iexact Hhm

end Cert.Proof.KB

end
-- ==== Proof.KB.RegionBody.lean ====
/-
  The TensorCore kernel's body on whole staging memrefs. It loads the two row blocks, the two weight matrices and
  the bias row through whole-buffer rectangles, multiplies each row block by its matrix, adds the two products and
  the bias row broadcast over the rows, and stores the sum over the whole result buffer. What it leaves there is
  therefore one closed function of what it read: the canon of that single covering store.
-/
import Idealize.ShloMosaic.Lib.Pipeline.FrameBody
import Idealize.ShloMosaic.Lib.Tactic
import proofs.«211044_g9509057593726_fold_wed_m_382_5_alg».proof.Proof.KB.Common

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The body's accesses: each buffer whole -/

/-- A row block, whole. -/
abbrev rRows : Rect S2000x128 := Rect.unit (s := S2000x128) ![0, 0] S2000x128.size inb_S2000x128_S2000x128_0_0
/-- A weight matrix, whole. -/
abbrev rSq : Rect S128x128 := Rect.unit (s := S128x128) ![0, 0] S128x128.size inb_S128x128_S128x128_0_0
/-- The bias row, whole. -/
abbrev rBias : Rect S1x128 := Rect.unit (s := S1x128) ![0, 0] S1x128.size inb_S1x128_S1x128_0_0

/-! ## What the body leaves in the result's buffer -/

/-- The result block from the row blocks `x`, `y`, the matrices `a`, `b` and the bias row `β`:
    `(x · a + y · b) + β` broadcast over the rows, laid over the whole buffer. -/
def linBlock (x y : Vec F S2000x128 .f32) (a b : Vec F S128x128 .f32) (β : Vec F S1x128 .f32) : Vec F S2000x128 .f32 :=
  View.canon [⟨rRows, k1_pay1 (View.ld x rRows) (View.ld a rSq) (View.ld y rRows) (View.ld b rSq) (View.ld β rBias)⟩]

/-- The one store covers the buffer. -/
theorem linBlock_cover (p : Vec F S2000x128 .f32) (y : S2000x128.Idx) :
    ∃ pc ∈ ([⟨rRows, p⟩] : List (View.Piece (Elt F) S2000x128 .f32)), y ∈ pc.1.set :=
  View.cover_of_tiled [⟨rRows, p⟩] S2000x128.size (by rfl) y

/-! ## The body's triple -/

set_option maxHeartbeats 1000000 in
/-- On whole staging memrefs holding `x`, `y`, `a`, `b`, `β` and anything in the result's, the body runs to its
    continuation with the five inputs as they were and the result's buffer at `linBlock` of them. -/
theorem lin_kernel (c : Dev nD) (E : Set ℕ) (i : grid1.Coords)
    (m0 : Memref sig .tc .vmem S2000x128 .f32) (h0 : m0.IsWhole) (m1 : Memref sig .tc .vmem S2000x128 .f32) (h1 : m1.IsWhole)
    (m2 : Memref sig .tc .vmem S128x128 .f32) (h2 : m2.IsWhole) (m3 : Memref sig .tc .vmem S128x128 .f32) (h3 : m3.IsWhole)
    (m4 : Memref sig .tc .vmem S1x128 .f32) (h4 : m4.IsWhole) (m5 : Memref sig .tc .vmem S2000x128 .f32) (h5 : m5.IsWhole)
    (x y : Vec F S2000x128 .f32) (a b : Vec F S128x128 .f32) (β : Vec F S1x128 .f32) (Kont : PUnit → sProp 𝕄) :
    iprop(owns (c : Thread nD τ) m0 fullShare x ∗ owns (c : Thread nD τ) m1 fullShare y ∗ owns (c : Thread nD τ) m2 fullShare a
        ∗ owns (c : Thread nD τ) m3 fullShare b ∗ owns (c : Thread nD τ) m4 fullShare β ∗ (∃ z, owns (c : Thread nD τ) m5 fullShare z)
        ∗ (iprop(owns (c : Thread nD τ) m0 fullShare x ∗ owns (c : Thread nD τ) m1 fullShare y ∗ owns (c : Thread nD τ) m2 fullShare a
            ∗ owns (c : Thread nD τ) m3 fullShare b ∗ owns (c : Thread nD τ) m4 fullShare β
            ∗ owns (c : Thread nD τ) m5 fullShare (linBlock x y a b β)) -∗ Kont ⟨⟩))
      ⊢ wp frame (wpE (defs₀ (F := F)) Variants.none c none) E (cc1__lin_body i m0 h0 m1 h1 m2 h2 m3 h3 m4 h4 m5 h5) Kont := by
  simp only [cc1__lin_body_eq_skeleton]; unfold cc1__lin_body_skel
  unfold owns
  iintro ⟨⟨%f0, %e0, H0⟩, ⟨%f1, %e1, H1⟩, ⟨%f2, %e2, H2⟩, ⟨%f3, %e3, H3⟩, ⟨%f4, %e4, H4⟩, ⟨%z, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (linBlock_cover _)

end Cert.Proof.KB

end
-- ==== Proof.KB.Region.lean ====
/-
  The TensorCore pipeline of the program, as a region entered from the TensorCore thread's state after the
  vector-subcore call: the staging cells' launch element and what it funds, the proof data of the pipeline (each
  input's buffer left at its block, the result's at the body's sum of products), the body obligation at every
  point, and the region's step from the operands' arrays to the result array written block by block.
-/
import Idealize.ShloMosaic.Lib.Pipeline.Regions
import proofs.«211044_g9509057593726_fold_wed_m_382_5_alg».proof.Proof.Gen.Kernel.Launch
import proofs.«211044_g9509057593726_fold_wed_m_382_5_alg».proof.Proof.Gen.Kernel.Points
import proofs.«211044_g9509057593726_fold_wed_m_382_5_alg».proof.Proof.KB.RegionBody

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The staging cells' share of the launch element -/

/-- The staging cells' rounds sit in the middle factor of the algebra. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-- The rounds library's launch element at the pipeline's staging cells and the transfers its loop issues. -/
def uP₀ : UP := initOf (Pipeline.cells (nD := nD) (τ := τ) cfgs cellOf_inj) (Pipeline.launchToks (nD := nD) (τ := τ) cfgs cellOf_inj)

/-- What the region needs of it on device `d`: each staging cell's launch state, and the loop's duty tokens. -/
def GP (d : Dev nD) : sProp 𝕄 :=
  iprop(Pipeline.cellsGhost cfgs EP 0 d ∗ Pipeline.toksInit cfgs EP 0 d)

theorem bigSep_P {M : Type} [URA M] (Φ : Fin 1 → sProp M) : bigSep Finset.univ Φ = Φ 0 :=
  bigSep_univ_eq_bigSepL [(0 : Fin 1)] (by decide) (by decide) Φ

theorem fundP : (BI.own (EP uP₀) : sProp 𝕄) ⊢ iprop(|==> bigSep Finset.univ fun d : Dev nD => GP d) := by
  unfold GP uP₀
  refine (Pipeline.fund_ghost (Ix := HIx 1) (Val := Elt F) (Name := ℕ) (U := UU) (Lvl := ℕ) cfgs EP cellOf_inj).trans ?_
  simp only [bigSep_P, bigSep_sep']
  exact BI.Entails.refl _

/-! ## The proof data -/

section Data

variable (hm nf : (⟨S10000x128, .f32⟩ : BufTy).Contents (Elt F)) (w1 w3 : (⟨S128x128, .f32⟩ : BufTy).Contents (Elt F))
  (b4 : (⟨S1x128, .f32⟩ : BufTy).Contents (Elt F)) (f : (⟨S10000x128, .f32⟩ : BufTy).Contents (Elt F))

/-- The six windowed arrays as the region finds them: the per-node minimum, the node features, the two weight
    matrices, the bias row, and the result array at whatever it held. -/
def linA (c : Dev nD) : (w : Fin cfg1.W) → Buf (Elt F) ((cfg1.win w).arr.view.loc (c.tc : Thread nD τ))
  | ⟨0, _⟩ => hm
  | ⟨1, _⟩ => nf
  | ⟨2, _⟩ => w1
  | ⟨3, _⟩ => w3
  | ⟨4, _⟩ => b4
  | ⟨5, _⟩ => f

/-- Window `w`'s block of its array at point `t`. -/
def linBlk (c : Dev nD) (w : Fin cfg1.W) (t : Fin cfg1.N) : ((cfg1.win w).xblock (cfg1.grid.coords t)).Idx → Elt F (cfg1.win w).elt :=
  ((cfg1.win w).blk t).view.read (Elt F) (linA hm nf w1 w3 b4 f c w)

/-- The pipeline's proof data: every input's buffer left at its block, the result's at the body's sum of products
    of the blocks; nothing kept between points, nothing owed, and every wait the thread has recorded at a level no later call
    of the launch protocol reaches. -/
def linDat (c : Dev nD) : Dat τ (Elt F) (HIx 1) ℕ UU ℕ cfg1 c where
  A := linA hm nf w1 w3 b4 f c
  after w t := match w with
    | ⟨0, _⟩ => linBlk hm nf w1 w3 b4 f c 0 t
    | ⟨1, _⟩ => linBlk hm nf w1 w3 b4 f c 1 t
    | ⟨2, _⟩ => linBlk hm nf w1 w3 b4 f c 2 t
    | ⟨3, _⟩ => linBlk hm nf w1 w3 b4 f c 3 t
    | ⟨4, _⟩ => linBlk hm nf w1 w3 b4 f c 4 t
    | ⟨5, _⟩ => linBlock (linBlk hm nf w1 w3 b4 f c 0 t) (linBlk hm nf w1 w3 b4 f c 1 t) (linBlk hm nf w1 w3 b4 f c 2 t)
        (linBlk hm nf w1 w3 b4 f c 3 t) (linBlk hm nf w1 w3 b4 f c 4 t)
  Φ _ := BI.emp
  q _ := fullShare
  owed _ := 0
  recorded _ := {p | (K (F := F)).lev ((c.tc : Thread nD τ), p.1) p.2 ≤ 8}

theorem linDat_A (c : Dev nD) (w : Fin cfg1.W) : (linDat hm nf w1 w3 b4 f c).A w = linA hm nf w1 w3 b4 f c w := by dsimp only [linDat]

theorem after_0 (c : Dev nD) (t : Fin cfg1.N) : (linDat hm nf w1 w3 b4 f c).after 0 t = linBlk hm nf w1 w3 b4 f c 0 t := by dsimp only [linDat]
theorem after_1 (c : Dev nD) (t : Fin cfg1.N) : (linDat hm nf w1 w3 b4 f c).after 1 t = linBlk hm nf w1 w3 b4 f c 1 t := by dsimp only [linDat]
theorem after_2 (c : Dev nD) (t : Fin cfg1.N) : (linDat hm nf w1 w3 b4 f c).after 2 t = linBlk hm nf w1 w3 b4 f c 2 t := by dsimp only [linDat]
theorem after_3 (c : Dev nD) (t : Fin cfg1.N) : (linDat hm nf w1 w3 b4 f c).after 3 t = linBlk hm nf w1 w3 b4 f c 3 t := by dsimp only [linDat]
theorem after_4 (c : Dev nD) (t : Fin cfg1.N) : (linDat hm nf w1 w3 b4 f c).after 4 t = linBlk hm nf w1 w3 b4 f c 4 t := by dsimp only [linDat]
theorem after_5 (c : Dev nD) (t : Fin cfg1.N) : (linDat hm nf w1 w3 b4 f c).after 5 t
    = linBlock (linBlk hm nf w1 w3 b4 f c 0 t) (linBlk hm nf w1 w3 b4 f c 1 t) (linBlk hm nf w1 w3 b4 f c 2 t)
        (linBlk hm nf w1 w3 b4 f c 3 t) (linBlk hm nf w1 w3 b4 f c 4 t) := by dsimp only [linDat]

/-- An input window's buffer holds its block at every point, whether the pipeline fetched it there or its block
    index has not moved since it did: window 0, -/
theorem before_0 (c : Dev nD) (t : Fin cfg1.N) (d) : (linDat hm nf w1 w3 b4 f c).before 0 t d = linBlk hm nf w1 w3 b4 f c 0 t := by
  refine ((linDat hm nf w1 w3 b4 f c).before_in_eq_fetched 0 rfl (fun _ => rfl) (fun _ _ _ => rfl) (fun t => ?_) t d).trans ?_
  · rw [after_0]; rfl
  · rfl

theorem before_1 (c : Dev nD) (t : Fin cfg1.N) (d) : (linDat hm nf w1 w3 b4 f c).before 1 t d = linBlk hm nf w1 w3 b4 f c 1 t := by
  refine ((linDat hm nf w1 w3 b4 f c).before_in_eq_fetched 1 rfl (fun _ => rfl) (fun _ _ _ => rfl) (fun t => ?_) t d).trans ?_
  · rw [after_1]; rfl
  · rfl
theorem before_2 (c : Dev nD) (t : Fin cfg1.N) (d) : (linDat hm nf w1 w3 b4 f c).before 2 t d = linBlk hm nf w1 w3 b4 f c 2 t := by
  refine ((linDat hm nf w1 w3 b4 f c).before_in_eq_fetched 2 rfl (fun _ => rfl) (fun _ _ _ => rfl) (fun t => ?_) t d).trans ?_
  · rw [after_2]; rfl
  · rfl
theorem before_3 (c : Dev nD) (t : Fin cfg1.N) (d) : (linDat hm nf w1 w3 b4 f c).before 3 t d = linBlk hm nf w1 w3 b4 f c 3 t := by
  refine ((linDat hm nf w1 w3 b4 f c).before_in_eq_fetched 3 rfl (fun _ => rfl) (fun _ _ _ => rfl) (fun t => ?_) t d).trans ?_
  · rw [after_3]; rfl
  · rfl
theorem before_4 (c : Dev nD) (t : Fin cfg1.N) (d) : (linDat hm nf w1 w3 b4 f c).before 4 t d = linBlk hm nf w1 w3 b4 f c 4 t := by
  refine ((linDat hm nf w1 w3 b4 f c).before_in_eq_fetched 4 rfl (fun _ => rfl) (fun _ _ _ => rfl) (fun t => ?_) t d).trans ?_
  · rw [after_4]; rfl
  · rfl

/-! ## The body obligation -/

/-- The body at a point `t`, on the windows' current staging buffers: the five inputs' hold their blocks, so the
    body's triple applies; nothing else is read. -/
theorem lin_point (c : Dev nD) (t : Fin cfg1.N) :
    iprop((linDat hm nf w1 w3 b4 f c).Φ t.castSucc ∗ (linDat hm nf w1 w3 b4 f c).owesAt none t.castSucc
        ∗ (∃ d, owns (c : Thread nD τ) (st1_0 t) fullShare ((linDat hm nf w1 w3 b4 f c).before 0 t d))
        ∗ (∃ d, owns (c : Thread nD τ) (st1_1 t) fullShare ((linDat hm nf w1 w3 b4 f c).before 1 t d))
        ∗ (∃ d, owns (c : Thread nD τ) (st1_2 t) fullShare ((linDat hm nf w1 w3 b4 f c).before 2 t d))
        ∗ (∃ d, owns (c : Thread nD τ) (st1_3 t) fullShare ((linDat hm nf w1 w3 b4 f c).before 3 t d))
        ∗ (∃ d, owns (c : Thread nD τ) (st1_4 t) fullShare ((linDat hm nf w1 w3 b4 f c).before 4 t d))
        ∗ (∃ d, owns (c : Thread nD τ) (st1_5 t) fullShare ((linDat hm nf w1 w3 b4 f c).before 5 t d)))
      ⊢ wp frame (wpE (defs₀ (F := F)) Variants.none c none) Set.univ (bodyAt1 t) (fun _ =>
          iprop((linDat hm nf w1 w3 b4 f c).Φ t.succ ∗ (linDat hm nf w1 w3 b4 f c).owesAt none t.succ
            ∗ owns (c : Thread nD τ) (st1_0 t) fullShare ((linDat hm nf w1 w3 b4 f c).after 0 t)
            ∗ owns (c : Thread nD τ) (st1_1 t) fullShare ((linDat hm nf w1 w3 b4 f c).after 1 t)
            ∗ owns (c : Thread nD τ) (st1_2 t) fullShare ((linDat hm nf w1 w3 b4 f c).after 2 t)
            ∗ owns (c : Thread nD τ) (st1_3 t) fullShare ((linDat hm nf w1 w3 b4 f c).after 3 t)
            ∗ owns (c : Thread nD τ) (st1_4 t) fullShare ((linDat hm nf w1 w3 b4 f c).after 4 t)
            ∗ owns (c : Thread nD τ) (st1_5 t) fullShare ((linDat hm nf w1 w3 b4 f c).after 5 t))) := by
  simp only [before_0, before_1, before_2, before_3, before_4]
  rw [show (linDat hm nf w1 w3 b4 f c).Φ t.succ = (linDat hm nf w1 w3 b4 f c).Φ t.castSucc from rfl,
    show (linDat hm nf w1 w3 b4 f c).owesAt none t.succ = (linDat hm nf w1 w3 b4 f c).owesAt none t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  unfold bodyAt1
  iapply (lin_kernel c Set.univ _ _ _ _ _ _ _ _ _ _ _ _ _ (linBlk hm nf w1 w3 b4 f c 0 t) (linBlk hm nf w1 w3 b4 f c 1 t)
    (linBlk hm nf w1 w3 b4 f c 2 t) (linBlk hm nf w1 w3 b4 f c 3 t) (linBlk hm nf w1 w3 b4 f c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem lin_obligation (c : Dev nD) :
    BodyObligation (linDat hm nf w1 w3 b4 f c) (defs₀ (F := F)) Variants.none (none : HIx 1) Set.univ := fun t => by
  rw [bigSep_W1, bigSep_W1]
  exact lin_point hm nf w1 w3 b4 f c t

end Data

/-! ## The region -/

section Region

variable (hm nf : (⟨S10000x128, .f32⟩ : BufTy).Contents (Elt F)) (w1 w3 : (⟨S128x128, .f32⟩ : BufTy).Contents (Elt F))
  (b4 : (⟨S1x128, .f32⟩ : BufTy).Contents (Elt F)) (f : (⟨S10000x128, .f32⟩ : BufTy).Contents (Elt F))

/-- No pipeline has a prefetched table. -/
abbrev adm : (p : Fin 1) → (pcfgs (F := F) p).Adm := fun p => (cfgs p).toPCfg_adm

/-- The one pipeline's proof data. -/
def pdats (p : Fin 1) (c : Dev nD) : Dat τ (Elt F) (HIx 1) ℕ UU ℕ (Pipeline.pin (pcfgs (F := F)) adm p) c :=
  linDat hm nf w1 w3 b4 f c

theorem bigSep_none {M : Type} [URA M] (Φ : Fin 0 → sProp M) : bigSep Finset.univ Φ = (BI.emp : sProp M) :=
  bigSep_univ_eq_bigSepL [] (by decide) (by decide) Φ

theorem prefHeld_emp (c : Dev nD) (q) (pf) :
    (Pipeline.prefHeld (Ix := HIx 1) (Name := ℕ) (U := UU) (Lvl := ℕ) (Val := Elt F) (pcfgs (F := F) 0).pre c q pf : sProp 𝕄) = BI.emp :=
  bigSep_none _

/-- The six arrays of the region on device `c`, the result's at `g`. -/
def linArrays (c : Dev nD) (g : (⟨S10000x128, .f32⟩ : BufTy).Contents (Elt F)) : sProp 𝕄 :=
  iprop((((c.tc : Thread nD τ).loc main_v5) ↦{fullShare} hm) ∗ (((c.tc : Thread nD τ).loc main_arg1) ↦{fullShare} nf)
    ∗ (((c.tc : Thread nD τ).loc main_v1) ↦{fullShare} w1) ∗ (((c.tc : Thread nD τ).loc main_v3) ↦{fullShare} w3)
    ∗ (((c.tc : Thread nD τ).loc main_v4) ↦{fullShare} b4) ∗ (((c.tc : Thread nD τ).loc main_v6) ↦{fullShare} g))

/-- The result array after every block has been written back. -/
def linOut (c : Dev nD) : (⟨S10000x128, .f32⟩ : BufTy).Contents (Elt F) := (linDat hm nf w1 w3 b4 f c).arrAt 5 cfg1.N

theorem share_full (c : Dev nD) (w : Fin cfg1.W) : (linDat hm nf w1 w3 b4 f c).share w = fullShare :=
  (linDat hm nf w1 w3 b4 f c).share_full (fun _ => rfl) w

/-- The pipeline's arrays at contents that agree with the six operands' are the six arrays. -/
theorem arrays_open (c : Dev nD) (G : (w : Fin cfg1.W) → Buf (Elt F) ((cfg1.win w).arr.view.loc (c.tc : Thread nD τ)))
    (g : (⟨S10000x128, .f32⟩ : BufTy).Contents (Elt F))
    (h0 : G 0 = hm) (h1 : G 1 = nf) (h2 : G 2 = w1) (h3 : G 3 = w3) (h4 : G 4 = b4) (h5 : G 5 = g) :
    ((pdats hm nf w1 w3 b4 f 0 c).arrays G : sProp 𝕄) = linArrays hm nf w1 w3 b4 c g := by
  rw [Pipeline.arrays_eq (Pipeline.pin (pcfgs (F := F)) adm) (pdats hm nf w1 w3 b4 f) 0 c arr_whole1 (share_full hm nf w1 w3 b4 f c) G, bigSep_W1,
    h0, h1, h2, h3, h4, h5]
  rfl

/-- The thread's state around the region on device `c`: owing nothing, its recorded waits at levels no later call
    reaches, and the six arrays, the result's at `g`. -/
def segSt (c : Dev nD) (g : (⟨S10000x128, .f32⟩ : BufTy).Contents (Elt F)) : sProp 𝕄 :=
  iprop((∃ W, ⌜(K (F := F)).WBelow (c.tc : Thread nD τ) W 8⌝ ∗ owes (c : Thread nD τ) (0 : CellTallies nD τ sig (HIx 1)) W)
    ∗ linArrays hm nf w1 w3 b4 c g)

/-- The region: entered with the six arrays and the thread owing nothing, left with the result array written. -/
def linSeg : Pipeline.RegionSeg (pcfgs (F := F)) adm (pdats hm nf w1 w3 b4 f) (none : HIx 1) defs₀ 𝒱₀
    (SparseCore.Cfg.L (nD := nD) (K (F := F))) (SparseCore.Cfg.lev (nD := nD) (K (F := F))) 0 where
  win := winFacts1.to₀
  block_pos := block_pos1
  stage_whole := stage_whole1
  K := PEmpty
  osem k := k.elim
  ho := Pipeline.OwnSemFacts.none _
  hbody c := (lin_obligation hm nf w1 w3 b4 f c).loose
  hwaits := Pipeline.hwaits_of_owed_zero _ _ _ _ _ _ 0 fun _ _ => rfl
  pre c := segSt hm nf w1 w3 b4 c f
  post c := segSt hm nf w1 w3 b4 c (linOut hm nf w1 w3 b4 f c)
  X _ := BI.emp
  Y _ := BI.emp
  Z _ := BI.emp
  hentry c := by
    rw [Pipeline.ownSems0_none, prefHeld_emp, arrays_open hm nf w1 w3 b4 f c _ f rfl rfl rfl rfl rfl rfl]
    unfold segSt
    iintro ⟨⟨⟨%W, %hW, HO⟩, Ha⟩, -, -⟩
    imodintro
    isplitl [Ha]; · iexact Ha
    isplitr; · iempintro
    isplitl [HO]
    · unfold Pipeline.Dat.owesAt Pipeline.owesWithin
      iexists W; isplitr; · ipureintro; exact fun p hp => Or.inl (hW p (Finset.mem_coe.mp hp))
      iexact HO
    isplitr <;> iempintro
  hin c := by
    rw [show (pdats hm nf w1 w3 b4 f 0 c).Φ 0 = BI.emp from rfl]
    iintro -; iempintro
  hout c := by
    rw [show (pdats hm nf w1 w3 b4 f 0 c).Φ (Fin.last _) = BI.emp from rfl, Pipeline.ownSems0_none, scopedRest1_eq]
    iintro -
    isplitr; · iempintro
    isplitr <;> iempintro
  hexit c := by
    rw [arrays_open hm nf w1 w3 b4 f c _ (linOut hm nf w1 w3 b4 f c)
      ((linDat hm nf w1 w3 b4 f c).arrAt_in 0 rfl _) ((linDat hm nf w1 w3 b4 f c).arrAt_in 1 rfl _) ((linDat hm nf w1 w3 b4 f c).arrAt_in 2 rfl _)
      ((linDat hm nf w1 w3 b4 f c).arrAt_in 3 rfl _) ((linDat hm nf w1 w3 b4 f c).arrAt_in 4 rfl _) rfl]
    unfold segSt
    iintro ⟨Ha, HO, -, -⟩
    imodintro
    isplitl [HO]
    · unfold Pipeline.Dat.owesAt Pipeline.owesWithin
      icases HO with ⟨%W, %hW, HO⟩
      iexists W; isplitr
      · ipureintro; intro p hp
        rcases hW (Finset.mem_coe.mpr hp) with h | ⟨w, s, rfl⟩
        · exact h
        · exact Nat.zero_le _
      iexact HO
    iexact Ha

/-! ## The region's step on the TensorCore thread -/

/-- What the pipeline leaves in the result array `out`, given the operands: the array some contents `f` become
    when each point's block — the body's sum of products of the operands' blocks there — is written back in turn. -/
def LinSpec (out : (⟨S10000x128, .f32⟩ : BufTy).Contents (Elt F)) : Prop :=
  ∃ (f : (⟨S10000x128, .f32⟩ : BufTy).Contents (Elt F)) (c : Dev nD), out = linOut hm nf w1 w3 b4 f c

/-- After the one vector-subcore call the TensorCore owes no later call anything: its state is the thread owing
    nothing, its recorded waits bounded, beside the handshake positions. -/
theorem tcSt_one (d : Dev nD) : ∃ R : sProp 𝕄, (K (F := F)).tcSt EH d 1
    = iprop((∃ W, ⌜(K (F := F)).WBelow (SparseCore.T d) W 8⌝ ∗ owes (SparseCore.T d) (0 : CellTallies nD τ sig (HIx 1)) W) ∗ R) := by
  unfold SparseCore.Cfg.tcSt
  rw [(K (F := F)).Otc_end d (le_refl 1)]
  exact ⟨_, rfl⟩

/-- The pipeline's custom call, as @main spells it. -/
abbrev regionCall : Prog (TpuEff nD τ sig (Elt F) (SparseCore.Sig (ΛP (F := F)) 1) .tc) PUnit :=
  Prog.lift (.customCall (SparseCore.inner (Pipeline.entry 0)) ())

/-- The pipeline's custom call on the TensorCore thread of `d`, after the vector-subcore call: from the thread's
    state, the staging cells' launch state, the region boundary and the six arrays, to the same with the result
    array at what the pipeline writes. -/
theorem region_wp (κ : GSem nD τ sig → ℕ) (d : Dev nD) (P : (K (F := F)).Pay (nD := nD) (Val := Elt F) (Name := ℕ) (U := UU)) :
    iprop((K (F := F)).ctx EH P κ ∗ (K (F := F)).tcSt EH d 1 ∗ GP d ∗ boundary (SparseCore.T d)
        ∗ (hmLoc d ↦{fullShare} hm) ∗ ((SparseCore.T d).loc main_arg1 ↦{fullShare} nf) ∗ ((SparseCore.T d).loc main_v1 ↦{fullShare} w1)
        ∗ ((SparseCore.T d).loc main_v3 ↦{fullShare} w3) ∗ ((SparseCore.T d).loc main_v4 ↦{fullShare} b4) ∗ ∃ g : (⟨S10000x128, .f32⟩ : BufTy).Contents (Elt F), outLoc d ↦{fullShare} g)
      ⊢ wp frame (wpE ((K (F := F)).defs (D (F := F))) 𝒱 (SparseCore.T d) none) Set.univ
          (regionCall (F := F)) fun _ =>
          iprop((K (F := F)).tcSt EH d 1 ∗ boundary (SparseCore.T d)
            ∗ (hmLoc d ↦{fullShare} hm) ∗ ((SparseCore.T d).loc main_arg1 ↦{fullShare} nf) ∗ ((SparseCore.T d).loc main_v1 ↦{fullShare} w1)
            ∗ ((SparseCore.T d).loc main_v3 ↦{fullShare} w3) ∗ ((SparseCore.T d).loc main_v4 ↦{fullShare} b4)
            ∗ ∃ out : (⟨S10000x128, .f32⟩ : BufTy).Contents (Elt F), (outLoc d ↦{fullShare} out) ∗ ⌜LinSpec hm nf w1 w3 b4 out⌝) := by
  obtain ⟨R, hR⟩ := tcSt_one (F := F) d
  rw [hR]
  unfold GP
  iintro ⟨#Hctx, ⟨⟨%W, %hW, HO⟩, HR⟩, ⟨Hg, Ht⟩, Hbd, Hhm, Hnf, Hw1, Hw3, Hb4, ⟨%g, Hout⟩⟩
  ihave Hlev := (SparseCore.Cfg.ctx_levAts κ) $$ Hctx
  iapply ((K (F := F)).wp_liftProg (D (F := F)) 𝒱 (SparseCore.T d) Set.univ none (Prog.lift (.customCall (Pipeline.entry 0) ())) _)
  iapply (Pipeline.RegionSeg.wp (pcfgs (F := F)) adm (pdats hm nf w1 w3 b4 g) (none : HIx 1) cellOf_inj EP defs₀ 𝒱₀
    (SparseCore.Cfg.L (nD := nD) (K (F := F))) (SparseCore.Cfg.lev (nD := nD) (K (F := F))) (linSeg hm nf w1 w3 b4 g) d none
    (fun _ h => absurd h (Option.not_mem_none _)) (fun x => .ret x) _)
  rw [show (linSeg hm nf w1 w3 b4 g).post d = segSt hm nf w1 w3 b4 d (linOut hm nf w1 w3 b4 g d) from rfl,
    show (linSeg hm nf w1 w3 b4 g).pre d = segSt hm nf w1 w3 b4 d g from rfl]
  unfold segSt linArrays
  isplitl [HR]
  · iintro ⟨Hbd, ⟨⟨%W', %hW', HO⟩, Ha⟩⟩
    rw [wp_ret]; imodintro
    icases Ha with ⟨Hhm, Hnf, Hw1, Hw3, Hb4, Hout⟩
    isplitl [HO HR]
    · isplitl [HO]
      · iexists W'; isplitr; · ipureintro; exact hW'
        iexact HO
      iexact HR
    isplitl [Hbd]; · iexact Hbd
    isplitl [Hhm]; · iexact Hhm
    isplitl [Hnf]; · iexact Hnf
    isplitl [Hw1]; · iexact Hw1
    isplitl [Hw3]; · iexact Hw3
    isplitl [Hb4]; · iexact Hb4
    iexists (linOut hm nf w1 w3 b4 g d)
    isplitl [Hout]; · iexact Hout
    ipureintro; exact ⟨g, d, rfl⟩
  isplitl [Hbd]; · iexact Hbd
  isplitl [HO Hhm Hnf Hw1 Hw3 Hb4 Hout]
  · isplitl [HO]
    · iexists W; isplitr; · ipureintro; exact hW
      iexact HO
    isplitl [Hhm]; · iexact Hhm
    isplitl [Hnf]; · iexact Hnf
    isplitl [Hw1]; · iexact Hw1
    isplitl [Hw3]; · iexact Hw3
    isplitl [Hb4]; · iexact Hb4
    iexact Hout
  isplitr; · iexact Hlev
  isplitl [Hg]; · iexact Hg
  iexact Ht

end Region

end Cert.Proof.KB

end
-- ==== Proof.KB.Launch.lean ====
/-
  The launch. The vector-subcore call hands each SparseCore a read share of the mailbox and the rows of its parity and
  takes them back at the per-node minimum; the TensorCore's program is five host operations on the weights and the bias,
  that call, and the pipeline; what is left at the end is the four arguments as launched and the result array at what the
  pipeline writes from the per-node minimum, the node features, the two transposed column blocks and the bias row.
-/
import proofs.«211044_g9509057593726_fold_wed_m_382_5_alg».proof.Proof.KB.LaunchPay
import proofs.«211044_g9509057593726_fold_wed_m_382_5_alg».proof.Proof.KB.Region
import Idealize.ShloMosaic.Lib.StableHlo.Run

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)

variable {F : FTy → Type}

local notation "𝕄" => MT nD τ sig (HIx 1) (Elt F) ℕ UU ℕ

variable (m : (ℓ : Loc nD τ sig) → Buf (Elt F) ℓ) (ρ : Dev nD → PrngReg)

/-! ## The host terms -/

/-- The node features, the weights and the bias as launched, on device d. -/
abbrev nf0 (d : Dev nD) : (⟨S10000x128, .f32⟩ : BufTy).Contents (Elt F) := m ((SparseCore.T d).loc main_arg1)
abbrev wt0 (d : Dev nD) : (⟨S128x256, .f32⟩ : BufTy).Contents (Elt F) := m ((SparseCore.T d).loc main_arg2)
abbrev bs0 (d : Dev nD) : (⟨S128, .f32⟩ : BufTy).Contents (Elt F) := m ((SparseCore.T d).loc main_arg3)

/-- The two transposed column blocks of the weights and the bias as one row, as the host operations compute them. -/
def W1 (d : Dev nD) : (⟨S128x128, .f32⟩ : BufTy).Contents (Elt F) :=
  transpose S128x128 [1, 0] (extractStridedSlice S128x128 ![0, 0] (wt0 m d) slices_S128x256_S128x128_0_0) transposes_S128x128_S128x128_1_0
def W3 (d : Dev nD) : (⟨S128x128, .f32⟩ : BufTy).Contents (Elt F) :=
  transpose S128x128 [1, 0] (extractStridedSlice S128x128 ![0, 128] (wt0 m d) slices_S128x256_S128x128_0_128) transposes_S128x128_S128x128_1_0
def B4 (d : Dev nD) : (⟨S1x128, .f32⟩ : BufTy).Contents (Elt F) := shapeCast S1x128 (bs0 m d) shapeCasts_S128_S1x128

variable [FloatOps F]

/-! ## The launch element -/

def u₀ : UU := (initOf (K (F := F)).hsCells (K (F := F)).hsToks, (uP₀, 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR uP₀ (1 : Counters)) $$ HR
  icases H2 with ⟨HP, -⟩
  imod (show (BI.own (((Emb.inl : Emb UP (UP × Counters)).trans embR) uP₀) : sProp 𝕄) ⊢ iprop(|==> bigSep Finset.univ fun d : Dev nD => GP (F := F) d) from fundP (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host operations before the call -/

abbrev op0 : HloOp τ sig (Elt F) := StableHlo.unary main_arg2 main_v0
  ((extractStridedSlice S128x128 ![0, 0] · slices_S128x256_S128x128_0_0) : (⟨S128x256, .f32⟩ : BufTy).Contents (Elt F) → (⟨S128x128, .f32⟩ : BufTy).Contents (Elt F))
abbrev op1 : HloOp τ sig (Elt F) := StableHlo.unary main_v0 main_v1
  ((transpose S128x128 [1, 0] · transposes_S128x128_S128x128_1_0) : (⟨S128x128, .f32⟩ : BufTy).Contents (Elt F) → (⟨S128x128, .f32⟩ : BufTy).Contents (Elt F))
abbrev op2 : HloOp τ sig (Elt F) := StableHlo.unary main_arg2 main_v2
  ((extractStridedSlice S128x128 ![0, 128] · slices_S128x256_S128x128_0_128) : (⟨S128x256, .f32⟩ : BufTy).Contents (Elt F) → (⟨S128x128, .f32⟩ : BufTy).Contents (Elt F))
abbrev op3 : HloOp τ sig (Elt F) := StableHlo.unary main_v2 main_v3
  ((transpose S128x128 [1, 0] · transposes_S128x128_S128x128_1_0) : (⟨S128x128, .f32⟩ : BufTy).Contents (Elt F) → (⟨S128x128, .f32⟩ : BufTy).Contents (Elt F))
abbrev op4 : HloOp τ sig (Elt F) := StableHlo.reshape main_arg3 main_v4 rfl shapeCasts_S128_S1x128

/-- The five host operations, in order. -/
def hostOps0 : List (HloOp τ sig (Elt F)) := [op0, op1, op2, op3, op4]

/-- The TensorCore's program is those five, the vector-subcore call, the pipeline. -/
theorem main_eq (d : Dev nD) :
    main (F := F) d = StableHlo.seq (hostOps0 (F := F)) >>= fun _ => ((sc (F := F)).run d 0 >>= fun _ => regionCall (F := F) >>= fun _ => pure ⟨⟩) := rfl

/-! ## The TensorCore's arrays -/

abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The seven arrays the host operations touch. -/
abbrev S7 : Finset (DevRef τ sig) := {a2', a3', v0', v1', v2', v3', v4'}

omit [FloatOps F] in
theorem held_S7 (d : Dev nD) (W : Valuation τ sig (Elt F)) :
    (held (SparseCore.T d) S7 W : sProp 𝕄) = iprop((((SparseCore.T d).loc main_arg2) ↦{fullShare} W a2') ∗ (((SparseCore.T d).loc main_arg3) ↦{fullShare} W a3')
      ∗ (((SparseCore.T d).loc main_v0) ↦{fullShare} W v0') ∗ (((SparseCore.T d).loc main_v1) ↦{fullShare} W v1') ∗ (((SparseCore.T d).loc main_v2) ↦{fullShare} W v2')
      ∗ (((SparseCore.T d).loc main_v3) ↦{fullShare} W v3') ∗ (((SparseCore.T d).loc main_v4) ↦{fullShare} W v4')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((mbLoc d ↦{fullShare} W main_arg0) ∗ (((SparseCore.T d).loc main_arg1) ↦{fullShare} W main_arg1)
      ∗ (((SparseCore.T d).loc main_arg2) ↦{fullShare} W main_arg2) ∗ (((SparseCore.T d).loc main_arg3) ↦{fullShare} W main_arg3)
      ∗ (((SparseCore.T d).loc main_v0) ↦{fullShare} W main_v0) ∗ (((SparseCore.T d).loc main_v1) ↦{fullShare} W main_v1) ∗ (((SparseCore.T d).loc main_v2) ↦{fullShare} W main_v2)
      ∗ (((SparseCore.T d).loc main_v3) ↦{fullShare} W main_v3) ∗ (((SparseCore.T d).loc main_v4) ↦{fullShare} W main_v4)
      ∗ (hmLoc d ↦{fullShare} W main_v5) ∗ (outLoc d ↦{fullShare} W main_v6)) := by
  unfold unscopedBufs
  rw [show (Finset.univ.filter fun b : Ref sig .tc => ¬ b.isScoped)
      = {main_arg0, main_arg1, main_arg2, main_arg3, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch contents as a valuation of the device's buffers. -/
def V0 (d : Dev nD) : Valuation τ sig (Elt F) := fun b => m (d, b)

theorem hostOps_sub : ∀ op ∈ (hostOps0 (F := F)), op.bufs ⊆ S7 := by
  intro op hop
  simp only [hostOps0, List.mem_cons, List.not_mem_nil, or_false] at hop
  rcases hop with rfl | rfl | rfl | rfl | rfl
  · show ({a2', v0'} : Finset (DevRef τ sig)) ⊆ S7; decide
  · show ({v0', v1'} : Finset (DevRef τ sig)) ⊆ S7; decide
  · show ({a2', v2'} : Finset (DevRef τ sig)) ⊆ S7; decide
  · show ({v2', v3'} : Finset (DevRef τ sig)) ⊆ S7; decide
  · show ({a3', v4'} : Finset (DevRef τ sig)) ⊆ S7; decide

theorem hostOps_fresh : ∀ op ∈ (hostOps0 (F := F)), op.fresh = ∅ := by
  intro op hop
  simp only [hostOps0, List.mem_cons, List.not_mem_nil, or_false] at hop
  rcases hop with rfl | rfl | rfl | rfl | rfl <;> rfl

/-- After the five operations: the weights and the bias as they were, the two transposed column blocks and the bias row
    in their arrays. -/
theorem after_a2 (d : Dev nD) : after (hostOps0 (F := F)) (V0 m d) a2' = wt0 m d := by
  unfold hostOps0; after_results; rfl
theorem after_a3 (d : Dev nD) : after (hostOps0 (F := F)) (V0 m d) a3' = bs0 m d := by
  unfold hostOps0; after_results; rfl
theorem after_v1 (d : Dev nD) : after (hostOps0 (F := F)) (V0 m d) v1' = W1 m d := by
  unfold hostOps0; after_results; rfl
theorem after_v3 (d : Dev nD) : after (hostOps0 (F := F)) (V0 m d) v3' = W3 m d := by
  unfold hostOps0; after_results; rfl
theorem after_v4 (d : Dev nD) : after (hostOps0 (F := F)) (V0 m d) v4' = B4 m d := by
  unfold hostOps0; after_results; rfl

/-! ## @main on the TensorCore -/

omit [FloatOps F] in
/-- The per-node minimum's rows, by SparseCore. -/
theorem hm_cores (d : Dev nD) (f : Buf (Elt F) (hmLoc d)) :
    (hmLoc d ↦{fullShare} f : sProp 𝕄) = bigSep Finset.univ fun c : Fin 2 => hmLoc d ↦[coreSet c.val]{fullShare} f := by
  rw [← pointsTo_biUnion Finset.univ (ℓ := hmLoc d) (fun c : Fin 2 => coreSet c.val) core_disjoint, core_cover]; try rfl

theorem st0_eq (d : Dev nD) :
    (bigSep Finset.univ fun c : Fin ((K (F := F)).nCore 0) => (P m).st 0 d c)
      = iprop((bigSep Finset.univ fun c : Fin 2 => mbLoc d ↦{coreQ c.val} m (mbLoc d)) ∗ (hmLoc d ↦{fullShare} m (hmLoc d))) := by
  rw [hm_cores]
  exact bigSep_sep' (Finset.univ : Finset (Fin 2)) _ _
theorem dn0_eq (d : Dev nD) :
    (bigSep Finset.univ fun c : Fin ((K (F := F)).nCore 0) => (P m).dn 0 d c)
      = iprop((bigSep Finset.univ fun c : Fin 2 => mbLoc d ↦{coreQ c.val} m (mbLoc d)) ∗ (hmLoc d ↦{fullShare} HM (mb0 m d))) := by
  rw [hm_cores]
  exact bigSep_sep' (Finset.univ : Finset (Fin 2)) _ _

/-- What @main leaves the claim: the four arguments as launched, and the result array at what the pipeline writes. -/
def FIN (d : Dev nD) : sProp 𝕄 :=
  iprop((mbLoc d ↦{fullShare} m (mbLoc d)) ∗ (((SparseCore.T d).loc main_arg1) ↦{fullShare} nf0 m d) ∗ (((SparseCore.T d).loc main_arg2) ↦{fullShare} wt0 m d)
    ∗ (((SparseCore.T d).loc main_arg3) ↦{fullShare} bs0 m d)
    ∗ ∃ out : (⟨S10000x128, .f32⟩ : BufTy).Contents (Elt F), (outLoc d ↦{fullShare} out) ∗ ⌜LinSpec (HM (mb0 m d)) (nf0 m d) (W1 m d) (W3 m d) (B4 m d) out⌝)

set_option maxHeartbeats 1600000 in
/-- @main on device d's TensorCore: the host operations over the seven arrays they touch, the call from a read share of
    the mailbox per SparseCore and the result's rows by parity, the pipeline from what came back. -/
theorem hmain (κ : GSem nD τ sig → ℕ) (d : Dev nD) :
    iprop((K (F := F)).ctx EH (P m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq, main_eq]
  iintro ⟨#Hctx, Hst, ⟨Hb, ⟨Ha0, Ha1, Ha2, Ha3, Hv0, Hv1, Hv2, Hv3, Hv4, Hv5, Hv6⟩, -, -⟩, HG⟩
  ihave Hheld := (Entails.of_eq (held_S7 (F := F) d (V0 m d)).symm) $$ [Ha2 Ha3 Hv0 Hv1 Hv2 Hv3 Hv4]
  · isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    iexact Hv4
  iapply (StableHlo.wp_seq 𝒱 none Set.univ d S7 _ (hostOps0 (F := F)) hostOps_sub hostOps_fresh (V0 m d)) $$ [Hb Hheld]
  · isplitl [Hb]; · iexact Hb
    iexact Hheld
  iintro ⟨Hb, Hheld⟩
  ihave Hh := (Entails.of_eq (held_S7 (F := F) d _)) $$ Hheld
  rw [after_a2, after_a3, after_v1, after_v3, after_v4]
  icases Hh with ⟨Ha2, Ha3, Hv0, Hv1, Hv2, Hv3, Hv4⟩
  simp only [wp_bind, wp_pure]
  ihave Hmb := (Transfers.pointsTo_toks_split fullShare 2) $$ Ha0
  icases Hmb with ⟨Hrem, Hmbs⟩
  iapply ((K (F := F)).wp_run (D (F := F)) 𝒱 (EH := EH) (P := P m) κ d 0) $$ [Hst Hmbs Hv5 Hrem HG Hb Ha1 Ha2 Ha3 Hv0 Hv1 Hv2 Hv3 Hv4 Hv6]
  isplitr; · iexact Hctx
  isplitl [Hst]; · iexact Hst
  isplitl [Hmbs Hv5]
  · rw [st0_eq]
    isplitl [Hmbs]; · iexact Hmbs
    iexact Hv5
  iintro ⟨Hst, Hdn⟩
  ihave Hdn' := (Entails.of_eq (dn0_eq m d)) $$ Hdn
  icases Hdn' with ⟨Hmbs, Hhm⟩
  ihave Ha0 := (Transfers.pointsTo_toks_join fullShare 2) $$ [Hrem Hmbs]
  · isplitl [Hrem]; · iexact Hrem
    iexact Hmbs
  ihave Hwp := (region_wp (HM (mb0 m d)) (nf0 m d) (W1 m d) (W3 m d) (B4 m d) κ d (P m)) $$ [Hst HG Hb Hhm Ha1 Hv1 Hv3 Hv4 Hv6]
  · isplitr; · iexact Hctx
    isplitl [Hst]; · iexact Hst
    isplitl [HG]; · iexact HG
    isplitl [Hb]; · iexact Hb
    isplitl [Hhm]; · iexact Hhm
    isplitl [Ha1]; · iexact Ha1
    isplitl [Hv1]; · iexact Hv1
    isplitl [Hv3]; · iexact Hv3
    isplitl [Hv4]; · iexact Hv4
    iexists _; iexact Hv6
  iapply (wp_wand_r frame _ Set.univ)
  isplitl [Hwp]; · iexact Hwp
  iintro %_ ⟨Hst, Hb, Hhm, Ha1, Hv1, Hv3, Hv4, ⟨%out, Hout, %hspec⟩⟩
  imodintro
  isplitl [Hst]; · iexact Hst
  unfold FIN
  isplitl [Ha0]; · iexact Ha0
  isplitl [Ha1]; · iexact Ha1
  isplitl [Ha2]; · iexact Ha2
  isplitl [Ha3]; · iexact Ha3
  iexists out
  isplitl [Hout]; · iexact Hout
  ipureintro; exact hspec

/-! ## The final memory reads the claim -/

def fq (d : Dev nD) (s' : Phys nD τ sig (Elt F)) : Prop :=
  LinSpec (HM (mb0 m d)) (nf0 m d) (W1 m d) (W3 m d) (B4 m d) (s'.mem.mem (outLoc d))
  ∧ s'.mem.mem (mbLoc d) = m (mbLoc d) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)

theorem hfin (d : Dev nD) (s' : Phys nD τ sig (Elt F)) : iprop(FIN m d ∗ SI s') ⊢ (⌜fq m d s'⌝ : sProp 𝕄) := by
  unfold FIN
  iintro ⟨⟨H0, H1, H2, H3, ⟨%out, Hout, %hspec⟩⟩, HSI⟩
  ihave H := (persistent_entails_right (SI_pointsTo_agree (st := s') (ℓ := mbLoc d) (I := Finset.univ) (q := fullShare) (f := m (mbLoc d)))) $$ [HSI H0]
  · isplitl [HSI] <;> iassumption
  icases H with ⟨%h0, HSI, -⟩
  ihave H := (persistent_entails_right (SI_pointsTo_agree (st := s') (ℓ := ((SparseCore.T d).loc main_arg1)) (I := Finset.univ) (q := fullShare) (f := nf0 m d))) $$ [HSI H1]
  · isplitl [HSI] <;> iassumption
  icases H with ⟨%h1, HSI, -⟩
  ihave H := (persistent_entails_right (SI_pointsTo_agree (st := s') (ℓ := ((SparseCore.T d).loc main_arg2)) (I := Finset.univ) (q := fullShare) (f := wt0 m d))) $$ [HSI H2]
  · isplitl [HSI] <;> iassumption
  icases H with ⟨%h2, HSI, -⟩
  ihave H := (persistent_entails_right (SI_pointsTo_agree (st := s') (ℓ := ((SparseCore.T d).loc main_arg3)) (I := Finset.univ) (q := fullShare) (f := bs0 m d))) $$ [HSI H3]
  · isplitl [HSI] <;> iassumption
  icases H with ⟨%h3, HSI, -⟩
  ihave H := (SI_pointsTo_agree (st := s') (ℓ := outLoc d) (I := Finset.univ) (q := fullShare) (f := out)) $$ [HSI Hout]
  · isplitl [HSI] <;> iassumption
  icases H with %ho
  ipureintro
  have eo : s'.mem.mem (outLoc d) = out := funext fun i => ho i (Finset.mem_univ i)
  exact ⟨eo ▸ hspec, funext fun i => h0 i (Finset.mem_univ i), funext fun i => h1 i (Finset.mem_univ i),
    funext fun i => h2 i (Finset.mem_univ i), funext fun i => h3 i (Finset.mem_univ i)⟩

/-! ## The program's run -/

/-- At the end, on every device: the result array is what the pipeline writes from the per-node minimum of the mailbox as
    launched, the node features, the two transposed column blocks and the bias row; the four arguments are as launched. -/
def QC : PUnit × MemSt nD τ sig (Elt F) → Prop := fun r => ∀ c : Dev nD,
  LinSpec (HM (mb0 m c)) (nf0 m c) (W1 m c) (W3 m c) (B4 m c) (r.2.mem (outLoc c))
  ∧ r.2.mem (mbLoc c) = m (mbLoc c) ∧ r.2.mem ((SparseCore.T c).loc main_arg1) = m ((SparseCore.T c).loc main_arg1)
  ∧ r.2.mem ((SparseCore.T c).loc main_arg2) = m ((SparseCore.T c).loc main_arg2) ∧ r.2.mem ((SparseCore.T c).loc main_arg3) = m ((SparseCore.T c).loc main_arg3)

/-- Every weakly fair execution of the device's threads terminates, with the result array and the arguments as QC says,
    given the tile's task. -/
theorem run_main [∀ e, Nonempty (Elt F e)] (htile : TileStmt m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htile facts)
    (fun q _ => match q with | 0 => SparseCore.Cfg.VecSplit.of_plain (vecSplit m))
    m ρ main (fun d => GP (F := F) d) (FIN m) (u₀ (F := F)) (sep_elim_left.trans (hu₀ m)) (hmain m ρ) (fq m) (hfin m) (QC m) (fun _ h => h)

end Cert.Proof.KB

end
-- ==== Proof.Assembly.lean ====
/-
  The five conjuncts of the claim. The bit-level program and the same program at the ideal values each run and leave
  their arguments as they were: the launch's run, its value dropped. The reference does, by its run. No operation was
  rewritten between the two readings. At the ideal values the two programs end with one result: the pipeline's result
  array is the sum over the per-node minimum's row times the first weight block plus the node features' row times the
  second plus the bias, the per-node minimum is the infimum over the neighbours, and the reference's sum over the
  joined columns splits into exactly those two.
-/
import proofs.«211044_g9509057593726_fold_wed_m_382_5_alg».proof.Defs
import proofs.«211044_g9509057593726_fold_wed_m_382_5_alg».proof.Proof.Gen.Kernel
import proofs.«211044_g9509057593726_fold_wed_m_382_5_alg».proof.Proof.Gen.KernelIdeal
import proofs.«211044_g9509057593726_fold_wed_m_382_5_alg».proof.Proof.Gen.ReferenceIdeal
import proofs.«211044_g9509057593726_fold_wed_m_382_5_alg».proof.Proof.Gen.ReferenceIdeal.Run
import proofs.«211044_g9509057593726_fold_wed_m_382_5_alg».proof.Proof.Gen.Pre_finite_inputs
import proofs.«211044_g9509057593726_fold_wed_m_382_5_alg».proof.Proof.Bridge
import proofs.«211044_g9509057593726_fold_wed_m_382_5_alg».proof.Proof.KI.RegionValue
import proofs.«211044_g9509057593726_fold_wed_m_382_5_alg».proof.Proof.KI.ChainIdeal
import proofs.«211044_g9509057593726_fold_wed_m_382_5_alg».proof.Proof.KI.Tile
import proofs.«211044_g9509057593726_fold_wed_m_382_5_alg».proof.Proof.KI.Launch
import proofs.«211044_g9509057593726_fold_wed_m_382_5_alg».proof.Proof.KB.Tile
import proofs.«211044_g9509057593726_fold_wed_m_382_5_alg».proof.Proof.KB.Launch
import Idealize.ShloMosaic.Adequacy
import Idealize.ShloMosaic.Init

noncomputable section

namespace Cert.Proof

open Idealize.ShloMosaic Idealize.ShloMosaic.TcCoe Idealize.ShloMosaic.ValueIdx Idealize.SL.Sem

/-- The bit-level program runs and leaves its arguments as they were. -/
theorem frame_p : Cert.frame_Kernel := fun m g _ =>
  (θ_run (Cert.Kernel.defs (F := Bits)) _ _).mono (fun _ h c => ⟨(h c).2.1, (h c).2.2.1, (h c).2.2.2.1, (h c).2.2.2.2⟩)
    (Cert.Proof.KB.run_main (F := Bits) m g (Cert.Proof.KB.tile_body m))

/-- The same program at the ideal values runs and leaves its arguments as they were. -/
theorem frame_pi : Cert.frame_KernelIdeal := fun m g _ =>
  (θ_run (Cert.KernelIdeal.defs (F := Ideal)) _ _).mono (fun _ h c => ⟨(h c).2.1, (h c).2.2.1, (h c).2.2.2.1, (h c).2.2.2.2⟩)
    (Cert.Proof.KI.run_main (F := Ideal) m g (Cert.Proof.KI.tile_body m))

/-- The reference runs and leaves its arguments as they were. -/
theorem frame_ri : Cert.frame_ReferenceIdeal := fun m g _ =>
  (θ_run (Cert.ReferenceIdeal.defs (F := Ideal)) _ _).mono (fun _ h c => (h c).2) (Cert.ReferenceIdeal.Value.run (F := Ideal) m g)

/-- No operation was rewritten between the two readings of the program. -/
theorem preserves : Cert.preserves_Kernel_KernelIdeal := trivial

/-! ## The two programs compute one function at the ideal values -/

section Algebraic

open Cert.KernelIdeal Cert.Proof.KI

variable (m : (ℓ : Loc Cert.KernelIdeal.nD Cert.KernelIdeal.τ Cert.KernelIdeal.sig) → Buf (Elt Ideal) ℓ)

/-- The four argument arrays as launched, typed. -/
abbrev A0 (c : Dev Cert.KernelIdeal.nD) : (⟨S10000x32x128, .f32⟩ : BufTy).Contents (Elt Ideal) := m ((c.tc : Thread Cert.KernelIdeal.nD Cert.KernelIdeal.τ).loc Cert.KernelIdeal.main_arg0)
abbrev A1 (c : Dev Cert.KernelIdeal.nD) : (⟨S10000x128, .f32⟩ : BufTy).Contents (Elt Ideal) := m ((c.tc : Thread Cert.KernelIdeal.nD Cert.KernelIdeal.τ).loc Cert.KernelIdeal.main_arg1)
abbrev A2 (c : Dev Cert.KernelIdeal.nD) : (⟨S128x256, .f32⟩ : BufTy).Contents (Elt Ideal) := m ((c.tc : Thread Cert.KernelIdeal.nD Cert.KernelIdeal.τ).loc Cert.KernelIdeal.main_arg2)
abbrev A3 (c : Dev Cert.KernelIdeal.nD) : (⟨S128, .f32⟩ : BufTy).Contents (Elt Ideal) := m ((c.tc : Thread Cert.KernelIdeal.nD Cert.KernelIdeal.τ).loc Cert.KernelIdeal.main_arg3)

/-- What the pipeline leaves in the result array is the reference's last stage at the launch arguments: the
    per-node minimum is the infimum over the neighbours, the two weight blocks are the transposed column blocks of
    the weight matrix, the bias row is the bias, and the sum over the 256 joined columns splits at 128. -/
theorem kernel_val (c : Dev Cert.KernelIdeal.nD) (out : (⟨S10000x128, .f32⟩ : BufTy).Contents (Elt Ideal))
    (h : LinSpec (F := Ideal) (HM (mb0 m c)) (nf0 m c) (W1 m c) (W3 m c) (B4 m c) out) :
    out = Cert.ReferenceIdeal.Read.val_main_v6 (F := Ideal) (A0 m c) (A1 m c) (A2 m c) (A3 m c) :=
  (Cert.Bridge.ref_val_eq (A0 m c) (A1 m c) (A2 m c) (A3 m c) (HM (F := Ideal) (A0 m c)) out
    (fun n k => HM_ideal (A0 m c) n k)
    (fun n o => by
      rw [linSpec_apply _ _ _ _ _ h n o]
      unfold W1 W3 B4
      refine congrArg₂ (· + ·) (congrArg₂ (· + ·) (Finset.sum_congr rfl fun k _ => ?_) (Finset.sum_congr rfl fun k _ => ?_)) ?_
      · exact congrArg (HM (F := Ideal) (A0 m c) (ix2 n k) * ·) (Cert.Bridge.sliceT_lo_apply (A2 m c) _ _ k o)
      · exact congrArg (A1 m c (ix2 n k) * ·) (Cert.Bridge.sliceT_hi_apply (A2 m c) _ _ k o)
      · exact Cert.Bridge.biasRow_apply (A3 m c) _ o)).symm

/-- From memories agreeing on the arguments both programs run, leave their arguments as they were, and end with the
    same result: the reference's last stage at the arguments. -/
theorem algebraic : Cert.algebraic_KernelIdeal_ReferenceIdeal := fun m g m' g' _ hag =>
  ⟨fun c => Cert.ReferenceIdeal.Read.val_main_v6 (F := Ideal) (A0 m c) (A1 m c) (A2 m c) (A3 m c),
    (θ_run (Cert.KernelIdeal.defs (F := Ideal)) _ _).mono
      (fun r h c => ⟨kernel_val m c _ (h c).1, (h c).2.1, (h c).2.2.1, (h c).2.2.2.1, (h c).2.2.2.2⟩)
      (Cert.Proof.KI.run_main (F := Ideal) m g (Cert.Proof.KI.tile_body m)),
    (θ_run (Cert.ReferenceIdeal.defs (F := Ideal)) _ _).mono
      (fun r h c => ⟨(h c).1.trans (by
          obtain ⟨h0, h1, h2, h3⟩ := hag c
          rw [h0, h1, h2, h3]
          exact Cert.ReferenceIdeal.Read.val_main_v6_eq (F := Ideal) (A0 m c) (A1 m c) (A2 m c) (A3 m c)), (h c).2⟩)
      (Cert.ReferenceIdeal.Value.run (F := Ideal) m' g')⟩

end Algebraic

end Cert.Proof

end
-- ==== Proof.lean ====
/-
  The claim: the bit-level program, the same program at the ideal values and the reference each run and leave their
  arguments as they were, and at the ideal values the program and the reference end with equal results.
-/
import proofs.«211044_g9509057593726_fold_wed_m_382_5_alg».proof.Defs
import proofs.«211044_g9509057593726_fold_wed_m_382_5_alg».proof.Proof.Assembly

noncomputable section

namespace Cert.Proof

/-- Everything claimed, under the programs' stated facts. -/
theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
